-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v141)) (v1 : (c : Dev Cert.KernelIdeal.nD) → Buf (Elt Ideal) ((c.tc : Thread Cert.KernelIdeal.nD Cert.KernelIdeal.τ).loc Cert.KernelIdeal.main_v14)) (v2 : (c : Dev Cert.KernelIdeal.nD) → Buf (Elt Ideal) ((c.tc : Thread Cert.KernelIdeal.nD Cert.KernelIdeal.τ).loc Cert.KernelIdeal.main_v134)) (v3 : (c : Dev Cert.KernelIdeal.nD) → Buf (Elt Ideal) ((c.tc : Thread Cert.KernelIdeal.nD Cert.KernelIdeal.τ).loc Cert.KernelIdeal.main_v136)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v141) = v0 c
          ∧ r.2.mem ((c.tc : Thread Cert.KernelIdeal.nD Cert.KernelIdeal.τ).loc Cert.KernelIdeal.main_v14) = v1 c
          ∧ r.2.mem ((c.tc : Thread Cert.KernelIdeal.nD Cert.KernelIdeal.τ).loc Cert.KernelIdeal.main_v134) = v2 c
          ∧ r.2.mem ((c.tc : Thread Cert.KernelIdeal.nD Cert.KernelIdeal.τ).loc Cert.KernelIdeal.main_v136) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v248) = v0 c
          ∧ r.2.mem ((c.tc : Thread Cert.ReferenceIdeal.nD Cert.ReferenceIdeal.τ).loc Cert.ReferenceIdeal.main_v29) = v1 c
          ∧ r.2.mem ((c.tc : Thread Cert.ReferenceIdeal.nD Cert.ReferenceIdeal.τ).loc Cert.ReferenceIdeal.main_v225) = v2 c
          ∧ r.2.mem ((c.tc : Thread Cert.ReferenceIdeal.nD Cert.ReferenceIdeal.τ).loc Cert.ReferenceIdeal.main_v243) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x1x320x320 : Shape := ⟨4, ![64, 1, 320, 320]⟩
abbrev S64x4x320x320 : Shape := ⟨4, ![64, 4, 320, 320]⟩
abbrev S64x32x5 : Shape := ⟨3, ![64, 32, 5]⟩
abbrev S_ : Shape := ⟨0, ![]⟩

class Facts : Prop where
  bcast_S_S64x1x320x320 : S_.BroadcastsInDim S64x1x320x320 (![] : Fin 0 → Fin S64x1x320x320.rank)
  reducesTo_S64x1x320x320_S_d0_1_2_3 : S64x1x320x320.ReducesTo [0, 1, 2, 3] S_
  h_S_ : 0 < S_.numel
  bcast_S_S64x4x320x320 : S_.BroadcastsInDim S64x4x320x320 (![] : Fin 0 → Fin S64x4x320x320.rank)
  reducesTo_S64x4x320x320_S_d0_1_2_3 : S64x4x320x320.ReducesTo [0, 1, 2, 3] S_
  bcast_S_S64x32x5 : S_.BroadcastsInDim S64x32x5 (![] : Fin 0 → Fin S64x32x5.rank)
  reducesTo_S64x32x5_S_d0_1_2 : S64x32x5.ReducesTo [0, 1, 2] S_

variable [Facts]

def fn_part1 {F : FTy → Type} [FloatOps F] (main_arg4 : FVec F S64x32x5 .f32) (main_v13 : IVec S_ 1) (main_v16 : IVec S64x1x320x320 1) : IVec S_ 1 :=
  let main_c_5 : IVec S_ 1 := constantI S_ 1 1#1
  let main_v17 : IVec S_ 1 := (fun x v => Host.reduce IntOp.andi x v reducesTo_S64x1x320x320_S_d0_1_2_3 h_S_) main_v16 main_c_5
  let main_v18 : IVec S_ 1 := andi main_v13 main_v17
  let main_v19 : FVec F S64x32x5 .f32 := Host.absf main_arg4
  let main_cst_6 : FVec F S_ .f32 := constant S_ .f32 0x7F800000#32
  let main_v20 : FVec F S64x32x5 .f32 := broadcastInDim S64x32x5 ![] bcast_S_S64x32x5 main_cst_6
  let main_v21 : IVec S64x32x5 1 := cmpf .olt main_v19 main_v20
  let main_c_7 : IVec S_ 1 := constantI S_ 1 1#1
  let main_v22 : IVec S_ 1 := (fun x v => Host.reduce IntOp.andi x v reducesTo_S64x32x5_S_d0_1_2 h_S_) main_v21 main_c_7
  let main_v23 : IVec S_ 1 := andi main_v18 main_v22
  main_v23

def fn {F : FTy → Type} [FloatOps F] (main_arg0 : FVec F S64x1x320x320 .f32) (main_arg1 : FVec F S64x1x320x320 .f32) (main_arg2 : FVec F S64x4x320x320 .f32) (main_arg3 : FVec F S64x1x320x320 .f32) (main_arg4 : FVec F S64x32x5 .f32) : IVec S_ 1 :=
  let main_v0 : FVec F S64x1x320x320 .f32 := Host.absf main_arg0
  let main_cst : FVec F S_ .f32 := constant S_ .f32 0x7F800000#32
  let main_v1 : FVec F S64x1x320x320 .f32 := broadcastInDim S64x1x320x320 ![] bcast_S_S64x1x320x320 main_cst
  let main_v2 : IVec S64x1x320x320 1 := cmpf .olt main_v0 main_v1
  let main_c : IVec S_ 1 := constantI S_ 1 1#1
  let main_v3 : IVec S_ 1 := (fun x v => Host.reduce IntOp.andi x v reducesTo_S64x1x320x320_S_d0_1_2_3 h_S_) main_v2 main_c
  let main_v4 : FVec F S64x1x320x320 .f32 := Host.absf main_arg1
  let main_cst_0 : FVec F S_ .f32 := constant S_ .f32 0x7F800000#32
  let main_v5 : FVec F S64x1x320x320 .f32 := broadcastInDim S64x1x320x320 ![] bcast_S_S64x1x320x320 main_cst_0
  let main_v6 : IVec S64x1x320x320 1 := cmpf .olt main_v4 main_v5
  let main_c_1 : IVec S_ 1 := constantI S_ 1 1#1
  let main_v7 : IVec S_ 1 := (fun x v => Host.reduce IntOp.andi x v reducesTo_S64x1x320x320_S_d0_1_2_3 h_S_) main_v6 main_c_1
  let main_v8 : IVec S_ 1 := andi main_v3 main_v7
  let main_v9 : FVec F S64x4x320x320 .f32 := Host.absf main_arg2
  let main_cst_2 : FVec F S_ .f32 := constant S_ .f32 0x7F800000#32
  let main_v10 : FVec F S64x4x320x320 .f32 := broadcastInDim S64x4x320x320 ![] bcast_S_S64x4x320x320 main_cst_2
  let main_v11 : IVec S64x4x320x320 1 := cmpf .olt main_v9 main_v10
  let main_c_3 : IVec S_ 1 := constantI S_ 1 1#1
  let main_v12 : IVec S_ 1 := (fun x v => Host.reduce IntOp.andi x v reducesTo_S64x4x320x320_S_d0_1_2_3 h_S_) main_v11 main_c_3
  let main_v13 : IVec S_ 1 := andi main_v8 main_v12
  let main_v14 : FVec F S64x1x320x320 .f32 := Host.absf main_arg3
  let main_cst_4 : FVec F S_ .f32 := constant S_ .f32 0x7F800000#32
  let main_v15 : FVec F S64x1x320x320 .f32 := broadcastInDim S64x1x320x320 ![] bcast_S_S64x1x320x320 main_cst_4
  let main_v16 : IVec S64x1x320x320 1 := cmpf .olt main_v14 main_v15
  fn_part1 (F := F) main_arg4 main_v13 main_v16
-- ==== Kernel.lean ====
abbrev S64x1x320x320 : Shape := ⟨4, ![64, 1, 320, 320]⟩
abbrev S64x4x320x320 : Shape := ⟨4, ![64, 4, 320, 320]⟩
abbrev S64x32x5 : Shape := ⟨3, ![64, 32, 5]⟩
abbrev S1x1 : Shape := ⟨2, ![1, 1]⟩
abbrev S8x1x320x320 : Shape := ⟨4, ![8, 1, 320, 320]⟩
abbrev S8x1x320 : Shape := ⟨3, ![8, 1, 320]⟩
abbrev S8x1x320x1 : Shape := ⟨4, ![8, 1, 320, 1]⟩
abbrev S8x1x1 : Shape := ⟨3, ![8, 1, 1]⟩
abbrev S8x1x1x1 : Shape := ⟨4, ![8, 1, 1, 1]⟩
abbrev S1x1x1 : Shape := ⟨3, ![1, 1, 1]⟩
abbrev S1x1x1x1 : Shape := ⟨4, ![1, 1, 1, 1]⟩
abbrev S_ : Shape := ⟨0, ![]⟩
abbrev S64x32x1 : Shape := ⟨3, ![64, 32, 1]⟩
abbrev S64x32 : Shape := ⟨2, ![64, 32]⟩
abbrev S64x160 : Shape := ⟨2, ![64, 160]⟩
abbrev S64x4x102400 : Shape := ⟨3, ![64, 4, 102400]⟩
abbrev S64x1x160 : Shape := ⟨3, ![64, 1, 160]⟩
abbrev S64x4x160 : Shape := ⟨3, ![64, 4, 160]⟩
abbrev S64x4x160x1 : Shape := ⟨4, ![64, 4, 160, 1]⟩
abbrev S1 : Shape := ⟨1, ![1]⟩
abbrev S64x160x4 : Shape := ⟨3, ![64, 160, 4]⟩
abbrev S64x102400 : Shape := ⟨2, ![64, 102400]⟩
abbrev S64x160x1 : Shape := ⟨3, ![64, 160, 1]⟩
abbrev S64x32x4 : Shape := ⟨3, ![64, 32, 4]⟩
abbrev S64x32x1x4 : Shape := ⟨4, ![64, 32, 1, 4]⟩
abbrev S64x32x5x4 : Shape := ⟨4, ![64, 32, 5, 4]⟩
abbrev S64 : Shape := ⟨1, ![64]⟩
abbrev S64x1 : Shape := ⟨2, ![64, 1]⟩

abbrev nBuf : Space → Nat
  | .hbm => 291
  | .vmem => 26
  | .smem => 0
  | _ => 0

abbrev hbmTy0_0 (i : Nat) : BufTy := match i % 128 with
  | 0 => ⟨S64x1x320x320, .f32⟩
  | 1 => ⟨S64x1x320x320, .f32⟩
  | 2 => ⟨S64x4x320x320, .f32⟩
  | 3 => ⟨S64x1x320x320, .f32⟩
  | 4 => ⟨S64x32x5, .f32⟩
  | 5 => ⟨S1x1, .f32⟩
  | 6 => ⟨S1x1, .f32⟩
  | 7 => ⟨S1x1, .f32⟩
  | 8 => ⟨S1x1, .f32⟩
  | 9 => ⟨S_, .f32⟩
  | 10 => ⟨S_, .f32⟩
  | 11 => ⟨S_, .f32⟩
  | 12 => ⟨S_, .f32⟩
  | 13 => ⟨S_, .f32⟩
  | 14 => ⟨S_, .f32⟩
  | 15 => ⟨S_, .f32⟩
  | 16 => ⟨S_, .f32⟩
  | 17 => ⟨S_, .f32⟩
  | 18 => ⟨S_, .f32⟩
  | 19 => ⟨S_, .f32⟩
  | 20 => ⟨S_, .f32⟩
  | 21 => ⟨S_, .f32⟩
  | 22 => ⟨S_, .f32⟩
  | 23 => ⟨S_, .f32⟩
  | 24 => ⟨S_, .f32⟩
  | 25 => ⟨S_, .f32⟩
  | 26 => ⟨S_, .f32⟩
  | 27 => ⟨S_, .f32⟩
  | 28 => ⟨S_, .f32⟩
  | 29 => ⟨S_, .f32⟩
  | 30 => ⟨S64x32x1, .f32⟩
  | 31 => ⟨S64x32, .f32⟩
  | 32 => ⟨S64x32x1, .f32⟩
  | 33 => ⟨S64x32, .f32⟩
  | 34 => ⟨S_, .f32⟩
  | 35 => ⟨S64x32, .f32⟩
  | 36 => ⟨S64x32, .f32⟩
  | 37 => ⟨S_, .f32⟩
  | 38 => ⟨S_, .f32⟩
  | 39 => ⟨S_, .f32⟩
  | 40 => ⟨S64x32, .f32⟩
  | 41 => ⟨S64x32, .f32⟩
  | 42 => ⟨S_, .f32⟩
  | 43 => ⟨S64x32, .f32⟩
  | 44 => ⟨S64x32, .f32⟩
  | 45 => ⟨S64x32x1, .f32⟩
  | 46 => ⟨S64x32, .f32⟩
  | 47 => ⟨S_, .f32⟩
  | 48 => ⟨S64x32, .f32⟩
  | 49 => ⟨S64x32, .f32⟩
  | 50 => ⟨S_, .f32⟩
  | 51 => ⟨S_, .f32⟩
  | 52 => ⟨S_, .f32⟩
  | 53 => ⟨S64x32, .f32⟩
  | 54 => ⟨S64x32, .f32⟩
  | 55 => ⟨S_, .f32⟩
  | 56 => ⟨S64x32, .f32⟩
  | 57 => ⟨S64x32, .f32⟩
  | 58 => ⟨S_, .f32⟩
  | 59 => ⟨S64x32, .f32⟩
  | 60 => ⟨S64x32, .f32⟩
  | 61 => ⟨S64x32x1, .f32⟩
  | 62 => ⟨S64x32, .f32⟩
  | 63 => ⟨S_, .f32⟩
  | 64 => ⟨S64x32, .f32⟩
  | 65 => ⟨S64x32, .f32⟩
  | 66 => ⟨S_, .f32⟩
  | 67 => ⟨S64x32, .f32⟩
  | 68 => ⟨S64x32, .f32⟩
  | 69 => ⟨S64x32, .f32⟩
  | 70 => ⟨S_, .f32⟩
  | 71 => ⟨S64x32, .f32⟩
  | 72 => ⟨S64x32, .f32⟩
  | 73 => ⟨S64x32x1, .f32⟩
  | 74 => ⟨S64x32, .f32⟩
  | 75 => ⟨S_, .f32⟩
  | 76 => ⟨S64x32, .f32⟩
  | 77 => ⟨S64x32, .f32⟩
  | 78 => ⟨S_, .f32⟩
  | 79 => ⟨S64x32, .f32⟩
  | 80 => ⟨S64x32, .f32⟩
  | 81 => ⟨S64x32, .f32⟩
  | 82 => ⟨S_, .f32⟩
  | 83 => ⟨S64x32, .f32⟩
  | 84 => ⟨S64x32, .f32⟩
  | 85 => ⟨S64x32, .i32⟩
  | 86 => ⟨S_, .i32⟩
  | 87 => ⟨S_, .i32⟩
  | 88 => ⟨S_, .i32⟩
  | 89 => ⟨S64x32, .i32⟩
  | 90 => ⟨S64x32, .i32⟩
  | 91 => ⟨S_, .i32⟩
  | 92 => ⟨S64x32, .i32⟩
  | 93 => ⟨S64x32, .i32⟩
  | 94 => ⟨S_, .f32⟩
  | 95 => ⟨S64x32, .f32⟩
  | 96 => ⟨S64x32, .f32⟩
  | 97 => ⟨S64x32, .i32⟩
  | 98 => ⟨S_, .i32⟩
  | 99 => ⟨S_, .i32⟩
  | 100 => ⟨S_, .i32⟩
  | 101 => ⟨S64x32, .i32⟩
  | 102 => ⟨S64x32, .i32⟩
  | 103 => ⟨S_, .i32⟩
  | 104 => ⟨S64x32, .i32⟩
  | 105 => ⟨S64x32, .i32⟩
  | 106 => ⟨S_, .i32⟩
  | 107 => ⟨S64x32, .i32⟩
  | 108 => ⟨S64x32, .i32⟩
  | 109 => ⟨S_, .f32⟩
  | 110 => ⟨S64x32, .f32⟩
  | 111 => ⟨S64x32, .f32⟩
  | 112 => ⟨S64x32, .i32⟩
  | 113 => ⟨S_, .i32⟩
  | 114 => ⟨S64x32, .i32⟩
  | 115 => ⟨S64x32, .i32⟩
  | 116 => ⟨S64x32, .i32⟩
  | 117 => ⟨S_, .i32⟩
  | 118 => ⟨S64x32, .i32⟩
  | 119 => ⟨S64x32, .i32⟩
  | 120 => ⟨S_, .f32⟩
  | 121 => ⟨S64x32, .f32⟩
  | 122 => ⟨S64x32, .f32⟩
  | 123 => ⟨S64x32, .i32⟩
  | 124 => ⟨S_, .i32⟩
  | 125 => ⟨S64x32, .i32⟩
  | 126 => ⟨S64x32, .i32⟩
  | 127 => ⟨S64x32, .i32⟩
  | _ => ⟨S64x1x320x320, .f32⟩

abbrev hbmTy0_1 (i : Nat) : BufTy := match i % 128 with
  | 0 => ⟨S64x32, .i32⟩
  | 1 => ⟨S_, .i32⟩
  | 2 => ⟨S_, .i32⟩
  | 3 => ⟨S64x32, .i32⟩
  | 4 => ⟨S64x32, .i32⟩
  | 5 => ⟨S64x32, .i32⟩
  | 6 => ⟨S_, .i32⟩
  | 7 => ⟨S64x32, .i32⟩
  | 8 => ⟨S64x32, .i1⟩
  | 9 => ⟨S64x32, .i32⟩
  | 10 => ⟨S64x32, .i32⟩
  | 11 => ⟨S_, .i32⟩
  | 12 => ⟨S64x32, .i32⟩
  | 13 => ⟨S64x32, .i1⟩
  | 14 => ⟨S64x32, .i1⟩
  | 15 => ⟨S_, .i32⟩
  | 16 => ⟨S64x32, .i32⟩
  | 17 => ⟨S64x32, .i32⟩
  | 18 => ⟨S64x32, .i32⟩
  | 19 => ⟨S64x32, .i32⟩
  | 20 => ⟨S_, .i32⟩
  | 21 => ⟨S_, .i32⟩
  | 22 => ⟨S64x32, .i32⟩
  | 23 => ⟨S64x32, .i32⟩
  | 24 => ⟨S64x32, .i32⟩
  | 25 => ⟨S_, .i32⟩
  | 26 => ⟨S64x32, .i32⟩
  | 27 => ⟨S64x32, .i1⟩
  | 28 => ⟨S64x32, .i32⟩
  | 29 => ⟨S64x32, .i32⟩
  | 30 => ⟨S_, .i32⟩
  | 31 => ⟨S64x32, .i32⟩
  | 32 => ⟨S64x32, .i1⟩
  | 33 => ⟨S64x32, .i1⟩
  | 34 => ⟨S_, .i32⟩
  | 35 => ⟨S64x32, .i32⟩
  | 36 => ⟨S64x32, .i32⟩
  | 37 => ⟨S64x32, .i32⟩
  | 38 => ⟨S64x32x1, .i32⟩
  | 39 => ⟨S64x32x1, .i32⟩
  | 40 => ⟨S64x32x1, .i32⟩
  | 41 => ⟨S64x32x1, .i32⟩
  | 42 => ⟨S64x32x1, .i32⟩
  | 43 => ⟨S64x32x5, .i32⟩
  | 44 => ⟨S64x32x1, .i32⟩
  | 45 => ⟨S64x32x1, .i32⟩
  | 46 => ⟨S64x32x1, .i32⟩
  | 47 => ⟨S64x32x1, .i32⟩
  | 48 => ⟨S64x32x1, .i32⟩
  | 49 => ⟨S64x32x5, .i32⟩
  | 50 => ⟨S_, .i32⟩
  | 51 => ⟨S64x32x5, .i32⟩
  | 52 => ⟨S64x32x5, .i32⟩
  | 53 => ⟨S64x32x5, .i32⟩
  | 54 => ⟨S64x160, .i32⟩
  | 55 => ⟨S64x4x102400, .f32⟩
  | 56 => ⟨S64x1x160, .i32⟩
  | 57 => ⟨S64x4x160, .i32⟩
  | 58 => ⟨S_, .i32⟩
  | 59 => ⟨S64x4x160, .i32⟩
  | 60 => ⟨S64x4x160, .i1⟩
  | 61 => ⟨S_, .i32⟩
  | 62 => ⟨S64x4x160, .i32⟩
  | 63 => ⟨S64x4x160, .i32⟩
  | 64 => ⟨S64x4x160, .i32⟩
  | 65 => ⟨S64x4x160x1, .i32⟩
  | 66 => ⟨S1, .i32⟩
  | 67 => ⟨S_, .i32⟩
  | 68 => ⟨S64x4x160x1, .i32⟩
  | 69 => ⟨S64x4x160x1, .i1⟩
  | 70 => ⟨S1x1x1x1, .i32⟩
  | 71 => ⟨S64x4x160x1, .i32⟩
  | 72 => ⟨S64x4x160x1, .i1⟩
  | 73 => ⟨S64x4x160x1, .i1⟩
  | 74 => ⟨S_, .i1⟩
  | 75 => ⟨S64x4x160, .i1⟩
  | 76 => ⟨S64x4x160, .f32⟩
  | 77 => ⟨S_, .f32⟩
  | 78 => ⟨S64x4x160, .f32⟩
  | 79 => ⟨S64x4x160, .f32⟩
  | 80 => ⟨S64x160x4, .f32⟩
  | 81 => ⟨S64x102400, .f32⟩
  | 82 => ⟨S_, .i32⟩
  | 83 => ⟨S64x160, .i32⟩
  | 84 => ⟨S64x160, .i1⟩
  | 85 => ⟨S_, .i32⟩
  | 86 => ⟨S64x160, .i32⟩
  | 87 => ⟨S64x160, .i32⟩
  | 88 => ⟨S64x160, .i32⟩
  | 89 => ⟨S64x160x1, .i32⟩
  | 90 => ⟨S1, .i32⟩
  | 91 => ⟨S_, .i32⟩
  | 92 => ⟨S64x160x1, .i32⟩
  | 93 => ⟨S64x160x1, .i1⟩
  | 94 => ⟨S1x1x1, .i32⟩
  | 95 => ⟨S64x160x1, .i32⟩
  | 96 => ⟨S64x160x1, .i1⟩
  | 97 => ⟨S64x160x1, .i1⟩
  | 98 => ⟨S_, .i1⟩
  | 99 => ⟨S64x160, .i1⟩
  | 100 => ⟨S64x160, .f32⟩
  | 101 => ⟨S_, .f32⟩
  | 102 => ⟨S64x160, .f32⟩
  | 103 => ⟨S64x160, .f32⟩
  | 104 => ⟨S64x32x1, .f32⟩
  | 105 => ⟨S64x32x1, .f32⟩
  | 106 => ⟨S64x32x1, .f32⟩
  | 107 => ⟨S64x32x1, .f32⟩
  | 108 => ⟨S64x32x4, .f32⟩
  | 109 => ⟨S64x32x1x4, .f32⟩
  | 110 => ⟨S64x32x5x4, .f32⟩
  | 111 => ⟨S64x160x4, .f32⟩
  | 112 => ⟨S64x32x1, .f32⟩
  | 113 => ⟨S64x32x5, .f32⟩
  | 114 => ⟨S64x160, .f32⟩
  | 115 => ⟨S64x160x1, .f32⟩
  | 116 => ⟨S64x160, .f32⟩
  | 117 => ⟨S64x160x1, .f32⟩
  | 118 => ⟨S64x160, .f32⟩
  | 119 => ⟨S64x160x1, .f32⟩
  | 120 => ⟨S64x160, .f32⟩
  | 121 => ⟨S64x160x1, .f32⟩
  | 122 => ⟨S64x160, .f32⟩
  | 123 => ⟨S64x160x1, .f32⟩
  | 124 => ⟨S64x160, .f32⟩
  | 125 => ⟨S64x160x1, .f32⟩
  | 126 => ⟨S64x160, .f32⟩
  | 127 => ⟨S64x160x1, .f32⟩
  | _ => ⟨S64x1x320x320, .f32⟩

abbrev hbmTy0_2 (i : Nat) : BufTy := match i % 128 with
  | 0 => ⟨S64x160, .f32⟩
  | 1 => ⟨S64x160x1, .f32⟩
  | 2 => ⟨S64x160, .f32⟩
  | 3 => ⟨S1x1, .f32⟩
  | 4 => ⟨S1x1, .f32⟩
  | 5 => ⟨S1x1, .f32⟩
  | 6 => ⟨S1x1, .f32⟩
  | 7 => ⟨S_, .f32⟩
  | 8 => ⟨S_, .f32⟩
  | 9 => ⟨S_, .f32⟩
  | 10 => ⟨S_, .f32⟩
  | 11 => ⟨S_, .f32⟩
  | 12 => ⟨S_, .f32⟩
  | 13 => ⟨S_, .f32⟩
  | 14 => ⟨S_, .f32⟩
  | 15 => ⟨S_, .f32⟩
  | 16 => ⟨S_, .f32⟩
  | 17 => ⟨S_, .f32⟩
  | 18 => ⟨S_, .f32⟩
  | 19 => ⟨S_, .f32⟩
  | 20 => ⟨S_, .f32⟩
  | 21 => ⟨S_, .f32⟩
  | 22 => ⟨S_, .f32⟩
  | 23 => ⟨S_, .f32⟩
  | 24 => ⟨S_, .f32⟩
  | 25 => ⟨S_, .f32⟩
  | 26 => ⟨S_, .f32⟩
  | 27 => ⟨S_, .f32⟩
  | 28 => ⟨S_, .f32⟩
  | 29 => ⟨S_, .f32⟩
  | 30 => ⟨S_, .f32⟩
  | 31 => ⟨S_, .f32⟩
  | 32 => ⟨S_, .f32⟩
  | 33 => ⟨S_, .f32⟩
  | 34 => ⟨S_, .f32⟩
  | _ => ⟨S64x1x320x320, .f32⟩

abbrev hbmTy (i : Nat) : BufTy := match i / 128 with
  | 0 => hbmTy0_0 i
  | 1 => hbmTy0_1 i
  | 2 => hbmTy0_2 i
  | _ => ⟨S64x1x320x320, .f32⟩

abbrev bufTy : (tb : Table) → Fin (tcTables nBuf tb) → BufTy
  | .hbm, ⟨i, _⟩ => hbmTy i
  | .local _ .vmem, ⟨0, _⟩ => ⟨S8x1x320x320, .f32⟩
  | .local _ .vmem, ⟨1, _⟩ => ⟨S8x1x320x320, .f32⟩
  | .local _ .vmem, ⟨2, _⟩ => ⟨S8x1x320x320, .f32⟩
  | .local _ .vmem, ⟨3, _⟩ => ⟨S8x1x320x320, .f32⟩
  | .local _ .vmem, ⟨4, _⟩ => ⟨S1x1, .f32⟩
  | .local _ .vmem, ⟨5, _⟩ => ⟨S1x1, .f32⟩
  | .local _ .vmem, ⟨6, _⟩ => ⟨S1x1, .f32⟩
  | .local _ .vmem, ⟨7, _⟩ => ⟨S1x1, .f32⟩
  | .local _ .vmem, ⟨8, _⟩ => ⟨S1x1, .f32⟩
  | .local _ .vmem, ⟨9, _⟩ => ⟨S1x1, .f32⟩
  | .local _ .vmem, ⟨10, _⟩ => ⟨S1x1, .f32⟩
  | .local _ .vmem, ⟨11, _⟩ => ⟨S1x1, .f32⟩
  | .local _ .vmem, ⟨12, _⟩ => ⟨S64x160, .f32⟩
  | .local _ .vmem, ⟨13, _⟩ => ⟨S64x160, .f32⟩
  | .local _ .vmem, ⟨14, _⟩ => ⟨S64x160, .f32⟩
  | .local _ .vmem, ⟨15, _⟩ => ⟨S64x160, .f32⟩
  | .local _ .vmem, ⟨16, _⟩ => ⟨S64x160, .f32⟩
  | .local _ .vmem, ⟨17, _⟩ => ⟨S64x160, .f32⟩
  | .local _ .vmem, ⟨18, _⟩ => ⟨S64x160, .f32⟩
  | .local _ .vmem, ⟨19, _⟩ => ⟨S64x160, .f32⟩
  | .local _ .vmem, ⟨20, _⟩ => ⟨S64x160, .f32⟩
  | .local _ .vmem, ⟨21, _⟩ => ⟨S64x160, .f32⟩
  | .local _ .vmem, ⟨22, _⟩ => ⟨S1x1, .f32⟩
  | .local _ .vmem, ⟨23, _⟩ => ⟨S1x1, .f32⟩
  | .local _ .vmem, ⟨24, _⟩ => ⟨S1x1, .f32⟩
  | .local _ .vmem, ⟨25, _⟩ => ⟨S1x1, .f32⟩
  | _, _ => ⟨S64x1x320x320, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_v1 : Ref sig .tc := ⟨.hbm, 9, rfl⟩
abbrev main_cst : Ref sig .tc := ⟨.hbm, 10, rfl⟩
abbrev main_v2 : Ref sig .tc := ⟨.hbm, 11, rfl⟩
abbrev main_v3 : Ref sig .tc := ⟨.hbm, 12, rfl⟩
abbrev main_cst_0 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_cst_2 : Ref sig .tc := ⟨.hbm, 20, rfl⟩
abbrev main_v9 : Ref sig .tc := ⟨.hbm, 21, rfl⟩
abbrev main_v10 : Ref sig .tc := ⟨.hbm, 22, rfl⟩
abbrev main_cst_3 : Ref sig .tc := ⟨.hbm, 23, rfl⟩
abbrev main_v11 : Ref sig .tc := ⟨.hbm, 24, rfl⟩
abbrev main_cst_4 : Ref sig .tc := ⟨.hbm, 25, rfl⟩
abbrev main_v12 : Ref sig .tc := ⟨.hbm, 26, rfl⟩
abbrev main_cst_5 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_cst_6 : Ref sig .tc := ⟨.hbm, 34, rfl⟩
abbrev main_v19 : Ref sig .tc := ⟨.hbm, 35, rfl⟩
abbrev main_v20 : Ref sig .tc := ⟨.hbm, 36, rfl⟩
abbrev main_cst_7 : Ref sig .tc := ⟨.hbm, 37, rfl⟩
abbrev main_cst_8 : Ref sig .tc := ⟨.hbm, 38, rfl⟩
abbrev main_call0_v0 : Ref sig .tc := ⟨.hbm, 39, rfl⟩
abbrev main_call0_v1 : Ref sig .tc := ⟨.hbm, 40, rfl⟩
abbrev main_call0_v2 : Ref sig .tc := ⟨.hbm, 41, rfl⟩
abbrev main_call0_v3 : Ref sig .tc := ⟨.hbm, 42, rfl⟩
abbrev main_call0_v4 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_cst_9 : Ref sig .tc := ⟨.hbm, 47, rfl⟩
abbrev main_v24 : Ref sig .tc := ⟨.hbm, 48, rfl⟩
abbrev main_v25 : Ref sig .tc := ⟨.hbm, 49, rfl⟩
abbrev main_cst_10 : Ref sig .tc := ⟨.hbm, 50, rfl⟩
abbrev main_cst_11 : Ref sig .tc := ⟨.hbm, 51, rfl⟩
abbrev main_call1_v0 : Ref sig .tc := ⟨.hbm, 52, rfl⟩
abbrev main_call1_v1 : Ref sig .tc := ⟨.hbm, 53, rfl⟩
abbrev main_call1_v2 : Ref sig .tc := ⟨.hbm, 54, rfl⟩
abbrev main_call1_v3 : Ref sig .tc := ⟨.hbm, 55, rfl⟩
abbrev main_call1_v4 : Ref sig .tc := ⟨.hbm, 56, rfl⟩
abbrev main_v26 : Ref sig .tc := ⟨.hbm, 57, rfl⟩
abbrev main_cst_12 : Ref sig .tc := ⟨.hbm, 58, rfl⟩
abbrev main_v27 : Ref sig .tc := ⟨.hbm, 59, rfl⟩
abbrev main_v28 : Ref sig .tc := ⟨.hbm, 60, rfl⟩
abbrev main_v29 : Ref sig .tc := ⟨.hbm, 61, rfl⟩
abbrev main_v30 : Ref sig .tc := ⟨.hbm, 62, rfl⟩
abbrev main_cst_13 : Ref sig .tc := ⟨.hbm, 63, rfl⟩
abbrev main_v31 : Ref sig .tc := ⟨.hbm, 64, rfl⟩
abbrev main_v32 : Ref sig .tc := ⟨.hbm, 65, rfl⟩
abbrev main_cst_14 : Ref sig .tc := ⟨.hbm, 66, rfl⟩
abbrev main_v33 : Ref sig .tc := ⟨.hbm, 67, rfl⟩
abbrev main_v34 : Ref sig .tc := ⟨.hbm, 68, rfl⟩
abbrev main_v35 : Ref sig .tc := ⟨.hbm, 69, rfl⟩
abbrev main_cst_15 : Ref sig .tc := ⟨.hbm, 70, rfl⟩
abbrev main_v36 : Ref sig .tc := ⟨.hbm, 71, rfl⟩
abbrev main_v37 : Ref sig .tc := ⟨.hbm, 72, rfl⟩
abbrev main_v38 : Ref sig .tc := ⟨.hbm, 73, rfl⟩
abbrev main_v39 : Ref sig .tc := ⟨.hbm, 74, rfl⟩
abbrev main_cst_16 : Ref sig .tc := ⟨.hbm, 75, rfl⟩
abbrev main_v40 : Ref sig .tc := ⟨.hbm, 76, rfl⟩
abbrev main_v41 : Ref sig .tc := ⟨.hbm, 77, rfl⟩
abbrev main_cst_17 : Ref sig .tc := ⟨.hbm, 78, rfl⟩
abbrev main_v42 : Ref sig .tc := ⟨.hbm, 79, rfl⟩
abbrev main_v43 : Ref sig .tc := ⟨.hbm, 80, rfl⟩
abbrev main_v44 : Ref sig .tc := ⟨.hbm, 81, rfl⟩
abbrev main_cst_18 : Ref sig .tc := ⟨.hbm, 82, rfl⟩
abbrev main_v45 : Ref sig .tc := ⟨.hbm, 83, rfl⟩
abbrev main_v46 : Ref sig .tc := ⟨.hbm, 84, rfl⟩
abbrev main_v47 : Ref sig .tc := ⟨.hbm, 85, rfl⟩
abbrev main_c : Ref sig .tc := ⟨.hbm, 86, rfl⟩
abbrev main_c_19 : Ref sig .tc := ⟨.hbm, 87, rfl⟩
abbrev main_call2_v0 : Ref sig .tc := ⟨.hbm, 88, rfl⟩
abbrev main_call2_v1 : Ref sig .tc := ⟨.hbm, 89, rfl⟩
abbrev main_call2_v2 : Ref sig .tc := ⟨.hbm, 90, rfl⟩
abbrev main_call2_v3 : Ref sig .tc := ⟨.hbm, 91, rfl⟩
abbrev main_call2_v4 : Ref sig .tc := ⟨.hbm, 92, rfl⟩
abbrev main_v48 : Ref sig .tc := ⟨.hbm, 93, rfl⟩
abbrev main_cst_20 : Ref sig .tc := ⟨.hbm, 94, rfl⟩
abbrev main_v49 : Ref sig .tc := ⟨.hbm, 95, rfl⟩
abbrev main_v50 : Ref sig .tc := ⟨.hbm, 96, rfl⟩
abbrev main_v51 : Ref sig .tc := ⟨.hbm, 97, rfl⟩
abbrev main_c_21 : Ref sig .tc := ⟨.hbm, 98, rfl⟩
abbrev main_c_22 : Ref sig .tc := ⟨.hbm, 99, rfl⟩
abbrev main_call3_v0 : Ref sig .tc := ⟨.hbm, 100, rfl⟩
abbrev main_call3_v1 : Ref sig .tc := ⟨.hbm, 101, rfl⟩
abbrev main_call3_v2 : Ref sig .tc := ⟨.hbm, 102, rfl⟩
abbrev main_call3_v3 : Ref sig .tc := ⟨.hbm, 103, rfl⟩
abbrev main_call3_v4 : Ref sig .tc := ⟨.hbm, 104, rfl⟩
abbrev main_v52 : Ref sig .tc := ⟨.hbm, 105, rfl⟩
abbrev main_c_23 : Ref sig .tc := ⟨.hbm, 106, rfl⟩
abbrev main_v53 : Ref sig .tc := ⟨.hbm, 107, rfl⟩
abbrev main_v54 : Ref sig .tc := ⟨.hbm, 108, rfl⟩
abbrev main_cst_24 : Ref sig .tc := ⟨.hbm, 109, rfl⟩
abbrev main_v55 : Ref sig .tc := ⟨.hbm, 110, rfl⟩
abbrev main_v56 : Ref sig .tc := ⟨.hbm, 111, rfl⟩
abbrev main_v57 : Ref sig .tc := ⟨.hbm, 112, rfl⟩
abbrev main_c_25 : Ref sig .tc := ⟨.hbm, 113, rfl⟩
abbrev main_v58 : Ref sig .tc := ⟨.hbm, 114, rfl⟩
abbrev main_v59 : Ref sig .tc := ⟨.hbm, 115, rfl⟩
abbrev main_v60 : Ref sig .tc := ⟨.hbm, 116, rfl⟩
abbrev main_c_26 : Ref sig .tc := ⟨.hbm, 117, rfl⟩
abbrev main_v61 : Ref sig .tc := ⟨.hbm, 118, rfl⟩
abbrev main_v62 : Ref sig .tc := ⟨.hbm, 119, rfl⟩
abbrev main_cst_27 : Ref sig .tc := ⟨.hbm, 120, rfl⟩
abbrev main_v63 : Ref sig .tc := ⟨.hbm, 121, rfl⟩
abbrev main_v64 : Ref sig .tc := ⟨.hbm, 122, rfl⟩
abbrev main_v65 : Ref sig .tc := ⟨.hbm, 123, rfl⟩
abbrev main_c_28 : Ref sig .tc := ⟨.hbm, 124, rfl⟩
abbrev main_v66 : Ref sig .tc := ⟨.hbm, 125, rfl⟩
abbrev main_v67 : Ref sig .tc := ⟨.hbm, 126, rfl⟩
abbrev main_v68 : Ref sig .tc := ⟨.hbm, 127, rfl⟩
abbrev main_v69 : Ref sig .tc := ⟨.hbm, 128, rfl⟩
abbrev main_c_29 : Ref sig .tc := ⟨.hbm, 129, rfl⟩
abbrev main_call4_v0 : Ref sig .tc := ⟨.hbm, 130, rfl⟩
abbrev main_call4_v1 : Ref sig .tc := ⟨.hbm, 131, rfl⟩
abbrev main_call4_v2 : Ref sig .tc := ⟨.hbm, 132, rfl⟩
abbrev main_call4_v3 : Ref sig .tc := ⟨.hbm, 133, rfl⟩
abbrev main_call4_v4 : Ref sig .tc := ⟨.hbm, 134, rfl⟩
abbrev main_call4_v5 : Ref sig .tc := ⟨.hbm, 135, rfl⟩
abbrev main_call4_v6 : Ref sig .tc := ⟨.hbm, 136, rfl⟩
abbrev main_call4_v7 : Ref sig .tc := ⟨.hbm, 137, rfl⟩
abbrev main_call4_v8 : Ref sig .tc := ⟨.hbm, 138, rfl⟩
abbrev main_call4_c : Ref sig .tc := ⟨.hbm, 139, rfl⟩
abbrev main_call4_v9 : Ref sig .tc := ⟨.hbm, 140, rfl⟩
abbrev main_call4_v10 : Ref sig .tc := ⟨.hbm, 141, rfl⟩
abbrev main_call4_v11 : Ref sig .tc := ⟨.hbm, 142, rfl⟩
abbrev main_call4_c_0 : Ref sig .tc := ⟨.hbm, 143, rfl⟩
abbrev main_call4_v12 : Ref sig .tc := ⟨.hbm, 144, rfl⟩
abbrev main_call4_v13 : Ref sig .tc := ⟨.hbm, 145, rfl⟩
abbrev main_v70 : Ref sig .tc := ⟨.hbm, 146, rfl⟩
abbrev main_v71 : Ref sig .tc := ⟨.hbm, 147, rfl⟩
abbrev main_c_30 : Ref sig .tc := ⟨.hbm, 148, rfl⟩
abbrev main_call5_v0 : Ref sig .tc := ⟨.hbm, 149, rfl⟩
abbrev main_call5_v1 : Ref sig .tc := ⟨.hbm, 150, rfl⟩
abbrev main_call5_v2 : Ref sig .tc := ⟨.hbm, 151, rfl⟩
abbrev main_call5_v3 : Ref sig .tc := ⟨.hbm, 152, rfl⟩
abbrev main_call5_v4 : Ref sig .tc := ⟨.hbm, 153, rfl⟩
abbrev main_call5_v5 : Ref sig .tc := ⟨.hbm, 154, rfl⟩
abbrev main_call5_v6 : Ref sig .tc := ⟨.hbm, 155, rfl⟩
abbrev main_call5_v7 : Ref sig .tc := ⟨.hbm, 156, rfl⟩
abbrev main_call5_v8 : Ref sig .tc := ⟨.hbm, 157, rfl⟩
abbrev main_call5_c : Ref sig .tc := ⟨.hbm, 158, rfl⟩
abbrev main_call5_v9 : Ref sig .tc := ⟨.hbm, 159, rfl⟩
abbrev main_call5_v10 : Ref sig .tc := ⟨.hbm, 160, rfl⟩
abbrev main_call5_v11 : Ref sig .tc := ⟨.hbm, 161, rfl⟩
abbrev main_call5_c_0 : Ref sig .tc := ⟨.hbm, 162, rfl⟩
abbrev main_call5_v12 : Ref sig .tc := ⟨.hbm, 163, rfl⟩
abbrev main_call5_v13 : Ref sig .tc := ⟨.hbm, 164, rfl⟩
abbrev main_v72 : Ref sig .tc := ⟨.hbm, 165, rfl⟩
abbrev main_v73 : Ref sig .tc := ⟨.hbm, 166, rfl⟩
abbrev main_v74 : Ref sig .tc := ⟨.hbm, 167, rfl⟩
abbrev main_v75 : Ref sig .tc := ⟨.hbm, 168, rfl⟩
abbrev main_v76 : Ref sig .tc := ⟨.hbm, 169, rfl⟩
abbrev main_v77 : Ref sig .tc := ⟨.hbm, 170, rfl⟩
abbrev main_v78 : Ref sig .tc := ⟨.hbm, 171, rfl⟩
abbrev main_v79 : Ref sig .tc := ⟨.hbm, 172, rfl⟩
abbrev main_v80 : Ref sig .tc := ⟨.hbm, 173, rfl⟩
abbrev main_v81 : Ref sig .tc := ⟨.hbm, 174, rfl⟩
abbrev main_v82 : Ref sig .tc := ⟨.hbm, 175, rfl⟩
abbrev main_v83 : Ref sig .tc := ⟨.hbm, 176, rfl⟩
abbrev main_v84 : Ref sig .tc := ⟨.hbm, 177, rfl⟩
abbrev main_c_31 : Ref sig .tc := ⟨.hbm, 178, rfl⟩
abbrev main_v85 : Ref sig .tc := ⟨.hbm, 179, rfl⟩
abbrev main_v86 : Ref sig .tc := ⟨.hbm, 180, rfl⟩
abbrev main_v87 : Ref sig .tc := ⟨.hbm, 181, rfl⟩
abbrev main_v88 : Ref sig .tc := ⟨.hbm, 182, rfl⟩
abbrev main_v89 : Ref sig .tc := ⟨.hbm, 183, rfl⟩
abbrev main_v90 : Ref sig .tc := ⟨.hbm, 184, rfl⟩
abbrev main_v91 : Ref sig .tc := ⟨.hbm, 185, rfl⟩
abbrev main_call6_c : Ref sig .tc := ⟨.hbm, 186, rfl⟩
abbrev main_call6_v0 : Ref sig .tc := ⟨.hbm, 187, rfl⟩
abbrev main_call6_v1 : Ref sig .tc := ⟨.hbm, 188, rfl⟩
abbrev main_call6_c_0 : Ref sig .tc := ⟨.hbm, 189, rfl⟩
abbrev main_call6_v2 : Ref sig .tc := ⟨.hbm, 190, rfl⟩
abbrev main_call6_v3 : Ref sig .tc := ⟨.hbm, 191, rfl⟩
abbrev main_call6_v4 : Ref sig .tc := ⟨.hbm, 192, rfl⟩
abbrev main_call6_v5 : Ref sig .tc := ⟨.hbm, 193, rfl⟩
abbrev main_call6_c_1 : Ref sig .tc := ⟨.hbm, 194, rfl⟩
abbrev main_call6_c_2 : Ref sig .tc := ⟨.hbm, 195, rfl⟩
abbrev main_call6_v6 : Ref sig .tc := ⟨.hbm, 196, rfl⟩
abbrev main_call6_v7 : Ref sig .tc := ⟨.hbm, 197, rfl⟩
abbrev main_call6_v8 : Ref sig .tc := ⟨.hbm, 198, rfl⟩
abbrev main_call6_v9 : Ref sig .tc := ⟨.hbm, 199, rfl⟩
abbrev main_call6_v10 : Ref sig .tc := ⟨.hbm, 200, rfl⟩
abbrev main_call6_v11 : Ref sig .tc := ⟨.hbm, 201, rfl⟩
abbrev main_call6_c_3 : Ref sig .tc := ⟨.hbm, 202, rfl⟩
abbrev main_call6_v12 : Ref sig .tc := ⟨.hbm, 203, rfl⟩
abbrev main_call6_v13 : Ref sig .tc := ⟨.hbm, 204, rfl⟩
abbrev main_call6_cst : Ref sig .tc := ⟨.hbm, 205, rfl⟩
abbrev main_call6_v14 : Ref sig .tc := ⟨.hbm, 206, rfl⟩
abbrev main_v92 : Ref sig .tc := ⟨.hbm, 207, rfl⟩
abbrev main_v93 : Ref sig .tc := ⟨.hbm, 208, rfl⟩
abbrev main_v94 : Ref sig .tc := ⟨.hbm, 209, rfl⟩
abbrev main_call7_c : Ref sig .tc := ⟨.hbm, 210, rfl⟩
abbrev main_call7_v0 : Ref sig .tc := ⟨.hbm, 211, rfl⟩
abbrev main_call7_v1 : Ref sig .tc := ⟨.hbm, 212, rfl⟩
abbrev main_call7_c_0 : Ref sig .tc := ⟨.hbm, 213, rfl⟩
abbrev main_call7_v2 : Ref sig .tc := ⟨.hbm, 214, rfl⟩
abbrev main_call7_v3 : Ref sig .tc := ⟨.hbm, 215, rfl⟩
abbrev main_call7_v4 : Ref sig .tc := ⟨.hbm, 216, rfl⟩
abbrev main_call7_v5 : Ref sig .tc := ⟨.hbm, 217, rfl⟩
abbrev main_call7_c_1 : Ref sig .tc := ⟨.hbm, 218, rfl⟩
abbrev main_call7_c_2 : Ref sig .tc := ⟨.hbm, 219, rfl⟩
abbrev main_call7_v6 : Ref sig .tc := ⟨.hbm, 220, rfl⟩
abbrev main_call7_v7 : Ref sig .tc := ⟨.hbm, 221, rfl⟩
abbrev main_call7_v8 : Ref sig .tc := ⟨.hbm, 222, rfl⟩
abbrev main_call7_v9 : Ref sig .tc := ⟨.hbm, 223, rfl⟩
abbrev main_call7_v10 : Ref sig .tc := ⟨.hbm, 224, rfl⟩
abbrev main_call7_v11 : Ref sig .tc := ⟨.hbm, 225, rfl⟩
abbrev main_call7_c_3 : Ref sig .tc := ⟨.hbm, 226, rfl⟩
abbrev main_call7_v12 : Ref sig .tc := ⟨.hbm, 227, rfl⟩
abbrev main_call7_v13 : Ref sig .tc := ⟨.hbm, 228, rfl⟩
abbrev main_call7_cst : Ref sig .tc := ⟨.hbm, 229, rfl⟩
abbrev main_call7_v14 : Ref sig .tc := ⟨.hbm, 230, rfl⟩
abbrev main_v95 : Ref sig .tc := ⟨.hbm, 231, rfl⟩
abbrev main_v96 : Ref sig .tc := ⟨.hbm, 232, rfl⟩
abbrev main_v97 : Ref sig .tc := ⟨.hbm, 233, rfl⟩
abbrev main_v98 : Ref sig .tc := ⟨.hbm, 234, rfl⟩
abbrev main_v99 : Ref sig .tc := ⟨.hbm, 235, rfl⟩
abbrev main_v100 : Ref sig .tc := ⟨.hbm, 236, rfl⟩
abbrev main_v101 : Ref sig .tc := ⟨.hbm, 237, rfl⟩
abbrev main_v102 : Ref sig .tc := ⟨.hbm, 238, rfl⟩
abbrev main_v103 : Ref sig .tc := ⟨.hbm, 239, rfl⟩
abbrev main_v104 : Ref sig .tc := ⟨.hbm, 240, rfl⟩
abbrev main_v105 : Ref sig .tc := ⟨.hbm, 241, rfl⟩
abbrev main_v106 : Ref sig .tc := ⟨.hbm, 242, rfl⟩
abbrev main_v107 : Ref sig .tc := ⟨.hbm, 243, rfl⟩
abbrev main_v108 : Ref sig .tc := ⟨.hbm, 244, rfl⟩
abbrev main_v109 : Ref sig .tc := ⟨.hbm, 245, rfl⟩
abbrev main_v110 : Ref sig .tc := ⟨.hbm, 246, rfl⟩
abbrev main_v111 : Ref sig .tc := ⟨.hbm, 247, rfl⟩
abbrev main_v112 : Ref sig .tc := ⟨.hbm, 248, rfl⟩
abbrev main_v113 : Ref sig .tc := ⟨.hbm, 249, rfl⟩
abbrev main_v114 : Ref sig .tc := ⟨.hbm, 250, rfl⟩
abbrev main_v115 : Ref sig .tc := ⟨.hbm, 251, rfl⟩
abbrev main_v116 : Ref sig .tc := ⟨.hbm, 252, rfl⟩
abbrev main_v117 : Ref sig .tc := ⟨.hbm, 253, rfl⟩
abbrev main_v118 : Ref sig .tc := ⟨.hbm, 254, rfl⟩
abbrev main_v119 : Ref sig .tc := ⟨.hbm, 255, rfl⟩
abbrev main_v120 : Ref sig .tc := ⟨.hbm, 256, rfl⟩
abbrev main_v121 : Ref sig .tc := ⟨.hbm, 257, rfl⟩
abbrev main_v122 : Ref sig .tc := ⟨.hbm, 258, rfl⟩
abbrev main_v123_0 : Ref sig .tc := ⟨.hbm, 259, rfl⟩
abbrev main_v123_1 : Ref sig .tc := ⟨.hbm, 260, rfl⟩
abbrev main_v123_2 : Ref sig .tc := ⟨.hbm, 261, rfl⟩
abbrev main_v123_3 : Ref sig .tc := ⟨.hbm, 262, rfl⟩
abbrev main_v124 : Ref sig .tc := ⟨.hbm, 263, rfl⟩
abbrev main_cst_32 : Ref sig .tc := ⟨.hbm, 264, rfl⟩
abbrev main_v125 : Ref sig .tc := ⟨.hbm, 265, rfl⟩
abbrev main_cst_33 : Ref sig .tc := ⟨.hbm, 266, rfl⟩
abbrev main_v126 : Ref sig .tc := ⟨.hbm, 267, rfl⟩
abbrev main_v127 : Ref sig .tc := ⟨.hbm, 268, rfl⟩
abbrev main_cst_34 : Ref sig .tc := ⟨.hbm, 269, rfl⟩
abbrev main_v128 : Ref sig .tc := ⟨.hbm, 270, rfl⟩
abbrev main_cst_35 : Ref sig .tc := ⟨.hbm, 271, rfl⟩
abbrev main_v129 : Ref sig .tc := ⟨.hbm, 272, rfl⟩
abbrev main_v130 : Ref sig .tc := ⟨.hbm, 273, rfl⟩
abbrev main_v131 : Ref sig .tc := ⟨.hbm, 274, rfl⟩
abbrev main_cst_36 : Ref sig .tc := ⟨.hbm, 275, rfl⟩
abbrev main_v132 : Ref sig .tc := ⟨.hbm, 276, rfl⟩
abbrev main_cst_37 : Ref sig .tc := ⟨.hbm, 277, rfl⟩
abbrev main_v133 : Ref sig .tc := ⟨.hbm, 278, rfl⟩
abbrev main_v134 : Ref sig .tc := ⟨.hbm, 279, rfl⟩
abbrev main_v135 : Ref sig .tc := ⟨.hbm, 280, rfl⟩
abbrev main_cst_38 : Ref sig .tc := ⟨.hbm, 281, rfl⟩
abbrev main_v136 : Ref sig .tc := ⟨.hbm, 282, rfl⟩
abbrev main_cst_39 : Ref sig .tc := ⟨.hbm, 283, rfl⟩
abbrev main_v137 : Ref sig .tc := ⟨.hbm, 284, rfl⟩
abbrev main_cst_40 : Ref sig .tc := ⟨.hbm, 285, rfl⟩
abbrev main_v138 : Ref sig .tc := ⟨.hbm, 286, rfl⟩
abbrev main_v139 : Ref sig .tc := ⟨.hbm, 287, rfl⟩
abbrev main_cst_41 : Ref sig .tc := ⟨.hbm, 288, rfl⟩
abbrev main_v140 : Ref sig .tc := ⟨.hbm, 289, rfl⟩
abbrev main_v141 : Ref sig .tc := ⟨.hbm, 290, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc1_stg0_0 : Ref sig .tc := ⟨.vmem, 12, rfl⟩
abbrev cc1_stg1_0 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg6_0 : Ref sig .tc := ⟨.vmem, 18, rfl⟩
abbrev cc1_stg7_0 : Ref sig .tc := ⟨.vmem, 19, rfl⟩
abbrev cc1_stg8_0 : Ref sig .tc := ⟨.vmem, 20, rfl⟩
abbrev cc1_stg9_0 : Ref sig .tc := ⟨.vmem, 21, rfl⟩
abbrev cc1_stg10_0 : Ref sig .tc := ⟨.vmem, 22, rfl⟩
abbrev cc1_stg11_0 : Ref sig .tc := ⟨.vmem, 23, rfl⟩
abbrev cc1_stg12_0 : Ref sig .tc := ⟨.vmem, 24, rfl⟩
abbrev cc1_stg13_0 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc1_sem0_0 : DmaSem sig := 8
abbrev cc1_sem1_0 : DmaSem sig := 9
abbrev cc1_sem2_0 : DmaSem sig := 10
abbrev cc1_sem3_0 : DmaSem sig := 11
abbrev cc1_sem4_0 : DmaSem sig := 12
abbrev cc1_sem5_0 : DmaSem sig := 13
abbrev cc1_sem6_0 : DmaSem sig := 14
abbrev cc1_sem7_0 : DmaSem sig := 15
abbrev cc1_sem8_0 : DmaSem sig := 16
abbrev cc1_sem9_0 : DmaSem sig := 17
abbrev cc1_sem10_0 : DmaSem sig := 18
abbrev cc1_sem11_0 : DmaSem sig := 19
abbrev cc1_sem12_0 : DmaSem sig := 20
abbrev cc1_sem13_0 : DmaSem sig := 21

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c7_i32 : BitVec 32 := 7#32
  let v77 : BitVec 1 := Scalar.cmpi .eq arg0 c7_i32
  let v78 : BitVec 32 := Scalar.extui v77
  let c0_i32_44 : BitVec 32 := 0#32
  let v79 : BitVec 1 := Scalar.cmpi .ne v78 c0_i32_44
  v79

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S8x1x320x320 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x1x320x320 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev grid1 : Pipeline.Grid := ⟨1, ![1], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_12 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_13 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 1 → Memref sig .tc .vmem S64x160 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S64x160 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S64x160 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64x160 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64x160 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S64x160 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S64x160 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S64x160 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S64x160 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S64x160 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S1x1 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 1 → Memref sig .tc .vmem S1x1 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![false]

abbrev stage1_12 : Fin 1 → Memref sig .tc .vmem S1x1 .f32 := fun | 0 => Memref.whole cc1_stg12_0 | ⟨_ + 1, h⟩ => absurd h (Nat.not_lt.2 (Nat.le_add_left _ _))
abbrev sem1_12 : Fin 1 → DmaSem sig := fun | 0 => cc1_sem12_0 | ⟨_ + 1, h⟩ => absurd h (Nat.not_lt.2 (Nat.le_add_left _ _))
abbrev reads1_12 : Fin grid1.rank → Bool := ![false]

abbrev stage1_13 : Fin 1 → Memref sig .tc .vmem S1x1 .f32 := fun | 0 => Memref.whole cc1_stg13_0 | ⟨_ + 1, h⟩ => absurd h (Nat.not_lt.2 (Nat.le_add_left _ _))
abbrev sem1_13 : Fin 1 → DmaSem sig := fun | 0 => cc1_sem13_0 | ⟨_ + 1, h⟩ => absurd h (Nat.not_lt.2 (Nat.le_add_left _ _))
abbrev reads1_13 : Fin grid1.rank → Bool := ![false]

class Facts₀ : Prop where
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S8x1x320x320_S8x1x320x320_0_0_0_0 : ∀ a, (![0, 0, 0, 0] : Fin 4 → Nat) a + S8x1x320x320.size a ≤ S8x1x320x320.size a
  h_S8x1x320x320 : 0 < S8x1x320x320.numel
  reduces_S8x1x320x320_S8x1x320 : S8x1x320x320.Reduces [3] S8x1x320
  shapeCasts_S8x1x320_S8x1x320x1 : S8x1x320.ShapeCasts S8x1x320x1
  reduces_S8x1x320x1_S8x1x1 : S8x1x320x1.Reduces [2] S8x1x1
  shapeCasts_S8x1x1_S8x1x1x1 : S8x1x1.ShapeCasts S8x1x1x1
  reduces_S8x1x1x1_S8x1x1 : S8x1x1x1.Reduces [1] S8x1x1
  reduces_S8x1x1x1_S1x1x1 : S8x1x1x1.Reduces [0] S1x1x1
  shapeCasts_S1x1x1_S1x1x1x1 : S1x1x1.ShapeCasts S1x1x1x1
  shapeCasts_S1x1x1x1_S1x1 : S1x1x1x1.ShapeCasts S1x1
  shapeCasts_S1x1_S_ : S1x1.ShapeCasts S_
  slices_S64x32x5_S64x32x1_0_0_0 : S64x32x5.Slices ![0, 0, 0] S64x32x1
  shapeCasts_S64x32x1_S64x32 : S64x32x1.ShapeCasts S64x32
  slices_S64x32x5_S64x32x1_0_0_1 : S64x32x5.Slices ![0, 0, 1] S64x32x1
  bcast_S_S64x32 : S_.BroadcastsInDim S64x32 (![] : Fin 0 → Fin S64x32.rank)
  slices_S64x32x5_S64x32x1_0_0_2 : S64x32x5.Slices ![0, 0, 2] S64x32x1
  slices_S64x32x5_S64x32x1_0_0_3 : S64x32x5.Slices ![0, 0, 3] S64x32x1
  slices_S64x32x5_S64x32x1_0_0_4 : S64x32x5.Slices ![0, 0, 4] S64x32x1
  bcast_S64x32_S64x32x1_0_1 : S64x32.BroadcastsInDim S64x32x1 (![0, 1] : Fin 2 → Fin S64x32x1.rank)
  concatenates_S64x32x1_S64x32x1_S64x32x1_S64x32x1_S64x32x1_S64x32x5_d2 : Shape.Concatenates [S64x32x1, S64x32x1, S64x32x1, S64x32x1, S64x32x1] S64x32x5 2
  bcast_S_S64x32x5 : S_.BroadcastsInDim S64x32x5 (![] : Fin 0 → Fin S64x32x5.rank)
  shapeCasts_S64x32x5_S64x160 : S64x32x5.ShapeCasts S64x160
  shapeCasts_S64x4x320x320_S64x4x102400 : S64x4x320x320.ShapeCasts S64x4x102400
  bcast_S64x160_S64x1x160_0_2 : S64x160.BroadcastsInDim S64x1x160 (![0, 2] : Fin 2 → Fin S64x1x160.rank)
  bcast_S64x1x160_S64x4x160_0_1_2 : S64x1x160.BroadcastsInDim S64x4x160 (![0, 1, 2] : Fin 3 → Fin S64x4x160.rank)
  bcast_S_S64x4x160 : S_.BroadcastsInDim S64x4x160 (![] : Fin 0 → Fin S64x4x160.rank)
  shapeCasts_S64x4x160_S64x4x160x1 : S64x4x160.ShapeCasts S64x4x160x1
  bcast_S_S64x4x160x1 : S_.BroadcastsInDim S64x4x160x1 (![] : Fin 0 → Fin S64x4x160x1.rank)
  bcast_S1_S1x1x1x1_3 : S1.BroadcastsInDim S1x1x1x1 (![3] : Fin 1 → Fin S1x1x1x1.rank)
  bcast_S1x1x1x1_S64x4x160x1_0_1_2_3 : S1x1x1x1.BroadcastsInDim S64x4x160x1 (![0, 1, 2, 3] : Fin 4 → Fin S64x4x160x1.rank)
  reducesTo_S64x4x160x1_S64x4x160_d3 : S64x4x160x1.ReducesTo [3] S64x4x160
  h_S_ : 0 < S_.numel
  transposes_S64x4x160_S64x160x4_0_2_1 : S64x4x160.Transposes [0, 2, 1] S64x160x4
  shapeCasts_S64x1x320x320_S64x102400 : S64x1x320x320.ShapeCasts S64x102400
  bcast_S_S64x160 : S_.BroadcastsInDim S64x160 (![] : Fin 0 → Fin S64x160.rank)
  shapeCasts_S64x160_S64x160x1 : S64x160.ShapeCasts S64x160x1
  bcast_S_S64x160x1 : S_.BroadcastsInDim S64x160x1 (![] : Fin 0 → Fin S64x160x1.rank)
  bcast_S1_S1x1x1_2 : S1.BroadcastsInDim S1x1x1 (![2] : Fin 1 → Fin S1x1x1.rank)
  bcast_S1x1x1_S64x160x1_0_1_2 : S1x1x1.BroadcastsInDim S64x160x1 (![0, 1, 2] : Fin 3 → Fin S64x160x1.rank)
  reducesTo_S64x160x1_S64x160_d2 : S64x160x1.ReducesTo [2] S64x160
  concatenates_S64x32x1_S64x32x1_S64x32x1_S64x32x1_S64x32x4_d2 : Shape.Concatenates [S64x32x1, S64x32x1, S64x32x1, S64x32x1] S64x32x4 2
  bcast_S64x32x4_S64x32x1x4_0_1_3 : S64x32x4.BroadcastsInDim S64x32x1x4 (![0, 1, 3] : Fin 3 → Fin S64x32x1x4.rank)
  bcast_S64x32x1x4_S64x32x5x4_0_1_2_3 : S64x32x1x4.BroadcastsInDim S64x32x5x4 (![0, 1, 2, 3] : Fin 4 → Fin S64x32x5x4.rank)
  shapeCasts_S64x32x5x4_S64x160x4 : S64x32x5x4.ShapeCasts S64x160x4
  bcast_S64x32x1_S64x32x5_0_1_2 : S64x32x1.BroadcastsInDim S64x32x5 (![0, 1, 2] : Fin 3 → Fin S64x32x5.rank)
  slices_S64x160x4_S64x160x1_0_0_0 : S64x160x4.Slices ![0, 0, 0] S64x160x1
  shapeCasts_S64x160x1_S64x160 : S64x160x1.ShapeCasts S64x160
  slices_S64x160x4_S64x160x1_0_0_1 : S64x160x4.Slices ![0, 0, 1] S64x160x1
  slices_S64x160x4_S64x160x1_0_0_2 : S64x160x4.Slices ![0, 0, 2] S64x160x1
  slices_S64x160x4_S64x160x1_0_0_3 : S64x160x4.Slices ![0, 0, 3] S64x160x1
  inb_S64x160_S64x160_0_0 : ∀ a, (![0, 0] : Fin 2 → Nat) a + S64x160.size a ≤ S64x160.size a
  h_S64x160 : 0 < S64x160.numel
  shapeCasts_S64x160_S64x160 : S64x160.ShapeCasts S64x160
  reduces_S64x160_S64 : S64x160.Reduces [1] S64
  shapeCasts_S64_S64x1 : S64.ShapeCasts S64x1
  reduces_S64x1_S1 : S64x1.Reduces [0] S1
  shapeCasts_S1_S1x1 : S1.ShapeCasts S1x1
  gather_S64x4x102400_S64x4x160x1_S64x4x160_n_2_01_01_2_3_111_wf : GatherDims.WF S64x4x102400 S64x4x160x1 S64x4x160 [] [2] [0, 1] [2] [0, 1] 3 ![1, 1, 1]
  gather_S64x102400_S64x160x1_S64x160_n_1_0_0_1_2_11_wf : GatherDims.WF S64x102400 S64x160x1 S64x160 [] [1] [0] [1] [0] 2 ![1, 1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x1x320x320.size a ≤ S64x1x320x320.size a
  hwx0_0 : ∀ i : grid0.Coords, EltTy.bits .f32 = 32 ∨ (Rect.block (s := S64x1x320x320) S8x1x320x320.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x1x320x320.size a ≤ S64x1x320x320.size a
  hwx0_1 : ∀ i : grid0.Coords, EltTy.bits .f32 = 32 ∨ (Rect.block (s := S64x1x320x320) S8x1x320x320.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1.size a ≤ S1x1.size a
  hwx0_2 : ∀ i : grid0.Coords, EltTy.bits .f32 = 32 ∨ (Rect.block (s := S1x1) S1x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1.size a ≤ S1x1.size a
  hwx0_3 : ∀ i : grid0.Coords, EltTy.bits .f32 = 32 ∨ (Rect.block (s := S1x1) S1x1.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1.size a ≤ S1x1.size a
  hwx0_4 : ∀ i : grid0.Coords, EltTy.bits .f32 = 32 ∨ (Rect.block (s := S1x1) S1x1.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x1.size a ≤ S1x1.size a
  hwx0_5 : ∀ i : grid0.Coords, EltTy.bits .f32 = 32 ∨ (Rect.block (s := S1x1) S1x1.size (cc0_transform_5 i) (hinb0_5 i)).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S64x160.size a ≤ S64x160.size a
  hwx1_0 : ∀ i : grid1.Coords, EltTy.bits .f32 = 32 ∨ (Rect.block (s := S64x160) S64x160.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x160.size a ≤ S64x160.size a
  hwx1_1 : ∀ i : grid1.Coords, EltTy.bits .f32 = 32 ∨ (Rect.block (s := S64x160) S64x160.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x160.size a ≤ S64x160.size a
  hwx1_2 : ∀ i : grid1.Coords, EltTy.bits .f32 = 32 ∨ (Rect.block (s := S64x160) S64x160.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x160.size a ≤ S64x160.size a
  hwx1_3 : ∀ i : grid1.Coords, EltTy.bits .f32 = 32 ∨ (Rect.block (s := S64x160) S64x160.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x160.size a ≤ S64x160.size a
  hwx1_4 : ∀ i : grid1.Coords, EltTy.bits .f32 = 32 ∨ (Rect.block (s := S64x160) S64x160.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S64x160.size a ≤ S64x160.size a
  hwx1_5 : ∀ i : grid1.Coords, EltTy.bits .f32 = 32 ∨ (Rect.block (s := S64x160) S64x160.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S64x160.size a ≤ S64x160.size a
  hwx1_6 : ∀ i : grid1.Coords, EltTy.bits .f32 = 32 ∨ (Rect.block (s := S64x160) S64x160.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S64x160.size a ≤ S64x160.size a
  hwx1_7 : ∀ i : grid1.Coords, EltTy.bits .f32 = 32 ∨ (Rect.block (s := S64x160) S64x160.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S64x160.size a ≤ S64x160.size a
  hwx1_8 : ∀ i : grid1.Coords, EltTy.bits .f32 = 32 ∨ (Rect.block (s := S64x160) S64x160.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S64x160.size a ≤ S64x160.size a
  hwx1_9 : ∀ i : grid1.Coords, EltTy.bits .f32 = 32 ∨ (Rect.block (s := S64x160) S64x160.size (cc1_transform_9 i) (hinb1_9 i)).WholeWords (EltTy.packing .f32)
  hstage1_10 : ∀ j, (stage1_10 j).IsWhole
  nbuf1_10 : grid1.bufCount reads1_10 true = 1
  hreads1_10 : ∀ i i' : grid1.Coords, (∀ a, reads1_10 a = true → i a = i' a) → cc1_transform_10 i = cc1_transform_10 i'
  hinb1_10 : ∀ (i : grid1.Coords) a, (cc1_transform_10 i a + 1) * S1x1.size a ≤ S1x1.size a
  hwx1_10 : ∀ i : grid1.Coords, EltTy.bits .f32 = 32 ∨ (Rect.block (s := S1x1) S1x1.size (cc1_transform_10 i) (hinb1_10 i)).WholeWords (EltTy.packing .f32)
  hstage1_11 : ∀ j, (stage1_11 j).IsWhole
  nbuf1_11 : grid1.bufCount reads1_11 true = 1
  hreads1_11 : ∀ i i' : grid1.Coords, (∀ a, reads1_11 a = true → i a = i' a) → cc1_transform_11 i = cc1_transform_11 i'
  hinb1_11 : ∀ (i : grid1.Coords) a, (cc1_transform_11 i a + 1) * S1x1.size a ≤ S1x1.size a
  hwx1_11 : ∀ i : grid1.Coords, EltTy.bits .f32 = 32 ∨ (Rect.block (s := S1x1) S1x1.size (cc1_transform_11 i) (hinb1_11 i)).WholeWords (EltTy.packing .f32)
  hstage1_12 : ∀ j, (stage1_12 j).IsWhole
  nbuf1_12 : grid1.bufCount reads1_12 true = 1
  hreads1_12 : ∀ i i' : grid1.Coords, (∀ a, reads1_12 a = true → i a = i' a) → cc1_transform_12 i = cc1_transform_12 i'
  hinb1_12 : ∀ (i : grid1.Coords) a, (cc1_transform_12 i a + 1) * S1x1.size a ≤ S1x1.size a
  hwx1_12 : ∀ i : grid1.Coords, EltTy.bits .f32 = 32 ∨ (Rect.block (s := S1x1) S1x1.size (cc1_transform_12 i) (hinb1_12 i)).WholeWords (EltTy.packing .f32)
  hstage1_13 : ∀ j, (stage1_13 j).IsWhole
  nbuf1_13 : grid1.bufCount reads1_13 true = 1
  hreads1_13 : ∀ i i' : grid1.Coords, (∀ a, reads1_13 a = true → i a = i' a) → cc1_transform_13 i = cc1_transform_13 i'
  hinb1_13 : ∀ (i : grid1.Coords) a, (cc1_transform_13 i a + 1) * S1x1.size a ≤ S1x1.size a
  hwx1_13 : ∀ i : grid1.Coords, EltTy.bits .f32 = 32 ∨ (Rect.block (s := S1x1) S1x1.size (cc1_transform_13 i) (hinb1_13 i)).WholeWords (EltTy.packing .f32)

variable [Facts₀]

def gather_S64x4x102400_S64x4x160x1_S64x4x160_n_2_01_01_2_3_111 : GatherDims S64x4x102400 S64x4x160x1 S64x4x160 where
  offsetDims := []
  collapsedSliceDims := [2]
  operandBatchingDims := [0, 1]
  startIndicesBatchingDims := [0, 1]
  startIndexMap := [2]
  indexVectorDim := 3
  sliceSizes := ![1, 1, 1]
  wf := gather_S64x4x102400_S64x4x160x1_S64x4x160_n_2_01_01_2_3_111_wf
def gather_S64x102400_S64x160x1_S64x160_n_1_0_0_1_2_11 : GatherDims S64x102400 S64x160x1 S64x160 where
  offsetDims := []
  collapsedSliceDims := [1]
  operandBatchingDims := [0]
  startIndicesBatchingDims := [0]
  startIndexMap := [1]
  indexVectorDim := 2
  sliceSizes := ![1, 1]
  wf := gather_S64x102400_S64x160x1_S64x160_n_1_0_0_1_2_11_wf

abbrev win0_0 : Pipeline.Window sig grid0 :=
  Pipeline.Window.ofSpec (Memref.whole main_arg0) S8x1x320x320.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S8x1x320x320.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_0) S1x1.size cc0_transform_2 reads0_2 true true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0_1) S1x1.size cc0_transform_3 reads0_3 true true 1 stage0_3 sem0_3
    hrank0 hreads0_3 hinb0_3 nbuf0_3 (Memref.isWhole_whole _) hwx0_3 hstage0_3

abbrev win0_4 : Pipeline.Window sig grid0 :=
  Pipeline.Window.ofSpec (Memref.whole main_v0_2) S1x1.size cc0_transform_4 reads0_4 true true 1 stage0_4 sem0_4
    hrank0 hreads0_4 hinb0_4 nbuf0_4 (Memref.isWhole_whole _) hwx0_4 hstage0_4

abbrev win0_5 : Pipeline.Window sig grid0 :=
  Pipeline.Window.ofSpec (Memref.whole main_v0_3) S1x1.size cc0_transform_5 reads0_5 true true 1 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun i => !(k0_cond2 i == 1#1) | 3 => fun i => !(k0_cond2 i == 1#1) | 4 => fun i => !(k0_cond2 i == 1#1) | 5 => fun i => !(k0_cond2 i == 1#1) | ⟨_ + 6, h⟩ => absurd h (Nat.not_lt.2 (Nat.le_add_left _ _))

abbrev win1_0 : Pipeline.Window sig grid1 :=
  Pipeline.Window.ofSpec (Memref.whole main_v108) S64x160.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_v110) S64x160.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v112) S64x160.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v114) S64x160.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v116) S64x160.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v118) S64x160.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v120) S64x160.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v122) S64x160.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v95) S64x160.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v106) S64x160.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_v123_0) S1x1.size cc1_transform_10 reads1_10 true true 1 stage1_10 sem1_10
    hrank1 hreads1_10 hinb1_10 nbuf1_10 (Memref.isWhole_whole _) hwx1_10 hstage1_10

abbrev win1_11 : Pipeline.Window sig grid1 :=
  Pipeline.Window.ofSpec (Memref.whole main_v123_1) S1x1.size cc1_transform_11 reads1_11 true true 1 stage1_11 sem1_11
    hrank1 hreads1_11 hinb1_11 nbuf1_11 (Memref.isWhole_whole _) hwx1_11 hstage1_11

abbrev win1_12 : Pipeline.Window sig grid1 :=
  Pipeline.Window.ofSpec (Memref.whole main_v123_2) S1x1.size cc1_transform_12 reads1_12 true true 1 stage1_12 sem1_12
    hrank1 hreads1_12 hinb1_12 nbuf1_12 (Memref.isWhole_whole _) hwx1_12 hstage1_12

abbrev win1_13 : Pipeline.Window sig grid1 :=
  Pipeline.Window.ofSpec (Memref.whole main_v123_3) S1x1.size cc1_transform_13 reads1_13 true true 1 stage1_13 sem1_13
    hrank1 hreads1_13 hinb1_13 nbuf1_13 (Memref.isWhole_whole _) hwx1_13 hstage1_13

abbrev win1 : Fin 14 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | 11 => win1_11 | 12 => win1_12 | 13 => win1_13 | ⟨_ + 14, h⟩ => absurd h (Nat.not_lt.2 (Nat.le_add_left _ _))
abbrev spec1 : Fin 14 → Pipeline.WinSpec sig grid1.rank := fun w => (win1 w).toWinSpec

class Facts : Prop extends Facts₀ where

variable [Facts]
-- ==== ReferenceIdeal.lean ====
abbrev S64x1x320x320 : Shape := ⟨4, ![64, 1, 320, 320]⟩
abbrev S64x4x320x320 : Shape := ⟨4, ![64, 4, 320, 320]⟩
abbrev S64x32x5 : Shape := ⟨3, ![64, 32, 5]⟩
abbrev S_ : Shape := ⟨0, ![]⟩
abbrev S6553600 : Shape := ⟨1, ![6553600]⟩
abbrev S64x32x1 : Shape := ⟨3, ![64, 32, 1]⟩
abbrev S64x32 : Shape := ⟨2, ![64, 32]⟩
abbrev S64x160 : Shape := ⟨2, ![64, 160]⟩
abbrev S64x4x102400 : Shape := ⟨3, ![64, 4, 102400]⟩
abbrev S64x1x160 : Shape := ⟨3, ![64, 1, 160]⟩
abbrev S64x4x160 : Shape := ⟨3, ![64, 4, 160]⟩
abbrev S64x4x160x1 : Shape := ⟨4, ![64, 4, 160, 1]⟩
abbrev S1 : Shape := ⟨1, ![1]⟩
abbrev S1x1x1x1 : Shape := ⟨4, ![1, 1, 1, 1]⟩
abbrev S64x160x4 : Shape := ⟨3, ![64, 160, 4]⟩
abbrev S64x102400 : Shape := ⟨2, ![64, 102400]⟩
abbrev S64x160x1 : Shape := ⟨3, ![64, 160, 1]⟩
abbrev S1x1x1 : Shape := ⟨3, ![1, 1, 1]⟩
abbrev S64x32x4 : Shape := ⟨3, ![64, 32, 4]⟩
abbrev S64x32x1x4 : Shape := ⟨4, ![64, 32, 1, 4]⟩
abbrev S64x32x5x4 : Shape := ⟨4, ![64, 32, 5, 4]⟩
abbrev S64 : Shape := ⟨1, ![64]⟩

abbrev nBuf : Space → Nat
  | .hbm => 451
  | .vmem => 0
  | .smem => 0
  | _ => 0

abbrev hbmTy0_0 (i : Nat) : BufTy := match i % 128 with
  | 0 => ⟨S64x1x320x320, .f32⟩
  | 1 => ⟨S64x1x320x320, .f32⟩
  | 2 => ⟨S64x4x320x320, .f32⟩
  | 3 => ⟨S64x1x320x320, .f32⟩
  | 4 => ⟨S64x32x5, .f32⟩
  | 5 => ⟨S64x1x320x320, .f32⟩
  | 6 => ⟨S_, .f32⟩
  | 7 => ⟨S64x1x320x320, .f32⟩
  | 8 => ⟨S64x1x320x320, .f32⟩
  | 9 => ⟨S64x1x320x320, .f32⟩
  | 10 => ⟨S64x1x320x320, .f32⟩
  | 11 => ⟨S_, .f32⟩
  | 12 => ⟨S64x1x320x320, .f32⟩
  | 13 => ⟨S64x1x320x320, .f32⟩
  | 14 => ⟨S64x1x320x320, .f32⟩
  | 15 => ⟨S_, .f32⟩
  | 16 => ⟨S64x1x320x320, .f32⟩
  | 17 => ⟨S64x1x320x320, .f32⟩
  | 18 => ⟨S64x1x320x320, .f32⟩
  | 19 => ⟨S64x1x320x320, .f32⟩
  | 20 => ⟨S64x1x320x320, .f32⟩
  | 21 => ⟨S_, .f32⟩
  | 22 => ⟨S_, .f32⟩
  | 23 => ⟨S_, .f32⟩
  | 24 => ⟨S_, .f32⟩
  | 25 => ⟨S6553600, .f32⟩
  | 26 => ⟨S6553600, .f32⟩
  | 27 => ⟨S6553600, .f32⟩
  | 28 => ⟨S_, .f32⟩
  | 29 => ⟨S_, .f32⟩
  | 30 => ⟨S_, .f32⟩
  | 31 => ⟨S_, .f32⟩
  | 32 => ⟨S_, .f32⟩
  | 33 => ⟨S_, .f32⟩
  | 34 => ⟨S_, .f32⟩
  | 35 => ⟨S_, .f32⟩
  | 36 => ⟨S_, .f32⟩
  | 37 => ⟨S_, .f32⟩
  | 38 => ⟨S_, .f32⟩
  | 39 => ⟨S_, .f32⟩
  | 40 => ⟨S_, .f32⟩
  | 41 => ⟨S_, .f32⟩
  | 42 => ⟨S_, .f32⟩
  | 43 => ⟨S_, .f32⟩
  | 44 => ⟨S_, .f32⟩
  | 45 => ⟨S_, .f32⟩
  | 46 => ⟨S_, .f32⟩
  | 47 => ⟨S_, .f32⟩
  | 48 => ⟨S_, .f32⟩
  | 49 => ⟨S64x32x1, .f32⟩
  | 50 => ⟨S64x32, .f32⟩
  | 51 => ⟨S64x32x1, .f32⟩
  | 52 => ⟨S64x32, .f32⟩
  | 53 => ⟨S_, .f32⟩
  | 54 => ⟨S64x32, .f32⟩
  | 55 => ⟨S64x32, .f32⟩
  | 56 => ⟨S_, .f32⟩
  | 57 => ⟨S_, .f32⟩
  | 58 => ⟨S_, .f32⟩
  | 59 => ⟨S64x32, .f32⟩
  | 60 => ⟨S64x32, .f32⟩
  | 61 => ⟨S_, .f32⟩
  | 62 => ⟨S64x32, .f32⟩
  | 63 => ⟨S64x32, .f32⟩
  | 64 => ⟨S64x32x1, .f32⟩
  | 65 => ⟨S64x32, .f32⟩
  | 66 => ⟨S_, .f32⟩
  | 67 => ⟨S64x32, .f32⟩
  | 68 => ⟨S64x32, .f32⟩
  | 69 => ⟨S_, .f32⟩
  | 70 => ⟨S_, .f32⟩
  | 71 => ⟨S_, .f32⟩
  | 72 => ⟨S64x32, .f32⟩
  | 73 => ⟨S64x32, .f32⟩
  | 74 => ⟨S_, .f32⟩
  | 75 => ⟨S64x32, .f32⟩
  | 76 => ⟨S64x32, .f32⟩
  | 77 => ⟨S_, .f32⟩
  | 78 => ⟨S64x32, .f32⟩
  | 79 => ⟨S64x32, .f32⟩
  | 80 => ⟨S64x32x1, .f32⟩
  | 81 => ⟨S64x32, .f32⟩
  | 82 => ⟨S_, .f32⟩
  | 83 => ⟨S64x32, .f32⟩
  | 84 => ⟨S64x32, .f32⟩
  | 85 => ⟨S_, .f32⟩
  | 86 => ⟨S64x32, .f32⟩
  | 87 => ⟨S64x32, .f32⟩
  | 88 => ⟨S64x32, .f32⟩
  | 89 => ⟨S_, .f32⟩
  | 90 => ⟨S64x32, .f32⟩
  | 91 => ⟨S64x32, .f32⟩
  | 92 => ⟨S64x32x1, .f32⟩
  | 93 => ⟨S64x32, .f32⟩
  | 94 => ⟨S_, .f32⟩
  | 95 => ⟨S64x32, .f32⟩
  | 96 => ⟨S64x32, .f32⟩
  | 97 => ⟨S_, .f32⟩
  | 98 => ⟨S64x32, .f32⟩
  | 99 => ⟨S64x32, .f32⟩
  | 100 => ⟨S64x32, .f32⟩
  | 101 => ⟨S_, .f32⟩
  | 102 => ⟨S64x32, .f32⟩
  | 103 => ⟨S64x32, .f32⟩
  | 104 => ⟨S64x32, .i32⟩
  | 105 => ⟨S_, .i32⟩
  | 106 => ⟨S_, .i32⟩
  | 107 => ⟨S_, .i32⟩
  | 108 => ⟨S64x32, .i32⟩
  | 109 => ⟨S64x32, .i32⟩
  | 110 => ⟨S_, .i32⟩
  | 111 => ⟨S64x32, .i32⟩
  | 112 => ⟨S64x32, .i32⟩
  | 113 => ⟨S_, .f32⟩
  | 114 => ⟨S64x32, .f32⟩
  | 115 => ⟨S64x32, .f32⟩
  | 116 => ⟨S64x32, .i32⟩
  | 117 => ⟨S_, .i32⟩
  | 118 => ⟨S_, .i32⟩
  | 119 => ⟨S_, .i32⟩
  | 120 => ⟨S64x32, .i32⟩
  | 121 => ⟨S64x32, .i32⟩
  | 122 => ⟨S_, .i32⟩
  | 123 => ⟨S64x32, .i32⟩
  | 124 => ⟨S64x32, .i32⟩
  | 125 => ⟨S_, .i32⟩
  | 126 => ⟨S64x32, .i32⟩
  | 127 => ⟨S64x32, .i32⟩
  | _ => ⟨S64x1x320x320, .f32⟩

abbrev hbmTy0_1 (i : Nat) : BufTy := match i % 128 with
  | 0 => ⟨S_, .f32⟩
  | 1 => ⟨S64x32, .f32⟩
  | 2 => ⟨S64x32, .f32⟩
  | 3 => ⟨S64x32, .i32⟩
  | 4 => ⟨S_, .i32⟩
  | 5 => ⟨S64x32, .i32⟩
  | 6 => ⟨S64x32, .i32⟩
  | 7 => ⟨S64x32, .i32⟩
  | 8 => ⟨S_, .i32⟩
  | 9 => ⟨S64x32, .i32⟩
  | 10 => ⟨S64x32, .i32⟩
  | 11 => ⟨S_, .f32⟩
  | 12 => ⟨S64x32, .f32⟩
  | 13 => ⟨S64x32, .f32⟩
  | 14 => ⟨S64x32, .i32⟩
  | 15 => ⟨S_, .i32⟩
  | 16 => ⟨S64x32, .i32⟩
  | 17 => ⟨S64x32, .i32⟩
  | 18 => ⟨S64x32, .i32⟩
  | 19 => ⟨S64x32, .i32⟩
  | 20 => ⟨S_, .i32⟩
  | 21 => ⟨S_, .i32⟩
  | 22 => ⟨S64x32, .i32⟩
  | 23 => ⟨S64x32, .i32⟩
  | 24 => ⟨S64x32, .i32⟩
  | 25 => ⟨S_, .i32⟩
  | 26 => ⟨S64x32, .i32⟩
  | 27 => ⟨S64x32, .i1⟩
  | 28 => ⟨S64x32, .i32⟩
  | 29 => ⟨S64x32, .i32⟩
  | 30 => ⟨S_, .i32⟩
  | 31 => ⟨S64x32, .i32⟩
  | 32 => ⟨S64x32, .i1⟩
  | 33 => ⟨S64x32, .i1⟩
  | 34 => ⟨S_, .i32⟩
  | 35 => ⟨S64x32, .i32⟩
  | 36 => ⟨S64x32, .i32⟩
  | 37 => ⟨S64x32, .i32⟩
  | 38 => ⟨S64x32, .i32⟩
  | 39 => ⟨S_, .i32⟩
  | 40 => ⟨S_, .i32⟩
  | 41 => ⟨S64x32, .i32⟩
  | 42 => ⟨S64x32, .i32⟩
  | 43 => ⟨S64x32, .i32⟩
  | 44 => ⟨S_, .i32⟩
  | 45 => ⟨S64x32, .i32⟩
  | 46 => ⟨S64x32, .i1⟩
  | 47 => ⟨S64x32, .i32⟩
  | 48 => ⟨S64x32, .i32⟩
  | 49 => ⟨S_, .i32⟩
  | 50 => ⟨S64x32, .i32⟩
  | 51 => ⟨S64x32, .i1⟩
  | 52 => ⟨S64x32, .i1⟩
  | 53 => ⟨S_, .i32⟩
  | 54 => ⟨S64x32, .i32⟩
  | 55 => ⟨S64x32, .i32⟩
  | 56 => ⟨S64x32, .i32⟩
  | 57 => ⟨S64x32x1, .i32⟩
  | 58 => ⟨S64x32x1, .i32⟩
  | 59 => ⟨S64x32x1, .i32⟩
  | 60 => ⟨S64x32x1, .i32⟩
  | 61 => ⟨S64x32x1, .i32⟩
  | 62 => ⟨S64x32x5, .i32⟩
  | 63 => ⟨S64x32x1, .i32⟩
  | 64 => ⟨S64x32x1, .i32⟩
  | 65 => ⟨S64x32x1, .i32⟩
  | 66 => ⟨S64x32x1, .i32⟩
  | 67 => ⟨S64x32x1, .i32⟩
  | 68 => ⟨S64x32x5, .i32⟩
  | 69 => ⟨S_, .i32⟩
  | 70 => ⟨S64x32x5, .i32⟩
  | 71 => ⟨S64x32x5, .i32⟩
  | 72 => ⟨S64x32x5, .i32⟩
  | 73 => ⟨S64x160, .i32⟩
  | 74 => ⟨S64x4x102400, .f32⟩
  | 75 => ⟨S64x1x160, .i32⟩
  | 76 => ⟨S64x4x160, .i32⟩
  | 77 => ⟨S_, .i32⟩
  | 78 => ⟨S64x4x160, .i32⟩
  | 79 => ⟨S64x4x160, .i1⟩
  | 80 => ⟨S_, .i32⟩
  | 81 => ⟨S64x4x160, .i32⟩
  | 82 => ⟨S64x4x160, .i32⟩
  | 83 => ⟨S64x4x160, .i32⟩
  | 84 => ⟨S64x4x160x1, .i32⟩
  | 85 => ⟨S1, .i32⟩
  | 86 => ⟨S_, .i32⟩
  | 87 => ⟨S64x4x160x1, .i32⟩
  | 88 => ⟨S64x4x160x1, .i1⟩
  | 89 => ⟨S1x1x1x1, .i32⟩
  | 90 => ⟨S64x4x160x1, .i32⟩
  | 91 => ⟨S64x4x160x1, .i1⟩
  | 92 => ⟨S64x4x160x1, .i1⟩
  | 93 => ⟨S_, .i1⟩
  | 94 => ⟨S64x4x160, .i1⟩
  | 95 => ⟨S64x4x160, .f32⟩
  | 96 => ⟨S_, .f32⟩
  | 97 => ⟨S64x4x160, .f32⟩
  | 98 => ⟨S64x4x160, .f32⟩
  | 99 => ⟨S64x160x4, .f32⟩
  | 100 => ⟨S64x102400, .f32⟩
  | 101 => ⟨S_, .i32⟩
  | 102 => ⟨S64x160, .i32⟩
  | 103 => ⟨S64x160, .i1⟩
  | 104 => ⟨S_, .i32⟩
  | 105 => ⟨S64x160, .i32⟩
  | 106 => ⟨S64x160, .i32⟩
  | 107 => ⟨S64x160, .i32⟩
  | 108 => ⟨S64x160x1, .i32⟩
  | 109 => ⟨S1, .i32⟩
  | 110 => ⟨S_, .i32⟩
  | 111 => ⟨S64x160x1, .i32⟩
  | 112 => ⟨S64x160x1, .i1⟩
  | 113 => ⟨S1x1x1, .i32⟩
  | 114 => ⟨S64x160x1, .i32⟩
  | 115 => ⟨S64x160x1, .i1⟩
  | 116 => ⟨S64x160x1, .i1⟩
  | 117 => ⟨S_, .i1⟩
  | 118 => ⟨S64x160, .i1⟩
  | 119 => ⟨S64x160, .f32⟩
  | 120 => ⟨S_, .f32⟩
  | 121 => ⟨S64x160, .f32⟩
  | 122 => ⟨S64x160, .f32⟩
  | 123 => ⟨S64x32x1, .f32⟩
  | 124 => ⟨S64x32x1, .f32⟩
  | 125 => ⟨S64x32x1, .f32⟩
  | 126 => ⟨S64x32x1, .f32⟩
  | 127 => ⟨S64x32x4, .f32⟩
  | _ => ⟨S64x1x320x320, .f32⟩

abbrev hbmTy0_2 (i : Nat) : BufTy := match i % 128 with
  | 0 => ⟨S64x32x1x4, .f32⟩
  | 1 => ⟨S64x32x5x4, .f32⟩
  | 2 => ⟨S64x160x4, .f32⟩
  | 3 => ⟨S64x32x1, .f32⟩
  | 4 => ⟨S64x32x5, .f32⟩
  | 5 => ⟨S64x160, .f32⟩
  | 6 => ⟨S64x160x1, .f32⟩
  | 7 => ⟨S64x160, .f32⟩
  | 8 => ⟨S_, .f32⟩
  | 9 => ⟨S_, .f32⟩
  | 10 => ⟨S_, .f32⟩
  | 11 => ⟨S64x160, .f32⟩
  | 12 => ⟨S64x160, .f32⟩
  | 13 => ⟨S_, .f32⟩
  | 14 => ⟨S64x160, .f32⟩
  | 15 => ⟨S64x160, .f32⟩
  | 16 => ⟨S64x160x1, .f32⟩
  | 17 => ⟨S64x160, .f32⟩
  | 18 => ⟨S_, .f32⟩
  | 19 => ⟨S_, .f32⟩
  | 20 => ⟨S_, .f32⟩
  | 21 => ⟨S64x160, .f32⟩
  | 22 => ⟨S64x160, .f32⟩
  | 23 => ⟨S_, .f32⟩
  | 24 => ⟨S64x160, .f32⟩
  | 25 => ⟨S64x160, .f32⟩
  | 26 => ⟨S64x160x1, .f32⟩
  | 27 => ⟨S64x160, .f32⟩
  | 28 => ⟨S_, .f32⟩
  | 29 => ⟨S_, .f32⟩
  | 30 => ⟨S_, .f32⟩
  | 31 => ⟨S64x160, .f32⟩
  | 32 => ⟨S64x160, .f32⟩
  | 33 => ⟨S_, .f32⟩
  | 34 => ⟨S64x160, .f32⟩
  | 35 => ⟨S64x160, .f32⟩
  | 36 => ⟨S64x160x1, .f32⟩
  | 37 => ⟨S64x160, .f32⟩
  | 38 => ⟨S_, .f32⟩
  | 39 => ⟨S_, .f32⟩
  | 40 => ⟨S_, .f32⟩
  | 41 => ⟨S64x160, .f32⟩
  | 42 => ⟨S64x160, .f32⟩
  | 43 => ⟨S_, .f32⟩
  | 44 => ⟨S64x160, .f32⟩
  | 45 => ⟨S64x160, .f32⟩
  | 46 => ⟨S64x160, .f32⟩
  | 47 => ⟨S64x160, .f32⟩
  | 48 => ⟨S64x160, .f32⟩
  | 49 => ⟨S64x160, .f32⟩
  | 50 => ⟨S64x160x1, .f32⟩
  | 51 => ⟨S64x160x1, .f32⟩
  | 52 => ⟨S64x160x1, .f32⟩
  | 53 => ⟨S64x160x1, .f32⟩
  | 54 => ⟨S64x160x4, .f32⟩
  | 55 => ⟨S64x160x1, .f32⟩
  | 56 => ⟨S64x160, .f32⟩
  | 57 => ⟨S64x160x1, .f32⟩
  | 58 => ⟨S64x160, .f32⟩
  | 59 => ⟨S64x160x1, .f32⟩
  | 60 => ⟨S64x160, .f32⟩
  | 61 => ⟨S64x160x1, .f32⟩
  | 62 => ⟨S64x160, .f32⟩
  | 63 => ⟨S64x160x1, .f32⟩
  | 64 => ⟨S64x160, .f32⟩
  | 65 => ⟨S64x160x1, .f32⟩
  | 66 => ⟨S64x160, .f32⟩
  | 67 => ⟨S64x160x1, .f32⟩
  | 68 => ⟨S64x160, .f32⟩
  | 69 => ⟨S64x160x1, .f32⟩
  | 70 => ⟨S64x160, .f32⟩
  | 71 => ⟨S64x160, .f32⟩
  | 72 => ⟨S64x160, .f32⟩
  | 73 => ⟨S64x160, .f32⟩
  | 74 => ⟨S64x160, .f32⟩
  | 75 => ⟨S64x160, .f32⟩
  | 76 => ⟨S64x160, .f32⟩
  | 77 => ⟨S64x160, .f32⟩
  | 78 => ⟨S64x160, .f32⟩
  | 79 => ⟨S64x160, .f32⟩
  | 80 => ⟨S_, .f32⟩
  | 81 => ⟨S_, .f32⟩
  | 82 => ⟨S64x160, .f32⟩
  | 83 => ⟨S64x160, .f32⟩
  | 84 => ⟨S64x160, .f32⟩
  | 85 => ⟨S64x160, .f32⟩
  | 86 => ⟨S64x160, .f32⟩
  | 87 => ⟨S_, .f32⟩
  | 88 => ⟨S_, .f32⟩
  | 89 => ⟨S64x160, .f32⟩
  | 90 => ⟨S64x160, .f32⟩
  | 91 => ⟨S64x160, .f32⟩
  | 92 => ⟨S64x160, .f32⟩
  | 93 => ⟨S64x160, .f32⟩
  | 94 => ⟨S_, .f32⟩
  | 95 => ⟨S64x160, .f32⟩
  | 96 => ⟨S64x160, .f32⟩
  | 97 => ⟨S64x160, .f32⟩
  | 98 => ⟨S64x160, .f32⟩
  | 99 => ⟨S64x160, .f32⟩
  | 100 => ⟨S64x160, .f32⟩
  | 101 => ⟨S64x160, .f32⟩
  | 102 => ⟨S64x160, .f32⟩
  | 103 => ⟨S64x160, .f32⟩
  | 104 => ⟨S64x160, .f32⟩
  | 105 => ⟨S64x160, .f32⟩
  | 106 => ⟨S_, .f32⟩
  | 107 => ⟨S64x160, .f32⟩
  | 108 => ⟨S64x160, .f32⟩
  | 109 => ⟨S64x160, .f32⟩
  | 110 => ⟨S64x160, .f32⟩
  | 111 => ⟨S_, .f32⟩
  | 112 => ⟨S64x160, .f32⟩
  | 113 => ⟨S64x160, .f32⟩
  | 114 => ⟨S64x160, .f32⟩
  | 115 => ⟨S64x160, .f32⟩
  | 116 => ⟨S_, .f32⟩
  | 117 => ⟨S64x160, .f32⟩
  | 118 => ⟨S64x160, .f32⟩
  | 119 => ⟨S_, .f32⟩
  | 120 => ⟨S64, .f32⟩
  | 121 => ⟨S_, .f32⟩
  | 122 => ⟨S64, .f32⟩
  | 123 => ⟨S64, .f32⟩
  | 124 => ⟨S_, .f32⟩
  | 125 => ⟨S64, .f32⟩
  | 126 => ⟨S_, .f32⟩
  | 127 => ⟨S64, .f32⟩
  | _ => ⟨S64x1x320x320, .f32⟩

abbrev hbmTy0_3 (i : Nat) : BufTy := match i % 128 with
  | 0 => ⟨S64, .f32⟩
  | 1 => ⟨S64x160x4, .f32⟩
  | 2 => ⟨S64x160x4, .f32⟩
  | 3 => ⟨S_, .f32⟩
  | 4 => ⟨S64x160x4, .f32⟩
  | 5 => ⟨S64x160x4, .i1⟩
  | 6 => ⟨S_, .f32⟩
  | 7 => ⟨S64x160x4, .f32⟩
  | 8 => ⟨S64x160x4, .f32⟩
  | 9 => ⟨S64x160x4, .f32⟩
  | 10 => ⟨S_, .f32⟩
  | 11 => ⟨S64x160x4, .f32⟩
  | 12 => ⟨S64x160x4, .f32⟩
  | 13 => ⟨S64x160x4, .f32⟩
  | 14 => ⟨S_, .f32⟩
  | 15 => ⟨S64, .f32⟩
  | 16 => ⟨S_, .f32⟩
  | 17 => ⟨S64, .f32⟩
  | 18 => ⟨S64, .f32⟩
  | 19 => ⟨S_, .f32⟩
  | 20 => ⟨S64, .f32⟩
  | 21 => ⟨S64, .f32⟩
  | 22 => ⟨S_, .f32⟩
  | 23 => ⟨S64, .f32⟩
  | 24 => ⟨S64, .f32⟩
  | 25 => ⟨S64, .f32⟩
  | 26 => ⟨S_, .f32⟩
  | 27 => ⟨S64, .f32⟩
  | 28 => ⟨S64, .f32⟩
  | 29 => ⟨S64, .f32⟩
  | 30 => ⟨S_, .f32⟩
  | 31 => ⟨S_, .f32⟩
  | 32 => ⟨S_, .f32⟩
  | 33 => ⟨S_, .f32⟩
  | 34 => ⟨S64x160, .f32⟩
  | 35 => ⟨S_, .f32⟩
  | 36 => ⟨S64x160, .f32⟩
  | 37 => ⟨S64x160, .f32⟩
  | 38 => ⟨S64x160, .f32⟩
  | 39 => ⟨S64x160, .f32⟩
  | 40 => ⟨S_, .f32⟩
  | 41 => ⟨S64x160, .f32⟩
  | 42 => ⟨S64x160, .f32⟩
  | 43 => ⟨S64x160, .f32⟩
  | 44 => ⟨S_, .f32⟩
  | 45 => ⟨S64x160, .f32⟩
  | 46 => ⟨S64x160, .f32⟩
  | 47 => ⟨S64x160, .f32⟩
  | 48 => ⟨S64x160, .f32⟩
  | 49 => ⟨S64x160, .f32⟩
  | 50 => ⟨S_, .f32⟩
  | 51 => ⟨S64, .f32⟩
  | 52 => ⟨S_, .f32⟩
  | 53 => ⟨S64, .f32⟩
  | 54 => ⟨S64, .f32⟩
  | 55 => ⟨S_, .f32⟩
  | 56 => ⟨S_, .f32⟩
  | 57 => ⟨S_, .f32⟩
  | 58 => ⟨S_, .f32⟩
  | 59 => ⟨S_, .f32⟩
  | 60 => ⟨S_, .f32⟩
  | 61 => ⟨S_, .f32⟩
  | 62 => ⟨S_, .f32⟩
  | 63 => ⟨S_, .f32⟩
  | 64 => ⟨S_, .f32⟩
  | 65 => ⟨S_, .f32⟩
  | 66 => ⟨S_, .f32⟩
  | _ => ⟨S64x1x320x320, .f32⟩

abbrev hbmTy (i : Nat) : BufTy := match i / 128 with
  | 0 => hbmTy0_0 i
  | 1 => hbmTy0_1 i
  | 2 => hbmTy0_2 i
  | 3 => hbmTy0_3 i
  | _ => ⟨S64x1x320x320, .f32⟩

abbrev bufTy : (tb : Table) → Fin (tcTables nBuf tb) → BufTy
  | .hbm, ⟨i, _⟩ => hbmTy i
  | _, _ => ⟨S64x1x320x320, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_cst_3 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_4 : Ref sig .tc := ⟨.hbm, 28, rfl⟩
abbrev main_v18 : Ref sig .tc := ⟨.hbm, 29, rfl⟩
abbrev main_cst_5 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_cst_7 : Ref sig .tc := ⟨.hbm, 34, rfl⟩
abbrev main_v21 : Ref sig .tc := ⟨.hbm, 35, rfl⟩
abbrev main_cst_8 : Ref sig .tc := ⟨.hbm, 36, rfl⟩
abbrev main_v22 : Ref sig .tc := ⟨.hbm, 37, rfl⟩
abbrev main_v23 : Ref sig .tc := ⟨.hbm, 38, rfl⟩
abbrev main_cst_9 : Ref sig .tc := ⟨.hbm, 39, rfl⟩
abbrev main_v24 : Ref sig .tc := ⟨.hbm, 40, rfl⟩
abbrev main_v25 : Ref sig .tc := ⟨.hbm, 41, rfl⟩
abbrev main_cst_10 : Ref sig .tc := ⟨.hbm, 42, rfl⟩
abbrev main_v26 : Ref sig .tc := ⟨.hbm, 43, rfl⟩
abbrev main_cst_11 : Ref sig .tc := ⟨.hbm, 44, rfl⟩
abbrev main_v27 : Ref sig .tc := ⟨.hbm, 45, rfl⟩
abbrev main_cst_12 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_cst_13 : Ref sig .tc := ⟨.hbm, 53, rfl⟩
abbrev main_v34 : Ref sig .tc := ⟨.hbm, 54, rfl⟩
abbrev main_v35 : Ref sig .tc := ⟨.hbm, 55, rfl⟩
abbrev main_cst_14 : Ref sig .tc := ⟨.hbm, 56, rfl⟩
abbrev main_cst_15 : Ref sig .tc := ⟨.hbm, 57, rfl⟩
abbrev main_call0_v0 : Ref sig .tc := ⟨.hbm, 58, rfl⟩
abbrev main_call0_v1 : Ref sig .tc := ⟨.hbm, 59, rfl⟩
abbrev main_call0_v2 : Ref sig .tc := ⟨.hbm, 60, rfl⟩
abbrev main_call0_v3 : Ref sig .tc := ⟨.hbm, 61, rfl⟩
abbrev main_call0_v4 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_cst_16 : Ref sig .tc := ⟨.hbm, 66, rfl⟩
abbrev main_v39 : Ref sig .tc := ⟨.hbm, 67, rfl⟩
abbrev main_v40 : Ref sig .tc := ⟨.hbm, 68, rfl⟩
abbrev main_cst_17 : Ref sig .tc := ⟨.hbm, 69, rfl⟩
abbrev main_cst_18 : Ref sig .tc := ⟨.hbm, 70, rfl⟩
abbrev main_call1_v0 : Ref sig .tc := ⟨.hbm, 71, rfl⟩
abbrev main_call1_v1 : Ref sig .tc := ⟨.hbm, 72, rfl⟩
abbrev main_call1_v2 : Ref sig .tc := ⟨.hbm, 73, rfl⟩
abbrev main_call1_v3 : Ref sig .tc := ⟨.hbm, 74, rfl⟩
abbrev main_call1_v4 : Ref sig .tc := ⟨.hbm, 75, rfl⟩
abbrev main_v41 : Ref sig .tc := ⟨.hbm, 76, rfl⟩
abbrev main_cst_19 : Ref sig .tc := ⟨.hbm, 77, rfl⟩
abbrev main_v42 : Ref sig .tc := ⟨.hbm, 78, rfl⟩
abbrev main_v43 : Ref sig .tc := ⟨.hbm, 79, rfl⟩
abbrev main_v44 : Ref sig .tc := ⟨.hbm, 80, rfl⟩
abbrev main_v45 : Ref sig .tc := ⟨.hbm, 81, rfl⟩
abbrev main_cst_20 : Ref sig .tc := ⟨.hbm, 82, rfl⟩
abbrev main_v46 : Ref sig .tc := ⟨.hbm, 83, rfl⟩
abbrev main_v47 : Ref sig .tc := ⟨.hbm, 84, rfl⟩
abbrev main_cst_21 : Ref sig .tc := ⟨.hbm, 85, rfl⟩
abbrev main_v48 : Ref sig .tc := ⟨.hbm, 86, rfl⟩
abbrev main_v49 : Ref sig .tc := ⟨.hbm, 87, rfl⟩
abbrev main_v50 : Ref sig .tc := ⟨.hbm, 88, rfl⟩
abbrev main_cst_22 : Ref sig .tc := ⟨.hbm, 89, rfl⟩
abbrev main_v51 : Ref sig .tc := ⟨.hbm, 90, rfl⟩
abbrev main_v52 : Ref sig .tc := ⟨.hbm, 91, rfl⟩
abbrev main_v53 : Ref sig .tc := ⟨.hbm, 92, rfl⟩
abbrev main_v54 : Ref sig .tc := ⟨.hbm, 93, rfl⟩
abbrev main_cst_23 : Ref sig .tc := ⟨.hbm, 94, rfl⟩
abbrev main_v55 : Ref sig .tc := ⟨.hbm, 95, rfl⟩
abbrev main_v56 : Ref sig .tc := ⟨.hbm, 96, rfl⟩
abbrev main_cst_24 : Ref sig .tc := ⟨.hbm, 97, rfl⟩
abbrev main_v57 : Ref sig .tc := ⟨.hbm, 98, rfl⟩
abbrev main_v58 : Ref sig .tc := ⟨.hbm, 99, rfl⟩
abbrev main_v59 : Ref sig .tc := ⟨.hbm, 100, rfl⟩
abbrev main_cst_25 : Ref sig .tc := ⟨.hbm, 101, rfl⟩
abbrev main_v60 : Ref sig .tc := ⟨.hbm, 102, rfl⟩
abbrev main_v61 : Ref sig .tc := ⟨.hbm, 103, rfl⟩
abbrev main_v62 : Ref sig .tc := ⟨.hbm, 104, rfl⟩
abbrev main_c : Ref sig .tc := ⟨.hbm, 105, rfl⟩
abbrev main_c_26 : Ref sig .tc := ⟨.hbm, 106, rfl⟩
abbrev main_call2_v0 : Ref sig .tc := ⟨.hbm, 107, rfl⟩
abbrev main_call2_v1 : Ref sig .tc := ⟨.hbm, 108, rfl⟩
abbrev main_call2_v2 : Ref sig .tc := ⟨.hbm, 109, rfl⟩
abbrev main_call2_v3 : Ref sig .tc := ⟨.hbm, 110, rfl⟩
abbrev main_call2_v4 : Ref sig .tc := ⟨.hbm, 111, rfl⟩
abbrev main_v63 : Ref sig .tc := ⟨.hbm, 112, rfl⟩
abbrev main_cst_27 : Ref sig .tc := ⟨.hbm, 113, rfl⟩
abbrev main_v64 : Ref sig .tc := ⟨.hbm, 114, rfl⟩
abbrev main_v65 : Ref sig .tc := ⟨.hbm, 115, rfl⟩
abbrev main_v66 : Ref sig .tc := ⟨.hbm, 116, rfl⟩
abbrev main_c_28 : Ref sig .tc := ⟨.hbm, 117, rfl⟩
abbrev main_c_29 : Ref sig .tc := ⟨.hbm, 118, rfl⟩
abbrev main_call3_v0 : Ref sig .tc := ⟨.hbm, 119, rfl⟩
abbrev main_call3_v1 : Ref sig .tc := ⟨.hbm, 120, rfl⟩
abbrev main_call3_v2 : Ref sig .tc := ⟨.hbm, 121, rfl⟩
abbrev main_call3_v3 : Ref sig .tc := ⟨.hbm, 122, rfl⟩
abbrev main_call3_v4 : Ref sig .tc := ⟨.hbm, 123, rfl⟩
abbrev main_v67 : Ref sig .tc := ⟨.hbm, 124, rfl⟩
abbrev main_c_30 : Ref sig .tc := ⟨.hbm, 125, rfl⟩
abbrev main_v68 : Ref sig .tc := ⟨.hbm, 126, rfl⟩
abbrev main_v69 : Ref sig .tc := ⟨.hbm, 127, rfl⟩
abbrev main_cst_31 : Ref sig .tc := ⟨.hbm, 128, rfl⟩
abbrev main_v70 : Ref sig .tc := ⟨.hbm, 129, rfl⟩
abbrev main_v71 : Ref sig .tc := ⟨.hbm, 130, rfl⟩
abbrev main_v72 : Ref sig .tc := ⟨.hbm, 131, rfl⟩
abbrev main_c_32 : Ref sig .tc := ⟨.hbm, 132, rfl⟩
abbrev main_v73 : Ref sig .tc := ⟨.hbm, 133, rfl⟩
abbrev main_v74 : Ref sig .tc := ⟨.hbm, 134, rfl⟩
abbrev main_v75 : Ref sig .tc := ⟨.hbm, 135, rfl⟩
abbrev main_c_33 : Ref sig .tc := ⟨.hbm, 136, rfl⟩
abbrev main_v76 : Ref sig .tc := ⟨.hbm, 137, rfl⟩
abbrev main_v77 : Ref sig .tc := ⟨.hbm, 138, rfl⟩
abbrev main_cst_34 : Ref sig .tc := ⟨.hbm, 139, rfl⟩
abbrev main_v78 : Ref sig .tc := ⟨.hbm, 140, rfl⟩
abbrev main_v79 : Ref sig .tc := ⟨.hbm, 141, rfl⟩
abbrev main_v80 : Ref sig .tc := ⟨.hbm, 142, rfl⟩
abbrev main_c_35 : Ref sig .tc := ⟨.hbm, 143, rfl⟩
abbrev main_v81 : Ref sig .tc := ⟨.hbm, 144, rfl⟩
abbrev main_v82 : Ref sig .tc := ⟨.hbm, 145, rfl⟩
abbrev main_v83 : Ref sig .tc := ⟨.hbm, 146, rfl⟩
abbrev main_v84 : Ref sig .tc := ⟨.hbm, 147, rfl⟩
abbrev main_c_36 : Ref sig .tc := ⟨.hbm, 148, rfl⟩
abbrev main_call4_v0 : Ref sig .tc := ⟨.hbm, 149, rfl⟩
abbrev main_call4_v1 : Ref sig .tc := ⟨.hbm, 150, rfl⟩
abbrev main_call4_v2 : Ref sig .tc := ⟨.hbm, 151, rfl⟩
abbrev main_call4_v3 : Ref sig .tc := ⟨.hbm, 152, rfl⟩
abbrev main_call4_v4 : Ref sig .tc := ⟨.hbm, 153, rfl⟩
abbrev main_call4_v5 : Ref sig .tc := ⟨.hbm, 154, rfl⟩
abbrev main_call4_v6 : Ref sig .tc := ⟨.hbm, 155, rfl⟩
abbrev main_call4_v7 : Ref sig .tc := ⟨.hbm, 156, rfl⟩
abbrev main_call4_v8 : Ref sig .tc := ⟨.hbm, 157, rfl⟩
abbrev main_call4_c : Ref sig .tc := ⟨.hbm, 158, rfl⟩
abbrev main_call4_v9 : Ref sig .tc := ⟨.hbm, 159, rfl⟩
abbrev main_call4_v10 : Ref sig .tc := ⟨.hbm, 160, rfl⟩
abbrev main_call4_v11 : Ref sig .tc := ⟨.hbm, 161, rfl⟩
abbrev main_call4_c_0 : Ref sig .tc := ⟨.hbm, 162, rfl⟩
abbrev main_call4_v12 : Ref sig .tc := ⟨.hbm, 163, rfl⟩
abbrev main_call4_v13 : Ref sig .tc := ⟨.hbm, 164, rfl⟩
abbrev main_v85 : Ref sig .tc := ⟨.hbm, 165, rfl⟩
abbrev main_v86 : Ref sig .tc := ⟨.hbm, 166, rfl⟩
abbrev main_c_37 : Ref sig .tc := ⟨.hbm, 167, rfl⟩
abbrev main_call5_v0 : Ref sig .tc := ⟨.hbm, 168, rfl⟩
abbrev main_call5_v1 : Ref sig .tc := ⟨.hbm, 169, rfl⟩
abbrev main_call5_v2 : Ref sig .tc := ⟨.hbm, 170, rfl⟩
abbrev main_call5_v3 : Ref sig .tc := ⟨.hbm, 171, rfl⟩
abbrev main_call5_v4 : Ref sig .tc := ⟨.hbm, 172, rfl⟩
abbrev main_call5_v5 : Ref sig .tc := ⟨.hbm, 173, rfl⟩
abbrev main_call5_v6 : Ref sig .tc := ⟨.hbm, 174, rfl⟩
abbrev main_call5_v7 : Ref sig .tc := ⟨.hbm, 175, rfl⟩
abbrev main_call5_v8 : Ref sig .tc := ⟨.hbm, 176, rfl⟩
abbrev main_call5_c : Ref sig .tc := ⟨.hbm, 177, rfl⟩
abbrev main_call5_v9 : Ref sig .tc := ⟨.hbm, 178, rfl⟩
abbrev main_call5_v10 : Ref sig .tc := ⟨.hbm, 179, rfl⟩
abbrev main_call5_v11 : Ref sig .tc := ⟨.hbm, 180, rfl⟩
abbrev main_call5_c_0 : Ref sig .tc := ⟨.hbm, 181, rfl⟩
abbrev main_call5_v12 : Ref sig .tc := ⟨.hbm, 182, rfl⟩
abbrev main_call5_v13 : Ref sig .tc := ⟨.hbm, 183, rfl⟩
abbrev main_v87 : Ref sig .tc := ⟨.hbm, 184, rfl⟩
abbrev main_v88 : Ref sig .tc := ⟨.hbm, 185, rfl⟩
abbrev main_v89 : Ref sig .tc := ⟨.hbm, 186, rfl⟩
abbrev main_v90 : Ref sig .tc := ⟨.hbm, 187, rfl⟩
abbrev main_v91 : Ref sig .tc := ⟨.hbm, 188, rfl⟩
abbrev main_v92 : Ref sig .tc := ⟨.hbm, 189, rfl⟩
abbrev main_v93 : Ref sig .tc := ⟨.hbm, 190, rfl⟩
abbrev main_v94 : Ref sig .tc := ⟨.hbm, 191, rfl⟩
abbrev main_v95 : Ref sig .tc := ⟨.hbm, 192, rfl⟩
abbrev main_v96 : Ref sig .tc := ⟨.hbm, 193, rfl⟩
abbrev main_v97 : Ref sig .tc := ⟨.hbm, 194, rfl⟩
abbrev main_v98 : Ref sig .tc := ⟨.hbm, 195, rfl⟩
abbrev main_v99 : Ref sig .tc := ⟨.hbm, 196, rfl⟩
abbrev main_c_38 : Ref sig .tc := ⟨.hbm, 197, rfl⟩
abbrev main_v100 : Ref sig .tc := ⟨.hbm, 198, rfl⟩
abbrev main_v101 : Ref sig .tc := ⟨.hbm, 199, rfl⟩
abbrev main_v102 : Ref sig .tc := ⟨.hbm, 200, rfl⟩
abbrev main_v103 : Ref sig .tc := ⟨.hbm, 201, rfl⟩
abbrev main_v104 : Ref sig .tc := ⟨.hbm, 202, rfl⟩
abbrev main_v105 : Ref sig .tc := ⟨.hbm, 203, rfl⟩
abbrev main_v106 : Ref sig .tc := ⟨.hbm, 204, rfl⟩
abbrev main_call6_c : Ref sig .tc := ⟨.hbm, 205, rfl⟩
abbrev main_call6_v0 : Ref sig .tc := ⟨.hbm, 206, rfl⟩
abbrev main_call6_v1 : Ref sig .tc := ⟨.hbm, 207, rfl⟩
abbrev main_call6_c_0 : Ref sig .tc := ⟨.hbm, 208, rfl⟩
abbrev main_call6_v2 : Ref sig .tc := ⟨.hbm, 209, rfl⟩
abbrev main_call6_v3 : Ref sig .tc := ⟨.hbm, 210, rfl⟩
abbrev main_call6_v4 : Ref sig .tc := ⟨.hbm, 211, rfl⟩
abbrev main_call6_v5 : Ref sig .tc := ⟨.hbm, 212, rfl⟩
abbrev main_call6_c_1 : Ref sig .tc := ⟨.hbm, 213, rfl⟩
abbrev main_call6_c_2 : Ref sig .tc := ⟨.hbm, 214, rfl⟩
abbrev main_call6_v6 : Ref sig .tc := ⟨.hbm, 215, rfl⟩
abbrev main_call6_v7 : Ref sig .tc := ⟨.hbm, 216, rfl⟩
abbrev main_call6_v8 : Ref sig .tc := ⟨.hbm, 217, rfl⟩
abbrev main_call6_v9 : Ref sig .tc := ⟨.hbm, 218, rfl⟩
abbrev main_call6_v10 : Ref sig .tc := ⟨.hbm, 219, rfl⟩
abbrev main_call6_v11 : Ref sig .tc := ⟨.hbm, 220, rfl⟩
abbrev main_call6_c_3 : Ref sig .tc := ⟨.hbm, 221, rfl⟩
abbrev main_call6_v12 : Ref sig .tc := ⟨.hbm, 222, rfl⟩
abbrev main_call6_v13 : Ref sig .tc := ⟨.hbm, 223, rfl⟩
abbrev main_call6_cst : Ref sig .tc := ⟨.hbm, 224, rfl⟩
abbrev main_call6_v14 : Ref sig .tc := ⟨.hbm, 225, rfl⟩
abbrev main_v107 : Ref sig .tc := ⟨.hbm, 226, rfl⟩
abbrev main_v108 : Ref sig .tc := ⟨.hbm, 227, rfl⟩
abbrev main_v109 : Ref sig .tc := ⟨.hbm, 228, rfl⟩
abbrev main_call7_c : Ref sig .tc := ⟨.hbm, 229, rfl⟩
abbrev main_call7_v0 : Ref sig .tc := ⟨.hbm, 230, rfl⟩
abbrev main_call7_v1 : Ref sig .tc := ⟨.hbm, 231, rfl⟩
abbrev main_call7_c_0 : Ref sig .tc := ⟨.hbm, 232, rfl⟩
abbrev main_call7_v2 : Ref sig .tc := ⟨.hbm, 233, rfl⟩
abbrev main_call7_v3 : Ref sig .tc := ⟨.hbm, 234, rfl⟩
abbrev main_call7_v4 : Ref sig .tc := ⟨.hbm, 235, rfl⟩
abbrev main_call7_v5 : Ref sig .tc := ⟨.hbm, 236, rfl⟩
abbrev main_call7_c_1 : Ref sig .tc := ⟨.hbm, 237, rfl⟩
abbrev main_call7_c_2 : Ref sig .tc := ⟨.hbm, 238, rfl⟩
abbrev main_call7_v6 : Ref sig .tc := ⟨.hbm, 239, rfl⟩
abbrev main_call7_v7 : Ref sig .tc := ⟨.hbm, 240, rfl⟩
abbrev main_call7_v8 : Ref sig .tc := ⟨.hbm, 241, rfl⟩
abbrev main_call7_v9 : Ref sig .tc := ⟨.hbm, 242, rfl⟩
abbrev main_call7_v10 : Ref sig .tc := ⟨.hbm, 243, rfl⟩
abbrev main_call7_v11 : Ref sig .tc := ⟨.hbm, 244, rfl⟩
abbrev main_call7_c_3 : Ref sig .tc := ⟨.hbm, 245, rfl⟩
abbrev main_call7_v12 : Ref sig .tc := ⟨.hbm, 246, rfl⟩
abbrev main_call7_v13 : Ref sig .tc := ⟨.hbm, 247, rfl⟩
abbrev main_call7_cst : Ref sig .tc := ⟨.hbm, 248, rfl⟩
abbrev main_call7_v14 : Ref sig .tc := ⟨.hbm, 249, rfl⟩
abbrev main_v110 : Ref sig .tc := ⟨.hbm, 250, rfl⟩
abbrev main_v111 : Ref sig .tc := ⟨.hbm, 251, rfl⟩
abbrev main_v112 : Ref sig .tc := ⟨.hbm, 252, rfl⟩
abbrev main_v113 : Ref sig .tc := ⟨.hbm, 253, rfl⟩
abbrev main_v114 : Ref sig .tc := ⟨.hbm, 254, rfl⟩
abbrev main_v115 : Ref sig .tc := ⟨.hbm, 255, rfl⟩
abbrev main_v116 : Ref sig .tc := ⟨.hbm, 256, rfl⟩
abbrev main_v117 : Ref sig .tc := ⟨.hbm, 257, rfl⟩
abbrev main_v118 : Ref sig .tc := ⟨.hbm, 258, rfl⟩
abbrev main_v119 : Ref sig .tc := ⟨.hbm, 259, rfl⟩
abbrev main_v120 : Ref sig .tc := ⟨.hbm, 260, rfl⟩
abbrev main_v121 : Ref sig .tc := ⟨.hbm, 261, rfl⟩
abbrev main_v122 : Ref sig .tc := ⟨.hbm, 262, rfl⟩
abbrev main_v123 : Ref sig .tc := ⟨.hbm, 263, rfl⟩
abbrev main_cst_39 : Ref sig .tc := ⟨.hbm, 264, rfl⟩
abbrev main_cst_40 : Ref sig .tc := ⟨.hbm, 265, rfl⟩
abbrev main_call8_v0 : Ref sig .tc := ⟨.hbm, 266, rfl⟩
abbrev main_call8_v1 : Ref sig .tc := ⟨.hbm, 267, rfl⟩
abbrev main_call8_v2 : Ref sig .tc := ⟨.hbm, 268, rfl⟩
abbrev main_call8_v3 : Ref sig .tc := ⟨.hbm, 269, rfl⟩
abbrev main_call8_v4 : Ref sig .tc := ⟨.hbm, 270, rfl⟩
abbrev main_v124 : Ref sig .tc := ⟨.hbm, 271, rfl⟩
abbrev main_v125 : Ref sig .tc := ⟨.hbm, 272, rfl⟩
abbrev main_v126 : Ref sig .tc := ⟨.hbm, 273, rfl⟩
abbrev main_cst_41 : Ref sig .tc := ⟨.hbm, 274, rfl⟩
abbrev main_cst_42 : Ref sig .tc := ⟨.hbm, 275, rfl⟩
abbrev main_call9_v0 : Ref sig .tc := ⟨.hbm, 276, rfl⟩
abbrev main_call9_v1 : Ref sig .tc := ⟨.hbm, 277, rfl⟩
abbrev main_call9_v2 : Ref sig .tc := ⟨.hbm, 278, rfl⟩
abbrev main_call9_v3 : Ref sig .tc := ⟨.hbm, 279, rfl⟩
abbrev main_call9_v4 : Ref sig .tc := ⟨.hbm, 280, rfl⟩
abbrev main_v127 : Ref sig .tc := ⟨.hbm, 281, rfl⟩
abbrev main_v128 : Ref sig .tc := ⟨.hbm, 282, rfl⟩
abbrev main_v129 : Ref sig .tc := ⟨.hbm, 283, rfl⟩
abbrev main_cst_43 : Ref sig .tc := ⟨.hbm, 284, rfl⟩
abbrev main_cst_44 : Ref sig .tc := ⟨.hbm, 285, rfl⟩
abbrev main_call10_v0 : Ref sig .tc := ⟨.hbm, 286, rfl⟩
abbrev main_call10_v1 : Ref sig .tc := ⟨.hbm, 287, rfl⟩
abbrev main_call10_v2 : Ref sig .tc := ⟨.hbm, 288, rfl⟩
abbrev main_call10_v3 : Ref sig .tc := ⟨.hbm, 289, rfl⟩
abbrev main_call10_v4 : Ref sig .tc := ⟨.hbm, 290, rfl⟩
abbrev main_v130 : Ref sig .tc := ⟨.hbm, 291, rfl⟩
abbrev main_v131 : Ref sig .tc := ⟨.hbm, 292, rfl⟩
abbrev main_v132 : Ref sig .tc := ⟨.hbm, 293, rfl⟩
abbrev main_cst_45 : Ref sig .tc := ⟨.hbm, 294, rfl⟩
abbrev main_cst_46 : Ref sig .tc := ⟨.hbm, 295, rfl⟩
abbrev main_call11_v0 : Ref sig .tc := ⟨.hbm, 296, rfl⟩
abbrev main_call11_v1 : Ref sig .tc := ⟨.hbm, 297, rfl⟩
abbrev main_call11_v2 : Ref sig .tc := ⟨.hbm, 298, rfl⟩
abbrev main_call11_v3 : Ref sig .tc := ⟨.hbm, 299, rfl⟩
abbrev main_call11_v4 : Ref sig .tc := ⟨.hbm, 300, rfl⟩
abbrev main_v133 : Ref sig .tc := ⟨.hbm, 301, rfl⟩
abbrev main_v134 : Ref sig .tc := ⟨.hbm, 302, rfl⟩
abbrev main_v135 : Ref sig .tc := ⟨.hbm, 303, rfl⟩
abbrev main_v136 : Ref sig .tc := ⟨.hbm, 304, rfl⟩
abbrev main_v137 : Ref sig .tc := ⟨.hbm, 305, rfl⟩
abbrev main_v138 : Ref sig .tc := ⟨.hbm, 306, rfl⟩
abbrev main_v139 : Ref sig .tc := ⟨.hbm, 307, rfl⟩
abbrev main_v140 : Ref sig .tc := ⟨.hbm, 308, rfl⟩
abbrev main_v141 : Ref sig .tc := ⟨.hbm, 309, rfl⟩
abbrev main_v142 : Ref sig .tc := ⟨.hbm, 310, rfl⟩
abbrev main_v143 : Ref sig .tc := ⟨.hbm, 311, rfl⟩
abbrev main_v144 : Ref sig .tc := ⟨.hbm, 312, rfl⟩
abbrev main_v145 : Ref sig .tc := ⟨.hbm, 313, rfl⟩
abbrev main_v146 : Ref sig .tc := ⟨.hbm, 314, rfl⟩
abbrev main_v147 : Ref sig .tc := ⟨.hbm, 315, rfl⟩
abbrev main_v148 : Ref sig .tc := ⟨.hbm, 316, rfl⟩
abbrev main_v149 : Ref sig .tc := ⟨.hbm, 317, rfl⟩
abbrev main_v150 : Ref sig .tc := ⟨.hbm, 318, rfl⟩
abbrev main_v151 : Ref sig .tc := ⟨.hbm, 319, rfl⟩
abbrev main_v152 : Ref sig .tc := ⟨.hbm, 320, rfl⟩
abbrev main_v153 : Ref sig .tc := ⟨.hbm, 321, rfl⟩
abbrev main_v154 : Ref sig .tc := ⟨.hbm, 322, rfl⟩
abbrev main_v155 : Ref sig .tc := ⟨.hbm, 323, rfl⟩
abbrev main_v156 : Ref sig .tc := ⟨.hbm, 324, rfl⟩
abbrev main_v157 : Ref sig .tc := ⟨.hbm, 325, rfl⟩
abbrev main_v158 : Ref sig .tc := ⟨.hbm, 326, rfl⟩
abbrev main_v159 : Ref sig .tc := ⟨.hbm, 327, rfl⟩
abbrev main_v160 : Ref sig .tc := ⟨.hbm, 328, rfl⟩
abbrev main_v161 : Ref sig .tc := ⟨.hbm, 329, rfl⟩
abbrev main_v162 : Ref sig .tc := ⟨.hbm, 330, rfl⟩
abbrev main_v163 : Ref sig .tc := ⟨.hbm, 331, rfl⟩
abbrev main_v164 : Ref sig .tc := ⟨.hbm, 332, rfl⟩
abbrev main_v165 : Ref sig .tc := ⟨.hbm, 333, rfl⟩
abbrev main_v166 : Ref sig .tc := ⟨.hbm, 334, rfl⟩
abbrev main_v167 : Ref sig .tc := ⟨.hbm, 335, rfl⟩
abbrev main_cst_47 : Ref sig .tc := ⟨.hbm, 336, rfl⟩
abbrev main_call12_v0 : Ref sig .tc := ⟨.hbm, 337, rfl⟩
abbrev main_call12_v1 : Ref sig .tc := ⟨.hbm, 338, rfl⟩
abbrev main_v168 : Ref sig .tc := ⟨.hbm, 339, rfl⟩
abbrev main_v169 : Ref sig .tc := ⟨.hbm, 340, rfl⟩
abbrev main_v170 : Ref sig .tc := ⟨.hbm, 341, rfl⟩
abbrev main_v171 : Ref sig .tc := ⟨.hbm, 342, rfl⟩
abbrev main_cst_48 : Ref sig .tc := ⟨.hbm, 343, rfl⟩
abbrev main_call13_v0 : Ref sig .tc := ⟨.hbm, 344, rfl⟩
abbrev main_call13_v1 : Ref sig .tc := ⟨.hbm, 345, rfl⟩
abbrev main_v172 : Ref sig .tc := ⟨.hbm, 346, rfl⟩
abbrev main_v173 : Ref sig .tc := ⟨.hbm, 347, rfl⟩
abbrev main_v174 : Ref sig .tc := ⟨.hbm, 348, rfl⟩
abbrev main_v175 : Ref sig .tc := ⟨.hbm, 349, rfl⟩
abbrev main_cst_49 : Ref sig .tc := ⟨.hbm, 350, rfl⟩
abbrev main_v176 : Ref sig .tc := ⟨.hbm, 351, rfl⟩
abbrev main_v177 : Ref sig .tc := ⟨.hbm, 352, rfl⟩
abbrev main_v178 : Ref sig .tc := ⟨.hbm, 353, rfl⟩
abbrev main_v179 : Ref sig .tc := ⟨.hbm, 354, rfl⟩
abbrev main_v180 : Ref sig .tc := ⟨.hbm, 355, rfl⟩
abbrev main_v181 : Ref sig .tc := ⟨.hbm, 356, rfl⟩
abbrev main_v182 : Ref sig .tc := ⟨.hbm, 357, rfl⟩
abbrev main_v183 : Ref sig .tc := ⟨.hbm, 358, rfl⟩
abbrev main_v184 : Ref sig .tc := ⟨.hbm, 359, rfl⟩
abbrev main_v185 : Ref sig .tc := ⟨.hbm, 360, rfl⟩
abbrev main_v186 : Ref sig .tc := ⟨.hbm, 361, rfl⟩
abbrev main_cst_50 : Ref sig .tc := ⟨.hbm, 362, rfl⟩
abbrev main_v187 : Ref sig .tc := ⟨.hbm, 363, rfl⟩
abbrev main_v188 : Ref sig .tc := ⟨.hbm, 364, rfl⟩
abbrev main_v189 : Ref sig .tc := ⟨.hbm, 365, rfl⟩
abbrev main_v190 : Ref sig .tc := ⟨.hbm, 366, rfl⟩
abbrev main_cst_51 : Ref sig .tc := ⟨.hbm, 367, rfl⟩
abbrev main_v191 : Ref sig .tc := ⟨.hbm, 368, rfl⟩
abbrev main_v192 : Ref sig .tc := ⟨.hbm, 369, rfl⟩
abbrev main_v193 : Ref sig .tc := ⟨.hbm, 370, rfl⟩
abbrev main_v194 : Ref sig .tc := ⟨.hbm, 371, rfl⟩
abbrev main_cst_52 : Ref sig .tc := ⟨.hbm, 372, rfl⟩
abbrev main_v195 : Ref sig .tc := ⟨.hbm, 373, rfl⟩
abbrev main_v196 : Ref sig .tc := ⟨.hbm, 374, rfl⟩
abbrev main_cst_53 : Ref sig .tc := ⟨.hbm, 375, rfl⟩
abbrev main_v197 : Ref sig .tc := ⟨.hbm, 376, rfl⟩
abbrev main_cst_54 : Ref sig .tc := ⟨.hbm, 377, rfl⟩
abbrev main_v198 : Ref sig .tc := ⟨.hbm, 378, rfl⟩
abbrev main_v199 : Ref sig .tc := ⟨.hbm, 379, rfl⟩
abbrev main_cst_55 : Ref sig .tc := ⟨.hbm, 380, rfl⟩
abbrev main_v200 : Ref sig .tc := ⟨.hbm, 381, rfl⟩
abbrev main_cst_56 : Ref sig .tc := ⟨.hbm, 382, rfl⟩
abbrev main_v201 : Ref sig .tc := ⟨.hbm, 383, rfl⟩
abbrev main_v202 : Ref sig .tc := ⟨.hbm, 384, rfl⟩
abbrev main_v203 : Ref sig .tc := ⟨.hbm, 385, rfl⟩
abbrev main_v204 : Ref sig .tc := ⟨.hbm, 386, rfl⟩
abbrev main_cst_57 : Ref sig .tc := ⟨.hbm, 387, rfl⟩
abbrev main_v205 : Ref sig .tc := ⟨.hbm, 388, rfl⟩
abbrev main_v206 : Ref sig .tc := ⟨.hbm, 389, rfl⟩
abbrev main_cst_58 : Ref sig .tc := ⟨.hbm, 390, rfl⟩
abbrev main_v207 : Ref sig .tc := ⟨.hbm, 391, rfl⟩
abbrev main_v208 : Ref sig .tc := ⟨.hbm, 392, rfl⟩
abbrev main_v209 : Ref sig .tc := ⟨.hbm, 393, rfl⟩
abbrev main_cst_59 : Ref sig .tc := ⟨.hbm, 394, rfl⟩
abbrev main_v210 : Ref sig .tc := ⟨.hbm, 395, rfl⟩
abbrev main_v211 : Ref sig .tc := ⟨.hbm, 396, rfl⟩
abbrev main_v212 : Ref sig .tc := ⟨.hbm, 397, rfl⟩
abbrev main_cst_60 : Ref sig .tc := ⟨.hbm, 398, rfl⟩
abbrev main_v213 : Ref sig .tc := ⟨.hbm, 399, rfl⟩
abbrev main_cst_61 : Ref sig .tc := ⟨.hbm, 400, rfl⟩
abbrev main_v214 : Ref sig .tc := ⟨.hbm, 401, rfl⟩
abbrev main_v215 : Ref sig .tc := ⟨.hbm, 402, rfl⟩
abbrev main_cst_62 : Ref sig .tc := ⟨.hbm, 403, rfl⟩
abbrev main_v216 : Ref sig .tc := ⟨.hbm, 404, rfl⟩
abbrev main_v217 : Ref sig .tc := ⟨.hbm, 405, rfl⟩
abbrev main_cst_63 : Ref sig .tc := ⟨.hbm, 406, rfl⟩
abbrev main_v218 : Ref sig .tc := ⟨.hbm, 407, rfl⟩
abbrev main_v219 : Ref sig .tc := ⟨.hbm, 408, rfl⟩
abbrev main_v220 : Ref sig .tc := ⟨.hbm, 409, rfl⟩
abbrev main_cst_64 : Ref sig .tc := ⟨.hbm, 410, rfl⟩
abbrev main_v221 : Ref sig .tc := ⟨.hbm, 411, rfl⟩
abbrev main_v222 : Ref sig .tc := ⟨.hbm, 412, rfl⟩
abbrev main_v223 : Ref sig .tc := ⟨.hbm, 413, rfl⟩
abbrev main_cst_65 : Ref sig .tc := ⟨.hbm, 414, rfl⟩
abbrev main_v224 : Ref sig .tc := ⟨.hbm, 415, rfl⟩
abbrev main_cst_66 : Ref sig .tc := ⟨.hbm, 416, rfl⟩
abbrev main_v225 : Ref sig .tc := ⟨.hbm, 417, rfl⟩
abbrev main_v226 : Ref sig .tc := ⟨.hbm, 418, rfl⟩
abbrev main_cst_67 : Ref sig .tc := ⟨.hbm, 419, rfl⟩
abbrev main_v227 : Ref sig .tc := ⟨.hbm, 420, rfl⟩
abbrev main_v228 : Ref sig .tc := ⟨.hbm, 421, rfl⟩
abbrev main_v229 : Ref sig .tc := ⟨.hbm, 422, rfl⟩
abbrev main_v230 : Ref sig .tc := ⟨.hbm, 423, rfl⟩
abbrev main_cst_68 : Ref sig .tc := ⟨.hbm, 424, rfl⟩
abbrev main_v231 : Ref sig .tc := ⟨.hbm, 425, rfl⟩
abbrev main_v232 : Ref sig .tc := ⟨.hbm, 426, rfl⟩
abbrev main_v233 : Ref sig .tc := ⟨.hbm, 427, rfl⟩
abbrev main_cst_69 : Ref sig .tc := ⟨.hbm, 428, rfl⟩
abbrev main_v234 : Ref sig .tc := ⟨.hbm, 429, rfl⟩
abbrev main_v235 : Ref sig .tc := ⟨.hbm, 430, rfl⟩
abbrev main_v236 : Ref sig .tc := ⟨.hbm, 431, rfl⟩
abbrev main_v237 : Ref sig .tc := ⟨.hbm, 432, rfl⟩
abbrev main_v238 : Ref sig .tc := ⟨.hbm, 433, rfl⟩
abbrev main_cst_70 : Ref sig .tc := ⟨.hbm, 434, rfl⟩
abbrev main_v239 : Ref sig .tc := ⟨.hbm, 435, rfl⟩
abbrev main_cst_71 : Ref sig .tc := ⟨.hbm, 436, rfl⟩
abbrev main_v240 : Ref sig .tc := ⟨.hbm, 437, rfl⟩
abbrev main_v241 : Ref sig .tc := ⟨.hbm, 438, rfl⟩
abbrev main_cst_72 : Ref sig .tc := ⟨.hbm, 439, rfl⟩
abbrev main_v242 : Ref sig .tc := ⟨.hbm, 440, rfl⟩
abbrev main_cst_73 : Ref sig .tc := ⟨.hbm, 441, rfl⟩
abbrev main_v243 : Ref sig .tc := ⟨.hbm, 442, rfl⟩
abbrev main_cst_74 : Ref sig .tc := ⟨.hbm, 443, rfl⟩
abbrev main_v244 : Ref sig .tc := ⟨.hbm, 444, rfl⟩
abbrev main_cst_75 : Ref sig .tc := ⟨.hbm, 445, rfl⟩
abbrev main_v245 : Ref sig .tc := ⟨.hbm, 446, rfl⟩
abbrev main_v246 : Ref sig .tc := ⟨.hbm, 447, rfl⟩
abbrev main_cst_76 : Ref sig .tc := ⟨.hbm, 448, rfl⟩
abbrev main_v247 : Ref sig .tc := ⟨.hbm, 449, rfl⟩
abbrev main_v248 : Ref sig .tc := ⟨.hbm, 450, rfl⟩

abbrev nD : Nat := 1
abbrev τ : Topo := Topo.v7x

variable {F : FTy → Type} [FloatOps F]

class Facts₀ : Prop where
  bcast_S_S64x1x320x320 : S_.BroadcastsInDim S64x1x320x320 (![] : Fin 0 → Fin S64x1x320x320.rank)
  reducesTo_S64x1x320x320_S_d0_1_2_3 : S64x1x320x320.ReducesTo [0, 1, 2, 3] S_
  h_S_ : 0 < S_.numel
  shapeCasts_S64x1x320x320_S6553600 : S64x1x320x320.ShapeCasts S6553600
  reducesTo_S6553600_S_d0 : S6553600.ReducesTo [0] S_
  slices_S64x32x5_S64x32x1_0_0_0 : S64x32x5.Slices ![0, 0, 0] S64x32x1
  shapeCasts_S64x32x1_S64x32 : S64x32x1.ShapeCasts S64x32
  slices_S64x32x5_S64x32x1_0_0_1 : S64x32x5.Slices ![0, 0, 1] S64x32x1
  bcast_S_S64x32 : S_.BroadcastsInDim S64x32 (![] : Fin 0 → Fin S64x32.rank)
  slices_S64x32x5_S64x32x1_0_0_2 : S64x32x5.Slices ![0, 0, 2] S64x32x1
  slices_S64x32x5_S64x32x1_0_0_3 : S64x32x5.Slices ![0, 0, 3] S64x32x1
  slices_S64x32x5_S64x32x1_0_0_4 : S64x32x5.Slices ![0, 0, 4] S64x32x1
  bcast_S64x32_S64x32x1_0_1 : S64x32.BroadcastsInDim S64x32x1 (![0, 1] : Fin 2 → Fin S64x32x1.rank)
  concatenates_S64x32x1_S64x32x1_S64x32x1_S64x32x1_S64x32x1_S64x32x5_d2 : Shape.Concatenates [S64x32x1, S64x32x1, S64x32x1, S64x32x1, S64x32x1] S64x32x5 2
  bcast_S_S64x32x5 : S_.BroadcastsInDim S64x32x5 (![] : Fin 0 → Fin S64x32x5.rank)
  shapeCasts_S64x32x5_S64x160 : S64x32x5.ShapeCasts S64x160
  shapeCasts_S64x4x320x320_S64x4x102400 : S64x4x320x320.ShapeCasts S64x4x102400
  bcast_S64x160_S64x1x160_0_2 : S64x160.BroadcastsInDim S64x1x160 (![0, 2] : Fin 2 → Fin S64x1x160.rank)
  bcast_S64x1x160_S64x4x160_0_1_2 : S64x1x160.BroadcastsInDim S64x4x160 (![0, 1, 2] : Fin 3 → Fin S64x4x160.rank)
  bcast_S_S64x4x160 : S_.BroadcastsInDim S64x4x160 (![] : Fin 0 → Fin S64x4x160.rank)
  shapeCasts_S64x4x160_S64x4x160x1 : S64x4x160.ShapeCasts S64x4x160x1
  bcast_S_S64x4x160x1 : S_.BroadcastsInDim S64x4x160x1 (![] : Fin 0 → Fin S64x4x160x1.rank)
  bcast_S1_S1x1x1x1_3 : S1.BroadcastsInDim S1x1x1x1 (![3] : Fin 1 → Fin S1x1x1x1.rank)
  bcast_S1x1x1x1_S64x4x160x1_0_1_2_3 : S1x1x1x1.BroadcastsInDim S64x4x160x1 (![0, 1, 2, 3] : Fin 4 → Fin S64x4x160x1.rank)
  reducesTo_S64x4x160x1_S64x4x160_d3 : S64x4x160x1.ReducesTo [3] S64x4x160
  transposes_S64x4x160_S64x160x4_0_2_1 : S64x4x160.Transposes [0, 2, 1] S64x160x4
  shapeCasts_S64x1x320x320_S64x102400 : S64x1x320x320.ShapeCasts S64x102400
  bcast_S_S64x160 : S_.BroadcastsInDim S64x160 (![] : Fin 0 → Fin S64x160.rank)
  shapeCasts_S64x160_S64x160x1 : S64x160.ShapeCasts S64x160x1
  bcast_S_S64x160x1 : S_.BroadcastsInDim S64x160x1 (![] : Fin 0 → Fin S64x160x1.rank)
  bcast_S1_S1x1x1_2 : S1.BroadcastsInDim S1x1x1 (![2] : Fin 1 → Fin S1x1x1.rank)
  bcast_S1x1x1_S64x160x1_0_1_2 : S1x1x1.BroadcastsInDim S64x160x1 (![0, 1, 2] : Fin 3 → Fin S64x160x1.rank)
  reducesTo_S64x160x1_S64x160_d2 : S64x160x1.ReducesTo [2] S64x160
  concatenates_S64x32x1_S64x32x1_S64x32x1_S64x32x1_S64x32x4_d2 : Shape.Concatenates [S64x32x1, S64x32x1, S64x32x1, S64x32x1] S64x32x4 2
  bcast_S64x32x4_S64x32x1x4_0_1_3 : S64x32x4.BroadcastsInDim S64x32x1x4 (![0, 1, 3] : Fin 3 → Fin S64x32x1x4.rank)
  bcast_S64x32x1x4_S64x32x5x4_0_1_2_3 : S64x32x1x4.BroadcastsInDim S64x32x5x4 (![0, 1, 2, 3] : Fin 4 → Fin S64x32x5x4.rank)
  shapeCasts_S64x32x5x4_S64x160x4 : S64x32x5x4.ShapeCasts S64x160x4
  bcast_S64x32x1_S64x32x5_0_1_2 : S64x32x1.BroadcastsInDim S64x32x5 (![0, 1, 2] : Fin 3 → Fin S64x32x5.rank)
  slices_S64x160x4_S64x160x1_0_0_0 : S64x160x4.Slices ![0, 0, 0] S64x160x1
  shapeCasts_S64x160x1_S64x160 : S64x160x1.ShapeCasts S64x160
  slices_S64x160x4_S64x160x1_0_0_1 : S64x160x4.Slices ![0, 0, 1] S64x160x1
  slices_S64x160x4_S64x160x1_0_0_2 : S64x160x4.Slices ![0, 0, 2] S64x160x1
  slices_S64x160x4_S64x160x1_0_0_3 : S64x160x4.Slices ![0, 0, 3] S64x160x1
  bcast_S64x160_S64x160x1_0_1 : S64x160.BroadcastsInDim S64x160x1 (![0, 1] : Fin 2 → Fin S64x160x1.rank)
  concatenates_S64x160x1_S64x160x1_S64x160x1_S64x160x1_S64x160x4_d2 : Shape.Concatenates [S64x160x1, S64x160x1, S64x160x1, S64x160x1] S64x160x4 2
  reducesTo_S64x160_S64_d1 : S64x160.ReducesTo [1] S64
  bcast_S_S64 : S_.BroadcastsInDim S64 (![] : Fin 0 → Fin S64.rank)
  bcast_S_S64x160x4 : S_.BroadcastsInDim S64x160x4 (![] : Fin 0 → Fin S64x160x4.rank)
  reducesTo_S64x160x4_S64_d1_2 : S64x160x4.ReducesTo [1, 2] S64
  reducesTo_S64_S_d0 : S64.ReducesTo [0] S_
  gather_S64x4x102400_S64x4x160x1_S64x4x160_n_2_01_01_2_3_111_wf : GatherDims.WF S64x4x102400 S64x4x160x1 S64x4x160 [] [2] [0, 1] [2] [0, 1] 3 ![1, 1, 1]
  gather_S64x102400_S64x160x1_S64x160_n_1_0_0_1_2_11_wf : GatherDims.WF S64x102400 S64x160x1 S64x160 [] [1] [0] [1] [0] 2 ![1, 1]

variable [Facts₀]

def gather_S64x4x102400_S64x4x160x1_S64x4x160_n_2_01_01_2_3_111 : GatherDims S64x4x102400 S64x4x160x1 S64x4x160 where
  offsetDims := []
  collapsedSliceDims := [2]
  operandBatchingDims := [0, 1]
  startIndicesBatchingDims := [0, 1]
  startIndexMap := [2]
  indexVectorDim := 3
  sliceSizes := ![1, 1, 1]
  wf := gather_S64x4x102400_S64x4x160x1_S64x4x160_n_2_01_01_2_3_111_wf
def gather_S64x102400_S64x160x1_S64x160_n_1_0_0_1_2_11 : GatherDims S64x102400 S64x160x1 S64x160 where
  offsetDims := []
  collapsedSliceDims := [1]
  operandBatchingDims := [0]
  startIndicesBatchingDims := [0]
  startIndexMap := [1]
  indexVectorDim := 2
  sliceSizes := ![1, 1]
  wf := gather_S64x102400_S64x160x1_S64x160_n_1_0_0_1_2_11_wf

class Facts : Prop extends Facts₀ where

variable [Facts]
-- ==== Proof.TextMapBitsBase.lean ====
import proofs.«167267_j69861938037475_1_alg».proof.Proof.Gen.Kernel.Launch
import proofs.«167267_j69861938037475_1_alg».proof.Proof.Gen.Kernel.Skeleton
import proofs.«167267_j69861938037475_1_alg».proof.Proof.Gen.Kernel.Points
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.TextMap

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's two branch conditions, in closed form over the grid -/

/-- The first conditional of the body (the accumulators are zeroed): the grid coordinate is 0. -/
abbrev cond0_0 (i : grid0.Coords) : Prop := (Scalar.cmpi .ne (Scalar.extui (Scalar.cmpi .eq (BitVec.ofNat 32 (i 0).val) 0#32)) 0#32) = 1#1
/-- It holds at the first point only. -/
theorem hcond0_0 : ∀ t : Fin cfg0.N, cond0_0 (grid0.coords t) ↔ t.val % 8 = 0 :=
  (by decide +kernel : ∀ t : Fin grid0.N, cond0_0 (grid0.coords t) ↔ t.val % 8 = 0)

/-- The second conditional of the body (the accumulators are copied to the outputs): the grid coordinate is 7. -/
abbrev cond0_1 (i : grid0.Coords) : Prop := k0_cond2 i = 1#1
/-- It holds at the last point only. -/
theorem hcond0_1 : ∀ t : Fin cfg0.N, cond0_1 (grid0.coords t) ↔ t.val % 8 = 7 :=
  (by decide +kernel : ∀ t : Fin grid0.N, cond0_1 (grid0.coords t) ↔ t.val % 8 = 7)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
/-- Output window 2 is idle, and not written back, wherever the second conditional fails; live where it holds. -/
theorem idleAt0_2 : ∀ t : Fin cfg0.N, ¬cond0_1 (grid0.coords t) → cfg0.idle 2 (grid0.coords t) = true := by decide +kernel
theorem noFlush0_2 : ∀ t : Fin cfg0.N, ¬cond0_1 (grid0.coords t) → (cfg0.win 2).flush t = false := by decide +kernel
theorem liveAt0_2 : ∀ t : Fin cfg0.N, cond0_1 (grid0.coords t) → cfg0.idle 2 (grid0.coords t) = false := by decide +kernel
/-- Output window 3 is idle, and not written back, wherever the second conditional fails; live where it holds. -/
theorem idleAt0_3 : ∀ t : Fin cfg0.N, ¬cond0_1 (grid0.coords t) → cfg0.idle 3 (grid0.coords t) = true := by decide +kernel
theorem noFlush0_3 : ∀ t : Fin cfg0.N, ¬cond0_1 (grid0.coords t) → (cfg0.win 3).flush t = false := by decide +kernel
theorem liveAt0_3 : ∀ t : Fin cfg0.N, cond0_1 (grid0.coords t) → cfg0.idle 3 (grid0.coords t) = false := by decide +kernel
/-- Output window 4 is idle, and not written back, wherever the second conditional fails; live where it holds. -/
theorem idleAt0_4 : ∀ t : Fin cfg0.N, ¬cond0_1 (grid0.coords t) → cfg0.idle 4 (grid0.coords t) = true := by decide +kernel
theorem noFlush0_4 : ∀ t : Fin cfg0.N, ¬cond0_1 (grid0.coords t) → (cfg0.win 4).flush t = false := by decide +kernel
theorem liveAt0_4 : ∀ t : Fin cfg0.N, cond0_1 (grid0.coords t) → cfg0.idle 4 (grid0.coords t) = false := by decide +kernel
/-- Output window 5 is idle, and not written back, wherever the second conditional fails; live where it holds. -/
theorem idleAt0_5 : ∀ t : Fin cfg0.N, ¬cond0_1 (grid0.coords t) → cfg0.idle 5 (grid0.coords t) = true := by decide +kernel
theorem noFlush0_5 : ∀ t : Fin cfg0.N, ¬cond0_1 (grid0.coords t) → (cfg0.win 5).flush t = false := by decide +kernel
theorem liveAt0_5 : ∀ t : Fin cfg0.N, cond0_1 (grid0.coords t) → cfg0.idle 5 (grid0.coords t) = false := by decide +kernel

/-! ## The memrefs the body is called with -/

abbrev ms0_0 (t : Fin cfg0.N) : Memref sig .tc .vmem S8x1x320x320 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S8x1x320x320 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x1 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x1 .f32 := win0_5.stage (cfg0.slots t 5)
abbrev hs0_5 (t : Fin cfg0.N) : (ms0_5 t).IsWhole := hstage0_5 ((cfg0.slots t 5).cast nbuf0_5)
/-- Scratch accumulator 0, a whole scoped buffer of the kernel's own. -/
abbrev scM0_0 : Memref sig .tc .vmem S1x1 .f32 := Memref.whole cc0_scratch0
/-- Scratch accumulator 1, a whole scoped buffer of the kernel's own. -/
abbrev scM0_1 : Memref sig .tc .vmem S1x1 .f32 := Memref.whole cc0_scratch1
/-- Scratch accumulator 2, a whole scoped buffer of the kernel's own. -/
abbrev scM0_2 : Memref sig .tc .vmem S1x1 .f32 := Memref.whole cc0_scratch2
/-- Scratch accumulator 3, a whole scoped buffer of the kernel's own. -/
abbrev scM0_3 : Memref sig .tc .vmem S1x1 .f32 := Memref.whole cc0_scratch3

/-- The core's scoped buffers the body never names (the staging buffers of the other kernel), each whole at some contents. -/
def restOthers (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg6_0), ((c : Thread nD τ).loc cc1_stg6_0) ↦{fullShare} f) ∗ (∃ f : Buf (Elt F) ((c : Thread nD τ).loc cc1_stg7_0), ((c : Thread nD τ).loc cc1_stg7_0) ↦{fullShare} f) ∗ (∃ f : Buf (Elt F) ((c : Thread nD τ).loc cc1_stg8_0), ((c : Thread nD τ).loc cc1_stg8_0) ↦{fullShare} f) ∗ (∃ f : Buf (Elt F) ((c : Thread nD τ).loc cc1_stg9_0), ((c : Thread nD τ).loc cc1_stg9_0) ↦{fullShare} f) ∗ (∃ f : Buf (Elt F) ((c : Thread nD τ).loc cc1_stg10_0), ((c : Thread nD τ).loc cc1_stg10_0) ↦{fullShare} f) ∗ (∃ f : Buf (Elt F) ((c : Thread nD τ).loc cc1_stg11_0), ((c : Thread nD τ).loc cc1_stg11_0) ↦{fullShare} f) ∗ (∃ f : Buf (Elt F) ((c : Thread nD τ).loc cc1_stg12_0), ((c : Thread nD τ).loc cc1_stg12_0) ↦{fullShare} f) ∗ (∃ f : Buf (Elt F) ((c : Thread nD τ).loc cc1_stg13_0), ((c : Thread nD τ).loc cc1_stg13_0) ↦{fullShare} f))

/-- The region invariant with the four scratch accumulators as memrefs owned at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ restOthers (F := F) c) ∗ (∃ r, prngReg c r)) := by
  unfold Pipeline.ΦA restOthers; rw [scopedRest0_eq]; simp only [scM0_0, scM0_1, scM0_2, scM0_3, owns_whole]; try rfl

end Cert.Kernel.TextMap

end
-- ==== Proof.TextMapBitsRuns.lean ====
import proofs.«167267_j69861938037475_1_alg».proof.Proof.TextMapBitsBase

set_option maxRecDepth 16384

noncomputable section

namespace Cert.Kernel.TextMap

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Reading a whole [1,1] or block buffer back

The body loads and stores every buffer through its whole rectangle at zero offsets: a load reads the contents, a
store leaves its payload, whatever was stored before. -/

theorem z2 : (![0, 0] : Fin S1x1.rank → ℕ) = fun _ => 0 := by funext a; fin_cases a <;> rfl
theorem z4 : (![0, 0, 0, 0] : Fin S8x1x320x320.rank → ℕ) = fun _ => 0 := by funext a; fin_cases a <;> rfl

theorem rd4 (m : Memref sig .tc .vmem S8x1x320x320 .f32) (h : m.IsWhole) (X : Vec F S8x1x320x320 .f32) :
    View.readAt (Elt F) m.view (Rect.unit (s := S8x1x320x320) ![0, 0, 0, 0] S8x1x320x320.size inb_S8x1x320x320_S8x1x320x320_0_0_0_0).toLoadRect (h.unread X) = X :=
  (View.readAt_eq_ld _ _ _).trans ((congrArg (fun Y => View.ld Y _) (h.read_unread X)).trans (View.ld_unit_zero z4 _ X))

theorem rd2 (m : Memref sig .tc .vmem S1x1 .f32) (h : m.IsWhole) (X : Vec F S1x1 .f32) :
    View.readAt (Elt F) m.view (Rect.unit (s := S1x1) ![0, 0] S1x1.size inb_S1x1_S1x1_0_0).toLoadRect (h.unread X) = X :=
  (View.readAt_eq_ld _ _ _).trans ((congrArg (fun Y => View.ld Y _) (h.read_unread X)).trans (View.ld_unit_zero z2 _ X))

theorem rw1 (m : Memref sig .tc .vmem S1x1 .f32) (f : m.view.ty.Contents (Elt F)) (w : Vec F S1x1 .f32) (L : List (View.Piece (Elt F) S1x1 .f32)) :
    View.read (Elt F) m.view (m.view.writes (Elt F) f (⟨Rect.unit (s := S1x1) ![0, 0] S1x1.size inb_S1x1_S1x1_0_0, w⟩ :: L)) = w :=
  (View.read_writes_eq_canon _ _ _ (fun y => ⟨⟨Rect.unit (s := S1x1) ![0, 0] S1x1.size inb_S1x1_S1x1_0_0, w⟩, List.mem_cons_self, View.mem_set_unit_zero z2 inb_S1x1_S1x1_0_0 y⟩)).trans (View.canon_cons_unit_zero z2 _ w L)

/-- Close "the buffer reads this accumulator value": open the run's names, read the last whole store back, and read
    each whole load as the contents it was made of. -/
local macro "acc_val" : tactic => `(tactic| (
  sl_unfold_run_names
  refine (rw1 _ _ _ _).trans ?_
  (repeat rw [rd4])
  (repeat rw [rd2])
  (try simp only [View.readCov_cons_toLoadRect])))

/-! ## The body, case by case -/

set_option maxHeartbeats 1000000 in
/-- THE FIRST POINT (first conditional taken, second not): the four accumulators, found at anything, are zeroed and
    end at one step of the sums over the two input blocks from zero; the four output buffers are not touched. -/
theorem run0_A (c : Dev nD) (i : grid0.Coords) (arg1 : Memref sig .tc .vmem S8x1x320x320 .f32) (harg1 : arg1.IsWhole) (arg2 : Memref sig .tc .vmem S8x1x320x320 .f32) (harg2 : arg2.IsWhole) (arg3 : Memref sig .tc .vmem S1x1 .f32) (harg3 : arg3.IsWhole) (arg4 : Memref sig .tc .vmem S1x1 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1 .f32) (harg10 : arg10.IsWhole) (hc0 : cond0_0 i) (hc1 : ¬cond0_1 i)
    (x0 x1 : Vec F S8x1x320x320 .f32) (xi3 xi4 xi5 xi6 : Vec F S1x1 .f32) (E : Set ℕ) (K : PUnit → sProp 𝕄) :
    iprop(owns (c : Thread nD τ) arg1 fullShare x0 ∗ owns (c : Thread nD τ) arg2 fullShare x1 ∗ owns (c : Thread nD τ) arg3 fullShare xi3 ∗ owns (c : Thread nD τ) arg4 fullShare xi4 ∗ owns (c : Thread nD τ) arg5 fullShare xi5 ∗ owns (c : Thread nD τ) arg6 fullShare xi6 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)
        ∗ (iprop(owns (c : Thread nD τ) arg1 fullShare x0 ∗ owns (c : Thread nD τ) arg2 fullShare x1 ∗ owns (c : Thread nD τ) arg3 fullShare xi3 ∗ owns (c : Thread nD τ) arg4 fullShare xi4 ∗ owns (c : Thread nD τ) arg5 fullShare xi5 ∗ owns (c : Thread nD τ) arg6 fullShare xi6 ∗ owns (c : Thread nD τ) arg7 fullShare (k0_pay6 x0 x1 k0_pay2) ∗ owns (c : Thread nD τ) arg8 fullShare (k0_pay7 x0 x1 k0_pay3) ∗ owns (c : Thread nD τ) arg9 fullShare (k0_pay8 x0 k0_pay4) ∗ owns (c : Thread nD τ) arg10 fullShare (k0_pay1 k0_pay5 (k0_pay9 x1))) -∗ K ⟨⟩))
      ⊢ wp frame (wpE (defs₀ (F := F)) Variants.none c none) E (cc0__text_map_kernel i arg1 harg1 arg2 harg2 arg3 harg3 arg4 harg4 arg5 harg5 arg6 harg6 arg7 harg7 arg8 harg8 arg9 harg9 arg10 harg10) K := by
  simp only [cc0__text_map_kernel_eq_skeleton]; unfold cc0__text_map_kernel_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%d10, %f10, -, H10⟩, Hk⟩
  obtain rfl := harg1.eq_unread hf1; obtain rfl := harg2.eq_unread hf2
  sl_exec (disch := first | exact hc0 | exact hc1)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists f3; isplitr; · ipureintro; exact hf3
    iexact H3
  isplitl [H4]
  · iexists f4; isplitr; · ipureintro; exact hf4
    iexact H4
  isplitl [H5]
  · iexists f5; isplitr; · ipureintro; exact hf5
    iexact H5
  isplitl [H6]
  · iexists f6; isplitr; · ipureintro; exact hf6
    iexact H6
  isplitl [H7]
  · iexists _; isplitr
    swap; · iexact H7
    ipureintro; acc_val
  isplitl [H8]
  · iexists _; isplitr
    swap; · iexact H8
    ipureintro; acc_val
  isplitl [H9]
  · iexists _; isplitr
    swap; · iexact H9
    ipureintro; acc_val
  iexists _; isplitr
  swap; · iexact H10
  ipureintro; acc_val

set_option maxHeartbeats 1000000 in
/-- A MIDDLE POINT (neither conditional taken): each accumulator, found at `xs·`, ends one step of its sum further;
    the four output buffers are not touched. -/
theorem run0_B (c : Dev nD) (i : grid0.Coords) (arg1 : Memref sig .tc .vmem S8x1x320x320 .f32) (harg1 : arg1.IsWhole) (arg2 : Memref sig .tc .vmem S8x1x320x320 .f32) (harg2 : arg2.IsWhole) (arg3 : Memref sig .tc .vmem S1x1 .f32) (harg3 : arg3.IsWhole) (arg4 : Memref sig .tc .vmem S1x1 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1 .f32) (harg10 : arg10.IsWhole) (hc0 : ¬cond0_0 i) (hc1 : ¬cond0_1 i)
    (x0 x1 : Vec F S8x1x320x320 .f32) (xi3 xi4 xi5 xi6 xs7 xs8 xs9 xs10 : Vec F S1x1 .f32) (E : Set ℕ) (K : PUnit → sProp 𝕄) :
    iprop(owns (c : Thread nD τ) arg1 fullShare x0 ∗ owns (c : Thread nD τ) arg2 fullShare x1 ∗ owns (c : Thread nD τ) arg3 fullShare xi3 ∗ owns (c : Thread nD τ) arg4 fullShare xi4 ∗ owns (c : Thread nD τ) arg5 fullShare xi5 ∗ owns (c : Thread nD τ) arg6 fullShare xi6 ∗ owns (c : Thread nD τ) arg7 fullShare xs7 ∗ owns (c : Thread nD τ) arg8 fullShare xs8 ∗ owns (c : Thread nD τ) arg9 fullShare xs9 ∗ owns (c : Thread nD τ) arg10 fullShare xs10
        ∗ (iprop(owns (c : Thread nD τ) arg1 fullShare x0 ∗ owns (c : Thread nD τ) arg2 fullShare x1 ∗ owns (c : Thread nD τ) arg3 fullShare xi3 ∗ owns (c : Thread nD τ) arg4 fullShare xi4 ∗ owns (c : Thread nD τ) arg5 fullShare xi5 ∗ owns (c : Thread nD τ) arg6 fullShare xi6 ∗ owns (c : Thread nD τ) arg7 fullShare (k0_pay6 x0 x1 xs7) ∗ owns (c : Thread nD τ) arg8 fullShare (k0_pay7 x0 x1 xs8) ∗ owns (c : Thread nD τ) arg9 fullShare (k0_pay8 x0 xs9) ∗ owns (c : Thread nD τ) arg10 fullShare (k0_pay1 xs10 (k0_pay9 x1))) -∗ K ⟨⟩))
      ⊢ wp frame (wpE (defs₀ (F := F)) Variants.none c none) E (cc0__text_map_kernel i arg1 harg1 arg2 harg2 arg3 harg3 arg4 harg4 arg5 harg5 arg6 harg6 arg7 harg7 arg8 harg8 arg9 harg9 arg10 harg10) K := by
  simp only [cc0__text_map_kernel_eq_skeleton]; unfold cc0__text_map_kernel_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, Hk⟩
  obtain rfl := harg1.eq_unread hf1; obtain rfl := harg2.eq_unread hf2
  obtain rfl := harg7.eq_unread hf7; obtain rfl := harg8.eq_unread hf8; obtain rfl := harg9.eq_unread hf9; obtain rfl := harg10.eq_unread hf10
  sl_exec (disch := first | exact hc0 | exact hc1)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists f3; isplitr; · ipureintro; exact hf3
    iexact H3
  isplitl [H4]
  · iexists f4; isplitr; · ipureintro; exact hf4
    iexact H4
  isplitl [H5]
  · iexists f5; isplitr; · ipureintro; exact hf5
    iexact H5
  isplitl [H6]
  · iexists f6; isplitr; · ipureintro; exact hf6
    iexact H6
  isplitl [H7]
  · iexists _; isplitr
    swap; · iexact H7
    ipureintro; acc_val
  isplitl [H8]
  · iexists _; isplitr
    swap; · iexact H8
    ipureintro; acc_val
  isplitl [H9]
  · iexists _; isplitr
    swap; · iexact H9
    ipureintro; acc_val
  iexists _; isplitr
  swap; · iexact H10
  ipureintro; acc_val

set_option maxHeartbeats 1000000 in
/-- THE LAST POINT (second conditional taken, first not): each accumulator ends one step further, and each output
    buffer, found at anything, ends at its accumulator's final value. -/
theorem run0_C (c : Dev nD) (i : grid0.Coords) (arg1 : Memref sig .tc .vmem S8x1x320x320 .f32) (harg1 : arg1.IsWhole) (arg2 : Memref sig .tc .vmem S8x1x320x320 .f32) (harg2 : arg2.IsWhole) (arg3 : Memref sig .tc .vmem S1x1 .f32) (harg3 : arg3.IsWhole) (arg4 : Memref sig .tc .vmem S1x1 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1 .f32) (harg10 : arg10.IsWhole) (hc0 : ¬cond0_0 i) (hc1 : cond0_1 i)
    (x0 x1 : Vec F S8x1x320x320 .f32) (xs7 xs8 xs9 xs10 : Vec F S1x1 .f32) (E : Set ℕ) (K : PUnit → sProp 𝕄) :
    iprop(owns (c : Thread nD τ) arg1 fullShare x0 ∗ owns (c : Thread nD τ) arg2 fullShare x1 ∗ (∃ d, owns (c : Thread nD τ) arg3 fullShare d) ∗ (∃ d, owns (c : Thread nD τ) arg4 fullShare d) ∗ (∃ d, owns (c : Thread nD τ) arg5 fullShare d) ∗ (∃ d, owns (c : Thread nD τ) arg6 fullShare d) ∗ owns (c : Thread nD τ) arg7 fullShare xs7 ∗ owns (c : Thread nD τ) arg8 fullShare xs8 ∗ owns (c : Thread nD τ) arg9 fullShare xs9 ∗ owns (c : Thread nD τ) arg10 fullShare xs10
        ∗ (iprop(owns (c : Thread nD τ) arg1 fullShare x0 ∗ owns (c : Thread nD τ) arg2 fullShare x1 ∗ owns (c : Thread nD τ) arg3 fullShare (k0_pay6 x0 x1 xs7) ∗ owns (c : Thread nD τ) arg4 fullShare (k0_pay7 x0 x1 xs8) ∗ owns (c : Thread nD τ) arg5 fullShare (k0_pay8 x0 xs9) ∗ owns (c : Thread nD τ) arg6 fullShare (k0_pay1 xs10 (k0_pay9 x1)) ∗ owns (c : Thread nD τ) arg7 fullShare (k0_pay6 x0 x1 xs7) ∗ owns (c : Thread nD τ) arg8 fullShare (k0_pay7 x0 x1 xs8) ∗ owns (c : Thread nD τ) arg9 fullShare (k0_pay8 x0 xs9) ∗ owns (c : Thread nD τ) arg10 fullShare (k0_pay1 xs10 (k0_pay9 x1))) -∗ K ⟨⟩))
      ⊢ wp frame (wpE (defs₀ (F := F)) Variants.none c none) E (cc0__text_map_kernel i arg1 harg1 arg2 harg2 arg3 harg3 arg4 harg4 arg5 harg5 arg6 harg6 arg7 harg7 arg8 harg8 arg9 harg9 arg10 harg10) K := by
  simp only [cc0__text_map_kernel_eq_skeleton]; unfold cc0__text_map_kernel_skel
  unfold owns
  iintro ⟨⟨%f1, %hf1, H1⟩, ⟨%f2, %hf2, H2⟩, ⟨%d3, %f3, -, H3⟩, ⟨%d4, %f4, -, H4⟩, ⟨%d5, %f5, -, H5⟩, ⟨%d6, %f6, -, H6⟩, ⟨%f7, %hf7, H7⟩, ⟨%f8, %hf8, H8⟩, ⟨%f9, %hf9, H9⟩, ⟨%f10, %hf10, H10⟩, Hk⟩
  obtain rfl := harg1.eq_unread hf1; obtain rfl := harg2.eq_unread hf2
  obtain rfl := harg7.eq_unread hf7; obtain rfl := harg8.eq_unread hf8; obtain rfl := harg9.eq_unread hf9; obtain rfl := harg10.eq_unread hf10
  sl_exec (disch := first | exact hc0 | exact hc1)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr
    swap; · iexact H3
    ipureintro; acc_val
  isplitl [H4]
  · iexists _; isplitr
    swap; · iexact H4
    ipureintro; acc_val
  isplitl [H5]
  · iexists _; isplitr
    swap; · iexact H5
    ipureintro; acc_val
  isplitl [H6]
  · iexists _; isplitr
    swap; · iexact H6
    ipureintro; acc_val
  isplitl [H7]
  · iexists _; isplitr
    swap; · iexact H7
    ipureintro; acc_val
  isplitl [H8]
  · iexists _; isplitr
    swap; · iexact H8
    ipureintro; acc_val
  isplitl [H9]
  · iexists _; isplitr
    swap; · iexact H9
    ipureintro; acc_val
  iexists _; isplitr
  swap; · iexact H10
  ipureintro; acc_val

end Cert.Kernel.TextMap

end
-- ==== Proof.TextMapBits.lean ====
import proofs.«167267_j69861938037475_1_alg».proof.Proof.TextMapBitsRuns

set_option maxRecDepth 16384

noncomputable section

namespace Cert.Kernel.TextMap

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered: the parameter the region's proof data is stated at
variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, for any proof data whose array is `V`'s
    and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The four accumulators, point by point -/

/-- THE ACCUMULATION. The four scratch accumulators (the cross-entropy sum, the intersection sum, the prediction sum, the
    target sum) after the body at point `n`: one step of each sum over the point's two input blocks, from zero at the
    first point and from what the point before left afterwards. -/
def accAt0 (c : Dev nD) : (n : ℕ) → n < cfg0.N → Vec F S1x1 .f32 × Vec F S1x1 .f32 × Vec F S1x1 .f32 × Vec F S1x1 .f32
  | 0, hn => (k0_pay6 (iblk0 V c 0 ⟨0, hn⟩) (iblk0 V c 1 ⟨0, hn⟩) k0_pay2, k0_pay7 (iblk0 V c 0 ⟨0, hn⟩) (iblk0 V c 1 ⟨0, hn⟩) k0_pay3, k0_pay8 (iblk0 V c 0 ⟨0, hn⟩) k0_pay4, k0_pay1 k0_pay5 (k0_pay9 (iblk0 V c 1 ⟨0, hn⟩)))
  | n + 1, hn => (k0_pay6 (iblk0 V c 0 ⟨n + 1, hn⟩) (iblk0 V c 1 ⟨n + 1, hn⟩) (accAt0 c n (Nat.lt_of_succ_lt hn)).1, k0_pay7 (iblk0 V c 0 ⟨n + 1, hn⟩) (iblk0 V c 1 ⟨n + 1, hn⟩) (accAt0 c n (Nat.lt_of_succ_lt hn)).2.1, k0_pay8 (iblk0 V c 0 ⟨n + 1, hn⟩) (accAt0 c n (Nat.lt_of_succ_lt hn)).2.2.1, k0_pay1 (accAt0 c n (Nat.lt_of_succ_lt hn)).2.2.2 (k0_pay9 (iblk0 V c 1 ⟨n + 1, hn⟩)))

/-- At the first point: from zero. -/
theorem accAt0_first (c : Dev nD) (t : Fin cfg0.N) (hz : t.val = 0) :
    accAt0 V c t.val t.isLt = (k0_pay6 (iblk0 V c 0 t) (iblk0 V c 1 t) k0_pay2, k0_pay7 (iblk0 V c 0 t) (iblk0 V c 1 t) k0_pay3, k0_pay8 (iblk0 V c 0 t) k0_pay4, k0_pay1 k0_pay5 (k0_pay9 (iblk0 V c 1 t))) := by
  obtain ⟨n, hn⟩ := t
  cases n with
  | zero => rfl
  | succ n => exact absurd hz (Nat.succ_ne_zero n)

/-- At a later point: from what the point before left. -/
theorem accAt0_pos (c : Dev nD) (t : Fin cfg0.N) (hz : t.val ≠ 0) :
    accAt0 V c t.val t.isLt = (k0_pay6 (iblk0 V c 0 t) (iblk0 V c 1 t) (accAt0 V c (t.val - 1) (Nat.lt_of_le_of_lt (Nat.sub_le _ _) t.isLt)).1, k0_pay7 (iblk0 V c 0 t) (iblk0 V c 1 t) (accAt0 V c (t.val - 1) (Nat.lt_of_le_of_lt (Nat.sub_le _ _) t.isLt)).2.1, k0_pay8 (iblk0 V c 0 t) (accAt0 V c (t.val - 1) (Nat.lt_of_le_of_lt (Nat.sub_le _ _) t.isLt)).2.2.1, k0_pay1 (accAt0 V c (t.val - 1) (Nat.lt_of_le_of_lt (Nat.sub_le _ _) t.isLt)).2.2.2 (k0_pay9 (iblk0 V c 1 t))) := by
  obtain ⟨n, hn⟩ := t
  cases n with
  | zero => exact absurd rfl hz
  | succ n => rfl

/-! ## The region invariant -/

/-- Before position `n`: before the first point what the launch hands the region (every scratch at anything);
    afterwards the four accumulators at what the point before left, the core's other scoped buffers at anything, and
    the generator register at some state. -/
def PhiS (c : Dev nD) : (n : ℕ) → n ≤ cfg0.N → sProp 𝕄
  | 0, _ => Pipeline.ΦA spec0 c
  | n + 1, hn => iprop(iprop(owns (c : Thread nD τ) scM0_0 fullShare (accAt0 V c n hn).1 ∗ owns (c : Thread nD τ) scM0_1 fullShare (accAt0 V c n hn).2.1 ∗ owns (c : Thread nD τ) scM0_2 fullShare (accAt0 V c n hn).2.2.1 ∗ owns (c : Thread nD τ) scM0_3 fullShare (accAt0 V c n hn).2.2.2 ∗ restOthers (F := F) c) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(iprop(owns (c : Thread nD τ) scM0_0 fullShare (accAt0 V c n hn).1 ∗ owns (c : Thread nD τ) scM0_1 fullShare (accAt0 V c n hn).2.1 ∗ owns (c : Thread nD τ) scM0_2 fullShare (accAt0 V c n hn).2.2.1 ∗ owns (c : Thread nD τ) scM0_3 fullShare (accAt0 V c n hn).2.2.2 ∗ restOthers (F := F) c) ∗ (∃ r, prngReg c r)) := rfl

theorem PhiS_pos (c : Dev nD) (n : ℕ) (h : n ≤ cfg0.N) (hz : n ≠ 0) :
    PhiS V c n h = iprop(iprop(owns (c : Thread nD τ) scM0_0 fullShare (accAt0 V c (n - 1) (by omega)).1 ∗ owns (c : Thread nD τ) scM0_1 fullShare (accAt0 V c (n - 1) (by omega)).2.1 ∗ owns (c : Thread nD τ) scM0_2 fullShare (accAt0 V c (n - 1) (by omega)).2.2.1 ∗ owns (c : Thread nD τ) scM0_3 fullShare (accAt0 V c (n - 1) (by omega)).2.2.2 ∗ restOthers (F := F) c) ∗ (∃ r, prngReg c r)) := by
  cases n with
  | zero => exact absurd rfl hz
  | succ n => rfl

/-! ## The pipeline's proof data -/

/-- The proof data of the pipeline on core `c`: the arrays as the region finds them (`V`); after the body at point `t`
    each input's buffer at its block and each output's at its accumulator's value (consulted at the last point only: the
    outputs are idle, and not written back, before it); the invariant `PhiS`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => (accAt0 V c t.val t.isLt).1
    | ⟨3, _⟩ => (accAt0 V c t.val t.isLt).2.1
    | ⟨4, _⟩ => (accAt0 V c t.val t.isLt).2.2.1
    | ⟨5, _⟩ => (accAt0 V c t.val t.isLt).2.2.2
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem q0 (c : Dev nD) : ∀ w, (dat0 V c).q w = fullShare := fun _ => rfl
theorem owed0 (c : Dev nD) : ∀ t, (dat0 V c).owed t = 0 := fun _ => rfl

theorem PhiS_castSucc (c : Dev nD) (t : Fin cfg0.N) :
    (dat0 V c).Φ t.castSucc = PhiS V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = (accAt0 V c t.val t.isLt).1 := by dsimp only [dat0]
theorem after0_3 (c : Dev nD) (t : Fin cfg0.N) : (dat0 V c).after 3 t = (accAt0 V c t.val t.isLt).2.1 := by dsimp only [dat0]
theorem after0_4 (c : Dev nD) (t : Fin cfg0.N) : (dat0 V c).after 4 t = (accAt0 V c t.val t.isLt).2.2.1 := by dsimp only [dat0]
theorem after0_5 (c : Dev nD) (t : Fin cfg0.N) : (dat0 V c).after 5 t = (accAt0 V c t.val t.isLt).2.2.2 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t)

set_option maxHeartbeats 4800000 in
/-- The body at any point: the inputs' memrefs hold their blocks; the closed forms say which case the point is in; the
    invariant hands the body the four accumulators at what the point before left (at anything at the first point) and
    takes them back at this point's values; an idle output's buffer goes back as found; the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS V c (t.val + 1) t.isLt from rfl, PhiS_succ]
  have hN : t.val < 8 := lt_of_lt_of_eq t.isLt (show cfg0.N = 8 from N_0)
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  by_cases h0 : t.val % 8 = 0
  · have h1 : ¬t.val % 8 = 7 := by omega
    have hz : t.val = 0 := by omega
    rw [Dat.leavesExact_idle (dat0 V c) 2 t (idleAt0_2 t (fun h => h1 ((hcond0_1 t).mp h))) (noFlush0_2 t (fun h => h1 ((hcond0_1 t).mp h)))]
    rw [Dat.leavesExact_idle (dat0 V c) 3 t (idleAt0_3 t (fun h => h1 ((hcond0_1 t).mp h))) (noFlush0_3 t (fun h => h1 ((hcond0_1 t).mp h)))]
    rw [Dat.leavesExact_idle (dat0 V c) 4 t (idleAt0_4 t (fun h => h1 ((hcond0_1 t).mp h))) (noFlush0_4 t (fun h => h1 ((hcond0_1 t).mp h)))]
    rw [Dat.leavesExact_idle (dat0 V c) 5 t (idleAt0_5 t (fun h => h1 ((hcond0_1 t).mp h))) (noFlush0_5 t (fun h => h1 ((hcond0_1 t).mp h)))]
    rw [accAt0_first V c t hz]; dsimp only
    rw [PhiS_castSucc V c t, PhiS_zero V c _ _ hz, PhiA0_eq]
    iintro ⟨⟨⟨HS0, HS1, HS2, HS3, HR⟩, Hg⟩, Ho, ⟨%d0, H0⟩, ⟨%d1, H1⟩, ⟨%d2, H2⟩, ⟨%d3, H3⟩, ⟨%d4, H4⟩, ⟨%d5, H5⟩⟩
    iapply (run0_A c (grid0.coords t) _ _ _ _ _ _ _ _ _ _ _ _ _ _ _ _ _ _ _ _ ((hcond0_0 t).mpr h0) (fun h => h1 ((hcond0_1 t).mp h)) (iblk0 V c 0 t) (iblk0 V c 1 t) _ _ _ _ Set.univ _)
    isplitl [H0]; · iexact H0
    isplitl [H1]; · iexact H1
    isplitl [H2]; · iexact H2
    isplitl [H3]; · iexact H3
    isplitl [H4]; · iexact H4
    isplitl [H5]; · iexact H5
    isplitl [HS0]; · iexact HS0
    isplitl [HS1]; · iexact HS1
    isplitl [HS2]; · iexact HS2
    isplitl [HS3]; · iexact HS3
    iintro ⟨H0, H1, H2, H3, H4, H5, HS0, HS1, HS2, HS3⟩
    isplitl [HS0 HS1 HS2 HS3 HR Hg]
    · isplitr [Hg]
      · isplitl [HS0]; · iexact HS0
        isplitl [HS1]; · iexact HS1
        isplitl [HS2]; · iexact HS2
        isplitl [HS3]; · iexact HS3
        iexact HR
      iexact Hg
    isplitl [Ho]; · iexact Ho
    isplitl [H0]; · iexact H0
    isplitl [H1]; · iexact H1
    isplitl [H2]; · iexists _; iexact H2
    isplitl [H3]; · iexists _; iexact H3
    isplitl [H4]; · iexists _; iexact H4
    iexists _; iexact H5
  · have hz : t.val ≠ 0 := fun e => h0 (by rw [e])
    rw [accAt0_pos V c t hz]; dsimp only
    rw [PhiS_castSucc V c t, PhiS_pos V c _ _ hz]
    by_cases h1 : t.val % 8 = 7
    · rw [show (dat0 V c).leavesExact 2 t = owns (c : Thread nD τ) (ms0_2 t) fullShare ((dat0 V c).after 2 t) from by
        unfold Dat.leavesExact; rw [liveAt0_2 t ((hcond0_1 t).mpr h1)], after0_2]
      rw [show (dat0 V c).leavesExact 3 t = owns (c : Thread nD τ) (ms0_3 t) fullShare ((dat0 V c).after 3 t) from by
        unfold Dat.leavesExact; rw [liveAt0_3 t ((hcond0_1 t).mpr h1)], after0_3]
      rw [show (dat0 V c).leavesExact 4 t = owns (c : Thread nD τ) (ms0_4 t) fullShare ((dat0 V c).after 4 t) from by
        unfold Dat.leavesExact; rw [liveAt0_4 t ((hcond0_1 t).mpr h1)], after0_4]
      rw [show (dat0 V c).leavesExact 5 t = owns (c : Thread nD τ) (ms0_5 t) fullShare ((dat0 V c).after 5 t) from by
        unfold Dat.leavesExact; rw [liveAt0_5 t ((hcond0_1 t).mpr h1)], after0_5]
      rw [accAt0_pos V c t hz]; dsimp only
      iintro ⟨⟨⟨HS0, HS1, HS2, HS3, HR⟩, Hg⟩, Ho, ⟨%d0, H0⟩, ⟨%d1, H1⟩, ⟨%d2, H2⟩, ⟨%d3, H3⟩, ⟨%d4, H4⟩, ⟨%d5, H5⟩⟩
      iapply (run0_C c (grid0.coords t) _ _ _ _ _ _ _ _ _ _ _ _ _ _ _ _ _ _ _ _ (fun h => h0 ((hcond0_0 t).mp h)) ((hcond0_1 t).mpr h1) (iblk0 V c 0 t) (iblk0 V c 1 t) _ _ _ _ Set.univ _)
      isplitl [H0]; · iexact H0
      isplitl [H1]; · iexact H1
      isplitl [H2]; · iexists _; iexact H2
      isplitl [H3]; · iexists _; iexact H3
      isplitl [H4]; · iexists _; iexact H4
      isplitl [H5]; · iexists _; iexact H5
      isplitl [HS0]; · iexact HS0
      isplitl [HS1]; · iexact HS1
      isplitl [HS2]; · iexact HS2
      isplitl [HS3]; · iexact HS3
      iintro ⟨H0, H1, H2, H3, H4, H5, HS0, HS1, HS2, HS3⟩
      isplitl [HS0 HS1 HS2 HS3 HR Hg]
      · isplitr [Hg]
        · isplitl [HS0]; · iexact HS0
          isplitl [HS1]; · iexact HS1
          isplitl [HS2]; · iexact HS2
          isplitl [HS3]; · iexact HS3
          iexact HR
        iexact Hg
      isplitl [Ho]; · iexact Ho
      isplitl [H0]; · iexact H0
      isplitl [H1]; · iexact H1
      isplitl [H2]; · iexact H2
      isplitl [H3]; · iexact H3
      isplitl [H4]; · iexact H4
      iexact H5
    · rw [Dat.leavesExact_idle (dat0 V c) 2 t (idleAt0_2 t (fun h => h1 ((hcond0_1 t).mp h))) (noFlush0_2 t (fun h => h1 ((hcond0_1 t).mp h)))]
      rw [Dat.leavesExact_idle (dat0 V c) 3 t (idleAt0_3 t (fun h => h1 ((hcond0_1 t).mp h))) (noFlush0_3 t (fun h => h1 ((hcond0_1 t).mp h)))]
      rw [Dat.leavesExact_idle (dat0 V c) 4 t (idleAt0_4 t (fun h => h1 ((hcond0_1 t).mp h))) (noFlush0_4 t (fun h => h1 ((hcond0_1 t).mp h)))]
      rw [Dat.leavesExact_idle (dat0 V c) 5 t (idleAt0_5 t (fun h => h1 ((hcond0_1 t).mp h))) (noFlush0_5 t (fun h => h1 ((hcond0_1 t).mp h)))]
      iintro ⟨⟨⟨HS0, HS1, HS2, HS3, HR⟩, Hg⟩, Ho, ⟨%d0, H0⟩, ⟨%d1, H1⟩, ⟨%d2, H2⟩, ⟨%d3, H3⟩, ⟨%d4, H4⟩, ⟨%d5, H5⟩⟩
      iapply (run0_B c (grid0.coords t) _ _ _ _ _ _ _ _ _ _ _ _ _ _ _ _ _ _ _ _ (fun h => h0 ((hcond0_0 t).mp h)) (fun h => h1 ((hcond0_1 t).mp h)) (iblk0 V c 0 t) (iblk0 V c 1 t) _ _ _ _ _ _ _ _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      isplitl [HS2]; · iexact HS2
      isplitl [HS3]; · iexact HS3
      iintro ⟨H0, H1, H2, H3, H4, H5, HS0, HS1, HS2, HS3⟩
      isplitl [HS0 HS1 HS2 HS3 HR Hg]
      · isplitr [Hg]
        · isplitl [HS0]; · iexact HS0
          isplitl [HS1]; · iexact HS1
          isplitl [HS2]; · iexact HS2
          isplitl [HS3]; · iexact HS3
          iexact HR
        iexact Hg
      isplitl [Ho]; · iexact Ho
      isplitl [H0]; · iexact H0
      isplitl [H1]; · iexact H1
      isplitl [H2]; · iexists _; iexact H2
      isplitl [H3]; · iexists _; iexact H3
      isplitl [H4]; · iexists _; iexact H4
      iexists _; iexact H5

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After any point but the first the invariant gives it back: the accumulators' named contents are forgotten. -/
theorem Phi_out0 (c : Dev nD) (t : Fin (cfg0.N + 1)) (ht : t.val ≠ 0) : (dat0 V c).Φ t ⊢ Pipeline.ΦA spec0 c := by
  rw [show (dat0 V c).Φ t = PhiS V c t.val (Nat.le_of_lt_succ t.isLt) from rfl, PhiS_pos V c _ _ ht, PhiA0_eq]
  iintro ⟨⟨HS0, HS1, HS2, HS3, HR⟩, Hg⟩
  isplitr [Hg]
  · isplitl [HS0]; · iexists _; iexact HS0
    isplitl [HS1]; · iexists _; iexact HS1
    isplitl [HS2]; · iexists _; iexact HS2
    isplitl [HS3]; · iexists _; iexact HS3
    iexact HR
  iexact Hg

/-- The same after the last point. -/
theorem hout0 (c : Dev nD) : (dat0 V c).Φ (Fin.last cfg0.N) ⊢ Pipeline.ΦA spec0 c :=
  Phi_out0 V c _ (by rw [Fin.val_last]; have : cfg0.N = 8 := N_0; omega)

/-! ## What the four result arrays hold after the region -/

theorem lt7 : 7 < cfg0.N := by rw [show cfg0.N = 8 from N_0]; decide

/-- Result 0: its accumulator's value after the last point, as contents of the [1,1] result array. -/
abbrev res0_2 (c : Dev nD) : Buf (Elt F) ((c : Thread nD τ).loc main_v0_0) := (accAt0 V c 7 lt7).1

/-- The one write-back, at the last point, writes it: the window's one block is the array. -/
theorem flushed0_2 (c : Dev nD) (t : Fin cfg0.N) (hf : (cfg0.win 2).flush t = true) :
    (dat0 V c).flushed 2 t = ((cfg0.win 2).blk t).view.read (Elt F) (res0_2 V c) := by
  have hN : cfg0.N = 8 := N_0
  have h7 : t.val = 7 := by have := (flush0_2 t).mp hf; have := t.isLt; omega
  obtain rfl : t = t0_7 := Fin.ext h7
  show (cfg0.win 2).cut (grid0.coords t0_7) ((dat0 V c).after 2 t0_7) = _
  rw [after0_2]
  have hz' : (fun a => win0_2.index t0_7 a * main_v0_0.ty.shape.size a) = fun _ => 0 := funext fun a => by fin_cases a <;> decide
  exact (Memref.read_access_unit_zero (Elt F) main_v0_0 hz' (fun a => by rw [congrFun hz' a]; simp) (res0_2 V c)).symm

/-- So the result array ends holding it. -/
theorem final0_2 (c : Dev nD) : (dat0 V c).arrAt 2 cfg0.N = res0_2 V c :=
  (dat0 V c).arrAt_eq_of_cover 2 (res0_2 V c) (flushed0_2 V c) fun i =>
    ⟨t0_7, (flush0_2 t0_7).mpr rfl, by
      show i ∈ ((View.whole main_v0_0).slice (win0_2.rect t0_7)).set
      rw [View.set_slice_whole, Rect.mem_set_unit]
      intro a
      have h0 : (i 0 : Nat) < 1 := (i 0).isLt
      have h1 : (i 1 : Nat) < 1 := (i 1).isLt
      match a with
      | ⟨0, _⟩ => show win0_2.index t0_7 0 * win0_2.size 0 ≤ (i 0 : Nat) ∧ (i 0 : Nat) < win0_2.index t0_7 0 * win0_2.size 0 + win0_2.xsize (grid0.coords t0_7) 0
                  rw [show win0_2.index t0_7 0 * win0_2.size 0 = 0 from by decide +kernel, show win0_2.xsize (grid0.coords t0_7) 0 = 1 from by decide +kernel]; omega
      | ⟨1, _⟩ => show win0_2.index t0_7 1 * win0_2.size 1 ≤ (i 1 : Nat) ∧ (i 1 : Nat) < win0_2.index t0_7 1 * win0_2.size 1 + win0_2.xsize (grid0.coords t0_7) 1
                  rw [show win0_2.index t0_7 1 * win0_2.size 1 = 0 from by decide +kernel, show win0_2.xsize (grid0.coords t0_7) 1 = 1 from by decide +kernel]; omega⟩

/-- Result 1: its accumulator's value after the last point, as contents of the [1,1] result array. -/
abbrev res0_3 (c : Dev nD) : Buf (Elt F) ((c : Thread nD τ).loc main_v0_1) := (accAt0 V c 7 lt7).2.1

/-- The one write-back, at the last point, writes it: the window's one block is the array. -/
theorem flushed0_3 (c : Dev nD) (t : Fin cfg0.N) (hf : (cfg0.win 3).flush t = true) :
    (dat0 V c).flushed 3 t = ((cfg0.win 3).blk t).view.read (Elt F) (res0_3 V c) := by
  have hN : cfg0.N = 8 := N_0
  have h7 : t.val = 7 := by have := (flush0_3 t).mp hf; have := t.isLt; omega
  obtain rfl : t = t0_7 := Fin.ext h7
  show (cfg0.win 3).cut (grid0.coords t0_7) ((dat0 V c).after 3 t0_7) = _
  rw [after0_3]
  have hz' : (fun a => win0_3.index t0_7 a * main_v0_1.ty.shape.size a) = fun _ => 0 := funext fun a => by fin_cases a <;> decide
  exact (Memref.read_access_unit_zero (Elt F) main_v0_1 hz' (fun a => by rw [congrFun hz' a]; simp) (res0_3 V c)).symm

/-- So the result array ends holding it. -/
theorem final0_3 (c : Dev nD) : (dat0 V c).arrAt 3 cfg0.N = res0_3 V c :=
  (dat0 V c).arrAt_eq_of_cover 3 (res0_3 V c) (flushed0_3 V c) fun i =>
    ⟨t0_7, (flush0_3 t0_7).mpr rfl, by
      show i ∈ ((View.whole main_v0_1).slice (win0_3.rect t0_7)).set
      rw [View.set_slice_whole, Rect.mem_set_unit]
      intro a
      have h0 : (i 0 : Nat) < 1 := (i 0).isLt
      have h1 : (i 1 : Nat) < 1 := (i 1).isLt
      match a with
      | ⟨0, _⟩ => show win0_3.index t0_7 0 * win0_3.size 0 ≤ (i 0 : Nat) ∧ (i 0 : Nat) < win0_3.index t0_7 0 * win0_3.size 0 + win0_3.xsize (grid0.coords t0_7) 0
                  rw [show win0_3.index t0_7 0 * win0_3.size 0 = 0 from by decide +kernel, show win0_3.xsize (grid0.coords t0_7) 0 = 1 from by decide +kernel]; omega
      | ⟨1, _⟩ => show win0_3.index t0_7 1 * win0_3.size 1 ≤ (i 1 : Nat) ∧ (i 1 : Nat) < win0_3.index t0_7 1 * win0_3.size 1 + win0_3.xsize (grid0.coords t0_7) 1
                  rw [show win0_3.index t0_7 1 * win0_3.size 1 = 0 from by decide +kernel, show win0_3.xsize (grid0.coords t0_7) 1 = 1 from by decide +kernel]; omega⟩

/-- Result 2: its accumulator's value after the last point, as contents of the [1,1] result array. -/
abbrev res0_4 (c : Dev nD) : Buf (Elt F) ((c : Thread nD τ).loc main_v0_2) := (accAt0 V c 7 lt7).2.2.1

/-- The one write-back, at the last point, writes it: the window's one block is the array. -/
theorem flushed0_4 (c : Dev nD) (t : Fin cfg0.N) (hf : (cfg0.win 4).flush t = true) :
    (dat0 V c).flushed 4 t = ((cfg0.win 4).blk t).view.read (Elt F) (res0_4 V c) := by
  have hN : cfg0.N = 8 := N_0
  have h7 : t.val = 7 := by have := (flush0_4 t).mp hf; have := t.isLt; omega
  obtain rfl : t = t0_7 := Fin.ext h7
  show (cfg0.win 4).cut (grid0.coords t0_7) ((dat0 V c).after 4 t0_7) = _
  rw [after0_4]
  have hz' : (fun a => win0_4.index t0_7 a * main_v0_2.ty.shape.size a) = fun _ => 0 := funext fun a => by fin_cases a <;> decide
  exact (Memref.read_access_unit_zero (Elt F) main_v0_2 hz' (fun a => by rw [congrFun hz' a]; simp) (res0_4 V c)).symm

/-- So the result array ends holding it. -/
theorem final0_4 (c : Dev nD) : (dat0 V c).arrAt 4 cfg0.N = res0_4 V c :=
  (dat0 V c).arrAt_eq_of_cover 4 (res0_4 V c) (flushed0_4 V c) fun i =>
    ⟨t0_7, (flush0_4 t0_7).mpr rfl, by
      show i ∈ ((View.whole main_v0_2).slice (win0_4.rect t0_7)).set
      rw [View.set_slice_whole, Rect.mem_set_unit]
      intro a
      have h0 : (i 0 : Nat) < 1 := (i 0).isLt
      have h1 : (i 1 : Nat) < 1 := (i 1).isLt
      match a with
      | ⟨0, _⟩ => show win0_4.index t0_7 0 * win0_4.size 0 ≤ (i 0 : Nat) ∧ (i 0 : Nat) < win0_4.index t0_7 0 * win0_4.size 0 + win0_4.xsize (grid0.coords t0_7) 0
                  rw [show win0_4.index t0_7 0 * win0_4.size 0 = 0 from by decide +kernel, show win0_4.xsize (grid0.coords t0_7) 0 = 1 from by decide +kernel]; omega
      | ⟨1, _⟩ => show win0_4.index t0_7 1 * win0_4.size 1 ≤ (i 1 : Nat) ∧ (i 1 : Nat) < win0_4.index t0_7 1 * win0_4.size 1 + win0_4.xsize (grid0.coords t0_7) 1
                  rw [show win0_4.index t0_7 1 * win0_4.size 1 = 0 from by decide +kernel, show win0_4.xsize (grid0.coords t0_7) 1 = 1 from by decide +kernel]; omega⟩

/-- Result 3: its accumulator's value after the last point, as contents of the [1,1] result array. -/
abbrev res0_5 (c : Dev nD) : Buf (Elt F) ((c : Thread nD τ).loc main_v0_3) := (accAt0 V c 7 lt7).2.2.2

/-- The one write-back, at the last point, writes it: the window's one block is the array. -/
theorem flushed0_5 (c : Dev nD) (t : Fin cfg0.N) (hf : (cfg0.win 5).flush t = true) :
    (dat0 V c).flushed 5 t = ((cfg0.win 5).blk t).view.read (Elt F) (res0_5 V c) := by
  have hN : cfg0.N = 8 := N_0
  have h7 : t.val = 7 := by have := (flush0_5 t).mp hf; have := t.isLt; omega
  obtain rfl : t = t0_7 := Fin.ext h7
  show (cfg0.win 5).cut (grid0.coords t0_7) ((dat0 V c).after 5 t0_7) = _
  rw [after0_5]
  have hz' : (fun a => win0_5.index t0_7 a * main_v0_3.ty.shape.size a) = fun _ => 0 := funext fun a => by fin_cases a <;> decide
  exact (Memref.read_access_unit_zero (Elt F) main_v0_3 hz' (fun a => by rw [congrFun hz' a]; simp) (res0_5 V c)).symm

/-- So the result array ends holding it. -/
theorem final0_5 (c : Dev nD) : (dat0 V c).arrAt 5 cfg0.N = res0_5 V c :=
  (dat0 V c).arrAt_eq_of_cover 5 (res0_5 V c) (flushed0_5 V c) fun i =>
    ⟨t0_7, (flush0_5 t0_7).mpr rfl, by
      show i ∈ ((View.whole main_v0_3).slice (win0_5.rect t0_7)).set
      rw [View.set_slice_whole, Rect.mem_set_unit]
      intro a
      have h0 : (i 0 : Nat) < 1 := (i 0).isLt
      have h1 : (i 1 : Nat) < 1 := (i 1).isLt
      match a with
      | ⟨0, _⟩ => show win0_5.index t0_7 0 * win0_5.size 0 ≤ (i 0 : Nat) ∧ (i 0 : Nat) < win0_5.index t0_7 0 * win0_5.size 0 + win0_5.xsize (grid0.coords t0_7) 0
                  rw [show win0_5.index t0_7 0 * win0_5.size 0 = 0 from by decide +kernel, show win0_5.xsize (grid0.coords t0_7) 0 = 1 from by decide +kernel]; omega
      | ⟨1, _⟩ => show win0_5.index t0_7 1 * win0_5.size 1 ≤ (i 1 : Nat) ∧ (i 1 : Nat) < win0_5.index t0_7 1 * win0_5.size 1 + win0_5.xsize (grid0.coords t0_7) 1
                  rw [show win0_5.index t0_7 1 * win0_5.size 1 = 0 from by decide +kernel, show win0_5.xsize (grid0.coords t0_7) 1 = 1 from by decide +kernel]; omega⟩

/-- The two input arrays end as the region found them. -/
theorem arrAt0_in0 (c : Dev nD) : (dat0 V c).arrAt 0 cfg0.N = V c (Pipeline.arrRef spec0 0) :=
  ((dat0 V c).arrAt_in 0 rfl _).trans (A_eq0 V c 0)
theorem arrAt0_in1 (c : Dev nD) : (dat0 V c).arrAt 1 cfg0.N = V c (Pipeline.arrRef spec0 1) :=
  ((dat0 V c).arrAt_in 1 rfl _).trans (A_eq0 V c 1)

end Cert.Kernel.TextMap

end
-- ==== Proof.BoxConfBits.lean ====
import proofs.«167267_j69861938037475_1_alg».proof.Proof.Gen.Kernel.Launch
import proofs.«167267_j69861938037475_1_alg».proof.Proof.Gen.Kernel.Skeleton
import proofs.«167267_j69861938037475_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value

set_option maxRecDepth 16384

noncomputable section

namespace Cert.Kernel.BoxConf

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # The box / confidence reduction (the second kernel launch): its proof data and its body

The launch has ONE grid point; its ten input windows are whole [64,160] arrays (the predicted corners px1, py1, px2, py2,
the target corners tx1, ty1, tx2, ty2, the predicted confidence gc and the target confidence tc), its four output
windows whole [1,1] arrays (the sums of -log IoU, 1 - GIoU, the smooth-L1 corner loss and the confidence cross-entropy).
The body loads every input whole, computes pointwise, sums each of the four maps over both axes and stores each sum whole. -/

/-! ## The windows' blocks -/

/-- Window `w`'s block at point `t`, read off its array as the launch finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! Each input window's current staging buffer holds its block at every point, fetched there or not, for any proof
    data whose array is `V`'s and whose body leaves the block in place: the windows are uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)
theorem before1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)
theorem before1_8_of {c : Dev nD} (dat : Dat τ (Elt F) Unit ℕ (UR sig nD τ) ℕ cfg1 c) (hA : dat.A 8 = V c (Pipeline.arrRef spec1 8))
    (hafter : ∀ t, dat.after 8 t = iblk1 V c 8 t) (t : Fin cfg1.N) (d) : dat.before 8 t d = iblk1 V c 8 t :=
  (dat.before_in_eq_fetched 8 rfl (fun _ => rfl) (fun _ _ _ => rfl) (fun t => by rw [hafter]; unfold Dat.blockOf iblk1; rw [hA]; try rfl) t d).trans
    (by unfold Dat.fetched Dat.blockOf iblk1; rw [hA]; try rfl)
theorem before1_9_of {c : Dev nD} (dat : Dat τ (Elt F) Unit ℕ (UR sig nD τ) ℕ cfg1 c) (hA : dat.A 9 = V c (Pipeline.arrRef spec1 9))
    (hafter : ∀ t, dat.after 9 t = iblk1 V c 9 t) (t : Fin cfg1.N) (d) : dat.before 9 t d = iblk1 V c 9 t :=
  (dat.before_in_eq_fetched 9 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: every load and every store is of a whole buffer -/

abbrev r1_0 : Rect S64x160 := Rect.unit (s := S64x160) ![0, 0] S64x160.size inb_S64x160_S64x160_0_0
abbrev r1_1 : Rect S1x1 := Rect.unit (s := S1x1) ![0, 0] S1x1.size inb_S1x1_S1x1_0_0

/-! ## The pointwise maps the body sums, as functions of the ten loaded blocks -/

section Maps
variable (x0 x1 x2 x3 x4 x5 x6 x7 x8 x9 : Vec F S64x160 .f32)

/-- The predicted box's left edge: the smaller of the clipped px1 and px2. -/
def predLeft : FVec F S64x160 .f32 := k1_pay9 (View.ld x0 r1_0) (View.ld x2 r1_0)
/-- Its right edge: the larger of the two. -/
def predRight : FVec F S64x160 .f32 := k1_pay10 (View.ld x0 r1_0) (View.ld x2 r1_0)
/-- Its top edge: the smaller of the clipped py1 and py2. -/
def predTop : FVec F S64x160 .f32 := k1_pay11 (View.ld x1 r1_0) (View.ld x3 r1_0)
/-- Its bottom edge: the larger of the two. -/
def predBottom : FVec F S64x160 .f32 := k1_pay12 (View.ld x1 r1_0) (View.ld x3 r1_0)
/-- The target box's corners tx1, ty1, tx2 as loaded. -/
def tgtLeft : FVec F S64x160 .f32 := k1_pay13 (View.ld x4 r1_0)
def tgtTop : FVec F S64x160 .f32 := k1_pay14 (View.ld x5 r1_0)
def tgtRight : FVec F S64x160 .f32 := k1_pay15 (View.ld x6 r1_0)

/-- -log (IoU + ε) of the predicted and the target box, pointwise. -/
def negLogIou : FVec F S64x160 .f32 :=
  k1_pay20 (predLeft x0 x2) (predRight x0 x2) (predTop x1 x3) (predBottom x1 x3) (tgtLeft x4) (tgtTop x5) (tgtRight x6) (View.ld x7 r1_0)
/-- 1 - GIoU of the two boxes, pointwise. -/
def oneMinusGiou : FVec F S64x160 .f32 :=
  k1_pay21 (predLeft x0 x2) (predRight x0 x2) (predTop x1 x3) (predBottom x1 x3) (tgtLeft x4) (tgtTop x5) (tgtRight x6) (View.ld x7 r1_0)
/-- The smooth-L1 loss summed over the four corner differences, pointwise. -/
def cornerLoss : FVec F S64x160 .f32 :=
  k1_pay26 (predRight x0 x2) (predTop x1 x3) (predBottom x1 x3) (tgtTop x5) (tgtRight x6) (k1_pay16 (View.ld x7 r1_0))
    (k1_pay22 (predLeft x0 x2) (tgtLeft x4)) (k1_pay23 (predLeft x0 x2) (tgtLeft x4)) (k1_pay24 (predLeft x0 x2) (tgtLeft x4)) (k1_pay25 (F := F))

end Maps

/-! ## What the body leaves in each output window's buffer -/

/-- Window 10's staging buffer after the body: its one whole store, of the sum of -log IoU. -/
def out1_10 (x0 x1 x2 x3 x4 x5 x6 x7 x8 x9 : Vec F S64x160 .f32) : Vec F S1x1 .f32 :=
  View.canon [⟨r1_1, k1_pay1 (negLogIou x0 x1 x2 x3 x4 x5 x6 x7)⟩]
/-- Window 11's: the sum of 1 - GIoU. -/
def out1_11 (x0 x1 x2 x3 x4 x5 x6 x7 x8 x9 : Vec F S64x160 .f32) : Vec F S1x1 .f32 :=
  View.canon [⟨r1_1, k1_pay2 (oneMinusGiou x0 x1 x2 x3 x4 x5 x6 x7)⟩]
/-- Window 12's: the sum of the corner loss. -/
def out1_12 (x0 x1 x2 x3 x4 x5 x6 x7 x8 x9 : Vec F S64x160 .f32) : Vec F S1x1 .f32 :=
  View.canon [⟨r1_1, k1_pay3 (cornerLoss x0 x1 x2 x3 x4 x5 x6 x7)⟩]
/-- Window 13's: the sum of the confidence cross-entropy, from the target confidence tc and the two clamped logarithms of gc. -/
def out1_13 (x0 x1 x2 x3 x4 x5 x6 x7 x8 x9 : Vec F S64x160 .f32) : Vec F S1x1 .f32 :=
  View.canon [⟨r1_1, k1_pay4 (k1_pay28 (View.ld x9 r1_0)) (k1_pay29 (View.ld x8 r1_0)) (k1_pay30 (View.ld x8 r1_0))⟩]

/-- One whole store covers a [1,1] buffer. -/
theorem cover1_out (p0 : Vec F S1x1 .f32) (y : S1x1.Idx) :
    ∃ pc ∈ ([⟨r1_1, p0⟩] : List (View.Piece (Elt F) S1x1 .f32)), y ∈ pc.1.set :=
  View.cover_of_tiled [⟨r1_1, p0⟩] S1x1.size (by rfl) y

/-! ## The body's triple -/

set_option maxHeartbeats 1000000 in
/-- The kernel body on whole staging memrefs, the inputs' at contents `xW` and the outputs' at anything, runs to the
    continuation holding the inputs' as they were and each output's at `out1_W` of the inputs'. -/
theorem sound_kernel1 (c : Dev nD) (E : Set ℕ) (i : grid1.Coords)
    (arg1 : Memref sig .tc .vmem S64x160 .f32) (harg1 : arg1.IsWhole) (arg2 : Memref sig .tc .vmem S64x160 .f32) (harg2 : arg2.IsWhole)
    (arg3 : Memref sig .tc .vmem S64x160 .f32) (harg3 : arg3.IsWhole) (arg4 : Memref sig .tc .vmem S64x160 .f32) (harg4 : arg4.IsWhole)
    (arg5 : Memref sig .tc .vmem S64x160 .f32) (harg5 : arg5.IsWhole) (arg6 : Memref sig .tc .vmem S64x160 .f32) (harg6 : arg6.IsWhole)
    (arg7 : Memref sig .tc .vmem S64x160 .f32) (harg7 : arg7.IsWhole) (arg8 : Memref sig .tc .vmem S64x160 .f32) (harg8 : arg8.IsWhole)
    (arg9 : Memref sig .tc .vmem S64x160 .f32) (harg9 : arg9.IsWhole) (arg10 : Memref sig .tc .vmem S64x160 .f32) (harg10 : arg10.IsWhole)
    (arg11 : Memref sig .tc .vmem S1x1 .f32) (harg11 : arg11.IsWhole) (arg12 : Memref sig .tc .vmem S1x1 .f32) (harg12 : arg12.IsWhole)
    (arg13 : Memref sig .tc .vmem S1x1 .f32) (harg13 : arg13.IsWhole) (arg14 : Memref sig .tc .vmem S1x1 .f32) (harg14 : arg14.IsWhole)
    (x0 x1 x2 x3 x4 x5 x6 x7 x8 x9 : Vec F S64x160 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ owns (c : Thread nD τ) arg5 fullShare x4 ∗ owns (c : Thread nD τ) arg6 fullShare x5
        ∗ owns (c : Thread nD τ) arg7 fullShare x6 ∗ owns (c : Thread nD τ) arg8 fullShare x7
        ∗ owns (c : Thread nD τ) arg9 fullShare x8 ∗ owns (c : Thread nD τ) arg10 fullShare x9
        ∗ (∃ d, owns (c : Thread nD τ) arg11 fullShare d) ∗ (∃ d, owns (c : Thread nD τ) arg12 fullShare d)
        ∗ (∃ d, owns (c : Thread nD τ) arg13 fullShare d) ∗ (∃ d, owns (c : Thread nD τ) arg14 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare x4 ∗ owns (c : Thread nD τ) arg6 fullShare x5
            ∗ owns (c : Thread nD τ) arg7 fullShare x6 ∗ owns (c : Thread nD τ) arg8 fullShare x7
            ∗ owns (c : Thread nD τ) arg9 fullShare x8 ∗ owns (c : Thread nD τ) arg10 fullShare x9
            ∗ owns (c : Thread nD τ) arg11 fullShare (out1_10 x0 x1 x2 x3 x4 x5 x6 x7 x8 x9)
            ∗ owns (c : Thread nD τ) arg12 fullShare (out1_11 x0 x1 x2 x3 x4 x5 x6 x7 x8 x9)
            ∗ owns (c : Thread nD τ) arg13 fullShare (out1_12 x0 x1 x2 x3 x4 x5 x6 x7 x8 x9)
            ∗ owns (c : Thread nD τ) arg14 fullShare (out1_13 x0 x1 x2 x3 x4 x5 x6 x7 x8 x9)) -∗ K ⟨⟩))
      ⊢ wp frame (wpE (defs₀ (F := F)) Variants.none c none) E
          (cc1__box_conf_kernel i arg1 harg1 arg2 harg2 arg3 harg3 arg4 harg4 arg5 harg5 arg6 harg6 arg7 harg7 arg8 harg8 arg9 harg9 arg10 harg10 arg11 harg11 arg12 harg12 arg13 harg13 arg14 harg14) K := by
  simp only [cc1__box_conf_kernel_eq_skeleton]; unfold cc1__box_conf_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%d12, %f12, -, H12⟩, ⟨%d13, %f13, -, H13⟩, Hk⟩
  subst hf0 hf1 hf2 hf3 hf4 hf5 hf6 hf7 hf8 hf9
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists _; isplitr
    swap; · iexact H10
    ipureintro
    first | exact View.read_writes_eq_canon _ _ _ (cover1_out _) | fail "out 10"
  isplitl [H11]
  · iexists _; isplitr
    swap; · iexact H11
    ipureintro
    first | exact View.read_writes_eq_canon _ _ _ (cover1_out _) | fail "out 11"
  isplitl [H12]
  · iexists _; isplitr
    swap; · iexact H12
    ipureintro
    first | exact View.read_writes_eq_canon _ _ _ (cover1_out _) | fail "out 12"
  iexists _; isplitr
  swap; · iexact H13
  ipureintro
  first | exact View.read_writes_eq_canon _ _ _ (cover1_out _) | fail "out 13"

/-! ## The launch's proof data -/

/-- The proof data of the launch on core `c`: the arrays as the launch finds them (`V`); after the body at point `t`
    each input's buffer at its block and each output's at `out1_W` of the input blocks; the invariant is the scoped rest and
    the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => iblk1 V c 9 t
    | ⟨10, _⟩ => out1_10 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t)
    | ⟨11, _⟩ => out1_11 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t)
    | ⟨12, _⟩ => out1_12 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t)
    | ⟨13, _⟩ => out1_13 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t)
  Φ _ := Pipeline.ΦA spec1 c
  q _ := fullShare
  owed _ := 0

/-- The proof data's arrays are the contents the launch finds. -/
theorem A_eq1 (c : Dev nD) (w : Fin cfg1.W) : (dat1 V c).A w = V c (Pipeline.arrRef spec1 w) := by
  dsimp only [dat1]
/-- Its shares are full, -/
theorem q1 (c : Dev nD) : ∀ w, (dat1 V c).q w = fullShare := fun _ => rfl
/-- nothing is owed, -/
theorem owed1 (c : Dev nD) : ∀ t, (dat1 V c).owed t = 0 := fun _ => rfl
/-- and its invariant is the scoped rest and the generator register at every point. -/
theorem Phi1 (c : Dev nD) (t) : (dat1 V c).Φ t = Pipeline.ΦA spec1 c := rfl

/-! What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = iblk1 V c 8 t := by dsimp only [dat1]
theorem after1_9 (c : Dev nD) (t : Fin cfg1.N) : (dat1 V c).after 9 t = iblk1 V c 9 t := by dsimp only [dat1]
theorem after1_10 (c : Dev nD) (t : Fin cfg1.N) :
    (dat1 V c).after 10 t = out1_10 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) := by dsimp only [dat1]
theorem after1_11 (c : Dev nD) (t : Fin cfg1.N) :
    (dat1 V c).after 11 t = out1_11 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) := by dsimp only [dat1]
theorem after1_12 (c : Dev nD) (t : Fin cfg1.N) :
    (dat1 V c).after 12 t = out1_12 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) := by dsimp only [dat1]
theorem after1_13 (c : Dev nD) (t : Fin cfg1.N) :
    (dat1 V c).after 13 t = out1_13 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) := by dsimp only [dat1]

/-! Each input's current staging buffer holds its block at every point. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d
theorem before1_7 (c : Dev nD) (t : Fin cfg1.N) (d) : (dat1 V c).before 7 t d = iblk1 V c 7 t :=
  before1_7_of V (dat1 V c) (A_eq1 V c 7) (after1_7 V c) t d
theorem before1_8 (c : Dev nD) (t : Fin cfg1.N) (d) : (dat1 V c).before 8 t d = iblk1 V c 8 t :=
  before1_8_of V (dat1 V c) (A_eq1 V c 8) (after1_8 V c) t d
theorem before1_9 (c : Dev nD) (t : Fin cfg1.N) (d) : (dat1 V c).before 9 t d = iblk1 V c 9 t :=
  before1_9_of V (dat1 V c) (A_eq1 V c 9) (after1_9 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d))
    ∗ (∃ d, owns (c : Thread nD τ) (st1_9 t) fullShare ((dat1 V c).before 9 t d))
    ∗ (∃ d, owns (c : Thread nD τ) (st1_10 t) fullShare ((dat1 V c).before 10 t d))
    ∗ (∃ d, owns (c : Thread nD τ) (st1_11 t) fullShare ((dat1 V c).before 11 t d))
    ∗ (∃ d, owns (c : Thread nD τ) (st1_12 t) fullShare ((dat1 V c).before 12 t d))
    ∗ (∃ d, owns (c : Thread nD τ) (st1_13 t) fullShare ((dat1 V c).before 13 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t)
    ∗ owns (c : Thread nD τ) (st1_9 t) fullShare ((dat1 V c).after 9 t)
    ∗ owns (c : Thread nD τ) (st1_10 t) fullShare ((dat1 V c).after 10 t)
    ∗ owns (c : Thread nD τ) (st1_11 t) fullShare ((dat1 V c).after 11 t)
    ∗ owns (c : Thread nD τ) (st1_12 t) fullShare ((dat1 V c).after 12 t)
    ∗ owns (c : Thread nD τ) (st1_13 t) fullShare ((dat1 V c).after 13 t))

set_option maxHeartbeats 1000000 in
/-- The body at any point: the inputs' memrefs hold their blocks, so `sound_kernel1` applies; the invariant and the core's
    `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7, before1_8, before1_9]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8, after1_9, after1_10, after1_11, after1_12, after1_13]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
  iapply (sound_kernel1 c Set.univ (grid1.coords t) _ _ _ _ _ _ _ _ _ _ _ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  isplitl [H11]; · iexists _; iexact H11
  isplitl [H12]; · iexists _; iexact H12
  isplitl [H13]; · iexists _; iexact H13
  iintro ⟨H0, H1, H2, H3, H4, H5, H6, H7, H8, H9, H10, H11, H12, H13⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iexact H13

/-- The library's body obligation, at every point. -/
theorem body_obligation1 (c : Dev nD) : BodyObligation (dat1 (F := F) V c) (defs₀ (F := F)) Variants.none () Set.univ := fun t => by
  rw [bigSep_W1, bigSep_W1]
  exact sound_body1 V c t

/-! ## From the one block to the array

The grid has one point and every window's block is its whole array (every index map is constantly zero), so an input's
block IS its array as the launch finds it, and an output's array ends holding what the body left in its buffer. -/

theorem hz2 : (![0, 0] : Fin 2 → Nat) = fun _ => 0 := funext fun a => by fin_cases a <;> rfl

/-- Every window's block index is zero on both axes, at every point of the grid. -/
theorem idx_zero1 : ∀ t : Fin cfg1.N, (win1_0.index t (0 : Fin 2) = 0 ∧ win1_0.index t (1 : Fin 2) = 0)
    ∧ (win1_1.index t (0 : Fin 2) = 0 ∧ win1_1.index t (1 : Fin 2) = 0)
    ∧ (win1_2.index t (0 : Fin 2) = 0 ∧ win1_2.index t (1 : Fin 2) = 0)
    ∧ (win1_3.index t (0 : Fin 2) = 0 ∧ win1_3.index t (1 : Fin 2) = 0)
    ∧ (win1_4.index t (0 : Fin 2) = 0 ∧ win1_4.index t (1 : Fin 2) = 0)
    ∧ (win1_5.index t (0 : Fin 2) = 0 ∧ win1_5.index t (1 : Fin 2) = 0)
    ∧ (win1_6.index t (0 : Fin 2) = 0 ∧ win1_6.index t (1 : Fin 2) = 0)
    ∧ (win1_7.index t (0 : Fin 2) = 0 ∧ win1_7.index t (1 : Fin 2) = 0)
    ∧ (win1_8.index t (0 : Fin 2) = 0 ∧ win1_8.index t (1 : Fin 2) = 0)
    ∧ (win1_9.index t (0 : Fin 2) = 0 ∧ win1_9.index t (1 : Fin 2) = 0)
    ∧ (win1_10.index t (0 : Fin 2) = 0 ∧ win1_10.index t (1 : Fin 2) = 0)
    ∧ (win1_11.index t (0 : Fin 2) = 0 ∧ win1_11.index t (1 : Fin 2) = 0)
    ∧ (win1_12.index t (0 : Fin 2) = 0 ∧ win1_12.index t (1 : Fin 2) = 0)
    ∧ (win1_13.index t (0 : Fin 2) = 0 ∧ win1_13.index t (1 : Fin 2) = 0) :=
  (by decide +kernel : ∀ t : Fin grid1.N, _)

/-! The ten input arrays, whole, as the launch finds them. -/
abbrev arr1_0 (c : Dev nD) : Vec F S64x160 .f32 := V c (Pipeline.arrRef spec1 0)
abbrev arr1_1 (c : Dev nD) : Vec F S64x160 .f32 := V c (Pipeline.arrRef spec1 1)
abbrev arr1_2 (c : Dev nD) : Vec F S64x160 .f32 := V c (Pipeline.arrRef spec1 2)
abbrev arr1_3 (c : Dev nD) : Vec F S64x160 .f32 := V c (Pipeline.arrRef spec1 3)
abbrev arr1_4 (c : Dev nD) : Vec F S64x160 .f32 := V c (Pipeline.arrRef spec1 4)
abbrev arr1_5 (c : Dev nD) : Vec F S64x160 .f32 := V c (Pipeline.arrRef spec1 5)
abbrev arr1_6 (c : Dev nD) : Vec F S64x160 .f32 := V c (Pipeline.arrRef spec1 6)
abbrev arr1_7 (c : Dev nD) : Vec F S64x160 .f32 := V c (Pipeline.arrRef spec1 7)
abbrev arr1_8 (c : Dev nD) : Vec F S64x160 .f32 := V c (Pipeline.arrRef spec1 8)
abbrev arr1_9 (c : Dev nD) : Vec F S64x160 .f32 := V c (Pipeline.arrRef spec1 9)

/-! An input window's block, at any point, is its whole array. -/
theorem iblk1_whole_0 (c : Dev nD) (t : Fin cfg1.N) : (iblk1 V c 0 t : Vec F S64x160 .f32) = arr1_0 V c := by
  funext y
  show V c main_v108 (((cfg1.win 0).blk t).view.emb y) = V c main_v108 y
  refine congrArg _ ?_
  have e := idx_zero1 t
  funext a; apply Fin.ext
  match a with
  | ⟨0, _⟩ => show win1_0.index t (0 : Fin 2) * 64 + 1 * (y 0).val = (y 0).val; omega
  | ⟨1, _⟩ => show win1_0.index t (1 : Fin 2) * 160 + 1 * (y 1).val = (y 1).val; omega
theorem iblk1_whole_1 (c : Dev nD) (t : Fin cfg1.N) : (iblk1 V c 1 t : Vec F S64x160 .f32) = arr1_1 V c := by
  funext y
  show V c main_v110 (((cfg1.win 1).blk t).view.emb y) = V c main_v110 y
  refine congrArg _ ?_
  have e := idx_zero1 t
  funext a; apply Fin.ext
  match a with
  | ⟨0, _⟩ => show win1_1.index t (0 : Fin 2) * 64 + 1 * (y 0).val = (y 0).val; omega
  | ⟨1, _⟩ => show win1_1.index t (1 : Fin 2) * 160 + 1 * (y 1).val = (y 1).val; omega
theorem iblk1_whole_2 (c : Dev nD) (t : Fin cfg1.N) : (iblk1 V c 2 t : Vec F S64x160 .f32) = arr1_2 V c := by
  funext y
  show V c main_v112 (((cfg1.win 2).blk t).view.emb y) = V c main_v112 y
  refine congrArg _ ?_
  have e := idx_zero1 t
  funext a; apply Fin.ext
  match a with
  | ⟨0, _⟩ => show win1_2.index t (0 : Fin 2) * 64 + 1 * (y 0).val = (y 0).val; omega
  | ⟨1, _⟩ => show win1_2.index t (1 : Fin 2) * 160 + 1 * (y 1).val = (y 1).val; omega
theorem iblk1_whole_3 (c : Dev nD) (t : Fin cfg1.N) : (iblk1 V c 3 t : Vec F S64x160 .f32) = arr1_3 V c := by
  funext y
  show V c main_v114 (((cfg1.win 3).blk t).view.emb y) = V c main_v114 y
  refine congrArg _ ?_
  have e := idx_zero1 t
  funext a; apply Fin.ext
  match a with
  | ⟨0, _⟩ => show win1_3.index t (0 : Fin 2) * 64 + 1 * (y 0).val = (y 0).val; omega
  | ⟨1, _⟩ => show win1_3.index t (1 : Fin 2) * 160 + 1 * (y 1).val = (y 1).val; omega
theorem iblk1_whole_4 (c : Dev nD) (t : Fin cfg1.N) : (iblk1 V c 4 t : Vec F S64x160 .f32) = arr1_4 V c := by
  funext y
  show V c main_v116 (((cfg1.win 4).blk t).view.emb y) = V c main_v116 y
  refine congrArg _ ?_
  have e := idx_zero1 t
  funext a; apply Fin.ext
  match a with
  | ⟨0, _⟩ => show win1_4.index t (0 : Fin 2) * 64 + 1 * (y 0).val = (y 0).val; omega
  | ⟨1, _⟩ => show win1_4.index t (1 : Fin 2) * 160 + 1 * (y 1).val = (y 1).val; omega
theorem iblk1_whole_5 (c : Dev nD) (t : Fin cfg1.N) : (iblk1 V c 5 t : Vec F S64x160 .f32) = arr1_5 V c := by
  funext y
  show V c main_v118 (((cfg1.win 5).blk t).view.emb y) = V c main_v118 y
  refine congrArg _ ?_
  have e := idx_zero1 t
  funext a; apply Fin.ext
  match a with
  | ⟨0, _⟩ => show win1_5.index t (0 : Fin 2) * 64 + 1 * (y 0).val = (y 0).val; omega
  | ⟨1, _⟩ => show win1_5.index t (1 : Fin 2) * 160 + 1 * (y 1).val = (y 1).val; omega
theorem iblk1_whole_6 (c : Dev nD) (t : Fin cfg1.N) : (iblk1 V c 6 t : Vec F S64x160 .f32) = arr1_6 V c := by
  funext y
  show V c main_v120 (((cfg1.win 6).blk t).view.emb y) = V c main_v120 y
  refine congrArg _ ?_
  have e := idx_zero1 t
  funext a; apply Fin.ext
  match a with
  | ⟨0, _⟩ => show win1_6.index t (0 : Fin 2) * 64 + 1 * (y 0).val = (y 0).val; omega
  | ⟨1, _⟩ => show win1_6.index t (1 : Fin 2) * 160 + 1 * (y 1).val = (y 1).val; omega
theorem iblk1_whole_7 (c : Dev nD) (t : Fin cfg1.N) : (iblk1 V c 7 t : Vec F S64x160 .f32) = arr1_7 V c := by
  funext y
  show V c main_v122 (((cfg1.win 7).blk t).view.emb y) = V c main_v122 y
  refine congrArg _ ?_
  have e := idx_zero1 t
  funext a; apply Fin.ext
  match a with
  | ⟨0, _⟩ => show win1_7.index t (0 : Fin 2) * 64 + 1 * (y 0).val = (y 0).val; omega
  | ⟨1, _⟩ => show win1_7.index t (1 : Fin 2) * 160 + 1 * (y 1).val = (y 1).val; omega
theorem iblk1_whole_8 (c : Dev nD) (t : Fin cfg1.N) : (iblk1 V c 8 t : Vec F S64x160 .f32) = arr1_8 V c := by
  funext y
  show V c main_v95 (((cfg1.win 8).blk t).view.emb y) = V c main_v95 y
  refine congrArg _ ?_
  have e := idx_zero1 t
  funext a; apply Fin.ext
  match a with
  | ⟨0, _⟩ => show win1_8.index t (0 : Fin 2) * 64 + 1 * (y 0).val = (y 0).val; omega
  | ⟨1, _⟩ => show win1_8.index t (1 : Fin 2) * 160 + 1 * (y 1).val = (y 1).val; omega
theorem iblk1_whole_9 (c : Dev nD) (t : Fin cfg1.N) : (iblk1 V c 9 t : Vec F S64x160 .f32) = arr1_9 V c := by
  funext y
  show V c main_v106 (((cfg1.win 9).blk t).view.emb y) = V c main_v106 y
  refine congrArg _ ?_
  have e := idx_zero1 t
  funext a; apply Fin.ext
  match a with
  | ⟨0, _⟩ => show win1_9.index t (0 : Fin 2) * 64 + 1 * (y 0).val = (y 0).val; omega
  | ⟨1, _⟩ => show win1_9.index t (1 : Fin 2) * 160 + 1 * (y 1).val = (y 1).val; omega

/-- A whole load reads the buffer's contents. -/
theorem ld_r1_0 (X : Vec F S64x160 .f32) : View.ld X r1_0 = X := View.ld_unit_zero (S := S64x160) hz2 _ X
/-- One whole store leaves its payload. -/
theorem canon_r1_1 (p : Vec F S1x1 .f32) : View.canon [(⟨r1_1, p⟩ : View.Piece (Elt F) S1x1 .f32)] = p := View.canon_unit_zero hz2 _ p

/-- What the one point writes back of window 10 is its block of `out1_10` of the whole input arrays. -/
theorem flushed1_10_eq (c : Dev nD) (t : Fin cfg1.N) :
    (dat1 V c).flushed 10 t = ((cfg1.win 10).blk t).view.read (Elt F) (out1_10 (arr1_0 V c) (arr1_1 V c) (arr1_2 V c) (arr1_3 V c) (arr1_4 V c) (arr1_5 V c) (arr1_6 V c) (arr1_7 V c) (arr1_8 V c) (arr1_9 V c)) := by
  show (cfg1.win 10).cut (grid1.coords t) ((dat1 V c).after 10 t) = _
  rw [after1_10, iblk1_whole_0, iblk1_whole_1, iblk1_whole_2, iblk1_whole_3, iblk1_whole_4, iblk1_whole_5, iblk1_whole_6, iblk1_whole_7, iblk1_whole_8, iblk1_whole_9]
  have e := idx_zero1 t
  funext j
  show out1_10 (arr1_0 V c) (arr1_1 V c) (arr1_2 V c) (arr1_3 V c) (arr1_4 V c) (arr1_5 V c) (arr1_6 V c) (arr1_7 V c) (arr1_8 V c) (arr1_9 V c) j = out1_10 (arr1_0 V c) (arr1_1 V c) (arr1_2 V c) (arr1_3 V c) (arr1_4 V c) (arr1_5 V c) (arr1_6 V c) (arr1_7 V c) (arr1_8 V c) (arr1_9 V c) (((cfg1.win 10).blk t).view.emb j)
  refine congrArg _ ?_
  funext a; apply Fin.ext
  match a with
  | ⟨0, _⟩ => show (j 0).val = win1_10.index t (0 : Fin 2) * 1 + 1 * (j 0).val; omega
  | ⟨1, _⟩ => show (j 1).val = win1_10.index t (1 : Fin 2) * 1 + 1 * (j 1).val; omega

/-- The one point's block of window 10 is the whole [1,1] array. -/
theorem cover1_10 (c : Dev nD) (i : S1x1.Idx) :
    ∃ t : Fin cfg1.N, (cfg1.win 10).flush t = true ∧ i ∈ ((cfg1.win 10).blk t).view.set := by
  refine ⟨t1_0, flush1_10 t1_0, ?_⟩
  have e := idx_zero1 t1_0
  show i ∈ ((View.whole main_v123_0).slice (win1_10.rect t1_0)).set
  rw [View.set_slice_whole, Rect.mem_set_unit]
  intro a
  match a with
  | ⟨0, _⟩ => show win1_10.index t1_0 (0 : Fin 2) * 1 ≤ (i 0).val ∧ (i 0).val < win1_10.index t1_0 (0 : Fin 2) * 1 + 1; have h0 : (i 0).val < 1 := (i 0).isLt; omega
  | ⟨1, _⟩ => show win1_10.index t1_0 (1 : Fin 2) * 1 ≤ (i 1).val ∧ (i 1).val < win1_10.index t1_0 (1 : Fin 2) * 1 + 1; have h1 : (i 1).val < 1 := (i 1).isLt; omega

/-- Output array 10 after the launch: `out1_10` of the ten whole input arrays. -/
theorem final1_10 (c : Dev nD) : (dat1 V c).arrAt 10 cfg1.N = out1_10 (arr1_0 V c) (arr1_1 V c) (arr1_2 V c) (arr1_3 V c) (arr1_4 V c) (arr1_5 V c) (arr1_6 V c) (arr1_7 V c) (arr1_8 V c) (arr1_9 V c) :=
  (dat1 V c).arrAt_eq_of_cover 10 (out1_10 (arr1_0 V c) (arr1_1 V c) (arr1_2 V c) (arr1_3 V c) (arr1_4 V c) (arr1_5 V c) (arr1_6 V c) (arr1_7 V c) (arr1_8 V c) (arr1_9 V c)) (fun t _ => flushed1_10_eq V c t) (cover1_10 c)

/-- What the one point writes back of window 11 is its block of `out1_11` of the whole input arrays. -/
theorem flushed1_11_eq (c : Dev nD) (t : Fin cfg1.N) :
    (dat1 V c).flushed 11 t = ((cfg1.win 11).blk t).view.read (Elt F) (out1_11 (arr1_0 V c) (arr1_1 V c) (arr1_2 V c) (arr1_3 V c) (arr1_4 V c) (arr1_5 V c) (arr1_6 V c) (arr1_7 V c) (arr1_8 V c) (arr1_9 V c)) := by
  show (cfg1.win 11).cut (grid1.coords t) ((dat1 V c).after 11 t) = _
  rw [after1_11, iblk1_whole_0, iblk1_whole_1, iblk1_whole_2, iblk1_whole_3, iblk1_whole_4, iblk1_whole_5, iblk1_whole_6, iblk1_whole_7, iblk1_whole_8, iblk1_whole_9]
  have e := idx_zero1 t
  funext j
  show out1_11 (arr1_0 V c) (arr1_1 V c) (arr1_2 V c) (arr1_3 V c) (arr1_4 V c) (arr1_5 V c) (arr1_6 V c) (arr1_7 V c) (arr1_8 V c) (arr1_9 V c) j = out1_11 (arr1_0 V c) (arr1_1 V c) (arr1_2 V c) (arr1_3 V c) (arr1_4 V c) (arr1_5 V c) (arr1_6 V c) (arr1_7 V c) (arr1_8 V c) (arr1_9 V c) (((cfg1.win 11).blk t).view.emb j)
  refine congrArg _ ?_
  funext a; apply Fin.ext
  match a with
  | ⟨0, _⟩ => show (j 0).val = win1_11.index t (0 : Fin 2) * 1 + 1 * (j 0).val; omega
  | ⟨1, _⟩ => show (j 1).val = win1_11.index t (1 : Fin 2) * 1 + 1 * (j 1).val; omega

/-- The one point's block of window 11 is the whole [1,1] array. -/
theorem cover1_11 (c : Dev nD) (i : S1x1.Idx) :
    ∃ t : Fin cfg1.N, (cfg1.win 11).flush t = true ∧ i ∈ ((cfg1.win 11).blk t).view.set := by
  refine ⟨t1_0, flush1_11 t1_0, ?_⟩
  have e := idx_zero1 t1_0
  show i ∈ ((View.whole main_v123_1).slice (win1_11.rect t1_0)).set
  rw [View.set_slice_whole, Rect.mem_set_unit]
  intro a
  match a with
  | ⟨0, _⟩ => show win1_11.index t1_0 (0 : Fin 2) * 1 ≤ (i 0).val ∧ (i 0).val < win1_11.index t1_0 (0 : Fin 2) * 1 + 1; have h0 : (i 0).val < 1 := (i 0).isLt; omega
  | ⟨1, _⟩ => show win1_11.index t1_0 (1 : Fin 2) * 1 ≤ (i 1).val ∧ (i 1).val < win1_11.index t1_0 (1 : Fin 2) * 1 + 1; have h1 : (i 1).val < 1 := (i 1).isLt; omega

/-- Output array 11 after the launch: `out1_11` of the ten whole input arrays. -/
theorem final1_11 (c : Dev nD) : (dat1 V c).arrAt 11 cfg1.N = out1_11 (arr1_0 V c) (arr1_1 V c) (arr1_2 V c) (arr1_3 V c) (arr1_4 V c) (arr1_5 V c) (arr1_6 V c) (arr1_7 V c) (arr1_8 V c) (arr1_9 V c) :=
  (dat1 V c).arrAt_eq_of_cover 11 (out1_11 (arr1_0 V c) (arr1_1 V c) (arr1_2 V c) (arr1_3 V c) (arr1_4 V c) (arr1_5 V c) (arr1_6 V c) (arr1_7 V c) (arr1_8 V c) (arr1_9 V c)) (fun t _ => flushed1_11_eq V c t) (cover1_11 c)

/-- What the one point writes back of window 12 is its block of `out1_12` of the whole input arrays. -/
theorem flushed1_12_eq (c : Dev nD) (t : Fin cfg1.N) :
    (dat1 V c).flushed 12 t = ((cfg1.win 12).blk t).view.read (Elt F) (out1_12 (arr1_0 V c) (arr1_1 V c) (arr1_2 V c) (arr1_3 V c) (arr1_4 V c) (arr1_5 V c) (arr1_6 V c) (arr1_7 V c) (arr1_8 V c) (arr1_9 V c)) := by
  show (cfg1.win 12).cut (grid1.coords t) ((dat1 V c).after 12 t) = _
  rw [after1_12, iblk1_whole_0, iblk1_whole_1, iblk1_whole_2, iblk1_whole_3, iblk1_whole_4, iblk1_whole_5, iblk1_whole_6, iblk1_whole_7, iblk1_whole_8, iblk1_whole_9]
  have e := idx_zero1 t
  funext j
  show out1_12 (arr1_0 V c) (arr1_1 V c) (arr1_2 V c) (arr1_3 V c) (arr1_4 V c) (arr1_5 V c) (arr1_6 V c) (arr1_7 V c) (arr1_8 V c) (arr1_9 V c) j = out1_12 (arr1_0 V c) (arr1_1 V c) (arr1_2 V c) (arr1_3 V c) (arr1_4 V c) (arr1_5 V c) (arr1_6 V c) (arr1_7 V c) (arr1_8 V c) (arr1_9 V c) (((cfg1.win 12).blk t).view.emb j)
  refine congrArg _ ?_
  funext a; apply Fin.ext
  match a with
  | ⟨0, _⟩ => show (j 0).val = win1_12.index t (0 : Fin 2) * 1 + 1 * (j 0).val; omega
  | ⟨1, _⟩ => show (j 1).val = win1_12.index t (1 : Fin 2) * 1 + 1 * (j 1).val; omega

/-- The one point's block of window 12 is the whole [1,1] array. -/
theorem cover1_12 (c : Dev nD) (i : S1x1.Idx) :
    ∃ t : Fin cfg1.N, (cfg1.win 12).flush t = true ∧ i ∈ ((cfg1.win 12).blk t).view.set := by
  refine ⟨t1_0, flush1_12 t1_0, ?_⟩
  have e := idx_zero1 t1_0
  show i ∈ ((View.whole main_v123_2).slice (win1_12.rect t1_0)).set
  rw [View.set_slice_whole, Rect.mem_set_unit]
  intro a
  match a with
  | ⟨0, _⟩ => show win1_12.index t1_0 (0 : Fin 2) * 1 ≤ (i 0).val ∧ (i 0).val < win1_12.index t1_0 (0 : Fin 2) * 1 + 1; have h0 : (i 0).val < 1 := (i 0).isLt; omega
  | ⟨1, _⟩ => show win1_12.index t1_0 (1 : Fin 2) * 1 ≤ (i 1).val ∧ (i 1).val < win1_12.index t1_0 (1 : Fin 2) * 1 + 1; have h1 : (i 1).val < 1 := (i 1).isLt; omega

/-- Output array 12 after the launch: `out1_12` of the ten whole input arrays. -/
theorem final1_12 (c : Dev nD) : (dat1 V c).arrAt 12 cfg1.N = out1_12 (arr1_0 V c) (arr1_1 V c) (arr1_2 V c) (arr1_3 V c) (arr1_4 V c) (arr1_5 V c) (arr1_6 V c) (arr1_7 V c) (arr1_8 V c) (arr1_9 V c) :=
  (dat1 V c).arrAt_eq_of_cover 12 (out1_12 (arr1_0 V c) (arr1_1 V c) (arr1_2 V c) (arr1_3 V c) (arr1_4 V c) (arr1_5 V c) (arr1_6 V c) (arr1_7 V c) (arr1_8 V c) (arr1_9 V c)) (fun t _ => flushed1_12_eq V c t) (cover1_12 c)

/-- What the one point writes back of window 13 is its block of `out1_13` of the whole input arrays. -/
theorem flushed1_13_eq (c : Dev nD) (t : Fin cfg1.N) :
    (dat1 V c).flushed 13 t = ((cfg1.win 13).blk t).view.read (Elt F) (out1_13 (arr1_0 V c) (arr1_1 V c) (arr1_2 V c) (arr1_3 V c) (arr1_4 V c) (arr1_5 V c) (arr1_6 V c) (arr1_7 V c) (arr1_8 V c) (arr1_9 V c)) := by
  show (cfg1.win 13).cut (grid1.coords t) ((dat1 V c).after 13 t) = _
  rw [after1_13, iblk1_whole_0, iblk1_whole_1, iblk1_whole_2, iblk1_whole_3, iblk1_whole_4, iblk1_whole_5, iblk1_whole_6, iblk1_whole_7, iblk1_whole_8, iblk1_whole_9]
  have e := idx_zero1 t
  funext j
  show out1_13 (arr1_0 V c) (arr1_1 V c) (arr1_2 V c) (arr1_3 V c) (arr1_4 V c) (arr1_5 V c) (arr1_6 V c) (arr1_7 V c) (arr1_8 V c) (arr1_9 V c) j = out1_13 (arr1_0 V c) (arr1_1 V c) (arr1_2 V c) (arr1_3 V c) (arr1_4 V c) (arr1_5 V c) (arr1_6 V c) (arr1_7 V c) (arr1_8 V c) (arr1_9 V c) (((cfg1.win 13).blk t).view.emb j)
  refine congrArg _ ?_
  funext a; apply Fin.ext
  match a with
  | ⟨0, _⟩ => show (j 0).val = win1_13.index t (0 : Fin 2) * 1 + 1 * (j 0).val; omega
  | ⟨1, _⟩ => show (j 1).val = win1_13.index t (1 : Fin 2) * 1 + 1 * (j 1).val; omega

/-- The one point's block of window 13 is the whole [1,1] array. -/
theorem cover1_13 (c : Dev nD) (i : S1x1.Idx) :
    ∃ t : Fin cfg1.N, (cfg1.win 13).flush t = true ∧ i ∈ ((cfg1.win 13).blk t).view.set := by
  refine ⟨t1_0, flush1_13 t1_0, ?_⟩
  have e := idx_zero1 t1_0
  show i ∈ ((View.whole main_v123_3).slice (win1_13.rect t1_0)).set
  rw [View.set_slice_whole, Rect.mem_set_unit]
  intro a
  match a with
  | ⟨0, _⟩ => show win1_13.index t1_0 (0 : Fin 2) * 1 ≤ (i 0).val ∧ (i 0).val < win1_13.index t1_0 (0 : Fin 2) * 1 + 1; have h0 : (i 0).val < 1 := (i 0).isLt; omega
  | ⟨1, _⟩ => show win1_13.index t1_0 (1 : Fin 2) * 1 ≤ (i 1).val ∧ (i 1).val < win1_13.index t1_0 (1 : Fin 2) * 1 + 1; have h1 : (i 1).val < 1 := (i 1).isLt; omega

/-- Output array 13 after the launch: `out1_13` of the ten whole input arrays. -/
theorem final1_13 (c : Dev nD) : (dat1 V c).arrAt 13 cfg1.N = out1_13 (arr1_0 V c) (arr1_1 V c) (arr1_2 V c) (arr1_3 V c) (arr1_4 V c) (arr1_5 V c) (arr1_6 V c) (arr1_7 V c) (arr1_8 V c) (arr1_9 V c) :=
  (dat1 V c).arrAt_eq_of_cover 13 (out1_13 (arr1_0 V c) (arr1_1 V c) (arr1_2 V c) (arr1_3 V c) (arr1_4 V c) (arr1_5 V c) (arr1_6 V c) (arr1_7 V c) (arr1_8 V c) (arr1_9 V c)) (fun t _ => flushed1_13_eq V c t) (cover1_13 c)

/-! The same, with the whole loads and the one store read away: each output array is its payload of the whole input arrays. -/
theorem out1_10_eq (x0 x1 x2 x3 x4 x5 x6 x7 x8 x9 : Vec F S64x160 .f32) :
    out1_10 x0 x1 x2 x3 x4 x5 x6 x7 x8 x9 = k1_pay1 (negLogIou x0 x1 x2 x3 x4 x5 x6 x7) := canon_r1_1 _
theorem out1_11_eq (x0 x1 x2 x3 x4 x5 x6 x7 x8 x9 : Vec F S64x160 .f32) :
    out1_11 x0 x1 x2 x3 x4 x5 x6 x7 x8 x9 = k1_pay2 (oneMinusGiou x0 x1 x2 x3 x4 x5 x6 x7) := canon_r1_1 _
theorem out1_12_eq (x0 x1 x2 x3 x4 x5 x6 x7 x8 x9 : Vec F S64x160 .f32) :
    out1_12 x0 x1 x2 x3 x4 x5 x6 x7 x8 x9 = k1_pay3 (cornerLoss x0 x1 x2 x3 x4 x5 x6 x7) := canon_r1_1 _
theorem out1_13_eq (x0 x1 x2 x3 x4 x5 x6 x7 x8 x9 : Vec F S64x160 .f32) :
    out1_13 x0 x1 x2 x3 x4 x5 x6 x7 x8 x9 = k1_pay4 (k1_pay28 x9) (k1_pay29 x8) (k1_pay30 x8) := by
  unfold out1_13; rw [canon_r1_1, ld_r1_0, ld_r1_0]

/-- An input array is as the launch found it, after the launch. -/
theorem arrAt1_in (c : Dev nD) (w : Fin cfg1.W) (hw : w.val < 10) : (dat1 V c).arrAt w cfg1.N = V c (Pipeline.arrRef spec1 w) := by
  have hin : (cfg1.win w).isOut = false := by
    match w, hw with
    | ⟨0, _⟩, _ => rfl
    | ⟨1, _⟩, _ => rfl
    | ⟨2, _⟩, _ => rfl
    | ⟨3, _⟩, _ => rfl
    | ⟨4, _⟩, _ => rfl
    | ⟨5, _⟩, _ => rfl
    | ⟨6, _⟩, _ => rfl
    | ⟨7, _⟩, _ => rfl
    | ⟨8, _⟩, _ => rfl
    | ⟨9, _⟩, _ => rfl
    | ⟨k + 10, _⟩, h => exact absurd h (by simp)
  exact ((dat1 V c).arrAt_in w hin _).trans (A_eq1 V c w)

end Cert.Kernel.BoxConf

end
-- ==== Proof.KernelRunBits.lean ====
/-
  The kernel program's run, from the launch to the return.

  @main is: the text-map reduction (region 0), seventeen stretches of host operations, the box/confidence reduction
  (region 1), a last stretch of host operations. Between two items a core's unscoped buffers are held whole at a
  valuation: the launch memory, then what region 0 leaves in its four result buffers (the accumulated sums, read off its
  proof data), then each host stretch applied in turn, then what region 1 leaves in its four result buffers. Every
  weakly fair execution terminates, and at the end every unscoped buffer holds the last valuation's contents: the five
  argument arrays as launched (no item writes one) and the four scalar results as the last stretch computes them.
-/
import proofs.«167267_j69861938037475_1_alg».proof.Proof.TextMapBits
import proofs.«167267_j69861938037475_1_alg».proof.Proof.BoxConfBits
import proofs.«167267_j69861938037475_1_alg».proof.Proof.Gen.Kernel.Regions
import Idealize.ShloMosaic.Lib.Pipeline.Frame
import Idealize.ShloMosaic.Lib.Pipeline.FrameSuffix
import Idealize.ShloMosaic.Lib.Pipeline.Regions
import Idealize.ShloMosaic.Lib.Pipeline.RegionsLoop
import Idealize.ShloMosaic.Lib.Pipeline.Kit

set_option maxRecDepth 4096

noncomputable section

namespace Cert.Kernel.Run

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

local notation "𝕄" => MT nD τ sig Unit (Elt F) ℕ (UR sig nD τ) ℕ

variable (m : (ℓ : Loc nD τ sig) → Buf (Elt F) ℓ)

/-! ## The contents between items -/

/-- Region 0's entry contents at the TensorCore's references: the launch memory. -/
abbrev E0 : (c : Dev nD) → (b : Ref sig .tc) → Buf (Elt F) ((c : Thread nD τ).loc b) := fun c b => V0 m c b

/-- At region 0's exit: its arrays at what the pipeline leaves, every other buffer as entered. -/
def X1 (c : Dev nD) : Valuation τ sig (Elt F) :=
  Pipeline.withArrays spec0 c (V0 m c) fun w => (TextMap.dat0 (E0 m) c).arrAt w cfg0.N

theorem X1_arr (c : Dev nD) (w : Fin cfg0.W) :
    X1 m c (Proc.devRef .tc (Pipeline.arrRef spec0 w)) = (TextMap.dat0 (E0 m) c).arrAt w cfg0.N := by
  unfold X1; exact Pipeline.withArrays_arr spec0 launch0.win.arr_inj c _ _ w

/-- What region 0 leaves, as the unknowns the generated valuations are written over. -/
def outs1 : Outs (F := F) := fun _ r c => X1 m c r

/-- Region 1's entry contents: region 0's results, then the seventeen host stretches. -/
abbrev E18 : (c : Dev nD) → (b : Ref sig .tc) → Buf (Elt F) ((c : Thread nD τ).loc b) := fun c b => V18 m (outs1 m) c b

/-- At region 1's exit: its arrays at what the pipeline leaves, every other buffer as entered. -/
def X19 (c : Dev nD) : Valuation τ sig (Elt F) :=
  Pipeline.withArrays spec1 c (V18 m (outs1 m) c) fun w => (BoxConf.dat1 (E18 m) c).arrAt w cfg1.N

theorem X19_arr (c : Dev nD) (w : Fin cfg1.W) :
    X19 m c (Proc.devRef .tc (Pipeline.arrRef spec1 w)) = (BoxConf.dat1 (E18 m) c).arrAt w cfg1.N := by
  unfold X19; exact Pipeline.withArrays_arr spec1 launch1.win.arr_inj c _ _ w

/-- What both regions leave: after item 0 region 0's results, after item 18 region 1's. -/
def outs : Outs (F := F) := fun J r c => if J = 1 then X1 m c r else X19 m c r

theorem V1_outs (c : Dev nD) : V1 m (outs m) c = V1 m (outs1 m) c := rfl

theorem V18_outs (c : Dev nD) : V18 m (outs m) c = V18 m (outs1 m) c := by
  dsimp only [V18, V17, V16, V15, V14, V13, V12, V11, V10, V9, V8, V7, V6, V5, V4, V3, V2]
  rw [V1_outs]

/-! ## The proof data family -/

def pdats : (p : Fin 2) → (c : Dev nD) → Dat τ (Elt F) Unit ℕ (UR sig nD τ) ℕ (cfgs p) c
  | ⟨0, _⟩ => fun c => TextMap.dat0 (E0 m) c
  | ⟨1, _⟩ => fun c => BoxConf.dat1 (E18 m) c

abbrev L : GSem nD τ sig → Finset Unit := fun _ => ∅
abbrev lv : GSem nD τ sig → Unit → ℕ := fun _ _ => 0

/-- What rides beside the buffers through every item: the core's generator register at some state and its dues, at nothing. -/
def R (c : Dev nD) : sProp 𝕄 := iprop((∃ r, prngReg c r) ∗ ∃ W, owes (c : Thread nD τ) (0 : CellTallies nD τ sig Unit) W)

/-! ## The regions as segments -/

theorem V1_at0 (c : Dev nD) : V1 m (outs1 m) c main_v0_0 = X1 m c main_v0_0 := by
  unfold V1
  rw [Function.update_of_ne (StableHlo.devRef_ne_of_ne (by decide)), Function.update_of_ne (StableHlo.devRef_ne_of_ne (by decide)),
    Function.update_of_ne (StableHlo.devRef_ne_of_ne (by decide)), Function.update_self]
  rfl
theorem V1_at1 (c : Dev nD) : V1 m (outs1 m) c main_v0_1 = X1 m c main_v0_1 := by
  unfold V1
  rw [Function.update_of_ne (StableHlo.devRef_ne_of_ne (by decide)), Function.update_of_ne (StableHlo.devRef_ne_of_ne (by decide)),
    Function.update_self]
  rfl
theorem V1_at2 (c : Dev nD) : V1 m (outs1 m) c main_v0_2 = X1 m c main_v0_2 := by
  unfold V1
  rw [Function.update_of_ne (StableHlo.devRef_ne_of_ne (by decide)), Function.update_self]
  rfl
theorem V1_at3 (c : Dev nD) : V1 m (outs1 m) c main_v0_3 = X1 m c main_v0_3 := by
  unfold V1
  rw [Function.update_self]
  rfl

theorem hF0' (c : Dev nD) : ∀ w : Fin 6,
    (TextMap.dat0 (E0 m) c).arrAt w cfg0.N = V1 m (outs1 m) c (Pipeline.arrRef spec0 w) := fun
  | 0 => (((TextMap.dat0 (E0 m) c).arrAt_in 0 rfl _).trans (TextMap.A_eq0 (E0 m) c 0)).trans (V1_of m (outs1 m) c main_arg0 (by decide)).symm
  | 1 => (((TextMap.dat0 (E0 m) c).arrAt_in 1 rfl _).trans (TextMap.A_eq0 (E0 m) c 1)).trans (V1_of m (outs1 m) c main_arg3 (by decide)).symm
  | 2 => ((V1_at0 m c).trans (X1_arr m c 2)).symm
  | 3 => ((V1_at1 m c).trans (X1_arr m c 3)).symm
  | 4 => ((V1_at2 m c).trans (X1_arr m c 4)).symm
  | 5 => ((V1_at3 m c).trans (X1_arr m c 5)).symm

theorem hF0 (c : Dev nD) (w : Fin cfg0.W) :
    (pdats m 0 c).arrAt w cfg0.N = (fun b : Ref sig .tc => V1 m (outs m) c b) (Pipeline.arrRef spec0 w) :=
  hF0' m c w

theorem hrest0 (c : Dev nD) : ∀ b : Ref sig .tc, b ∉ Finset.univ.image (Pipeline.arrRef spec0) →
    (fun b : Ref sig .tc => V1 m (outs m) c b) b = E0 m c b := fun b hb =>
  V1_of m (outs m) c b (by
    intro h
    simp only [List.mem_cons, List.mem_nil_iff, or_false] at h
    rcases h with rfl | rfl | rfl | rfl
    · exact hb (Finset.mem_image.mpr ⟨2, Finset.mem_univ _, rfl⟩)
    · exact hb (Finset.mem_image.mpr ⟨3, Finset.mem_univ _, rfl⟩)
    · exact hb (Finset.mem_image.mpr ⟨4, Finset.mem_univ _, rfl⟩)
    · exact hb (Finset.mem_image.mpr ⟨5, Finset.mem_univ _, rfl⟩))

set_option backward.isDefEq.respectTransparency.types false in
/-- Region 0 over the thread state: entered from the launch contents, left at the valuation that has its four result
    buffers at the accumulated sums. -/
def reg0 : RegionSeg (pcfgs (F := F)) adm (pdats m) () defs₀ Variants.none L lv 0 where
  win := launch0.win.to₀
  block_pos := launch0.block_pos
  stage_whole := launch0.stage_whole
  K := PEmpty
  osem k := k.elim
  ho := Pipeline.OwnSemFacts.none _
  hbody c := (TextMap.body_obligation0 (E0 m) c).loose
  hwaits := Pipeline.hwaits_of_owed_zero _ _ _ _ L lv 0 fun c t => TextMap.owed0 (E0 m) c t
  pre c := iprop(StableHlo.held (c : Thread nD τ) (Pipeline.ucRefs τ sig) (V0 m c) ∗ R c)
  post c := iprop(StableHlo.held (c : Thread nD τ) (Pipeline.ucRefs τ sig) (V1 m (outs m) c) ∗ R c)
  X c := iprop(∃ r, prngReg c r)
  Y c := iprop(∃ r, prngReg c r)
  Z c := Pipeline.unscopedRest (Ix := Unit) (Name := ℕ) (U := UR sig nD τ) (Lvl := ℕ) spec0 c (E0 m c)
  hentry c := by
    unfold R
    rw [Pipeline.ownSems0_none]
    have hsplit := Pipeline.arrays_of_unscopedBufs (p := 0) (pcfgs (F := F)) adm (pdats m) launch0.win launch0.arr_whole c
      ((pdats m 0 c).share_full (TextMap.q0 (E0 m) c)) (E0 m c) fun w => TextMap.A_eq0 (E0 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = (TextMap.dat0 (E0 m) c).Φ 0 from rfl]
    iintro ⟨Hp, -, Hr⟩
    iapply (TextMap.hin0 (E0 m) c)
    unfold Pipeline.ΦA
    isplitl [Hr]; · iexact Hr
    iexact Hp
  hout c := by
    rw [Pipeline.ownSems0_none]
    rw [show (pdats m 0 c).Φ (Fin.last (Pipeline.pin (pcfgs (F := F)) adm 0).N) = (TextMap.dat0 (E0 m) c).Φ (Fin.last cfg0.N) from rfl]
    refine (TextMap.hout0 (E0 m) c).trans ?_
    unfold Pipeline.ΦA
    iintro ⟨Hr, Hp⟩
    isplitl [Hp]; · iexact Hp
    isplitr; · iempintro
    iexact Hr
  hexit c := by
    unfold R
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full (TextMap.q0 (E0 m) c))
      (E0 m c) (fun b : Ref sig .tc => V1 m (outs m) c b) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [show (pdats m 0 c).owed (Fin.last (Pipeline.pin (pcfgs (F := F)) adm 0).N) = 0 from TextMap.owed0 (E0 m) c _]
    icases HO with ⟨%W, -, HO⟩; iexists W; iexact HO

theorem V19_at0 (c : Dev nD) : V19 m (outs m) c main_v123_0 = X19 m c main_v123_0 := by
  unfold V19
  rw [Function.update_of_ne (StableHlo.devRef_ne_of_ne (by decide)), Function.update_of_ne (StableHlo.devRef_ne_of_ne (by decide)),
    Function.update_of_ne (StableHlo.devRef_ne_of_ne (by decide)), Function.update_self]
  rfl
theorem V19_at1 (c : Dev nD) : V19 m (outs m) c main_v123_1 = X19 m c main_v123_1 := by
  unfold V19
  rw [Function.update_of_ne (StableHlo.devRef_ne_of_ne (by decide)), Function.update_of_ne (StableHlo.devRef_ne_of_ne (by decide)),
    Function.update_self]
  rfl
theorem V19_at2 (c : Dev nD) : V19 m (outs m) c main_v123_2 = X19 m c main_v123_2 := by
  unfold V19
  rw [Function.update_of_ne (StableHlo.devRef_ne_of_ne (by decide)), Function.update_self]
  rfl
theorem V19_at3 (c : Dev nD) : V19 m (outs m) c main_v123_3 = X19 m c main_v123_3 := by
  unfold V19
  rw [Function.update_self]
  rfl

/-- An input array of region 1 is no result buffer of it, so the exit valuation has it as entered. -/
theorem V19_in (c : Dev nD) (r : Ref sig .tc) (h : r ∉ ([main_v123_0, main_v123_1, main_v123_2, main_v123_3] : List (Ref sig .tc))) :
    V19 m (outs m) c r = E18 m c r :=
  (V19_of m (outs m) c r h).trans (congrFun (V18_outs m c) _)

theorem in1 (c : Dev nD) (w : Fin cfg1.W) :
    (BoxConf.dat1 (E18 m) c).arrAt w 0 = E18 m c (Pipeline.arrRef spec1 w) := BoxConf.A_eq1 (E18 m) c w

theorem isIn1 : ∀ w : Fin 14, w.val < 10 → (cfg1.win w).isOut = false := by decide

set_option maxHeartbeats 1000000 in
theorem hF1' (c : Dev nD) (w : Fin 14) :
    (BoxConf.dat1 (E18 m) c).arrAt w cfg1.N = V19 m (outs m) c (Pipeline.arrRef spec1 w) := by
  by_cases hw : w.val < 10
  · refine (((BoxConf.dat1 (E18 m) c).arrAt_in w (isIn1 w hw) _).trans (BoxConf.A_eq1 (E18 m) c w)).trans (V19_in m c _ ?_).symm
    intro h
    simp only [List.mem_cons, List.mem_nil_iff, or_false] at h
    have inj : Function.Injective (Pipeline.arrRef spec1) := launch1.win.arr_inj
    rcases h with h | h | h | h
    · have e : w = 10 := inj (h.trans (rfl : main_v123_0 = Pipeline.arrRef spec1 10)); subst e; exact absurd hw (by decide)
    · have e : w = 11 := inj (h.trans (rfl : main_v123_1 = Pipeline.arrRef spec1 11)); subst e; exact absurd hw (by decide)
    · have e : w = 12 := inj (h.trans (rfl : main_v123_2 = Pipeline.arrRef spec1 12)); subst e; exact absurd hw (by decide)
    · have e : w = 13 := inj (h.trans (rfl : main_v123_3 = Pipeline.arrRef spec1 13)); subst e; exact absurd hw (by decide)
  · have hcases : w = 10 ∨ w = 11 ∨ w = 12 ∨ w = 13 := by
      rcases w with ⟨v, hv⟩
      simp only [not_lt] at hw
      have : v = 10 ∨ v = 11 ∨ v = 12 ∨ v = 13 := by omega
      rcases this with rfl | rfl | rfl | rfl <;> simp
    rcases hcases with rfl | rfl | rfl | rfl
    · exact ((V19_at0 m c).trans (X19_arr m c 10)).symm
    · exact ((V19_at1 m c).trans (X19_arr m c 11)).symm
    · exact ((V19_at2 m c).trans (X19_arr m c 12)).symm
    · exact ((V19_at3 m c).trans (X19_arr m c 13)).symm

theorem hF1 (c : Dev nD) (w : Fin cfg1.W) :
    (pdats m 1 c).arrAt w cfg1.N = (fun b : Ref sig .tc => V19 m (outs m) c b) (Pipeline.arrRef spec1 w) :=
  hF1' m c w

theorem hrest1 (c : Dev nD) : ∀ b : Ref sig .tc, b ∉ Finset.univ.image (Pipeline.arrRef spec1) →
    (fun b : Ref sig .tc => V19 m (outs m) c b) b = E18 m c b := fun b hb =>
  V19_in m c b (by
    intro h
    simp only [List.mem_cons, List.mem_nil_iff, or_false] at h
    rcases h with rfl | rfl | rfl | rfl
    · exact hb (Finset.mem_image.mpr ⟨10, Finset.mem_univ _, rfl⟩)
    · exact hb (Finset.mem_image.mpr ⟨11, Finset.mem_univ _, rfl⟩)
    · exact hb (Finset.mem_image.mpr ⟨12, Finset.mem_univ _, rfl⟩)
    · exact hb (Finset.mem_image.mpr ⟨13, Finset.mem_univ _, rfl⟩))

set_option backward.isDefEq.respectTransparency.types false in
/-- Region 1 over the thread state: entered from the valuation after the seventeen host stretches, left at the one that
    has its four result buffers at the sums the body stores. -/
def reg1 : RegionSeg (pcfgs (F := F)) adm (pdats m) () defs₀ Variants.none L lv 1 where
  win := launch1.win.to₀
  block_pos := launch1.block_pos
  stage_whole := launch1.stage_whole
  K := PEmpty
  osem k := k.elim
  ho := Pipeline.OwnSemFacts.none _
  hbody c := (BoxConf.body_obligation1 (E18 m) c).loose
  hwaits := Pipeline.hwaits_of_owed_zero _ _ _ _ L lv 1 fun c t => BoxConf.owed1 (E18 m) c t
  pre c := iprop(StableHlo.held (c : Thread nD τ) (Pipeline.ucRefs τ sig) (V18 m (outs m) c) ∗ R c)
  post c := iprop(StableHlo.held (c : Thread nD τ) (Pipeline.ucRefs τ sig) (V19 m (outs m) c) ∗ R c)
  X c := iprop(∃ r, prngReg c r)
  Y c := iprop(∃ r, prngReg c r)
  Z c := Pipeline.unscopedRest (Ix := Unit) (Name := ℕ) (U := UR sig nD τ) (Lvl := ℕ) spec1 c (E18 m c)
  hentry c := by
    unfold R
    rw [Pipeline.ownSems0_none, V18_outs]
    have hsplit := Pipeline.arrays_of_unscopedBufs (p := 1) (pcfgs (F := F)) adm (pdats m) launch1.win launch1.arr_whole c
      ((pdats m 1 c).share_full (BoxConf.q1 (E18 m) c)) (E18 m c) fun w => BoxConf.A_eq1 (E18 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from BoxConf.Phi1 (E18 m) c 0]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from BoxConf.Phi1 (E18 m) c _]; unfold Pipeline.ΦA
    iintro ⟨Hr, Hp⟩
    isplitl [Hp]; · iexact Hp
    isplitr; · iempintro
    iexact Hr
  hexit c := by
    unfold R
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full (BoxConf.q1 (E18 m) c))
      (E18 m c) (fun b : Ref sig .tc => V19 m (outs m) c b) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [show (pdats m 1 c).owed (Fin.last (Pipeline.pin (pcfgs (F := F)) adm 1).N) = 0 from BoxConf.owed1 (E18 m) c _]
    icases HO with ⟨%W, -, HO⟩; iexists W; iexact HO

/-! ## The launch over the twenty items -/

variable (ρ : Dev nD → PrngReg)

set_option backward.isDefEq.respectTransparency.types false in
/-- Every weakly fair execution of @main from memory `m` with zero counters terminates, and at the end every unscoped
    buffer of every core holds the last valuation's contents. -/
theorem run_all : θ_run defs (onTc (τ := τ) (main (F := F))) ⟨m, fun _ => 0, ρ⟩ (fun r => ∀ c : Dev nD,
      ∀ b ∈ Pipeline.ucRefs τ sig, r.2.mem ((c : Thread nD τ).1, b) = V20 m (outs m) c b) := by
  have h1 : ∀ c : Dev nD, (iprop(unscopedSems0 c ∗ owes (c : Thread nD τ) ((0 : Dev nD → CellTallies nD τ sig Unit) c) ∅
        ∗ Pipeline.launchCred (0 : Dev nD → CellTallies nD τ sig Unit) c ∗ prngReg c (ρ c) ∗ (BI.emp : sProp 𝕄)) : sProp 𝕄) ⊢ R (F := F) c := fun c => by
    unfold R
    iintro ⟨-, HO, -, Hp, -⟩
    isplitl [Hp]; · iexists _; iexact Hp
    iexists ∅; iexact HO
  have hE0 : iprop((bigSep Finset.univ fun c : Dev nD => iprop(unscopedSems0 c ∗ owes (c : Thread nD τ) ((0 : Dev nD → CellTallies nD τ sig Unit) c) ∅
        ∗ Pipeline.launchCred (0 : Dev nD → CellTallies nD τ sig Unit) c ∗ prngReg c (ρ c) ∗ (BI.emp : sProp 𝕄))) ∗ levAts L lv)
      ⊢ (|={Set.univ}=> bigSep Finset.univ (R (F := F)) : sProp 𝕄) := by
    iintro ⟨H, -⟩
    imodintro
    iapply (show ((bigSep Finset.univ fun c : Dev nD => iprop(unscopedSems0 c ∗ owes (c : Thread nD τ) ((0 : Dev nD → CellTallies nD τ sig Unit) c) ∅
        ∗ Pipeline.launchCred (0 : Dev nD → CellTallies nD τ sig Unit) c ∗ prngReg c (ρ c) ∗ (BI.emp : sProp 𝕄))) : sProp 𝕄) ⊢ bigSep Finset.univ (R (F := F))
      from bigSep_mono fun c _ => h1 c)
    iexact H
  have hE2 : ∀ c : Dev nD, R (F := F) c ⊢ (iprop(∃ W, owes (c : Thread nD τ) (0 : CellTallies nD τ sig Unit) W) : sProp 𝕄) := fun c => by
    unfold R
    iintro ⟨-, HO⟩; iexact HO
  refine Pipeline.θ_run_regions_kit_dev (pcfgs (F := F)) adm (pdats m) () cellOf_inj emb₁ defs₀ Variants.none L lv m ρ main
    (segs m (outs m) Variants.none L lv (fun _ c => R c) () (pdats m) (reg0 m) (reg1 m))
    (fun c Q => by
      rewrite [main_chain c, Seg.run_eq_chain,
        show (segs m (outs m) Variants.none L lv (fun _ c => R c) () (pdats m) (reg0 m) (reg1 m) c).map Seg.prog = [
          Prog.lift (.customCall (Pipeline.entry 0) ()),
          StableHlo.seq hostOps1,
          StableHlo.seq hostOps1_1,
          StableHlo.seq hostOps1_2,
          StableHlo.seq hostOps1_3,
          StableHlo.seq hostOps1_4,
          StableHlo.seq hostOps1_5,
          StableHlo.seq hostOps1_6,
          StableHlo.seq hostOps1_7,
          StableHlo.seq hostOps1_8,
          StableHlo.seq hostOps1_9,
          StableHlo.seq hostOps1_10,
          StableHlo.seq hostOps1_11,
          StableHlo.seq hostOps1_12,
          StableHlo.seq hostOps1_13,
          StableHlo.seq hostOps1_14,
          StableHlo.seq hostOps1_15,
          StableHlo.seq hostOps1_16,
          Prog.lift (.customCall (Pipeline.entry 1) ()),
          StableHlo.seq hostOps2 ] from rfl]
      exact .rfl)
    (fun c => by simp only [segs, Seg.pipes_host, Seg.pipes_region, Seg.pipes_nil]; decide) (0 : Dev nD → CellTallies nD τ sig Unit) (fun _ _ => rfl) (fun _ => iprop(emp))
    (initOf (Pipeline.cells cfgs cellOf_inj) (Pipeline.launchToks cfgs cellOf_inj))
    (by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ R c))
    (Tₙ := fun c => StableHlo.held (c : Thread nD τ) (Pipeline.ucRefs τ sig) (V20 m (outs m) c))
    (hch := fun c => ⟨.rfl, .rfl, .rfl, .rfl, .rfl, .rfl, .rfl, .rfl, .rfl, .rfl, .rfl, .rfl, .rfl, .rfl, .rfl, .rfl, .rfl, .rfl, .rfl, .rfl, sep_mono .rfl (hE2 c)⟩)
    (hinit := ?_) (QY := fun c s => ∀ b ∈ Pipeline.ucRefs τ sig, s.mem ((c : Thread nD τ).1, b) = V20 m (outs m) c b)
    (hfin := fun c s' => ?_) (hQ := fun _ h => h)
  · have hsplit : (bigSep Finset.univ fun c : Dev nD => iprop(unscopedBufs c (fun b => m ((c.tc : Thread nD τ).loc b)) ∗ unscopedSems0 c
          ∗ owes (c.tc : Thread nD τ) ((0 : Dev nD → CellTallies nD τ sig Unit) c) ∅ ∗ Pipeline.launchCred (0 : Dev nD → CellTallies nD τ sig Unit) c ∗ prngReg c (ρ c) ∗ (BI.emp : sProp 𝕄)))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) ((0 : Dev nD → CellTallies nD τ sig Unit) c) ∅ ∗ Pipeline.launchCred (0 : Dev nD → CellTallies nD τ sig Unit) c ∗ prngReg c (ρ c) ∗ (BI.emp : sProp 𝕄)))
            : sProp 𝕄) := by
      rw [← bigSep_sep']
      exact bigSep_mono fun c _ => by rw [← Pipeline.unscopedBufs_held (Ix := Unit) (Name := ℕ) (U := UR sig nD τ) (Lvl := ℕ) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  · unfold StableHlo.held
    iintro ⟨Hh, HSI⟩
    ihave Hr := (pointsTo_read_all (Pipeline.ucRefs τ sig) (fun b => ((c : Thread nD τ).1, b)) (V20 m (outs m) c) s') $$ [Hh HSI]
    · isplitl [Hh] <;> iassumption
    icases Hr with ⟨%h, HSI⟩
    imodintro
    isplitr
    · ipureintro
      exact h
    · iexact HSI

end Cert.Kernel.Run

end
-- ==== Proof.TextMapIdealBase.lean ====
import proofs.«167267_j69861938037475_1_alg».proof.Proof.Gen.KernelIdeal.Launch
import proofs.«167267_j69861938037475_1_alg».proof.Proof.Gen.KernelIdeal.Skeleton
import proofs.«167267_j69861938037475_1_alg».proof.Proof.Gen.KernelIdeal.Points
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.TextMap

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's two branch conditions, in closed form over the grid -/

/-- The first conditional of the body (the accumulators are zeroed): the grid coordinate is 0. -/
abbrev cond0_0 (i : grid0.Coords) : Prop := (Scalar.cmpi .ne (Scalar.extui (Scalar.cmpi .eq (BitVec.ofNat 32 (i 0).val) 0#32)) 0#32) = 1#1
/-- It holds at the first point only. -/
theorem hcond0_0 : ∀ t : Fin cfg0.N, cond0_0 (grid0.coords t) ↔ t.val % 8 = 0 :=
  (by decide +kernel : ∀ t : Fin grid0.N, cond0_0 (grid0.coords t) ↔ t.val % 8 = 0)

/-- The second conditional of the body (the accumulators are copied to the outputs): the grid coordinate is 7. -/
abbrev cond0_1 (i : grid0.Coords) : Prop := k0_cond2 i = 1#1
/-- It holds at the last point only. -/
theorem hcond0_1 : ∀ t : Fin cfg0.N, cond0_1 (grid0.coords t) ↔ t.val % 8 = 7 :=
  (by decide +kernel : ∀ t : Fin grid0.N, cond0_1 (grid0.coords t) ↔ t.val % 8 = 7)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
/-- Output window 2 is idle, and not written back, wherever the second conditional fails; live where it holds. -/
theorem idleAt0_2 : ∀ t : Fin cfg0.N, ¬cond0_1 (grid0.coords t) → cfg0.idle 2 (grid0.coords t) = true := by decide +kernel
theorem noFlush0_2 : ∀ t : Fin cfg0.N, ¬cond0_1 (grid0.coords t) → (cfg0.win 2).flush t = false := by decide +kernel
theorem liveAt0_2 : ∀ t : Fin cfg0.N, cond0_1 (grid0.coords t) → cfg0.idle 2 (grid0.coords t) = false := by decide +kernel
/-- Output window 3 is idle, and not written back, wherever the second conditional fails; live where it holds. -/
theorem idleAt0_3 : ∀ t : Fin cfg0.N, ¬cond0_1 (grid0.coords t) → cfg0.idle 3 (grid0.coords t) = true := by decide +kernel
theorem noFlush0_3 : ∀ t : Fin cfg0.N, ¬cond0_1 (grid0.coords t) → (cfg0.win 3).flush t = false := by decide +kernel
theorem liveAt0_3 : ∀ t : Fin cfg0.N, cond0_1 (grid0.coords t) → cfg0.idle 3 (grid0.coords t) = false := by decide +kernel
/-- Output window 4 is idle, and not written back, wherever the second conditional fails; live where it holds. -/
theorem idleAt0_4 : ∀ t : Fin cfg0.N, ¬cond0_1 (grid0.coords t) → cfg0.idle 4 (grid0.coords t) = true := by decide +kernel
theorem noFlush0_4 : ∀ t : Fin cfg0.N, ¬cond0_1 (grid0.coords t) → (cfg0.win 4).flush t = false := by decide +kernel
theorem liveAt0_4 : ∀ t : Fin cfg0.N, cond0_1 (grid0.coords t) → cfg0.idle 4 (grid0.coords t) = false := by decide +kernel
/-- Output window 5 is idle, and not written back, wherever the second conditional fails; live where it holds. -/
theorem idleAt0_5 : ∀ t : Fin cfg0.N, ¬cond0_1 (grid0.coords t) → cfg0.idle 5 (grid0.coords t) = true := by decide +kernel
theorem noFlush0_5 : ∀ t : Fin cfg0.N, ¬cond0_1 (grid0.coords t) → (cfg0.win 5).flush t = false := by decide +kernel
theorem liveAt0_5 : ∀ t : Fin cfg0.N, cond0_1 (grid0.coords t) → cfg0.idle 5 (grid0.coords t) = false := by decide +kernel

/-! ## The memrefs the body is called with -/

abbrev ms0_0 (t : Fin cfg0.N) : Memref sig .tc .vmem S8x1x320x320 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S8x1x320x320 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x1 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x1 .f32 := win0_5.stage (cfg0.slots t 5)
abbrev hs0_5 (t : Fin cfg0.N) : (ms0_5 t).IsWhole := hstage0_5 ((cfg0.slots t 5).cast nbuf0_5)
/-- Scratch accumulator 0, a whole scoped buffer of the kernel's own. -/
abbrev scM0_0 : Memref sig .tc .vmem S1x1 .f32 := Memref.whole cc0_scratch0
/-- Scratch accumulator 1, a whole scoped buffer of the kernel's own. -/
abbrev scM0_1 : Memref sig .tc .vmem S1x1 .f32 := Memref.whole cc0_scratch1
/-- Scratch accumulator 2, a whole scoped buffer of the kernel's own. -/
abbrev scM0_2 : Memref sig .tc .vmem S1x1 .f32 := Memref.whole cc0_scratch2
/-- Scratch accumulator 3, a whole scoped buffer of the kernel's own. -/
abbrev scM0_3 : Memref sig .tc .vmem S1x1 .f32 := Memref.whole cc0_scratch3

/-- The core's scoped buffers the body never names (the staging buffers of the other kernel), each whole at some contents. -/
def restOthers (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg6_0), ((c : Thread nD τ).loc cc1_stg6_0) ↦{fullShare} f) ∗ (∃ f : Buf (Elt F) ((c : Thread nD τ).loc cc1_stg7_0), ((c : Thread nD τ).loc cc1_stg7_0) ↦{fullShare} f) ∗ (∃ f : Buf (Elt F) ((c : Thread nD τ).loc cc1_stg8_0), ((c : Thread nD τ).loc cc1_stg8_0) ↦{fullShare} f) ∗ (∃ f : Buf (Elt F) ((c : Thread nD τ).loc cc1_stg9_0), ((c : Thread nD τ).loc cc1_stg9_0) ↦{fullShare} f) ∗ (∃ f : Buf (Elt F) ((c : Thread nD τ).loc cc1_stg10_0), ((c : Thread nD τ).loc cc1_stg10_0) ↦{fullShare} f) ∗ (∃ f : Buf (Elt F) ((c : Thread nD τ).loc cc1_stg11_0), ((c : Thread nD τ).loc cc1_stg11_0) ↦{fullShare} f) ∗ (∃ f : Buf (Elt F) ((c : Thread nD τ).loc cc1_stg12_0), ((c : Thread nD τ).loc cc1_stg12_0) ↦{fullShare} f) ∗ (∃ f : Buf (Elt F) ((c : Thread nD τ).loc cc1_stg13_0), ((c : Thread nD τ).loc cc1_stg13_0) ↦{fullShare} f))

/-- The region invariant with the four scratch accumulators as memrefs owned at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ restOthers (F := F) c) ∗ (∃ r, prngReg c r)) := by
  unfold Pipeline.ΦA restOthers; rw [scopedRest0_eq]; simp only [scM0_0, scM0_1, scM0_2, scM0_3, owns_whole]; try rfl

end Cert.KernelIdeal.TextMap

end
-- ==== Proof.TextMapIdealRuns.lean ====
import proofs.«167267_j69861938037475_1_alg».proof.Proof.TextMapIdealBase

set_option maxRecDepth 16384

noncomputable section

namespace Cert.KernelIdeal.TextMap

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Reading a whole [1,1] or block buffer back

The body loads and stores every buffer through its whole rectangle at zero offsets: a load reads the contents, a
store leaves its payload, whatever was stored before. -/

theorem z2 : (![0, 0] : Fin S1x1.rank → ℕ) = fun _ => 0 := by funext a; fin_cases a <;> rfl
theorem z4 : (![0, 0, 0, 0] : Fin S8x1x320x320.rank → ℕ) = fun _ => 0 := by funext a; fin_cases a <;> rfl

theorem rd4 (m : Memref sig .tc .vmem S8x1x320x320 .f32) (h : m.IsWhole) (X : Vec F S8x1x320x320 .f32) :
    View.readAt (Elt F) m.view (Rect.unit (s := S8x1x320x320) ![0, 0, 0, 0] S8x1x320x320.size inb_S8x1x320x320_S8x1x320x320_0_0_0_0).toLoadRect (h.unread X) = X :=
  (View.readAt_eq_ld _ _ _).trans ((congrArg (fun Y => View.ld Y _) (h.read_unread X)).trans (View.ld_unit_zero z4 _ X))

theorem rd2 (m : Memref sig .tc .vmem S1x1 .f32) (h : m.IsWhole) (X : Vec F S1x1 .f32) :
    View.readAt (Elt F) m.view (Rect.unit (s := S1x1) ![0, 0] S1x1.size inb_S1x1_S1x1_0_0).toLoadRect (h.unread X) = X :=
  (View.readAt_eq_ld _ _ _).trans ((congrArg (fun Y => View.ld Y _) (h.read_unread X)).trans (View.ld_unit_zero z2 _ X))

theorem rw1 (m : Memref sig .tc .vmem S1x1 .f32) (f : m.view.ty.Contents (Elt F)) (w : Vec F S1x1 .f32) (L : List (View.Piece (Elt F) S1x1 .f32)) :
    View.read (Elt F) m.view (m.view.writes (Elt F) f (⟨Rect.unit (s := S1x1) ![0, 0] S1x1.size inb_S1x1_S1x1_0_0, w⟩ :: L)) = w :=
  (View.read_writes_eq_canon _ _ _ (fun y => ⟨⟨Rect.unit (s := S1x1) ![0, 0] S1x1.size inb_S1x1_S1x1_0_0, w⟩, List.mem_cons_self, View.mem_set_unit_zero z2 inb_S1x1_S1x1_0_0 y⟩)).trans (View.canon_cons_unit_zero z2 _ w L)

/-- Close "the buffer reads this accumulator value": open the run's names, read the last whole store back, and read
    each whole load as the contents it was made of. -/
local macro "acc_val" : tactic => `(tactic| (
  sl_unfold_run_names
  refine (rw1 _ _ _ _).trans ?_
  (repeat rw [rd4])
  (repeat rw [rd2])
  (try simp only [View.readCov_cons_toLoadRect])))

/-! ## The body, case by case -/

set_option maxHeartbeats 1000000 in
/-- THE FIRST POINT (first conditional taken, second not): the four accumulators, found at anything, are zeroed and
    end at one step of the sums over the two input blocks from zero; the four output buffers are not touched. -/
theorem run0_A (c : Dev nD) (i : grid0.Coords) (arg1 : Memref sig .tc .vmem S8x1x320x320 .f32) (harg1 : arg1.IsWhole) (arg2 : Memref sig .tc .vmem S8x1x320x320 .f32) (harg2 : arg2.IsWhole) (arg3 : Memref sig .tc .vmem S1x1 .f32) (harg3 : arg3.IsWhole) (arg4 : Memref sig .tc .vmem S1x1 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1 .f32) (harg10 : arg10.IsWhole) (hc0 : cond0_0 i) (hc1 : ¬cond0_1 i)
    (x0 x1 : Vec F S8x1x320x320 .f32) (xi3 xi4 xi5 xi6 : Vec F S1x1 .f32) (E : Set ℕ) (K : PUnit → sProp 𝕄) :
    iprop(owns (c : Thread nD τ) arg1 fullShare x0 ∗ owns (c : Thread nD τ) arg2 fullShare x1 ∗ owns (c : Thread nD τ) arg3 fullShare xi3 ∗ owns (c : Thread nD τ) arg4 fullShare xi4 ∗ owns (c : Thread nD τ) arg5 fullShare xi5 ∗ owns (c : Thread nD τ) arg6 fullShare xi6 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)
        ∗ (iprop(owns (c : Thread nD τ) arg1 fullShare x0 ∗ owns (c : Thread nD τ) arg2 fullShare x1 ∗ owns (c : Thread nD τ) arg3 fullShare xi3 ∗ owns (c : Thread nD τ) arg4 fullShare xi4 ∗ owns (c : Thread nD τ) arg5 fullShare xi5 ∗ owns (c : Thread nD τ) arg6 fullShare xi6 ∗ owns (c : Thread nD τ) arg7 fullShare (k0_pay6 x0 x1 k0_pay2) ∗ owns (c : Thread nD τ) arg8 fullShare (k0_pay7 x0 x1 k0_pay3) ∗ owns (c : Thread nD τ) arg9 fullShare (k0_pay8 x0 k0_pay4) ∗ owns (c : Thread nD τ) arg10 fullShare (k0_pay1 k0_pay5 (k0_pay9 x1))) -∗ K ⟨⟩))
      ⊢ wp frame (wpE (defs₀ (F := F)) Variants.none c none) E (cc0__text_map_kernel i arg1 harg1 arg2 harg2 arg3 harg3 arg4 harg4 arg5 harg5 arg6 harg6 arg7 harg7 arg8 harg8 arg9 harg9 arg10 harg10) K := by
  simp only [cc0__text_map_kernel_eq_skeleton]; unfold cc0__text_map_kernel_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%d10, %f10, -, H10⟩, Hk⟩
  obtain rfl := harg1.eq_unread hf1; obtain rfl := harg2.eq_unread hf2
  sl_exec (disch := first | exact hc0 | exact hc1)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists f3; isplitr; · ipureintro; exact hf3
    iexact H3
  isplitl [H4]
  · iexists f4; isplitr; · ipureintro; exact hf4
    iexact H4
  isplitl [H5]
  · iexists f5; isplitr; · ipureintro; exact hf5
    iexact H5
  isplitl [H6]
  · iexists f6; isplitr; · ipureintro; exact hf6
    iexact H6
  isplitl [H7]
  · iexists _; isplitr
    swap; · iexact H7
    ipureintro; acc_val
  isplitl [H8]
  · iexists _; isplitr
    swap; · iexact H8
    ipureintro; acc_val
  isplitl [H9]
  · iexists _; isplitr
    swap; · iexact H9
    ipureintro; acc_val
  iexists _; isplitr
  swap; · iexact H10
  ipureintro; acc_val

set_option maxHeartbeats 1000000 in
/-- A MIDDLE POINT (neither conditional taken): each accumulator, found at `xs·`, ends one step of its sum further;
    the four output buffers are not touched. -/
theorem run0_B (c : Dev nD) (i : grid0.Coords) (arg1 : Memref sig .tc .vmem S8x1x320x320 .f32) (harg1 : arg1.IsWhole) (arg2 : Memref sig .tc .vmem S8x1x320x320 .f32) (harg2 : arg2.IsWhole) (arg3 : Memref sig .tc .vmem S1x1 .f32) (harg3 : arg3.IsWhole) (arg4 : Memref sig .tc .vmem S1x1 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1 .f32) (harg10 : arg10.IsWhole) (hc0 : ¬cond0_0 i) (hc1 : ¬cond0_1 i)
    (x0 x1 : Vec F S8x1x320x320 .f32) (xi3 xi4 xi5 xi6 xs7 xs8 xs9 xs10 : Vec F S1x1 .f32) (E : Set ℕ) (K : PUnit → sProp 𝕄) :
    iprop(owns (c : Thread nD τ) arg1 fullShare x0 ∗ owns (c : Thread nD τ) arg2 fullShare x1 ∗ owns (c : Thread nD τ) arg3 fullShare xi3 ∗ owns (c : Thread nD τ) arg4 fullShare xi4 ∗ owns (c : Thread nD τ) arg5 fullShare xi5 ∗ owns (c : Thread nD τ) arg6 fullShare xi6 ∗ owns (c : Thread nD τ) arg7 fullShare xs7 ∗ owns (c : Thread nD τ) arg8 fullShare xs8 ∗ owns (c : Thread nD τ) arg9 fullShare xs9 ∗ owns (c : Thread nD τ) arg10 fullShare xs10
        ∗ (iprop(owns (c : Thread nD τ) arg1 fullShare x0 ∗ owns (c : Thread nD τ) arg2 fullShare x1 ∗ owns (c : Thread nD τ) arg3 fullShare xi3 ∗ owns (c : Thread nD τ) arg4 fullShare xi4 ∗ owns (c : Thread nD τ) arg5 fullShare xi5 ∗ owns (c : Thread nD τ) arg6 fullShare xi6 ∗ owns (c : Thread nD τ) arg7 fullShare (k0_pay6 x0 x1 xs7) ∗ owns (c : Thread nD τ) arg8 fullShare (k0_pay7 x0 x1 xs8) ∗ owns (c : Thread nD τ) arg9 fullShare (k0_pay8 x0 xs9) ∗ owns (c : Thread nD τ) arg10 fullShare (k0_pay1 xs10 (k0_pay9 x1))) -∗ K ⟨⟩))
      ⊢ wp frame (wpE (defs₀ (F := F)) Variants.none c none) E (cc0__text_map_kernel i arg1 harg1 arg2 harg2 arg3 harg3 arg4 harg4 arg5 harg5 arg6 harg6 arg7 harg7 arg8 harg8 arg9 harg9 arg10 harg10) K := by
  simp only [cc0__text_map_kernel_eq_skeleton]; unfold cc0__text_map_kernel_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, Hk⟩
  obtain rfl := harg1.eq_unread hf1; obtain rfl := harg2.eq_unread hf2
  obtain rfl := harg7.eq_unread hf7; obtain rfl := harg8.eq_unread hf8; obtain rfl := harg9.eq_unread hf9; obtain rfl := harg10.eq_unread hf10
  sl_exec (disch := first | exact hc0 | exact hc1)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists f3; isplitr; · ipureintro; exact hf3
    iexact H3
  isplitl [H4]
  · iexists f4; isplitr; · ipureintro; exact hf4
    iexact H4
  isplitl [H5]
  · iexists f5; isplitr; · ipureintro; exact hf5
    iexact H5
  isplitl [H6]
  · iexists f6; isplitr; · ipureintro; exact hf6
    iexact H6
  isplitl [H7]
  · iexists _; isplitr
    swap; · iexact H7
    ipureintro; acc_val
  isplitl [H8]
  · iexists _; isplitr
    swap; · iexact H8
    ipureintro; acc_val
  isplitl [H9]
  · iexists _; isplitr
    swap; · iexact H9
    ipureintro; acc_val
  iexists _; isplitr
  swap; · iexact H10
  ipureintro; acc_val

set_option maxHeartbeats 1000000 in
/-- THE LAST POINT (second conditional taken, first not): each accumulator ends one step further, and each output
    buffer, found at anything, ends at its accumulator's final value. -/
theorem run0_C (c : Dev nD) (i : grid0.Coords) (arg1 : Memref sig .tc .vmem S8x1x320x320 .f32) (harg1 : arg1.IsWhole) (arg2 : Memref sig .tc .vmem S8x1x320x320 .f32) (harg2 : arg2.IsWhole) (arg3 : Memref sig .tc .vmem S1x1 .f32) (harg3 : arg3.IsWhole) (arg4 : Memref sig .tc .vmem S1x1 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1 .f32) (harg10 : arg10.IsWhole) (hc0 : ¬cond0_0 i) (hc1 : cond0_1 i)
    (x0 x1 : Vec F S8x1x320x320 .f32) (xs7 xs8 xs9 xs10 : Vec F S1x1 .f32) (E : Set ℕ) (K : PUnit → sProp 𝕄) :
    iprop(owns (c : Thread nD τ) arg1 fullShare x0 ∗ owns (c : Thread nD τ) arg2 fullShare x1 ∗ (∃ d, owns (c : Thread nD τ) arg3 fullShare d) ∗ (∃ d, owns (c : Thread nD τ) arg4 fullShare d) ∗ (∃ d, owns (c : Thread nD τ) arg5 fullShare d) ∗ (∃ d, owns (c : Thread nD τ) arg6 fullShare d) ∗ owns (c : Thread nD τ) arg7 fullShare xs7 ∗ owns (c : Thread nD τ) arg8 fullShare xs8 ∗ owns (c : Thread nD τ) arg9 fullShare xs9 ∗ owns (c : Thread nD τ) arg10 fullShare xs10
        ∗ (iprop(owns (c : Thread nD τ) arg1 fullShare x0 ∗ owns (c : Thread nD τ) arg2 fullShare x1 ∗ owns (c : Thread nD τ) arg3 fullShare (k0_pay6 x0 x1 xs7) ∗ owns (c : Thread nD τ) arg4 fullShare (k0_pay7 x0 x1 xs8) ∗ owns (c : Thread nD τ) arg5 fullShare (k0_pay8 x0 xs9) ∗ owns (c : Thread nD τ) arg6 fullShare (k0_pay1 xs10 (k0_pay9 x1)) ∗ owns (c : Thread nD τ) arg7 fullShare (k0_pay6 x0 x1 xs7) ∗ owns (c : Thread nD τ) arg8 fullShare (k0_pay7 x0 x1 xs8) ∗ owns (c : Thread nD τ) arg9 fullShare (k0_pay8 x0 xs9) ∗ owns (c : Thread nD τ) arg10 fullShare (k0_pay1 xs10 (k0_pay9 x1))) -∗ K ⟨⟩))
      ⊢ wp frame (wpE (defs₀ (F := F)) Variants.none c none) E (cc0__text_map_kernel i arg1 harg1 arg2 harg2 arg3 harg3 arg4 harg4 arg5 harg5 arg6 harg6 arg7 harg7 arg8 harg8 arg9 harg9 arg10 harg10) K := by
  simp only [cc0__text_map_kernel_eq_skeleton]; unfold cc0__text_map_kernel_skel
  unfold owns
  iintro ⟨⟨%f1, %hf1, H1⟩, ⟨%f2, %hf2, H2⟩, ⟨%d3, %f3, -, H3⟩, ⟨%d4, %f4, -, H4⟩, ⟨%d5, %f5, -, H5⟩, ⟨%d6, %f6, -, H6⟩, ⟨%f7, %hf7, H7⟩, ⟨%f8, %hf8, H8⟩, ⟨%f9, %hf9, H9⟩, ⟨%f10, %hf10, H10⟩, Hk⟩
  obtain rfl := harg1.eq_unread hf1; obtain rfl := harg2.eq_unread hf2
  obtain rfl := harg7.eq_unread hf7; obtain rfl := harg8.eq_unread hf8; obtain rfl := harg9.eq_unread hf9; obtain rfl := harg10.eq_unread hf10
  sl_exec (disch := first | exact hc0 | exact hc1)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr
    swap; · iexact H3
    ipureintro; acc_val
  isplitl [H4]
  · iexists _; isplitr
    swap; · iexact H4
    ipureintro; acc_val
  isplitl [H5]
  · iexists _; isplitr
    swap; · iexact H5
    ipureintro; acc_val
  isplitl [H6]
  · iexists _; isplitr
    swap; · iexact H6
    ipureintro; acc_val
  isplitl [H7]
  · iexists _; isplitr
    swap; · iexact H7
    ipureintro; acc_val
  isplitl [H8]
  · iexists _; isplitr
    swap; · iexact H8
    ipureintro; acc_val
  isplitl [H9]
  · iexists _; isplitr
    swap; · iexact H9
    ipureintro; acc_val
  iexists _; isplitr
  swap; · iexact H10
  ipureintro; acc_val

end Cert.KernelIdeal.TextMap

end
-- ==== Proof.TextMapIdeal.lean ====
import proofs.«167267_j69861938037475_1_alg».proof.Proof.TextMapIdealRuns

set_option maxRecDepth 16384

noncomputable section

namespace Cert.KernelIdeal.TextMap

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered: the parameter the region's proof data is stated at
variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, for any proof data whose array is `V`'s
    and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The four accumulators, point by point -/

/-- THE ACCUMULATION. The four scratch accumulators (the cross-entropy sum, the intersection sum, the prediction sum, the
    target sum) after the body at point `n`: one step of each sum over the point's two input blocks, from zero at the
    first point and from what the point before left afterwards. -/
def accAt0 (c : Dev nD) : (n : ℕ) → n < cfg0.N → Vec F S1x1 .f32 × Vec F S1x1 .f32 × Vec F S1x1 .f32 × Vec F S1x1 .f32
  | 0, hn => (k0_pay6 (iblk0 V c 0 ⟨0, hn⟩) (iblk0 V c 1 ⟨0, hn⟩) k0_pay2, k0_pay7 (iblk0 V c 0 ⟨0, hn⟩) (iblk0 V c 1 ⟨0, hn⟩) k0_pay3, k0_pay8 (iblk0 V c 0 ⟨0, hn⟩) k0_pay4, k0_pay1 k0_pay5 (k0_pay9 (iblk0 V c 1 ⟨0, hn⟩)))
  | n + 1, hn => (k0_pay6 (iblk0 V c 0 ⟨n + 1, hn⟩) (iblk0 V c 1 ⟨n + 1, hn⟩) (accAt0 c n (Nat.lt_of_succ_lt hn)).1, k0_pay7 (iblk0 V c 0 ⟨n + 1, hn⟩) (iblk0 V c 1 ⟨n + 1, hn⟩) (accAt0 c n (Nat.lt_of_succ_lt hn)).2.1, k0_pay8 (iblk0 V c 0 ⟨n + 1, hn⟩) (accAt0 c n (Nat.lt_of_succ_lt hn)).2.2.1, k0_pay1 (accAt0 c n (Nat.lt_of_succ_lt hn)).2.2.2 (k0_pay9 (iblk0 V c 1 ⟨n + 1, hn⟩)))

/-- At the first point: from zero. -/
theorem accAt0_first (c : Dev nD) (t : Fin cfg0.N) (hz : t.val = 0) :
    accAt0 V c t.val t.isLt = (k0_pay6 (iblk0 V c 0 t) (iblk0 V c 1 t) k0_pay2, k0_pay7 (iblk0 V c 0 t) (iblk0 V c 1 t) k0_pay3, k0_pay8 (iblk0 V c 0 t) k0_pay4, k0_pay1 k0_pay5 (k0_pay9 (iblk0 V c 1 t))) := by
  obtain ⟨n, hn⟩ := t
  cases n with
  | zero => rfl
  | succ n => exact absurd hz (Nat.succ_ne_zero n)

/-- At a later point: from what the point before left. -/
theorem accAt0_pos (c : Dev nD) (t : Fin cfg0.N) (hz : t.val ≠ 0) :
    accAt0 V c t.val t.isLt = (k0_pay6 (iblk0 V c 0 t) (iblk0 V c 1 t) (accAt0 V c (t.val - 1) (Nat.lt_of_le_of_lt (Nat.sub_le _ _) t.isLt)).1, k0_pay7 (iblk0 V c 0 t) (iblk0 V c 1 t) (accAt0 V c (t.val - 1) (Nat.lt_of_le_of_lt (Nat.sub_le _ _) t.isLt)).2.1, k0_pay8 (iblk0 V c 0 t) (accAt0 V c (t.val - 1) (Nat.lt_of_le_of_lt (Nat.sub_le _ _) t.isLt)).2.2.1, k0_pay1 (accAt0 V c (t.val - 1) (Nat.lt_of_le_of_lt (Nat.sub_le _ _) t.isLt)).2.2.2 (k0_pay9 (iblk0 V c 1 t))) := by
  obtain ⟨n, hn⟩ := t
  cases n with
  | zero => exact absurd rfl hz
  | succ n => rfl

/-! ## The region invariant -/

/-- Before position `n`: before the first point what the launch hands the region (every scratch at anything);
    afterwards the four accumulators at what the point before left, the core's other scoped buffers at anything, and
    the generator register at some state. -/
def PhiS (c : Dev nD) : (n : ℕ) → n ≤ cfg0.N → sProp 𝕄
  | 0, _ => Pipeline.ΦA spec0 c
  | n + 1, hn => iprop(iprop(owns (c : Thread nD τ) scM0_0 fullShare (accAt0 V c n hn).1 ∗ owns (c : Thread nD τ) scM0_1 fullShare (accAt0 V c n hn).2.1 ∗ owns (c : Thread nD τ) scM0_2 fullShare (accAt0 V c n hn).2.2.1 ∗ owns (c : Thread nD τ) scM0_3 fullShare (accAt0 V c n hn).2.2.2 ∗ restOthers (F := F) c) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(iprop(owns (c : Thread nD τ) scM0_0 fullShare (accAt0 V c n hn).1 ∗ owns (c : Thread nD τ) scM0_1 fullShare (accAt0 V c n hn).2.1 ∗ owns (c : Thread nD τ) scM0_2 fullShare (accAt0 V c n hn).2.2.1 ∗ owns (c : Thread nD τ) scM0_3 fullShare (accAt0 V c n hn).2.2.2 ∗ restOthers (F := F) c) ∗ (∃ r, prngReg c r)) := rfl

theorem PhiS_pos (c : Dev nD) (n : ℕ) (h : n ≤ cfg0.N) (hz : n ≠ 0) :
    PhiS V c n h = iprop(iprop(owns (c : Thread nD τ) scM0_0 fullShare (accAt0 V c (n - 1) (by omega)).1 ∗ owns (c : Thread nD τ) scM0_1 fullShare (accAt0 V c (n - 1) (by omega)).2.1 ∗ owns (c : Thread nD τ) scM0_2 fullShare (accAt0 V c (n - 1) (by omega)).2.2.1 ∗ owns (c : Thread nD τ) scM0_3 fullShare (accAt0 V c (n - 1) (by omega)).2.2.2 ∗ restOthers (F := F) c) ∗ (∃ r, prngReg c r)) := by
  cases n with
  | zero => exact absurd rfl hz
  | succ n => rfl

/-! ## The pipeline's proof data -/

/-- The proof data of the pipeline on core `c`: the arrays as the region finds them (`V`); after the body at point `t`
    each input's buffer at its block and each output's at its accumulator's value (consulted at the last point only: the
    outputs are idle, and not written back, before it); the invariant `PhiS`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => (accAt0 V c t.val t.isLt).1
    | ⟨3, _⟩ => (accAt0 V c t.val t.isLt).2.1
    | ⟨4, _⟩ => (accAt0 V c t.val t.isLt).2.2.1
    | ⟨5, _⟩ => (accAt0 V c t.val t.isLt).2.2.2
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem q0 (c : Dev nD) : ∀ w, (dat0 V c).q w = fullShare := fun _ => rfl
theorem owed0 (c : Dev nD) : ∀ t, (dat0 V c).owed t = 0 := fun _ => rfl

theorem PhiS_castSucc (c : Dev nD) (t : Fin cfg0.N) :
    (dat0 V c).Φ t.castSucc = PhiS V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = (accAt0 V c t.val t.isLt).1 := by dsimp only [dat0]
theorem after0_3 (c : Dev nD) (t : Fin cfg0.N) : (dat0 V c).after 3 t = (accAt0 V c t.val t.isLt).2.1 := by dsimp only [dat0]
theorem after0_4 (c : Dev nD) (t : Fin cfg0.N) : (dat0 V c).after 4 t = (accAt0 V c t.val t.isLt).2.2.1 := by dsimp only [dat0]
theorem after0_5 (c : Dev nD) (t : Fin cfg0.N) : (dat0 V c).after 5 t = (accAt0 V c t.val t.isLt).2.2.2 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t)

set_option maxHeartbeats 4800000 in
/-- The body at any point: the inputs' memrefs hold their blocks; the closed forms say which case the point is in; the
    invariant hands the body the four accumulators at what the point before left (at anything at the first point) and
    takes them back at this point's values; an idle output's buffer goes back as found; the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS V c (t.val + 1) t.isLt from rfl, PhiS_succ]
  have hN : t.val < 8 := lt_of_lt_of_eq t.isLt (show cfg0.N = 8 from N_0)
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  by_cases h0 : t.val % 8 = 0
  · have h1 : ¬t.val % 8 = 7 := by omega
    have hz : t.val = 0 := by omega
    rw [Dat.leavesExact_idle (dat0 V c) 2 t (idleAt0_2 t (fun h => h1 ((hcond0_1 t).mp h))) (noFlush0_2 t (fun h => h1 ((hcond0_1 t).mp h)))]
    rw [Dat.leavesExact_idle (dat0 V c) 3 t (idleAt0_3 t (fun h => h1 ((hcond0_1 t).mp h))) (noFlush0_3 t (fun h => h1 ((hcond0_1 t).mp h)))]
    rw [Dat.leavesExact_idle (dat0 V c) 4 t (idleAt0_4 t (fun h => h1 ((hcond0_1 t).mp h))) (noFlush0_4 t (fun h => h1 ((hcond0_1 t).mp h)))]
    rw [Dat.leavesExact_idle (dat0 V c) 5 t (idleAt0_5 t (fun h => h1 ((hcond0_1 t).mp h))) (noFlush0_5 t (fun h => h1 ((hcond0_1 t).mp h)))]
    rw [accAt0_first V c t hz]; dsimp only
    rw [PhiS_castSucc V c t, PhiS_zero V c _ _ hz, PhiA0_eq]
    iintro ⟨⟨⟨HS0, HS1, HS2, HS3, HR⟩, Hg⟩, Ho, ⟨%d0, H0⟩, ⟨%d1, H1⟩, ⟨%d2, H2⟩, ⟨%d3, H3⟩, ⟨%d4, H4⟩, ⟨%d5, H5⟩⟩
    iapply (run0_A c (grid0.coords t) _ _ _ _ _ _ _ _ _ _ _ _ _ _ _ _ _ _ _ _ ((hcond0_0 t).mpr h0) (fun h => h1 ((hcond0_1 t).mp h)) (iblk0 V c 0 t) (iblk0 V c 1 t) _ _ _ _ Set.univ _)
    isplitl [H0]; · iexact H0
    isplitl [H1]; · iexact H1
    isplitl [H2]; · iexact H2
    isplitl [H3]; · iexact H3
    isplitl [H4]; · iexact H4
    isplitl [H5]; · iexact H5
    isplitl [HS0]; · iexact HS0
    isplitl [HS1]; · iexact HS1
    isplitl [HS2]; · iexact HS2
    isplitl [HS3]; · iexact HS3
    iintro ⟨H0, H1, H2, H3, H4, H5, HS0, HS1, HS2, HS3⟩
    isplitl [HS0 HS1 HS2 HS3 HR Hg]
    · isplitr [Hg]
      · isplitl [HS0]; · iexact HS0
        isplitl [HS1]; · iexact HS1
        isplitl [HS2]; · iexact HS2
        isplitl [HS3]; · iexact HS3
        iexact HR
      iexact Hg
    isplitl [Ho]; · iexact Ho
    isplitl [H0]; · iexact H0
    isplitl [H1]; · iexact H1
    isplitl [H2]; · iexists _; iexact H2
    isplitl [H3]; · iexists _; iexact H3
    isplitl [H4]; · iexists _; iexact H4
    iexists _; iexact H5
  · have hz : t.val ≠ 0 := fun e => h0 (by rw [e])
    rw [accAt0_pos V c t hz]; dsimp only
    rw [PhiS_castSucc V c t, PhiS_pos V c _ _ hz]
    by_cases h1 : t.val % 8 = 7
    · rw [show (dat0 V c).leavesExact 2 t = owns (c : Thread nD τ) (ms0_2 t) fullShare ((dat0 V c).after 2 t) from by
        unfold Dat.leavesExact; rw [liveAt0_2 t ((hcond0_1 t).mpr h1)], after0_2]
      rw [show (dat0 V c).leavesExact 3 t = owns (c : Thread nD τ) (ms0_3 t) fullShare ((dat0 V c).after 3 t) from by
        unfold Dat.leavesExact; rw [liveAt0_3 t ((hcond0_1 t).mpr h1)], after0_3]
      rw [show (dat0 V c).leavesExact 4 t = owns (c : Thread nD τ) (ms0_4 t) fullShare ((dat0 V c).after 4 t) from by
        unfold Dat.leavesExact; rw [liveAt0_4 t ((hcond0_1 t).mpr h1)], after0_4]
      rw [show (dat0 V c).leavesExact 5 t = owns (c : Thread nD τ) (ms0_5 t) fullShare ((dat0 V c).after 5 t) from by
        unfold Dat.leavesExact; rw [liveAt0_5 t ((hcond0_1 t).mpr h1)], after0_5]
      rw [accAt0_pos V c t hz]; dsimp only
      iintro ⟨⟨⟨HS0, HS1, HS2, HS3, HR⟩, Hg⟩, Ho, ⟨%d0, H0⟩, ⟨%d1, H1⟩, ⟨%d2, H2⟩, ⟨%d3, H3⟩, ⟨%d4, H4⟩, ⟨%d5, H5⟩⟩
      iapply (run0_C c (grid0.coords t) _ _ _ _ _ _ _ _ _ _ _ _ _ _ _ _ _ _ _ _ (fun h => h0 ((hcond0_0 t).mp h)) ((hcond0_1 t).mpr h1) (iblk0 V c 0 t) (iblk0 V c 1 t) _ _ _ _ Set.univ _)
      isplitl [H0]; · iexact H0
      isplitl [H1]; · iexact H1
      isplitl [H2]; · iexists _; iexact H2
      isplitl [H3]; · iexists _; iexact H3
      isplitl [H4]; · iexists _; iexact H4
      isplitl [H5]; · iexists _; iexact H5
      isplitl [HS0]; · iexact HS0
      isplitl [HS1]; · iexact HS1
      isplitl [HS2]; · iexact HS2
      isplitl [HS3]; · iexact HS3
      iintro ⟨H0, H1, H2, H3, H4, H5, HS0, HS1, HS2, HS3⟩
      isplitl [HS0 HS1 HS2 HS3 HR Hg]
      · isplitr [Hg]
        · isplitl [HS0]; · iexact HS0
          isplitl [HS1]; · iexact HS1
          isplitl [HS2]; · iexact HS2
          isplitl [HS3]; · iexact HS3
          iexact HR
        iexact Hg
      isplitl [Ho]; · iexact Ho
      isplitl [H0]; · iexact H0
      isplitl [H1]; · iexact H1
      isplitl [H2]; · iexact H2
      isplitl [H3]; · iexact H3
      isplitl [H4]; · iexact H4
      iexact H5
    · rw [Dat.leavesExact_idle (dat0 V c) 2 t (idleAt0_2 t (fun h => h1 ((hcond0_1 t).mp h))) (noFlush0_2 t (fun h => h1 ((hcond0_1 t).mp h)))]
      rw [Dat.leavesExact_idle (dat0 V c) 3 t (idleAt0_3 t (fun h => h1 ((hcond0_1 t).mp h))) (noFlush0_3 t (fun h => h1 ((hcond0_1 t).mp h)))]
      rw [Dat.leavesExact_idle (dat0 V c) 4 t (idleAt0_4 t (fun h => h1 ((hcond0_1 t).mp h))) (noFlush0_4 t (fun h => h1 ((hcond0_1 t).mp h)))]
      rw [Dat.leavesExact_idle (dat0 V c) 5 t (idleAt0_5 t (fun h => h1 ((hcond0_1 t).mp h))) (noFlush0_5 t (fun h => h1 ((hcond0_1 t).mp h)))]
      iintro ⟨⟨⟨HS0, HS1, HS2, HS3, HR⟩, Hg⟩, Ho, ⟨%d0, H0⟩, ⟨%d1, H1⟩, ⟨%d2, H2⟩, ⟨%d3, H3⟩, ⟨%d4, H4⟩, ⟨%d5, H5⟩⟩
      iapply (run0_B c (grid0.coords t) _ _ _ _ _ _ _ _ _ _ _ _ _ _ _ _ _ _ _ _ (fun h => h0 ((hcond0_0 t).mp h)) (fun h => h1 ((hcond0_1 t).mp h)) (iblk0 V c 0 t) (iblk0 V c 1 t) _ _ _ _ _ _ _ _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      isplitl [HS2]; · iexact HS2
      isplitl [HS3]; · iexact HS3
      iintro ⟨H0, H1, H2, H3, H4, H5, HS0, HS1, HS2, HS3⟩
      isplitl [HS0 HS1 HS2 HS3 HR Hg]
      · isplitr [Hg]
        · isplitl [HS0]; · iexact HS0
          isplitl [HS1]; · iexact HS1
          isplitl [HS2]; · iexact HS2
          isplitl [HS3]; · iexact HS3
          iexact HR
        iexact Hg
      isplitl [Ho]; · iexact Ho
      isplitl [H0]; · iexact H0
      isplitl [H1]; · iexact H1
      isplitl [H2]; · iexists _; iexact H2
      isplitl [H3]; · iexists _; iexact H3
      isplitl [H4]; · iexists _; iexact H4
      iexists _; iexact H5

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After any point but the first the invariant gives it back: the accumulators' named contents are forgotten. -/
theorem Phi_out0 (c : Dev nD) (t : Fin (cfg0.N + 1)) (ht : t.val ≠ 0) : (dat0 V c).Φ t ⊢ Pipeline.ΦA spec0 c := by
  rw [show (dat0 V c).Φ t = PhiS V c t.val (Nat.le_of_lt_succ t.isLt) from rfl, PhiS_pos V c _ _ ht, PhiA0_eq]
  iintro ⟨⟨HS0, HS1, HS2, HS3, HR⟩, Hg⟩
  isplitr [Hg]
  · isplitl [HS0]; · iexists _; iexact HS0
    isplitl [HS1]; · iexists _; iexact HS1
    isplitl [HS2]; · iexists _; iexact HS2
    isplitl [HS3]; · iexists _; iexact HS3
    iexact HR
  iexact Hg

/-- The same after the last point. -/
theorem hout0 (c : Dev nD) : (dat0 V c).Φ (Fin.last cfg0.N) ⊢ Pipeline.ΦA spec0 c :=
  Phi_out0 V c _ (by rw [Fin.val_last]; have : cfg0.N = 8 := N_0; omega)

/-! ## What the four result arrays hold after the region -/

theorem lt7 : 7 < cfg0.N := by rw [show cfg0.N = 8 from N_0]; decide

/-- Result 0: its accumulator's value after the last point, as contents of the [1,1] result array. -/
abbrev res0_2 (c : Dev nD) : Buf (Elt F) ((c : Thread nD τ).loc main_v0_0) := (accAt0 V c 7 lt7).1

/-- The one write-back, at the last point, writes it: the window's one block is the array. -/
theorem flushed0_2 (c : Dev nD) (t : Fin cfg0.N) (hf : (cfg0.win 2).flush t = true) :
    (dat0 V c).flushed 2 t = ((cfg0.win 2).blk t).view.read (Elt F) (res0_2 V c) := by
  have hN : cfg0.N = 8 := N_0
  have h7 : t.val = 7 := by have := (flush0_2 t).mp hf; have := t.isLt; omega
  obtain rfl : t = t0_7 := Fin.ext h7
  show (cfg0.win 2).cut (grid0.coords t0_7) ((dat0 V c).after 2 t0_7) = _
  rw [after0_2]
  have hz' : (fun a => win0_2.index t0_7 a * main_v0_0.ty.shape.size a) = fun _ => 0 := funext fun a => by fin_cases a <;> decide
  exact (Memref.read_access_unit_zero (Elt F) main_v0_0 hz' (fun a => by rw [congrFun hz' a]; simp) (res0_2 V c)).symm

/-- So the result array ends holding it. -/
theorem final0_2 (c : Dev nD) : (dat0 V c).arrAt 2 cfg0.N = res0_2 V c :=
  (dat0 V c).arrAt_eq_of_cover 2 (res0_2 V c) (flushed0_2 V c) fun i =>
    ⟨t0_7, (flush0_2 t0_7).mpr rfl, by
      show i ∈ ((View.whole main_v0_0).slice (win0_2.rect t0_7)).set
      rw [View.set_slice_whole, Rect.mem_set_unit]
      intro a
      have h0 : (i 0 : Nat) < 1 := (i 0).isLt
      have h1 : (i 1 : Nat) < 1 := (i 1).isLt
      match a with
      | ⟨0, _⟩ => show win0_2.index t0_7 0 * win0_2.size 0 ≤ (i 0 : Nat) ∧ (i 0 : Nat) < win0_2.index t0_7 0 * win0_2.size 0 + win0_2.xsize (grid0.coords t0_7) 0
                  rw [show win0_2.index t0_7 0 * win0_2.size 0 = 0 from by decide +kernel, show win0_2.xsize (grid0.coords t0_7) 0 = 1 from by decide +kernel]; omega
      | ⟨1, _⟩ => show win0_2.index t0_7 1 * win0_2.size 1 ≤ (i 1 : Nat) ∧ (i 1 : Nat) < win0_2.index t0_7 1 * win0_2.size 1 + win0_2.xsize (grid0.coords t0_7) 1
                  rw [show win0_2.index t0_7 1 * win0_2.size 1 = 0 from by decide +kernel, show win0_2.xsize (grid0.coords t0_7) 1 = 1 from by decide +kernel]; omega⟩

/-- Result 1: its accumulator's value after the last point, as contents of the [1,1] result array. -/
abbrev res0_3 (c : Dev nD) : Buf (Elt F) ((c : Thread nD τ).loc main_v0_1) := (accAt0 V c 7 lt7).2.1

/-- The one write-back, at the last point, writes it: the window's one block is the array. -/
theorem flushed0_3 (c : Dev nD) (t : Fin cfg0.N) (hf : (cfg0.win 3).flush t = true) :
    (dat0 V c).flushed 3 t = ((cfg0.win 3).blk t).view.read (Elt F) (res0_3 V c) := by
  have hN : cfg0.N = 8 := N_0
  have h7 : t.val = 7 := by have := (flush0_3 t).mp hf; have := t.isLt; omega
  obtain rfl : t = t0_7 := Fin.ext h7
  show (cfg0.win 3).cut (grid0.coords t0_7) ((dat0 V c).after 3 t0_7) = _
  rw [after0_3]
  have hz' : (fun a => win0_3.index t0_7 a * main_v0_1.ty.shape.size a) = fun _ => 0 := funext fun a => by fin_cases a <;> decide
  exact (Memref.read_access_unit_zero (Elt F) main_v0_1 hz' (fun a => by rw [congrFun hz' a]; simp) (res0_3 V c)).symm

/-- So the result array ends holding it. -/
theorem final0_3 (c : Dev nD) : (dat0 V c).arrAt 3 cfg0.N = res0_3 V c :=
  (dat0 V c).arrAt_eq_of_cover 3 (res0_3 V c) (flushed0_3 V c) fun i =>
    ⟨t0_7, (flush0_3 t0_7).mpr rfl, by
      show i ∈ ((View.whole main_v0_1).slice (win0_3.rect t0_7)).set
      rw [View.set_slice_whole, Rect.mem_set_unit]
      intro a
      have h0 : (i 0 : Nat) < 1 := (i 0).isLt
      have h1 : (i 1 : Nat) < 1 := (i 1).isLt
      match a with
      | ⟨0, _⟩ => show win0_3.index t0_7 0 * win0_3.size 0 ≤ (i 0 : Nat) ∧ (i 0 : Nat) < win0_3.index t0_7 0 * win0_3.size 0 + win0_3.xsize (grid0.coords t0_7) 0
                  rw [show win0_3.index t0_7 0 * win0_3.size 0 = 0 from by decide +kernel, show win0_3.xsize (grid0.coords t0_7) 0 = 1 from by decide +kernel]; omega
      | ⟨1, _⟩ => show win0_3.index t0_7 1 * win0_3.size 1 ≤ (i 1 : Nat) ∧ (i 1 : Nat) < win0_3.index t0_7 1 * win0_3.size 1 + win0_3.xsize (grid0.coords t0_7) 1
                  rw [show win0_3.index t0_7 1 * win0_3.size 1 = 0 from by decide +kernel, show win0_3.xsize (grid0.coords t0_7) 1 = 1 from by decide +kernel]; omega⟩

/-- Result 2: its accumulator's value after the last point, as contents of the [1,1] result array. -/
abbrev res0_4 (c : Dev nD) : Buf (Elt F) ((c : Thread nD τ).loc main_v0_2) := (accAt0 V c 7 lt7).2.2.1

/-- The one write-back, at the last point, writes it: the window's one block is the array. -/
theorem flushed0_4 (c : Dev nD) (t : Fin cfg0.N) (hf : (cfg0.win 4).flush t = true) :
    (dat0 V c).flushed 4 t = ((cfg0.win 4).blk t).view.read (Elt F) (res0_4 V c) := by
  have hN : cfg0.N = 8 := N_0
  have h7 : t.val = 7 := by have := (flush0_4 t).mp hf; have := t.isLt; omega
  obtain rfl : t = t0_7 := Fin.ext h7
  show (cfg0.win 4).cut (grid0.coords t0_7) ((dat0 V c).after 4 t0_7) = _
  rw [after0_4]
  have hz' : (fun a => win0_4.index t0_7 a * main_v0_2.ty.shape.size a) = fun _ => 0 := funext fun a => by fin_cases a <;> decide
  exact (Memref.read_access_unit_zero (Elt F) main_v0_2 hz' (fun a => by rw [congrFun hz' a]; simp) (res0_4 V c)).symm

/-- So the result array ends holding it. -/
theorem final0_4 (c : Dev nD) : (dat0 V c).arrAt 4 cfg0.N = res0_4 V c :=
  (dat0 V c).arrAt_eq_of_cover 4 (res0_4 V c) (flushed0_4 V c) fun i =>
    ⟨t0_7, (flush0_4 t0_7).mpr rfl, by
      show i ∈ ((View.whole main_v0_2).slice (win0_4.rect t0_7)).set
      rw [View.set_slice_whole, Rect.mem_set_unit]
      intro a
      have h0 : (i 0 : Nat) < 1 := (i 0).isLt
      have h1 : (i 1 : Nat) < 1 := (i 1).isLt
      match a with
      | ⟨0, _⟩ => show win0_4.index t0_7 0 * win0_4.size 0 ≤ (i 0 : Nat) ∧ (i 0 : Nat) < win0_4.index t0_7 0 * win0_4.size 0 + win0_4.xsize (grid0.coords t0_7) 0
                  rw [show win0_4.index t0_7 0 * win0_4.size 0 = 0 from by decide +kernel, show win0_4.xsize (grid0.coords t0_7) 0 = 1 from by decide +kernel]; omega
      | ⟨1, _⟩ => show win0_4.index t0_7 1 * win0_4.size 1 ≤ (i 1 : Nat) ∧ (i 1 : Nat) < win0_4.index t0_7 1 * win0_4.size 1 + win0_4.xsize (grid0.coords t0_7) 1
                  rw [show win0_4.index t0_7 1 * win0_4.size 1 = 0 from by decide +kernel, show win0_4.xsize (grid0.coords t0_7) 1 = 1 from by decide +kernel]; omega⟩

/-- Result 3: its accumulator's value after the last point, as contents of the [1,1] result array. -/
abbrev res0_5 (c : Dev nD) : Buf (Elt F) ((c : Thread nD τ).loc main_v0_3) := (accAt0 V c 7 lt7).2.2.2

/-- The one write-back, at the last point, writes it: the window's one block is the array. -/
theorem flushed0_5 (c : Dev nD) (t : Fin cfg0.N) (hf : (cfg0.win 5).flush t = true) :
    (dat0 V c).flushed 5 t = ((cfg0.win 5).blk t).view.read (Elt F) (res0_5 V c) := by
  have hN : cfg0.N = 8 := N_0
  have h7 : t.val = 7 := by have := (flush0_5 t).mp hf; have := t.isLt; omega
  obtain rfl : t = t0_7 := Fin.ext h7
  show (cfg0.win 5).cut (grid0.coords t0_7) ((dat0 V c).after 5 t0_7) = _
  rw [after0_5]
  have hz' : (fun a => win0_5.index t0_7 a * main_v0_3.ty.shape.size a) = fun _ => 0 := funext fun a => by fin_cases a <;> decide
  exact (Memref.read_access_unit_zero (Elt F) main_v0_3 hz' (fun a => by rw [congrFun hz' a]; simp) (res0_5 V c)).symm

/-- So the result array ends holding it. -/
theorem final0_5 (c : Dev nD) : (dat0 V c).arrAt 5 cfg0.N = res0_5 V c :=
  (dat0 V c).arrAt_eq_of_cover 5 (res0_5 V c) (flushed0_5 V c) fun i =>
    ⟨t0_7, (flush0_5 t0_7).mpr rfl, by
      show i ∈ ((View.whole main_v0_3).slice (win0_5.rect t0_7)).set
      rw [View.set_slice_whole, Rect.mem_set_unit]
      intro a
      have h0 : (i 0 : Nat) < 1 := (i 0).isLt
      have h1 : (i 1 : Nat) < 1 := (i 1).isLt
      match a with
      | ⟨0, _⟩ => show win0_5.index t0_7 0 * win0_5.size 0 ≤ (i 0 : Nat) ∧ (i 0 : Nat) < win0_5.index t0_7 0 * win0_5.size 0 + win0_5.xsize (grid0.coords t0_7) 0
                  rw [show win0_5.index t0_7 0 * win0_5.size 0 = 0 from by decide +kernel, show win0_5.xsize (grid0.coords t0_7) 0 = 1 from by decide +kernel]; omega
      | ⟨1, _⟩ => show win0_5.index t0_7 1 * win0_5.size 1 ≤ (i 1 : Nat) ∧ (i 1 : Nat) < win0_5.index t0_7 1 * win0_5.size 1 + win0_5.xsize (grid0.coords t0_7) 1
                  rw [show win0_5.index t0_7 1 * win0_5.size 1 = 0 from by decide +kernel, show win0_5.xsize (grid0.coords t0_7) 1 = 1 from by decide +kernel]; omega⟩

/-- The two input arrays end as the region found them. -/
theorem arrAt0_in0 (c : Dev nD) : (dat0 V c).arrAt 0 cfg0.N = V c (Pipeline.arrRef spec0 0) :=
  ((dat0 V c).arrAt_in 0 rfl _).trans (A_eq0 V c 0)
theorem arrAt0_in1 (c : Dev nD) : (dat0 V c).arrAt 1 cfg0.N = V c (Pipeline.arrRef spec0 1) :=
  ((dat0 V c).arrAt_in 1 rfl _).trans (A_eq0 V c 1)

end Cert.KernelIdeal.TextMap

end
-- ==== Proof.BoxConfIdeal.lean ====
import proofs.«167267_j69861938037475_1_alg».proof.Proof.Gen.KernelIdeal.Launch
import proofs.«167267_j69861938037475_1_alg».proof.Proof.Gen.KernelIdeal.Skeleton
import proofs.«167267_j69861938037475_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value

set_option maxRecDepth 16384

noncomputable section

namespace Cert.KernelIdeal.BoxConf

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # The box / confidence reduction (the second kernel launch): its proof data and its body

The launch has ONE grid point; its ten input windows are whole [64,160] arrays (the predicted corners px1, py1, px2, py2,
the target corners tx1, ty1, tx2, ty2, the predicted confidence gc and the target confidence tc), its four output
windows whole [1,1] arrays (the sums of -log IoU, 1 - GIoU, the smooth-L1 corner loss and the confidence cross-entropy).
The body loads every input whole, computes pointwise, sums each of the four maps over both axes and stores each sum whole. -/

/-! ## The windows' blocks -/

/-- Window `w`'s block at point `t`, read off its array as the launch finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! Each input window's current staging buffer holds its block at every point, fetched there or not, for any proof
    data whose array is `V`'s and whose body leaves the block in place: the windows are uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)
theorem before1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)
theorem before1_8_of {c : Dev nD} (dat : Dat τ (Elt F) Unit ℕ (UR sig nD τ) ℕ cfg1 c) (hA : dat.A 8 = V c (Pipeline.arrRef spec1 8))
    (hafter : ∀ t, dat.after 8 t = iblk1 V c 8 t) (t : Fin cfg1.N) (d) : dat.before 8 t d = iblk1 V c 8 t :=
  (dat.before_in_eq_fetched 8 rfl (fun _ => rfl) (fun _ _ _ => rfl) (fun t => by rw [hafter]; unfold Dat.blockOf iblk1; rw [hA]; try rfl) t d).trans
    (by unfold Dat.fetched Dat.blockOf iblk1; rw [hA]; try rfl)
theorem before1_9_of {c : Dev nD} (dat : Dat τ (Elt F) Unit ℕ (UR sig nD τ) ℕ cfg1 c) (hA : dat.A 9 = V c (Pipeline.arrRef spec1 9))
    (hafter : ∀ t, dat.after 9 t = iblk1 V c 9 t) (t : Fin cfg1.N) (d) : dat.before 9 t d = iblk1 V c 9 t :=
  (dat.before_in_eq_fetched 9 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: every load and every store is of a whole buffer -/

abbrev r1_0 : Rect S64x160 := Rect.unit (s := S64x160) ![0, 0] S64x160.size inb_S64x160_S64x160_0_0
abbrev r1_1 : Rect S1x1 := Rect.unit (s := S1x1) ![0, 0] S1x1.size inb_S1x1_S1x1_0_0

/-! ## The pointwise maps the body sums, as functions of the ten loaded blocks -/

section Maps
variable (x0 x1 x2 x3 x4 x5 x6 x7 x8 x9 : Vec F S64x160 .f32)

/-- The predicted box's left edge: the smaller of the clipped px1 and px2. -/
def predLeft : FVec F S64x160 .f32 := k1_pay9 (View.ld x0 r1_0) (View.ld x2 r1_0)
/-- Its right edge: the larger of the two. -/
def predRight : FVec F S64x160 .f32 := k1_pay10 (View.ld x0 r1_0) (View.ld x2 r1_0)
/-- Its top edge: the smaller of the clipped py1 and py2. -/
def predTop : FVec F S64x160 .f32 := k1_pay11 (View.ld x1 r1_0) (View.ld x3 r1_0)
/-- Its bottom edge: the larger of the two. -/
def predBottom : FVec F S64x160 .f32 := k1_pay12 (View.ld x1 r1_0) (View.ld x3 r1_0)
/-- The target box's corners tx1, ty1, tx2 as loaded. -/
def tgtLeft : FVec F S64x160 .f32 := k1_pay13 (View.ld x4 r1_0)
def tgtTop : FVec F S64x160 .f32 := k1_pay14 (View.ld x5 r1_0)
def tgtRight : FVec F S64x160 .f32 := k1_pay15 (View.ld x6 r1_0)

/-- -log (IoU + ε) of the predicted and the target box, pointwise. -/
def negLogIou : FVec F S64x160 .f32 :=
  k1_pay20 (predLeft x0 x2) (predRight x0 x2) (predTop x1 x3) (predBottom x1 x3) (tgtLeft x4) (tgtTop x5) (tgtRight x6) (View.ld x7 r1_0)
/-- 1 - GIoU of the two boxes, pointwise. -/
def oneMinusGiou : FVec F S64x160 .f32 :=
  k1_pay21 (predLeft x0 x2) (predRight x0 x2) (predTop x1 x3) (predBottom x1 x3) (tgtLeft x4) (tgtTop x5) (tgtRight x6) (View.ld x7 r1_0)
/-- The smooth-L1 loss summed over the four corner differences, pointwise. -/
def cornerLoss : FVec F S64x160 .f32 :=
  k1_pay26 (predRight x0 x2) (predTop x1 x3) (predBottom x1 x3) (tgtTop x5) (tgtRight x6) (k1_pay16 (View.ld x7 r1_0))
    (k1_pay22 (predLeft x0 x2) (tgtLeft x4)) (k1_pay23 (predLeft x0 x2) (tgtLeft x4)) (k1_pay24 (predLeft x0 x2) (tgtLeft x4)) (k1_pay25 (F := F))

end Maps

/-! ## What the body leaves in each output window's buffer -/

/-- Window 10's staging buffer after the body: its one whole store, of the sum of -log IoU. -/
def out1_10 (x0 x1 x2 x3 x4 x5 x6 x7 x8 x9 : Vec F S64x160 .f32) : Vec F S1x1 .f32 :=
  View.canon [⟨r1_1, k1_pay1 (negLogIou x0 x1 x2 x3 x4 x5 x6 x7)⟩]
/-- Window 11's: the sum of 1 - GIoU. -/
def out1_11 (x0 x1 x2 x3 x4 x5 x6 x7 x8 x9 : Vec F S64x160 .f32) : Vec F S1x1 .f32 :=
  View.canon [⟨r1_1, k1_pay2 (oneMinusGiou x0 x1 x2 x3 x4 x5 x6 x7)⟩]
/-- Window 12's: the sum of the corner loss. -/
def out1_12 (x0 x1 x2 x3 x4 x5 x6 x7 x8 x9 : Vec F S64x160 .f32) : Vec F S1x1 .f32 :=
  View.canon [⟨r1_1, k1_pay3 (cornerLoss x0 x1 x2 x3 x4 x5 x6 x7)⟩]
/-- Window 13's: the sum of the confidence cross-entropy, from the target confidence tc and the two clamped logarithms of gc. -/
def out1_13 (x0 x1 x2 x3 x4 x5 x6 x7 x8 x9 : Vec F S64x160 .f32) : Vec F S1x1 .f32 :=
  View.canon [⟨r1_1, k1_pay4 (k1_pay28 (View.ld x9 r1_0)) (k1_pay29 (View.ld x8 r1_0)) (k1_pay30 (View.ld x8 r1_0))⟩]

/-- One whole store covers a [1,1] buffer. -/
theorem cover1_out (p0 : Vec F S1x1 .f32) (y : S1x1.Idx) :
    ∃ pc ∈ ([⟨r1_1, p0⟩] : List (View.Piece (Elt F) S1x1 .f32)), y ∈ pc.1.set :=
  View.cover_of_tiled [⟨r1_1, p0⟩] S1x1.size (by rfl) y

/-! ## The body's triple -/

set_option maxHeartbeats 1000000 in
/-- The kernel body on whole staging memrefs, the inputs' at contents `xW` and the outputs' at anything, runs to the
    continuation holding the inputs' as they were and each output's at `out1_W` of the inputs'. -/
theorem sound_kernel1 (c : Dev nD) (E : Set ℕ) (i : grid1.Coords)
    (arg1 : Memref sig .tc .vmem S64x160 .f32) (harg1 : arg1.IsWhole) (arg2 : Memref sig .tc .vmem S64x160 .f32) (harg2 : arg2.IsWhole)
    (arg3 : Memref sig .tc .vmem S64x160 .f32) (harg3 : arg3.IsWhole) (arg4 : Memref sig .tc .vmem S64x160 .f32) (harg4 : arg4.IsWhole)
    (arg5 : Memref sig .tc .vmem S64x160 .f32) (harg5 : arg5.IsWhole) (arg6 : Memref sig .tc .vmem S64x160 .f32) (harg6 : arg6.IsWhole)
    (arg7 : Memref sig .tc .vmem S64x160 .f32) (harg7 : arg7.IsWhole) (arg8 : Memref sig .tc .vmem S64x160 .f32) (harg8 : arg8.IsWhole)
    (arg9 : Memref sig .tc .vmem S64x160 .f32) (harg9 : arg9.IsWhole) (arg10 : Memref sig .tc .vmem S64x160 .f32) (harg10 : arg10.IsWhole)
    (arg11 : Memref sig .tc .vmem S1x1 .f32) (harg11 : arg11.IsWhole) (arg12 : Memref sig .tc .vmem S1x1 .f32) (harg12 : arg12.IsWhole)
    (arg13 : Memref sig .tc .vmem S1x1 .f32) (harg13 : arg13.IsWhole) (arg14 : Memref sig .tc .vmem S1x1 .f32) (harg14 : arg14.IsWhole)
    (x0 x1 x2 x3 x4 x5 x6 x7 x8 x9 : Vec F S64x160 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ owns (c : Thread nD τ) arg5 fullShare x4 ∗ owns (c : Thread nD τ) arg6 fullShare x5
        ∗ owns (c : Thread nD τ) arg7 fullShare x6 ∗ owns (c : Thread nD τ) arg8 fullShare x7
        ∗ owns (c : Thread nD τ) arg9 fullShare x8 ∗ owns (c : Thread nD τ) arg10 fullShare x9
        ∗ (∃ d, owns (c : Thread nD τ) arg11 fullShare d) ∗ (∃ d, owns (c : Thread nD τ) arg12 fullShare d)
        ∗ (∃ d, owns (c : Thread nD τ) arg13 fullShare d) ∗ (∃ d, owns (c : Thread nD τ) arg14 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare x4 ∗ owns (c : Thread nD τ) arg6 fullShare x5
            ∗ owns (c : Thread nD τ) arg7 fullShare x6 ∗ owns (c : Thread nD τ) arg8 fullShare x7
            ∗ owns (c : Thread nD τ) arg9 fullShare x8 ∗ owns (c : Thread nD τ) arg10 fullShare x9
            ∗ owns (c : Thread nD τ) arg11 fullShare (out1_10 x0 x1 x2 x3 x4 x5 x6 x7 x8 x9)
            ∗ owns (c : Thread nD τ) arg12 fullShare (out1_11 x0 x1 x2 x3 x4 x5 x6 x7 x8 x9)
            ∗ owns (c : Thread nD τ) arg13 fullShare (out1_12 x0 x1 x2 x3 x4 x5 x6 x7 x8 x9)
            ∗ owns (c : Thread nD τ) arg14 fullShare (out1_13 x0 x1 x2 x3 x4 x5 x6 x7 x8 x9)) -∗ K ⟨⟩))
      ⊢ wp frame (wpE (defs₀ (F := F)) Variants.none c none) E
          (cc1__box_conf_kernel i arg1 harg1 arg2 harg2 arg3 harg3 arg4 harg4 arg5 harg5 arg6 harg6 arg7 harg7 arg8 harg8 arg9 harg9 arg10 harg10 arg11 harg11 arg12 harg12 arg13 harg13 arg14 harg14) K := by
  simp only [cc1__box_conf_kernel_eq_skeleton]; unfold cc1__box_conf_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%d12, %f12, -, H12⟩, ⟨%d13, %f13, -, H13⟩, Hk⟩
  subst hf0 hf1 hf2 hf3 hf4 hf5 hf6 hf7 hf8 hf9
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists _; isplitr
    swap; · iexact H10
    ipureintro
    first | exact View.read_writes_eq_canon _ _ _ (cover1_out _) | fail "out 10"
  isplitl [H11]
  · iexists _; isplitr
    swap; · iexact H11
    ipureintro
    first | exact View.read_writes_eq_canon _ _ _ (cover1_out _) | fail "out 11"
  isplitl [H12]
  · iexists _; isplitr
    swap; · iexact H12
    ipureintro
    first | exact View.read_writes_eq_canon _ _ _ (cover1_out _) | fail "out 12"
  iexists _; isplitr
  swap; · iexact H13
  ipureintro
  first | exact View.read_writes_eq_canon _ _ _ (cover1_out _) | fail "out 13"

/-! ## The launch's proof data -/

/-- The proof data of the launch on core `c`: the arrays as the launch finds them (`V`); after the body at point `t`
    each input's buffer at its block and each output's at `out1_W` of the input blocks; the invariant is the scoped rest and
    the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => iblk1 V c 9 t
    | ⟨10, _⟩ => out1_10 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t)
    | ⟨11, _⟩ => out1_11 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t)
    | ⟨12, _⟩ => out1_12 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t)
    | ⟨13, _⟩ => out1_13 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t)
  Φ _ := Pipeline.ΦA spec1 c
  q _ := fullShare
  owed _ := 0

/-- The proof data's arrays are the contents the launch finds. -/
theorem A_eq1 (c : Dev nD) (w : Fin cfg1.W) : (dat1 V c).A w = V c (Pipeline.arrRef spec1 w) := by
  dsimp only [dat1]
/-- Its shares are full, -/
theorem q1 (c : Dev nD) : ∀ w, (dat1 V c).q w = fullShare := fun _ => rfl
/-- nothing is owed, -/
theorem owed1 (c : Dev nD) : ∀ t, (dat1 V c).owed t = 0 := fun _ => rfl
/-- and its invariant is the scoped rest and the generator register at every point. -/
theorem Phi1 (c : Dev nD) (t) : (dat1 V c).Φ t = Pipeline.ΦA spec1 c := rfl

/-! What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = iblk1 V c 8 t := by dsimp only [dat1]
theorem after1_9 (c : Dev nD) (t : Fin cfg1.N) : (dat1 V c).after 9 t = iblk1 V c 9 t := by dsimp only [dat1]
theorem after1_10 (c : Dev nD) (t : Fin cfg1.N) :
    (dat1 V c).after 10 t = out1_10 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) := by dsimp only [dat1]
theorem after1_11 (c : Dev nD) (t : Fin cfg1.N) :
    (dat1 V c).after 11 t = out1_11 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) := by dsimp only [dat1]
theorem after1_12 (c : Dev nD) (t : Fin cfg1.N) :
    (dat1 V c).after 12 t = out1_12 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) := by dsimp only [dat1]
theorem after1_13 (c : Dev nD) (t : Fin cfg1.N) :
    (dat1 V c).after 13 t = out1_13 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) := by dsimp only [dat1]

/-! Each input's current staging buffer holds its block at every point. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d
theorem before1_7 (c : Dev nD) (t : Fin cfg1.N) (d) : (dat1 V c).before 7 t d = iblk1 V c 7 t :=
  before1_7_of V (dat1 V c) (A_eq1 V c 7) (after1_7 V c) t d
theorem before1_8 (c : Dev nD) (t : Fin cfg1.N) (d) : (dat1 V c).before 8 t d = iblk1 V c 8 t :=
  before1_8_of V (dat1 V c) (A_eq1 V c 8) (after1_8 V c) t d
theorem before1_9 (c : Dev nD) (t : Fin cfg1.N) (d) : (dat1 V c).before 9 t d = iblk1 V c 9 t :=
  before1_9_of V (dat1 V c) (A_eq1 V c 9) (after1_9 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d))
    ∗ (∃ d, owns (c : Thread nD τ) (st1_9 t) fullShare ((dat1 V c).before 9 t d))
    ∗ (∃ d, owns (c : Thread nD τ) (st1_10 t) fullShare ((dat1 V c).before 10 t d))
    ∗ (∃ d, owns (c : Thread nD τ) (st1_11 t) fullShare ((dat1 V c).before 11 t d))
    ∗ (∃ d, owns (c : Thread nD τ) (st1_12 t) fullShare ((dat1 V c).before 12 t d))
    ∗ (∃ d, owns (c : Thread nD τ) (st1_13 t) fullShare ((dat1 V c).before 13 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t)
    ∗ owns (c : Thread nD τ) (st1_9 t) fullShare ((dat1 V c).after 9 t)
    ∗ owns (c : Thread nD τ) (st1_10 t) fullShare ((dat1 V c).after 10 t)
    ∗ owns (c : Thread nD τ) (st1_11 t) fullShare ((dat1 V c).after 11 t)
    ∗ owns (c : Thread nD τ) (st1_12 t) fullShare ((dat1 V c).after 12 t)
    ∗ owns (c : Thread nD τ) (st1_13 t) fullShare ((dat1 V c).after 13 t))

set_option maxHeartbeats 1000000 in
/-- The body at any point: the inputs' memrefs hold their blocks, so `sound_kernel1` applies; the invariant and the core's
    `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7, before1_8, before1_9]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8, after1_9, after1_10, after1_11, after1_12, after1_13]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
  iapply (sound_kernel1 c Set.univ (grid1.coords t) _ _ _ _ _ _ _ _ _ _ _ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  isplitl [H11]; · iexists _; iexact H11
  isplitl [H12]; · iexists _; iexact H12
  isplitl [H13]; · iexists _; iexact H13
  iintro ⟨H0, H1, H2, H3, H4, H5, H6, H7, H8, H9, H10, H11, H12, H13⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iexact H13

/-- The library's body obligation, at every point. -/
theorem body_obligation1 (c : Dev nD) : BodyObligation (dat1 (F := F) V c) (defs₀ (F := F)) Variants.none () Set.univ := fun t => by
  rw [bigSep_W1, bigSep_W1]
  exact sound_body1 V c t

/-! ## From the one block to the array

The grid has one point and every window's block is its whole array (every index map is constantly zero), so an input's
block IS its array as the launch finds it, and an output's array ends holding what the body left in its buffer. -/

theorem hz2 : (![0, 0] : Fin 2 → Nat) = fun _ => 0 := funext fun a => by fin_cases a <;> rfl

/-- Every window's block index is zero on both axes, at every point of the grid. -/
theorem idx_zero1 : ∀ t : Fin cfg1.N, (win1_0.index t (0 : Fin 2) = 0 ∧ win1_0.index t (1 : Fin 2) = 0)
    ∧ (win1_1.index t (0 : Fin 2) = 0 ∧ win1_1.index t (1 : Fin 2) = 0)
    ∧ (win1_2.index t (0 : Fin 2) = 0 ∧ win1_2.index t (1 : Fin 2) = 0)
    ∧ (win1_3.index t (0 : Fin 2) = 0 ∧ win1_3.index t (1 : Fin 2) = 0)
    ∧ (win1_4.index t (0 : Fin 2) = 0 ∧ win1_4.index t (1 : Fin 2) = 0)
    ∧ (win1_5.index t (0 : Fin 2) = 0 ∧ win1_5.index t (1 : Fin 2) = 0)
    ∧ (win1_6.index t (0 : Fin 2) = 0 ∧ win1_6.index t (1 : Fin 2) = 0)
    ∧ (win1_7.index t (0 : Fin 2) = 0 ∧ win1_7.index t (1 : Fin 2) = 0)
    ∧ (win1_8.index t (0 : Fin 2) = 0 ∧ win1_8.index t (1 : Fin 2) = 0)
    ∧ (win1_9.index t (0 : Fin 2) = 0 ∧ win1_9.index t (1 : Fin 2) = 0)
    ∧ (win1_10.index t (0 : Fin 2) = 0 ∧ win1_10.index t (1 : Fin 2) = 0)
    ∧ (win1_11.index t (0 : Fin 2) = 0 ∧ win1_11.index t (1 : Fin 2) = 0)
    ∧ (win1_12.index t (0 : Fin 2) = 0 ∧ win1_12.index t (1 : Fin 2) = 0)
    ∧ (win1_13.index t (0 : Fin 2) = 0 ∧ win1_13.index t (1 : Fin 2) = 0) :=
  (by decide +kernel : ∀ t : Fin grid1.N, _)

/-! The ten input arrays, whole, as the launch finds them. -/
abbrev arr1_0 (c : Dev nD) : Vec F S64x160 .f32 := V c (Pipeline.arrRef spec1 0)
abbrev arr1_1 (c : Dev nD) : Vec F S64x160 .f32 := V c (Pipeline.arrRef spec1 1)
abbrev arr1_2 (c : Dev nD) : Vec F S64x160 .f32 := V c (Pipeline.arrRef spec1 2)
abbrev arr1_3 (c : Dev nD) : Vec F S64x160 .f32 := V c (Pipeline.arrRef spec1 3)
abbrev arr1_4 (c : Dev nD) : Vec F S64x160 .f32 := V c (Pipeline.arrRef spec1 4)
abbrev arr1_5 (c : Dev nD) : Vec F S64x160 .f32 := V c (Pipeline.arrRef spec1 5)
abbrev arr1_6 (c : Dev nD) : Vec F S64x160 .f32 := V c (Pipeline.arrRef spec1 6)
abbrev arr1_7 (c : Dev nD) : Vec F S64x160 .f32 := V c (Pipeline.arrRef spec1 7)
abbrev arr1_8 (c : Dev nD) : Vec F S64x160 .f32 := V c (Pipeline.arrRef spec1 8)
abbrev arr1_9 (c : Dev nD) : Vec F S64x160 .f32 := V c (Pipeline.arrRef spec1 9)

/-! An input window's block, at any point, is its whole array. -/
theorem iblk1_whole_0 (c : Dev nD) (t : Fin cfg1.N) : (iblk1 V c 0 t : Vec F S64x160 .f32) = arr1_0 V c := by
  funext y
  show V c main_v108 (((cfg1.win 0).blk t).view.emb y) = V c main_v108 y
  refine congrArg _ ?_
  have e := idx_zero1 t
  funext a; apply Fin.ext
  match a with
  | ⟨0, _⟩ => show win1_0.index t (0 : Fin 2) * 64 + 1 * (y 0).val = (y 0).val; omega
  | ⟨1, _⟩ => show win1_0.index t (1 : Fin 2) * 160 + 1 * (y 1).val = (y 1).val; omega
theorem iblk1_whole_1 (c : Dev nD) (t : Fin cfg1.N) : (iblk1 V c 1 t : Vec F S64x160 .f32) = arr1_1 V c := by
  funext y
  show V c main_v110 (((cfg1.win 1).blk t).view.emb y) = V c main_v110 y
  refine congrArg _ ?_
  have e := idx_zero1 t
  funext a; apply Fin.ext
  match a with
  | ⟨0, _⟩ => show win1_1.index t (0 : Fin 2) * 64 + 1 * (y 0).val = (y 0).val; omega
  | ⟨1, _⟩ => show win1_1.index t (1 : Fin 2) * 160 + 1 * (y 1).val = (y 1).val; omega
theorem iblk1_whole_2 (c : Dev nD) (t : Fin cfg1.N) : (iblk1 V c 2 t : Vec F S64x160 .f32) = arr1_2 V c := by
  funext y
  show V c main_v112 (((cfg1.win 2).blk t).view.emb y) = V c main_v112 y
  refine congrArg _ ?_
  have e := idx_zero1 t
  funext a; apply Fin.ext
  match a with
  | ⟨0, _⟩ => show win1_2.index t (0 : Fin 2) * 64 + 1 * (y 0).val = (y 0).val; omega
  | ⟨1, _⟩ => show win1_2.index t (1 : Fin 2) * 160 + 1 * (y 1).val = (y 1).val; omega
theorem iblk1_whole_3 (c : Dev nD) (t : Fin cfg1.N) : (iblk1 V c 3 t : Vec F S64x160 .f32) = arr1_3 V c := by
  funext y
  show V c main_v114 (((cfg1.win 3).blk t).view.emb y) = V c main_v114 y
  refine congrArg _ ?_
  have e := idx_zero1 t
  funext a; apply Fin.ext
  match a with
  | ⟨0, _⟩ => show win1_3.index t (0 : Fin 2) * 64 + 1 * (y 0).val = (y 0).val; omega
  | ⟨1, _⟩ => show win1_3.index t (1 : Fin 2) * 160 + 1 * (y 1).val = (y 1).val; omega
theorem iblk1_whole_4 (c : Dev nD) (t : Fin cfg1.N) : (iblk1 V c 4 t : Vec F S64x160 .f32) = arr1_4 V c := by
  funext y
  show V c main_v116 (((cfg1.win 4).blk t).view.emb y) = V c main_v116 y
  refine congrArg _ ?_
  have e := idx_zero1 t
  funext a; apply Fin.ext
  match a with
  | ⟨0, _⟩ => show win1_4.index t (0 : Fin 2) * 64 + 1 * (y 0).val = (y 0).val; omega
  | ⟨1, _⟩ => show win1_4.index t (1 : Fin 2) * 160 + 1 * (y 1).val = (y 1).val; omega
theorem iblk1_whole_5 (c : Dev nD) (t : Fin cfg1.N) : (iblk1 V c 5 t : Vec F S64x160 .f32) = arr1_5 V c := by
  funext y
  show V c main_v118 (((cfg1.win 5).blk t).view.emb y) = V c main_v118 y
  refine congrArg _ ?_
  have e := idx_zero1 t
  funext a; apply Fin.ext
  match a with
  | ⟨0, _⟩ => show win1_5.index t (0 : Fin 2) * 64 + 1 * (y 0).val = (y 0).val; omega
  | ⟨1, _⟩ => show win1_5.index t (1 : Fin 2) * 160 + 1 * (y 1).val = (y 1).val; omega
theorem iblk1_whole_6 (c : Dev nD) (t : Fin cfg1.N) : (iblk1 V c 6 t : Vec F S64x160 .f32) = arr1_6 V c := by
  funext y
  show V c main_v120 (((cfg1.win 6).blk t).view.emb y) = V c main_v120 y
  refine congrArg _ ?_
  have e := idx_zero1 t
  funext a; apply Fin.ext
  match a with
  | ⟨0, _⟩ => show win1_6.index t (0 : Fin 2) * 64 + 1 * (y 0).val = (y 0).val; omega
  | ⟨1, _⟩ => show win1_6.index t (1 : Fin 2) * 160 + 1 * (y 1).val = (y 1).val; omega
theorem iblk1_whole_7 (c : Dev nD) (t : Fin cfg1.N) : (iblk1 V c 7 t : Vec F S64x160 .f32) = arr1_7 V c := by
  funext y
  show V c main_v122 (((cfg1.win 7).blk t).view.emb y) = V c main_v122 y
  refine congrArg _ ?_
  have e := idx_zero1 t
  funext a; apply Fin.ext
  match a with
  | ⟨0, _⟩ => show win1_7.index t (0 : Fin 2) * 64 + 1 * (y 0).val = (y 0).val; omega
  | ⟨1, _⟩ => show win1_7.index t (1 : Fin 2) * 160 + 1 * (y 1).val = (y 1).val; omega
theorem iblk1_whole_8 (c : Dev nD) (t : Fin cfg1.N) : (iblk1 V c 8 t : Vec F S64x160 .f32) = arr1_8 V c := by
  funext y
  show V c main_v95 (((cfg1.win 8).blk t).view.emb y) = V c main_v95 y
  refine congrArg _ ?_
  have e := idx_zero1 t
  funext a; apply Fin.ext
  match a with
  | ⟨0, _⟩ => show win1_8.index t (0 : Fin 2) * 64 + 1 * (y 0).val = (y 0).val; omega
  | ⟨1, _⟩ => show win1_8.index t (1 : Fin 2) * 160 + 1 * (y 1).val = (y 1).val; omega
theorem iblk1_whole_9 (c : Dev nD) (t : Fin cfg1.N) : (iblk1 V c 9 t : Vec F S64x160 .f32) = arr1_9 V c := by
  funext y
  show V c main_v106 (((cfg1.win 9).blk t).view.emb y) = V c main_v106 y
  refine congrArg _ ?_
  have e := idx_zero1 t
  funext a; apply Fin.ext
  match a with
  | ⟨0, _⟩ => show win1_9.index t (0 : Fin 2) * 64 + 1 * (y 0).val = (y 0).val; omega
  | ⟨1, _⟩ => show win1_9.index t (1 : Fin 2) * 160 + 1 * (y 1).val = (y 1).val; omega

/-- A whole load reads the buffer's contents. -/
theorem ld_r1_0 (X : Vec F S64x160 .f32) : View.ld X r1_0 = X := View.ld_unit_zero (S := S64x160) hz2 _ X
/-- One whole store leaves its payload. -/
theorem canon_r1_1 (p : Vec F S1x1 .f32) : View.canon [(⟨r1_1, p⟩ : View.Piece (Elt F) S1x1 .f32)] = p := View.canon_unit_zero hz2 _ p

/-- What the one point writes back of window 10 is its block of `out1_10` of the whole input arrays. -/
theorem flushed1_10_eq (c : Dev nD) (t : Fin cfg1.N) :
    (dat1 V c).flushed 10 t = ((cfg1.win 10).blk t).view.read (Elt F) (out1_10 (arr1_0 V c) (arr1_1 V c) (arr1_2 V c) (arr1_3 V c) (arr1_4 V c) (arr1_5 V c) (arr1_6 V c) (arr1_7 V c) (arr1_8 V c) (arr1_9 V c)) := by
  show (cfg1.win 10).cut (grid1.coords t) ((dat1 V c).after 10 t) = _
  rw [after1_10, iblk1_whole_0, iblk1_whole_1, iblk1_whole_2, iblk1_whole_3, iblk1_whole_4, iblk1_whole_5, iblk1_whole_6, iblk1_whole_7, iblk1_whole_8, iblk1_whole_9]
  have e := idx_zero1 t
  funext j
  show out1_10 (arr1_0 V c) (arr1_1 V c) (arr1_2 V c) (arr1_3 V c) (arr1_4 V c) (arr1_5 V c) (arr1_6 V c) (arr1_7 V c) (arr1_8 V c) (arr1_9 V c) j = out1_10 (arr1_0 V c) (arr1_1 V c) (arr1_2 V c) (arr1_3 V c) (arr1_4 V c) (arr1_5 V c) (arr1_6 V c) (arr1_7 V c) (arr1_8 V c) (arr1_9 V c) (((cfg1.win 10).blk t).view.emb j)
  refine congrArg _ ?_
  funext a; apply Fin.ext
  match a with
  | ⟨0, _⟩ => show (j 0).val = win1_10.index t (0 : Fin 2) * 1 + 1 * (j 0).val; omega
  | ⟨1, _⟩ => show (j 1).val = win1_10.index t (1 : Fin 2) * 1 + 1 * (j 1).val; omega

/-- The one point's block of window 10 is the whole [1,1] array. -/
theorem cover1_10 (c : Dev nD) (i : S1x1.Idx) :
    ∃ t : Fin cfg1.N, (cfg1.win 10).flush t = true ∧ i ∈ ((cfg1.win 10).blk t).view.set := by
  refine ⟨t1_0, flush1_10 t1_0, ?_⟩
  have e := idx_zero1 t1_0
  show i ∈ ((View.whole main_v123_0).slice (win1_10.rect t1_0)).set
  rw [View.set_slice_whole, Rect.mem_set_unit]
  intro a
  match a with
  | ⟨0, _⟩ => show win1_10.index t1_0 (0 : Fin 2) * 1 ≤ (i 0).val ∧ (i 0).val < win1_10.index t1_0 (0 : Fin 2) * 1 + 1; have h0 : (i 0).val < 1 := (i 0).isLt; omega
  | ⟨1, _⟩ => show win1_10.index t1_0 (1 : Fin 2) * 1 ≤ (i 1).val ∧ (i 1).val < win1_10.index t1_0 (1 : Fin 2) * 1 + 1; have h1 : (i 1).val < 1 := (i 1).isLt; omega

/-- Output array 10 after the launch: `out1_10` of the ten whole input arrays. -/
theorem final1_10 (c : Dev nD) : (dat1 V c).arrAt 10 cfg1.N = out1_10 (arr1_0 V c) (arr1_1 V c) (arr1_2 V c) (arr1_3 V c) (arr1_4 V c) (arr1_5 V c) (arr1_6 V c) (arr1_7 V c) (arr1_8 V c) (arr1_9 V c) :=
  (dat1 V c).arrAt_eq_of_cover 10 (out1_10 (arr1_0 V c) (arr1_1 V c) (arr1_2 V c) (arr1_3 V c) (arr1_4 V c) (arr1_5 V c) (arr1_6 V c) (arr1_7 V c) (arr1_8 V c) (arr1_9 V c)) (fun t _ => flushed1_10_eq V c t) (cover1_10 c)

/-- What the one point writes back of window 11 is its block of `out1_11` of the whole input arrays. -/
theorem flushed1_11_eq (c : Dev nD) (t : Fin cfg1.N) :
    (dat1 V c).flushed 11 t = ((cfg1.win 11).blk t).view.read (Elt F) (out1_11 (arr1_0 V c) (arr1_1 V c) (arr1_2 V c) (arr1_3 V c) (arr1_4 V c) (arr1_5 V c) (arr1_6 V c) (arr1_7 V c) (arr1_8 V c) (arr1_9 V c)) := by
  show (cfg1.win 11).cut (grid1.coords t) ((dat1 V c).after 11 t) = _
  rw [after1_11, iblk1_whole_0, iblk1_whole_1, iblk1_whole_2, iblk1_whole_3, iblk1_whole_4, iblk1_whole_5, iblk1_whole_6, iblk1_whole_7, iblk1_whole_8, iblk1_whole_9]
  have e := idx_zero1 t
  funext j
  show out1_11 (arr1_0 V c) (arr1_1 V c) (arr1_2 V c) (arr1_3 V c) (arr1_4 V c) (arr1_5 V c) (arr1_6 V c) (arr1_7 V c) (arr1_8 V c) (arr1_9 V c) j = out1_11 (arr1_0 V c) (arr1_1 V c) (arr1_2 V c) (arr1_3 V c) (arr1_4 V c) (arr1_5 V c) (arr1_6 V c) (arr1_7 V c) (arr1_8 V c) (arr1_9 V c) (((cfg1.win 11).blk t).view.emb j)
  refine congrArg _ ?_
  funext a; apply Fin.ext
  match a with
  | ⟨0, _⟩ => show (j 0).val = win1_11.index t (0 : Fin 2) * 1 + 1 * (j 0).val; omega
  | ⟨1, _⟩ => show (j 1).val = win1_11.index t (1 : Fin 2) * 1 + 1 * (j 1).val; omega

/-- The one point's block of window 11 is the whole [1,1] array. -/
theorem cover1_11 (c : Dev nD) (i : S1x1.Idx) :
    ∃ t : Fin cfg1.N, (cfg1.win 11).flush t = true ∧ i ∈ ((cfg1.win 11).blk t).view.set := by
  refine ⟨t1_0, flush1_11 t1_0, ?_⟩
  have e := idx_zero1 t1_0
  show i ∈ ((View.whole main_v123_1).slice (win1_11.rect t1_0)).set
  rw [View.set_slice_whole, Rect.mem_set_unit]
  intro a
  match a with
  | ⟨0, _⟩ => show win1_11.index t1_0 (0 : Fin 2) * 1 ≤ (i 0).val ∧ (i 0).val < win1_11.index t1_0 (0 : Fin 2) * 1 + 1; have h0 : (i 0).val < 1 := (i 0).isLt; omega
  | ⟨1, _⟩ => show win1_11.index t1_0 (1 : Fin 2) * 1 ≤ (i 1).val ∧ (i 1).val < win1_11.index t1_0 (1 : Fin 2) * 1 + 1; have h1 : (i 1).val < 1 := (i 1).isLt; omega

/-- Output array 11 after the launch: `out1_11` of the ten whole input arrays. -/
theorem final1_11 (c : Dev nD) : (dat1 V c).arrAt 11 cfg1.N = out1_11 (arr1_0 V c) (arr1_1 V c) (arr1_2 V c) (arr1_3 V c) (arr1_4 V c) (arr1_5 V c) (arr1_6 V c) (arr1_7 V c) (arr1_8 V c) (arr1_9 V c) :=
  (dat1 V c).arrAt_eq_of_cover 11 (out1_11 (arr1_0 V c) (arr1_1 V c) (arr1_2 V c) (arr1_3 V c) (arr1_4 V c) (arr1_5 V c) (arr1_6 V c) (arr1_7 V c) (arr1_8 V c) (arr1_9 V c)) (fun t _ => flushed1_11_eq V c t) (cover1_11 c)

/-- What the one point writes back of window 12 is its block of `out1_12` of the whole input arrays. -/
theorem flushed1_12_eq (c : Dev nD) (t : Fin cfg1.N) :
    (dat1 V c).flushed 12 t = ((cfg1.win 12).blk t).view.read (Elt F) (out1_12 (arr1_0 V c) (arr1_1 V c) (arr1_2 V c) (arr1_3 V c) (arr1_4 V c) (arr1_5 V c) (arr1_6 V c) (arr1_7 V c) (arr1_8 V c) (arr1_9 V c)) := by
  show (cfg1.win 12).cut (grid1.coords t) ((dat1 V c).after 12 t) = _
  rw [after1_12, iblk1_whole_0, iblk1_whole_1, iblk1_whole_2, iblk1_whole_3, iblk1_whole_4, iblk1_whole_5, iblk1_whole_6, iblk1_whole_7, iblk1_whole_8, iblk1_whole_9]
  have e := idx_zero1 t
  funext j
  show out1_12 (arr1_0 V c) (arr1_1 V c) (arr1_2 V c) (arr1_3 V c) (arr1_4 V c) (arr1_5 V c) (arr1_6 V c) (arr1_7 V c) (arr1_8 V c) (arr1_9 V c) j = out1_12 (arr1_0 V c) (arr1_1 V c) (arr1_2 V c) (arr1_3 V c) (arr1_4 V c) (arr1_5 V c) (arr1_6 V c) (arr1_7 V c) (arr1_8 V c) (arr1_9 V c) (((cfg1.win 12).blk t).view.emb j)
  refine congrArg _ ?_
  funext a; apply Fin.ext
  match a with
  | ⟨0, _⟩ => show (j 0).val = win1_12.index t (0 : Fin 2) * 1 + 1 * (j 0).val; omega
  | ⟨1, _⟩ => show (j 1).val = win1_12.index t (1 : Fin 2) * 1 + 1 * (j 1).val; omega

/-- The one point's block of window 12 is the whole [1,1] array. -/
theorem cover1_12 (c : Dev nD) (i : S1x1.Idx) :
    ∃ t : Fin cfg1.N, (cfg1.win 12).flush t = true ∧ i ∈ ((cfg1.win 12).blk t).view.set := by
  refine ⟨t1_0, flush1_12 t1_0, ?_⟩
  have e := idx_zero1 t1_0
  show i ∈ ((View.whole main_v123_2).slice (win1_12.rect t1_0)).set
  rw [View.set_slice_whole, Rect.mem_set_unit]
  intro a
  match a with
  | ⟨0, _⟩ => show win1_12.index t1_0 (0 : Fin 2) * 1 ≤ (i 0).val ∧ (i 0).val < win1_12.index t1_0 (0 : Fin 2) * 1 + 1; have h0 : (i 0).val < 1 := (i 0).isLt; omega
  | ⟨1, _⟩ => show win1_12.index t1_0 (1 : Fin 2) * 1 ≤ (i 1).val ∧ (i 1).val < win1_12.index t1_0 (1 : Fin 2) * 1 + 1; have h1 : (i 1).val < 1 := (i 1).isLt; omega

/-- Output array 12 after the launch: `out1_12` of the ten whole input arrays. -/
theorem final1_12 (c : Dev nD) : (dat1 V c).arrAt 12 cfg1.N = out1_12 (arr1_0 V c) (arr1_1 V c) (arr1_2 V c) (arr1_3 V c) (arr1_4 V c) (arr1_5 V c) (arr1_6 V c) (arr1_7 V c) (arr1_8 V c) (arr1_9 V c) :=
  (dat1 V c).arrAt_eq_of_cover 12 (out1_12 (arr1_0 V c) (arr1_1 V c) (arr1_2 V c) (arr1_3 V c) (arr1_4 V c) (arr1_5 V c) (arr1_6 V c) (arr1_7 V c) (arr1_8 V c) (arr1_9 V c)) (fun t _ => flushed1_12_eq V c t) (cover1_12 c)

/-- What the one point writes back of window 13 is its block of `out1_13` of the whole input arrays. -/
theorem flushed1_13_eq (c : Dev nD) (t : Fin cfg1.N) :
    (dat1 V c).flushed 13 t = ((cfg1.win 13).blk t).view.read (Elt F) (out1_13 (arr1_0 V c) (arr1_1 V c) (arr1_2 V c) (arr1_3 V c) (arr1_4 V c) (arr1_5 V c) (arr1_6 V c) (arr1_7 V c) (arr1_8 V c) (arr1_9 V c)) := by
  show (cfg1.win 13).cut (grid1.coords t) ((dat1 V c).after 13 t) = _
  rw [after1_13, iblk1_whole_0, iblk1_whole_1, iblk1_whole_2, iblk1_whole_3, iblk1_whole_4, iblk1_whole_5, iblk1_whole_6, iblk1_whole_7, iblk1_whole_8, iblk1_whole_9]
  have e := idx_zero1 t
  funext j
  show out1_13 (arr1_0 V c) (arr1_1 V c) (arr1_2 V c) (arr1_3 V c) (arr1_4 V c) (arr1_5 V c) (arr1_6 V c) (arr1_7 V c) (arr1_8 V c) (arr1_9 V c) j = out1_13 (arr1_0 V c) (arr1_1 V c) (arr1_2 V c) (arr1_3 V c) (arr1_4 V c) (arr1_5 V c) (arr1_6 V c) (arr1_7 V c) (arr1_8 V c) (arr1_9 V c) (((cfg1.win 13).blk t).view.emb j)
  refine congrArg _ ?_
  funext a; apply Fin.ext
  match a with
  | ⟨0, _⟩ => show (j 0).val = win1_13.index t (0 : Fin 2) * 1 + 1 * (j 0).val; omega
  | ⟨1, _⟩ => show (j 1).val = win1_13.index t (1 : Fin 2) * 1 + 1 * (j 1).val; omega

/-- The one point's block of window 13 is the whole [1,1] array. -/
theorem cover1_13 (c : Dev nD) (i : S1x1.Idx) :
    ∃ t : Fin cfg1.N, (cfg1.win 13).flush t = true ∧ i ∈ ((cfg1.win 13).blk t).view.set := by
  refine ⟨t1_0, flush1_13 t1_0, ?_⟩
  have e := idx_zero1 t1_0
  show i ∈ ((View.whole main_v123_3).slice (win1_13.rect t1_0)).set
  rw [View.set_slice_whole, Rect.mem_set_unit]
  intro a
  match a with
  | ⟨0, _⟩ => show win1_13.index t1_0 (0 : Fin 2) * 1 ≤ (i 0).val ∧ (i 0).val < win1_13.index t1_0 (0 : Fin 2) * 1 + 1; have h0 : (i 0).val < 1 := (i 0).isLt; omega
  | ⟨1, _⟩ => show win1_13.index t1_0 (1 : Fin 2) * 1 ≤ (i 1).val ∧ (i 1).val < win1_13.index t1_0 (1 : Fin 2) * 1 + 1; have h1 : (i 1).val < 1 := (i 1).isLt; omega

/-- Output array 13 after the launch: `out1_13` of the ten whole input arrays. -/
theorem final1_13 (c : Dev nD) : (dat1 V c).arrAt 13 cfg1.N = out1_13 (arr1_0 V c) (arr1_1 V c) (arr1_2 V c) (arr1_3 V c) (arr1_4 V c) (arr1_5 V c) (arr1_6 V c) (arr1_7 V c) (arr1_8 V c) (arr1_9 V c) :=
  (dat1 V c).arrAt_eq_of_cover 13 (out1_13 (arr1_0 V c) (arr1_1 V c) (arr1_2 V c) (arr1_3 V c) (arr1_4 V c) (arr1_5 V c) (arr1_6 V c) (arr1_7 V c) (arr1_8 V c) (arr1_9 V c)) (fun t _ => flushed1_13_eq V c t) (cover1_13 c)

/-! The same, with the whole loads and the one store read away: each output array is its payload of the whole input arrays. -/
theorem out1_10_eq (x0 x1 x2 x3 x4 x5 x6 x7 x8 x9 : Vec F S64x160 .f32) :
    out1_10 x0 x1 x2 x3 x4 x5 x6 x7 x8 x9 = k1_pay1 (negLogIou x0 x1 x2 x3 x4 x5 x6 x7) := canon_r1_1 _
theorem out1_11_eq (x0 x1 x2 x3 x4 x5 x6 x7 x8 x9 : Vec F S64x160 .f32) :
    out1_11 x0 x1 x2 x3 x4 x5 x6 x7 x8 x9 = k1_pay2 (oneMinusGiou x0 x1 x2 x3 x4 x5 x6 x7) := canon_r1_1 _
theorem out1_12_eq (x0 x1 x2 x3 x4 x5 x6 x7 x8 x9 : Vec F S64x160 .f32) :
    out1_12 x0 x1 x2 x3 x4 x5 x6 x7 x8 x9 = k1_pay3 (cornerLoss x0 x1 x2 x3 x4 x5 x6 x7) := canon_r1_1 _
theorem out1_13_eq (x0 x1 x2 x3 x4 x5 x6 x7 x8 x9 : Vec F S64x160 .f32) :
    out1_13 x0 x1 x2 x3 x4 x5 x6 x7 x8 x9 = k1_pay4 (k1_pay28 x9) (k1_pay29 x8) (k1_pay30 x8) := by
  unfold out1_13; rw [canon_r1_1, ld_r1_0, ld_r1_0]

/-- An input array is as the launch found it, after the launch. -/
theorem arrAt1_in (c : Dev nD) (w : Fin cfg1.W) (hw : w.val < 10) : (dat1 V c).arrAt w cfg1.N = V c (Pipeline.arrRef spec1 w) := by
  have hin : (cfg1.win w).isOut = false := by
    match w, hw with
    | ⟨0, _⟩, _ => rfl
    | ⟨1, _⟩, _ => rfl
    | ⟨2, _⟩, _ => rfl
    | ⟨3, _⟩, _ => rfl
    | ⟨4, _⟩, _ => rfl
    | ⟨5, _⟩, _ => rfl
    | ⟨6, _⟩, _ => rfl
    | ⟨7, _⟩, _ => rfl
    | ⟨8, _⟩, _ => rfl
    | ⟨9, _⟩, _ => rfl
    | ⟨k + 10, _⟩, h => exact absurd h (by simp)
  exact ((dat1 V c).arrAt_in w hin _).trans (A_eq1 V c w)

end Cert.KernelIdeal.BoxConf

end
-- ==== Proof.KernelRunIdeal.lean ====
/-
  The kernel program's run, from the launch to the return.

  @main is: the text-map reduction (region 0), seventeen stretches of host operations, the box/confidence reduction
  (region 1), a last stretch of host operations. Between two items a core's unscoped buffers are held whole at a
  valuation: the launch memory, then what region 0 leaves in its four result buffers (the accumulated sums, read off its
  proof data), then each host stretch applied in turn, then what region 1 leaves in its four result buffers. Every
  weakly fair execution terminates, and at the end every unscoped buffer holds the last valuation's contents: the five
  argument arrays as launched (no item writes one) and the four scalar results as the last stretch computes them.
-/
import proofs.«167267_j69861938037475_1_alg».proof.Proof.TextMapIdeal
import proofs.«167267_j69861938037475_1_alg».proof.Proof.BoxConfIdeal
import proofs.«167267_j69861938037475_1_alg».proof.Proof.Gen.KernelIdeal.Regions
import Idealize.ShloMosaic.Lib.Pipeline.Frame
import Idealize.ShloMosaic.Lib.Pipeline.FrameSuffix
import Idealize.ShloMosaic.Lib.Pipeline.Regions
import Idealize.ShloMosaic.Lib.Pipeline.RegionsLoop
import Idealize.ShloMosaic.Lib.Pipeline.Kit

set_option maxRecDepth 4096

noncomputable section

namespace Cert.KernelIdeal.Run

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

local notation "𝕄" => MT nD τ sig Unit (Elt F) ℕ (UR sig nD τ) ℕ

variable (m : (ℓ : Loc nD τ sig) → Buf (Elt F) ℓ)

/-! ## The contents between items -/

/-- Region 0's entry contents at the TensorCore's references: the launch memory. -/
abbrev E0 : (c : Dev nD) → (b : Ref sig .tc) → Buf (Elt F) ((c : Thread nD τ).loc b) := fun c b => V0 m c b

/-- At region 0's exit: its arrays at what the pipeline leaves, every other buffer as entered. -/
def X1 (c : Dev nD) : Valuation τ sig (Elt F) :=
  Pipeline.withArrays spec0 c (V0 m c) fun w => (TextMap.dat0 (E0 m) c).arrAt w cfg0.N

theorem X1_arr (c : Dev nD) (w : Fin cfg0.W) :
    X1 m c (Proc.devRef .tc (Pipeline.arrRef spec0 w)) = (TextMap.dat0 (E0 m) c).arrAt w cfg0.N := by
  unfold X1; exact Pipeline.withArrays_arr spec0 launch0.win.arr_inj c _ _ w

/-- What region 0 leaves, as the unknowns the generated valuations are written over. -/
def outs1 : Outs (F := F) := fun _ r c => X1 m c r

/-- Region 1's entry contents: region 0's results, then the seventeen host stretches. -/
abbrev E18 : (c : Dev nD) → (b : Ref sig .tc) → Buf (Elt F) ((c : Thread nD τ).loc b) := fun c b => V18 m (outs1 m) c b

/-- At region 1's exit: its arrays at what the pipeline leaves, every other buffer as entered. -/
def X19 (c : Dev nD) : Valuation τ sig (Elt F) :=
  Pipeline.withArrays spec1 c (V18 m (outs1 m) c) fun w => (BoxConf.dat1 (E18 m) c).arrAt w cfg1.N

theorem X19_arr (c : Dev nD) (w : Fin cfg1.W) :
    X19 m c (Proc.devRef .tc (Pipeline.arrRef spec1 w)) = (BoxConf.dat1 (E18 m) c).arrAt w cfg1.N := by
  unfold X19; exact Pipeline.withArrays_arr spec1 launch1.win.arr_inj c _ _ w

/-- What both regions leave: after item 0 region 0's results, after item 18 region 1's. -/
def outs : Outs (F := F) := fun J r c => if J = 1 then X1 m c r else X19 m c r

theorem V1_outs (c : Dev nD) : V1 m (outs m) c = V1 m (outs1 m) c := rfl

theorem V18_outs (c : Dev nD) : V18 m (outs m) c = V18 m (outs1 m) c := by
  dsimp only [V18, V17, V16, V15, V14, V13, V12, V11, V10, V9, V8, V7, V6, V5, V4, V3, V2]
  rw [V1_outs]

/-! ## The proof data family -/

def pdats : (p : Fin 2) → (c : Dev nD) → Dat τ (Elt F) Unit ℕ (UR sig nD τ) ℕ (cfgs p) c
  | ⟨0, _⟩ => fun c => TextMap.dat0 (E0 m) c
  | ⟨1, _⟩ => fun c => BoxConf.dat1 (E18 m) c

abbrev L : GSem nD τ sig → Finset Unit := fun _ => ∅
abbrev lv : GSem nD τ sig → Unit → ℕ := fun _ _ => 0

/-- What rides beside the buffers through every item: the core's generator register at some state and its dues, at nothing. -/
def R (c : Dev nD) : sProp 𝕄 := iprop((∃ r, prngReg c r) ∗ ∃ W, owes (c : Thread nD τ) (0 : CellTallies nD τ sig Unit) W)

/-! ## The regions as segments -/

theorem V1_at0 (c : Dev nD) : V1 m (outs1 m) c main_v0_0 = X1 m c main_v0_0 := by
  unfold V1
  rw [Function.update_of_ne (StableHlo.devRef_ne_of_ne (by decide)), Function.update_of_ne (StableHlo.devRef_ne_of_ne (by decide)),
    Function.update_of_ne (StableHlo.devRef_ne_of_ne (by decide)), Function.update_self]
  rfl
theorem V1_at1 (c : Dev nD) : V1 m (outs1 m) c main_v0_1 = X1 m c main_v0_1 := by
  unfold V1
  rw [Function.update_of_ne (StableHlo.devRef_ne_of_ne (by decide)), Function.update_of_ne (StableHlo.devRef_ne_of_ne (by decide)),
    Function.update_self]
  rfl
theorem V1_at2 (c : Dev nD) : V1 m (outs1 m) c main_v0_2 = X1 m c main_v0_2 := by
  unfold V1
  rw [Function.update_of_ne (StableHlo.devRef_ne_of_ne (by decide)), Function.update_self]
  rfl
theorem V1_at3 (c : Dev nD) : V1 m (outs1 m) c main_v0_3 = X1 m c main_v0_3 := by
  unfold V1
  rw [Function.update_self]
  rfl

theorem hF0' (c : Dev nD) : ∀ w : Fin 6,
    (TextMap.dat0 (E0 m) c).arrAt w cfg0.N = V1 m (outs1 m) c (Pipeline.arrRef spec0 w) := fun
  | 0 => (((TextMap.dat0 (E0 m) c).arrAt_in 0 rfl _).trans (TextMap.A_eq0 (E0 m) c 0)).trans (V1_of m (outs1 m) c main_arg0 (by decide)).symm
  | 1 => (((TextMap.dat0 (E0 m) c).arrAt_in 1 rfl _).trans (TextMap.A_eq0 (E0 m) c 1)).trans (V1_of m (outs1 m) c main_arg3 (by decide)).symm
  | 2 => ((V1_at0 m c).trans (X1_arr m c 2)).symm
  | 3 => ((V1_at1 m c).trans (X1_arr m c 3)).symm
  | 4 => ((V1_at2 m c).trans (X1_arr m c 4)).symm
  | 5 => ((V1_at3 m c).trans (X1_arr m c 5)).symm

theorem hF0 (c : Dev nD) (w : Fin cfg0.W) :
    (pdats m 0 c).arrAt w cfg0.N = (fun b : Ref sig .tc => V1 m (outs m) c b) (Pipeline.arrRef spec0 w) :=
  hF0' m c w

theorem hrest0 (c : Dev nD) : ∀ b : Ref sig .tc, b ∉ Finset.univ.image (Pipeline.arrRef spec0) →
    (fun b : Ref sig .tc => V1 m (outs m) c b) b = E0 m c b := fun b hb =>
  V1_of m (outs m) c b (by
    intro h
    simp only [List.mem_cons, List.mem_nil_iff, or_false] at h
    rcases h with rfl | rfl | rfl | rfl
    · exact hb (Finset.mem_image.mpr ⟨2, Finset.mem_univ _, rfl⟩)
    · exact hb (Finset.mem_image.mpr ⟨3, Finset.mem_univ _, rfl⟩)
    · exact hb (Finset.mem_image.mpr ⟨4, Finset.mem_univ _, rfl⟩)
    · exact hb (Finset.mem_image.mpr ⟨5, Finset.mem_univ _, rfl⟩))

set_option backward.isDefEq.respectTransparency.types false in
/-- Region 0 over the thread state: entered from the launch contents, left at the valuation that has its four result
    buffers at the accumulated sums. -/
def reg0 : RegionSeg (pcfgs (F := F)) adm (pdats m) () defs₀ Variants.none L lv 0 where
  win := launch0.win.to₀
  block_pos := launch0.block_pos
  stage_whole := launch0.stage_whole
  K := PEmpty
  osem k := k.elim
  ho := Pipeline.OwnSemFacts.none _
  hbody c := (TextMap.body_obligation0 (E0 m) c).loose
  hwaits := Pipeline.hwaits_of_owed_zero _ _ _ _ L lv 0 fun c t => TextMap.owed0 (E0 m) c t
  pre c := iprop(StableHlo.held (c : Thread nD τ) (Pipeline.ucRefs τ sig) (V0 m c) ∗ R c)
  post c := iprop(StableHlo.held (c : Thread nD τ) (Pipeline.ucRefs τ sig) (V1 m (outs m) c) ∗ R c)
  X c := iprop(∃ r, prngReg c r)
  Y c := iprop(∃ r, prngReg c r)
  Z c := Pipeline.unscopedRest (Ix := Unit) (Name := ℕ) (U := UR sig nD τ) (Lvl := ℕ) spec0 c (E0 m c)
  hentry c := by
    unfold R
    rw [Pipeline.ownSems0_none]
    have hsplit := Pipeline.arrays_of_unscopedBufs (p := 0) (pcfgs (F := F)) adm (pdats m) launch0.win launch0.arr_whole c
      ((pdats m 0 c).share_full (TextMap.q0 (E0 m) c)) (E0 m c) fun w => TextMap.A_eq0 (E0 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = (TextMap.dat0 (E0 m) c).Φ 0 from rfl]
    iintro ⟨Hp, -, Hr⟩
    iapply (TextMap.hin0 (E0 m) c)
    unfold Pipeline.ΦA
    isplitl [Hr]; · iexact Hr
    iexact Hp
  hout c := by
    rw [Pipeline.ownSems0_none]
    rw [show (pdats m 0 c).Φ (Fin.last (Pipeline.pin (pcfgs (F := F)) adm 0).N) = (TextMap.dat0 (E0 m) c).Φ (Fin.last cfg0.N) from rfl]
    refine (TextMap.hout0 (E0 m) c).trans ?_
    unfold Pipeline.ΦA
    iintro ⟨Hr, Hp⟩
    isplitl [Hp]; · iexact Hp
    isplitr; · iempintro
    iexact Hr
  hexit c := by
    unfold R
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full (TextMap.q0 (E0 m) c))
      (E0 m c) (fun b : Ref sig .tc => V1 m (outs m) c b) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [show (pdats m 0 c).owed (Fin.last (Pipeline.pin (pcfgs (F := F)) adm 0).N) = 0 from TextMap.owed0 (E0 m) c _]
    icases HO with ⟨%W, -, HO⟩; iexists W; iexact HO

theorem V19_at0 (c : Dev nD) : V19 m (outs m) c main_v123_0 = X19 m c main_v123_0 := by
  unfold V19
  rw [Function.update_of_ne (StableHlo.devRef_ne_of_ne (by decide)), Function.update_of_ne (StableHlo.devRef_ne_of_ne (by decide)),
    Function.update_of_ne (StableHlo.devRef_ne_of_ne (by decide)), Function.update_self]
  rfl
theorem V19_at1 (c : Dev nD) : V19 m (outs m) c main_v123_1 = X19 m c main_v123_1 := by
  unfold V19
  rw [Function.update_of_ne (StableHlo.devRef_ne_of_ne (by decide)), Function.update_of_ne (StableHlo.devRef_ne_of_ne (by decide)),
    Function.update_self]
  rfl
theorem V19_at2 (c : Dev nD) : V19 m (outs m) c main_v123_2 = X19 m c main_v123_2 := by
  unfold V19
  rw [Function.update_of_ne (StableHlo.devRef_ne_of_ne (by decide)), Function.update_self]
  rfl
theorem V19_at3 (c : Dev nD) : V19 m (outs m) c main_v123_3 = X19 m c main_v123_3 := by
  unfold V19
  rw [Function.update_self]
  rfl

/-- An input array of region 1 is no result buffer of it, so the exit valuation has it as entered. -/
theorem V19_in (c : Dev nD) (r : Ref sig .tc) (h : r ∉ ([main_v123_0, main_v123_1, main_v123_2, main_v123_3] : List (Ref sig .tc))) :
    V19 m (outs m) c r = E18 m c r :=
  (V19_of m (outs m) c r h).trans (congrFun (V18_outs m c) _)

theorem in1 (c : Dev nD) (w : Fin cfg1.W) :
    (BoxConf.dat1 (E18 m) c).arrAt w 0 = E18 m c (Pipeline.arrRef spec1 w) := BoxConf.A_eq1 (E18 m) c w

theorem isIn1 : ∀ w : Fin 14, w.val < 10 → (cfg1.win w).isOut = false := by decide

set_option maxHeartbeats 1000000 in
theorem hF1' (c : Dev nD) (w : Fin 14) :
    (BoxConf.dat1 (E18 m) c).arrAt w cfg1.N = V19 m (outs m) c (Pipeline.arrRef spec1 w) := by
  by_cases hw : w.val < 10
  · refine (((BoxConf.dat1 (E18 m) c).arrAt_in w (isIn1 w hw) _).trans (BoxConf.A_eq1 (E18 m) c w)).trans (V19_in m c _ ?_).symm
    intro h
    simp only [List.mem_cons, List.mem_nil_iff, or_false] at h
    have inj : Function.Injective (Pipeline.arrRef spec1) := launch1.win.arr_inj
    rcases h with h | h | h | h
    · have e : w = 10 := inj (h.trans (rfl : main_v123_0 = Pipeline.arrRef spec1 10)); subst e; exact absurd hw (by decide)
    · have e : w = 11 := inj (h.trans (rfl : main_v123_1 = Pipeline.arrRef spec1 11)); subst e; exact absurd hw (by decide)
    · have e : w = 12 := inj (h.trans (rfl : main_v123_2 = Pipeline.arrRef spec1 12)); subst e; exact absurd hw (by decide)
    · have e : w = 13 := inj (h.trans (rfl : main_v123_3 = Pipeline.arrRef spec1 13)); subst e; exact absurd hw (by decide)
  · have hcases : w = 10 ∨ w = 11 ∨ w = 12 ∨ w = 13 := by
      rcases w with ⟨v, hv⟩
      simp only [not_lt] at hw
      have : v = 10 ∨ v = 11 ∨ v = 12 ∨ v = 13 := by omega
      rcases this with rfl | rfl | rfl | rfl <;> simp
    rcases hcases with rfl | rfl | rfl | rfl
    · exact ((V19_at0 m c).trans (X19_arr m c 10)).symm
    · exact ((V19_at1 m c).trans (X19_arr m c 11)).symm
    · exact ((V19_at2 m c).trans (X19_arr m c 12)).symm
    · exact ((V19_at3 m c).trans (X19_arr m c 13)).symm

theorem hF1 (c : Dev nD) (w : Fin cfg1.W) :
    (pdats m 1 c).arrAt w cfg1.N = (fun b : Ref sig .tc => V19 m (outs m) c b) (Pipeline.arrRef spec1 w) :=
  hF1' m c w

theorem hrest1 (c : Dev nD) : ∀ b : Ref sig .tc, b ∉ Finset.univ.image (Pipeline.arrRef spec1) →
    (fun b : Ref sig .tc => V19 m (outs m) c b) b = E18 m c b := fun b hb =>
  V19_in m c b (by
    intro h
    simp only [List.mem_cons, List.mem_nil_iff, or_false] at h
    rcases h with rfl | rfl | rfl | rfl
    · exact hb (Finset.mem_image.mpr ⟨10, Finset.mem_univ _, rfl⟩)
    · exact hb (Finset.mem_image.mpr ⟨11, Finset.mem_univ _, rfl⟩)
    · exact hb (Finset.mem_image.mpr ⟨12, Finset.mem_univ _, rfl⟩)
    · exact hb (Finset.mem_image.mpr ⟨13, Finset.mem_univ _, rfl⟩))

set_option backward.isDefEq.respectTransparency.types false in
/-- Region 1 over the thread state: entered from the valuation after the seventeen host stretches, left at the one that
    has its four result buffers at the sums the body stores. -/
def reg1 : RegionSeg (pcfgs (F := F)) adm (pdats m) () defs₀ Variants.none L lv 1 where
  win := launch1.win.to₀
  block_pos := launch1.block_pos
  stage_whole := launch1.stage_whole
  K := PEmpty
  osem k := k.elim
  ho := Pipeline.OwnSemFacts.none _
  hbody c := (BoxConf.body_obligation1 (E18 m) c).loose
  hwaits := Pipeline.hwaits_of_owed_zero _ _ _ _ L lv 1 fun c t => BoxConf.owed1 (E18 m) c t
  pre c := iprop(StableHlo.held (c : Thread nD τ) (Pipeline.ucRefs τ sig) (V18 m (outs m) c) ∗ R c)
  post c := iprop(StableHlo.held (c : Thread nD τ) (Pipeline.ucRefs τ sig) (V19 m (outs m) c) ∗ R c)
  X c := iprop(∃ r, prngReg c r)
  Y c := iprop(∃ r, prngReg c r)
  Z c := Pipeline.unscopedRest (Ix := Unit) (Name := ℕ) (U := UR sig nD τ) (Lvl := ℕ) spec1 c (E18 m c)
  hentry c := by
    unfold R
    rw [Pipeline.ownSems0_none, V18_outs]
    have hsplit := Pipeline.arrays_of_unscopedBufs (p := 1) (pcfgs (F := F)) adm (pdats m) launch1.win launch1.arr_whole c
      ((pdats m 1 c).share_full (BoxConf.q1 (E18 m) c)) (E18 m c) fun w => BoxConf.A_eq1 (E18 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from BoxConf.Phi1 (E18 m) c 0]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from BoxConf.Phi1 (E18 m) c _]; unfold Pipeline.ΦA
    iintro ⟨Hr, Hp⟩
    isplitl [Hp]; · iexact Hp
    isplitr; · iempintro
    iexact Hr
  hexit c := by
    unfold R
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full (BoxConf.q1 (E18 m) c))
      (E18 m c) (fun b : Ref sig .tc => V19 m (outs m) c b) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [show (pdats m 1 c).owed (Fin.last (Pipeline.pin (pcfgs (F := F)) adm 1).N) = 0 from BoxConf.owed1 (E18 m) c _]
    icases HO with ⟨%W, -, HO⟩; iexists W; iexact HO

/-! ## The launch over the twenty items -/

variable (ρ : Dev nD → PrngReg)

set_option backward.isDefEq.respectTransparency.types false in
/-- Every weakly fair execution of @main from memory `m` with zero counters terminates, and at the end every unscoped
    buffer of every core holds the last valuation's contents. -/
theorem run_all : θ_run defs (onTc (τ := τ) (main (F := F))) ⟨m, fun _ => 0, ρ⟩ (fun r => ∀ c : Dev nD,
      ∀ b ∈ Pipeline.ucRefs τ sig, r.2.mem ((c : Thread nD τ).1, b) = V20 m (outs m) c b) := by
  have h1 : ∀ c : Dev nD, (iprop(unscopedSems0 c ∗ owes (c : Thread nD τ) ((0 : Dev nD → CellTallies nD τ sig Unit) c) ∅
        ∗ Pipeline.launchCred (0 : Dev nD → CellTallies nD τ sig Unit) c ∗ prngReg c (ρ c) ∗ (BI.emp : sProp 𝕄)) : sProp 𝕄) ⊢ R (F := F) c := fun c => by
    unfold R
    iintro ⟨-, HO, -, Hp, -⟩
    isplitl [Hp]; · iexists _; iexact Hp
    iexists ∅; iexact HO
  have hE0 : iprop((bigSep Finset.univ fun c : Dev nD => iprop(unscopedSems0 c ∗ owes (c : Thread nD τ) ((0 : Dev nD → CellTallies nD τ sig Unit) c) ∅
        ∗ Pipeline.launchCred (0 : Dev nD → CellTallies nD τ sig Unit) c ∗ prngReg c (ρ c) ∗ (BI.emp : sProp 𝕄))) ∗ levAts L lv)
      ⊢ (|={Set.univ}=> bigSep Finset.univ (R (F := F)) : sProp 𝕄) := by
    iintro ⟨H, -⟩
    imodintro
    iapply (show ((bigSep Finset.univ fun c : Dev nD => iprop(unscopedSems0 c ∗ owes (c : Thread nD τ) ((0 : Dev nD → CellTallies nD τ sig Unit) c) ∅
        ∗ Pipeline.launchCred (0 : Dev nD → CellTallies nD τ sig Unit) c ∗ prngReg c (ρ c) ∗ (BI.emp : sProp 𝕄))) : sProp 𝕄) ⊢ bigSep Finset.univ (R (F := F))
      from bigSep_mono fun c _ => h1 c)
    iexact H
  have hE2 : ∀ c : Dev nD, R (F := F) c ⊢ (iprop(∃ W, owes (c : Thread nD τ) (0 : CellTallies nD τ sig Unit) W) : sProp 𝕄) := fun c => by
    unfold R
    iintro ⟨-, HO⟩; iexact HO
  refine Pipeline.θ_run_regions_kit_dev (pcfgs (F := F)) adm (pdats m) () cellOf_inj emb₁ defs₀ Variants.none L lv m ρ main
    (segs m (outs m) Variants.none L lv (fun _ c => R c) () (pdats m) (reg0 m) (reg1 m))
    (fun c Q => by
      rewrite [main_chain c, Seg.run_eq_chain,
        show (segs m (outs m) Variants.none L lv (fun _ c => R c) () (pdats m) (reg0 m) (reg1 m) c).map Seg.prog = [
          Prog.lift (.customCall (Pipeline.entry 0) ()),
          StableHlo.seq hostOps1,
          StableHlo.seq hostOps1_1,
          StableHlo.seq hostOps1_2,
          StableHlo.seq hostOps1_3,
          StableHlo.seq hostOps1_4,
          StableHlo.seq hostOps1_5,
          StableHlo.seq hostOps1_6,
          StableHlo.seq hostOps1_7,
          StableHlo.seq hostOps1_8,
          StableHlo.seq hostOps1_9,
          StableHlo.seq hostOps1_10,
          StableHlo.seq hostOps1_11,
          StableHlo.seq hostOps1_12,
          StableHlo.seq hostOps1_13,
          StableHlo.seq hostOps1_14,
          StableHlo.seq hostOps1_15,
          StableHlo.seq hostOps1_16,
          Prog.lift (.customCall (Pipeline.entry 1) ()),
          StableHlo.seq hostOps2 ] from rfl]
      exact .rfl)
    (fun c => by simp only [segs, Seg.pipes_host, Seg.pipes_region, Seg.pipes_nil]; decide) (0 : Dev nD → CellTallies nD τ sig Unit) (fun _ _ => rfl) (fun _ => iprop(emp))
    (initOf (Pipeline.cells cfgs cellOf_inj) (Pipeline.launchToks cfgs cellOf_inj))
    (by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ R c))
    (Tₙ := fun c => StableHlo.held (c : Thread nD τ) (Pipeline.ucRefs τ sig) (V20 m (outs m) c))
    (hch := fun c => ⟨.rfl, .rfl, .rfl, .rfl, .rfl, .rfl, .rfl, .rfl, .rfl, .rfl, .rfl, .rfl, .rfl, .rfl, .rfl, .rfl, .rfl, .rfl, .rfl, .rfl, sep_mono .rfl (hE2 c)⟩)
    (hinit := ?_) (QY := fun c s => ∀ b ∈ Pipeline.ucRefs τ sig, s.mem ((c : Thread nD τ).1, b) = V20 m (outs m) c b)
    (hfin := fun c s' => ?_) (hQ := fun _ h => h)
  · have hsplit : (bigSep Finset.univ fun c : Dev nD => iprop(unscopedBufs c (fun b => m ((c.tc : Thread nD τ).loc b)) ∗ unscopedSems0 c
          ∗ owes (c.tc : Thread nD τ) ((0 : Dev nD → CellTallies nD τ sig Unit) c) ∅ ∗ Pipeline.launchCred (0 : Dev nD → CellTallies nD τ sig Unit) c ∗ prngReg c (ρ c) ∗ (BI.emp : sProp 𝕄)))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) ((0 : Dev nD → CellTallies nD τ sig Unit) c) ∅ ∗ Pipeline.launchCred (0 : Dev nD → CellTallies nD τ sig Unit) c ∗ prngReg c (ρ c) ∗ (BI.emp : sProp 𝕄)))
            : sProp 𝕄) := by
      rw [← bigSep_sep']
      exact bigSep_mono fun c _ => by rw [← Pipeline.unscopedBufs_held (Ix := Unit) (Name := ℕ) (U := UR sig nD τ) (Lvl := ℕ) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  · unfold StableHlo.held
    iintro ⟨Hh, HSI⟩
    ihave Hr := (pointsTo_read_all (Pipeline.ucRefs τ sig) (fun b => ((c : Thread nD τ).1, b)) (V20 m (outs m) c) s') $$ [Hh HSI]
    · isplitl [Hh] <;> iassumption
    icases Hr with ⟨%h, HSI⟩
    imodintro
    isplitr
    · ipureintro
      exact h
    · iexact HSI

end Cert.KernelIdeal.Run

end
-- ==== Proof.RefRunOps.lean ====
/- The reference program's @main as a list of host operations: each window of the printed @main as a list,
   every call of an outlined function replaced by the callee's operations over that call's own buffers, and the
   equation between the printed program and the straight line of that list. -/
import proofs.«167267_j69861938037475_1_alg».proof.Proof.Gen.ReferenceIdeal
import Idealize.ShloMosaic.Lib.StableHlo.Run

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-- The operations of @main's window 0, the calls inlined. -/
abbrev ops_part0 : List (HloOp τ sig (Elt F)) :=
  [ StableHlo.unary main_arg0 main_v0 (Host.log : (⟨S64x1x320x320, .f32⟩ : BufTy).Contents (Elt F) → (⟨S64x1x320x320, .f32⟩ : BufTy).Contents (Elt F)),
    StableHlo.nullary main_cst (constant S_ .f32 0xC2C80000#32),
    StableHlo.unary main_cst main_v1 (broadcastInDim S64x1x320x320 ![] bcast_S_S64x1x320x320 : (⟨S_, .f32⟩ : BufTy).Contents (Elt F) → (⟨S64x1x320x320, .f32⟩ : BufTy).Contents (Elt F)),
    StableHlo.binary main_v0 main_v1 main_v2 (maximumf : (⟨S64x1x320x320, .f32⟩ : BufTy).Contents (Elt F) → (⟨S64x1x320x320, .f32⟩ : BufTy).Contents (Elt F) → (⟨S64x1x320x320, .f32⟩ : BufTy).Contents (Elt F)),
    StableHlo.unary main_arg0 main_v3 (Host.negf : (⟨S64x1x320x320, .f32⟩ : BufTy).Contents (Elt F) → (⟨S64x1x320x320, .f32⟩ : BufTy).Contents (Elt F)),
    StableHlo.unary main_v3 main_v4 (Host.log1p : (⟨S64x1x320x320, .f32⟩ : BufTy).Contents (Elt F) → (⟨S64x1x320x320, .f32⟩ : BufTy).Contents (Elt F)),
    StableHlo.nullary main_cst_0 (constant S_ .f32 0xC2C80000#32),
    StableHlo.unary main_cst_0 main_v5 (broadcastInDim S64x1x320x320 ![] bcast_S_S64x1x320x320 : (⟨S_, .f32⟩ : BufTy).Contents (Elt F) → (⟨S64x1x320x320, .f32⟩ : BufTy).Contents (Elt F)),
    StableHlo.binary main_v4 main_v5 main_v6 (maximumf : (⟨S64x1x320x320, .f32⟩ : BufTy).Contents (Elt F) → (⟨S64x1x320x320, .f32⟩ : BufTy).Contents (Elt F) → (⟨S64x1x320x320, .f32⟩ : BufTy).Contents (Elt F)),
    StableHlo.binary main_arg3 main_v2 main_v7 (mulf : (⟨S64x1x320x320, .f32⟩ : BufTy).Contents (Elt F) → (⟨S64x1x320x320, .f32⟩ : BufTy).Contents (Elt F) → (⟨S64x1x320x320, .f32⟩ : BufTy).Contents (Elt F)),
    StableHlo.nullary main_cst_1 (constant S_ .f32 0x3F800000#32),
    StableHlo.unary main_cst_1 main_v8 (broadcastInDim S64x1x320x320 ![] bcast_S_S64x1x320x320 : (⟨S_, .f32⟩ : BufTy).Contents (Elt F) → (⟨S64x1x320x320, .f32⟩ : BufTy).Contents (Elt F)),
    StableHlo.binary main_v8 main_arg3 main_v9 (subf : (⟨S64x1x320x320, .f32⟩ : BufTy).Contents (Elt F) → (⟨S64x1x320x320, .f32⟩ : BufTy).Contents (Elt F) → (⟨S64x1x320x320, .f32⟩ : BufTy).Contents (Elt F)),
    StableHlo.binary main_v9 main_v6 main_v10 (mulf : (⟨S64x1x320x320, .f32⟩ : BufTy).Contents (Elt F) → (⟨S64x1x320x320, .f32⟩ : BufTy).Contents (Elt F) → (⟨S64x1x320x320, .f32⟩ : BufTy).Contents (Elt F)),
    StableHlo.binary main_v7 main_v10 main_v11 (addf : (⟨S64x1x320x320, .f32⟩ : BufTy).Contents (Elt F) → (⟨S64x1x320x320, .f32⟩ : BufTy).Contents (Elt F) → (⟨S64x1x320x320, .f32⟩ : BufTy).Contents (Elt F)),
    StableHlo.unary main_v11 main_v12 (Host.negf : (⟨S64x1x320x320, .f32⟩ : BufTy).Contents (Elt F) → (⟨S64x1x320x320, .f32⟩ : BufTy).Contents (Elt F)),
    StableHlo.nullary main_cst_2 (constant S_ .f32 0x00000000#32),
    StableHlo.binary main_v12 main_cst_2 main_v13 ((fun x v => Host.reduceAdd x v reducesTo_S64x1x320x320_S_d0_1_2_3 h_S_) : (⟨S64x1x320x320, .f32⟩ : BufTy).Contents (Elt F) → (⟨S_, .f32⟩ : BufTy).Contents (Elt F) → (⟨S_, .f32⟩ : BufTy).Contents (Elt F)),
    StableHlo.nullary main_cst_3 (constant S_ .f32 0x4AC80000#32),
    StableHlo.binary main_v13 main_cst_3 main_v14 (Host.divf : (⟨S_, .f32⟩ : BufTy).Contents (Elt F) → (⟨S_, .f32⟩ : BufTy).Contents (Elt F) → (⟨S_, .f32⟩ : BufTy).Contents (Elt F)),
    StableHlo.reshape main_arg0 main_v15 rfl shapeCasts_S64x1x320x320_S6553600,
    StableHlo.reshape main_arg3 main_v16 rfl shapeCasts_S64x1x320x320_S6553600,
    StableHlo.binary main_v15 main_v16 main_v17 (mulf : (⟨S6553600, .f32⟩ : BufTy).Contents (Elt F) → (⟨S6553600, .f32⟩ : BufTy).Contents (Elt F) → (⟨S6553600, .f32⟩ : BufTy).Contents (Elt F)),
    StableHlo.nullary main_cst_4 (constant S_ .f32 0x00000000#32),
    StableHlo.binary main_v17 main_cst_4 main_v18 ((fun x v => Host.reduceAdd x v reducesTo_S6553600_S_d0 h_S_) : (⟨S6553600, .f32⟩ : BufTy).Contents (Elt F) → (⟨S_, .f32⟩ : BufTy).Contents (Elt F) → (⟨S_, .f32⟩ : BufTy).Contents (Elt F)),
    StableHlo.nullary main_cst_5 (constant S_ .f32 0x40000000#32),
    StableHlo.binary main_cst_5 main_v18 main_v19 (mulf : (⟨S_, .f32⟩ : BufTy).Contents (Elt F) → (⟨S_, .f32⟩ : BufTy).Contents (Elt F) → (⟨S_, .f32⟩ : BufTy).Contents (Elt F)),
    StableHlo.nullary main_cst_6 (constant S_ .f32 0x3727C5AC#32),
    StableHlo.binary main_v19 main_cst_6 main_v20 (addf : (⟨S_, .f32⟩ : BufTy).Contents (Elt F) → (⟨S_, .f32⟩ : BufTy).Contents (Elt F) → (⟨S_, .f32⟩ : BufTy).Contents (Elt F)),
    StableHlo.nullary main_cst_7 (constant S_ .f32 0x00000000#32),
    StableHlo.binary main_v15 main_cst_7 main_v21 ((fun x v => Host.reduceAdd x v reducesTo_S6553600_S_d0 h_S_) : (⟨S6553600, .f32⟩ : BufTy).Contents (Elt F) → (⟨S_, .f32⟩ : BufTy).Contents (Elt F) → (⟨S_, .f32⟩ : BufTy).Contents (Elt F)),
    StableHlo.nullary main_cst_8 (constant S_ .f32 0x00000000#32),
    StableHlo.binary main_v16 main_cst_8 main_v22 ((fun x v => Host.reduceAdd x v reducesTo_S6553600_S_d0 h_S_) : (⟨S6553600, .f32⟩ : BufTy).Contents (Elt F) → (⟨S_, .f32⟩ : BufTy).Contents (Elt F) → (⟨S_, .f32⟩ : BufTy).Contents (Elt F)),
    StableHlo.binary main_v21 main_v22 main_v23 (addf : (⟨S_, .f32⟩ : BufTy).Contents (Elt F) → (⟨S_, .f32⟩ : BufTy).Contents (Elt F) → (⟨S_, .f32⟩ : BufTy).Contents (Elt F)),
    StableHlo.nullary main_cst_9 (constant S_ .f32 0x3727C5AC#32),
    StableHlo.binary main_v23 main_cst_9 main_v24 (addf : (⟨S_, .f32⟩ : BufTy).Contents (Elt F) → (⟨S_, .f32⟩ : BufTy).Contents (Elt F) → (⟨S_, .f32⟩ : BufTy).Contents (Elt F)),
    StableHlo.binary main_v20 main_v24 main_v25 (Host.divf : (⟨S_, .f32⟩ : BufTy).Contents (Elt F) → (⟨S_, .f32⟩ : BufTy).Contents (Elt F) → (⟨S_, .f32⟩ : BufTy).Contents (Elt F)),
    StableHlo.nullary main_cst_10 (constant S_ .f32 0x3F000000#32),
    StableHlo.binary main_cst_10 main_v14 main_v26 (mulf : (⟨S_, .f32⟩ : BufTy).Contents (Elt F) → (⟨S_, .f32⟩ : BufTy).Contents (Elt F) → (⟨S_, .f32⟩ : BufTy).Contents (Elt F)),
    StableHlo.nullary main_cst_11 (constant S_ .f32 0x3F800000#32),
    StableHlo.binary main_cst_11 main_v25 main_v27 (subf : (⟨S_, .f32⟩ : BufTy).Contents (Elt F) → (⟨S_, .f32⟩ : BufTy).Contents (Elt F) → (⟨S_, .f32⟩ : BufTy).Contents (Elt F)),
    StableHlo.nullary main_cst_12 (constant S_ .f32 0x3F000000#32),
    StableHlo.binary main_cst_12 main_v27 main_v28 (mulf : (⟨S_, .f32⟩ : BufTy).Contents (Elt F) → (⟨S_, .f32⟩ : BufTy).Contents (Elt F) → (⟨S_, .f32⟩ : BufTy).Contents (Elt F)),
    StableHlo.binary main_v26 main_v28 main_v29 (addf : (⟨S_, .f32⟩ : BufTy).Contents (Elt F) → (⟨S_, .f32⟩ : BufTy).Contents (Elt F) → (⟨S_, .f32⟩ : BufTy).Contents (Elt F)),
    StableHlo.unary main_arg4 main_v30 ((extractStridedSlice S64x32x1 ![0, 0, 0] · slices_S64x32x5_S64x32x1_0_0_0) : (⟨S64x32x5, .f32⟩ : BufTy).Contents (Elt F) → (⟨S64x32x1, .f32⟩ : BufTy).Contents (Elt F)),
    StableHlo.reshape main_v30 main_v31 rfl shapeCasts_S64x32x1_S64x32,
    StableHlo.unary main_arg4 main_v32 ((extractStridedSlice S64x32x1 ![0, 0, 1] · slices_S64x32x5_S64x32x1_0_0_1) : (⟨S64x32x5, .f32⟩ : BufTy).Contents (Elt F) → (⟨S64x32x1, .f32⟩ : BufTy).Contents (Elt F)),
    StableHlo.reshape main_v32 main_v33 rfl shapeCasts_S64x32x1_S64x32,
    StableHlo.nullary main_cst_13 (constant S_ .f32 0x43A00000#32),
    StableHlo.unary main_cst_13 main_v34 (broadcastInDim S64x32 ![] bcast_S_S64x32 : (⟨S_, .f32⟩ : BufTy).Contents (Elt F) → (⟨S64x32, .f32⟩ : BufTy).Contents (Elt F)),
    StableHlo.binary main_v33 main_v34 main_v35 (Host.divf : (⟨S64x32, .f32⟩ : BufTy).Contents (Elt F) → (⟨S64x32, .f32⟩ : BufTy).Contents (Elt F) → (⟨S64x32, .f32⟩ : BufTy).Contents (Elt F)),
    StableHlo.nullary main_cst_14 (constant S_ .f32 0x00000000#32),
    StableHlo.nullary main_cst_15 (constant S_ .f32 0x3F7FBE77#32),
    StableHlo.TRef.unary (.of main_cst_14 : StableHlo.TRef sig ⟨S_, .f32⟩) (.of main_call0_v0 : StableHlo.TRef sig ⟨S_, .f32⟩) id,
    StableHlo.TRef.unary (.of main_call0_v0 : StableHlo.TRef sig ⟨S_, .f32⟩) (.of main_call0_v1 : StableHlo.TRef sig ⟨S64x32, .f32⟩) (broadcastInDim S64x32 ![] bcast_S_S64x32),
    StableHlo.TRef.binary (.of main_call0_v1 : StableHlo.TRef sig ⟨S64x32, .f32⟩) (.of main_v35 : StableHlo.TRef sig ⟨S64x32, .f32⟩) (.of main_call0_v2 : StableHlo.TRef sig ⟨S64x32, .f32⟩) maximumf,
    StableHlo.TRef.unary (.of main_cst_15 : StableHlo.TRef sig ⟨S_, .f32⟩) (.of main_call0_v3 : StableHlo.TRef sig ⟨S_, .f32⟩) id,
    StableHlo.TRef.unary (.of main_call0_v3 : StableHlo.TRef sig ⟨S_, .f32⟩) (.of main_call0_v4 : StableHlo.TRef sig ⟨S64x32, .f32⟩) (broadcastInDim S64x32 ![] bcast_S_S64x32),
    StableHlo.TRef.binary (.of main_call0_v4 : StableHlo.TRef sig ⟨S64x32, .f32⟩) (.of main_call0_v2 : StableHlo.TRef sig ⟨S64x32, .f32⟩) (.of main_v36 : StableHlo.TRef sig ⟨S64x32, .f32⟩) minimumf,
    StableHlo.unary main_arg4 main_v37 ((extractStridedSlice S64x32x1 ![0, 0, 2] · slices_S64x32x5_S64x32x1_0_0_2) : (⟨S64x32x5, .f32⟩ : BufTy).Contents (Elt F) → (⟨S64x32x1, .f32⟩ : BufTy).Contents (Elt F)),
    StableHlo.reshape main_v37 main_v38 rfl shapeCasts_S64x32x1_S64x32,
    StableHlo.nullary main_cst_16 (constant S_ .f32 0x43A00000#32),
    StableHlo.unary main_cst_16 main_v39 (broadcastInDim S64x32 ![] bcast_S_S64x32 : (⟨S_, .f32⟩ : BufTy).Contents (Elt F) → (⟨S64x32, .f32⟩ : BufTy).Contents (Elt F)),
    StableHlo.binary main_v38 main_v39 main_v40 (Host.divf : (⟨S64x32, .f32⟩ : BufTy).Contents (Elt F) → (⟨S64x32, .f32⟩ : BufTy).Contents (Elt F) → (⟨S64x32, .f32⟩ : BufTy).Contents (Elt F)),
    StableHlo.nullary main_cst_17 (constant S_ .f32 0x00000000#32) ]

/-- The operations of @main's window 1, the calls inlined. -/
abbrev ops_part1 : List (HloOp τ sig (Elt F)) :=
  [ StableHlo.nullary main_cst_18 (constant S_ .f32 0x3F7FBE77#32),
    StableHlo.TRef.unary (.of main_cst_17 : StableHlo.TRef sig ⟨S_, .f32⟩) (.of main_call1_v0 : StableHlo.TRef sig ⟨S_, .f32⟩) id,
    StableHlo.TRef.unary (.of main_call1_v0 : StableHlo.TRef sig ⟨S_, .f32⟩) (.of main_call1_v1 : StableHlo.TRef sig ⟨S64x32, .f32⟩) (broadcastInDim S64x32 ![] bcast_S_S64x32),
    StableHlo.TRef.binary (.of main_call1_v1 : StableHlo.TRef sig ⟨S64x32, .f32⟩) (.of main_v40 : StableHlo.TRef sig ⟨S64x32, .f32⟩) (.of main_call1_v2 : StableHlo.TRef sig ⟨S64x32, .f32⟩) maximumf,
    StableHlo.TRef.unary (.of main_cst_18 : StableHlo.TRef sig ⟨S_, .f32⟩) (.of main_call1_v3 : StableHlo.TRef sig ⟨S_, .f32⟩) id,
    StableHlo.TRef.unary (.of main_call1_v3 : StableHlo.TRef sig ⟨S_, .f32⟩) (.of main_call1_v4 : StableHlo.TRef sig ⟨S64x32, .f32⟩) (broadcastInDim S64x32 ![] bcast_S_S64x32),
    StableHlo.TRef.binary (.of main_call1_v4 : StableHlo.TRef sig ⟨S64x32, .f32⟩) (.of main_call1_v2 : StableHlo.TRef sig ⟨S64x32, .f32⟩) (.of main_v41 : StableHlo.TRef sig ⟨S64x32, .f32⟩) minimumf,
    StableHlo.nullary main_cst_19 (constant S_ .f32 0x3A83126F#32),
    StableHlo.unary main_cst_19 main_v42 (broadcastInDim S64x32 ![] bcast_S_S64x32 : (⟨S_, .f32⟩ : BufTy).Contents (Elt F) → (⟨S64x32, .f32⟩ : BufTy).Contents (Elt F)),
    StableHlo.binary main_v36 main_v42 main_v43 (addf : (⟨S64x32, .f32⟩ : BufTy).Contents (Elt F) → (⟨S64x32, .f32⟩ : BufTy).Contents (Elt F) → (⟨S64x32, .f32⟩ : BufTy).Contents (Elt F)),
    StableHlo.unary main_arg4 main_v44 ((extractStridedSlice S64x32x1 ![0, 0, 3] · slices_S64x32x5_S64x32x1_0_0_3) : (⟨S64x32x5, .f32⟩ : BufTy).Contents (Elt F) → (⟨S64x32x1, .f32⟩ : BufTy).Contents (Elt F)),
    StableHlo.reshape main_v44 main_v45 rfl shapeCasts_S64x32x1_S64x32,
    StableHlo.nullary main_cst_20 (constant S_ .f32 0x43A00000#32),
    StableHlo.unary main_cst_20 main_v46 (broadcastInDim S64x32 ![] bcast_S_S64x32 : (⟨S_, .f32⟩ : BufTy).Contents (Elt F) → (⟨S64x32, .f32⟩ : BufTy).Contents (Elt F)),
    StableHlo.binary main_v45 main_v46 main_v47 (Host.divf : (⟨S64x32, .f32⟩ : BufTy).Contents (Elt F) → (⟨S64x32, .f32⟩ : BufTy).Contents (Elt F) → (⟨S64x32, .f32⟩ : BufTy).Contents (Elt F)),
    StableHlo.nullary main_cst_21 (constant S_ .f32 0x3F800000#32),
    StableHlo.unary main_cst_21 main_v48 (broadcastInDim S64x32 ![] bcast_S_S64x32 : (⟨S_, .f32⟩ : BufTy).Contents (Elt F) → (⟨S64x32, .f32⟩ : BufTy).Contents (Elt F)),
    StableHlo.binary main_v47 main_v48 main_v49 (minimumf : (⟨S64x32, .f32⟩ : BufTy).Contents (Elt F) → (⟨S64x32, .f32⟩ : BufTy).Contents (Elt F) → (⟨S64x32, .f32⟩ : BufTy).Contents (Elt F)),
    StableHlo.binary main_v43 main_v49 main_v50 (maximumf : (⟨S64x32, .f32⟩ : BufTy).Contents (Elt F) → (⟨S64x32, .f32⟩ : BufTy).Contents (Elt F) → (⟨S64x32, .f32⟩ : BufTy).Contents (Elt F)),
    StableHlo.nullary main_cst_22 (constant S_ .f32 0x3A83126F#32),
    StableHlo.unary main_cst_22 main_v51 (broadcastInDim S64x32 ![] bcast_S_S64x32 : (⟨S_, .f32⟩ : BufTy).Contents (Elt F) → (⟨S64x32, .f32⟩ : BufTy).Contents (Elt F)),
    StableHlo.binary main_v41 main_v51 main_v52 (addf : (⟨S64x32, .f32⟩ : BufTy).Contents (Elt F) → (⟨S64x32, .f32⟩ : BufTy).Contents (Elt F) → (⟨S64x32, .f32⟩ : BufTy).Contents (Elt F)),
    StableHlo.unary main_arg4 main_v53 ((extractStridedSlice S64x32x1 ![0, 0, 4] · slices_S64x32x5_S64x32x1_0_0_4) : (⟨S64x32x5, .f32⟩ : BufTy).Contents (Elt F) → (⟨S64x32x1, .f32⟩ : BufTy).Contents (Elt F)),
    StableHlo.reshape main_v53 main_v54 rfl shapeCasts_S64x32x1_S64x32,
    StableHlo.nullary main_cst_23 (constant S_ .f32 0x43A00000#32),
    StableHlo.unary main_cst_23 main_v55 (broadcastInDim S64x32 ![] bcast_S_S64x32 : (⟨S_, .f32⟩ : BufTy).Contents (Elt F) → (⟨S64x32, .f32⟩ : BufTy).Contents (Elt F)),
    StableHlo.binary main_v54 main_v55 main_v56 (Host.divf : (⟨S64x32, .f32⟩ : BufTy).Contents (Elt F) → (⟨S64x32, .f32⟩ : BufTy).Contents (Elt F) → (⟨S64x32, .f32⟩ : BufTy).Contents (Elt F)),
    StableHlo.nullary main_cst_24 (constant S_ .f32 0x3F800000#32),
    StableHlo.unary main_cst_24 main_v57 (broadcastInDim S64x32 ![] bcast_S_S64x32 : (⟨S_, .f32⟩ : BufTy).Contents (Elt F) → (⟨S64x32, .f32⟩ : BufTy).Contents (Elt F)),
    StableHlo.binary main_v56 main_v57 main_v58 (minimumf : (⟨S64x32, .f32⟩ : BufTy).Contents (Elt F) → (⟨S64x32, .f32⟩ : BufTy).Contents (Elt F) → (⟨S64x32, .f32⟩ : BufTy).Contents (Elt F)),
    StableHlo.binary main_v52 main_v58 main_v59 (maximumf : (⟨S64x32, .f32⟩ : BufTy).Contents (Elt F) → (⟨S64x32, .f32⟩ : BufTy).Contents (Elt F) → (⟨S64x32, .f32⟩ : BufTy).Contents (Elt F)),
    StableHlo.nullary main_cst_25 (constant S_ .f32 0x43A00000#32),
    StableHlo.unary main_cst_25 main_v60 (broadcastInDim S64x32 ![] bcast_S_S64x32 : (⟨S_, .f32⟩ : BufTy).Contents (Elt F) → (⟨S64x32, .f32⟩ : BufTy).Contents (Elt F)),
    StableHlo.binary main_v36 main_v60 main_v61 (mulf : (⟨S64x32, .f32⟩ : BufTy).Contents (Elt F) → (⟨S64x32, .f32⟩ : BufTy).Contents (Elt F) → (⟨S64x32, .f32⟩ : BufTy).Contents (Elt F)),
    StableHlo.unary main_v61 main_v62 (fptosi 32 : (⟨S64x32, .f32⟩ : BufTy).Contents (Elt F) → (⟨S64x32, .i32⟩ : BufTy).Contents (Elt F)),
    StableHlo.nullary main_c (constantI S_ 32 0#32),
    StableHlo.nullary main_c_26 (constantI S_ 32 319#32),
    StableHlo.TRef.unary (.of main_c : StableHlo.TRef sig ⟨S_, .i32⟩) (.of main_call2_v0 : StableHlo.TRef sig ⟨S_, .i32⟩) id,
    StableHlo.TRef.unary (.of main_call2_v0 : StableHlo.TRef sig ⟨S_, .i32⟩) (.of main_call2_v1 : StableHlo.TRef sig ⟨S64x32, .i32⟩) (broadcastInDim S64x32 ![] bcast_S_S64x32),
    StableHlo.TRef.binary (.of main_call2_v1 : StableHlo.TRef sig ⟨S64x32, .i32⟩) (.of main_v62 : StableHlo.TRef sig ⟨S64x32, .i32⟩) (.of main_call2_v2 : StableHlo.TRef sig ⟨S64x32, .i32⟩) maxsi,
    StableHlo.TRef.unary (.of main_c_26 : StableHlo.TRef sig ⟨S_, .i32⟩) (.of main_call2_v3 : StableHlo.TRef sig ⟨S_, .i32⟩) id,
    StableHlo.TRef.unary (.of main_call2_v3 : StableHlo.TRef sig ⟨S_, .i32⟩) (.of main_call2_v4 : StableHlo.TRef sig ⟨S64x32, .i32⟩) (broadcastInDim S64x32 ![] bcast_S_S64x32),
    StableHlo.TRef.binary (.of main_call2_v4 : StableHlo.TRef sig ⟨S64x32, .i32⟩) (.of main_call2_v2 : StableHlo.TRef sig ⟨S64x32, .i32⟩) (.of main_v63 : StableHlo.TRef sig ⟨S64x32, .i32⟩) minsi,
    StableHlo.nullary main_cst_27 (constant S_ .f32 0x43A00000#32),
    StableHlo.unary main_cst_27 main_v64 (broadcastInDim S64x32 ![] bcast_S_S64x32 : (⟨S_, .f32⟩ : BufTy).Contents (Elt F) → (⟨S64x32, .f32⟩ : BufTy).Contents (Elt F)),
    StableHlo.binary main_v41 main_v64 main_v65 (mulf : (⟨S64x32, .f32⟩ : BufTy).Contents (Elt F) → (⟨S64x32, .f32⟩ : BufTy).Contents (Elt F) → (⟨S64x32, .f32⟩ : BufTy).Contents (Elt F)),
    StableHlo.unary main_v65 main_v66 (fptosi 32 : (⟨S64x32, .f32⟩ : BufTy).Contents (Elt F) → (⟨S64x32, .i32⟩ : BufTy).Contents (Elt F)),
    StableHlo.nullary main_c_28 (constantI S_ 32 0#32),
    StableHlo.nullary main_c_29 (constantI S_ 32 319#32),
    StableHlo.TRef.unary (.of main_c_28 : StableHlo.TRef sig ⟨S_, .i32⟩) (.of main_call3_v0 : StableHlo.TRef sig ⟨S_, .i32⟩) id,
    StableHlo.TRef.unary (.of main_call3_v0 : StableHlo.TRef sig ⟨S_, .i32⟩) (.of main_call3_v1 : StableHlo.TRef sig ⟨S64x32, .i32⟩) (broadcastInDim S64x32 ![] bcast_S_S64x32),
    StableHlo.TRef.binary (.of main_call3_v1 : StableHlo.TRef sig ⟨S64x32, .i32⟩) (.of main_v66 : StableHlo.TRef sig ⟨S64x32, .i32⟩) (.of main_call3_v2 : StableHlo.TRef sig ⟨S64x32, .i32⟩) maxsi,
    StableHlo.TRef.unary (.of main_c_29 : StableHlo.TRef sig ⟨S_, .i32⟩) (.of main_call3_v3 : StableHlo.TRef sig ⟨S_, .i32⟩) id,
    StableHlo.TRef.unary (.of main_call3_v3 : StableHlo.TRef sig ⟨S_, .i32⟩) (.of main_call3_v4 : StableHlo.TRef sig ⟨S64x32, .i32⟩) (broadcastInDim S64x32 ![] bcast_S_S64x32),
    StableHlo.TRef.binary (.of main_call3_v4 : StableHlo.TRef sig ⟨S64x32, .i32⟩) (.of main_call3_v2 : StableHlo.TRef sig ⟨S64x32, .i32⟩) (.of main_v67 : StableHlo.TRef sig ⟨S64x32, .i32⟩) minsi,
    StableHlo.nullary main_c_30 (constantI S_ 32 1#32),
    StableHlo.unary main_c_30 main_v68 (broadcastInDim S64x32 ![] bcast_S_S64x32 : (⟨S_, .i32⟩ : BufTy).Contents (Elt F) → (⟨S64x32, .i32⟩ : BufTy).Contents (Elt F)),
    StableHlo.binary main_v63 main_v68 main_v69 (addi : (⟨S64x32, .i32⟩ : BufTy).Contents (Elt F) → (⟨S64x32, .i32⟩ : BufTy).Contents (Elt F) → (⟨S64x32, .i32⟩ : BufTy).Contents (Elt F)),
    StableHlo.nullary main_cst_31 (constant S_ .f32 0x43A00000#32),
    StableHlo.unary main_cst_31 main_v70 (broadcastInDim S64x32 ![] bcast_S_S64x32 : (⟨S_, .f32⟩ : BufTy).Contents (Elt F) → (⟨S64x32, .f32⟩ : BufTy).Contents (Elt F)),
    StableHlo.binary main_v50 main_v70 main_v71 (mulf : (⟨S64x32, .f32⟩ : BufTy).Contents (Elt F) → (⟨S64x32, .f32⟩ : BufTy).Contents (Elt F) → (⟨S64x32, .f32⟩ : BufTy).Contents (Elt F)),
    StableHlo.unary main_v71 main_v72 (fptosi 32 : (⟨S64x32, .f32⟩ : BufTy).Contents (Elt F) → (⟨S64x32, .i32⟩ : BufTy).Contents (Elt F)),
    StableHlo.nullary main_c_32 (constantI S_ 32 319#32),
    StableHlo.unary main_c_32 main_v73 (broadcastInDim S64x32 ![] bcast_S_S64x32 : (⟨S_, .i32⟩ : BufTy).Contents (Elt F) → (⟨S64x32, .i32⟩ : BufTy).Contents (Elt F)),
    StableHlo.binary main_v72 main_v73 main_v74 (minsi : (⟨S64x32, .i32⟩ : BufTy).Contents (Elt F) → (⟨S64x32, .i32⟩ : BufTy).Contents (Elt F) → (⟨S64x32, .i32⟩ : BufTy).Contents (Elt F)),
    StableHlo.binary main_v69 main_v74 main_v75 (maxsi : (⟨S64x32, .i32⟩ : BufTy).Contents (Elt F) → (⟨S64x32, .i32⟩ : BufTy).Contents (Elt F) → (⟨S64x32, .i32⟩ : BufTy).Contents (Elt F)),
    StableHlo.nullary main_c_33 (constantI S_ 32 1#32),
    StableHlo.unary main_c_33 main_v76 (broadcastInDim S64x32 ![] bcast_S_S64x32 : (⟨S_, .i32⟩ : BufTy).Contents (Elt F) → (⟨S64x32, .i32⟩ : BufTy).Contents (Elt F)),
    StableHlo.binary main_v67 main_v76 main_v77 (addi : (⟨S64x32, .i32⟩ : BufTy).Contents (Elt F) → (⟨S64x32, .i32⟩ : BufTy).Contents (Elt F) → (⟨S64x32, .i32⟩ : BufTy).Contents (Elt F)),
    StableHlo.nullary main_cst_34 (constant S_ .f32 0x43A00000#32),
    StableHlo.unary main_cst_34 main_v78 (broadcastInDim S64x32 ![] bcast_S_S64x32 : (⟨S_, .f32⟩ : BufTy).Contents (Elt F) → (⟨S64x32, .f32⟩ : BufTy).Contents (Elt F)),
    StableHlo.binary main_v59 main_v78 main_v79 (mulf : (⟨S64x32, .f32⟩ : BufTy).Contents (Elt F) → (⟨S64x32, .f32⟩ : BufTy).Contents (Elt F) → (⟨S64x32, .f32⟩ : BufTy).Contents (Elt F)),
    StableHlo.unary main_v79 main_v80 (fptosi 32 : (⟨S64x32, .f32⟩ : BufTy).Contents (Elt F) → (⟨S64x32, .i32⟩ : BufTy).Contents (Elt F)),
    StableHlo.nullary main_c_35 (constantI S_ 32 319#32),
    StableHlo.unary main_c_35 main_v81 (broadcastInDim S64x32 ![] bcast_S_S64x32 : (⟨S_, .i32⟩ : BufTy).Contents (Elt F) → (⟨S64x32, .i32⟩ : BufTy).Contents (Elt F)) ]

/-- The operations of @main's window 2, the calls inlined. -/
abbrev ops_part2 : List (HloOp τ sig (Elt F)) :=
  [ StableHlo.binary main_v80 main_v81 main_v82 (minsi : (⟨S64x32, .i32⟩ : BufTy).Contents (Elt F) → (⟨S64x32, .i32⟩ : BufTy).Contents (Elt F) → (⟨S64x32, .i32⟩ : BufTy).Contents (Elt F)),
    StableHlo.binary main_v77 main_v82 main_v83 (maxsi : (⟨S64x32, .i32⟩ : BufTy).Contents (Elt F) → (⟨S64x32, .i32⟩ : BufTy).Contents (Elt F) → (⟨S64x32, .i32⟩ : BufTy).Contents (Elt F)),
    StableHlo.binary main_v67 main_v83 main_v84 (addi : (⟨S64x32, .i32⟩ : BufTy).Contents (Elt F) → (⟨S64x32, .i32⟩ : BufTy).Contents (Elt F) → (⟨S64x32, .i32⟩ : BufTy).Contents (Elt F)),
    StableHlo.nullary main_c_36 (constantI S_ 32 2#32),
    StableHlo.TRef.unary (.of main_c_36 : StableHlo.TRef sig ⟨S_, .i32⟩) (.of main_call4_v0 : StableHlo.TRef sig ⟨S_, .i32⟩) id,
    StableHlo.TRef.unary (.of main_call4_v0 : StableHlo.TRef sig ⟨S_, .i32⟩) (.of main_call4_v1 : StableHlo.TRef sig ⟨S64x32, .i32⟩) (broadcastInDim S64x32 ![] bcast_S_S64x32),
    StableHlo.TRef.binary (.of main_v84 : StableHlo.TRef sig ⟨S64x32, .i32⟩) (.of main_call4_v1 : StableHlo.TRef sig ⟨S64x32, .i32⟩) (.of main_call4_v2 : StableHlo.TRef sig ⟨S64x32, .i32⟩) Host.divsi,
    StableHlo.TRef.unary (.of main_v84 : StableHlo.TRef sig ⟨S64x32, .i32⟩) (.of main_call4_v3 : StableHlo.TRef sig ⟨S64x32, .i32⟩) signi,
    StableHlo.TRef.unary (.of main_call4_v0 : StableHlo.TRef sig ⟨S_, .i32⟩) (.of main_call4_v4 : StableHlo.TRef sig ⟨S_, .i32⟩) signi,
    StableHlo.TRef.unary (.of main_call4_v4 : StableHlo.TRef sig ⟨S_, .i32⟩) (.of main_call4_v5 : StableHlo.TRef sig ⟨S64x32, .i32⟩) (broadcastInDim S64x32 ![] bcast_S_S64x32),
    StableHlo.TRef.binary (.of main_call4_v3 : StableHlo.TRef sig ⟨S64x32, .i32⟩) (.of main_call4_v5 : StableHlo.TRef sig ⟨S64x32, .i32⟩) (.of main_call4_v6 : StableHlo.TRef sig ⟨S64x32, .i1⟩) (cmpi .ne),
    StableHlo.TRef.unary (.of main_call4_v0 : StableHlo.TRef sig ⟨S_, .i32⟩) (.of main_call4_v7 : StableHlo.TRef sig ⟨S64x32, .i32⟩) (broadcastInDim S64x32 ![] bcast_S_S64x32),
    StableHlo.TRef.binary (.of main_v84 : StableHlo.TRef sig ⟨S64x32, .i32⟩) (.of main_call4_v7 : StableHlo.TRef sig ⟨S64x32, .i32⟩) (.of main_call4_v8 : StableHlo.TRef sig ⟨S64x32, .i32⟩) Host.remsi,
    StableHlo.TRef.nullary (.of main_call4_c : StableHlo.TRef sig ⟨S_, .i32⟩) (constantI S_ 32 0#32),
    StableHlo.TRef.unary (.of main_call4_c : StableHlo.TRef sig ⟨S_, .i32⟩) (.of main_call4_v9 : StableHlo.TRef sig ⟨S64x32, .i32⟩) (broadcastInDim S64x32 ![] bcast_S_S64x32),
    StableHlo.TRef.binary (.of main_call4_v8 : StableHlo.TRef sig ⟨S64x32, .i32⟩) (.of main_call4_v9 : StableHlo.TRef sig ⟨S64x32, .i32⟩) (.of main_call4_v10 : StableHlo.TRef sig ⟨S64x32, .i1⟩) (cmpi .ne),
    StableHlo.TRef.binary (.of main_call4_v6 : StableHlo.TRef sig ⟨S64x32, .i1⟩) (.of main_call4_v10 : StableHlo.TRef sig ⟨S64x32, .i1⟩) (.of main_call4_v11 : StableHlo.TRef sig ⟨S64x32, .i1⟩) andi,
    StableHlo.TRef.nullary (.of main_call4_c_0 : StableHlo.TRef sig ⟨S_, .i32⟩) (constantI S_ 32 1#32),
    StableHlo.TRef.unary (.of main_call4_c_0 : StableHlo.TRef sig ⟨S_, .i32⟩) (.of main_call4_v12 : StableHlo.TRef sig ⟨S64x32, .i32⟩) (broadcastInDim S64x32 ![] bcast_S_S64x32),
    StableHlo.TRef.binary (.of main_call4_v2 : StableHlo.TRef sig ⟨S64x32, .i32⟩) (.of main_call4_v12 : StableHlo.TRef sig ⟨S64x32, .i32⟩) (.of main_call4_v13 : StableHlo.TRef sig ⟨S64x32, .i32⟩) subi,
    StableHlo.TRef.ternary (.of main_call4_v11 : StableHlo.TRef sig ⟨S64x32, .i1⟩) (.of main_call4_v13 : StableHlo.TRef sig ⟨S64x32, .i32⟩) (.of main_call4_v2 : StableHlo.TRef sig ⟨S64x32, .i32⟩) (.of main_v85 : StableHlo.TRef sig ⟨S64x32, .i32⟩) select,
    StableHlo.binary main_v63 main_v75 main_v86 (addi : (⟨S64x32, .i32⟩ : BufTy).Contents (Elt F) → (⟨S64x32, .i32⟩ : BufTy).Contents (Elt F) → (⟨S64x32, .i32⟩ : BufTy).Contents (Elt F)),
    StableHlo.nullary main_c_37 (constantI S_ 32 2#32),
    StableHlo.TRef.unary (.of main_c_37 : StableHlo.TRef sig ⟨S_, .i32⟩) (.of main_call5_v0 : StableHlo.TRef sig ⟨S_, .i32⟩) id,
    StableHlo.TRef.unary (.of main_call5_v0 : StableHlo.TRef sig ⟨S_, .i32⟩) (.of main_call5_v1 : StableHlo.TRef sig ⟨S64x32, .i32⟩) (broadcastInDim S64x32 ![] bcast_S_S64x32),
    StableHlo.TRef.binary (.of main_v86 : StableHlo.TRef sig ⟨S64x32, .i32⟩) (.of main_call5_v1 : StableHlo.TRef sig ⟨S64x32, .i32⟩) (.of main_call5_v2 : StableHlo.TRef sig ⟨S64x32, .i32⟩) Host.divsi,
    StableHlo.TRef.unary (.of main_v86 : StableHlo.TRef sig ⟨S64x32, .i32⟩) (.of main_call5_v3 : StableHlo.TRef sig ⟨S64x32, .i32⟩) signi,
    StableHlo.TRef.unary (.of main_call5_v0 : StableHlo.TRef sig ⟨S_, .i32⟩) (.of main_call5_v4 : StableHlo.TRef sig ⟨S_, .i32⟩) signi,
    StableHlo.TRef.unary (.of main_call5_v4 : StableHlo.TRef sig ⟨S_, .i32⟩) (.of main_call5_v5 : StableHlo.TRef sig ⟨S64x32, .i32⟩) (broadcastInDim S64x32 ![] bcast_S_S64x32),
    StableHlo.TRef.binary (.of main_call5_v3 : StableHlo.TRef sig ⟨S64x32, .i32⟩) (.of main_call5_v5 : StableHlo.TRef sig ⟨S64x32, .i32⟩) (.of main_call5_v6 : StableHlo.TRef sig ⟨S64x32, .i1⟩) (cmpi .ne),
    StableHlo.TRef.unary (.of main_call5_v0 : StableHlo.TRef sig ⟨S_, .i32⟩) (.of main_call5_v7 : StableHlo.TRef sig ⟨S64x32, .i32⟩) (broadcastInDim S64x32 ![] bcast_S_S64x32),
    StableHlo.TRef.binary (.of main_v86 : StableHlo.TRef sig ⟨S64x32, .i32⟩) (.of main_call5_v7 : StableHlo.TRef sig ⟨S64x32, .i32⟩) (.of main_call5_v8 : StableHlo.TRef sig ⟨S64x32, .i32⟩) Host.remsi,
    StableHlo.TRef.nullary (.of main_call5_c : StableHlo.TRef sig ⟨S_, .i32⟩) (constantI S_ 32 0#32),
    StableHlo.TRef.unary (.of main_call5_c : StableHlo.TRef sig ⟨S_, .i32⟩) (.of main_call5_v9 : StableHlo.TRef sig ⟨S64x32, .i32⟩) (broadcastInDim S64x32 ![] bcast_S_S64x32),
    StableHlo.TRef.binary (.of main_call5_v8 : StableHlo.TRef sig ⟨S64x32, .i32⟩) (.of main_call5_v9 : StableHlo.TRef sig ⟨S64x32, .i32⟩) (.of main_call5_v10 : StableHlo.TRef sig ⟨S64x32, .i1⟩) (cmpi .ne),
    StableHlo.TRef.binary (.of main_call5_v6 : StableHlo.TRef sig ⟨S64x32, .i1⟩) (.of main_call5_v10 : StableHlo.TRef sig ⟨S64x32, .i1⟩) (.of main_call5_v11 : StableHlo.TRef sig ⟨S64x32, .i1⟩) andi,
    StableHlo.TRef.nullary (.of main_call5_c_0 : StableHlo.TRef sig ⟨S_, .i32⟩) (constantI S_ 32 1#32),
    StableHlo.TRef.unary (.of main_call5_c_0 : StableHlo.TRef sig ⟨S_, .i32⟩) (.of main_call5_v12 : StableHlo.TRef sig ⟨S64x32, .i32⟩) (broadcastInDim S64x32 ![] bcast_S_S64x32),
    StableHlo.TRef.binary (.of main_call5_v2 : StableHlo.TRef sig ⟨S64x32, .i32⟩) (.of main_call5_v12 : StableHlo.TRef sig ⟨S64x32, .i32⟩) (.of main_call5_v13 : StableHlo.TRef sig ⟨S64x32, .i32⟩) subi,
    StableHlo.TRef.ternary (.of main_call5_v11 : StableHlo.TRef sig ⟨S64x32, .i1⟩) (.of main_call5_v13 : StableHlo.TRef sig ⟨S64x32, .i32⟩) (.of main_call5_v2 : StableHlo.TRef sig ⟨S64x32, .i32⟩) (.of main_v87 : StableHlo.TRef sig ⟨S64x32, .i32⟩) select,
    StableHlo.unary main_v85 main_v88 (broadcastInDim S64x32x1 ![0, 1] bcast_S64x32_S64x32x1_0_1 : (⟨S64x32, .i32⟩ : BufTy).Contents (Elt F) → (⟨S64x32x1, .i32⟩ : BufTy).Contents (Elt F)),
    StableHlo.unary main_v67 main_v89 (broadcastInDim S64x32x1 ![0, 1] bcast_S64x32_S64x32x1_0_1 : (⟨S64x32, .i32⟩ : BufTy).Contents (Elt F) → (⟨S64x32x1, .i32⟩ : BufTy).Contents (Elt F)),
    StableHlo.unary main_v67 main_v90 (broadcastInDim S64x32x1 ![0, 1] bcast_S64x32_S64x32x1_0_1 : (⟨S64x32, .i32⟩ : BufTy).Contents (Elt F) → (⟨S64x32x1, .i32⟩ : BufTy).Contents (Elt F)),
    StableHlo.unary main_v83 main_v91 (broadcastInDim S64x32x1 ![0, 1] bcast_S64x32_S64x32x1_0_1 : (⟨S64x32, .i32⟩ : BufTy).Contents (Elt F) → (⟨S64x32x1, .i32⟩ : BufTy).Contents (Elt F)),
    StableHlo.unary main_v83 main_v92 (broadcastInDim S64x32x1 ![0, 1] bcast_S64x32_S64x32x1_0_1 : (⟨S64x32, .i32⟩ : BufTy).Contents (Elt F) → (⟨S64x32x1, .i32⟩ : BufTy).Contents (Elt F)),
    StableHlo.nary ![main_v88, main_v89, main_v90, main_v91, main_v92] main_v93 (fun u => concatenate S64x32x5 2 [⟨S64x32x1, u 0⟩, ⟨S64x32x1, u 1⟩, ⟨S64x32x1, u 2⟩, ⟨S64x32x1, u 3⟩, ⟨S64x32x1, u 4⟩] concatenates_S64x32x1_S64x32x1_S64x32x1_S64x32x1_S64x32x1_S64x32x5_d2),
    StableHlo.unary main_v87 main_v94 (broadcastInDim S64x32x1 ![0, 1] bcast_S64x32_S64x32x1_0_1 : (⟨S64x32, .i32⟩ : BufTy).Contents (Elt F) → (⟨S64x32x1, .i32⟩ : BufTy).Contents (Elt F)),
    StableHlo.unary main_v63 main_v95 (broadcastInDim S64x32x1 ![0, 1] bcast_S64x32_S64x32x1_0_1 : (⟨S64x32, .i32⟩ : BufTy).Contents (Elt F) → (⟨S64x32x1, .i32⟩ : BufTy).Contents (Elt F)),
    StableHlo.unary main_v75 main_v96 (broadcastInDim S64x32x1 ![0, 1] bcast_S64x32_S64x32x1_0_1 : (⟨S64x32, .i32⟩ : BufTy).Contents (Elt F) → (⟨S64x32x1, .i32⟩ : BufTy).Contents (Elt F)),
    StableHlo.unary main_v63 main_v97 (broadcastInDim S64x32x1 ![0, 1] bcast_S64x32_S64x32x1_0_1 : (⟨S64x32, .i32⟩ : BufTy).Contents (Elt F) → (⟨S64x32x1, .i32⟩ : BufTy).Contents (Elt F)),
    StableHlo.unary main_v75 main_v98 (broadcastInDim S64x32x1 ![0, 1] bcast_S64x32_S64x32x1_0_1 : (⟨S64x32, .i32⟩ : BufTy).Contents (Elt F) → (⟨S64x32x1, .i32⟩ : BufTy).Contents (Elt F)),
    StableHlo.nary ![main_v94, main_v95, main_v96, main_v97, main_v98] main_v99 (fun u => concatenate S64x32x5 2 [⟨S64x32x1, u 0⟩, ⟨S64x32x1, u 1⟩, ⟨S64x32x1, u 2⟩, ⟨S64x32x1, u 3⟩, ⟨S64x32x1, u 4⟩] concatenates_S64x32x1_S64x32x1_S64x32x1_S64x32x1_S64x32x1_S64x32x5_d2),
    StableHlo.nullary main_c_38 (constantI S_ 32 320#32),
    StableHlo.unary main_c_38 main_v100 (broadcastInDim S64x32x5 ![] bcast_S_S64x32x5 : (⟨S_, .i32⟩ : BufTy).Contents (Elt F) → (⟨S64x32x5, .i32⟩ : BufTy).Contents (Elt F)),
    StableHlo.binary main_v93 main_v100 main_v101 (muli : (⟨S64x32x5, .i32⟩ : BufTy).Contents (Elt F) → (⟨S64x32x5, .i32⟩ : BufTy).Contents (Elt F) → (⟨S64x32x5, .i32⟩ : BufTy).Contents (Elt F)),
    StableHlo.binary main_v101 main_v99 main_v102 (addi : (⟨S64x32x5, .i32⟩ : BufTy).Contents (Elt F) → (⟨S64x32x5, .i32⟩ : BufTy).Contents (Elt F) → (⟨S64x32x5, .i32⟩ : BufTy).Contents (Elt F)),
    StableHlo.reshape main_v102 main_v103 rfl shapeCasts_S64x32x5_S64x160,
    StableHlo.reshape main_arg2 main_v104 rfl shapeCasts_S64x4x320x320_S64x4x102400,
    StableHlo.unary main_v103 main_v105 (broadcastInDim S64x1x160 ![0, 2] bcast_S64x160_S64x1x160_0_2 : (⟨S64x160, .i32⟩ : BufTy).Contents (Elt F) → (⟨S64x1x160, .i32⟩ : BufTy).Contents (Elt F)),
    StableHlo.unary main_v105 main_v106 (broadcastInDim S64x4x160 ![0, 1, 2] bcast_S64x1x160_S64x4x160_0_1_2 : (⟨S64x1x160, .i32⟩ : BufTy).Contents (Elt F) → (⟨S64x4x160, .i32⟩ : BufTy).Contents (Elt F)),
    StableHlo.TRef.nullary (.of main_call6_c : StableHlo.TRef sig ⟨S_, .i32⟩) (constantI S_ 32 0#32),
    StableHlo.TRef.unary (.of main_call6_c : StableHlo.TRef sig ⟨S_, .i32⟩) (.of main_call6_v0 : StableHlo.TRef sig ⟨S64x4x160, .i32⟩) (broadcastInDim S64x4x160 ![] bcast_S_S64x4x160),
    StableHlo.TRef.binary (.of main_v106 : StableHlo.TRef sig ⟨S64x4x160, .i32⟩) (.of main_call6_v0 : StableHlo.TRef sig ⟨S64x4x160, .i32⟩) (.of main_call6_v1 : StableHlo.TRef sig ⟨S64x4x160, .i1⟩) (cmpi .slt),
    StableHlo.TRef.nullary (.of main_call6_c_0 : StableHlo.TRef sig ⟨S_, .i32⟩) (constantI S_ 32 102400#32),
    StableHlo.TRef.unary (.of main_call6_c_0 : StableHlo.TRef sig ⟨S_, .i32⟩) (.of main_call6_v2 : StableHlo.TRef sig ⟨S64x4x160, .i32⟩) (broadcastInDim S64x4x160 ![] bcast_S_S64x4x160),
    StableHlo.TRef.binary (.of main_v106 : StableHlo.TRef sig ⟨S64x4x160, .i32⟩) (.of main_call6_v2 : StableHlo.TRef sig ⟨S64x4x160, .i32⟩) (.of main_call6_v3 : StableHlo.TRef sig ⟨S64x4x160, .i32⟩) addi,
    StableHlo.TRef.ternary (.of main_call6_v1 : StableHlo.TRef sig ⟨S64x4x160, .i1⟩) (.of main_call6_v3 : StableHlo.TRef sig ⟨S64x4x160, .i32⟩) (.of main_v106 : StableHlo.TRef sig ⟨S64x4x160, .i32⟩) (.of main_call6_v4 : StableHlo.TRef sig ⟨S64x4x160, .i32⟩) select,
    StableHlo.TRef.reshape (.of main_call6_v4 : StableHlo.TRef sig ⟨S64x4x160, .i32⟩) (.of main_call6_v5 : StableHlo.TRef sig ⟨S64x4x160x1, .i32⟩) rfl shapeCasts_S64x4x160_S64x4x160x1,
    StableHlo.TRef.nullary (.of main_call6_c_1 : StableHlo.TRef sig ⟨S1, .i32⟩) (constantI S1 32 102399#32),
    StableHlo.TRef.nullary (.of main_call6_c_2 : StableHlo.TRef sig ⟨S_, .i32⟩) (constantI S_ 32 0#32),
    StableHlo.TRef.unary (.of main_call6_c_2 : StableHlo.TRef sig ⟨S_, .i32⟩) (.of main_call6_v6 : StableHlo.TRef sig ⟨S64x4x160x1, .i32⟩) (broadcastInDim S64x4x160x1 ![] bcast_S_S64x4x160x1),
    StableHlo.TRef.binary (.of main_call6_v5 : StableHlo.TRef sig ⟨S64x4x160x1, .i32⟩) (.of main_call6_v6 : StableHlo.TRef sig ⟨S64x4x160x1, .i32⟩) (.of main_call6_v7 : StableHlo.TRef sig ⟨S64x4x160x1, .i1⟩) (cmpi .sge),
    StableHlo.TRef.unary (.of main_call6_c_1 : StableHlo.TRef sig ⟨S1, .i32⟩) (.of main_call6_v8 : StableHlo.TRef sig ⟨S1x1x1x1, .i32⟩) (broadcastInDim S1x1x1x1 ![3] bcast_S1_S1x1x1x1_3),
    StableHlo.TRef.unary (.of main_call6_v8 : StableHlo.TRef sig ⟨S1x1x1x1, .i32⟩) (.of main_call6_v9 : StableHlo.TRef sig ⟨S64x4x160x1, .i32⟩) (broadcastInDim S64x4x160x1 ![0, 1, 2, 3] bcast_S1x1x1x1_S64x4x160x1_0_1_2_3),
    StableHlo.TRef.binary (.of main_call6_v5 : StableHlo.TRef sig ⟨S64x4x160x1, .i32⟩) (.of main_call6_v9 : StableHlo.TRef sig ⟨S64x4x160x1, .i32⟩) (.of main_call6_v10 : StableHlo.TRef sig ⟨S64x4x160x1, .i1⟩) (cmpi .sle),
    StableHlo.TRef.binary (.of main_call6_v7 : StableHlo.TRef sig ⟨S64x4x160x1, .i1⟩) (.of main_call6_v10 : StableHlo.TRef sig ⟨S64x4x160x1, .i1⟩) (.of main_call6_v11 : StableHlo.TRef sig ⟨S64x4x160x1, .i1⟩) andi,
    StableHlo.TRef.nullary (.of main_call6_c_3 : StableHlo.TRef sig ⟨S_, .i1⟩) (constantI S_ 1 1#1),
    StableHlo.TRef.binary (.of main_call6_v11 : StableHlo.TRef sig ⟨S64x4x160x1, .i1⟩) (.of main_call6_c_3 : StableHlo.TRef sig ⟨S_, .i1⟩) (.of main_call6_v12 : StableHlo.TRef sig ⟨S64x4x160, .i1⟩) (fun x v => Host.reduce IntOp.andi x v reducesTo_S64x4x160x1_S64x4x160_d3 h_S_),
    StableHlo.TRef.binary (.of main_v104 : StableHlo.TRef sig ⟨S64x4x102400, .f32⟩) (.of main_call6_v5 : StableHlo.TRef sig ⟨S64x4x160x1, .i32⟩) (.of main_call6_v13 : StableHlo.TRef sig ⟨S64x4x160, .f32⟩) (fun x i => Host.gather gather_S64x4x102400_S64x4x160x1_S64x4x160_n_2_01_01_2_3_111 x i),
    StableHlo.TRef.nullary (.of main_call6_cst : StableHlo.TRef sig ⟨S_, .f32⟩) (constant S_ .f32 0x7FC00000#32),
    StableHlo.TRef.unary (.of main_call6_cst : StableHlo.TRef sig ⟨S_, .f32⟩) (.of main_call6_v14 : StableHlo.TRef sig ⟨S64x4x160, .f32⟩) (broadcastInDim S64x4x160 ![] bcast_S_S64x4x160),
    StableHlo.TRef.ternary (.of main_call6_v12 : StableHlo.TRef sig ⟨S64x4x160, .i1⟩) (.of main_call6_v13 : StableHlo.TRef sig ⟨S64x4x160, .f32⟩) (.of main_call6_v14 : StableHlo.TRef sig ⟨S64x4x160, .f32⟩) (.of main_v107 : StableHlo.TRef sig ⟨S64x4x160, .f32⟩) select,
    StableHlo.unary main_v107 main_v108 ((transpose S64x160x4 [0, 2, 1] · transposes_S64x4x160_S64x160x4_0_2_1) : (⟨S64x4x160, .f32⟩ : BufTy).Contents (Elt F) → (⟨S64x160x4, .f32⟩ : BufTy).Contents (Elt F)),
    StableHlo.reshape main_arg1 main_v109 rfl shapeCasts_S64x1x320x320_S64x102400,
    StableHlo.TRef.nullary (.of main_call7_c : StableHlo.TRef sig ⟨S_, .i32⟩) (constantI S_ 32 0#32),
    StableHlo.TRef.unary (.of main_call7_c : StableHlo.TRef sig ⟨S_, .i32⟩) (.of main_call7_v0 : StableHlo.TRef sig ⟨S64x160, .i32⟩) (broadcastInDim S64x160 ![] bcast_S_S64x160),
    StableHlo.TRef.binary (.of main_v103 : StableHlo.TRef sig ⟨S64x160, .i32⟩) (.of main_call7_v0 : StableHlo.TRef sig ⟨S64x160, .i32⟩) (.of main_call7_v1 : StableHlo.TRef sig ⟨S64x160, .i1⟩) (cmpi .slt),
    StableHlo.TRef.nullary (.of main_call7_c_0 : StableHlo.TRef sig ⟨S_, .i32⟩) (constantI S_ 32 102400#32),
    StableHlo.TRef.unary (.of main_call7_c_0 : StableHlo.TRef sig ⟨S_, .i32⟩) (.of main_call7_v2 : StableHlo.TRef sig ⟨S64x160, .i32⟩) (broadcastInDim S64x160 ![] bcast_S_S64x160),
    StableHlo.TRef.binary (.of main_v103 : StableHlo.TRef sig ⟨S64x160, .i32⟩) (.of main_call7_v2 : StableHlo.TRef sig ⟨S64x160, .i32⟩) (.of main_call7_v3 : StableHlo.TRef sig ⟨S64x160, .i32⟩) addi,
    StableHlo.TRef.ternary (.of main_call7_v1 : StableHlo.TRef sig ⟨S64x160, .i1⟩) (.of main_call7_v3 : StableHlo.TRef sig ⟨S64x160, .i32⟩) (.of main_v103 : StableHlo.TRef sig ⟨S64x160, .i32⟩) (.of main_call7_v4 : StableHlo.TRef sig ⟨S64x160, .i32⟩) select,
    StableHlo.TRef.reshape (.of main_call7_v4 : StableHlo.TRef sig ⟨S64x160, .i32⟩) (.of main_call7_v5 : StableHlo.TRef sig ⟨S64x160x1, .i32⟩) rfl shapeCasts_S64x160_S64x160x1,
    StableHlo.TRef.nullary (.of main_call7_c_1 : StableHlo.TRef sig ⟨S1, .i32⟩) (constantI S1 32 102399#32),
    StableHlo.TRef.nullary (.of main_call7_c_2 : StableHlo.TRef sig ⟨S_, .i32⟩) (constantI S_ 32 0#32),
    StableHlo.TRef.unary (.of main_call7_c_2 : StableHlo.TRef sig ⟨S_, .i32⟩) (.of main_call7_v6 : StableHlo.TRef sig ⟨S64x160x1, .i32⟩) (broadcastInDim S64x160x1 ![] bcast_S_S64x160x1),
    StableHlo.TRef.binary (.of main_call7_v5 : StableHlo.TRef sig ⟨S64x160x1, .i32⟩) (.of main_call7_v6 : StableHlo.TRef sig ⟨S64x160x1, .i32⟩) (.of main_call7_v7 : StableHlo.TRef sig ⟨S64x160x1, .i1⟩) (cmpi .sge),
    StableHlo.TRef.unary (.of main_call7_c_1 : StableHlo.TRef sig ⟨S1, .i32⟩) (.of main_call7_v8 : StableHlo.TRef sig ⟨S1x1x1, .i32⟩) (broadcastInDim S1x1x1 ![2] bcast_S1_S1x1x1_2),
    StableHlo.TRef.unary (.of main_call7_v8 : StableHlo.TRef sig ⟨S1x1x1, .i32⟩) (.of main_call7_v9 : StableHlo.TRef sig ⟨S64x160x1, .i32⟩) (broadcastInDim S64x160x1 ![0, 1, 2] bcast_S1x1x1_S64x160x1_0_1_2),
    StableHlo.TRef.binary (.of main_call7_v5 : StableHlo.TRef sig ⟨S64x160x1, .i32⟩) (.of main_call7_v9 : StableHlo.TRef sig ⟨S64x160x1, .i32⟩) (.of main_call7_v10 : StableHlo.TRef sig ⟨S64x160x1, .i1⟩) (cmpi .sle),
    StableHlo.TRef.binary (.of main_call7_v7 : StableHlo.TRef sig ⟨S64x160x1, .i1⟩) (.of main_call7_v10 : StableHlo.TRef sig ⟨S64x160x1, .i1⟩) (.of main_call7_v11 : StableHlo.TRef sig ⟨S64x160x1, .i1⟩) andi,
    StableHlo.TRef.nullary (.of main_call7_c_3 : StableHlo.TRef sig ⟨S_, .i1⟩) (constantI S_ 1 1#1),
    StableHlo.TRef.binary (.of main_call7_v11 : StableHlo.TRef sig ⟨S64x160x1, .i1⟩) (.of main_call7_c_3 : StableHlo.TRef sig ⟨S_, .i1⟩) (.of main_call7_v12 : StableHlo.TRef sig ⟨S64x160, .i1⟩) (fun x v => Host.reduce IntOp.andi x v reducesTo_S64x160x1_S64x160_d2 h_S_),
    StableHlo.TRef.binary (.of main_v109 : StableHlo.TRef sig ⟨S64x102400, .f32⟩) (.of main_call7_v5 : StableHlo.TRef sig ⟨S64x160x1, .i32⟩) (.of main_call7_v13 : StableHlo.TRef sig ⟨S64x160, .f32⟩) (fun x i => Host.gather gather_S64x102400_S64x160x1_S64x160_n_1_0_0_1_2_11 x i),
    StableHlo.TRef.nullary (.of main_call7_cst : StableHlo.TRef sig ⟨S_, .f32⟩) (constant S_ .f32 0x7FC00000#32),
    StableHlo.TRef.unary (.of main_call7_cst : StableHlo.TRef sig ⟨S_, .f32⟩) (.of main_call7_v14 : StableHlo.TRef sig ⟨S64x160, .f32⟩) (broadcastInDim S64x160 ![] bcast_S_S64x160),
    StableHlo.TRef.ternary (.of main_call7_v12 : StableHlo.TRef sig ⟨S64x160, .i1⟩) (.of main_call7_v13 : StableHlo.TRef sig ⟨S64x160, .f32⟩) (.of main_call7_v14 : StableHlo.TRef sig ⟨S64x160, .f32⟩) (.of main_v110 : StableHlo.TRef sig ⟨S64x160, .f32⟩) select,
    StableHlo.unary main_v36 main_v111 (broadcastInDim S64x32x1 ![0, 1] bcast_S64x32_S64x32x1_0_1 : (⟨S64x32, .f32⟩ : BufTy).Contents (Elt F) → (⟨S64x32x1, .f32⟩ : BufTy).Contents (Elt F)),
    StableHlo.unary main_v41 main_v112 (broadcastInDim S64x32x1 ![0, 1] bcast_S64x32_S64x32x1_0_1 : (⟨S64x32, .f32⟩ : BufTy).Contents (Elt F) → (⟨S64x32x1, .f32⟩ : BufTy).Contents (Elt F)),
    StableHlo.unary main_v50 main_v113 (broadcastInDim S64x32x1 ![0, 1] bcast_S64x32_S64x32x1_0_1 : (⟨S64x32, .f32⟩ : BufTy).Contents (Elt F) → (⟨S64x32x1, .f32⟩ : BufTy).Contents (Elt F)),
    StableHlo.unary main_v59 main_v114 (broadcastInDim S64x32x1 ![0, 1] bcast_S64x32_S64x32x1_0_1 : (⟨S64x32, .f32⟩ : BufTy).Contents (Elt F) → (⟨S64x32x1, .f32⟩ : BufTy).Contents (Elt F)),
    StableHlo.nary ![main_v111, main_v112, main_v113, main_v114] main_v115 (fun u => concatenate S64x32x4 2 [⟨S64x32x1, u 0⟩, ⟨S64x32x1, u 1⟩, ⟨S64x32x1, u 2⟩, ⟨S64x32x1, u 3⟩] concatenates_S64x32x1_S64x32x1_S64x32x1_S64x32x1_S64x32x4_d2),
    StableHlo.unary main_v115 main_v116 (broadcastInDim S64x32x1x4 ![0, 1, 3] bcast_S64x32x4_S64x32x1x4_0_1_3 : (⟨S64x32x4, .f32⟩ : BufTy).Contents (Elt F) → (⟨S64x32x1x4, .f32⟩ : BufTy).Contents (Elt F)),
    StableHlo.unary main_v116 main_v117 (broadcastInDim S64x32x5x4 ![0, 1, 2, 3] bcast_S64x32x1x4_S64x32x5x4_0_1_2_3 : (⟨S64x32x1x4, .f32⟩ : BufTy).Contents (Elt F) → (⟨S64x32x5x4, .f32⟩ : BufTy).Contents (Elt F)),
    StableHlo.reshape main_v117 main_v118 rfl shapeCasts_S64x32x5x4_S64x160x4,
    StableHlo.unary main_v31 main_v119 (broadcastInDim S64x32x1 ![0, 1] bcast_S64x32_S64x32x1_0_1 : (⟨S64x32, .f32⟩ : BufTy).Contents (Elt F) → (⟨S64x32x1, .f32⟩ : BufTy).Contents (Elt F)),
    StableHlo.unary main_v119 main_v120 (broadcastInDim S64x32x5 ![0, 1, 2] bcast_S64x32x1_S64x32x5_0_1_2 : (⟨S64x32x1, .f32⟩ : BufTy).Contents (Elt F) → (⟨S64x32x5, .f32⟩ : BufTy).Contents (Elt F)),
    StableHlo.reshape main_v120 main_v121 rfl shapeCasts_S64x32x5_S64x160,
    StableHlo.unary main_v108 main_v122 ((extractStridedSlice S64x160x1 ![0, 0, 0] · slices_S64x160x4_S64x160x1_0_0_0) : (⟨S64x160x4, .f32⟩ : BufTy).Contents (Elt F) → (⟨S64x160x1, .f32⟩ : BufTy).Contents (Elt F)),
    StableHlo.reshape main_v122 main_v123 rfl shapeCasts_S64x160x1_S64x160,
    StableHlo.nullary main_cst_39 (constant S_ .f32 0x00000000#32),
    StableHlo.nullary main_cst_40 (constant S_ .f32 0x3F7D70A4#32),
    StableHlo.TRef.unary (.of main_cst_39 : StableHlo.TRef sig ⟨S_, .f32⟩) (.of main_call8_v0 : StableHlo.TRef sig ⟨S_, .f32⟩) id,
    StableHlo.TRef.unary (.of main_call8_v0 : StableHlo.TRef sig ⟨S_, .f32⟩) (.of main_call8_v1 : StableHlo.TRef sig ⟨S64x160, .f32⟩) (broadcastInDim S64x160 ![] bcast_S_S64x160),
    StableHlo.TRef.binary (.of main_call8_v1 : StableHlo.TRef sig ⟨S64x160, .f32⟩) (.of main_v123 : StableHlo.TRef sig ⟨S64x160, .f32⟩) (.of main_call8_v2 : StableHlo.TRef sig ⟨S64x160, .f32⟩) maximumf,
    StableHlo.TRef.unary (.of main_cst_40 : StableHlo.TRef sig ⟨S_, .f32⟩) (.of main_call8_v3 : StableHlo.TRef sig ⟨S_, .f32⟩) id,
    StableHlo.TRef.unary (.of main_call8_v3 : StableHlo.TRef sig ⟨S_, .f32⟩) (.of main_call8_v4 : StableHlo.TRef sig ⟨S64x160, .f32⟩) (broadcastInDim S64x160 ![] bcast_S_S64x160),
    StableHlo.TRef.binary (.of main_call8_v4 : StableHlo.TRef sig ⟨S64x160, .f32⟩) (.of main_call8_v2 : StableHlo.TRef sig ⟨S64x160, .f32⟩) (.of main_v124 : StableHlo.TRef sig ⟨S64x160, .f32⟩) minimumf,
    StableHlo.unary main_v108 main_v125 ((extractStridedSlice S64x160x1 ![0, 0, 1] · slices_S64x160x4_S64x160x1_0_0_1) : (⟨S64x160x4, .f32⟩ : BufTy).Contents (Elt F) → (⟨S64x160x1, .f32⟩ : BufTy).Contents (Elt F)),
    StableHlo.reshape main_v125 main_v126 rfl shapeCasts_S64x160x1_S64x160,
    StableHlo.nullary main_cst_41 (constant S_ .f32 0x00000000#32),
    StableHlo.nullary main_cst_42 (constant S_ .f32 0x3F7D70A4#32),
    StableHlo.TRef.unary (.of main_cst_41 : StableHlo.TRef sig ⟨S_, .f32⟩) (.of main_call9_v0 : StableHlo.TRef sig ⟨S_, .f32⟩) id,
    StableHlo.TRef.unary (.of main_call9_v0 : StableHlo.TRef sig ⟨S_, .f32⟩) (.of main_call9_v1 : StableHlo.TRef sig ⟨S64x160, .f32⟩) (broadcastInDim S64x160 ![] bcast_S_S64x160),
    StableHlo.TRef.binary (.of main_call9_v1 : StableHlo.TRef sig ⟨S64x160, .f32⟩) (.of main_v126 : StableHlo.TRef sig ⟨S64x160, .f32⟩) (.of main_call9_v2 : StableHlo.TRef sig ⟨S64x160, .f32⟩) maximumf,
    StableHlo.TRef.unary (.of main_cst_42 : StableHlo.TRef sig ⟨S_, .f32⟩) (.of main_call9_v3 : StableHlo.TRef sig ⟨S_, .f32⟩) id,
    StableHlo.TRef.unary (.of main_call9_v3 : StableHlo.TRef sig ⟨S_, .f32⟩) (.of main_call9_v4 : StableHlo.TRef sig ⟨S64x160, .f32⟩) (broadcastInDim S64x160 ![] bcast_S_S64x160),
    StableHlo.TRef.binary (.of main_call9_v4 : StableHlo.TRef sig ⟨S64x160, .f32⟩) (.of main_call9_v2 : StableHlo.TRef sig ⟨S64x160, .f32⟩) (.of main_v127 : StableHlo.TRef sig ⟨S64x160, .f32⟩) minimumf,
    StableHlo.unary main_v108 main_v128 ((extractStridedSlice S64x160x1 ![0, 0, 2] · slices_S64x160x4_S64x160x1_0_0_2) : (⟨S64x160x4, .f32⟩ : BufTy).Contents (Elt F) → (⟨S64x160x1, .f32⟩ : BufTy).Contents (Elt F)),
    StableHlo.reshape main_v128 main_v129 rfl shapeCasts_S64x160x1_S64x160,
    StableHlo.nullary main_cst_43 (constant S_ .f32 0x3C23D70A#32),
    StableHlo.nullary main_cst_44 (constant S_ .f32 0x3F800000#32),
    StableHlo.TRef.unary (.of main_cst_43 : StableHlo.TRef sig ⟨S_, .f32⟩) (.of main_call10_v0 : StableHlo.TRef sig ⟨S_, .f32⟩) id,
    StableHlo.TRef.unary (.of main_call10_v0 : StableHlo.TRef sig ⟨S_, .f32⟩) (.of main_call10_v1 : StableHlo.TRef sig ⟨S64x160, .f32⟩) (broadcastInDim S64x160 ![] bcast_S_S64x160),
    StableHlo.TRef.binary (.of main_call10_v1 : StableHlo.TRef sig ⟨S64x160, .f32⟩) (.of main_v129 : StableHlo.TRef sig ⟨S64x160, .f32⟩) (.of main_call10_v2 : StableHlo.TRef sig ⟨S64x160, .f32⟩) maximumf,
    StableHlo.TRef.unary (.of main_cst_44 : StableHlo.TRef sig ⟨S_, .f32⟩) (.of main_call10_v3 : StableHlo.TRef sig ⟨S_, .f32⟩) id,
    StableHlo.TRef.unary (.of main_call10_v3 : StableHlo.TRef sig ⟨S_, .f32⟩) (.of main_call10_v4 : StableHlo.TRef sig ⟨S64x160, .f32⟩) (broadcastInDim S64x160 ![] bcast_S_S64x160),
    StableHlo.TRef.binary (.of main_call10_v4 : StableHlo.TRef sig ⟨S64x160, .f32⟩) (.of main_call10_v2 : StableHlo.TRef sig ⟨S64x160, .f32⟩) (.of main_v130 : StableHlo.TRef sig ⟨S64x160, .f32⟩) minimumf,
    StableHlo.unary main_v108 main_v131 ((extractStridedSlice S64x160x1 ![0, 0, 3] · slices_S64x160x4_S64x160x1_0_0_3) : (⟨S64x160x4, .f32⟩ : BufTy).Contents (Elt F) → (⟨S64x160x1, .f32⟩ : BufTy).Contents (Elt F)),
    StableHlo.reshape main_v131 main_v132 rfl shapeCasts_S64x160x1_S64x160 ]

/-- The operations of @main's window 3, the calls inlined. -/
abbrev ops_part3 : List (HloOp τ sig (Elt F)) :=
  [ StableHlo.nullary main_cst_45 (constant S_ .f32 0x3C23D70A#32),
    StableHlo.nullary main_cst_46 (constant S_ .f32 0x3F800000#32),
    StableHlo.TRef.unary (.of main_cst_45 : StableHlo.TRef sig ⟨S_, .f32⟩) (.of main_call11_v0 : StableHlo.TRef sig ⟨S_, .f32⟩) id,
    StableHlo.TRef.unary (.of main_call11_v0 : StableHlo.TRef sig ⟨S_, .f32⟩) (.of main_call11_v1 : StableHlo.TRef sig ⟨S64x160, .f32⟩) (broadcastInDim S64x160 ![] bcast_S_S64x160),
    StableHlo.TRef.binary (.of main_call11_v1 : StableHlo.TRef sig ⟨S64x160, .f32⟩) (.of main_v132 : StableHlo.TRef sig ⟨S64x160, .f32⟩) (.of main_call11_v2 : StableHlo.TRef sig ⟨S64x160, .f32⟩) maximumf,
    StableHlo.TRef.unary (.of main_cst_46 : StableHlo.TRef sig ⟨S_, .f32⟩) (.of main_call11_v3 : StableHlo.TRef sig ⟨S_, .f32⟩) id,
    StableHlo.TRef.unary (.of main_call11_v3 : StableHlo.TRef sig ⟨S_, .f32⟩) (.of main_call11_v4 : StableHlo.TRef sig ⟨S64x160, .f32⟩) (broadcastInDim S64x160 ![] bcast_S_S64x160),
    StableHlo.TRef.binary (.of main_call11_v4 : StableHlo.TRef sig ⟨S64x160, .f32⟩) (.of main_call11_v2 : StableHlo.TRef sig ⟨S64x160, .f32⟩) (.of main_v133 : StableHlo.TRef sig ⟨S64x160, .f32⟩) minimumf,
    StableHlo.binary main_v124 main_v130 main_v134 (minimumf : (⟨S64x160, .f32⟩ : BufTy).Contents (Elt F) → (⟨S64x160, .f32⟩ : BufTy).Contents (Elt F) → (⟨S64x160, .f32⟩ : BufTy).Contents (Elt F)),
    StableHlo.binary main_v124 main_v130 main_v135 (maximumf : (⟨S64x160, .f32⟩ : BufTy).Contents (Elt F) → (⟨S64x160, .f32⟩ : BufTy).Contents (Elt F) → (⟨S64x160, .f32⟩ : BufTy).Contents (Elt F)),
    StableHlo.binary main_v127 main_v133 main_v136 (minimumf : (⟨S64x160, .f32⟩ : BufTy).Contents (Elt F) → (⟨S64x160, .f32⟩ : BufTy).Contents (Elt F) → (⟨S64x160, .f32⟩ : BufTy).Contents (Elt F)),
    StableHlo.binary main_v127 main_v133 main_v137 (maximumf : (⟨S64x160, .f32⟩ : BufTy).Contents (Elt F) → (⟨S64x160, .f32⟩ : BufTy).Contents (Elt F) → (⟨S64x160, .f32⟩ : BufTy).Contents (Elt F)),
    StableHlo.unary main_v134 main_v138 (broadcastInDim S64x160x1 ![0, 1] bcast_S64x160_S64x160x1_0_1 : (⟨S64x160, .f32⟩ : BufTy).Contents (Elt F) → (⟨S64x160x1, .f32⟩ : BufTy).Contents (Elt F)),
    StableHlo.unary main_v136 main_v139 (broadcastInDim S64x160x1 ![0, 1] bcast_S64x160_S64x160x1_0_1 : (⟨S64x160, .f32⟩ : BufTy).Contents (Elt F) → (⟨S64x160x1, .f32⟩ : BufTy).Contents (Elt F)),
    StableHlo.unary main_v135 main_v140 (broadcastInDim S64x160x1 ![0, 1] bcast_S64x160_S64x160x1_0_1 : (⟨S64x160, .f32⟩ : BufTy).Contents (Elt F) → (⟨S64x160x1, .f32⟩ : BufTy).Contents (Elt F)),
    StableHlo.unary main_v137 main_v141 (broadcastInDim S64x160x1 ![0, 1] bcast_S64x160_S64x160x1_0_1 : (⟨S64x160, .f32⟩ : BufTy).Contents (Elt F) → (⟨S64x160x1, .f32⟩ : BufTy).Contents (Elt F)),
    StableHlo.nary ![main_v138, main_v139, main_v140, main_v141] main_v142 (fun u => concatenate S64x160x4 2 [⟨S64x160x1, u 0⟩, ⟨S64x160x1, u 1⟩, ⟨S64x160x1, u 2⟩, ⟨S64x160x1, u 3⟩] concatenates_S64x160x1_S64x160x1_S64x160x1_S64x160x1_S64x160x4_d2),
    StableHlo.unary main_v142 main_v143 ((extractStridedSlice S64x160x1 ![0, 0, 0] · slices_S64x160x4_S64x160x1_0_0_0) : (⟨S64x160x4, .f32⟩ : BufTy).Contents (Elt F) → (⟨S64x160x1, .f32⟩ : BufTy).Contents (Elt F)),
    StableHlo.reshape main_v143 main_v144 rfl shapeCasts_S64x160x1_S64x160,
    StableHlo.unary main_v142 main_v145 ((extractStridedSlice S64x160x1 ![0, 0, 1] · slices_S64x160x4_S64x160x1_0_0_1) : (⟨S64x160x4, .f32⟩ : BufTy).Contents (Elt F) → (⟨S64x160x1, .f32⟩ : BufTy).Contents (Elt F)),
    StableHlo.reshape main_v145 main_v146 rfl shapeCasts_S64x160x1_S64x160,
    StableHlo.unary main_v142 main_v147 ((extractStridedSlice S64x160x1 ![0, 0, 2] · slices_S64x160x4_S64x160x1_0_0_2) : (⟨S64x160x4, .f32⟩ : BufTy).Contents (Elt F) → (⟨S64x160x1, .f32⟩ : BufTy).Contents (Elt F)),
    StableHlo.reshape main_v147 main_v148 rfl shapeCasts_S64x160x1_S64x160,
    StableHlo.unary main_v142 main_v149 ((extractStridedSlice S64x160x1 ![0, 0, 3] · slices_S64x160x4_S64x160x1_0_0_3) : (⟨S64x160x4, .f32⟩ : BufTy).Contents (Elt F) → (⟨S64x160x1, .f32⟩ : BufTy).Contents (Elt F)),
    StableHlo.reshape main_v149 main_v150 rfl shapeCasts_S64x160x1_S64x160,
    StableHlo.unary main_v118 main_v151 ((extractStridedSlice S64x160x1 ![0, 0, 0] · slices_S64x160x4_S64x160x1_0_0_0) : (⟨S64x160x4, .f32⟩ : BufTy).Contents (Elt F) → (⟨S64x160x1, .f32⟩ : BufTy).Contents (Elt F)),
    StableHlo.reshape main_v151 main_v152 rfl shapeCasts_S64x160x1_S64x160,
    StableHlo.unary main_v118 main_v153 ((extractStridedSlice S64x160x1 ![0, 0, 1] · slices_S64x160x4_S64x160x1_0_0_1) : (⟨S64x160x4, .f32⟩ : BufTy).Contents (Elt F) → (⟨S64x160x1, .f32⟩ : BufTy).Contents (Elt F)),
    StableHlo.reshape main_v153 main_v154 rfl shapeCasts_S64x160x1_S64x160,
    StableHlo.unary main_v118 main_v155 ((extractStridedSlice S64x160x1 ![0, 0, 2] · slices_S64x160x4_S64x160x1_0_0_2) : (⟨S64x160x4, .f32⟩ : BufTy).Contents (Elt F) → (⟨S64x160x1, .f32⟩ : BufTy).Contents (Elt F)),
    StableHlo.reshape main_v155 main_v156 rfl shapeCasts_S64x160x1_S64x160,
    StableHlo.unary main_v118 main_v157 ((extractStridedSlice S64x160x1 ![0, 0, 3] · slices_S64x160x4_S64x160x1_0_0_3) : (⟨S64x160x4, .f32⟩ : BufTy).Contents (Elt F) → (⟨S64x160x1, .f32⟩ : BufTy).Contents (Elt F)),
    StableHlo.reshape main_v157 main_v158 rfl shapeCasts_S64x160x1_S64x160,
    StableHlo.binary main_v148 main_v144 main_v159 (subf : (⟨S64x160, .f32⟩ : BufTy).Contents (Elt F) → (⟨S64x160, .f32⟩ : BufTy).Contents (Elt F) → (⟨S64x160, .f32⟩ : BufTy).Contents (Elt F)),
    StableHlo.binary main_v150 main_v146 main_v160 (subf : (⟨S64x160, .f32⟩ : BufTy).Contents (Elt F) → (⟨S64x160, .f32⟩ : BufTy).Contents (Elt F) → (⟨S64x160, .f32⟩ : BufTy).Contents (Elt F)),
    StableHlo.binary main_v159 main_v160 main_v161 (mulf : (⟨S64x160, .f32⟩ : BufTy).Contents (Elt F) → (⟨S64x160, .f32⟩ : BufTy).Contents (Elt F) → (⟨S64x160, .f32⟩ : BufTy).Contents (Elt F)),
    StableHlo.binary main_v156 main_v152 main_v162 (subf : (⟨S64x160, .f32⟩ : BufTy).Contents (Elt F) → (⟨S64x160, .f32⟩ : BufTy).Contents (Elt F) → (⟨S64x160, .f32⟩ : BufTy).Contents (Elt F)),
    StableHlo.binary main_v158 main_v154 main_v163 (subf : (⟨S64x160, .f32⟩ : BufTy).Contents (Elt F) → (⟨S64x160, .f32⟩ : BufTy).Contents (Elt F) → (⟨S64x160, .f32⟩ : BufTy).Contents (Elt F)),
    StableHlo.binary main_v162 main_v163 main_v164 (mulf : (⟨S64x160, .f32⟩ : BufTy).Contents (Elt F) → (⟨S64x160, .f32⟩ : BufTy).Contents (Elt F) → (⟨S64x160, .f32⟩ : BufTy).Contents (Elt F)),
    StableHlo.binary main_v148 main_v156 main_v165 (minimumf : (⟨S64x160, .f32⟩ : BufTy).Contents (Elt F) → (⟨S64x160, .f32⟩ : BufTy).Contents (Elt F) → (⟨S64x160, .f32⟩ : BufTy).Contents (Elt F)),
    StableHlo.binary main_v144 main_v152 main_v166 (maximumf : (⟨S64x160, .f32⟩ : BufTy).Contents (Elt F) → (⟨S64x160, .f32⟩ : BufTy).Contents (Elt F) → (⟨S64x160, .f32⟩ : BufTy).Contents (Elt F)),
    StableHlo.binary main_v165 main_v166 main_v167 (subf : (⟨S64x160, .f32⟩ : BufTy).Contents (Elt F) → (⟨S64x160, .f32⟩ : BufTy).Contents (Elt F) → (⟨S64x160, .f32⟩ : BufTy).Contents (Elt F)),
    StableHlo.nullary main_cst_47 (constant S_ .f32 0x00000000#32),
    StableHlo.TRef.unary (.of main_cst_47 : StableHlo.TRef sig ⟨S_, .f32⟩) (.of main_call12_v0 : StableHlo.TRef sig ⟨S_, .f32⟩) id,
    StableHlo.TRef.unary (.of main_call12_v0 : StableHlo.TRef sig ⟨S_, .f32⟩) (.of main_call12_v1 : StableHlo.TRef sig ⟨S64x160, .f32⟩) (broadcastInDim S64x160 ![] bcast_S_S64x160),
    StableHlo.TRef.binary (.of main_call12_v1 : StableHlo.TRef sig ⟨S64x160, .f32⟩) (.of main_v167 : StableHlo.TRef sig ⟨S64x160, .f32⟩) (.of main_v168 : StableHlo.TRef sig ⟨S64x160, .f32⟩) maximumf,
    StableHlo.binary main_v150 main_v158 main_v169 (minimumf : (⟨S64x160, .f32⟩ : BufTy).Contents (Elt F) → (⟨S64x160, .f32⟩ : BufTy).Contents (Elt F) → (⟨S64x160, .f32⟩ : BufTy).Contents (Elt F)),
    StableHlo.binary main_v146 main_v154 main_v170 (maximumf : (⟨S64x160, .f32⟩ : BufTy).Contents (Elt F) → (⟨S64x160, .f32⟩ : BufTy).Contents (Elt F) → (⟨S64x160, .f32⟩ : BufTy).Contents (Elt F)),
    StableHlo.binary main_v169 main_v170 main_v171 (subf : (⟨S64x160, .f32⟩ : BufTy).Contents (Elt F) → (⟨S64x160, .f32⟩ : BufTy).Contents (Elt F) → (⟨S64x160, .f32⟩ : BufTy).Contents (Elt F)),
    StableHlo.nullary main_cst_48 (constant S_ .f32 0x00000000#32),
    StableHlo.TRef.unary (.of main_cst_48 : StableHlo.TRef sig ⟨S_, .f32⟩) (.of main_call13_v0 : StableHlo.TRef sig ⟨S_, .f32⟩) id,
    StableHlo.TRef.unary (.of main_call13_v0 : StableHlo.TRef sig ⟨S_, .f32⟩) (.of main_call13_v1 : StableHlo.TRef sig ⟨S64x160, .f32⟩) (broadcastInDim S64x160 ![] bcast_S_S64x160),
    StableHlo.TRef.binary (.of main_call13_v1 : StableHlo.TRef sig ⟨S64x160, .f32⟩) (.of main_v171 : StableHlo.TRef sig ⟨S64x160, .f32⟩) (.of main_v172 : StableHlo.TRef sig ⟨S64x160, .f32⟩) maximumf,
    StableHlo.binary main_v168 main_v172 main_v173 (mulf : (⟨S64x160, .f32⟩ : BufTy).Contents (Elt F) → (⟨S64x160, .f32⟩ : BufTy).Contents (Elt F) → (⟨S64x160, .f32⟩ : BufTy).Contents (Elt F)),
    StableHlo.binary main_v161 main_v164 main_v174 (addf : (⟨S64x160, .f32⟩ : BufTy).Contents (Elt F) → (⟨S64x160, .f32⟩ : BufTy).Contents (Elt F) → (⟨S64x160, .f32⟩ : BufTy).Contents (Elt F)),
    StableHlo.binary main_v174 main_v173 main_v175 (subf : (⟨S64x160, .f32⟩ : BufTy).Contents (Elt F) → (⟨S64x160, .f32⟩ : BufTy).Contents (Elt F) → (⟨S64x160, .f32⟩ : BufTy).Contents (Elt F)),
    StableHlo.nullary main_cst_49 (constant S_ .f32 0x358637BD#32),
    StableHlo.unary main_cst_49 main_v176 (broadcastInDim S64x160 ![] bcast_S_S64x160 : (⟨S_, .f32⟩ : BufTy).Contents (Elt F) → (⟨S64x160, .f32⟩ : BufTy).Contents (Elt F)),
    StableHlo.binary main_v175 main_v176 main_v177 (addf : (⟨S64x160, .f32⟩ : BufTy).Contents (Elt F) → (⟨S64x160, .f32⟩ : BufTy).Contents (Elt F) → (⟨S64x160, .f32⟩ : BufTy).Contents (Elt F)),
    StableHlo.binary main_v173 main_v177 main_v178 (Host.divf : (⟨S64x160, .f32⟩ : BufTy).Contents (Elt F) → (⟨S64x160, .f32⟩ : BufTy).Contents (Elt F) → (⟨S64x160, .f32⟩ : BufTy).Contents (Elt F)),
    StableHlo.binary main_v148 main_v156 main_v179 (maximumf : (⟨S64x160, .f32⟩ : BufTy).Contents (Elt F) → (⟨S64x160, .f32⟩ : BufTy).Contents (Elt F) → (⟨S64x160, .f32⟩ : BufTy).Contents (Elt F)),
    StableHlo.binary main_v144 main_v152 main_v180 (minimumf : (⟨S64x160, .f32⟩ : BufTy).Contents (Elt F) → (⟨S64x160, .f32⟩ : BufTy).Contents (Elt F) → (⟨S64x160, .f32⟩ : BufTy).Contents (Elt F)),
    StableHlo.binary main_v179 main_v180 main_v181 (subf : (⟨S64x160, .f32⟩ : BufTy).Contents (Elt F) → (⟨S64x160, .f32⟩ : BufTy).Contents (Elt F) → (⟨S64x160, .f32⟩ : BufTy).Contents (Elt F)),
    StableHlo.binary main_v150 main_v158 main_v182 (maximumf : (⟨S64x160, .f32⟩ : BufTy).Contents (Elt F) → (⟨S64x160, .f32⟩ : BufTy).Contents (Elt F) → (⟨S64x160, .f32⟩ : BufTy).Contents (Elt F)),
    StableHlo.binary main_v146 main_v154 main_v183 (minimumf : (⟨S64x160, .f32⟩ : BufTy).Contents (Elt F) → (⟨S64x160, .f32⟩ : BufTy).Contents (Elt F) → (⟨S64x160, .f32⟩ : BufTy).Contents (Elt F)),
    StableHlo.binary main_v182 main_v183 main_v184 (subf : (⟨S64x160, .f32⟩ : BufTy).Contents (Elt F) → (⟨S64x160, .f32⟩ : BufTy).Contents (Elt F) → (⟨S64x160, .f32⟩ : BufTy).Contents (Elt F)),
    StableHlo.binary main_v181 main_v184 main_v185 (mulf : (⟨S64x160, .f32⟩ : BufTy).Contents (Elt F) → (⟨S64x160, .f32⟩ : BufTy).Contents (Elt F) → (⟨S64x160, .f32⟩ : BufTy).Contents (Elt F)),
    StableHlo.binary main_v185 main_v175 main_v186 (subf : (⟨S64x160, .f32⟩ : BufTy).Contents (Elt F) → (⟨S64x160, .f32⟩ : BufTy).Contents (Elt F) → (⟨S64x160, .f32⟩ : BufTy).Contents (Elt F)),
    StableHlo.nullary main_cst_50 (constant S_ .f32 0x358637BD#32) ]

/-- The operations of @main's window 4, the calls inlined. -/
abbrev ops_part4 : List (HloOp τ sig (Elt F)) :=
  [ StableHlo.unary main_cst_50 main_v187 (broadcastInDim S64x160 ![] bcast_S_S64x160 : (⟨S_, .f32⟩ : BufTy).Contents (Elt F) → (⟨S64x160, .f32⟩ : BufTy).Contents (Elt F)),
    StableHlo.binary main_v185 main_v187 main_v188 (addf : (⟨S64x160, .f32⟩ : BufTy).Contents (Elt F) → (⟨S64x160, .f32⟩ : BufTy).Contents (Elt F) → (⟨S64x160, .f32⟩ : BufTy).Contents (Elt F)),
    StableHlo.binary main_v186 main_v188 main_v189 (Host.divf : (⟨S64x160, .f32⟩ : BufTy).Contents (Elt F) → (⟨S64x160, .f32⟩ : BufTy).Contents (Elt F) → (⟨S64x160, .f32⟩ : BufTy).Contents (Elt F)),
    StableHlo.binary main_v178 main_v189 main_v190 (subf : (⟨S64x160, .f32⟩ : BufTy).Contents (Elt F) → (⟨S64x160, .f32⟩ : BufTy).Contents (Elt F) → (⟨S64x160, .f32⟩ : BufTy).Contents (Elt F)),
    StableHlo.nullary main_cst_51 (constant S_ .f32 0x358637BD#32),
    StableHlo.unary main_cst_51 main_v191 (broadcastInDim S64x160 ![] bcast_S_S64x160 : (⟨S_, .f32⟩ : BufTy).Contents (Elt F) → (⟨S64x160, .f32⟩ : BufTy).Contents (Elt F)),
    StableHlo.binary main_v178 main_v191 main_v192 (addf : (⟨S64x160, .f32⟩ : BufTy).Contents (Elt F) → (⟨S64x160, .f32⟩ : BufTy).Contents (Elt F) → (⟨S64x160, .f32⟩ : BufTy).Contents (Elt F)),
    StableHlo.unary main_v192 main_v193 (Host.log : (⟨S64x160, .f32⟩ : BufTy).Contents (Elt F) → (⟨S64x160, .f32⟩ : BufTy).Contents (Elt F)),
    StableHlo.unary main_v193 main_v194 (Host.negf : (⟨S64x160, .f32⟩ : BufTy).Contents (Elt F) → (⟨S64x160, .f32⟩ : BufTy).Contents (Elt F)),
    StableHlo.nullary main_cst_52 (constant S_ .f32 0x3F800000#32),
    StableHlo.unary main_cst_52 main_v195 (broadcastInDim S64x160 ![] bcast_S_S64x160 : (⟨S_, .f32⟩ : BufTy).Contents (Elt F) → (⟨S64x160, .f32⟩ : BufTy).Contents (Elt F)),
    StableHlo.binary main_v195 main_v190 main_v196 (subf : (⟨S64x160, .f32⟩ : BufTy).Contents (Elt F) → (⟨S64x160, .f32⟩ : BufTy).Contents (Elt F) → (⟨S64x160, .f32⟩ : BufTy).Contents (Elt F)),
    StableHlo.nullary main_cst_53 (constant S_ .f32 0x00000000#32),
    StableHlo.binary main_v194 main_cst_53 main_v197 ((fun x v => Host.reduceAdd x v reducesTo_S64x160_S64_d1 h_S_) : (⟨S64x160, .f32⟩ : BufTy).Contents (Elt F) → (⟨S_, .f32⟩ : BufTy).Contents (Elt F) → (⟨S64, .f32⟩ : BufTy).Contents (Elt F)),
    StableHlo.nullary main_cst_54 (constant S_ .f32 0x43200000#32),
    StableHlo.unary main_cst_54 main_v198 (broadcastInDim S64 ![] bcast_S_S64 : (⟨S_, .f32⟩ : BufTy).Contents (Elt F) → (⟨S64, .f32⟩ : BufTy).Contents (Elt F)),
    StableHlo.binary main_v197 main_v198 main_v199 (Host.divf : (⟨S64, .f32⟩ : BufTy).Contents (Elt F) → (⟨S64, .f32⟩ : BufTy).Contents (Elt F) → (⟨S64, .f32⟩ : BufTy).Contents (Elt F)),
    StableHlo.nullary main_cst_55 (constant S_ .f32 0x00000000#32),
    StableHlo.binary main_v196 main_cst_55 main_v200 ((fun x v => Host.reduceAdd x v reducesTo_S64x160_S64_d1 h_S_) : (⟨S64x160, .f32⟩ : BufTy).Contents (Elt F) → (⟨S_, .f32⟩ : BufTy).Contents (Elt F) → (⟨S64, .f32⟩ : BufTy).Contents (Elt F)),
    StableHlo.nullary main_cst_56 (constant S_ .f32 0x43200000#32),
    StableHlo.unary main_cst_56 main_v201 (broadcastInDim S64 ![] bcast_S_S64 : (⟨S_, .f32⟩ : BufTy).Contents (Elt F) → (⟨S64, .f32⟩ : BufTy).Contents (Elt F)),
    StableHlo.binary main_v200 main_v201 main_v202 (Host.divf : (⟨S64, .f32⟩ : BufTy).Contents (Elt F) → (⟨S64, .f32⟩ : BufTy).Contents (Elt F) → (⟨S64, .f32⟩ : BufTy).Contents (Elt F)),
    StableHlo.binary main_v142 main_v118 main_v203 (subf : (⟨S64x160x4, .f32⟩ : BufTy).Contents (Elt F) → (⟨S64x160x4, .f32⟩ : BufTy).Contents (Elt F) → (⟨S64x160x4, .f32⟩ : BufTy).Contents (Elt F)),
    StableHlo.unary main_v203 main_v204 (Host.absf : (⟨S64x160x4, .f32⟩ : BufTy).Contents (Elt F) → (⟨S64x160x4, .f32⟩ : BufTy).Contents (Elt F)),
    StableHlo.nullary main_cst_57 (constant S_ .f32 0x3F800000#32),
    StableHlo.unary main_cst_57 main_v205 (broadcastInDim S64x160x4 ![] bcast_S_S64x160x4 : (⟨S_, .f32⟩ : BufTy).Contents (Elt F) → (⟨S64x160x4, .f32⟩ : BufTy).Contents (Elt F)),
    StableHlo.binary main_v204 main_v205 main_v206 (cmpf .olt : (⟨S64x160x4, .f32⟩ : BufTy).Contents (Elt F) → (⟨S64x160x4, .f32⟩ : BufTy).Contents (Elt F) → (⟨S64x160x4, .i1⟩ : BufTy).Contents (Elt F)),
    StableHlo.nullary main_cst_58 (constant S_ .f32 0x3F000000#32),
    StableHlo.unary main_cst_58 main_v207 (broadcastInDim S64x160x4 ![] bcast_S_S64x160x4 : (⟨S_, .f32⟩ : BufTy).Contents (Elt F) → (⟨S64x160x4, .f32⟩ : BufTy).Contents (Elt F)),
    StableHlo.binary main_v207 main_v204 main_v208 (mulf : (⟨S64x160x4, .f32⟩ : BufTy).Contents (Elt F) → (⟨S64x160x4, .f32⟩ : BufTy).Contents (Elt F) → (⟨S64x160x4, .f32⟩ : BufTy).Contents (Elt F)),
    StableHlo.binary main_v208 main_v204 main_v209 (mulf : (⟨S64x160x4, .f32⟩ : BufTy).Contents (Elt F) → (⟨S64x160x4, .f32⟩ : BufTy).Contents (Elt F) → (⟨S64x160x4, .f32⟩ : BufTy).Contents (Elt F)),
    StableHlo.nullary main_cst_59 (constant S_ .f32 0x3F000000#32),
    StableHlo.unary main_cst_59 main_v210 (broadcastInDim S64x160x4 ![] bcast_S_S64x160x4 : (⟨S_, .f32⟩ : BufTy).Contents (Elt F) → (⟨S64x160x4, .f32⟩ : BufTy).Contents (Elt F)),
    StableHlo.binary main_v204 main_v210 main_v211 (subf : (⟨S64x160x4, .f32⟩ : BufTy).Contents (Elt F) → (⟨S64x160x4, .f32⟩ : BufTy).Contents (Elt F) → (⟨S64x160x4, .f32⟩ : BufTy).Contents (Elt F)),
    StableHlo.TRef.ternary (.of main_v206 : StableHlo.TRef sig ⟨S64x160x4, .i1⟩) (.of main_v209 : StableHlo.TRef sig ⟨S64x160x4, .f32⟩) (.of main_v211 : StableHlo.TRef sig ⟨S64x160x4, .f32⟩) (.of main_v212 : StableHlo.TRef sig ⟨S64x160x4, .f32⟩) select,
    StableHlo.nullary main_cst_60 (constant S_ .f32 0x00000000#32),
    StableHlo.binary main_v212 main_cst_60 main_v213 ((fun x v => Host.reduceAdd x v reducesTo_S64x160x4_S64_d1_2 h_S_) : (⟨S64x160x4, .f32⟩ : BufTy).Contents (Elt F) → (⟨S_, .f32⟩ : BufTy).Contents (Elt F) → (⟨S64, .f32⟩ : BufTy).Contents (Elt F)),
    StableHlo.nullary main_cst_61 (constant S_ .f32 0x44200000#32),
    StableHlo.unary main_cst_61 main_v214 (broadcastInDim S64 ![] bcast_S_S64 : (⟨S_, .f32⟩ : BufTy).Contents (Elt F) → (⟨S64, .f32⟩ : BufTy).Contents (Elt F)),
    StableHlo.binary main_v213 main_v214 main_v215 (Host.divf : (⟨S64, .f32⟩ : BufTy).Contents (Elt F) → (⟨S64, .f32⟩ : BufTy).Contents (Elt F) → (⟨S64, .f32⟩ : BufTy).Contents (Elt F)),
    StableHlo.nullary main_cst_62 (constant S_ .f32 0x3F000000#32),
    StableHlo.unary main_cst_62 main_v216 (broadcastInDim S64 ![] bcast_S_S64 : (⟨S_, .f32⟩ : BufTy).Contents (Elt F) → (⟨S64, .f32⟩ : BufTy).Contents (Elt F)),
    StableHlo.binary main_v216 main_v199 main_v217 (mulf : (⟨S64, .f32⟩ : BufTy).Contents (Elt F) → (⟨S64, .f32⟩ : BufTy).Contents (Elt F) → (⟨S64, .f32⟩ : BufTy).Contents (Elt F)),
    StableHlo.nullary main_cst_63 (constant S_ .f32 0x3E99999A#32),
    StableHlo.unary main_cst_63 main_v218 (broadcastInDim S64 ![] bcast_S_S64 : (⟨S_, .f32⟩ : BufTy).Contents (Elt F) → (⟨S64, .f32⟩ : BufTy).Contents (Elt F)),
    StableHlo.binary main_v218 main_v215 main_v219 (mulf : (⟨S64, .f32⟩ : BufTy).Contents (Elt F) → (⟨S64, .f32⟩ : BufTy).Contents (Elt F) → (⟨S64, .f32⟩ : BufTy).Contents (Elt F)),
    StableHlo.binary main_v217 main_v219 main_v220 (addf : (⟨S64, .f32⟩ : BufTy).Contents (Elt F) → (⟨S64, .f32⟩ : BufTy).Contents (Elt F) → (⟨S64, .f32⟩ : BufTy).Contents (Elt F)),
    StableHlo.nullary main_cst_64 (constant S_ .f32 0x3E4CCCCD#32),
    StableHlo.unary main_cst_64 main_v221 (broadcastInDim S64 ![] bcast_S_S64 : (⟨S_, .f32⟩ : BufTy).Contents (Elt F) → (⟨S64, .f32⟩ : BufTy).Contents (Elt F)),
    StableHlo.binary main_v221 main_v202 main_v222 (mulf : (⟨S64, .f32⟩ : BufTy).Contents (Elt F) → (⟨S64, .f32⟩ : BufTy).Contents (Elt F) → (⟨S64, .f32⟩ : BufTy).Contents (Elt F)),
    StableHlo.binary main_v220 main_v222 main_v223 (addf : (⟨S64, .f32⟩ : BufTy).Contents (Elt F) → (⟨S64, .f32⟩ : BufTy).Contents (Elt F) → (⟨S64, .f32⟩ : BufTy).Contents (Elt F)),
    StableHlo.nullary main_cst_65 (constant S_ .f32 0x00000000#32),
    StableHlo.binary main_v223 main_cst_65 main_v224 ((fun x v => Host.reduceAdd x v reducesTo_S64_S_d0 h_S_) : (⟨S64, .f32⟩ : BufTy).Contents (Elt F) → (⟨S_, .f32⟩ : BufTy).Contents (Elt F) → (⟨S_, .f32⟩ : BufTy).Contents (Elt F)),
    StableHlo.nullary main_cst_66 (constant S_ .f32 0x42800000#32),
    StableHlo.binary main_v224 main_cst_66 main_v225 (Host.divf : (⟨S_, .f32⟩ : BufTy).Contents (Elt F) → (⟨S_, .f32⟩ : BufTy).Contents (Elt F) → (⟨S_, .f32⟩ : BufTy).Contents (Elt F)),
    StableHlo.unary main_v110 main_v226 (Host.log : (⟨S64x160, .f32⟩ : BufTy).Contents (Elt F) → (⟨S64x160, .f32⟩ : BufTy).Contents (Elt F)),
    StableHlo.nullary main_cst_67 (constant S_ .f32 0xC2C80000#32),
    StableHlo.unary main_cst_67 main_v227 (broadcastInDim S64x160 ![] bcast_S_S64x160 : (⟨S_, .f32⟩ : BufTy).Contents (Elt F) → (⟨S64x160, .f32⟩ : BufTy).Contents (Elt F)),
    StableHlo.binary main_v226 main_v227 main_v228 (maximumf : (⟨S64x160, .f32⟩ : BufTy).Contents (Elt F) → (⟨S64x160, .f32⟩ : BufTy).Contents (Elt F) → (⟨S64x160, .f32⟩ : BufTy).Contents (Elt F)),
    StableHlo.unary main_v110 main_v229 (Host.negf : (⟨S64x160, .f32⟩ : BufTy).Contents (Elt F) → (⟨S64x160, .f32⟩ : BufTy).Contents (Elt F)) ]

/-- The operations of @main's window 5, the calls inlined. -/
abbrev ops_part5 : List (HloOp τ sig (Elt F)) :=
  [ StableHlo.unary main_v229 main_v230 (Host.log1p : (⟨S64x160, .f32⟩ : BufTy).Contents (Elt F) → (⟨S64x160, .f32⟩ : BufTy).Contents (Elt F)),
    StableHlo.nullary main_cst_68 (constant S_ .f32 0xC2C80000#32),
    StableHlo.unary main_cst_68 main_v231 (broadcastInDim S64x160 ![] bcast_S_S64x160 : (⟨S_, .f32⟩ : BufTy).Contents (Elt F) → (⟨S64x160, .f32⟩ : BufTy).Contents (Elt F)),
    StableHlo.binary main_v230 main_v231 main_v232 (maximumf : (⟨S64x160, .f32⟩ : BufTy).Contents (Elt F) → (⟨S64x160, .f32⟩ : BufTy).Contents (Elt F) → (⟨S64x160, .f32⟩ : BufTy).Contents (Elt F)),
    StableHlo.binary main_v121 main_v228 main_v233 (mulf : (⟨S64x160, .f32⟩ : BufTy).Contents (Elt F) → (⟨S64x160, .f32⟩ : BufTy).Contents (Elt F) → (⟨S64x160, .f32⟩ : BufTy).Contents (Elt F)),
    StableHlo.nullary main_cst_69 (constant S_ .f32 0x3F800000#32),
    StableHlo.unary main_cst_69 main_v234 (broadcastInDim S64x160 ![] bcast_S_S64x160 : (⟨S_, .f32⟩ : BufTy).Contents (Elt F) → (⟨S64x160, .f32⟩ : BufTy).Contents (Elt F)),
    StableHlo.binary main_v234 main_v121 main_v235 (subf : (⟨S64x160, .f32⟩ : BufTy).Contents (Elt F) → (⟨S64x160, .f32⟩ : BufTy).Contents (Elt F) → (⟨S64x160, .f32⟩ : BufTy).Contents (Elt F)),
    StableHlo.binary main_v235 main_v232 main_v236 (mulf : (⟨S64x160, .f32⟩ : BufTy).Contents (Elt F) → (⟨S64x160, .f32⟩ : BufTy).Contents (Elt F) → (⟨S64x160, .f32⟩ : BufTy).Contents (Elt F)),
    StableHlo.binary main_v233 main_v236 main_v237 (addf : (⟨S64x160, .f32⟩ : BufTy).Contents (Elt F) → (⟨S64x160, .f32⟩ : BufTy).Contents (Elt F) → (⟨S64x160, .f32⟩ : BufTy).Contents (Elt F)),
    StableHlo.unary main_v237 main_v238 (Host.negf : (⟨S64x160, .f32⟩ : BufTy).Contents (Elt F) → (⟨S64x160, .f32⟩ : BufTy).Contents (Elt F)),
    StableHlo.nullary main_cst_70 (constant S_ .f32 0x00000000#32),
    StableHlo.binary main_v238 main_cst_70 main_v239 ((fun x v => Host.reduceAdd x v reducesTo_S64x160_S64_d1 h_S_) : (⟨S64x160, .f32⟩ : BufTy).Contents (Elt F) → (⟨S_, .f32⟩ : BufTy).Contents (Elt F) → (⟨S64, .f32⟩ : BufTy).Contents (Elt F)),
    StableHlo.nullary main_cst_71 (constant S_ .f32 0x43200000#32),
    StableHlo.unary main_cst_71 main_v240 (broadcastInDim S64 ![] bcast_S_S64 : (⟨S_, .f32⟩ : BufTy).Contents (Elt F) → (⟨S64, .f32⟩ : BufTy).Contents (Elt F)),
    StableHlo.binary main_v239 main_v240 main_v241 (Host.divf : (⟨S64, .f32⟩ : BufTy).Contents (Elt F) → (⟨S64, .f32⟩ : BufTy).Contents (Elt F) → (⟨S64, .f32⟩ : BufTy).Contents (Elt F)),
    StableHlo.nullary main_cst_72 (constant S_ .f32 0x00000000#32),
    StableHlo.binary main_v241 main_cst_72 main_v242 ((fun x v => Host.reduceAdd x v reducesTo_S64_S_d0 h_S_) : (⟨S64, .f32⟩ : BufTy).Contents (Elt F) → (⟨S_, .f32⟩ : BufTy).Contents (Elt F) → (⟨S_, .f32⟩ : BufTy).Contents (Elt F)),
    StableHlo.nullary main_cst_73 (constant S_ .f32 0x42800000#32),
    StableHlo.binary main_v242 main_cst_73 main_v243 (Host.divf : (⟨S_, .f32⟩ : BufTy).Contents (Elt F) → (⟨S_, .f32⟩ : BufTy).Contents (Elt F) → (⟨S_, .f32⟩ : BufTy).Contents (Elt F)),
    StableHlo.nullary main_cst_74 (constant S_ .f32 0x3F800000#32),
    StableHlo.binary main_cst_74 main_v29 main_v244 (mulf : (⟨S_, .f32⟩ : BufTy).Contents (Elt F) → (⟨S_, .f32⟩ : BufTy).Contents (Elt F) → (⟨S_, .f32⟩ : BufTy).Contents (Elt F)),
    StableHlo.nullary main_cst_75 (constant S_ .f32 0x41A00000#32),
    StableHlo.binary main_cst_75 main_v225 main_v245 (mulf : (⟨S_, .f32⟩ : BufTy).Contents (Elt F) → (⟨S_, .f32⟩ : BufTy).Contents (Elt F) → (⟨S_, .f32⟩ : BufTy).Contents (Elt F)),
    StableHlo.binary main_v244 main_v245 main_v246 (addf : (⟨S_, .f32⟩ : BufTy).Contents (Elt F) → (⟨S_, .f32⟩ : BufTy).Contents (Elt F) → (⟨S_, .f32⟩ : BufTy).Contents (Elt F)),
    StableHlo.nullary main_cst_76 (constant S_ .f32 0x3F000000#32),
    StableHlo.binary main_cst_76 main_v243 main_v247 (mulf : (⟨S_, .f32⟩ : BufTy).Contents (Elt F) → (⟨S_, .f32⟩ : BufTy).Contents (Elt F) → (⟨S_, .f32⟩ : BufTy).Contents (Elt F)),
    StableHlo.binary main_v246 main_v247 main_v248 (addf : (⟨S_, .f32⟩ : BufTy).Contents (Elt F) → (⟨S_, .f32⟩ : BufTy).Contents (Elt F) → (⟨S_, .f32⟩ : BufTy).Contents (Elt F)) ]

/-- @main's operations, in program order. -/
abbrev ops : List (HloOp τ sig (Elt F)) :=
  ops_part0 ++ (ops_part1 ++ (ops_part2 ++ (ops_part3 ++ (ops_part4 ++ (ops_part5)))))

set_option maxRecDepth 16384 in
theorem main_part0_eq (c : Dev nD) : main_part0 (F := F) c = seq ops_part0 := rfl
set_option maxRecDepth 16384 in
theorem main_part1_eq (c : Dev nD) : main_part1 (F := F) c = seq ops_part1 := rfl
set_option maxRecDepth 16384 in
theorem main_part2_eq (c : Dev nD) : main_part2 (F := F) c = seq ops_part2 := rfl
set_option maxRecDepth 16384 in
theorem main_part3_eq (c : Dev nD) : main_part3 (F := F) c = seq ops_part3 := rfl
set_option maxRecDepth 16384 in
theorem main_part4_eq (c : Dev nD) : main_part4 (F := F) c = seq ops_part4 := rfl
set_option maxRecDepth 16384 in
theorem main_part5_eq (c : Dev nD) : main_part5 (F := F) c = seq ops_part5 := rfl
set_option maxRecDepth 16384 in
/-- The printed @main is the straight line of `ops`: window by window (`seq_append`). -/
theorem main_eq (c : Dev nD) : main (F := F) c = seq ops := by
  simp only [ops, seq_append, ← main_part0_eq c, ← main_part1_eq c, ← main_part2_eq c, ← main_part3_eq c, ← main_part4_eq c, ← main_part5_eq c]
  rfl
theorem scopedRefs_eq : (Finset.univ.filter fun b : Ref sig .tc => b.isScoped) = ∅ := by decide
theorem scopedSems_eq : (Finset.univ.filter fun sm : SemLoc sig => sm.isScoped .tc) = ∅ := by decide
set_option maxRecDepth 16384 in
theorem ops_part0_sub : (ops_part0 : List (HloOp τ sig (Elt F))).Forall fun op => op.bufs ⊆ tcRefs τ sig :=
  ⟨unary_bufs_sub .., nullary_bufs_sub .., unary_bufs_sub .., binary_bufs_sub .., unary_bufs_sub .., unary_bufs_sub .., nullary_bufs_sub .., unary_bufs_sub .., binary_bufs_sub .., binary_bufs_sub .., nullary_bufs_sub .., unary_bufs_sub .., binary_bufs_sub .., binary_bufs_sub .., binary_bufs_sub .., unary_bufs_sub .., nullary_bufs_sub .., binary_bufs_sub .., nullary_bufs_sub .., binary_bufs_sub .., reshape_bufs_sub .., reshape_bufs_sub .., binary_bufs_sub .., nullary_bufs_sub .., binary_bufs_sub .., nullary_bufs_sub .., binary_bufs_sub .., nullary_bufs_sub .., binary_bufs_sub .., nullary_bufs_sub .., binary_bufs_sub .., nullary_bufs_sub .., binary_bufs_sub .., binary_bufs_sub .., nullary_bufs_sub .., binary_bufs_sub .., binary_bufs_sub .., nullary_bufs_sub .., binary_bufs_sub .., nullary_bufs_sub .., binary_bufs_sub .., nullary_bufs_sub .., binary_bufs_sub .., binary_bufs_sub .., unary_bufs_sub .., reshape_bufs_sub .., unary_bufs_sub .., reshape_bufs_sub .., nullary_bufs_sub .., unary_bufs_sub .., binary_bufs_sub .., nullary_bufs_sub .., nullary_bufs_sub .., unary_bufs_sub .., unary_bufs_sub .., binary_bufs_sub .., unary_bufs_sub .., unary_bufs_sub .., binary_bufs_sub .., unary_bufs_sub .., reshape_bufs_sub .., nullary_bufs_sub .., unary_bufs_sub .., binary_bufs_sub .., nullary_bufs_sub ..⟩
set_option maxRecDepth 16384 in
theorem ops_part1_sub : (ops_part1 : List (HloOp τ sig (Elt F))).Forall fun op => op.bufs ⊆ tcRefs τ sig :=
  ⟨nullary_bufs_sub .., unary_bufs_sub .., unary_bufs_sub .., binary_bufs_sub .., unary_bufs_sub .., unary_bufs_sub .., binary_bufs_sub .., nullary_bufs_sub .., unary_bufs_sub .., binary_bufs_sub .., unary_bufs_sub .., reshape_bufs_sub .., nullary_bufs_sub .., unary_bufs_sub .., binary_bufs_sub .., nullary_bufs_sub .., unary_bufs_sub .., binary_bufs_sub .., binary_bufs_sub .., nullary_bufs_sub .., unary_bufs_sub .., binary_bufs_sub .., unary_bufs_sub .., reshape_bufs_sub .., nullary_bufs_sub .., unary_bufs_sub .., binary_bufs_sub .., nullary_bufs_sub .., unary_bufs_sub .., binary_bufs_sub .., binary_bufs_sub .., nullary_bufs_sub .., unary_bufs_sub .., binary_bufs_sub .., unary_bufs_sub .., nullary_bufs_sub .., nullary_bufs_sub .., unary_bufs_sub .., unary_bufs_sub .., binary_bufs_sub .., unary_bufs_sub .., unary_bufs_sub .., binary_bufs_sub .., nullary_bufs_sub .., unary_bufs_sub .., binary_bufs_sub .., unary_bufs_sub .., nullary_bufs_sub .., nullary_bufs_sub .., unary_bufs_sub .., unary_bufs_sub .., binary_bufs_sub .., unary_bufs_sub .., unary_bufs_sub .., binary_bufs_sub .., nullary_bufs_sub .., unary_bufs_sub .., binary_bufs_sub .., nullary_bufs_sub .., unary_bufs_sub .., binary_bufs_sub .., unary_bufs_sub .., nullary_bufs_sub .., unary_bufs_sub .., binary_bufs_sub .., binary_bufs_sub .., nullary_bufs_sub .., unary_bufs_sub .., binary_bufs_sub .., nullary_bufs_sub .., unary_bufs_sub .., binary_bufs_sub .., unary_bufs_sub .., nullary_bufs_sub .., unary_bufs_sub ..⟩
set_option maxRecDepth 16384 in
theorem ops_part2_sub : (ops_part2 : List (HloOp τ sig (Elt F))).Forall fun op => op.bufs ⊆ tcRefs τ sig :=
  ⟨binary_bufs_sub .., binary_bufs_sub .., binary_bufs_sub .., nullary_bufs_sub .., unary_bufs_sub .., unary_bufs_sub .., binary_bufs_sub .., unary_bufs_sub .., unary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub .., ternary_bufs_sub .., binary_bufs_sub .., nullary_bufs_sub .., unary_bufs_sub .., unary_bufs_sub .., binary_bufs_sub .., unary_bufs_sub .., unary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub .., ternary_bufs_sub .., unary_bufs_sub .., unary_bufs_sub .., unary_bufs_sub .., unary_bufs_sub .., unary_bufs_sub .., nary_bufs_sub .., unary_bufs_sub .., unary_bufs_sub .., unary_bufs_sub .., unary_bufs_sub .., unary_bufs_sub .., nary_bufs_sub .., nullary_bufs_sub .., unary_bufs_sub .., binary_bufs_sub .., binary_bufs_sub .., reshape_bufs_sub .., reshape_bufs_sub .., unary_bufs_sub .., unary_bufs_sub .., nullary_bufs_sub .., unary_bufs_sub .., binary_bufs_sub .., nullary_bufs_sub .., unary_bufs_sub .., binary_bufs_sub .., ternary_bufs_sub .., reshape_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., nullary_bufs_sub .., unary_bufs_sub .., ternary_bufs_sub .., unary_bufs_sub .., reshape_bufs_sub .., nullary_bufs_sub .., unary_bufs_sub .., binary_bufs_sub .., nullary_bufs_sub .., unary_bufs_sub .., binary_bufs_sub .., ternary_bufs_sub .., reshape_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., nullary_bufs_sub .., unary_bufs_sub .., ternary_bufs_sub .., unary_bufs_sub .., unary_bufs_sub .., unary_bufs_sub .., unary_bufs_sub .., nary_bufs_sub .., unary_bufs_sub .., unary_bufs_sub .., reshape_bufs_sub .., unary_bufs_sub .., unary_bufs_sub .., reshape_bufs_sub .., unary_bufs_sub .., reshape_bufs_sub .., nullary_bufs_sub .., nullary_bufs_sub .., unary_bufs_sub .., unary_bufs_sub .., binary_bufs_sub .., unary_bufs_sub .., unary_bufs_sub .., binary_bufs_sub .., unary_bufs_sub .., reshape_bufs_sub .., nullary_bufs_sub .., nullary_bufs_sub .., unary_bufs_sub .., unary_bufs_sub .., binary_bufs_sub .., unary_bufs_sub .., unary_bufs_sub .., binary_bufs_sub .., unary_bufs_sub .., reshape_bufs_sub .., nullary_bufs_sub .., nullary_bufs_sub .., unary_bufs_sub .., unary_bufs_sub .., binary_bufs_sub .., unary_bufs_sub .., unary_bufs_sub .., binary_bufs_sub .., unary_bufs_sub .., reshape_bufs_sub ..⟩
set_option maxRecDepth 16384 in
theorem ops_part3_sub : (ops_part3 : List (HloOp τ sig (Elt F))).Forall fun op => op.bufs ⊆ tcRefs τ sig :=
  ⟨nullary_bufs_sub .., nullary_bufs_sub .., unary_bufs_sub .., unary_bufs_sub .., binary_bufs_sub .., unary_bufs_sub .., unary_bufs_sub .., binary_bufs_sub .., binary_bufs_sub .., binary_bufs_sub .., binary_bufs_sub .., binary_bufs_sub .., unary_bufs_sub .., unary_bufs_sub .., unary_bufs_sub .., unary_bufs_sub .., nary_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., binary_bufs_sub .., binary_bufs_sub .., binary_bufs_sub .., binary_bufs_sub .., binary_bufs_sub .., binary_bufs_sub .., binary_bufs_sub .., binary_bufs_sub .., binary_bufs_sub .., nullary_bufs_sub .., unary_bufs_sub .., unary_bufs_sub .., binary_bufs_sub .., binary_bufs_sub .., binary_bufs_sub .., binary_bufs_sub .., nullary_bufs_sub .., unary_bufs_sub .., unary_bufs_sub .., binary_bufs_sub .., binary_bufs_sub .., binary_bufs_sub .., binary_bufs_sub .., nullary_bufs_sub .., unary_bufs_sub .., binary_bufs_sub .., binary_bufs_sub .., binary_bufs_sub .., binary_bufs_sub .., binary_bufs_sub .., binary_bufs_sub .., binary_bufs_sub .., binary_bufs_sub .., binary_bufs_sub .., binary_bufs_sub .., nullary_bufs_sub ..⟩
set_option maxRecDepth 16384 in
theorem ops_part4_sub : (ops_part4 : List (HloOp τ sig (Elt F))).Forall fun op => op.bufs ⊆ tcRefs τ sig :=
  ⟨unary_bufs_sub .., binary_bufs_sub .., binary_bufs_sub .., binary_bufs_sub .., nullary_bufs_sub .., unary_bufs_sub .., binary_bufs_sub .., unary_bufs_sub .., unary_bufs_sub .., nullary_bufs_sub .., unary_bufs_sub .., binary_bufs_sub .., nullary_bufs_sub .., binary_bufs_sub .., nullary_bufs_sub .., unary_bufs_sub .., binary_bufs_sub .., nullary_bufs_sub .., binary_bufs_sub .., nullary_bufs_sub .., unary_bufs_sub .., binary_bufs_sub .., binary_bufs_sub .., unary_bufs_sub .., nullary_bufs_sub .., unary_bufs_sub .., binary_bufs_sub .., nullary_bufs_sub .., unary_bufs_sub .., binary_bufs_sub .., binary_bufs_sub .., nullary_bufs_sub .., unary_bufs_sub .., binary_bufs_sub .., ternary_bufs_sub .., nullary_bufs_sub .., binary_bufs_sub .., nullary_bufs_sub .., unary_bufs_sub .., binary_bufs_sub .., nullary_bufs_sub .., unary_bufs_sub .., binary_bufs_sub .., nullary_bufs_sub .., unary_bufs_sub .., binary_bufs_sub .., binary_bufs_sub .., nullary_bufs_sub .., unary_bufs_sub .., binary_bufs_sub .., binary_bufs_sub .., nullary_bufs_sub .., binary_bufs_sub .., nullary_bufs_sub .., binary_bufs_sub .., unary_bufs_sub .., nullary_bufs_sub .., unary_bufs_sub .., binary_bufs_sub .., unary_bufs_sub ..⟩
set_option maxRecDepth 16384 in
theorem ops_part5_sub : (ops_part5 : List (HloOp τ sig (Elt F))).Forall fun op => op.bufs ⊆ tcRefs τ sig :=
  ⟨unary_bufs_sub .., nullary_bufs_sub .., unary_bufs_sub .., binary_bufs_sub .., binary_bufs_sub .., nullary_bufs_sub .., unary_bufs_sub .., binary_bufs_sub .., binary_bufs_sub .., binary_bufs_sub .., unary_bufs_sub .., nullary_bufs_sub .., binary_bufs_sub .., nullary_bufs_sub .., unary_bufs_sub .., binary_bufs_sub .., nullary_bufs_sub .., binary_bufs_sub .., nullary_bufs_sub .., binary_bufs_sub .., nullary_bufs_sub .., binary_bufs_sub .., nullary_bufs_sub .., binary_bufs_sub .., binary_bufs_sub .., nullary_bufs_sub .., binary_bufs_sub .., binary_bufs_sub ..⟩
theorem ops_sub : (ops : List (HloOp τ sig (Elt F))).Forall fun op => op.bufs ⊆ tcRefs τ sig :=
  List.forall_iff_forall_mem.mpr fun op h => by
    simp only [ops, List.mem_append] at h
    rcases h with h | h | h | h | h | h
    exacts [List.forall_iff_forall_mem.mp ops_part0_sub op h, List.forall_iff_forall_mem.mp ops_part1_sub op h, List.forall_iff_forall_mem.mp ops_part2_sub op h, List.forall_iff_forall_mem.mp ops_part3_sub op h, List.forall_iff_forall_mem.mp ops_part4_sub op h, List.forall_iff_forall_mem.mp ops_part5_sub op h]

end Cert.ReferenceIdeal.HandRun

end
-- ==== Proof.RefRun.lean ====
/- The reference program's run: every weakly fair execution of @main terminates without a fault, each buffer
   ending at the fold of the operations over the launch contents; the four results are left folded, the five
   argument arrays are written by no operation and end unchanged. -/
import proofs.«167267_j69861938037475_1_alg».proof.Proof.RefRunOps
import Idealize.ShloMosaic.Lib.StableHlo.Run
import Idealize.ShloMosaic.Lib.Pipeline.Frame

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-- The buffers that window 0's operations write. -/
abbrev ops_part0_W : List (Ref sig .tc) := [main_v0, main_cst, main_v1, main_v2, main_v3, main_v4, main_cst_0, main_v5, main_v6, main_v7, main_cst_1, main_v8, main_v9, main_v10, main_v11, main_v12, main_cst_2, main_v13, main_cst_3, main_v14, main_v15, main_v16, main_v17, main_cst_4, main_v18, main_cst_5, main_v19, main_cst_6, main_v20, main_cst_7, main_v21, main_cst_8, main_v22, main_v23, main_cst_9, main_v24, main_v25, main_cst_10, main_v26, main_cst_11, main_v27, main_cst_12, main_v28, main_v29, main_v30, main_v31, main_v32, main_v33, main_cst_13, main_v34, main_v35, main_cst_14, main_cst_15, main_call0_v0, main_call0_v1, main_call0_v2, main_call0_v3, main_call0_v4, main_v36, main_v37, main_v38, main_cst_16, main_v39, main_v40, main_cst_17]
set_option maxRecDepth 16384 in
theorem ops_part0_writes : (ops_part0 : List (HloOp τ sig (Elt F))).Forall fun op => op.writes ⊆ (ops_part0_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩

/-- The buffers that window 1's operations write. -/
abbrev ops_part1_W : List (Ref sig .tc) := [main_cst_18, main_call1_v0, main_call1_v1, main_call1_v2, main_call1_v3, main_call1_v4, main_v41, main_cst_19, main_v42, main_v43, main_v44, main_v45, main_cst_20, main_v46, main_v47, main_cst_21, main_v48, main_v49, main_v50, main_cst_22, main_v51, main_v52, main_v53, main_v54, main_cst_23, main_v55, main_v56, main_cst_24, main_v57, main_v58, main_v59, main_cst_25, main_v60, main_v61, main_v62, main_c, main_c_26, main_call2_v0, main_call2_v1, main_call2_v2, main_call2_v3, main_call2_v4, main_v63, main_cst_27, main_v64, main_v65, main_v66, main_c_28, main_c_29, main_call3_v0, main_call3_v1, main_call3_v2, main_call3_v3, main_call3_v4, main_v67, main_c_30, main_v68, main_v69, main_cst_31, main_v70, main_v71, main_v72, main_c_32, main_v73, main_v74, main_v75, main_c_33, main_v76, main_v77, main_cst_34, main_v78, main_v79, main_v80, main_c_35, main_v81]
set_option maxRecDepth 16384 in
theorem ops_part1_writes : (ops_part1 : List (HloOp τ sig (Elt F))).Forall fun op => op.writes ⊆ (ops_part1_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩

/-- The buffers that window 2's operations write. -/
abbrev ops_part2_W : List (Ref sig .tc) := [main_v82, main_v83, main_v84, main_c_36, main_call4_v0, main_call4_v1, main_call4_v2, main_call4_v3, main_call4_v4, main_call4_v5, main_call4_v6, main_call4_v7, main_call4_v8, main_call4_c, main_call4_v9, main_call4_v10, main_call4_v11, main_call4_c_0, main_call4_v12, main_call4_v13, main_v85, main_v86, main_c_37, main_call5_v0, main_call5_v1, main_call5_v2, main_call5_v3, main_call5_v4, main_call5_v5, main_call5_v6, main_call5_v7, main_call5_v8, main_call5_c, main_call5_v9, main_call5_v10, main_call5_v11, main_call5_c_0, main_call5_v12, main_call5_v13, main_v87, main_v88, main_v89, main_v90, main_v91, main_v92, main_v93, main_v94, main_v95, main_v96, main_v97, main_v98, main_v99, main_c_38, main_v100, main_v101, main_v102, main_v103, main_v104, main_v105, main_v106, main_call6_c, main_call6_v0, main_call6_v1, main_call6_c_0, main_call6_v2, main_call6_v3, main_call6_v4, main_call6_v5, main_call6_c_1, main_call6_c_2, main_call6_v6, main_call6_v7, main_call6_v8, main_call6_v9, main_call6_v10, main_call6_v11, main_call6_c_3, main_call6_v12, main_call6_v13, main_call6_cst, main_call6_v14, main_v107, main_v108, main_v109, main_call7_c, main_call7_v0, main_call7_v1, main_call7_c_0, main_call7_v2, main_call7_v3, main_call7_v4, main_call7_v5, main_call7_c_1, main_call7_c_2, main_call7_v6, main_call7_v7, main_call7_v8, main_call7_v9, main_call7_v10, main_call7_v11, main_call7_c_3, main_call7_v12, main_call7_v13, main_call7_cst, main_call7_v14, main_v110, main_v111, main_v112, main_v113, main_v114, main_v115, main_v116, main_v117, main_v118, main_v119, main_v120, main_v121, main_v122, main_v123, main_cst_39, main_cst_40, main_call8_v0, main_call8_v1, main_call8_v2, main_call8_v3, main_call8_v4, main_v124, main_v125, main_v126, main_cst_41, main_cst_42, main_call9_v0, main_call9_v1, main_call9_v2, main_call9_v3, main_call9_v4, main_v127, main_v128, main_v129, main_cst_43, main_cst_44, main_call10_v0, main_call10_v1, main_call10_v2, main_call10_v3, main_call10_v4, main_v130, main_v131, main_v132]
set_option maxRecDepth 16384 in
theorem ops_part2_writes : (ops_part2 : List (HloOp τ sig (Elt F))).Forall fun op => op.writes ⊆ (ops_part2_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩

/-- The buffers that window 3's operations write. -/
abbrev ops_part3_W : List (Ref sig .tc) := [main_cst_45, main_cst_46, main_call11_v0, main_call11_v1, main_call11_v2, main_call11_v3, main_call11_v4, main_v133, main_v134, main_v135, main_v136, main_v137, main_v138, main_v139, main_v140, main_v141, main_v142, main_v143, main_v144, main_v145, main_v146, main_v147, main_v148, main_v149, main_v150, main_v151, main_v152, main_v153, main_v154, main_v155, main_v156, main_v157, main_v158, main_v159, main_v160, main_v161, main_v162, main_v163, main_v164, main_v165, main_v166, main_v167, main_cst_47, main_call12_v0, main_call12_v1, main_v168, main_v169, main_v170, main_v171, main_cst_48, main_call13_v0, main_call13_v1, main_v172, main_v173, main_v174, main_v175, main_cst_49, main_v176, main_v177, main_v178, main_v179, main_v180, main_v181, main_v182, main_v183, main_v184, main_v185, main_v186, main_cst_50]
set_option maxRecDepth 16384 in
theorem ops_part3_writes : (ops_part3 : List (HloOp τ sig (Elt F))).Forall fun op => op.writes ⊆ (ops_part3_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩

/-- The buffers that window 4's operations write. -/
abbrev ops_part4_W : List (Ref sig .tc) := [main_v187, main_v188, main_v189, main_v190, main_cst_51, main_v191, main_v192, main_v193, main_v194, main_cst_52, main_v195, main_v196, main_cst_53, main_v197, main_cst_54, main_v198, main_v199, main_cst_55, main_v200, main_cst_56, main_v201, main_v202, main_v203, main_v204, main_cst_57, main_v205, main_v206, main_cst_58, main_v207, main_v208, main_v209, main_cst_59, main_v210, main_v211, main_v212, main_cst_60, main_v213, main_cst_61, main_v214, main_v215, main_cst_62, main_v216, main_v217, main_cst_63, main_v218, main_v219, main_v220, main_cst_64, main_v221, main_v222, main_v223, main_cst_65, main_v224, main_cst_66, main_v225, main_v226, main_cst_67, main_v227, main_v228, main_v229]
set_option maxRecDepth 16384 in
theorem ops_part4_writes : (ops_part4 : List (HloOp τ sig (Elt F))).Forall fun op => op.writes ⊆ (ops_part4_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩

/-- The buffers that window 5's operations write. -/
abbrev ops_part5_W : List (Ref sig .tc) := [main_v230, main_cst_68, main_v231, main_v232, main_v233, main_cst_69, main_v234, main_v235, main_v236, main_v237, main_v238, main_cst_70, main_v239, main_cst_71, main_v240, main_v241, main_cst_72, main_v242, main_cst_73, main_v243, main_cst_74, main_v244, main_cst_75, main_v245, main_v246, main_cst_76, main_v247, main_v248]
set_option maxRecDepth 16384 in
theorem ops_part5_writes : (ops_part5 : List (HloOp τ sig (Elt F))).Forall fun op => op.writes ⊆ (ops_part5_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩

/-- A buffer that no window writes keeps its contents through the whole program. -/
theorem after_ops_keep (V : Valuation τ sig (Elt F)) (r : Ref sig .tc)
    (h0 : r ∉ ops_part0_W) (h1 : r ∉ ops_part1_W) (h2 : r ∉ ops_part2_W) (h3 : r ∉ ops_part3_W) (h4 : r ∉ ops_part4_W) (h5 : r ∉ ops_part5_W) :
    after ops V (Proc.devRef .tc r) = V (Proc.devRef .tc r) := by
  simp only [ops, after_append]
  rw [after_of_writes_sub ops_part5 _ ops_part5_writes h5, after_of_writes_sub ops_part4 _ ops_part4_writes h4, after_of_writes_sub ops_part3 _ ops_part3_writes h3, after_of_writes_sub ops_part2 _ ops_part2_writes h2, after_of_writes_sub ops_part1 _ ops_part1_writes h1, after_of_writes_sub ops_part0 _ ops_part0_writes h0]
theorem after_ops_main_arg0 (V : Valuation τ sig (Elt F)) : after ops V (Proc.devRef .tc main_arg0) = V (Proc.devRef .tc main_arg0) :=
  after_ops_keep V main_arg0 (by decide) (by decide) (by decide) (by decide) (by decide) (by decide)
theorem after_ops_main_arg1 (V : Valuation τ sig (Elt F)) : after ops V (Proc.devRef .tc main_arg1) = V (Proc.devRef .tc main_arg1) :=
  after_ops_keep V main_arg1 (by decide) (by decide) (by decide) (by decide) (by decide) (by decide)
theorem after_ops_main_arg2 (V : Valuation τ sig (Elt F)) : after ops V (Proc.devRef .tc main_arg2) = V (Proc.devRef .tc main_arg2) :=
  after_ops_keep V main_arg2 (by decide) (by decide) (by decide) (by decide) (by decide) (by decide)
theorem after_ops_main_arg3 (V : Valuation τ sig (Elt F)) : after ops V (Proc.devRef .tc main_arg3) = V (Proc.devRef .tc main_arg3) :=
  after_ops_keep V main_arg3 (by decide) (by decide) (by decide) (by decide) (by decide) (by decide)
theorem after_ops_main_arg4 (V : Valuation τ sig (Elt F)) : after ops V (Proc.devRef .tc main_arg4) = V (Proc.devRef .tc main_arg4) :=
  after_ops_keep V main_arg4 (by decide) (by decide) (by decide) (by decide) (by decide) (by decide)
set_option maxRecDepth 16384 in
theorem ops_part0_fresh : ∀ op ∈ (ops_part0 : List (HloOp τ sig (Elt F))), op.fresh = ∅ := by
  intro _ h; (repeat (cases h with | head => rfl | tail _ h => ?_)); exact nomatch h
set_option maxRecDepth 16384 in
theorem ops_part1_fresh : ∀ op ∈ (ops_part1 : List (HloOp τ sig (Elt F))), op.fresh = ∅ := by
  intro _ h; (repeat (cases h with | head => rfl | tail _ h => ?_)); exact nomatch h
set_option maxRecDepth 16384 in
theorem ops_part2_fresh : ∀ op ∈ (ops_part2 : List (HloOp τ sig (Elt F))), op.fresh = ∅ := by
  intro _ h; (repeat (cases h with | head => rfl | tail _ h => ?_)); exact nomatch h
set_option maxRecDepth 16384 in
theorem ops_part3_fresh : ∀ op ∈ (ops_part3 : List (HloOp τ sig (Elt F))), op.fresh = ∅ := by
  intro _ h; (repeat (cases h with | head => rfl | tail _ h => ?_)); exact nomatch h
set_option maxRecDepth 16384 in
theorem ops_part4_fresh : ∀ op ∈ (ops_part4 : List (HloOp τ sig (Elt F))), op.fresh = ∅ := by
  intro _ h; (repeat (cases h with | head => rfl | tail _ h => ?_)); exact nomatch h
set_option maxRecDepth 16384 in
theorem ops_part5_fresh : ∀ op ∈ (ops_part5 : List (HloOp τ sig (Elt F))), op.fresh = ∅ := by
  intro _ h; (repeat (cases h with | head => rfl | tail _ h => ?_)); exact nomatch h
theorem ops_fresh : ∀ op ∈ (ops : List (HloOp τ sig (Elt F))), op.fresh = ∅ := by
  intro op h
  simp only [ops, List.mem_append] at h
  rcases h with h | h | h | h | h | h
  exacts [ops_part0_fresh op h, ops_part1_fresh op h, ops_part2_fresh op h, ops_part3_fresh op h, ops_part4_fresh op h, ops_part5_fresh op h]

/-- Every buffer after the run is the fold of the operations over the launch contents. -/
theorem run_all (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (Proc.devRef .tc b) :=
  run_seq scopedRefs_eq scopedSems_eq defs main (fun _ => ops) main_eq (fun _ => ops_sub) m ρ (fun _ => ops_fresh)

/-- On every device, for any float values, from any memory with zero counters: every weakly fair execution of
    @main terminates with each of the four results at the fold of the operations over the launch contents and
    the five argument arrays unchanged. -/
theorem run (m : (ℓ : Loc nD τ sig) → Buf (Elt F) ℓ) (ρ : Dev nD → PrngReg) :
    θ_run defs (onTc (τ := τ) (main (F := F))) ⟨m, fun _ => 0, ρ⟩ (fun r => ∀ c : Dev nD,
      (r.2.mem ((c.tc : Thread nD τ).loc main_v248) = after ops (fun b => m (c, b)) (Proc.devRef .tc main_v248)
       ∧ r.2.mem ((c.tc : Thread nD τ).loc main_v29) = after ops (fun b => m (c, b)) (Proc.devRef .tc main_v29)
       ∧ r.2.mem ((c.tc : Thread nD τ).loc main_v225) = after ops (fun b => m (c, b)) (Proc.devRef .tc main_v225)
       ∧ r.2.mem ((c.tc : Thread nD τ).loc main_v243) = after ops (fun b => m (c, b)) (Proc.devRef .tc main_v243))
      ∧ (r.2.mem ((c.tc : Thread nD τ).loc main_arg0) = m ((c.tc : Thread nD τ).loc main_arg0)
       ∧ r.2.mem ((c.tc : Thread nD τ).loc main_arg1) = m ((c.tc : Thread nD τ).loc main_arg1)
       ∧ r.2.mem ((c.tc : Thread nD τ).loc main_arg2) = m ((c.tc : Thread nD τ).loc main_arg2)
       ∧ r.2.mem ((c.tc : Thread nD τ).loc main_arg3) = m ((c.tc : Thread nD τ).loc main_arg3)
       ∧ r.2.mem ((c.tc : Thread nD τ).loc main_arg4) = m ((c.tc : Thread nD τ).loc main_arg4))) :=
  (θ_run defs _ _).mono (fun _ h c => ⟨⟨h c main_v248, h c main_v29, h c main_v225, h c main_v243⟩,
      ⟨(h c main_arg0).trans (after_ops_main_arg0 _), (h c main_arg1).trans (after_ops_main_arg1 _), (h c main_arg2).trans (after_ops_main_arg2 _), (h c main_arg3).trans (after_ops_main_arg3 _), (h c main_arg4).trans (after_ops_main_arg4 _)⟩⟩)
    (run_all m ρ)

end Cert.ReferenceIdeal.HandRun

end
-- ==== Proof.KernelTail.lean ====
/-
  The kernel program's four results as functions of what its two reductions leave.

  The text-map loss is computed by the host operations right after the first reduction from its four [1,1] sums
  (cross-entropy, intersection, prediction, target): 0.5·(bce/6553600) + 0.5·(1 − (2·inter + s)/((psum + tsum) + s)).
  The box loss, the confidence loss and the total are computed by the host operations after the second reduction from
  its four [1,1] sums (−log IoU, 1 − GIoU, corner loss, confidence cross-entropy):
  box = (0.5·(iou/10240) + 0.3·(reg/40960)) + 0.2·(giou/10240), conf = bce/10240, total = (1·text + 20·box) + 0.5·conf.
  No host stretch in between writes a result once it is computed, so the last valuation holds them.
-/
import proofs.«167267_j69861938037475_1_alg».proof.Proof.Gen.KernelIdeal.Regions
import Idealize.ShloMosaic.Lib.StableHlo.Run
import Idealize.ShloMosaic.PureOps.Ideal

noncomputable section

namespace Cert.KernelIdeal.Tail

open Cert.KernelIdeal Cert.KernelIdeal.Gen
open Idealize.ShloMosaic Idealize.ShloMosaic.TcCoe Idealize.ShloMosaic.StableHlo

variable (m : (ℓ : Loc nD τ sig) → Buf (Elt Ideal) ℓ) (outs : Outs (F := Ideal))

/-- A [1,1] sum read as a scalar. -/
def scal (x : FVec Ideal S1x1 .f32) : FVec Ideal S_ .f32 := shapeCast S_ x shapeCasts_S1x1_S_

/-- The text-map loss from its four sums. -/
def textLoss (a b p t : FVec Ideal S1x1 .f32) : FVec Ideal S_ .f32 :=
  addf
    (mulf (constant (F := Ideal) S_ .f32 0x3F000000#32) (Host.divf (F := Ideal) (scal a) (constant (F := Ideal) S_ .f32 0x4AC80000#32)))
    (mulf (constant (F := Ideal) S_ .f32 0x3F000000#32)
      (subf (constant (F := Ideal) S_ .f32 0x3F800000#32)
        (Host.divf (F := Ideal)
          (addf (mulf (constant (F := Ideal) S_ .f32 0x40000000#32) (scal b)) (constant (F := Ideal) S_ .f32 0x3727C5AC#32))
          (addf (addf (scal p) (scal t)) (constant (F := Ideal) S_ .f32 0x3727C5AC#32)))))

theorem v14_walk (c : Dev nD) : V20 m outs c main_v14 = V2 m outs c main_v14 :=
  (V20_of m outs c main_v14 (by decide)).trans <| (V19_of m outs c main_v14 (by decide)).trans <|
  (V18_of m outs c main_v14 (by decide)).trans <| (V17_of m outs c main_v14 (by decide)).trans <|
  (V16_of m outs c main_v14 (by decide)).trans <| (V15_of m outs c main_v14 (by decide)).trans <|
  (V14_of m outs c main_v14 (by decide)).trans <| (V13_of m outs c main_v14 (by decide)).trans <|
  (V12_of m outs c main_v14 (by decide)).trans <| (V11_of m outs c main_v14 (by decide)).trans <|
  (V10_of m outs c main_v14 (by decide)).trans <| (V9_of m outs c main_v14 (by decide)).trans <|
  (V8_of m outs c main_v14 (by decide)).trans <| (V7_of m outs c main_v14 (by decide)).trans <|
  (V6_of m outs c main_v14 (by decide)).trans <| (V5_of m outs c main_v14 (by decide)).trans <|
  (V4_of m outs c main_v14 (by decide)).trans (V3_of m outs c main_v14 (by decide))

theorem v14_eq (c : Dev nD) :
    V2 m outs c main_v14 = textLoss (V1 m outs c main_v0_0) (V1 m outs c main_v0_1) (V1 m outs c main_v0_2) (V1 m outs c main_v0_3) := by
  show StableHlo.after hostOps1 (V1 m outs c) (Proc.devRef .tc main_v14) = _
  after_results
  rfl

/-- The box loss from its three sums (−log IoU, 1 − GIoU, corner loss). -/
def boxLoss (i g r : FVec Ideal S1x1 .f32) : FVec Ideal S_ .f32 :=
  addf
    (addf
      (mulf (constant (F := Ideal) S_ .f32 0x3F000000#32) (Host.divf (F := Ideal) (scal i) (constant (F := Ideal) S_ .f32 0x46200000#32)))
      (mulf (constant (F := Ideal) S_ .f32 0x3E99999A#32) (Host.divf (F := Ideal) (scal r) (constant (F := Ideal) S_ .f32 0x47200000#32))))
    (mulf (constant (F := Ideal) S_ .f32 0x3E4CCCCD#32) (Host.divf (F := Ideal) (scal g) (constant (F := Ideal) S_ .f32 0x46200000#32)))

/-- The confidence loss from its sum. -/
def confLoss (b : FVec Ideal S1x1 .f32) : FVec Ideal S_ .f32 :=
  Host.divf (F := Ideal) (scal b) (constant (F := Ideal) S_ .f32 0x46200000#32)

/-- The total from the three losses. -/
def totalLoss (t x k : FVec Ideal S_ .f32) : FVec Ideal S_ .f32 :=
  addf (addf (mulf (constant (F := Ideal) S_ .f32 0x3F800000#32) t) (mulf (constant (F := Ideal) S_ .f32 0x41A00000#32) x))
    (mulf (constant (F := Ideal) S_ .f32 0x3F000000#32) k)

set_option maxHeartbeats 2000000 in
theorem v134_eq (c : Dev nD) :
    V20 m outs c main_v134 = boxLoss (V19 m outs c main_v123_0) (V19 m outs c main_v123_1) (V19 m outs c main_v123_2) := by
  show StableHlo.after hostOps2 (V19 m outs c) (Proc.devRef .tc main_v134) = _
  after_results_simp
  rfl

set_option maxHeartbeats 2000000 in
theorem v136_eq (c : Dev nD) : V20 m outs c main_v136 = confLoss (V19 m outs c main_v123_3) := by
  show StableHlo.after hostOps2 (V19 m outs c) (Proc.devRef .tc main_v136) = _
  after_results_simp
  rfl

set_option maxHeartbeats 4000000 in
theorem v141_eq (c : Dev nD) :
    V20 m outs c main_v141 = totalLoss (V19 m outs c main_v14)
      (boxLoss (V19 m outs c main_v123_0) (V19 m outs c main_v123_1) (V19 m outs c main_v123_2)) (confLoss (V19 m outs c main_v123_3)) := by
  show StableHlo.after hostOps2 (V19 m outs c) (Proc.devRef .tc main_v141) = _
  after_results_simp
  rfl

theorem v14_walk19 (c : Dev nD) : V19 m outs c main_v14 = V2 m outs c main_v14 :=
  (V19_of m outs c main_v14 (by decide)).trans <|
  (V18_of m outs c main_v14 (by decide)).trans <| (V17_of m outs c main_v14 (by decide)).trans <|
  (V16_of m outs c main_v14 (by decide)).trans <| (V15_of m outs c main_v14 (by decide)).trans <|
  (V14_of m outs c main_v14 (by decide)).trans <| (V13_of m outs c main_v14 (by decide)).trans <|
  (V12_of m outs c main_v14 (by decide)).trans <| (V11_of m outs c main_v14 (by decide)).trans <|
  (V10_of m outs c main_v14 (by decide)).trans <| (V9_of m outs c main_v14 (by decide)).trans <|
  (V8_of m outs c main_v14 (by decide)).trans <| (V7_of m outs c main_v14 (by decide)).trans <|
  (V6_of m outs c main_v14 (by decide)).trans <| (V5_of m outs c main_v14 (by decide)).trans <|
  (V4_of m outs c main_v14 (by decide)).trans (V3_of m outs c main_v14 (by decide))

end Cert.KernelIdeal.Tail

end
-- ==== Proof.KernelValues.lean ====
/-
  The kernel program's four results as functions of the argument arrays' sums.

  The last valuation's result buffers, read through the two reductions' proof data: the text-map loss over the four
  accumulators after the last grid point, the box and confidence losses over the four sums the second reduction stores
  from its ten input arrays (as the seventeen host stretches leave them).
-/
import proofs.«167267_j69861938037475_1_alg».proof.Proof.KernelRunIdeal
import proofs.«167267_j69861938037475_1_alg».proof.Proof.KernelTail

noncomputable section

namespace Cert.KernelIdeal.Values

open Cert.KernelIdeal Cert.KernelIdeal.Gen Cert.KernelIdeal.Run
open Idealize.ShloMosaic Idealize.ShloMosaic.TcCoe

variable (m : (ℓ : Loc nD τ sig) → Buf (Elt Ideal) ℓ)

theorem v0_0 (c : Dev nD) : V1 m (outs m) c main_v0_0 = TextMap.res0_2 (E0 m) c :=
  ((V1_at0 m c).trans (X1_arr m c 2)).trans (TextMap.final0_2 (E0 m) c)
theorem v0_1 (c : Dev nD) : V1 m (outs m) c main_v0_1 = TextMap.res0_3 (E0 m) c :=
  ((V1_at1 m c).trans (X1_arr m c 3)).trans (TextMap.final0_3 (E0 m) c)
theorem v0_2 (c : Dev nD) : V1 m (outs m) c main_v0_2 = TextMap.res0_4 (E0 m) c :=
  ((V1_at2 m c).trans (X1_arr m c 4)).trans (TextMap.final0_4 (E0 m) c)
theorem v0_3 (c : Dev nD) : V1 m (outs m) c main_v0_3 = TextMap.res0_5 (E0 m) c :=
  ((V1_at3 m c).trans (X1_arr m c 5)).trans (TextMap.final0_5 (E0 m) c)

/-- The text-map loss the kernel program ends with. -/
theorem text (c : Dev nD) :
    V20 m (outs m) c main_v14
      = Tail.textLoss (TextMap.res0_2 (E0 m) c) (TextMap.res0_3 (E0 m) c) (TextMap.res0_4 (E0 m) c) (TextMap.res0_5 (E0 m) c) := by
  rw [Tail.v14_walk, Tail.v14_eq, v0_0, v0_1, v0_2, v0_3]

theorem v123_0 (c : Dev nD) : V19 m (outs m) c main_v123_0
    = BoxConf.out1_10 (BoxConf.arr1_0 (E18 m) c) (BoxConf.arr1_1 (E18 m) c) (BoxConf.arr1_2 (E18 m) c) (BoxConf.arr1_3 (E18 m) c) (BoxConf.arr1_4 (E18 m) c)
        (BoxConf.arr1_5 (E18 m) c) (BoxConf.arr1_6 (E18 m) c) (BoxConf.arr1_7 (E18 m) c) (BoxConf.arr1_8 (E18 m) c) (BoxConf.arr1_9 (E18 m) c) :=
  ((V19_at0 m c).trans (X19_arr m c 10)).trans (BoxConf.final1_10 (E18 m) c)
theorem v123_1 (c : Dev nD) : V19 m (outs m) c main_v123_1
    = BoxConf.out1_11 (BoxConf.arr1_0 (E18 m) c) (BoxConf.arr1_1 (E18 m) c) (BoxConf.arr1_2 (E18 m) c) (BoxConf.arr1_3 (E18 m) c) (BoxConf.arr1_4 (E18 m) c)
        (BoxConf.arr1_5 (E18 m) c) (BoxConf.arr1_6 (E18 m) c) (BoxConf.arr1_7 (E18 m) c) (BoxConf.arr1_8 (E18 m) c) (BoxConf.arr1_9 (E18 m) c) :=
  ((V19_at1 m c).trans (X19_arr m c 11)).trans (BoxConf.final1_11 (E18 m) c)
theorem v123_2 (c : Dev nD) : V19 m (outs m) c main_v123_2
    = BoxConf.out1_12 (BoxConf.arr1_0 (E18 m) c) (BoxConf.arr1_1 (E18 m) c) (BoxConf.arr1_2 (E18 m) c) (BoxConf.arr1_3 (E18 m) c) (BoxConf.arr1_4 (E18 m) c)
        (BoxConf.arr1_5 (E18 m) c) (BoxConf.arr1_6 (E18 m) c) (BoxConf.arr1_7 (E18 m) c) (BoxConf.arr1_8 (E18 m) c) (BoxConf.arr1_9 (E18 m) c) :=
  ((V19_at2 m c).trans (X19_arr m c 12)).trans (BoxConf.final1_12 (E18 m) c)
theorem v123_3 (c : Dev nD) : V19 m (outs m) c main_v123_3
    = BoxConf.out1_13 (BoxConf.arr1_0 (E18 m) c) (BoxConf.arr1_1 (E18 m) c) (BoxConf.arr1_2 (E18 m) c) (BoxConf.arr1_3 (E18 m) c) (BoxConf.arr1_4 (E18 m) c)
        (BoxConf.arr1_5 (E18 m) c) (BoxConf.arr1_6 (E18 m) c) (BoxConf.arr1_7 (E18 m) c) (BoxConf.arr1_8 (E18 m) c) (BoxConf.arr1_9 (E18 m) c) :=
  ((V19_at3 m c).trans (X19_arr m c 13)).trans (BoxConf.final1_13 (E18 m) c)

/-- The box loss the kernel program ends with. -/
theorem box (c : Dev nD) :
    V20 m (outs m) c main_v134 = Tail.boxLoss (V19 m (outs m) c main_v123_0) (V19 m (outs m) c main_v123_1) (V19 m (outs m) c main_v123_2) :=
  Tail.v134_eq m (outs m) c

/-- The confidence loss the kernel program ends with. -/
theorem conf (c : Dev nD) : V20 m (outs m) c main_v136 = Tail.confLoss (V19 m (outs m) c main_v123_3) :=
  Tail.v136_eq m (outs m) c

/-- The total the kernel program ends with: (1·text + 20·box) + 0.5·conf of the three results above. -/
theorem total (c : Dev nD) :
    V20 m (outs m) c main_v141 = Tail.totalLoss (V20 m (outs m) c main_v14) (V20 m (outs m) c main_v134) (V20 m (outs m) c main_v136) := by
  rw [Tail.v141_eq, box, conf, Tail.v14_walk, Tail.v14_walk19]

end Cert.KernelIdeal.Values

end
-- ==== Proof.RefTerms.lean ====
/- The reference program's stage terms: for each buffer that is read by more than one later operation, or by a
   later stretch of operations, or returned, its contents as the operations' composed term of the five argument
   arrays (`term_<buffer> V0`, over the launch contents `V0`), down to the earlier named buffers; a concatenate is
   named as a function of its operands (`cat_<buffer>`). Definitions only. -/
import proofs.«167267_j69861938037475_1_alg».proof.Proof.RefRunOps
import Idealize.ShloMosaic.Lib.StableHlo.Run

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

set_option maxRecDepth 16384

/-- `main_v14`'s composed term. -/
def term_main_v14 (V0 : Valuation τ sig (Elt F)) : (Proc.devRef .tc main_v14 : DevRef τ sig).ty.Contents (Elt F) :=
  ((Host.divf : (⟨S_, .f32⟩ : BufTy).Contents (Elt F) → (⟨S_, .f32⟩ : BufTy).Contents (Elt F) → (⟨S_, .f32⟩ : BufTy).Contents (Elt F)) (((fun x v => Host.reduceAdd x v reducesTo_S64x1x320x320_S_d0_1_2_3 h_S_) : (⟨S64x1x320x320, .f32⟩ : BufTy).Contents (Elt F) → (⟨S_, .f32⟩ : BufTy).Contents (Elt F) → (⟨S_, .f32⟩ : BufTy).Contents (Elt F)) ((Host.negf : (⟨S64x1x320x320, .f32⟩ : BufTy).Contents (Elt F) → (⟨S64x1x320x320, .f32⟩ : BufTy).Contents (Elt F)) ((addf : (⟨S64x1x320x320, .f32⟩ : BufTy).Contents (Elt F) → (⟨S64x1x320x320, .f32⟩ : BufTy).Contents (Elt F) → (⟨S64x1x320x320, .f32⟩ : BufTy).Contents (Elt F)) ((mulf : (⟨S64x1x320x320, .f32⟩ : BufTy).Contents (Elt F) → (⟨S64x1x320x320, .f32⟩ : BufTy).Contents (Elt F) → (⟨S64x1x320x320, .f32⟩ : BufTy).Contents (Elt F)) (V0 (Proc.devRef .tc main_arg3)) ((maximumf : (⟨S64x1x320x320, .f32⟩ : BufTy).Contents (Elt F) → (⟨S64x1x320x320, .f32⟩ : BufTy).Contents (Elt F) → (⟨S64x1x320x320, .f32⟩ : BufTy).Contents (Elt F)) ((Host.log : (⟨S64x1x320x320, .f32⟩ : BufTy).Contents (Elt F) → (⟨S64x1x320x320, .f32⟩ : BufTy).Contents (Elt F)) (V0 (Proc.devRef .tc main_arg0))) ((broadcastInDim S64x1x320x320 ![] bcast_S_S64x1x320x320 : (⟨S_, .f32⟩ : BufTy).Contents (Elt F) → (⟨S64x1x320x320, .f32⟩ : BufTy).Contents (Elt F)) (constant S_ .f32 0xC2C80000#32)))) ((mulf : (⟨S64x1x320x320, .f32⟩ : BufTy).Contents (Elt F) → (⟨S64x1x320x320, .f32⟩ : BufTy).Contents (Elt F) → (⟨S64x1x320x320, .f32⟩ : BufTy).Contents (Elt F)) ((subf : (⟨S64x1x320x320, .f32⟩ : BufTy).Contents (Elt F) → (⟨S64x1x320x320, .f32⟩ : BufTy).Contents (Elt F) → (⟨S64x1x320x320, .f32⟩ : BufTy).Contents (Elt F)) ((broadcastInDim S64x1x320x320 ![] bcast_S_S64x1x320x320 : (⟨S_, .f32⟩ : BufTy).Contents (Elt F) → (⟨S64x1x320x320, .f32⟩ : BufTy).Contents (Elt F)) (constant S_ .f32 0x3F800000#32)) (V0 (Proc.devRef .tc main_arg3))) ((maximumf : (⟨S64x1x320x320, .f32⟩ : BufTy).Contents (Elt F) → (⟨S64x1x320x320, .f32⟩ : BufTy).Contents (Elt F) → (⟨S64x1x320x320, .f32⟩ : BufTy).Contents (Elt F)) ((Host.log1p : (⟨S64x1x320x320, .f32⟩ : BufTy).Contents (Elt F) → (⟨S64x1x320x320, .f32⟩ : BufTy).Contents (Elt F)) ((Host.negf : (⟨S64x1x320x320, .f32⟩ : BufTy).Contents (Elt F) → (⟨S64x1x320x320, .f32⟩ : BufTy).Contents (Elt F)) (V0 (Proc.devRef .tc main_arg0)))) ((broadcastInDim S64x1x320x320 ![] bcast_S_S64x1x320x320 : (⟨S_, .f32⟩ : BufTy).Contents (Elt F) → (⟨S64x1x320x320, .f32⟩ : BufTy).Contents (Elt F)) (constant S_ .f32 0xC2C80000#32)))))) (constant S_ .f32 0x00000000#32)) (constant S_ .f32 0x4AC80000#32))

/-- `main_v15`'s composed term. -/
def term_main_v15 (V0 : Valuation τ sig (Elt F)) : (Proc.devRef .tc main_v15 : DevRef τ sig).ty.Contents (Elt F) :=
  (shapeCast S6553600 (V0 (Proc.devRef .tc main_arg0)) shapeCasts_S64x1x320x320_S6553600)

/-- `main_v16`'s composed term. -/
def term_main_v16 (V0 : Valuation τ sig (Elt F)) : (Proc.devRef .tc main_v16 : DevRef τ sig).ty.Contents (Elt F) :=
  (shapeCast S6553600 (V0 (Proc.devRef .tc main_arg3)) shapeCasts_S64x1x320x320_S6553600)

/-- `main_v29`'s composed term. -/
def term_main_v29 (V0 : Valuation τ sig (Elt F)) : (Proc.devRef .tc main_v29 : DevRef τ sig).ty.Contents (Elt F) :=
  ((addf : (⟨S_, .f32⟩ : BufTy).Contents (Elt F) → (⟨S_, .f32⟩ : BufTy).Contents (Elt F) → (⟨S_, .f32⟩ : BufTy).Contents (Elt F)) ((mulf : (⟨S_, .f32⟩ : BufTy).Contents (Elt F) → (⟨S_, .f32⟩ : BufTy).Contents (Elt F) → (⟨S_, .f32⟩ : BufTy).Contents (Elt F)) (constant S_ .f32 0x3F000000#32) (term_main_v14 V0)) ((mulf : (⟨S_, .f32⟩ : BufTy).Contents (Elt F) → (⟨S_, .f32⟩ : BufTy).Contents (Elt F) → (⟨S_, .f32⟩ : BufTy).Contents (Elt F)) (constant S_ .f32 0x3F000000#32) ((subf : (⟨S_, .f32⟩ : BufTy).Contents (Elt F) → (⟨S_, .f32⟩ : BufTy).Contents (Elt F) → (⟨S_, .f32⟩ : BufTy).Contents (Elt F)) (constant S_ .f32 0x3F800000#32) ((Host.divf : (⟨S_, .f32⟩ : BufTy).Contents (Elt F) → (⟨S_, .f32⟩ : BufTy).Contents (Elt F) → (⟨S_, .f32⟩ : BufTy).Contents (Elt F)) ((addf : (⟨S_, .f32⟩ : BufTy).Contents (Elt F) → (⟨S_, .f32⟩ : BufTy).Contents (Elt F) → (⟨S_, .f32⟩ : BufTy).Contents (Elt F)) ((mulf : (⟨S_, .f32⟩ : BufTy).Contents (Elt F) → (⟨S_, .f32⟩ : BufTy).Contents (Elt F) → (⟨S_, .f32⟩ : BufTy).Contents (Elt F)) (constant S_ .f32 0x40000000#32) (((fun x v => Host.reduceAdd x v reducesTo_S6553600_S_d0 h_S_) : (⟨S6553600, .f32⟩ : BufTy).Contents (Elt F) → (⟨S_, .f32⟩ : BufTy).Contents (Elt F) → (⟨S_, .f32⟩ : BufTy).Contents (Elt F)) ((mulf : (⟨S6553600, .f32⟩ : BufTy).Contents (Elt F) → (⟨S6553600, .f32⟩ : BufTy).Contents (Elt F) → (⟨S6553600, .f32⟩ : BufTy).Contents (Elt F)) (term_main_v15 V0) (term_main_v16 V0)) (constant S_ .f32 0x00000000#32))) (constant S_ .f32 0x3727C5AC#32)) ((addf : (⟨S_, .f32⟩ : BufTy).Contents (Elt F) → (⟨S_, .f32⟩ : BufTy).Contents (Elt F) → (⟨S_, .f32⟩ : BufTy).Contents (Elt F)) ((addf : (⟨S_, .f32⟩ : BufTy).Contents (Elt F) → (⟨S_, .f32⟩ : BufTy).Contents (Elt F) → (⟨S_, .f32⟩ : BufTy).Contents (Elt F)) (((fun x v => Host.reduceAdd x v reducesTo_S6553600_S_d0 h_S_) : (⟨S6553600, .f32⟩ : BufTy).Contents (Elt F) → (⟨S_, .f32⟩ : BufTy).Contents (Elt F) → (⟨S_, .f32⟩ : BufTy).Contents (Elt F)) (term_main_v15 V0) (constant S_ .f32 0x00000000#32)) (((fun x v => Host.reduceAdd x v reducesTo_S6553600_S_d0 h_S_) : (⟨S6553600, .f32⟩ : BufTy).Contents (Elt F) → (⟨S_, .f32⟩ : BufTy).Contents (Elt F) → (⟨S_, .f32⟩ : BufTy).Contents (Elt F)) (term_main_v16 V0) (constant S_ .f32 0x00000000#32))) (constant S_ .f32 0x3727C5AC#32))))))

/-- `main_v31`'s composed term. -/
def term_main_v31 (V0 : Valuation τ sig (Elt F)) : (Proc.devRef .tc main_v31 : DevRef τ sig).ty.Contents (Elt F) :=
  (shapeCast S64x32 (((extractStridedSlice S64x32x1 ![0, 0, 0] · slices_S64x32x5_S64x32x1_0_0_0) : (⟨S64x32x5, .f32⟩ : BufTy).Contents (Elt F) → (⟨S64x32x1, .f32⟩ : BufTy).Contents (Elt F)) (V0 (Proc.devRef .tc main_arg4))) shapeCasts_S64x32x1_S64x32)

/-- `main_v36`'s composed term. -/
def term_main_v36 (V0 : Valuation τ sig (Elt F)) : (Proc.devRef .tc main_v36 : DevRef τ sig).ty.Contents (Elt F) :=
  ((minimumf : (⟨S64x32, .f32⟩ : BufTy).Contents (Elt F) → (⟨S64x32, .f32⟩ : BufTy).Contents (Elt F) → (⟨S64x32, .f32⟩ : BufTy).Contents (Elt F)) (((broadcastInDim S64x32 ![] bcast_S_S64x32) : (⟨S_, .f32⟩ : BufTy).Contents (Elt F) → (⟨S64x32, .f32⟩ : BufTy).Contents (Elt F)) (constant S_ .f32 0x3F7FBE77#32)) ((maximumf : (⟨S64x32, .f32⟩ : BufTy).Contents (Elt F) → (⟨S64x32, .f32⟩ : BufTy).Contents (Elt F) → (⟨S64x32, .f32⟩ : BufTy).Contents (Elt F)) (((broadcastInDim S64x32 ![] bcast_S_S64x32) : (⟨S_, .f32⟩ : BufTy).Contents (Elt F) → (⟨S64x32, .f32⟩ : BufTy).Contents (Elt F)) (constant S_ .f32 0x00000000#32)) ((Host.divf : (⟨S64x32, .f32⟩ : BufTy).Contents (Elt F) → (⟨S64x32, .f32⟩ : BufTy).Contents (Elt F) → (⟨S64x32, .f32⟩ : BufTy).Contents (Elt F)) (shapeCast S64x32 (((extractStridedSlice S64x32x1 ![0, 0, 1] · slices_S64x32x5_S64x32x1_0_0_1) : (⟨S64x32x5, .f32⟩ : BufTy).Contents (Elt F) → (⟨S64x32x1, .f32⟩ : BufTy).Contents (Elt F)) (V0 (Proc.devRef .tc main_arg4))) shapeCasts_S64x32x1_S64x32) ((broadcastInDim S64x32 ![] bcast_S_S64x32 : (⟨S_, .f32⟩ : BufTy).Contents (Elt F) → (⟨S64x32, .f32⟩ : BufTy).Contents (Elt F)) (constant S_ .f32 0x43A00000#32)))))

/-- `main_v40`'s composed term. -/
def term_main_v40 (V0 : Valuation τ sig (Elt F)) : (Proc.devRef .tc main_v40 : DevRef τ sig).ty.Contents (Elt F) :=
  ((Host.divf : (⟨S64x32, .f32⟩ : BufTy).Contents (Elt F) → (⟨S64x32, .f32⟩ : BufTy).Contents (Elt F) → (⟨S64x32, .f32⟩ : BufTy).Contents (Elt F)) (shapeCast S64x32 (((extractStridedSlice S64x32x1 ![0, 0, 2] · slices_S64x32x5_S64x32x1_0_0_2) : (⟨S64x32x5, .f32⟩ : BufTy).Contents (Elt F) → (⟨S64x32x1, .f32⟩ : BufTy).Contents (Elt F)) (V0 (Proc.devRef .tc main_arg4))) shapeCasts_S64x32x1_S64x32) ((broadcastInDim S64x32 ![] bcast_S_S64x32 : (⟨S_, .f32⟩ : BufTy).Contents (Elt F) → (⟨S64x32, .f32⟩ : BufTy).Contents (Elt F)) (constant S_ .f32 0x43A00000#32)))

/-- `main_cst_17`'s composed term. -/
def term_main_cst_17 (V0 : Valuation τ sig (Elt F)) : (Proc.devRef .tc main_cst_17 : DevRef τ sig).ty.Contents (Elt F) :=
  (constant S_ .f32 0x00000000#32)

/-- `main_v41`'s composed term. -/
def term_main_v41 (V0 : Valuation τ sig (Elt F)) : (Proc.devRef .tc main_v41 : DevRef τ sig).ty.Contents (Elt F) :=
  ((minimumf : (⟨S64x32, .f32⟩ : BufTy).Contents (Elt F) → (⟨S64x32, .f32⟩ : BufTy).Contents (Elt F) → (⟨S64x32, .f32⟩ : BufTy).Contents (Elt F)) (((broadcastInDim S64x32 ![] bcast_S_S64x32) : (⟨S_, .f32⟩ : BufTy).Contents (Elt F) → (⟨S64x32, .f32⟩ : BufTy).Contents (Elt F)) (constant S_ .f32 0x3F7FBE77#32)) ((maximumf : (⟨S64x32, .f32⟩ : BufTy).Contents (Elt F) → (⟨S64x32, .f32⟩ : BufTy).Contents (Elt F) → (⟨S64x32, .f32⟩ : BufTy).Contents (Elt F)) (((broadcastInDim S64x32 ![] bcast_S_S64x32) : (⟨S_, .f32⟩ : BufTy).Contents (Elt F) → (⟨S64x32, .f32⟩ : BufTy).Contents (Elt F)) (term_main_cst_17 V0)) (term_main_v40 V0)))

/-- `main_v50`'s composed term. -/
def term_main_v50 (V0 : Valuation τ sig (Elt F)) : (Proc.devRef .tc main_v50 : DevRef τ sig).ty.Contents (Elt F) :=
  ((maximumf : (⟨S64x32, .f32⟩ : BufTy).Contents (Elt F) → (⟨S64x32, .f32⟩ : BufTy).Contents (Elt F) → (⟨S64x32, .f32⟩ : BufTy).Contents (Elt F)) ((addf : (⟨S64x32, .f32⟩ : BufTy).Contents (Elt F) → (⟨S64x32, .f32⟩ : BufTy).Contents (Elt F) → (⟨S64x32, .f32⟩ : BufTy).Contents (Elt F)) (term_main_v36 V0) ((broadcastInDim S64x32 ![] bcast_S_S64x32 : (⟨S_, .f32⟩ : BufTy).Contents (Elt F) → (⟨S64x32, .f32⟩ : BufTy).Contents (Elt F)) (constant S_ .f32 0x3A83126F#32))) ((minimumf : (⟨S64x32, .f32⟩ : BufTy).Contents (Elt F) → (⟨S64x32, .f32⟩ : BufTy).Contents (Elt F) → (⟨S64x32, .f32⟩ : BufTy).Contents (Elt F)) ((Host.divf : (⟨S64x32, .f32⟩ : BufTy).Contents (Elt F) → (⟨S64x32, .f32⟩ : BufTy).Contents (Elt F) → (⟨S64x32, .f32⟩ : BufTy).Contents (Elt F)) (shapeCast S64x32 (((extractStridedSlice S64x32x1 ![0, 0, 3] · slices_S64x32x5_S64x32x1_0_0_3) : (⟨S64x32x5, .f32⟩ : BufTy).Contents (Elt F) → (⟨S64x32x1, .f32⟩ : BufTy).Contents (Elt F)) (V0 (Proc.devRef .tc main_arg4))) shapeCasts_S64x32x1_S64x32) ((broadcastInDim S64x32 ![] bcast_S_S64x32 : (⟨S_, .f32⟩ : BufTy).Contents (Elt F) → (⟨S64x32, .f32⟩ : BufTy).Contents (Elt F)) (constant S_ .f32 0x43A00000#32))) ((broadcastInDim S64x32 ![] bcast_S_S64x32 : (⟨S_, .f32⟩ : BufTy).Contents (Elt F) → (⟨S64x32, .f32⟩ : BufTy).Contents (Elt F)) (constant S_ .f32 0x3F800000#32))))

/-- `main_v52`'s composed term. -/
def term_main_v52 (V0 : Valuation τ sig (Elt F)) : (Proc.devRef .tc main_v52 : DevRef τ sig).ty.Contents (Elt F) :=
  ((addf : (⟨S64x32, .f32⟩ : BufTy).Contents (Elt F) → (⟨S64x32, .f32⟩ : BufTy).Contents (Elt F) → (⟨S64x32, .f32⟩ : BufTy).Contents (Elt F)) (term_main_v41 V0) ((broadcastInDim S64x32 ![] bcast_S_S64x32 : (⟨S_, .f32⟩ : BufTy).Contents (Elt F) → (⟨S64x32, .f32⟩ : BufTy).Contents (Elt F)) (constant S_ .f32 0x3A83126F#32)))

/-- `main_v54`'s composed term. -/
def term_main_v54 (V0 : Valuation τ sig (Elt F)) : (Proc.devRef .tc main_v54 : DevRef τ sig).ty.Contents (Elt F) :=
  (shapeCast S64x32 (((extractStridedSlice S64x32x1 ![0, 0, 4] · slices_S64x32x5_S64x32x1_0_0_4) : (⟨S64x32x5, .f32⟩ : BufTy).Contents (Elt F) → (⟨S64x32x1, .f32⟩ : BufTy).Contents (Elt F)) (V0 (Proc.devRef .tc main_arg4))) shapeCasts_S64x32x1_S64x32)

/-- `main_cst_23`'s composed term. -/
def term_main_cst_23 (V0 : Valuation τ sig (Elt F)) : (Proc.devRef .tc main_cst_23 : DevRef τ sig).ty.Contents (Elt F) :=
  (constant S_ .f32 0x43A00000#32)

/-- `main_v59`'s composed term. -/
def term_main_v59 (V0 : Valuation τ sig (Elt F)) : (Proc.devRef .tc main_v59 : DevRef τ sig).ty.Contents (Elt F) :=
  ((maximumf : (⟨S64x32, .f32⟩ : BufTy).Contents (Elt F) → (⟨S64x32, .f32⟩ : BufTy).Contents (Elt F) → (⟨S64x32, .f32⟩ : BufTy).Contents (Elt F)) (term_main_v52 V0) ((minimumf : (⟨S64x32, .f32⟩ : BufTy).Contents (Elt F) → (⟨S64x32, .f32⟩ : BufTy).Contents (Elt F) → (⟨S64x32, .f32⟩ : BufTy).Contents (Elt F)) ((Host.divf : (⟨S64x32, .f32⟩ : BufTy).Contents (Elt F) → (⟨S64x32, .f32⟩ : BufTy).Contents (Elt F) → (⟨S64x32, .f32⟩ : BufTy).Contents (Elt F)) (term_main_v54 V0) ((broadcastInDim S64x32 ![] bcast_S_S64x32 : (⟨S_, .f32⟩ : BufTy).Contents (Elt F) → (⟨S64x32, .f32⟩ : BufTy).Contents (Elt F)) (term_main_cst_23 V0))) ((broadcastInDim S64x32 ![] bcast_S_S64x32 : (⟨S_, .f32⟩ : BufTy).Contents (Elt F) → (⟨S64x32, .f32⟩ : BufTy).Contents (Elt F)) (constant S_ .f32 0x3F800000#32))))

/-- `main_v63`'s composed term. -/
def term_main_v63 (V0 : Valuation τ sig (Elt F)) : (Proc.devRef .tc main_v63 : DevRef τ sig).ty.Contents (Elt F) :=
  ((minsi : (⟨S64x32, .i32⟩ : BufTy).Contents (Elt F) → (⟨S64x32, .i32⟩ : BufTy).Contents (Elt F) → (⟨S64x32, .i32⟩ : BufTy).Contents (Elt F)) (((broadcastInDim S64x32 ![] bcast_S_S64x32) : (⟨S_, .i32⟩ : BufTy).Contents (Elt F) → (⟨S64x32, .i32⟩ : BufTy).Contents (Elt F)) (constantI S_ 32 319#32)) ((maxsi : (⟨S64x32, .i32⟩ : BufTy).Contents (Elt F) → (⟨S64x32, .i32⟩ : BufTy).Contents (Elt F) → (⟨S64x32, .i32⟩ : BufTy).Contents (Elt F)) (((broadcastInDim S64x32 ![] bcast_S_S64x32) : (⟨S_, .i32⟩ : BufTy).Contents (Elt F) → (⟨S64x32, .i32⟩ : BufTy).Contents (Elt F)) (constantI S_ 32 0#32)) ((fptosi 32 : (⟨S64x32, .f32⟩ : BufTy).Contents (Elt F) → (⟨S64x32, .i32⟩ : BufTy).Contents (Elt F)) ((mulf : (⟨S64x32, .f32⟩ : BufTy).Contents (Elt F) → (⟨S64x32, .f32⟩ : BufTy).Contents (Elt F) → (⟨S64x32, .f32⟩ : BufTy).Contents (Elt F)) (term_main_v36 V0) ((broadcastInDim S64x32 ![] bcast_S_S64x32 : (⟨S_, .f32⟩ : BufTy).Contents (Elt F) → (⟨S64x32, .f32⟩ : BufTy).Contents (Elt F)) (constant S_ .f32 0x43A00000#32))))))

/-- `main_v66`'s composed term. -/
def term_main_v66 (V0 : Valuation τ sig (Elt F)) : (Proc.devRef .tc main_v66 : DevRef τ sig).ty.Contents (Elt F) :=
  ((fptosi 32 : (⟨S64x32, .f32⟩ : BufTy).Contents (Elt F) → (⟨S64x32, .i32⟩ : BufTy).Contents (Elt F)) ((mulf : (⟨S64x32, .f32⟩ : BufTy).Contents (Elt F) → (⟨S64x32, .f32⟩ : BufTy).Contents (Elt F) → (⟨S64x32, .f32⟩ : BufTy).Contents (Elt F)) (term_main_v41 V0) ((broadcastInDim S64x32 ![] bcast_S_S64x32 : (⟨S_, .f32⟩ : BufTy).Contents (Elt F) → (⟨S64x32, .f32⟩ : BufTy).Contents (Elt F)) (constant S_ .f32 0x43A00000#32))))

/-- `main_c_29`'s composed term. -/
def term_main_c_29 (V0 : Valuation τ sig (Elt F)) : (Proc.devRef .tc main_c_29 : DevRef τ sig).ty.Contents (Elt F) :=
  (constantI S_ 32 319#32)

/-- `main_call3_v0`'s composed term. -/
def term_main_call3_v0 (V0 : Valuation τ sig (Elt F)) : (Proc.devRef .tc main_call3_v0 : DevRef τ sig).ty.Contents (Elt F) :=
  (constantI S_ 32 0#32)

/-- `main_v67`'s composed term. -/
def term_main_v67 (V0 : Valuation τ sig (Elt F)) : (Proc.devRef .tc main_v67 : DevRef τ sig).ty.Contents (Elt F) :=
  ((minsi : (⟨S64x32, .i32⟩ : BufTy).Contents (Elt F) → (⟨S64x32, .i32⟩ : BufTy).Contents (Elt F) → (⟨S64x32, .i32⟩ : BufTy).Contents (Elt F)) (((broadcastInDim S64x32 ![] bcast_S_S64x32) : (⟨S_, .i32⟩ : BufTy).Contents (Elt F) → (⟨S64x32, .i32⟩ : BufTy).Contents (Elt F)) (term_main_c_29 V0)) ((maxsi : (⟨S64x32, .i32⟩ : BufTy).Contents (Elt F) → (⟨S64x32, .i32⟩ : BufTy).Contents (Elt F) → (⟨S64x32, .i32⟩ : BufTy).Contents (Elt F)) (((broadcastInDim S64x32 ![] bcast_S_S64x32) : (⟨S_, .i32⟩ : BufTy).Contents (Elt F) → (⟨S64x32, .i32⟩ : BufTy).Contents (Elt F)) (term_main_call3_v0 V0)) (term_main_v66 V0)))

/-- `main_v75`'s composed term. -/
def term_main_v75 (V0 : Valuation τ sig (Elt F)) : (Proc.devRef .tc main_v75 : DevRef τ sig).ty.Contents (Elt F) :=
  ((maxsi : (⟨S64x32, .i32⟩ : BufTy).Contents (Elt F) → (⟨S64x32, .i32⟩ : BufTy).Contents (Elt F) → (⟨S64x32, .i32⟩ : BufTy).Contents (Elt F)) ((addi : (⟨S64x32, .i32⟩ : BufTy).Contents (Elt F) → (⟨S64x32, .i32⟩ : BufTy).Contents (Elt F) → (⟨S64x32, .i32⟩ : BufTy).Contents (Elt F)) (term_main_v63 V0) ((broadcastInDim S64x32 ![] bcast_S_S64x32 : (⟨S_, .i32⟩ : BufTy).Contents (Elt F) → (⟨S64x32, .i32⟩ : BufTy).Contents (Elt F)) (constantI S_ 32 1#32))) ((minsi : (⟨S64x32, .i32⟩ : BufTy).Contents (Elt F) → (⟨S64x32, .i32⟩ : BufTy).Contents (Elt F) → (⟨S64x32, .i32⟩ : BufTy).Contents (Elt F)) ((fptosi 32 : (⟨S64x32, .f32⟩ : BufTy).Contents (Elt F) → (⟨S64x32, .i32⟩ : BufTy).Contents (Elt F)) ((mulf : (⟨S64x32, .f32⟩ : BufTy).Contents (Elt F) → (⟨S64x32, .f32⟩ : BufTy).Contents (Elt F) → (⟨S64x32, .f32⟩ : BufTy).Contents (Elt F)) (term_main_v50 V0) ((broadcastInDim S64x32 ![] bcast_S_S64x32 : (⟨S_, .f32⟩ : BufTy).Contents (Elt F) → (⟨S64x32, .f32⟩ : BufTy).Contents (Elt F)) (constant S_ .f32 0x43A00000#32)))) ((broadcastInDim S64x32 ![] bcast_S_S64x32 : (⟨S_, .i32⟩ : BufTy).Contents (Elt F) → (⟨S64x32, .i32⟩ : BufTy).Contents (Elt F)) (constantI S_ 32 319#32))))

/-- `main_v77`'s composed term. -/
def term_main_v77 (V0 : Valuation τ sig (Elt F)) : (Proc.devRef .tc main_v77 : DevRef τ sig).ty.Contents (Elt F) :=
  ((addi : (⟨S64x32, .i32⟩ : BufTy).Contents (Elt F) → (⟨S64x32, .i32⟩ : BufTy).Contents (Elt F) → (⟨S64x32, .i32⟩ : BufTy).Contents (Elt F)) (term_main_v67 V0) ((broadcastInDim S64x32 ![] bcast_S_S64x32 : (⟨S_, .i32⟩ : BufTy).Contents (Elt F) → (⟨S64x32, .i32⟩ : BufTy).Contents (Elt F)) (constantI S_ 32 1#32)))

/-- `main_v80`'s composed term. -/
def term_main_v80 (V0 : Valuation τ sig (Elt F)) : (Proc.devRef .tc main_v80 : DevRef τ sig).ty.Contents (Elt F) :=
  ((fptosi 32 : (⟨S64x32, .f32⟩ : BufTy).Contents (Elt F) → (⟨S64x32, .i32⟩ : BufTy).Contents (Elt F)) ((mulf : (⟨S64x32, .f32⟩ : BufTy).Contents (Elt F) → (⟨S64x32, .f32⟩ : BufTy).Contents (Elt F) → (⟨S64x32, .f32⟩ : BufTy).Contents (Elt F)) (term_main_v59 V0) ((broadcastInDim S64x32 ![] bcast_S_S64x32 : (⟨S_, .f32⟩ : BufTy).Contents (Elt F) → (⟨S64x32, .f32⟩ : BufTy).Contents (Elt F)) (constant S_ .f32 0x43A00000#32))))

/-- `main_v81`'s composed term. -/
def term_main_v81 (V0 : Valuation τ sig (Elt F)) : (Proc.devRef .tc main_v81 : DevRef τ sig).ty.Contents (Elt F) :=
  ((broadcastInDim S64x32 ![] bcast_S_S64x32 : (⟨S_, .i32⟩ : BufTy).Contents (Elt F) → (⟨S64x32, .i32⟩ : BufTy).Contents (Elt F)) (constantI S_ 32 319#32))

/-- `main_v83`'s composed term. -/
def term_main_v83 (V0 : Valuation τ sig (Elt F)) : (Proc.devRef .tc main_v83 : DevRef τ sig).ty.Contents (Elt F) :=
  ((maxsi : (⟨S64x32, .i32⟩ : BufTy).Contents (Elt F) → (⟨S64x32, .i32⟩ : BufTy).Contents (Elt F) → (⟨S64x32, .i32⟩ : BufTy).Contents (Elt F)) (term_main_v77 V0) ((minsi : (⟨S64x32, .i32⟩ : BufTy).Contents (Elt F) → (⟨S64x32, .i32⟩ : BufTy).Contents (Elt F) → (⟨S64x32, .i32⟩ : BufTy).Contents (Elt F)) (term_main_v80 V0) (term_main_v81 V0)))

/-- `main_v84`'s composed term. -/
def term_main_v84 (V0 : Valuation τ sig (Elt F)) : (Proc.devRef .tc main_v84 : DevRef τ sig).ty.Contents (Elt F) :=
  ((addi : (⟨S64x32, .i32⟩ : BufTy).Contents (Elt F) → (⟨S64x32, .i32⟩ : BufTy).Contents (Elt F) → (⟨S64x32, .i32⟩ : BufTy).Contents (Elt F)) (term_main_v67 V0) (term_main_v83 V0))

/-- `main_call4_v0`'s composed term. -/
def term_main_call4_v0 (V0 : Valuation τ sig (Elt F)) : (Proc.devRef .tc main_call4_v0 : DevRef τ sig).ty.Contents (Elt F) :=
  (constantI S_ 32 2#32)

/-- `main_call4_v2`'s composed term. -/
def term_main_call4_v2 (V0 : Valuation τ sig (Elt F)) : (Proc.devRef .tc main_call4_v2 : DevRef τ sig).ty.Contents (Elt F) :=
  ((Host.divsi : (⟨S64x32, .i32⟩ : BufTy).Contents (Elt F) → (⟨S64x32, .i32⟩ : BufTy).Contents (Elt F) → (⟨S64x32, .i32⟩ : BufTy).Contents (Elt F)) (term_main_v84 V0) (((broadcastInDim S64x32 ![] bcast_S_S64x32) : (⟨S_, .i32⟩ : BufTy).Contents (Elt F) → (⟨S64x32, .i32⟩ : BufTy).Contents (Elt F)) (term_main_call4_v0 V0)))

/-- `main_v85`'s composed term. -/
def term_main_v85 (V0 : Valuation τ sig (Elt F)) : (Proc.devRef .tc main_v85 : DevRef τ sig).ty.Contents (Elt F) :=
  ((select : (⟨S64x32, .i1⟩ : BufTy).Contents (Elt F) → (⟨S64x32, .i32⟩ : BufTy).Contents (Elt F) → (⟨S64x32, .i32⟩ : BufTy).Contents (Elt F) → (⟨S64x32, .i32⟩ : BufTy).Contents (Elt F)) ((andi : (⟨S64x32, .i1⟩ : BufTy).Contents (Elt F) → (⟨S64x32, .i1⟩ : BufTy).Contents (Elt F) → (⟨S64x32, .i1⟩ : BufTy).Contents (Elt F)) (((cmpi .ne) : (⟨S64x32, .i32⟩ : BufTy).Contents (Elt F) → (⟨S64x32, .i32⟩ : BufTy).Contents (Elt F) → (⟨S64x32, .i1⟩ : BufTy).Contents (Elt F)) ((signi : (⟨S64x32, .i32⟩ : BufTy).Contents (Elt F) → (⟨S64x32, .i32⟩ : BufTy).Contents (Elt F)) (term_main_v84 V0)) (((broadcastInDim S64x32 ![] bcast_S_S64x32) : (⟨S_, .i32⟩ : BufTy).Contents (Elt F) → (⟨S64x32, .i32⟩ : BufTy).Contents (Elt F)) ((signi : (⟨S_, .i32⟩ : BufTy).Contents (Elt F) → (⟨S_, .i32⟩ : BufTy).Contents (Elt F)) (term_main_call4_v0 V0)))) (((cmpi .ne) : (⟨S64x32, .i32⟩ : BufTy).Contents (Elt F) → (⟨S64x32, .i32⟩ : BufTy).Contents (Elt F) → (⟨S64x32, .i1⟩ : BufTy).Contents (Elt F)) ((Host.remsi : (⟨S64x32, .i32⟩ : BufTy).Contents (Elt F) → (⟨S64x32, .i32⟩ : BufTy).Contents (Elt F) → (⟨S64x32, .i32⟩ : BufTy).Contents (Elt F)) (term_main_v84 V0) (((broadcastInDim S64x32 ![] bcast_S_S64x32) : (⟨S_, .i32⟩ : BufTy).Contents (Elt F) → (⟨S64x32, .i32⟩ : BufTy).Contents (Elt F)) (term_main_call4_v0 V0))) (((broadcastInDim S64x32 ![] bcast_S_S64x32) : (⟨S_, .i32⟩ : BufTy).Contents (Elt F) → (⟨S64x32, .i32⟩ : BufTy).Contents (Elt F)) ((constantI S_ 32 0#32) : (⟨S_, .i32⟩ : BufTy).Contents (Elt F))))) ((subi : (⟨S64x32, .i32⟩ : BufTy).Contents (Elt F) → (⟨S64x32, .i32⟩ : BufTy).Contents (Elt F) → (⟨S64x32, .i32⟩ : BufTy).Contents (Elt F)) (term_main_call4_v2 V0) (((broadcastInDim S64x32 ![] bcast_S_S64x32) : (⟨S_, .i32⟩ : BufTy).Contents (Elt F) → (⟨S64x32, .i32⟩ : BufTy).Contents (Elt F)) ((constantI S_ 32 1#32) : (⟨S_, .i32⟩ : BufTy).Contents (Elt F)))) (term_main_call4_v2 V0))

/-- `main_v86`'s composed term. -/
def term_main_v86 (V0 : Valuation τ sig (Elt F)) : (Proc.devRef .tc main_v86 : DevRef τ sig).ty.Contents (Elt F) :=
  ((addi : (⟨S64x32, .i32⟩ : BufTy).Contents (Elt F) → (⟨S64x32, .i32⟩ : BufTy).Contents (Elt F) → (⟨S64x32, .i32⟩ : BufTy).Contents (Elt F)) (term_main_v63 V0) (term_main_v75 V0))

/-- `main_call5_v0`'s composed term. -/
def term_main_call5_v0 (V0 : Valuation τ sig (Elt F)) : (Proc.devRef .tc main_call5_v0 : DevRef τ sig).ty.Contents (Elt F) :=
  (constantI S_ 32 2#32)

/-- `main_call5_v1`'s composed term. -/
def term_main_call5_v1 (V0 : Valuation τ sig (Elt F)) : (Proc.devRef .tc main_call5_v1 : DevRef τ sig).ty.Contents (Elt F) :=
  (((broadcastInDim S64x32 ![] bcast_S_S64x32) : (⟨S_, .i32⟩ : BufTy).Contents (Elt F) → (⟨S64x32, .i32⟩ : BufTy).Contents (Elt F)) (term_main_call5_v0 V0))

/-- `main_call5_v2`'s composed term. -/
def term_main_call5_v2 (V0 : Valuation τ sig (Elt F)) : (Proc.devRef .tc main_call5_v2 : DevRef τ sig).ty.Contents (Elt F) :=
  ((Host.divsi : (⟨S64x32, .i32⟩ : BufTy).Contents (Elt F) → (⟨S64x32, .i32⟩ : BufTy).Contents (Elt F) → (⟨S64x32, .i32⟩ : BufTy).Contents (Elt F)) (term_main_v86 V0) (term_main_call5_v1 V0))

/-- The concatenate that writes `main_v93`, as a function of its operands taken one by one. -/
def cat_main_v93 : (main_v88 : Ref sig .tc).ty.Contents (Elt F) → (main_v89 : Ref sig .tc).ty.Contents (Elt F) → (main_v90 : Ref sig .tc).ty.Contents (Elt F) → (main_v91 : Ref sig .tc).ty.Contents (Elt F) → (main_v92 : Ref sig .tc).ty.Contents (Elt F) → (main_v93 : Ref sig .tc).ty.Contents (Elt F) :=
  fun u0 u1 u2 u3 u4 => (concatenate S64x32x5 2 [⟨S64x32x1, u0⟩, ⟨S64x32x1, u1⟩, ⟨S64x32x1, u2⟩, ⟨S64x32x1, u3⟩, ⟨S64x32x1, u4⟩] concatenates_S64x32x1_S64x32x1_S64x32x1_S64x32x1_S64x32x1_S64x32x5_d2)

/-- `main_v93`'s composed term. -/
def term_main_v93 (V0 : Valuation τ sig (Elt F)) : (Proc.devRef .tc main_v93 : DevRef τ sig).ty.Contents (Elt F) :=
  (cat_main_v93 ((broadcastInDim S64x32x1 ![0, 1] bcast_S64x32_S64x32x1_0_1 : (⟨S64x32, .i32⟩ : BufTy).Contents (Elt F) → (⟨S64x32x1, .i32⟩ : BufTy).Contents (Elt F)) (term_main_v85 V0)) ((broadcastInDim S64x32x1 ![0, 1] bcast_S64x32_S64x32x1_0_1 : (⟨S64x32, .i32⟩ : BufTy).Contents (Elt F) → (⟨S64x32x1, .i32⟩ : BufTy).Contents (Elt F)) (term_main_v67 V0)) ((broadcastInDim S64x32x1 ![0, 1] bcast_S64x32_S64x32x1_0_1 : (⟨S64x32, .i32⟩ : BufTy).Contents (Elt F) → (⟨S64x32x1, .i32⟩ : BufTy).Contents (Elt F)) (term_main_v67 V0)) ((broadcastInDim S64x32x1 ![0, 1] bcast_S64x32_S64x32x1_0_1 : (⟨S64x32, .i32⟩ : BufTy).Contents (Elt F) → (⟨S64x32x1, .i32⟩ : BufTy).Contents (Elt F)) (term_main_v83 V0)) ((broadcastInDim S64x32x1 ![0, 1] bcast_S64x32_S64x32x1_0_1 : (⟨S64x32, .i32⟩ : BufTy).Contents (Elt F) → (⟨S64x32x1, .i32⟩ : BufTy).Contents (Elt F)) (term_main_v83 V0)))

/-- `main_v94`'s composed term. -/
def term_main_v94 (V0 : Valuation τ sig (Elt F)) : (Proc.devRef .tc main_v94 : DevRef τ sig).ty.Contents (Elt F) :=
  ((broadcastInDim S64x32x1 ![0, 1] bcast_S64x32_S64x32x1_0_1 : (⟨S64x32, .i32⟩ : BufTy).Contents (Elt F) → (⟨S64x32x1, .i32⟩ : BufTy).Contents (Elt F)) ((select : (⟨S64x32, .i1⟩ : BufTy).Contents (Elt F) → (⟨S64x32, .i32⟩ : BufTy).Contents (Elt F) → (⟨S64x32, .i32⟩ : BufTy).Contents (Elt F) → (⟨S64x32, .i32⟩ : BufTy).Contents (Elt F)) ((andi : (⟨S64x32, .i1⟩ : BufTy).Contents (Elt F) → (⟨S64x32, .i1⟩ : BufTy).Contents (Elt F) → (⟨S64x32, .i1⟩ : BufTy).Contents (Elt F)) (((cmpi .ne) : (⟨S64x32, .i32⟩ : BufTy).Contents (Elt F) → (⟨S64x32, .i32⟩ : BufTy).Contents (Elt F) → (⟨S64x32, .i1⟩ : BufTy).Contents (Elt F)) ((signi : (⟨S64x32, .i32⟩ : BufTy).Contents (Elt F) → (⟨S64x32, .i32⟩ : BufTy).Contents (Elt F)) (term_main_v86 V0)) (((broadcastInDim S64x32 ![] bcast_S_S64x32) : (⟨S_, .i32⟩ : BufTy).Contents (Elt F) → (⟨S64x32, .i32⟩ : BufTy).Contents (Elt F)) ((signi : (⟨S_, .i32⟩ : BufTy).Contents (Elt F) → (⟨S_, .i32⟩ : BufTy).Contents (Elt F)) (term_main_call5_v0 V0)))) (((cmpi .ne) : (⟨S64x32, .i32⟩ : BufTy).Contents (Elt F) → (⟨S64x32, .i32⟩ : BufTy).Contents (Elt F) → (⟨S64x32, .i1⟩ : BufTy).Contents (Elt F)) ((Host.remsi : (⟨S64x32, .i32⟩ : BufTy).Contents (Elt F) → (⟨S64x32, .i32⟩ : BufTy).Contents (Elt F) → (⟨S64x32, .i32⟩ : BufTy).Contents (Elt F)) (term_main_v86 V0) (((broadcastInDim S64x32 ![] bcast_S_S64x32) : (⟨S_, .i32⟩ : BufTy).Contents (Elt F) → (⟨S64x32, .i32⟩ : BufTy).Contents (Elt F)) (term_main_call5_v0 V0))) (((broadcastInDim S64x32 ![] bcast_S_S64x32) : (⟨S_, .i32⟩ : BufTy).Contents (Elt F) → (⟨S64x32, .i32⟩ : BufTy).Contents (Elt F)) ((constantI S_ 32 0#32) : (⟨S_, .i32⟩ : BufTy).Contents (Elt F))))) ((subi : (⟨S64x32, .i32⟩ : BufTy).Contents (Elt F) → (⟨S64x32, .i32⟩ : BufTy).Contents (Elt F) → (⟨S64x32, .i32⟩ : BufTy).Contents (Elt F)) (term_main_call5_v2 V0) (((broadcastInDim S64x32 ![] bcast_S_S64x32) : (⟨S_, .i32⟩ : BufTy).Contents (Elt F) → (⟨S64x32, .i32⟩ : BufTy).Contents (Elt F)) ((constantI S_ 32 1#32) : (⟨S_, .i32⟩ : BufTy).Contents (Elt F)))) (term_main_call5_v2 V0)))

/-- `main_v95`'s composed term. -/
def term_main_v95 (V0 : Valuation τ sig (Elt F)) : (Proc.devRef .tc main_v95 : DevRef τ sig).ty.Contents (Elt F) :=
  ((broadcastInDim S64x32x1 ![0, 1] bcast_S64x32_S64x32x1_0_1 : (⟨S64x32, .i32⟩ : BufTy).Contents (Elt F) → (⟨S64x32x1, .i32⟩ : BufTy).Contents (Elt F)) (term_main_v63 V0))

/-- `main_v96`'s composed term. -/
def term_main_v96 (V0 : Valuation τ sig (Elt F)) : (Proc.devRef .tc main_v96 : DevRef τ sig).ty.Contents (Elt F) :=
  ((broadcastInDim S64x32x1 ![0, 1] bcast_S64x32_S64x32x1_0_1 : (⟨S64x32, .i32⟩ : BufTy).Contents (Elt F) → (⟨S64x32x1, .i32⟩ : BufTy).Contents (Elt F)) (term_main_v75 V0))

/-- `main_v97`'s composed term. -/
def term_main_v97 (V0 : Valuation τ sig (Elt F)) : (Proc.devRef .tc main_v97 : DevRef τ sig).ty.Contents (Elt F) :=
  ((broadcastInDim S64x32x1 ![0, 1] bcast_S64x32_S64x32x1_0_1 : (⟨S64x32, .i32⟩ : BufTy).Contents (Elt F) → (⟨S64x32x1, .i32⟩ : BufTy).Contents (Elt F)) (term_main_v63 V0))

/-- The concatenate that writes `main_v99`, as a function of its operands taken one by one. -/
def cat_main_v99 : (main_v94 : Ref sig .tc).ty.Contents (Elt F) → (main_v95 : Ref sig .tc).ty.Contents (Elt F) → (main_v96 : Ref sig .tc).ty.Contents (Elt F) → (main_v97 : Ref sig .tc).ty.Contents (Elt F) → (main_v98 : Ref sig .tc).ty.Contents (Elt F) → (main_v99 : Ref sig .tc).ty.Contents (Elt F) :=
  fun u0 u1 u2 u3 u4 => (concatenate S64x32x5 2 [⟨S64x32x1, u0⟩, ⟨S64x32x1, u1⟩, ⟨S64x32x1, u2⟩, ⟨S64x32x1, u3⟩, ⟨S64x32x1, u4⟩] concatenates_S64x32x1_S64x32x1_S64x32x1_S64x32x1_S64x32x1_S64x32x5_d2)

/-- `main_v103`'s composed term. -/
def term_main_v103 (V0 : Valuation τ sig (Elt F)) : (Proc.devRef .tc main_v103 : DevRef τ sig).ty.Contents (Elt F) :=
  (shapeCast S64x160 ((addi : (⟨S64x32x5, .i32⟩ : BufTy).Contents (Elt F) → (⟨S64x32x5, .i32⟩ : BufTy).Contents (Elt F) → (⟨S64x32x5, .i32⟩ : BufTy).Contents (Elt F)) ((muli : (⟨S64x32x5, .i32⟩ : BufTy).Contents (Elt F) → (⟨S64x32x5, .i32⟩ : BufTy).Contents (Elt F) → (⟨S64x32x5, .i32⟩ : BufTy).Contents (Elt F)) (term_main_v93 V0) ((broadcastInDim S64x32x5 ![] bcast_S_S64x32x5 : (⟨S_, .i32⟩ : BufTy).Contents (Elt F) → (⟨S64x32x5, .i32⟩ : BufTy).Contents (Elt F)) (constantI S_ 32 320#32))) (cat_main_v99 (term_main_v94 V0) (term_main_v95 V0) (term_main_v96 V0) (term_main_v97 V0) ((broadcastInDim S64x32x1 ![0, 1] bcast_S64x32_S64x32x1_0_1 : (⟨S64x32, .i32⟩ : BufTy).Contents (Elt F) → (⟨S64x32x1, .i32⟩ : BufTy).Contents (Elt F)) (term_main_v75 V0)))) shapeCasts_S64x32x5_S64x160)

/-- `main_v104`'s composed term. -/
def term_main_v104 (V0 : Valuation τ sig (Elt F)) : (Proc.devRef .tc main_v104 : DevRef τ sig).ty.Contents (Elt F) :=
  (shapeCast S64x4x102400 (V0 (Proc.devRef .tc main_arg2)) shapeCasts_S64x4x320x320_S64x4x102400)

/-- `main_v106`'s composed term. -/
def term_main_v106 (V0 : Valuation τ sig (Elt F)) : (Proc.devRef .tc main_v106 : DevRef τ sig).ty.Contents (Elt F) :=
  ((broadcastInDim S64x4x160 ![0, 1, 2] bcast_S64x1x160_S64x4x160_0_1_2 : (⟨S64x1x160, .i32⟩ : BufTy).Contents (Elt F) → (⟨S64x4x160, .i32⟩ : BufTy).Contents (Elt F)) ((broadcastInDim S64x1x160 ![0, 2] bcast_S64x160_S64x1x160_0_2 : (⟨S64x160, .i32⟩ : BufTy).Contents (Elt F) → (⟨S64x1x160, .i32⟩ : BufTy).Contents (Elt F)) (term_main_v103 V0)))

/-- `main_call6_v5`'s composed term. -/
def term_main_call6_v5 (V0 : Valuation τ sig (Elt F)) : (Proc.devRef .tc main_call6_v5 : DevRef τ sig).ty.Contents (Elt F) :=
  (shapeCast S64x4x160x1 ((select : (⟨S64x4x160, .i1⟩ : BufTy).Contents (Elt F) → (⟨S64x4x160, .i32⟩ : BufTy).Contents (Elt F) → (⟨S64x4x160, .i32⟩ : BufTy).Contents (Elt F) → (⟨S64x4x160, .i32⟩ : BufTy).Contents (Elt F)) (((cmpi .slt) : (⟨S64x4x160, .i32⟩ : BufTy).Contents (Elt F) → (⟨S64x4x160, .i32⟩ : BufTy).Contents (Elt F) → (⟨S64x4x160, .i1⟩ : BufTy).Contents (Elt F)) (term_main_v106 V0) (((broadcastInDim S64x4x160 ![] bcast_S_S64x4x160) : (⟨S_, .i32⟩ : BufTy).Contents (Elt F) → (⟨S64x4x160, .i32⟩ : BufTy).Contents (Elt F)) ((constantI S_ 32 0#32) : (⟨S_, .i32⟩ : BufTy).Contents (Elt F)))) ((addi : (⟨S64x4x160, .i32⟩ : BufTy).Contents (Elt F) → (⟨S64x4x160, .i32⟩ : BufTy).Contents (Elt F) → (⟨S64x4x160, .i32⟩ : BufTy).Contents (Elt F)) (term_main_v106 V0) (((broadcastInDim S64x4x160 ![] bcast_S_S64x4x160) : (⟨S_, .i32⟩ : BufTy).Contents (Elt F) → (⟨S64x4x160, .i32⟩ : BufTy).Contents (Elt F)) ((constantI S_ 32 102400#32) : (⟨S_, .i32⟩ : BufTy).Contents (Elt F)))) (term_main_v106 V0)) shapeCasts_S64x4x160_S64x4x160x1)

/-- `main_call6_v7`'s composed term. -/
def term_main_call6_v7 (V0 : Valuation τ sig (Elt F)) : (Proc.devRef .tc main_call6_v7 : DevRef τ sig).ty.Contents (Elt F) :=
  (((cmpi .sge) : (⟨S64x4x160x1, .i32⟩ : BufTy).Contents (Elt F) → (⟨S64x4x160x1, .i32⟩ : BufTy).Contents (Elt F) → (⟨S64x4x160x1, .i1⟩ : BufTy).Contents (Elt F)) (term_main_call6_v5 V0) (((broadcastInDim S64x4x160x1 ![] bcast_S_S64x4x160x1) : (⟨S_, .i32⟩ : BufTy).Contents (Elt F) → (⟨S64x4x160x1, .i32⟩ : BufTy).Contents (Elt F)) ((constantI S_ 32 0#32) : (⟨S_, .i32⟩ : BufTy).Contents (Elt F))))

/-- `main_call6_v10`'s composed term. -/
def term_main_call6_v10 (V0 : Valuation τ sig (Elt F)) : (Proc.devRef .tc main_call6_v10 : DevRef τ sig).ty.Contents (Elt F) :=
  (((cmpi .sle) : (⟨S64x4x160x1, .i32⟩ : BufTy).Contents (Elt F) → (⟨S64x4x160x1, .i32⟩ : BufTy).Contents (Elt F) → (⟨S64x4x160x1, .i1⟩ : BufTy).Contents (Elt F)) (term_main_call6_v5 V0) (((broadcastInDim S64x4x160x1 ![0, 1, 2, 3] bcast_S1x1x1x1_S64x4x160x1_0_1_2_3) : (⟨S1x1x1x1, .i32⟩ : BufTy).Contents (Elt F) → (⟨S64x4x160x1, .i32⟩ : BufTy).Contents (Elt F)) (((broadcastInDim S1x1x1x1 ![3] bcast_S1_S1x1x1x1_3) : (⟨S1, .i32⟩ : BufTy).Contents (Elt F) → (⟨S1x1x1x1, .i32⟩ : BufTy).Contents (Elt F)) ((constantI S1 32 102399#32) : (⟨S1, .i32⟩ : BufTy).Contents (Elt F)))))

/-- `main_v108`'s composed term. -/
def term_main_v108 (V0 : Valuation τ sig (Elt F)) : (Proc.devRef .tc main_v108 : DevRef τ sig).ty.Contents (Elt F) :=
  (((transpose S64x160x4 [0, 2, 1] · transposes_S64x4x160_S64x160x4_0_2_1) : (⟨S64x4x160, .f32⟩ : BufTy).Contents (Elt F) → (⟨S64x160x4, .f32⟩ : BufTy).Contents (Elt F)) ((select : (⟨S64x4x160, .i1⟩ : BufTy).Contents (Elt F) → (⟨S64x4x160, .f32⟩ : BufTy).Contents (Elt F) → (⟨S64x4x160, .f32⟩ : BufTy).Contents (Elt F) → (⟨S64x4x160, .f32⟩ : BufTy).Contents (Elt F)) (((fun x v => Host.reduce IntOp.andi x v reducesTo_S64x4x160x1_S64x4x160_d3 h_S_) : (⟨S64x4x160x1, .i1⟩ : BufTy).Contents (Elt F) → (⟨S_, .i1⟩ : BufTy).Contents (Elt F) → (⟨S64x4x160, .i1⟩ : BufTy).Contents (Elt F)) ((andi : (⟨S64x4x160x1, .i1⟩ : BufTy).Contents (Elt F) → (⟨S64x4x160x1, .i1⟩ : BufTy).Contents (Elt F) → (⟨S64x4x160x1, .i1⟩ : BufTy).Contents (Elt F)) (term_main_call6_v7 V0) (term_main_call6_v10 V0)) ((constantI S_ 1 1#1) : (⟨S_, .i1⟩ : BufTy).Contents (Elt F))) (((fun x i => Host.gather gather_S64x4x102400_S64x4x160x1_S64x4x160_n_2_01_01_2_3_111 x i) : (⟨S64x4x102400, .f32⟩ : BufTy).Contents (Elt F) → (⟨S64x4x160x1, .i32⟩ : BufTy).Contents (Elt F) → (⟨S64x4x160, .f32⟩ : BufTy).Contents (Elt F)) (term_main_v104 V0) (term_main_call6_v5 V0)) (((broadcastInDim S64x4x160 ![] bcast_S_S64x4x160) : (⟨S_, .f32⟩ : BufTy).Contents (Elt F) → (⟨S64x4x160, .f32⟩ : BufTy).Contents (Elt F)) ((constant S_ .f32 0x7FC00000#32) : (⟨S_, .f32⟩ : BufTy).Contents (Elt F)))))

/-- `main_v109`'s composed term. -/
def term_main_v109 (V0 : Valuation τ sig (Elt F)) : (Proc.devRef .tc main_v109 : DevRef τ sig).ty.Contents (Elt F) :=
  (shapeCast S64x102400 (V0 (Proc.devRef .tc main_arg1)) shapeCasts_S64x1x320x320_S64x102400)

/-- `main_call7_v5`'s composed term. -/
def term_main_call7_v5 (V0 : Valuation τ sig (Elt F)) : (Proc.devRef .tc main_call7_v5 : DevRef τ sig).ty.Contents (Elt F) :=
  (shapeCast S64x160x1 ((select : (⟨S64x160, .i1⟩ : BufTy).Contents (Elt F) → (⟨S64x160, .i32⟩ : BufTy).Contents (Elt F) → (⟨S64x160, .i32⟩ : BufTy).Contents (Elt F) → (⟨S64x160, .i32⟩ : BufTy).Contents (Elt F)) (((cmpi .slt) : (⟨S64x160, .i32⟩ : BufTy).Contents (Elt F) → (⟨S64x160, .i32⟩ : BufTy).Contents (Elt F) → (⟨S64x160, .i1⟩ : BufTy).Contents (Elt F)) (term_main_v103 V0) (((broadcastInDim S64x160 ![] bcast_S_S64x160) : (⟨S_, .i32⟩ : BufTy).Contents (Elt F) → (⟨S64x160, .i32⟩ : BufTy).Contents (Elt F)) ((constantI S_ 32 0#32) : (⟨S_, .i32⟩ : BufTy).Contents (Elt F)))) ((addi : (⟨S64x160, .i32⟩ : BufTy).Contents (Elt F) → (⟨S64x160, .i32⟩ : BufTy).Contents (Elt F) → (⟨S64x160, .i32⟩ : BufTy).Contents (Elt F)) (term_main_v103 V0) (((broadcastInDim S64x160 ![] bcast_S_S64x160) : (⟨S_, .i32⟩ : BufTy).Contents (Elt F) → (⟨S64x160, .i32⟩ : BufTy).Contents (Elt F)) ((constantI S_ 32 102400#32) : (⟨S_, .i32⟩ : BufTy).Contents (Elt F)))) (term_main_v103 V0)) shapeCasts_S64x160_S64x160x1)

/-- `main_call7_v11`'s composed term. -/
def term_main_call7_v11 (V0 : Valuation τ sig (Elt F)) : (Proc.devRef .tc main_call7_v11 : DevRef τ sig).ty.Contents (Elt F) :=
  ((andi : (⟨S64x160x1, .i1⟩ : BufTy).Contents (Elt F) → (⟨S64x160x1, .i1⟩ : BufTy).Contents (Elt F) → (⟨S64x160x1, .i1⟩ : BufTy).Contents (Elt F)) (((cmpi .sge) : (⟨S64x160x1, .i32⟩ : BufTy).Contents (Elt F) → (⟨S64x160x1, .i32⟩ : BufTy).Contents (Elt F) → (⟨S64x160x1, .i1⟩ : BufTy).Contents (Elt F)) (term_main_call7_v5 V0) (((broadcastInDim S64x160x1 ![] bcast_S_S64x160x1) : (⟨S_, .i32⟩ : BufTy).Contents (Elt F) → (⟨S64x160x1, .i32⟩ : BufTy).Contents (Elt F)) ((constantI S_ 32 0#32) : (⟨S_, .i32⟩ : BufTy).Contents (Elt F)))) (((cmpi .sle) : (⟨S64x160x1, .i32⟩ : BufTy).Contents (Elt F) → (⟨S64x160x1, .i32⟩ : BufTy).Contents (Elt F) → (⟨S64x160x1, .i1⟩ : BufTy).Contents (Elt F)) (term_main_call7_v5 V0) (((broadcastInDim S64x160x1 ![0, 1, 2] bcast_S1x1x1_S64x160x1_0_1_2) : (⟨S1x1x1, .i32⟩ : BufTy).Contents (Elt F) → (⟨S64x160x1, .i32⟩ : BufTy).Contents (Elt F)) (((broadcastInDim S1x1x1 ![2] bcast_S1_S1x1x1_2) : (⟨S1, .i32⟩ : BufTy).Contents (Elt F) → (⟨S1x1x1, .i32⟩ : BufTy).Contents (Elt F)) ((constantI S1 32 102399#32) : (⟨S1, .i32⟩ : BufTy).Contents (Elt F))))))

/-- `main_v110`'s composed term. -/
def term_main_v110 (V0 : Valuation τ sig (Elt F)) : (Proc.devRef .tc main_v110 : DevRef τ sig).ty.Contents (Elt F) :=
  ((select : (⟨S64x160, .i1⟩ : BufTy).Contents (Elt F) → (⟨S64x160, .f32⟩ : BufTy).Contents (Elt F) → (⟨S64x160, .f32⟩ : BufTy).Contents (Elt F) → (⟨S64x160, .f32⟩ : BufTy).Contents (Elt F)) (((fun x v => Host.reduce IntOp.andi x v reducesTo_S64x160x1_S64x160_d2 h_S_) : (⟨S64x160x1, .i1⟩ : BufTy).Contents (Elt F) → (⟨S_, .i1⟩ : BufTy).Contents (Elt F) → (⟨S64x160, .i1⟩ : BufTy).Contents (Elt F)) (term_main_call7_v11 V0) ((constantI S_ 1 1#1) : (⟨S_, .i1⟩ : BufTy).Contents (Elt F))) (((fun x i => Host.gather gather_S64x102400_S64x160x1_S64x160_n_1_0_0_1_2_11 x i) : (⟨S64x102400, .f32⟩ : BufTy).Contents (Elt F) → (⟨S64x160x1, .i32⟩ : BufTy).Contents (Elt F) → (⟨S64x160, .f32⟩ : BufTy).Contents (Elt F)) (term_main_v109 V0) (term_main_call7_v5 V0)) (((broadcastInDim S64x160 ![] bcast_S_S64x160) : (⟨S_, .f32⟩ : BufTy).Contents (Elt F) → (⟨S64x160, .f32⟩ : BufTy).Contents (Elt F)) ((constant S_ .f32 0x7FC00000#32) : (⟨S_, .f32⟩ : BufTy).Contents (Elt F))))

/-- The concatenate that writes `main_v115`, as a function of its operands taken one by one. -/
def cat_main_v115 : (main_v111 : Ref sig .tc).ty.Contents (Elt F) → (main_v112 : Ref sig .tc).ty.Contents (Elt F) → (main_v113 : Ref sig .tc).ty.Contents (Elt F) → (main_v114 : Ref sig .tc).ty.Contents (Elt F) → (main_v115 : Ref sig .tc).ty.Contents (Elt F) :=
  fun u0 u1 u2 u3 => (concatenate S64x32x4 2 [⟨S64x32x1, u0⟩, ⟨S64x32x1, u1⟩, ⟨S64x32x1, u2⟩, ⟨S64x32x1, u3⟩] concatenates_S64x32x1_S64x32x1_S64x32x1_S64x32x1_S64x32x4_d2)

/-- `main_v118`'s composed term. -/
def term_main_v118 (V0 : Valuation τ sig (Elt F)) : (Proc.devRef .tc main_v118 : DevRef τ sig).ty.Contents (Elt F) :=
  (shapeCast S64x160x4 ((broadcastInDim S64x32x5x4 ![0, 1, 2, 3] bcast_S64x32x1x4_S64x32x5x4_0_1_2_3 : (⟨S64x32x1x4, .f32⟩ : BufTy).Contents (Elt F) → (⟨S64x32x5x4, .f32⟩ : BufTy).Contents (Elt F)) ((broadcastInDim S64x32x1x4 ![0, 1, 3] bcast_S64x32x4_S64x32x1x4_0_1_3 : (⟨S64x32x4, .f32⟩ : BufTy).Contents (Elt F) → (⟨S64x32x1x4, .f32⟩ : BufTy).Contents (Elt F)) (cat_main_v115 ((broadcastInDim S64x32x1 ![0, 1] bcast_S64x32_S64x32x1_0_1 : (⟨S64x32, .f32⟩ : BufTy).Contents (Elt F) → (⟨S64x32x1, .f32⟩ : BufTy).Contents (Elt F)) (term_main_v36 V0)) ((broadcastInDim S64x32x1 ![0, 1] bcast_S64x32_S64x32x1_0_1 : (⟨S64x32, .f32⟩ : BufTy).Contents (Elt F) → (⟨S64x32x1, .f32⟩ : BufTy).Contents (Elt F)) (term_main_v41 V0)) ((broadcastInDim S64x32x1 ![0, 1] bcast_S64x32_S64x32x1_0_1 : (⟨S64x32, .f32⟩ : BufTy).Contents (Elt F) → (⟨S64x32x1, .f32⟩ : BufTy).Contents (Elt F)) (term_main_v50 V0)) ((broadcastInDim S64x32x1 ![0, 1] bcast_S64x32_S64x32x1_0_1 : (⟨S64x32, .f32⟩ : BufTy).Contents (Elt F) → (⟨S64x32x1, .f32⟩ : BufTy).Contents (Elt F)) (term_main_v59 V0))))) shapeCasts_S64x32x5x4_S64x160x4)

/-- `main_v121`'s composed term. -/
def term_main_v121 (V0 : Valuation τ sig (Elt F)) : (Proc.devRef .tc main_v121 : DevRef τ sig).ty.Contents (Elt F) :=
  (shapeCast S64x160 ((broadcastInDim S64x32x5 ![0, 1, 2] bcast_S64x32x1_S64x32x5_0_1_2 : (⟨S64x32x1, .f32⟩ : BufTy).Contents (Elt F) → (⟨S64x32x5, .f32⟩ : BufTy).Contents (Elt F)) ((broadcastInDim S64x32x1 ![0, 1] bcast_S64x32_S64x32x1_0_1 : (⟨S64x32, .f32⟩ : BufTy).Contents (Elt F) → (⟨S64x32x1, .f32⟩ : BufTy).Contents (Elt F)) (term_main_v31 V0))) shapeCasts_S64x32x5_S64x160)

/-- `main_call8_v2`'s composed term. -/
def term_main_call8_v2 (V0 : Valuation τ sig (Elt F)) : (Proc.devRef .tc main_call8_v2 : DevRef τ sig).ty.Contents (Elt F) :=
  ((maximumf : (⟨S64x160, .f32⟩ : BufTy).Contents (Elt F) → (⟨S64x160, .f32⟩ : BufTy).Contents (Elt F) → (⟨S64x160, .f32⟩ : BufTy).Contents (Elt F)) (((broadcastInDim S64x160 ![] bcast_S_S64x160) : (⟨S_, .f32⟩ : BufTy).Contents (Elt F) → (⟨S64x160, .f32⟩ : BufTy).Contents (Elt F)) (constant S_ .f32 0x00000000#32)) (shapeCast S64x160 (((extractStridedSlice S64x160x1 ![0, 0, 0] · slices_S64x160x4_S64x160x1_0_0_0) : (⟨S64x160x4, .f32⟩ : BufTy).Contents (Elt F) → (⟨S64x160x1, .f32⟩ : BufTy).Contents (Elt F)) (term_main_v108 V0)) shapeCasts_S64x160x1_S64x160))

/-- `main_call8_v3`'s composed term. -/
def term_main_call8_v3 (V0 : Valuation τ sig (Elt F)) : (Proc.devRef .tc main_call8_v3 : DevRef τ sig).ty.Contents (Elt F) :=
  (constant S_ .f32 0x3F7D70A4#32)

/-- `main_v124`'s composed term. -/
def term_main_v124 (V0 : Valuation τ sig (Elt F)) : (Proc.devRef .tc main_v124 : DevRef τ sig).ty.Contents (Elt F) :=
  ((minimumf : (⟨S64x160, .f32⟩ : BufTy).Contents (Elt F) → (⟨S64x160, .f32⟩ : BufTy).Contents (Elt F) → (⟨S64x160, .f32⟩ : BufTy).Contents (Elt F)) (((broadcastInDim S64x160 ![] bcast_S_S64x160) : (⟨S_, .f32⟩ : BufTy).Contents (Elt F) → (⟨S64x160, .f32⟩ : BufTy).Contents (Elt F)) (term_main_call8_v3 V0)) (term_main_call8_v2 V0))

/-- `main_v127`'s composed term. -/
def term_main_v127 (V0 : Valuation τ sig (Elt F)) : (Proc.devRef .tc main_v127 : DevRef τ sig).ty.Contents (Elt F) :=
  ((minimumf : (⟨S64x160, .f32⟩ : BufTy).Contents (Elt F) → (⟨S64x160, .f32⟩ : BufTy).Contents (Elt F) → (⟨S64x160, .f32⟩ : BufTy).Contents (Elt F)) (((broadcastInDim S64x160 ![] bcast_S_S64x160) : (⟨S_, .f32⟩ : BufTy).Contents (Elt F) → (⟨S64x160, .f32⟩ : BufTy).Contents (Elt F)) (constant S_ .f32 0x3F7D70A4#32)) ((maximumf : (⟨S64x160, .f32⟩ : BufTy).Contents (Elt F) → (⟨S64x160, .f32⟩ : BufTy).Contents (Elt F) → (⟨S64x160, .f32⟩ : BufTy).Contents (Elt F)) (((broadcastInDim S64x160 ![] bcast_S_S64x160) : (⟨S_, .f32⟩ : BufTy).Contents (Elt F) → (⟨S64x160, .f32⟩ : BufTy).Contents (Elt F)) (constant S_ .f32 0x00000000#32)) (shapeCast S64x160 (((extractStridedSlice S64x160x1 ![0, 0, 1] · slices_S64x160x4_S64x160x1_0_0_1) : (⟨S64x160x4, .f32⟩ : BufTy).Contents (Elt F) → (⟨S64x160x1, .f32⟩ : BufTy).Contents (Elt F)) (term_main_v108 V0)) shapeCasts_S64x160x1_S64x160)))

/-- `main_v130`'s composed term. -/
def term_main_v130 (V0 : Valuation τ sig (Elt F)) : (Proc.devRef .tc main_v130 : DevRef τ sig).ty.Contents (Elt F) :=
  ((minimumf : (⟨S64x160, .f32⟩ : BufTy).Contents (Elt F) → (⟨S64x160, .f32⟩ : BufTy).Contents (Elt F) → (⟨S64x160, .f32⟩ : BufTy).Contents (Elt F)) (((broadcastInDim S64x160 ![] bcast_S_S64x160) : (⟨S_, .f32⟩ : BufTy).Contents (Elt F) → (⟨S64x160, .f32⟩ : BufTy).Contents (Elt F)) (constant S_ .f32 0x3F800000#32)) ((maximumf : (⟨S64x160, .f32⟩ : BufTy).Contents (Elt F) → (⟨S64x160, .f32⟩ : BufTy).Contents (Elt F) → (⟨S64x160, .f32⟩ : BufTy).Contents (Elt F)) (((broadcastInDim S64x160 ![] bcast_S_S64x160) : (⟨S_, .f32⟩ : BufTy).Contents (Elt F) → (⟨S64x160, .f32⟩ : BufTy).Contents (Elt F)) (constant S_ .f32 0x3C23D70A#32)) (shapeCast S64x160 (((extractStridedSlice S64x160x1 ![0, 0, 2] · slices_S64x160x4_S64x160x1_0_0_2) : (⟨S64x160x4, .f32⟩ : BufTy).Contents (Elt F) → (⟨S64x160x1, .f32⟩ : BufTy).Contents (Elt F)) (term_main_v108 V0)) shapeCasts_S64x160x1_S64x160)))

/-- `main_v132`'s composed term. -/
def term_main_v132 (V0 : Valuation τ sig (Elt F)) : (Proc.devRef .tc main_v132 : DevRef τ sig).ty.Contents (Elt F) :=
  (shapeCast S64x160 (((extractStridedSlice S64x160x1 ![0, 0, 3] · slices_S64x160x4_S64x160x1_0_0_3) : (⟨S64x160x4, .f32⟩ : BufTy).Contents (Elt F) → (⟨S64x160x1, .f32⟩ : BufTy).Contents (Elt F)) (term_main_v108 V0)) shapeCasts_S64x160x1_S64x160)

/-- `main_v133`'s composed term. -/
def term_main_v133 (V0 : Valuation τ sig (Elt F)) : (Proc.devRef .tc main_v133 : DevRef τ sig).ty.Contents (Elt F) :=
  ((minimumf : (⟨S64x160, .f32⟩ : BufTy).Contents (Elt F) → (⟨S64x160, .f32⟩ : BufTy).Contents (Elt F) → (⟨S64x160, .f32⟩ : BufTy).Contents (Elt F)) (((broadcastInDim S64x160 ![] bcast_S_S64x160) : (⟨S_, .f32⟩ : BufTy).Contents (Elt F) → (⟨S64x160, .f32⟩ : BufTy).Contents (Elt F)) (constant S_ .f32 0x3F800000#32)) ((maximumf : (⟨S64x160, .f32⟩ : BufTy).Contents (Elt F) → (⟨S64x160, .f32⟩ : BufTy).Contents (Elt F) → (⟨S64x160, .f32⟩ : BufTy).Contents (Elt F)) (((broadcastInDim S64x160 ![] bcast_S_S64x160) : (⟨S_, .f32⟩ : BufTy).Contents (Elt F) → (⟨S64x160, .f32⟩ : BufTy).Contents (Elt F)) (constant S_ .f32 0x3C23D70A#32)) (term_main_v132 V0)))

/-- The concatenate that writes `main_v142`, as a function of its operands taken one by one. -/
def cat_main_v142 : (main_v138 : Ref sig .tc).ty.Contents (Elt F) → (main_v139 : Ref sig .tc).ty.Contents (Elt F) → (main_v140 : Ref sig .tc).ty.Contents (Elt F) → (main_v141 : Ref sig .tc).ty.Contents (Elt F) → (main_v142 : Ref sig .tc).ty.Contents (Elt F) :=
  fun u0 u1 u2 u3 => (concatenate S64x160x4 2 [⟨S64x160x1, u0⟩, ⟨S64x160x1, u1⟩, ⟨S64x160x1, u2⟩, ⟨S64x160x1, u3⟩] concatenates_S64x160x1_S64x160x1_S64x160x1_S64x160x1_S64x160x4_d2)

/-- `main_v142`'s composed term. -/
def term_main_v142 (V0 : Valuation τ sig (Elt F)) : (Proc.devRef .tc main_v142 : DevRef τ sig).ty.Contents (Elt F) :=
  (cat_main_v142 ((broadcastInDim S64x160x1 ![0, 1] bcast_S64x160_S64x160x1_0_1 : (⟨S64x160, .f32⟩ : BufTy).Contents (Elt F) → (⟨S64x160x1, .f32⟩ : BufTy).Contents (Elt F)) ((minimumf : (⟨S64x160, .f32⟩ : BufTy).Contents (Elt F) → (⟨S64x160, .f32⟩ : BufTy).Contents (Elt F) → (⟨S64x160, .f32⟩ : BufTy).Contents (Elt F)) (term_main_v124 V0) (term_main_v130 V0))) ((broadcastInDim S64x160x1 ![0, 1] bcast_S64x160_S64x160x1_0_1 : (⟨S64x160, .f32⟩ : BufTy).Contents (Elt F) → (⟨S64x160x1, .f32⟩ : BufTy).Contents (Elt F)) ((minimumf : (⟨S64x160, .f32⟩ : BufTy).Contents (Elt F) → (⟨S64x160, .f32⟩ : BufTy).Contents (Elt F) → (⟨S64x160, .f32⟩ : BufTy).Contents (Elt F)) (term_main_v127 V0) (term_main_v133 V0))) ((broadcastInDim S64x160x1 ![0, 1] bcast_S64x160_S64x160x1_0_1 : (⟨S64x160, .f32⟩ : BufTy).Contents (Elt F) → (⟨S64x160x1, .f32⟩ : BufTy).Contents (Elt F)) ((maximumf : (⟨S64x160, .f32⟩ : BufTy).Contents (Elt F) → (⟨S64x160, .f32⟩ : BufTy).Contents (Elt F) → (⟨S64x160, .f32⟩ : BufTy).Contents (Elt F)) (term_main_v124 V0) (term_main_v130 V0))) ((broadcastInDim S64x160x1 ![0, 1] bcast_S64x160_S64x160x1_0_1 : (⟨S64x160, .f32⟩ : BufTy).Contents (Elt F) → (⟨S64x160x1, .f32⟩ : BufTy).Contents (Elt F)) ((maximumf : (⟨S64x160, .f32⟩ : BufTy).Contents (Elt F) → (⟨S64x160, .f32⟩ : BufTy).Contents (Elt F) → (⟨S64x160, .f32⟩ : BufTy).Contents (Elt F)) (term_main_v127 V0) (term_main_v133 V0))))

/-- `main_v144`'s composed term. -/
def term_main_v144 (V0 : Valuation τ sig (Elt F)) : (Proc.devRef .tc main_v144 : DevRef τ sig).ty.Contents (Elt F) :=
  (shapeCast S64x160 (((extractStridedSlice S64x160x1 ![0, 0, 0] · slices_S64x160x4_S64x160x1_0_0_0) : (⟨S64x160x4, .f32⟩ : BufTy).Contents (Elt F) → (⟨S64x160x1, .f32⟩ : BufTy).Contents (Elt F)) (term_main_v142 V0)) shapeCasts_S64x160x1_S64x160)

/-- `main_v146`'s composed term. -/
def term_main_v146 (V0 : Valuation τ sig (Elt F)) : (Proc.devRef .tc main_v146 : DevRef τ sig).ty.Contents (Elt F) :=
  (shapeCast S64x160 (((extractStridedSlice S64x160x1 ![0, 0, 1] · slices_S64x160x4_S64x160x1_0_0_1) : (⟨S64x160x4, .f32⟩ : BufTy).Contents (Elt F) → (⟨S64x160x1, .f32⟩ : BufTy).Contents (Elt F)) (term_main_v142 V0)) shapeCasts_S64x160x1_S64x160)

/-- `main_v148`'s composed term. -/
def term_main_v148 (V0 : Valuation τ sig (Elt F)) : (Proc.devRef .tc main_v148 : DevRef τ sig).ty.Contents (Elt F) :=
  (shapeCast S64x160 (((extractStridedSlice S64x160x1 ![0, 0, 2] · slices_S64x160x4_S64x160x1_0_0_2) : (⟨S64x160x4, .f32⟩ : BufTy).Contents (Elt F) → (⟨S64x160x1, .f32⟩ : BufTy).Contents (Elt F)) (term_main_v142 V0)) shapeCasts_S64x160x1_S64x160)

/-- `main_v150`'s composed term. -/
def term_main_v150 (V0 : Valuation τ sig (Elt F)) : (Proc.devRef .tc main_v150 : DevRef τ sig).ty.Contents (Elt F) :=
  (shapeCast S64x160 (((extractStridedSlice S64x160x1 ![0, 0, 3] · slices_S64x160x4_S64x160x1_0_0_3) : (⟨S64x160x4, .f32⟩ : BufTy).Contents (Elt F) → (⟨S64x160x1, .f32⟩ : BufTy).Contents (Elt F)) (term_main_v142 V0)) shapeCasts_S64x160x1_S64x160)

/-- `main_v152`'s composed term. -/
def term_main_v152 (V0 : Valuation τ sig (Elt F)) : (Proc.devRef .tc main_v152 : DevRef τ sig).ty.Contents (Elt F) :=
  (shapeCast S64x160 (((extractStridedSlice S64x160x1 ![0, 0, 0] · slices_S64x160x4_S64x160x1_0_0_0) : (⟨S64x160x4, .f32⟩ : BufTy).Contents (Elt F) → (⟨S64x160x1, .f32⟩ : BufTy).Contents (Elt F)) (term_main_v118 V0)) shapeCasts_S64x160x1_S64x160)

/-- `main_v154`'s composed term. -/
def term_main_v154 (V0 : Valuation τ sig (Elt F)) : (Proc.devRef .tc main_v154 : DevRef τ sig).ty.Contents (Elt F) :=
  (shapeCast S64x160 (((extractStridedSlice S64x160x1 ![0, 0, 1] · slices_S64x160x4_S64x160x1_0_0_1) : (⟨S64x160x4, .f32⟩ : BufTy).Contents (Elt F) → (⟨S64x160x1, .f32⟩ : BufTy).Contents (Elt F)) (term_main_v118 V0)) shapeCasts_S64x160x1_S64x160)

/-- `main_v156`'s composed term. -/
def term_main_v156 (V0 : Valuation τ sig (Elt F)) : (Proc.devRef .tc main_v156 : DevRef τ sig).ty.Contents (Elt F) :=
  (shapeCast S64x160 (((extractStridedSlice S64x160x1 ![0, 0, 2] · slices_S64x160x4_S64x160x1_0_0_2) : (⟨S64x160x4, .f32⟩ : BufTy).Contents (Elt F) → (⟨S64x160x1, .f32⟩ : BufTy).Contents (Elt F)) (term_main_v118 V0)) shapeCasts_S64x160x1_S64x160)

/-- `main_v158`'s composed term. -/
def term_main_v158 (V0 : Valuation τ sig (Elt F)) : (Proc.devRef .tc main_v158 : DevRef τ sig).ty.Contents (Elt F) :=
  (shapeCast S64x160 (((extractStridedSlice S64x160x1 ![0, 0, 3] · slices_S64x160x4_S64x160x1_0_0_3) : (⟨S64x160x4, .f32⟩ : BufTy).Contents (Elt F) → (⟨S64x160x1, .f32⟩ : BufTy).Contents (Elt F)) (term_main_v118 V0)) shapeCasts_S64x160x1_S64x160)

/-- `main_v161`'s composed term. -/
def term_main_v161 (V0 : Valuation τ sig (Elt F)) : (Proc.devRef .tc main_v161 : DevRef τ sig).ty.Contents (Elt F) :=
  ((mulf : (⟨S64x160, .f32⟩ : BufTy).Contents (Elt F) → (⟨S64x160, .f32⟩ : BufTy).Contents (Elt F) → (⟨S64x160, .f32⟩ : BufTy).Contents (Elt F)) ((subf : (⟨S64x160, .f32⟩ : BufTy).Contents (Elt F) → (⟨S64x160, .f32⟩ : BufTy).Contents (Elt F) → (⟨S64x160, .f32⟩ : BufTy).Contents (Elt F)) (term_main_v148 V0) (term_main_v144 V0)) ((subf : (⟨S64x160, .f32⟩ : BufTy).Contents (Elt F) → (⟨S64x160, .f32⟩ : BufTy).Contents (Elt F) → (⟨S64x160, .f32⟩ : BufTy).Contents (Elt F)) (term_main_v150 V0) (term_main_v146 V0)))

/-- `main_v164`'s composed term. -/
def term_main_v164 (V0 : Valuation τ sig (Elt F)) : (Proc.devRef .tc main_v164 : DevRef τ sig).ty.Contents (Elt F) :=
  ((mulf : (⟨S64x160, .f32⟩ : BufTy).Contents (Elt F) → (⟨S64x160, .f32⟩ : BufTy).Contents (Elt F) → (⟨S64x160, .f32⟩ : BufTy).Contents (Elt F)) ((subf : (⟨S64x160, .f32⟩ : BufTy).Contents (Elt F) → (⟨S64x160, .f32⟩ : BufTy).Contents (Elt F) → (⟨S64x160, .f32⟩ : BufTy).Contents (Elt F)) (term_main_v156 V0) (term_main_v152 V0)) ((subf : (⟨S64x160, .f32⟩ : BufTy).Contents (Elt F) → (⟨S64x160, .f32⟩ : BufTy).Contents (Elt F) → (⟨S64x160, .f32⟩ : BufTy).Contents (Elt F)) (term_main_v158 V0) (term_main_v154 V0)))

/-- `main_v168`'s composed term. -/
def term_main_v168 (V0 : Valuation τ sig (Elt F)) : (Proc.devRef .tc main_v168 : DevRef τ sig).ty.Contents (Elt F) :=
  ((maximumf : (⟨S64x160, .f32⟩ : BufTy).Contents (Elt F) → (⟨S64x160, .f32⟩ : BufTy).Contents (Elt F) → (⟨S64x160, .f32⟩ : BufTy).Contents (Elt F)) (((broadcastInDim S64x160 ![] bcast_S_S64x160) : (⟨S_, .f32⟩ : BufTy).Contents (Elt F) → (⟨S64x160, .f32⟩ : BufTy).Contents (Elt F)) (constant S_ .f32 0x00000000#32)) ((subf : (⟨S64x160, .f32⟩ : BufTy).Contents (Elt F) → (⟨S64x160, .f32⟩ : BufTy).Contents (Elt F) → (⟨S64x160, .f32⟩ : BufTy).Contents (Elt F)) ((minimumf : (⟨S64x160, .f32⟩ : BufTy).Contents (Elt F) → (⟨S64x160, .f32⟩ : BufTy).Contents (Elt F) → (⟨S64x160, .f32⟩ : BufTy).Contents (Elt F)) (term_main_v148 V0) (term_main_v156 V0)) ((maximumf : (⟨S64x160, .f32⟩ : BufTy).Contents (Elt F) → (⟨S64x160, .f32⟩ : BufTy).Contents (Elt F) → (⟨S64x160, .f32⟩ : BufTy).Contents (Elt F)) (term_main_v144 V0) (term_main_v152 V0))))

/-- `main_v173`'s composed term. -/
def term_main_v173 (V0 : Valuation τ sig (Elt F)) : (Proc.devRef .tc main_v173 : DevRef τ sig).ty.Contents (Elt F) :=
  ((mulf : (⟨S64x160, .f32⟩ : BufTy).Contents (Elt F) → (⟨S64x160, .f32⟩ : BufTy).Contents (Elt F) → (⟨S64x160, .f32⟩ : BufTy).Contents (Elt F)) (term_main_v168 V0) ((maximumf : (⟨S64x160, .f32⟩ : BufTy).Contents (Elt F) → (⟨S64x160, .f32⟩ : BufTy).Contents (Elt F) → (⟨S64x160, .f32⟩ : BufTy).Contents (Elt F)) (((broadcastInDim S64x160 ![] bcast_S_S64x160) : (⟨S_, .f32⟩ : BufTy).Contents (Elt F) → (⟨S64x160, .f32⟩ : BufTy).Contents (Elt F)) (constant S_ .f32 0x00000000#32)) ((subf : (⟨S64x160, .f32⟩ : BufTy).Contents (Elt F) → (⟨S64x160, .f32⟩ : BufTy).Contents (Elt F) → (⟨S64x160, .f32⟩ : BufTy).Contents (Elt F)) ((minimumf : (⟨S64x160, .f32⟩ : BufTy).Contents (Elt F) → (⟨S64x160, .f32⟩ : BufTy).Contents (Elt F) → (⟨S64x160, .f32⟩ : BufTy).Contents (Elt F)) (term_main_v150 V0) (term_main_v158 V0)) ((maximumf : (⟨S64x160, .f32⟩ : BufTy).Contents (Elt F) → (⟨S64x160, .f32⟩ : BufTy).Contents (Elt F) → (⟨S64x160, .f32⟩ : BufTy).Contents (Elt F)) (term_main_v146 V0) (term_main_v154 V0)))))

/-- `main_v175`'s composed term. -/
def term_main_v175 (V0 : Valuation τ sig (Elt F)) : (Proc.devRef .tc main_v175 : DevRef τ sig).ty.Contents (Elt F) :=
  ((subf : (⟨S64x160, .f32⟩ : BufTy).Contents (Elt F) → (⟨S64x160, .f32⟩ : BufTy).Contents (Elt F) → (⟨S64x160, .f32⟩ : BufTy).Contents (Elt F)) ((addf : (⟨S64x160, .f32⟩ : BufTy).Contents (Elt F) → (⟨S64x160, .f32⟩ : BufTy).Contents (Elt F) → (⟨S64x160, .f32⟩ : BufTy).Contents (Elt F)) (term_main_v161 V0) (term_main_v164 V0)) (term_main_v173 V0))

/-- `main_v178`'s composed term. -/
def term_main_v178 (V0 : Valuation τ sig (Elt F)) : (Proc.devRef .tc main_v178 : DevRef τ sig).ty.Contents (Elt F) :=
  ((Host.divf : (⟨S64x160, .f32⟩ : BufTy).Contents (Elt F) → (⟨S64x160, .f32⟩ : BufTy).Contents (Elt F) → (⟨S64x160, .f32⟩ : BufTy).Contents (Elt F)) (term_main_v173 V0) ((addf : (⟨S64x160, .f32⟩ : BufTy).Contents (Elt F) → (⟨S64x160, .f32⟩ : BufTy).Contents (Elt F) → (⟨S64x160, .f32⟩ : BufTy).Contents (Elt F)) (term_main_v175 V0) ((broadcastInDim S64x160 ![] bcast_S_S64x160 : (⟨S_, .f32⟩ : BufTy).Contents (Elt F) → (⟨S64x160, .f32⟩ : BufTy).Contents (Elt F)) (constant S_ .f32 0x358637BD#32))))

/-- `main_v185`'s composed term. -/
def term_main_v185 (V0 : Valuation τ sig (Elt F)) : (Proc.devRef .tc main_v185 : DevRef τ sig).ty.Contents (Elt F) :=
  ((mulf : (⟨S64x160, .f32⟩ : BufTy).Contents (Elt F) → (⟨S64x160, .f32⟩ : BufTy).Contents (Elt F) → (⟨S64x160, .f32⟩ : BufTy).Contents (Elt F)) ((subf : (⟨S64x160, .f32⟩ : BufTy).Contents (Elt F) → (⟨S64x160, .f32⟩ : BufTy).Contents (Elt F) → (⟨S64x160, .f32⟩ : BufTy).Contents (Elt F)) ((maximumf : (⟨S64x160, .f32⟩ : BufTy).Contents (Elt F) → (⟨S64x160, .f32⟩ : BufTy).Contents (Elt F) → (⟨S64x160, .f32⟩ : BufTy).Contents (Elt F)) (term_main_v148 V0) (term_main_v156 V0)) ((minimumf : (⟨S64x160, .f32⟩ : BufTy).Contents (Elt F) → (⟨S64x160, .f32⟩ : BufTy).Contents (Elt F) → (⟨S64x160, .f32⟩ : BufTy).Contents (Elt F)) (term_main_v144 V0) (term_main_v152 V0))) ((subf : (⟨S64x160, .f32⟩ : BufTy).Contents (Elt F) → (⟨S64x160, .f32⟩ : BufTy).Contents (Elt F) → (⟨S64x160, .f32⟩ : BufTy).Contents (Elt F)) ((maximumf : (⟨S64x160, .f32⟩ : BufTy).Contents (Elt F) → (⟨S64x160, .f32⟩ : BufTy).Contents (Elt F) → (⟨S64x160, .f32⟩ : BufTy).Contents (Elt F)) (term_main_v150 V0) (term_main_v158 V0)) ((minimumf : (⟨S64x160, .f32⟩ : BufTy).Contents (Elt F) → (⟨S64x160, .f32⟩ : BufTy).Contents (Elt F) → (⟨S64x160, .f32⟩ : BufTy).Contents (Elt F)) (term_main_v146 V0) (term_main_v154 V0))))

/-- `main_v186`'s composed term. -/
def term_main_v186 (V0 : Valuation τ sig (Elt F)) : (Proc.devRef .tc main_v186 : DevRef τ sig).ty.Contents (Elt F) :=
  ((subf : (⟨S64x160, .f32⟩ : BufTy).Contents (Elt F) → (⟨S64x160, .f32⟩ : BufTy).Contents (Elt F) → (⟨S64x160, .f32⟩ : BufTy).Contents (Elt F)) (term_main_v185 V0) (term_main_v175 V0))

/-- `main_cst_50`'s composed term. -/
def term_main_cst_50 (V0 : Valuation τ sig (Elt F)) : (Proc.devRef .tc main_cst_50 : DevRef τ sig).ty.Contents (Elt F) :=
  (constant S_ .f32 0x358637BD#32)

/-- `main_v199`'s composed term. -/
def term_main_v199 (V0 : Valuation τ sig (Elt F)) : (Proc.devRef .tc main_v199 : DevRef τ sig).ty.Contents (Elt F) :=
  ((Host.divf : (⟨S64, .f32⟩ : BufTy).Contents (Elt F) → (⟨S64, .f32⟩ : BufTy).Contents (Elt F) → (⟨S64, .f32⟩ : BufTy).Contents (Elt F)) (((fun x v => Host.reduceAdd x v reducesTo_S64x160_S64_d1 h_S_) : (⟨S64x160, .f32⟩ : BufTy).Contents (Elt F) → (⟨S_, .f32⟩ : BufTy).Contents (Elt F) → (⟨S64, .f32⟩ : BufTy).Contents (Elt F)) ((Host.negf : (⟨S64x160, .f32⟩ : BufTy).Contents (Elt F) → (⟨S64x160, .f32⟩ : BufTy).Contents (Elt F)) ((Host.log : (⟨S64x160, .f32⟩ : BufTy).Contents (Elt F) → (⟨S64x160, .f32⟩ : BufTy).Contents (Elt F)) ((addf : (⟨S64x160, .f32⟩ : BufTy).Contents (Elt F) → (⟨S64x160, .f32⟩ : BufTy).Contents (Elt F) → (⟨S64x160, .f32⟩ : BufTy).Contents (Elt F)) (term_main_v178 V0) ((broadcastInDim S64x160 ![] bcast_S_S64x160 : (⟨S_, .f32⟩ : BufTy).Contents (Elt F) → (⟨S64x160, .f32⟩ : BufTy).Contents (Elt F)) (constant S_ .f32 0x358637BD#32))))) (constant S_ .f32 0x00000000#32)) ((broadcastInDim S64 ![] bcast_S_S64 : (⟨S_, .f32⟩ : BufTy).Contents (Elt F) → (⟨S64, .f32⟩ : BufTy).Contents (Elt F)) (constant S_ .f32 0x43200000#32)))

/-- `main_v200`'s composed term. -/
def term_main_v200 (V0 : Valuation τ sig (Elt F)) : (Proc.devRef .tc main_v200 : DevRef τ sig).ty.Contents (Elt F) :=
  (((fun x v => Host.reduceAdd x v reducesTo_S64x160_S64_d1 h_S_) : (⟨S64x160, .f32⟩ : BufTy).Contents (Elt F) → (⟨S_, .f32⟩ : BufTy).Contents (Elt F) → (⟨S64, .f32⟩ : BufTy).Contents (Elt F)) ((subf : (⟨S64x160, .f32⟩ : BufTy).Contents (Elt F) → (⟨S64x160, .f32⟩ : BufTy).Contents (Elt F) → (⟨S64x160, .f32⟩ : BufTy).Contents (Elt F)) ((broadcastInDim S64x160 ![] bcast_S_S64x160 : (⟨S_, .f32⟩ : BufTy).Contents (Elt F) → (⟨S64x160, .f32⟩ : BufTy).Contents (Elt F)) (constant S_ .f32 0x3F800000#32)) ((subf : (⟨S64x160, .f32⟩ : BufTy).Contents (Elt F) → (⟨S64x160, .f32⟩ : BufTy).Contents (Elt F) → (⟨S64x160, .f32⟩ : BufTy).Contents (Elt F)) (term_main_v178 V0) ((Host.divf : (⟨S64x160, .f32⟩ : BufTy).Contents (Elt F) → (⟨S64x160, .f32⟩ : BufTy).Contents (Elt F) → (⟨S64x160, .f32⟩ : BufTy).Contents (Elt F)) (term_main_v186 V0) ((addf : (⟨S64x160, .f32⟩ : BufTy).Contents (Elt F) → (⟨S64x160, .f32⟩ : BufTy).Contents (Elt F) → (⟨S64x160, .f32⟩ : BufTy).Contents (Elt F)) (term_main_v185 V0) ((broadcastInDim S64x160 ![] bcast_S_S64x160 : (⟨S_, .f32⟩ : BufTy).Contents (Elt F) → (⟨S64x160, .f32⟩ : BufTy).Contents (Elt F)) (term_main_cst_50 V0)))))) (constant S_ .f32 0x00000000#32))

/-- `main_cst_56`'s composed term. -/
def term_main_cst_56 (V0 : Valuation τ sig (Elt F)) : (Proc.devRef .tc main_cst_56 : DevRef τ sig).ty.Contents (Elt F) :=
  (constant S_ .f32 0x43200000#32)

/-- `main_v202`'s composed term. -/
def term_main_v202 (V0 : Valuation τ sig (Elt F)) : (Proc.devRef .tc main_v202 : DevRef τ sig).ty.Contents (Elt F) :=
  ((Host.divf : (⟨S64, .f32⟩ : BufTy).Contents (Elt F) → (⟨S64, .f32⟩ : BufTy).Contents (Elt F) → (⟨S64, .f32⟩ : BufTy).Contents (Elt F)) (term_main_v200 V0) ((broadcastInDim S64 ![] bcast_S_S64 : (⟨S_, .f32⟩ : BufTy).Contents (Elt F) → (⟨S64, .f32⟩ : BufTy).Contents (Elt F)) (term_main_cst_56 V0)))

/-- `main_v204`'s composed term. -/
def term_main_v204 (V0 : Valuation τ sig (Elt F)) : (Proc.devRef .tc main_v204 : DevRef τ sig).ty.Contents (Elt F) :=
  ((Host.absf : (⟨S64x160x4, .f32⟩ : BufTy).Contents (Elt F) → (⟨S64x160x4, .f32⟩ : BufTy).Contents (Elt F)) ((subf : (⟨S64x160x4, .f32⟩ : BufTy).Contents (Elt F) → (⟨S64x160x4, .f32⟩ : BufTy).Contents (Elt F) → (⟨S64x160x4, .f32⟩ : BufTy).Contents (Elt F)) (term_main_v142 V0) (term_main_v118 V0)))

/-- `main_v215`'s composed term. -/
def term_main_v215 (V0 : Valuation τ sig (Elt F)) : (Proc.devRef .tc main_v215 : DevRef τ sig).ty.Contents (Elt F) :=
  ((Host.divf : (⟨S64, .f32⟩ : BufTy).Contents (Elt F) → (⟨S64, .f32⟩ : BufTy).Contents (Elt F) → (⟨S64, .f32⟩ : BufTy).Contents (Elt F)) (((fun x v => Host.reduceAdd x v reducesTo_S64x160x4_S64_d1_2 h_S_) : (⟨S64x160x4, .f32⟩ : BufTy).Contents (Elt F) → (⟨S_, .f32⟩ : BufTy).Contents (Elt F) → (⟨S64, .f32⟩ : BufTy).Contents (Elt F)) ((select : (⟨S64x160x4, .i1⟩ : BufTy).Contents (Elt F) → (⟨S64x160x4, .f32⟩ : BufTy).Contents (Elt F) → (⟨S64x160x4, .f32⟩ : BufTy).Contents (Elt F) → (⟨S64x160x4, .f32⟩ : BufTy).Contents (Elt F)) ((cmpf .olt : (⟨S64x160x4, .f32⟩ : BufTy).Contents (Elt F) → (⟨S64x160x4, .f32⟩ : BufTy).Contents (Elt F) → (⟨S64x160x4, .i1⟩ : BufTy).Contents (Elt F)) (term_main_v204 V0) ((broadcastInDim S64x160x4 ![] bcast_S_S64x160x4 : (⟨S_, .f32⟩ : BufTy).Contents (Elt F) → (⟨S64x160x4, .f32⟩ : BufTy).Contents (Elt F)) (constant S_ .f32 0x3F800000#32))) ((mulf : (⟨S64x160x4, .f32⟩ : BufTy).Contents (Elt F) → (⟨S64x160x4, .f32⟩ : BufTy).Contents (Elt F) → (⟨S64x160x4, .f32⟩ : BufTy).Contents (Elt F)) ((mulf : (⟨S64x160x4, .f32⟩ : BufTy).Contents (Elt F) → (⟨S64x160x4, .f32⟩ : BufTy).Contents (Elt F) → (⟨S64x160x4, .f32⟩ : BufTy).Contents (Elt F)) ((broadcastInDim S64x160x4 ![] bcast_S_S64x160x4 : (⟨S_, .f32⟩ : BufTy).Contents (Elt F) → (⟨S64x160x4, .f32⟩ : BufTy).Contents (Elt F)) (constant S_ .f32 0x3F000000#32)) (term_main_v204 V0)) (term_main_v204 V0)) ((subf : (⟨S64x160x4, .f32⟩ : BufTy).Contents (Elt F) → (⟨S64x160x4, .f32⟩ : BufTy).Contents (Elt F) → (⟨S64x160x4, .f32⟩ : BufTy).Contents (Elt F)) (term_main_v204 V0) ((broadcastInDim S64x160x4 ![] bcast_S_S64x160x4 : (⟨S_, .f32⟩ : BufTy).Contents (Elt F) → (⟨S64x160x4, .f32⟩ : BufTy).Contents (Elt F)) (constant S_ .f32 0x3F000000#32)))) (constant S_ .f32 0x00000000#32)) ((broadcastInDim S64 ![] bcast_S_S64 : (⟨S_, .f32⟩ : BufTy).Contents (Elt F) → (⟨S64, .f32⟩ : BufTy).Contents (Elt F)) (constant S_ .f32 0x44200000#32)))

/-- `main_v225`'s composed term. -/
def term_main_v225 (V0 : Valuation τ sig (Elt F)) : (Proc.devRef .tc main_v225 : DevRef τ sig).ty.Contents (Elt F) :=
  ((Host.divf : (⟨S_, .f32⟩ : BufTy).Contents (Elt F) → (⟨S_, .f32⟩ : BufTy).Contents (Elt F) → (⟨S_, .f32⟩ : BufTy).Contents (Elt F)) (((fun x v => Host.reduceAdd x v reducesTo_S64_S_d0 h_S_) : (⟨S64, .f32⟩ : BufTy).Contents (Elt F) → (⟨S_, .f32⟩ : BufTy).Contents (Elt F) → (⟨S_, .f32⟩ : BufTy).Contents (Elt F)) ((addf : (⟨S64, .f32⟩ : BufTy).Contents (Elt F) → (⟨S64, .f32⟩ : BufTy).Contents (Elt F) → (⟨S64, .f32⟩ : BufTy).Contents (Elt F)) ((addf : (⟨S64, .f32⟩ : BufTy).Contents (Elt F) → (⟨S64, .f32⟩ : BufTy).Contents (Elt F) → (⟨S64, .f32⟩ : BufTy).Contents (Elt F)) ((mulf : (⟨S64, .f32⟩ : BufTy).Contents (Elt F) → (⟨S64, .f32⟩ : BufTy).Contents (Elt F) → (⟨S64, .f32⟩ : BufTy).Contents (Elt F)) ((broadcastInDim S64 ![] bcast_S_S64 : (⟨S_, .f32⟩ : BufTy).Contents (Elt F) → (⟨S64, .f32⟩ : BufTy).Contents (Elt F)) (constant S_ .f32 0x3F000000#32)) (term_main_v199 V0)) ((mulf : (⟨S64, .f32⟩ : BufTy).Contents (Elt F) → (⟨S64, .f32⟩ : BufTy).Contents (Elt F) → (⟨S64, .f32⟩ : BufTy).Contents (Elt F)) ((broadcastInDim S64 ![] bcast_S_S64 : (⟨S_, .f32⟩ : BufTy).Contents (Elt F) → (⟨S64, .f32⟩ : BufTy).Contents (Elt F)) (constant S_ .f32 0x3E99999A#32)) (term_main_v215 V0))) ((mulf : (⟨S64, .f32⟩ : BufTy).Contents (Elt F) → (⟨S64, .f32⟩ : BufTy).Contents (Elt F) → (⟨S64, .f32⟩ : BufTy).Contents (Elt F)) ((broadcastInDim S64 ![] bcast_S_S64 : (⟨S_, .f32⟩ : BufTy).Contents (Elt F) → (⟨S64, .f32⟩ : BufTy).Contents (Elt F)) (constant S_ .f32 0x3E4CCCCD#32)) (term_main_v202 V0))) (constant S_ .f32 0x00000000#32)) (constant S_ .f32 0x42800000#32))

/-- `main_v228`'s composed term. -/
def term_main_v228 (V0 : Valuation τ sig (Elt F)) : (Proc.devRef .tc main_v228 : DevRef τ sig).ty.Contents (Elt F) :=
  ((maximumf : (⟨S64x160, .f32⟩ : BufTy).Contents (Elt F) → (⟨S64x160, .f32⟩ : BufTy).Contents (Elt F) → (⟨S64x160, .f32⟩ : BufTy).Contents (Elt F)) ((Host.log : (⟨S64x160, .f32⟩ : BufTy).Contents (Elt F) → (⟨S64x160, .f32⟩ : BufTy).Contents (Elt F)) (term_main_v110 V0)) ((broadcastInDim S64x160 ![] bcast_S_S64x160 : (⟨S_, .f32⟩ : BufTy).Contents (Elt F) → (⟨S64x160, .f32⟩ : BufTy).Contents (Elt F)) (constant S_ .f32 0xC2C80000#32)))

/-- `main_v229`'s composed term. -/
def term_main_v229 (V0 : Valuation τ sig (Elt F)) : (Proc.devRef .tc main_v229 : DevRef τ sig).ty.Contents (Elt F) :=
  ((Host.negf : (⟨S64x160, .f32⟩ : BufTy).Contents (Elt F) → (⟨S64x160, .f32⟩ : BufTy).Contents (Elt F)) (term_main_v110 V0))

/-- `main_v239`'s composed term. -/
def term_main_v239 (V0 : Valuation τ sig (Elt F)) : (Proc.devRef .tc main_v239 : DevRef τ sig).ty.Contents (Elt F) :=
  (((fun x v => Host.reduceAdd x v reducesTo_S64x160_S64_d1 h_S_) : (⟨S64x160, .f32⟩ : BufTy).Contents (Elt F) → (⟨S_, .f32⟩ : BufTy).Contents (Elt F) → (⟨S64, .f32⟩ : BufTy).Contents (Elt F)) ((Host.negf : (⟨S64x160, .f32⟩ : BufTy).Contents (Elt F) → (⟨S64x160, .f32⟩ : BufTy).Contents (Elt F)) ((addf : (⟨S64x160, .f32⟩ : BufTy).Contents (Elt F) → (⟨S64x160, .f32⟩ : BufTy).Contents (Elt F) → (⟨S64x160, .f32⟩ : BufTy).Contents (Elt F)) ((mulf : (⟨S64x160, .f32⟩ : BufTy).Contents (Elt F) → (⟨S64x160, .f32⟩ : BufTy).Contents (Elt F) → (⟨S64x160, .f32⟩ : BufTy).Contents (Elt F)) (term_main_v121 V0) (term_main_v228 V0)) ((mulf : (⟨S64x160, .f32⟩ : BufTy).Contents (Elt F) → (⟨S64x160, .f32⟩ : BufTy).Contents (Elt F) → (⟨S64x160, .f32⟩ : BufTy).Contents (Elt F)) ((subf : (⟨S64x160, .f32⟩ : BufTy).Contents (Elt F) → (⟨S64x160, .f32⟩ : BufTy).Contents (Elt F) → (⟨S64x160, .f32⟩ : BufTy).Contents (Elt F)) ((broadcastInDim S64x160 ![] bcast_S_S64x160 : (⟨S_, .f32⟩ : BufTy).Contents (Elt F) → (⟨S64x160, .f32⟩ : BufTy).Contents (Elt F)) (constant S_ .f32 0x3F800000#32)) (term_main_v121 V0)) ((maximumf : (⟨S64x160, .f32⟩ : BufTy).Contents (Elt F) → (⟨S64x160, .f32⟩ : BufTy).Contents (Elt F) → (⟨S64x160, .f32⟩ : BufTy).Contents (Elt F)) ((Host.log1p : (⟨S64x160, .f32⟩ : BufTy).Contents (Elt F) → (⟨S64x160, .f32⟩ : BufTy).Contents (Elt F)) (term_main_v229 V0)) ((broadcastInDim S64x160 ![] bcast_S_S64x160 : (⟨S_, .f32⟩ : BufTy).Contents (Elt F) → (⟨S64x160, .f32⟩ : BufTy).Contents (Elt F)) (constant S_ .f32 0xC2C80000#32)))))) (constant S_ .f32 0x00000000#32))

/-- `main_cst_71`'s composed term. -/
def term_main_cst_71 (V0 : Valuation τ sig (Elt F)) : (Proc.devRef .tc main_cst_71 : DevRef τ sig).ty.Contents (Elt F) :=
  (constant S_ .f32 0x43200000#32)

/-- `main_v243`'s composed term. -/
def term_main_v243 (V0 : Valuation τ sig (Elt F)) : (Proc.devRef .tc main_v243 : DevRef τ sig).ty.Contents (Elt F) :=
  ((Host.divf : (⟨S_, .f32⟩ : BufTy).Contents (Elt F) → (⟨S_, .f32⟩ : BufTy).Contents (Elt F) → (⟨S_, .f32⟩ : BufTy).Contents (Elt F)) (((fun x v => Host.reduceAdd x v reducesTo_S64_S_d0 h_S_) : (⟨S64, .f32⟩ : BufTy).Contents (Elt F) → (⟨S_, .f32⟩ : BufTy).Contents (Elt F) → (⟨S_, .f32⟩ : BufTy).Contents (Elt F)) ((Host.divf : (⟨S64, .f32⟩ : BufTy).Contents (Elt F) → (⟨S64, .f32⟩ : BufTy).Contents (Elt F) → (⟨S64, .f32⟩ : BufTy).Contents (Elt F)) (term_main_v239 V0) ((broadcastInDim S64 ![] bcast_S_S64 : (⟨S_, .f32⟩ : BufTy).Contents (Elt F) → (⟨S64, .f32⟩ : BufTy).Contents (Elt F)) (term_main_cst_71 V0))) (constant S_ .f32 0x00000000#32)) (constant S_ .f32 0x42800000#32))

/-- `main_v248`'s composed term. -/
def term_main_v248 (V0 : Valuation τ sig (Elt F)) : (Proc.devRef .tc main_v248 : DevRef τ sig).ty.Contents (Elt F) :=
  ((addf : (⟨S_, .f32⟩ : BufTy).Contents (Elt F) → (⟨S_, .f32⟩ : BufTy).Contents (Elt F) → (⟨S_, .f32⟩ : BufTy).Contents (Elt F)) ((addf : (⟨S_, .f32⟩ : BufTy).Contents (Elt F) → (⟨S_, .f32⟩ : BufTy).Contents (Elt F) → (⟨S_, .f32⟩ : BufTy).Contents (Elt F)) ((mulf : (⟨S_, .f32⟩ : BufTy).Contents (Elt F) → (⟨S_, .f32⟩ : BufTy).Contents (Elt F) → (⟨S_, .f32⟩ : BufTy).Contents (Elt F)) (constant S_ .f32 0x3F800000#32) (term_main_v29 V0)) ((mulf : (⟨S_, .f32⟩ : BufTy).Contents (Elt F) → (⟨S_, .f32⟩ : BufTy).Contents (Elt F) → (⟨S_, .f32⟩ : BufTy).Contents (Elt F)) (constant S_ .f32 0x41A00000#32) (term_main_v225 V0))) ((mulf : (⟨S_, .f32⟩ : BufTy).Contents (Elt F) → (⟨S_, .f32⟩ : BufTy).Contents (Elt F) → (⟨S_, .f32⟩ : BufTy).Contents (Elt F)) (constant S_ .f32 0x3F000000#32) (term_main_v243 V0)))

end Cert.ReferenceIdeal.HandRun

end
-- ==== Proof.RefReadText.lean ====
/- The reference program's results read back, window 0 of the printed @main: the fold of the operations at a
   buffer is that buffer's composed term of the five argument arrays. A buffer read by more than one later
   operation, or by a later stretch, has its term named (`term_<buffer>`); a concatenate is named as a function of
   its operands (`cat_<buffer>`). -/
import proofs.«167267_j69861938037475_1_alg».proof.Proof.RefRun
import proofs.«167267_j69861938037475_1_alg».proof.Proof.RefTerms
import Idealize.ShloMosaic.Lib.StableHlo.Run
import Idealize.ShloMosaic.Lib.Pipeline.Frame

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

set_option maxRecDepth 16384

abbrev w0 : List (HloOp τ sig (Elt F)) :=
  [ StableHlo.unary main_arg0 main_v0 (Host.log : (⟨S64x1x320x320, .f32⟩ : BufTy).Contents (Elt F) → (⟨S64x1x320x320, .f32⟩ : BufTy).Contents (Elt F)),
    StableHlo.nullary main_cst (constant S_ .f32 0xC2C80000#32),
    StableHlo.unary main_cst main_v1 (broadcastInDim S64x1x320x320 ![] bcast_S_S64x1x320x320 : (⟨S_, .f32⟩ : BufTy).Contents (Elt F) → (⟨S64x1x320x320, .f32⟩ : BufTy).Contents (Elt F)),
    StableHlo.binary main_v0 main_v1 main_v2 (maximumf : (⟨S64x1x320x320, .f32⟩ : BufTy).Contents (Elt F) → (⟨S64x1x320x320, .f32⟩ : BufTy).Contents (Elt F) → (⟨S64x1x320x320, .f32⟩ : BufTy).Contents (Elt F)),
    StableHlo.unary main_arg0 main_v3 (Host.negf : (⟨S64x1x320x320, .f32⟩ : BufTy).Contents (Elt F) → (⟨S64x1x320x320, .f32⟩ : BufTy).Contents (Elt F)),
    StableHlo.unary main_v3 main_v4 (Host.log1p : (⟨S64x1x320x320, .f32⟩ : BufTy).Contents (Elt F) → (⟨S64x1x320x320, .f32⟩ : BufTy).Contents (Elt F)),
    StableHlo.nullary main_cst_0 (constant S_ .f32 0xC2C80000#32),
    StableHlo.unary main_cst_0 main_v5 (broadcastInDim S64x1x320x320 ![] bcast_S_S64x1x320x320 : (⟨S_, .f32⟩ : BufTy).Contents (Elt F) → (⟨S64x1x320x320, .f32⟩ : BufTy).Contents (Elt F)),
    StableHlo.binary main_v4 main_v5 main_v6 (maximumf : (⟨S64x1x320x320, .f32⟩ : BufTy).Contents (Elt F) → (⟨S64x1x320x320, .f32⟩ : BufTy).Contents (Elt F) → (⟨S64x1x320x320, .f32⟩ : BufTy).Contents (Elt F)),
    StableHlo.binary main_arg3 main_v2 main_v7 (mulf : (⟨S64x1x320x320, .f32⟩ : BufTy).Contents (Elt F) → (⟨S64x1x320x320, .f32⟩ : BufTy).Contents (Elt F) → (⟨S64x1x320x320, .f32⟩ : BufTy).Contents (Elt F)),
    StableHlo.nullary main_cst_1 (constant S_ .f32 0x3F800000#32),
    StableHlo.unary main_cst_1 main_v8 (broadcastInDim S64x1x320x320 ![] bcast_S_S64x1x320x320 : (⟨S_, .f32⟩ : BufTy).Contents (Elt F) → (⟨S64x1x320x320, .f32⟩ : BufTy).Contents (Elt F)),
    StableHlo.binary main_v8 main_arg3 main_v9 (subf : (⟨S64x1x320x320, .f32⟩ : BufTy).Contents (Elt F) → (⟨S64x1x320x320, .f32⟩ : BufTy).Contents (Elt F) → (⟨S64x1x320x320, .f32⟩ : BufTy).Contents (Elt F)),
    StableHlo.binary main_v9 main_v6 main_v10 (mulf : (⟨S64x1x320x320, .f32⟩ : BufTy).Contents (Elt F) → (⟨S64x1x320x320, .f32⟩ : BufTy).Contents (Elt F) → (⟨S64x1x320x320, .f32⟩ : BufTy).Contents (Elt F)),
    StableHlo.binary main_v7 main_v10 main_v11 (addf : (⟨S64x1x320x320, .f32⟩ : BufTy).Contents (Elt F) → (⟨S64x1x320x320, .f32⟩ : BufTy).Contents (Elt F) → (⟨S64x1x320x320, .f32⟩ : BufTy).Contents (Elt F)),
    StableHlo.unary main_v11 main_v12 (Host.negf : (⟨S64x1x320x320, .f32⟩ : BufTy).Contents (Elt F) → (⟨S64x1x320x320, .f32⟩ : BufTy).Contents (Elt F)),
    StableHlo.nullary main_cst_2 (constant S_ .f32 0x00000000#32),
    StableHlo.binary main_v12 main_cst_2 main_v13 ((fun x v => Host.reduceAdd x v reducesTo_S64x1x320x320_S_d0_1_2_3 h_S_) : (⟨S64x1x320x320, .f32⟩ : BufTy).Contents (Elt F) → (⟨S_, .f32⟩ : BufTy).Contents (Elt F) → (⟨S_, .f32⟩ : BufTy).Contents (Elt F)),
    StableHlo.nullary main_cst_3 (constant S_ .f32 0x4AC80000#32),
    StableHlo.binary main_v13 main_cst_3 main_v14 (Host.divf : (⟨S_, .f32⟩ : BufTy).Contents (Elt F) → (⟨S_, .f32⟩ : BufTy).Contents (Elt F) → (⟨S_, .f32⟩ : BufTy).Contents (Elt F)),
    StableHlo.reshape main_arg0 main_v15 rfl shapeCasts_S64x1x320x320_S6553600,
    StableHlo.reshape main_arg3 main_v16 rfl shapeCasts_S64x1x320x320_S6553600 ]

abbrev w1 : List (HloOp τ sig (Elt F)) :=
  [ StableHlo.binary main_v15 main_v16 main_v17 (mulf : (⟨S6553600, .f32⟩ : BufTy).Contents (Elt F) → (⟨S6553600, .f32⟩ : BufTy).Contents (Elt F) → (⟨S6553600, .f32⟩ : BufTy).Contents (Elt F)),
    StableHlo.nullary main_cst_4 (constant S_ .f32 0x00000000#32),
    StableHlo.binary main_v17 main_cst_4 main_v18 ((fun x v => Host.reduceAdd x v reducesTo_S6553600_S_d0 h_S_) : (⟨S6553600, .f32⟩ : BufTy).Contents (Elt F) → (⟨S_, .f32⟩ : BufTy).Contents (Elt F) → (⟨S_, .f32⟩ : BufTy).Contents (Elt F)),
    StableHlo.nullary main_cst_5 (constant S_ .f32 0x40000000#32),
    StableHlo.binary main_cst_5 main_v18 main_v19 (mulf : (⟨S_, .f32⟩ : BufTy).Contents (Elt F) → (⟨S_, .f32⟩ : BufTy).Contents (Elt F) → (⟨S_, .f32⟩ : BufTy).Contents (Elt F)),
    StableHlo.nullary main_cst_6 (constant S_ .f32 0x3727C5AC#32),
    StableHlo.binary main_v19 main_cst_6 main_v20 (addf : (⟨S_, .f32⟩ : BufTy).Contents (Elt F) → (⟨S_, .f32⟩ : BufTy).Contents (Elt F) → (⟨S_, .f32⟩ : BufTy).Contents (Elt F)),
    StableHlo.nullary main_cst_7 (constant S_ .f32 0x00000000#32),
    StableHlo.binary main_v15 main_cst_7 main_v21 ((fun x v => Host.reduceAdd x v reducesTo_S6553600_S_d0 h_S_) : (⟨S6553600, .f32⟩ : BufTy).Contents (Elt F) → (⟨S_, .f32⟩ : BufTy).Contents (Elt F) → (⟨S_, .f32⟩ : BufTy).Contents (Elt F)),
    StableHlo.nullary main_cst_8 (constant S_ .f32 0x00000000#32),
    StableHlo.binary main_v16 main_cst_8 main_v22 ((fun x v => Host.reduceAdd x v reducesTo_S6553600_S_d0 h_S_) : (⟨S6553600, .f32⟩ : BufTy).Contents (Elt F) → (⟨S_, .f32⟩ : BufTy).Contents (Elt F) → (⟨S_, .f32⟩ : BufTy).Contents (Elt F)),
    StableHlo.binary main_v21 main_v22 main_v23 (addf : (⟨S_, .f32⟩ : BufTy).Contents (Elt F) → (⟨S_, .f32⟩ : BufTy).Contents (Elt F) → (⟨S_, .f32⟩ : BufTy).Contents (Elt F)),
    StableHlo.nullary main_cst_9 (constant S_ .f32 0x3727C5AC#32),
    StableHlo.binary main_v23 main_cst_9 main_v24 (addf : (⟨S_, .f32⟩ : BufTy).Contents (Elt F) → (⟨S_, .f32⟩ : BufTy).Contents (Elt F) → (⟨S_, .f32⟩ : BufTy).Contents (Elt F)),
    StableHlo.binary main_v20 main_v24 main_v25 (Host.divf : (⟨S_, .f32⟩ : BufTy).Contents (Elt F) → (⟨S_, .f32⟩ : BufTy).Contents (Elt F) → (⟨S_, .f32⟩ : BufTy).Contents (Elt F)),
    StableHlo.nullary main_cst_10 (constant S_ .f32 0x3F000000#32),
    StableHlo.binary main_cst_10 main_v14 main_v26 (mulf : (⟨S_, .f32⟩ : BufTy).Contents (Elt F) → (⟨S_, .f32⟩ : BufTy).Contents (Elt F) → (⟨S_, .f32⟩ : BufTy).Contents (Elt F)),
    StableHlo.nullary main_cst_11 (constant S_ .f32 0x3F800000#32),
    StableHlo.binary main_cst_11 main_v25 main_v27 (subf : (⟨S_, .f32⟩ : BufTy).Contents (Elt F) → (⟨S_, .f32⟩ : BufTy).Contents (Elt F) → (⟨S_, .f32⟩ : BufTy).Contents (Elt F)),
    StableHlo.nullary main_cst_12 (constant S_ .f32 0x3F000000#32),
    StableHlo.binary main_cst_12 main_v27 main_v28 (mulf : (⟨S_, .f32⟩ : BufTy).Contents (Elt F) → (⟨S_, .f32⟩ : BufTy).Contents (Elt F) → (⟨S_, .f32⟩ : BufTy).Contents (Elt F)),
    StableHlo.binary main_v26 main_v28 main_v29 (addf : (⟨S_, .f32⟩ : BufTy).Contents (Elt F) → (⟨S_, .f32⟩ : BufTy).Contents (Elt F) → (⟨S_, .f32⟩ : BufTy).Contents (Elt F)) ]

abbrev w2 : List (HloOp τ sig (Elt F)) :=
  [ StableHlo.unary main_arg4 main_v30 ((extractStridedSlice S64x32x1 ![0, 0, 0] · slices_S64x32x5_S64x32x1_0_0_0) : (⟨S64x32x5, .f32⟩ : BufTy).Contents (Elt F) → (⟨S64x32x1, .f32⟩ : BufTy).Contents (Elt F)),
    StableHlo.reshape main_v30 main_v31 rfl shapeCasts_S64x32x1_S64x32,
    StableHlo.unary main_arg4 main_v32 ((extractStridedSlice S64x32x1 ![0, 0, 1] · slices_S64x32x5_S64x32x1_0_0_1) : (⟨S64x32x5, .f32⟩ : BufTy).Contents (Elt F) → (⟨S64x32x1, .f32⟩ : BufTy).Contents (Elt F)),
    StableHlo.reshape main_v32 main_v33 rfl shapeCasts_S64x32x1_S64x32,
    StableHlo.nullary main_cst_13 (constant S_ .f32 0x43A00000#32),
    StableHlo.unary main_cst_13 main_v34 (broadcastInDim S64x32 ![] bcast_S_S64x32 : (⟨S_, .f32⟩ : BufTy).Contents (Elt F) → (⟨S64x32, .f32⟩ : BufTy).Contents (Elt F)),
    StableHlo.binary main_v33 main_v34 main_v35 (Host.divf : (⟨S64x32, .f32⟩ : BufTy).Contents (Elt F) → (⟨S64x32, .f32⟩ : BufTy).Contents (Elt F) → (⟨S64x32, .f32⟩ : BufTy).Contents (Elt F)),
    StableHlo.nullary main_cst_14 (constant S_ .f32 0x00000000#32),
    StableHlo.nullary main_cst_15 (constant S_ .f32 0x3F7FBE77#32),
    StableHlo.TRef.unary (.of main_cst_14 : StableHlo.TRef sig ⟨S_, .f32⟩) (.of main_call0_v0 : StableHlo.TRef sig ⟨S_, .f32⟩) id,
    StableHlo.TRef.unary (.of main_call0_v0 : StableHlo.TRef sig ⟨S_, .f32⟩) (.of main_call0_v1 : StableHlo.TRef sig ⟨S64x32, .f32⟩) (broadcastInDim S64x32 ![] bcast_S_S64x32),
    StableHlo.TRef.binary (.of main_call0_v1 : StableHlo.TRef sig ⟨S64x32, .f32⟩) (.of main_v35 : StableHlo.TRef sig ⟨S64x32, .f32⟩) (.of main_call0_v2 : StableHlo.TRef sig ⟨S64x32, .f32⟩) maximumf,
    StableHlo.TRef.unary (.of main_cst_15 : StableHlo.TRef sig ⟨S_, .f32⟩) (.of main_call0_v3 : StableHlo.TRef sig ⟨S_, .f32⟩) id,
    StableHlo.TRef.unary (.of main_call0_v3 : StableHlo.TRef sig ⟨S_, .f32⟩) (.of main_call0_v4 : StableHlo.TRef sig ⟨S64x32, .f32⟩) (broadcastInDim S64x32 ![] bcast_S_S64x32),
    StableHlo.TRef.binary (.of main_call0_v4 : StableHlo.TRef sig ⟨S64x32, .f32⟩) (.of main_call0_v2 : StableHlo.TRef sig ⟨S64x32, .f32⟩) (.of main_v36 : StableHlo.TRef sig ⟨S64x32, .f32⟩) minimumf,
    StableHlo.unary main_arg4 main_v37 ((extractStridedSlice S64x32x1 ![0, 0, 2] · slices_S64x32x5_S64x32x1_0_0_2) : (⟨S64x32x5, .f32⟩ : BufTy).Contents (Elt F) → (⟨S64x32x1, .f32⟩ : BufTy).Contents (Elt F)),
    StableHlo.reshape main_v37 main_v38 rfl shapeCasts_S64x32x1_S64x32,
    StableHlo.nullary main_cst_16 (constant S_ .f32 0x43A00000#32),
    StableHlo.unary main_cst_16 main_v39 (broadcastInDim S64x32 ![] bcast_S_S64x32 : (⟨S_, .f32⟩ : BufTy).Contents (Elt F) → (⟨S64x32, .f32⟩ : BufTy).Contents (Elt F)),
    StableHlo.binary main_v38 main_v39 main_v40 (Host.divf : (⟨S64x32, .f32⟩ : BufTy).Contents (Elt F) → (⟨S64x32, .f32⟩ : BufTy).Contents (Elt F) → (⟨S64x32, .f32⟩ : BufTy).Contents (Elt F)),
    StableHlo.nullary main_cst_17 (constant S_ .f32 0x00000000#32) ]

theorem ops_part0_eq_windows : (ops_part0 : List (HloOp τ sig (Elt F))) = w0 ++ (w1 ++ (w2)) := rfl

/-- The buffer contents after the first 1 stretches. -/
def val1 (V0 : Valuation τ sig (Elt F)) : Valuation τ sig (Elt F) := after w0 V0
abbrev w0_W : List (Ref sig .tc) := [main_v0, main_cst, main_v1, main_v2, main_v3, main_v4, main_cst_0, main_v5, main_v6, main_v7, main_cst_1, main_v8, main_v9, main_v10, main_v11, main_v12, main_cst_2, main_v13, main_cst_3, main_v14, main_v15, main_v16]
theorem w0_writes : (w0 : List (HloOp τ sig (Elt F))).Forall fun op => op.writes ⊆ (w0_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
theorem val1_keep (V0 : Valuation τ sig (Elt F)) (r : Ref sig .tc) (h : r ∉ w0_W) :
    val1 V0 (Proc.devRef .tc r) = V0 (Proc.devRef .tc r) :=
  after_of_writes_sub w0 _ w0_writes h
theorem val1_main_arg0 (V0 : Valuation τ sig (Elt F)) : val1 V0 (no_index (Proc.devRef .tc main_arg0)) = V0 (Proc.devRef .tc main_arg0) :=
  val1_keep V0 main_arg0 (by decide)
theorem val1_main_arg1 (V0 : Valuation τ sig (Elt F)) : val1 V0 (no_index (Proc.devRef .tc main_arg1)) = V0 (Proc.devRef .tc main_arg1) :=
  val1_keep V0 main_arg1 (by decide)
theorem val1_main_arg2 (V0 : Valuation τ sig (Elt F)) : val1 V0 (no_index (Proc.devRef .tc main_arg2)) = V0 (Proc.devRef .tc main_arg2) :=
  val1_keep V0 main_arg2 (by decide)
theorem val1_main_arg3 (V0 : Valuation τ sig (Elt F)) : val1 V0 (no_index (Proc.devRef .tc main_arg3)) = V0 (Proc.devRef .tc main_arg3) :=
  val1_keep V0 main_arg3 (by decide)
theorem val1_main_arg4 (V0 : Valuation τ sig (Elt F)) : val1 V0 (no_index (Proc.devRef .tc main_arg4)) = V0 (Proc.devRef .tc main_arg4) :=
  val1_keep V0 main_arg4 (by decide)
set_option maxHeartbeats 2000000 in
theorem val1_main_v14 (V0 : Valuation τ sig (Elt F)) : val1 V0 (no_index (Proc.devRef .tc main_v14)) = term_main_v14 V0 := by
  unfold val1
  simp only [w0]
  after_results_simp
  try simp only [TRef.toBuf, TRef.ofBuf, cast_cast, cast_eq]
  all_goals rfl
set_option maxHeartbeats 2000000 in
theorem val1_main_v15 (V0 : Valuation τ sig (Elt F)) : val1 V0 (no_index (Proc.devRef .tc main_v15)) = term_main_v15 V0 := by
  unfold val1
  simp only [w0]
  after_results_simp
  try simp only [TRef.toBuf, TRef.ofBuf, cast_cast, cast_eq]
  all_goals rfl
set_option maxHeartbeats 2000000 in
theorem val1_main_v16 (V0 : Valuation τ sig (Elt F)) : val1 V0 (no_index (Proc.devRef .tc main_v16)) = term_main_v16 V0 := by
  unfold val1
  simp only [w0]
  after_results_simp
  try simp only [TRef.toBuf, TRef.ofBuf, cast_cast, cast_eq]
  all_goals rfl

/-- The buffer contents after the first 2 stretches. -/
def val2 (V0 : Valuation τ sig (Elt F)) : Valuation τ sig (Elt F) := after w1 (val1 V0)
abbrev w1_W : List (Ref sig .tc) := [main_v17, main_cst_4, main_v18, main_cst_5, main_v19, main_cst_6, main_v20, main_cst_7, main_v21, main_cst_8, main_v22, main_v23, main_cst_9, main_v24, main_v25, main_cst_10, main_v26, main_cst_11, main_v27, main_cst_12, main_v28, main_v29]
theorem w1_writes : (w1 : List (HloOp τ sig (Elt F))).Forall fun op => op.writes ⊆ (w1_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
theorem val2_keep (V0 : Valuation τ sig (Elt F)) (r : Ref sig .tc) (h : r ∉ w1_W) :
    val2 V0 (Proc.devRef .tc r) = val1 V0 (Proc.devRef .tc r) :=
  after_of_writes_sub w1 _ w1_writes h
theorem val2_main_arg0 (V0 : Valuation τ sig (Elt F)) : val2 V0 (no_index (Proc.devRef .tc main_arg0)) = V0 (Proc.devRef .tc main_arg0) :=
  (val2_keep V0 main_arg0 (by decide)).trans (val1_main_arg0 V0)
theorem val2_main_arg1 (V0 : Valuation τ sig (Elt F)) : val2 V0 (no_index (Proc.devRef .tc main_arg1)) = V0 (Proc.devRef .tc main_arg1) :=
  (val2_keep V0 main_arg1 (by decide)).trans (val1_main_arg1 V0)
theorem val2_main_arg2 (V0 : Valuation τ sig (Elt F)) : val2 V0 (no_index (Proc.devRef .tc main_arg2)) = V0 (Proc.devRef .tc main_arg2) :=
  (val2_keep V0 main_arg2 (by decide)).trans (val1_main_arg2 V0)
theorem val2_main_arg3 (V0 : Valuation τ sig (Elt F)) : val2 V0 (no_index (Proc.devRef .tc main_arg3)) = V0 (Proc.devRef .tc main_arg3) :=
  (val2_keep V0 main_arg3 (by decide)).trans (val1_main_arg3 V0)
theorem val2_main_arg4 (V0 : Valuation τ sig (Elt F)) : val2 V0 (no_index (Proc.devRef .tc main_arg4)) = V0 (Proc.devRef .tc main_arg4) :=
  (val2_keep V0 main_arg4 (by decide)).trans (val1_main_arg4 V0)
set_option maxHeartbeats 2000000 in
theorem val2_main_v29 (V0 : Valuation τ sig (Elt F)) : val2 V0 (no_index (Proc.devRef .tc main_v29)) = term_main_v29 V0 := by
  unfold val2
  simp only [w1]
  after_results_simp
  try simp only [val1_main_v16, val1_main_v15, val1_main_v14, TRef.toBuf, TRef.ofBuf, cast_cast, cast_eq]
  all_goals rfl

/-- The buffer contents after the first 3 stretches. -/
def val3 (V0 : Valuation τ sig (Elt F)) : Valuation τ sig (Elt F) := after w2 (val2 V0)
abbrev w2_W : List (Ref sig .tc) := [main_v30, main_v31, main_v32, main_v33, main_cst_13, main_v34, main_v35, main_cst_14, main_cst_15, main_call0_v0, main_call0_v1, main_call0_v2, main_call0_v3, main_call0_v4, main_v36, main_v37, main_v38, main_cst_16, main_v39, main_v40, main_cst_17]
theorem w2_writes : (w2 : List (HloOp τ sig (Elt F))).Forall fun op => op.writes ⊆ (w2_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
theorem val3_keep (V0 : Valuation τ sig (Elt F)) (r : Ref sig .tc) (h : r ∉ w2_W) :
    val3 V0 (Proc.devRef .tc r) = val2 V0 (Proc.devRef .tc r) :=
  after_of_writes_sub w2 _ w2_writes h
theorem val3_main_arg0 (V0 : Valuation τ sig (Elt F)) : val3 V0 (no_index (Proc.devRef .tc main_arg0)) = V0 (Proc.devRef .tc main_arg0) :=
  (val3_keep V0 main_arg0 (by decide)).trans (val2_main_arg0 V0)
theorem val3_main_arg1 (V0 : Valuation τ sig (Elt F)) : val3 V0 (no_index (Proc.devRef .tc main_arg1)) = V0 (Proc.devRef .tc main_arg1) :=
  (val3_keep V0 main_arg1 (by decide)).trans (val2_main_arg1 V0)
theorem val3_main_arg2 (V0 : Valuation τ sig (Elt F)) : val3 V0 (no_index (Proc.devRef .tc main_arg2)) = V0 (Proc.devRef .tc main_arg2) :=
  (val3_keep V0 main_arg2 (by decide)).trans (val2_main_arg2 V0)
theorem val3_main_arg3 (V0 : Valuation τ sig (Elt F)) : val3 V0 (no_index (Proc.devRef .tc main_arg3)) = V0 (Proc.devRef .tc main_arg3) :=
  (val3_keep V0 main_arg3 (by decide)).trans (val2_main_arg3 V0)
theorem val3_main_arg4 (V0 : Valuation τ sig (Elt F)) : val3 V0 (no_index (Proc.devRef .tc main_arg4)) = V0 (Proc.devRef .tc main_arg4) :=
  (val3_keep V0 main_arg4 (by decide)).trans (val2_main_arg4 V0)
theorem val3_main_v29 (V0 : Valuation τ sig (Elt F)) : val3 V0 (no_index (Proc.devRef .tc main_v29)) = term_main_v29 V0 :=
  (val3_keep V0 main_v29 (by decide)).trans (val2_main_v29 V0)
set_option maxHeartbeats 2000000 in
theorem val3_main_v31 (V0 : Valuation τ sig (Elt F)) : val3 V0 (no_index (Proc.devRef .tc main_v31)) = term_main_v31 V0 := by
  unfold val3
  simp only [w2]
  after_results_simp
  try simp only [val2_main_arg4, TRef.toBuf, TRef.ofBuf, cast_cast, cast_eq]
  all_goals rfl
set_option maxHeartbeats 2000000 in
theorem val3_main_v36 (V0 : Valuation τ sig (Elt F)) : val3 V0 (no_index (Proc.devRef .tc main_v36)) = term_main_v36 V0 := by
  unfold val3
  simp only [w2]
  after_results_simp
  try simp only [val2_main_arg4, TRef.toBuf, TRef.ofBuf, cast_cast, cast_eq]
  all_goals rfl
set_option maxHeartbeats 2000000 in
theorem val3_main_v40 (V0 : Valuation τ sig (Elt F)) : val3 V0 (no_index (Proc.devRef .tc main_v40)) = term_main_v40 V0 := by
  unfold val3
  simp only [w2]
  after_results_simp
  try simp only [val2_main_arg4, TRef.toBuf, TRef.ofBuf, cast_cast, cast_eq]
  all_goals rfl
set_option maxHeartbeats 2000000 in
theorem val3_main_cst_17 (V0 : Valuation τ sig (Elt F)) : val3 V0 (no_index (Proc.devRef .tc main_cst_17)) = term_main_cst_17 V0 := by
  unfold val3
  simp only [w2]
  after_results_simp
  try simp only [TRef.toBuf, TRef.ofBuf, cast_cast, cast_eq]
  all_goals rfl

theorem after_part0 (V0 : Valuation τ sig (Elt F)) : after ops_part0 V0 = val3 V0 := by
  rw [ops_part0_eq_windows]
  simp only [after_append]
  rfl

/-- A buffer that only the first window of @main writes: the whole program's fold at it is the first window's. -/
theorem after_ops_from_part0 (V0 : Valuation τ sig (Elt F)) (r : Ref sig .tc)
    (h1 : r ∉ ops_part1_W) (h2 : r ∉ ops_part2_W) (h3 : r ∉ ops_part3_W) (h4 : r ∉ ops_part4_W) (h5 : r ∉ ops_part5_W) :
    after ops V0 (Proc.devRef .tc r) = after ops_part0 V0 (Proc.devRef .tc r) := by
  simp only [ops, after_append]
  rw [after_of_writes_sub ops_part5 _ ops_part5_writes h5, after_of_writes_sub ops_part4 _ ops_part4_writes h4, after_of_writes_sub ops_part3 _ ops_part3_writes h3, after_of_writes_sub ops_part2 _ ops_part2_writes h2, after_of_writes_sub ops_part1 _ ops_part1_writes h1]

/-- The result `main_v29` (the text-map loss) after the run is its composed term of the argument arrays. -/
theorem res_v29 (V0 : Valuation τ sig (Elt F)) : after ops V0 (Proc.devRef .tc main_v29) = term_main_v29 V0 := by
  rw [after_ops_from_part0 V0 main_v29 (by decide) (by decide) (by decide) (by decide) (by decide), after_part0]
  exact val3_main_v29 V0

end Cert.ReferenceIdeal.HandRun

end
-- ==== Proof.RefRead1.lean ====
/- The reference program's results read back, window 1 of the printed @main: the fold of the operations at a
   buffer is that buffer's composed term of the five argument arrays. A buffer read by more than one later
   operation, or by a later stretch, has its term named (`term_<buffer>`); a concatenate is named as a function of
   its operands (`cat_<buffer>`). -/
import proofs.«167267_j69861938037475_1_alg».proof.Proof.RefReadText

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

set_option maxRecDepth 16384

abbrev w3 : List (HloOp τ sig (Elt F)) :=
  [ StableHlo.nullary main_cst_18 (constant S_ .f32 0x3F7FBE77#32),
    StableHlo.TRef.unary (.of main_cst_17 : StableHlo.TRef sig ⟨S_, .f32⟩) (.of main_call1_v0 : StableHlo.TRef sig ⟨S_, .f32⟩) id,
    StableHlo.TRef.unary (.of main_call1_v0 : StableHlo.TRef sig ⟨S_, .f32⟩) (.of main_call1_v1 : StableHlo.TRef sig ⟨S64x32, .f32⟩) (broadcastInDim S64x32 ![] bcast_S_S64x32),
    StableHlo.TRef.binary (.of main_call1_v1 : StableHlo.TRef sig ⟨S64x32, .f32⟩) (.of main_v40 : StableHlo.TRef sig ⟨S64x32, .f32⟩) (.of main_call1_v2 : StableHlo.TRef sig ⟨S64x32, .f32⟩) maximumf,
    StableHlo.TRef.unary (.of main_cst_18 : StableHlo.TRef sig ⟨S_, .f32⟩) (.of main_call1_v3 : StableHlo.TRef sig ⟨S_, .f32⟩) id,
    StableHlo.TRef.unary (.of main_call1_v3 : StableHlo.TRef sig ⟨S_, .f32⟩) (.of main_call1_v4 : StableHlo.TRef sig ⟨S64x32, .f32⟩) (broadcastInDim S64x32 ![] bcast_S_S64x32),
    StableHlo.TRef.binary (.of main_call1_v4 : StableHlo.TRef sig ⟨S64x32, .f32⟩) (.of main_call1_v2 : StableHlo.TRef sig ⟨S64x32, .f32⟩) (.of main_v41 : StableHlo.TRef sig ⟨S64x32, .f32⟩) minimumf,
    StableHlo.nullary main_cst_19 (constant S_ .f32 0x3A83126F#32),
    StableHlo.unary main_cst_19 main_v42 (broadcastInDim S64x32 ![] bcast_S_S64x32 : (⟨S_, .f32⟩ : BufTy).Contents (Elt F) → (⟨S64x32, .f32⟩ : BufTy).Contents (Elt F)),
    StableHlo.binary main_v36 main_v42 main_v43 (addf : (⟨S64x32, .f32⟩ : BufTy).Contents (Elt F) → (⟨S64x32, .f32⟩ : BufTy).Contents (Elt F) → (⟨S64x32, .f32⟩ : BufTy).Contents (Elt F)),
    StableHlo.unary main_arg4 main_v44 ((extractStridedSlice S64x32x1 ![0, 0, 3] · slices_S64x32x5_S64x32x1_0_0_3) : (⟨S64x32x5, .f32⟩ : BufTy).Contents (Elt F) → (⟨S64x32x1, .f32⟩ : BufTy).Contents (Elt F)),
    StableHlo.reshape main_v44 main_v45 rfl shapeCasts_S64x32x1_S64x32,
    StableHlo.nullary main_cst_20 (constant S_ .f32 0x43A00000#32),
    StableHlo.unary main_cst_20 main_v46 (broadcastInDim S64x32 ![] bcast_S_S64x32 : (⟨S_, .f32⟩ : BufTy).Contents (Elt F) → (⟨S64x32, .f32⟩ : BufTy).Contents (Elt F)),
    StableHlo.binary main_v45 main_v46 main_v47 (Host.divf : (⟨S64x32, .f32⟩ : BufTy).Contents (Elt F) → (⟨S64x32, .f32⟩ : BufTy).Contents (Elt F) → (⟨S64x32, .f32⟩ : BufTy).Contents (Elt F)),
    StableHlo.nullary main_cst_21 (constant S_ .f32 0x3F800000#32),
    StableHlo.unary main_cst_21 main_v48 (broadcastInDim S64x32 ![] bcast_S_S64x32 : (⟨S_, .f32⟩ : BufTy).Contents (Elt F) → (⟨S64x32, .f32⟩ : BufTy).Contents (Elt F)),
    StableHlo.binary main_v47 main_v48 main_v49 (minimumf : (⟨S64x32, .f32⟩ : BufTy).Contents (Elt F) → (⟨S64x32, .f32⟩ : BufTy).Contents (Elt F) → (⟨S64x32, .f32⟩ : BufTy).Contents (Elt F)),
    StableHlo.binary main_v43 main_v49 main_v50 (maximumf : (⟨S64x32, .f32⟩ : BufTy).Contents (Elt F) → (⟨S64x32, .f32⟩ : BufTy).Contents (Elt F) → (⟨S64x32, .f32⟩ : BufTy).Contents (Elt F)),
    StableHlo.nullary main_cst_22 (constant S_ .f32 0x3A83126F#32),
    StableHlo.unary main_cst_22 main_v51 (broadcastInDim S64x32 ![] bcast_S_S64x32 : (⟨S_, .f32⟩ : BufTy).Contents (Elt F) → (⟨S64x32, .f32⟩ : BufTy).Contents (Elt F)),
    StableHlo.binary main_v41 main_v51 main_v52 (addf : (⟨S64x32, .f32⟩ : BufTy).Contents (Elt F) → (⟨S64x32, .f32⟩ : BufTy).Contents (Elt F) → (⟨S64x32, .f32⟩ : BufTy).Contents (Elt F)),
    StableHlo.unary main_arg4 main_v53 ((extractStridedSlice S64x32x1 ![0, 0, 4] · slices_S64x32x5_S64x32x1_0_0_4) : (⟨S64x32x5, .f32⟩ : BufTy).Contents (Elt F) → (⟨S64x32x1, .f32⟩ : BufTy).Contents (Elt F)),
    StableHlo.reshape main_v53 main_v54 rfl shapeCasts_S64x32x1_S64x32,
    StableHlo.nullary main_cst_23 (constant S_ .f32 0x43A00000#32) ]

abbrev w4 : List (HloOp τ sig (Elt F)) :=
  [ StableHlo.unary main_cst_23 main_v55 (broadcastInDim S64x32 ![] bcast_S_S64x32 : (⟨S_, .f32⟩ : BufTy).Contents (Elt F) → (⟨S64x32, .f32⟩ : BufTy).Contents (Elt F)),
    StableHlo.binary main_v54 main_v55 main_v56 (Host.divf : (⟨S64x32, .f32⟩ : BufTy).Contents (Elt F) → (⟨S64x32, .f32⟩ : BufTy).Contents (Elt F) → (⟨S64x32, .f32⟩ : BufTy).Contents (Elt F)),
    StableHlo.nullary main_cst_24 (constant S_ .f32 0x3F800000#32),
    StableHlo.unary main_cst_24 main_v57 (broadcastInDim S64x32 ![] bcast_S_S64x32 : (⟨S_, .f32⟩ : BufTy).Contents (Elt F) → (⟨S64x32, .f32⟩ : BufTy).Contents (Elt F)),
    StableHlo.binary main_v56 main_v57 main_v58 (minimumf : (⟨S64x32, .f32⟩ : BufTy).Contents (Elt F) → (⟨S64x32, .f32⟩ : BufTy).Contents (Elt F) → (⟨S64x32, .f32⟩ : BufTy).Contents (Elt F)),
    StableHlo.binary main_v52 main_v58 main_v59 (maximumf : (⟨S64x32, .f32⟩ : BufTy).Contents (Elt F) → (⟨S64x32, .f32⟩ : BufTy).Contents (Elt F) → (⟨S64x32, .f32⟩ : BufTy).Contents (Elt F)),
    StableHlo.nullary main_cst_25 (constant S_ .f32 0x43A00000#32),
    StableHlo.unary main_cst_25 main_v60 (broadcastInDim S64x32 ![] bcast_S_S64x32 : (⟨S_, .f32⟩ : BufTy).Contents (Elt F) → (⟨S64x32, .f32⟩ : BufTy).Contents (Elt F)),
    StableHlo.binary main_v36 main_v60 main_v61 (mulf : (⟨S64x32, .f32⟩ : BufTy).Contents (Elt F) → (⟨S64x32, .f32⟩ : BufTy).Contents (Elt F) → (⟨S64x32, .f32⟩ : BufTy).Contents (Elt F)),
    StableHlo.unary main_v61 main_v62 (fptosi 32 : (⟨S64x32, .f32⟩ : BufTy).Contents (Elt F) → (⟨S64x32, .i32⟩ : BufTy).Contents (Elt F)),
    StableHlo.nullary main_c (constantI S_ 32 0#32),
    StableHlo.nullary main_c_26 (constantI S_ 32 319#32),
    StableHlo.TRef.unary (.of main_c : StableHlo.TRef sig ⟨S_, .i32⟩) (.of main_call2_v0 : StableHlo.TRef sig ⟨S_, .i32⟩) id,
    StableHlo.TRef.unary (.of main_call2_v0 : StableHlo.TRef sig ⟨S_, .i32⟩) (.of main_call2_v1 : StableHlo.TRef sig ⟨S64x32, .i32⟩) (broadcastInDim S64x32 ![] bcast_S_S64x32),
    StableHlo.TRef.binary (.of main_call2_v1 : StableHlo.TRef sig ⟨S64x32, .i32⟩) (.of main_v62 : StableHlo.TRef sig ⟨S64x32, .i32⟩) (.of main_call2_v2 : StableHlo.TRef sig ⟨S64x32, .i32⟩) maxsi,
    StableHlo.TRef.unary (.of main_c_26 : StableHlo.TRef sig ⟨S_, .i32⟩) (.of main_call2_v3 : StableHlo.TRef sig ⟨S_, .i32⟩) id,
    StableHlo.TRef.unary (.of main_call2_v3 : StableHlo.TRef sig ⟨S_, .i32⟩) (.of main_call2_v4 : StableHlo.TRef sig ⟨S64x32, .i32⟩) (broadcastInDim S64x32 ![] bcast_S_S64x32),
    StableHlo.TRef.binary (.of main_call2_v4 : StableHlo.TRef sig ⟨S64x32, .i32⟩) (.of main_call2_v2 : StableHlo.TRef sig ⟨S64x32, .i32⟩) (.of main_v63 : StableHlo.TRef sig ⟨S64x32, .i32⟩) minsi,
    StableHlo.nullary main_cst_27 (constant S_ .f32 0x43A00000#32),
    StableHlo.unary main_cst_27 main_v64 (broadcastInDim S64x32 ![] bcast_S_S64x32 : (⟨S_, .f32⟩ : BufTy).Contents (Elt F) → (⟨S64x32, .f32⟩ : BufTy).Contents (Elt F)),
    StableHlo.binary main_v41 main_v64 main_v65 (mulf : (⟨S64x32, .f32⟩ : BufTy).Contents (Elt F) → (⟨S64x32, .f32⟩ : BufTy).Contents (Elt F) → (⟨S64x32, .f32⟩ : BufTy).Contents (Elt F)),
    StableHlo.unary main_v65 main_v66 (fptosi 32 : (⟨S64x32, .f32⟩ : BufTy).Contents (Elt F) → (⟨S64x32, .i32⟩ : BufTy).Contents (Elt F)),
    StableHlo.nullary main_c_28 (constantI S_ 32 0#32),
    StableHlo.nullary main_c_29 (constantI S_ 32 319#32),
    StableHlo.TRef.unary (.of main_c_28 : StableHlo.TRef sig ⟨S_, .i32⟩) (.of main_call3_v0 : StableHlo.TRef sig ⟨S_, .i32⟩) id ]

abbrev w5 : List (HloOp τ sig (Elt F)) :=
  [ StableHlo.TRef.unary (.of main_call3_v0 : StableHlo.TRef sig ⟨S_, .i32⟩) (.of main_call3_v1 : StableHlo.TRef sig ⟨S64x32, .i32⟩) (broadcastInDim S64x32 ![] bcast_S_S64x32),
    StableHlo.TRef.binary (.of main_call3_v1 : StableHlo.TRef sig ⟨S64x32, .i32⟩) (.of main_v66 : StableHlo.TRef sig ⟨S64x32, .i32⟩) (.of main_call3_v2 : StableHlo.TRef sig ⟨S64x32, .i32⟩) maxsi,
    StableHlo.TRef.unary (.of main_c_29 : StableHlo.TRef sig ⟨S_, .i32⟩) (.of main_call3_v3 : StableHlo.TRef sig ⟨S_, .i32⟩) id,
    StableHlo.TRef.unary (.of main_call3_v3 : StableHlo.TRef sig ⟨S_, .i32⟩) (.of main_call3_v4 : StableHlo.TRef sig ⟨S64x32, .i32⟩) (broadcastInDim S64x32 ![] bcast_S_S64x32),
    StableHlo.TRef.binary (.of main_call3_v4 : StableHlo.TRef sig ⟨S64x32, .i32⟩) (.of main_call3_v2 : StableHlo.TRef sig ⟨S64x32, .i32⟩) (.of main_v67 : StableHlo.TRef sig ⟨S64x32, .i32⟩) minsi,
    StableHlo.nullary main_c_30 (constantI S_ 32 1#32),
    StableHlo.unary main_c_30 main_v68 (broadcastInDim S64x32 ![] bcast_S_S64x32 : (⟨S_, .i32⟩ : BufTy).Contents (Elt F) → (⟨S64x32, .i32⟩ : BufTy).Contents (Elt F)),
    StableHlo.binary main_v63 main_v68 main_v69 (addi : (⟨S64x32, .i32⟩ : BufTy).Contents (Elt F) → (⟨S64x32, .i32⟩ : BufTy).Contents (Elt F) → (⟨S64x32, .i32⟩ : BufTy).Contents (Elt F)),
    StableHlo.nullary main_cst_31 (constant S_ .f32 0x43A00000#32),
    StableHlo.unary main_cst_31 main_v70 (broadcastInDim S64x32 ![] bcast_S_S64x32 : (⟨S_, .f32⟩ : BufTy).Contents (Elt F) → (⟨S64x32, .f32⟩ : BufTy).Contents (Elt F)),
    StableHlo.binary main_v50 main_v70 main_v71 (mulf : (⟨S64x32, .f32⟩ : BufTy).Contents (Elt F) → (⟨S64x32, .f32⟩ : BufTy).Contents (Elt F) → (⟨S64x32, .f32⟩ : BufTy).Contents (Elt F)),
    StableHlo.unary main_v71 main_v72 (fptosi 32 : (⟨S64x32, .f32⟩ : BufTy).Contents (Elt F) → (⟨S64x32, .i32⟩ : BufTy).Contents (Elt F)),
    StableHlo.nullary main_c_32 (constantI S_ 32 319#32),
    StableHlo.unary main_c_32 main_v73 (broadcastInDim S64x32 ![] bcast_S_S64x32 : (⟨S_, .i32⟩ : BufTy).Contents (Elt F) → (⟨S64x32, .i32⟩ : BufTy).Contents (Elt F)),
    StableHlo.binary main_v72 main_v73 main_v74 (minsi : (⟨S64x32, .i32⟩ : BufTy).Contents (Elt F) → (⟨S64x32, .i32⟩ : BufTy).Contents (Elt F) → (⟨S64x32, .i32⟩ : BufTy).Contents (Elt F)),
    StableHlo.binary main_v69 main_v74 main_v75 (maxsi : (⟨S64x32, .i32⟩ : BufTy).Contents (Elt F) → (⟨S64x32, .i32⟩ : BufTy).Contents (Elt F) → (⟨S64x32, .i32⟩ : BufTy).Contents (Elt F)),
    StableHlo.nullary main_c_33 (constantI S_ 32 1#32),
    StableHlo.unary main_c_33 main_v76 (broadcastInDim S64x32 ![] bcast_S_S64x32 : (⟨S_, .i32⟩ : BufTy).Contents (Elt F) → (⟨S64x32, .i32⟩ : BufTy).Contents (Elt F)),
    StableHlo.binary main_v67 main_v76 main_v77 (addi : (⟨S64x32, .i32⟩ : BufTy).Contents (Elt F) → (⟨S64x32, .i32⟩ : BufTy).Contents (Elt F) → (⟨S64x32, .i32⟩ : BufTy).Contents (Elt F)),
    StableHlo.nullary main_cst_34 (constant S_ .f32 0x43A00000#32),
    StableHlo.unary main_cst_34 main_v78 (broadcastInDim S64x32 ![] bcast_S_S64x32 : (⟨S_, .f32⟩ : BufTy).Contents (Elt F) → (⟨S64x32, .f32⟩ : BufTy).Contents (Elt F)),
    StableHlo.binary main_v59 main_v78 main_v79 (mulf : (⟨S64x32, .f32⟩ : BufTy).Contents (Elt F) → (⟨S64x32, .f32⟩ : BufTy).Contents (Elt F) → (⟨S64x32, .f32⟩ : BufTy).Contents (Elt F)),
    StableHlo.unary main_v79 main_v80 (fptosi 32 : (⟨S64x32, .f32⟩ : BufTy).Contents (Elt F) → (⟨S64x32, .i32⟩ : BufTy).Contents (Elt F)),
    StableHlo.nullary main_c_35 (constantI S_ 32 319#32),
    StableHlo.unary main_c_35 main_v81 (broadcastInDim S64x32 ![] bcast_S_S64x32 : (⟨S_, .i32⟩ : BufTy).Contents (Elt F) → (⟨S64x32, .i32⟩ : BufTy).Contents (Elt F)) ]

theorem ops_part1_eq_windows : (ops_part1 : List (HloOp τ sig (Elt F))) = w3 ++ (w4 ++ (w5)) := rfl

/-- The buffer contents after the first 4 stretches. -/
def val4 (V0 : Valuation τ sig (Elt F)) : Valuation τ sig (Elt F) := after w3 (val3 V0)
abbrev w3_W : List (Ref sig .tc) := [main_cst_18, main_call1_v0, main_call1_v1, main_call1_v2, main_call1_v3, main_call1_v4, main_v41, main_cst_19, main_v42, main_v43, main_v44, main_v45, main_cst_20, main_v46, main_v47, main_cst_21, main_v48, main_v49, main_v50, main_cst_22, main_v51, main_v52, main_v53, main_v54, main_cst_23]
theorem w3_writes : (w3 : List (HloOp τ sig (Elt F))).Forall fun op => op.writes ⊆ (w3_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
theorem val4_keep (V0 : Valuation τ sig (Elt F)) (r : Ref sig .tc) (h : r ∉ w3_W) :
    val4 V0 (Proc.devRef .tc r) = val3 V0 (Proc.devRef .tc r) :=
  after_of_writes_sub w3 _ w3_writes h
theorem val4_main_arg0 (V0 : Valuation τ sig (Elt F)) : val4 V0 (no_index (Proc.devRef .tc main_arg0)) = V0 (Proc.devRef .tc main_arg0) :=
  (val4_keep V0 main_arg0 (by decide)).trans (val3_main_arg0 V0)
theorem val4_main_arg1 (V0 : Valuation τ sig (Elt F)) : val4 V0 (no_index (Proc.devRef .tc main_arg1)) = V0 (Proc.devRef .tc main_arg1) :=
  (val4_keep V0 main_arg1 (by decide)).trans (val3_main_arg1 V0)
theorem val4_main_arg2 (V0 : Valuation τ sig (Elt F)) : val4 V0 (no_index (Proc.devRef .tc main_arg2)) = V0 (Proc.devRef .tc main_arg2) :=
  (val4_keep V0 main_arg2 (by decide)).trans (val3_main_arg2 V0)
theorem val4_main_arg3 (V0 : Valuation τ sig (Elt F)) : val4 V0 (no_index (Proc.devRef .tc main_arg3)) = V0 (Proc.devRef .tc main_arg3) :=
  (val4_keep V0 main_arg3 (by decide)).trans (val3_main_arg3 V0)
theorem val4_main_arg4 (V0 : Valuation τ sig (Elt F)) : val4 V0 (no_index (Proc.devRef .tc main_arg4)) = V0 (Proc.devRef .tc main_arg4) :=
  (val4_keep V0 main_arg4 (by decide)).trans (val3_main_arg4 V0)
theorem val4_main_v29 (V0 : Valuation τ sig (Elt F)) : val4 V0 (no_index (Proc.devRef .tc main_v29)) = term_main_v29 V0 :=
  (val4_keep V0 main_v29 (by decide)).trans (val3_main_v29 V0)
theorem val4_main_v31 (V0 : Valuation τ sig (Elt F)) : val4 V0 (no_index (Proc.devRef .tc main_v31)) = term_main_v31 V0 :=
  (val4_keep V0 main_v31 (by decide)).trans (val3_main_v31 V0)
theorem val4_main_v36 (V0 : Valuation τ sig (Elt F)) : val4 V0 (no_index (Proc.devRef .tc main_v36)) = term_main_v36 V0 :=
  (val4_keep V0 main_v36 (by decide)).trans (val3_main_v36 V0)
set_option maxHeartbeats 2000000 in
theorem val4_main_v41 (V0 : Valuation τ sig (Elt F)) : val4 V0 (no_index (Proc.devRef .tc main_v41)) = term_main_v41 V0 := by
  unfold val4
  simp only [w3]
  after_results_simp
  try simp only [val3_main_v40, val3_main_cst_17, TRef.toBuf, TRef.ofBuf, cast_cast, cast_eq]
  all_goals rfl
set_option maxHeartbeats 2000000 in
theorem val4_main_v50 (V0 : Valuation τ sig (Elt F)) : val4 V0 (no_index (Proc.devRef .tc main_v50)) = term_main_v50 V0 := by
  unfold val4
  simp only [w3]
  after_results_simp
  try simp only [val3_main_arg4, val3_main_v36, TRef.toBuf, TRef.ofBuf, cast_cast, cast_eq]
  all_goals rfl
set_option maxHeartbeats 2000000 in
theorem val4_main_v52 (V0 : Valuation τ sig (Elt F)) : val4 V0 (no_index (Proc.devRef .tc main_v52)) = term_main_v52 V0 := by
  unfold val4
  simp only [w3]
  after_results_simp
  try simp only [val3_main_v40, val3_main_cst_17, TRef.toBuf, TRef.ofBuf, cast_cast, cast_eq]
  all_goals rfl
set_option maxHeartbeats 2000000 in
theorem val4_main_v54 (V0 : Valuation τ sig (Elt F)) : val4 V0 (no_index (Proc.devRef .tc main_v54)) = term_main_v54 V0 := by
  unfold val4
  simp only [w3]
  after_results_simp
  try simp only [val3_main_arg4, TRef.toBuf, TRef.ofBuf, cast_cast, cast_eq]
  all_goals rfl
set_option maxHeartbeats 2000000 in
theorem val4_main_cst_23 (V0 : Valuation τ sig (Elt F)) : val4 V0 (no_index (Proc.devRef .tc main_cst_23)) = term_main_cst_23 V0 := by
  unfold val4
  simp only [w3]
  after_results_simp
  try simp only [TRef.toBuf, TRef.ofBuf, cast_cast, cast_eq]
  all_goals rfl

/-- The buffer contents after the first 5 stretches. -/
def val5 (V0 : Valuation τ sig (Elt F)) : Valuation τ sig (Elt F) := after w4 (val4 V0)
abbrev w4_W : List (Ref sig .tc) := [main_v55, main_v56, main_cst_24, main_v57, main_v58, main_v59, main_cst_25, main_v60, main_v61, main_v62, main_c, main_c_26, main_call2_v0, main_call2_v1, main_call2_v2, main_call2_v3, main_call2_v4, main_v63, main_cst_27, main_v64, main_v65, main_v66, main_c_28, main_c_29, main_call3_v0]
theorem w4_writes : (w4 : List (HloOp τ sig (Elt F))).Forall fun op => op.writes ⊆ (w4_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
theorem val5_keep (V0 : Valuation τ sig (Elt F)) (r : Ref sig .tc) (h : r ∉ w4_W) :
    val5 V0 (Proc.devRef .tc r) = val4 V0 (Proc.devRef .tc r) :=
  after_of_writes_sub w4 _ w4_writes h
theorem val5_main_arg0 (V0 : Valuation τ sig (Elt F)) : val5 V0 (no_index (Proc.devRef .tc main_arg0)) = V0 (Proc.devRef .tc main_arg0) :=
  (val5_keep V0 main_arg0 (by decide)).trans (val4_main_arg0 V0)
theorem val5_main_arg1 (V0 : Valuation τ sig (Elt F)) : val5 V0 (no_index (Proc.devRef .tc main_arg1)) = V0 (Proc.devRef .tc main_arg1) :=
  (val5_keep V0 main_arg1 (by decide)).trans (val4_main_arg1 V0)
theorem val5_main_arg2 (V0 : Valuation τ sig (Elt F)) : val5 V0 (no_index (Proc.devRef .tc main_arg2)) = V0 (Proc.devRef .tc main_arg2) :=
  (val5_keep V0 main_arg2 (by decide)).trans (val4_main_arg2 V0)
theorem val5_main_arg3 (V0 : Valuation τ sig (Elt F)) : val5 V0 (no_index (Proc.devRef .tc main_arg3)) = V0 (Proc.devRef .tc main_arg3) :=
  (val5_keep V0 main_arg3 (by decide)).trans (val4_main_arg3 V0)
theorem val5_main_arg4 (V0 : Valuation τ sig (Elt F)) : val5 V0 (no_index (Proc.devRef .tc main_arg4)) = V0 (Proc.devRef .tc main_arg4) :=
  (val5_keep V0 main_arg4 (by decide)).trans (val4_main_arg4 V0)
theorem val5_main_v29 (V0 : Valuation τ sig (Elt F)) : val5 V0 (no_index (Proc.devRef .tc main_v29)) = term_main_v29 V0 :=
  (val5_keep V0 main_v29 (by decide)).trans (val4_main_v29 V0)
theorem val5_main_v31 (V0 : Valuation τ sig (Elt F)) : val5 V0 (no_index (Proc.devRef .tc main_v31)) = term_main_v31 V0 :=
  (val5_keep V0 main_v31 (by decide)).trans (val4_main_v31 V0)
theorem val5_main_v36 (V0 : Valuation τ sig (Elt F)) : val5 V0 (no_index (Proc.devRef .tc main_v36)) = term_main_v36 V0 :=
  (val5_keep V0 main_v36 (by decide)).trans (val4_main_v36 V0)
theorem val5_main_v41 (V0 : Valuation τ sig (Elt F)) : val5 V0 (no_index (Proc.devRef .tc main_v41)) = term_main_v41 V0 :=
  (val5_keep V0 main_v41 (by decide)).trans (val4_main_v41 V0)
theorem val5_main_v50 (V0 : Valuation τ sig (Elt F)) : val5 V0 (no_index (Proc.devRef .tc main_v50)) = term_main_v50 V0 :=
  (val5_keep V0 main_v50 (by decide)).trans (val4_main_v50 V0)
set_option maxHeartbeats 2000000 in
theorem val5_main_v59 (V0 : Valuation τ sig (Elt F)) : val5 V0 (no_index (Proc.devRef .tc main_v59)) = term_main_v59 V0 := by
  unfold val5
  simp only [w4]
  after_results_simp
  try simp only [val4_main_cst_23, val4_main_v54, val4_main_v52, TRef.toBuf, TRef.ofBuf, cast_cast, cast_eq]
  all_goals rfl
set_option maxHeartbeats 2000000 in
theorem val5_main_v63 (V0 : Valuation τ sig (Elt F)) : val5 V0 (no_index (Proc.devRef .tc main_v63)) = term_main_v63 V0 := by
  unfold val5
  simp only [w4]
  after_results_simp
  try simp only [val4_main_v36, TRef.toBuf, TRef.ofBuf, cast_cast, cast_eq]
  all_goals rfl
set_option maxHeartbeats 2000000 in
theorem val5_main_v66 (V0 : Valuation τ sig (Elt F)) : val5 V0 (no_index (Proc.devRef .tc main_v66)) = term_main_v66 V0 := by
  unfold val5
  simp only [w4]
  after_results_simp
  try simp only [val4_main_v41, TRef.toBuf, TRef.ofBuf, cast_cast, cast_eq]
  all_goals rfl
set_option maxHeartbeats 2000000 in
theorem val5_main_c_29 (V0 : Valuation τ sig (Elt F)) : val5 V0 (no_index (Proc.devRef .tc main_c_29)) = term_main_c_29 V0 := by
  unfold val5
  simp only [w4]
  after_results_simp
  try simp only [TRef.toBuf, TRef.ofBuf, cast_cast, cast_eq]
  all_goals rfl
set_option maxHeartbeats 2000000 in
theorem val5_main_call3_v0 (V0 : Valuation τ sig (Elt F)) : val5 V0 (no_index (Proc.devRef .tc main_call3_v0)) = term_main_call3_v0 V0 := by
  unfold val5
  simp only [w4]
  after_results_simp
  try simp only [TRef.toBuf, TRef.ofBuf, cast_cast, cast_eq]
  all_goals rfl

/-- The buffer contents after the first 6 stretches. -/
def val6 (V0 : Valuation τ sig (Elt F)) : Valuation τ sig (Elt F) := after w5 (val5 V0)
abbrev w5_W : List (Ref sig .tc) := [main_call3_v1, main_call3_v2, main_call3_v3, main_call3_v4, main_v67, main_c_30, main_v68, main_v69, main_cst_31, main_v70, main_v71, main_v72, main_c_32, main_v73, main_v74, main_v75, main_c_33, main_v76, main_v77, main_cst_34, main_v78, main_v79, main_v80, main_c_35, main_v81]
theorem w5_writes : (w5 : List (HloOp τ sig (Elt F))).Forall fun op => op.writes ⊆ (w5_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
theorem val6_keep (V0 : Valuation τ sig (Elt F)) (r : Ref sig .tc) (h : r ∉ w5_W) :
    val6 V0 (Proc.devRef .tc r) = val5 V0 (Proc.devRef .tc r) :=
  after_of_writes_sub w5 _ w5_writes h
theorem val6_main_arg0 (V0 : Valuation τ sig (Elt F)) : val6 V0 (no_index (Proc.devRef .tc main_arg0)) = V0 (Proc.devRef .tc main_arg0) :=
  (val6_keep V0 main_arg0 (by decide)).trans (val5_main_arg0 V0)
theorem val6_main_arg1 (V0 : Valuation τ sig (Elt F)) : val6 V0 (no_index (Proc.devRef .tc main_arg1)) = V0 (Proc.devRef .tc main_arg1) :=
  (val6_keep V0 main_arg1 (by decide)).trans (val5_main_arg1 V0)
theorem val6_main_arg2 (V0 : Valuation τ sig (Elt F)) : val6 V0 (no_index (Proc.devRef .tc main_arg2)) = V0 (Proc.devRef .tc main_arg2) :=
  (val6_keep V0 main_arg2 (by decide)).trans (val5_main_arg2 V0)
theorem val6_main_arg3 (V0 : Valuation τ sig (Elt F)) : val6 V0 (no_index (Proc.devRef .tc main_arg3)) = V0 (Proc.devRef .tc main_arg3) :=
  (val6_keep V0 main_arg3 (by decide)).trans (val5_main_arg3 V0)
theorem val6_main_arg4 (V0 : Valuation τ sig (Elt F)) : val6 V0 (no_index (Proc.devRef .tc main_arg4)) = V0 (Proc.devRef .tc main_arg4) :=
  (val6_keep V0 main_arg4 (by decide)).trans (val5_main_arg4 V0)
theorem val6_main_v29 (V0 : Valuation τ sig (Elt F)) : val6 V0 (no_index (Proc.devRef .tc main_v29)) = term_main_v29 V0 :=
  (val6_keep V0 main_v29 (by decide)).trans (val5_main_v29 V0)
theorem val6_main_v31 (V0 : Valuation τ sig (Elt F)) : val6 V0 (no_index (Proc.devRef .tc main_v31)) = term_main_v31 V0 :=
  (val6_keep V0 main_v31 (by decide)).trans (val5_main_v31 V0)
theorem val6_main_v36 (V0 : Valuation τ sig (Elt F)) : val6 V0 (no_index (Proc.devRef .tc main_v36)) = term_main_v36 V0 :=
  (val6_keep V0 main_v36 (by decide)).trans (val5_main_v36 V0)
theorem val6_main_v41 (V0 : Valuation τ sig (Elt F)) : val6 V0 (no_index (Proc.devRef .tc main_v41)) = term_main_v41 V0 :=
  (val6_keep V0 main_v41 (by decide)).trans (val5_main_v41 V0)
theorem val6_main_v50 (V0 : Valuation τ sig (Elt F)) : val6 V0 (no_index (Proc.devRef .tc main_v50)) = term_main_v50 V0 :=
  (val6_keep V0 main_v50 (by decide)).trans (val5_main_v50 V0)
theorem val6_main_v59 (V0 : Valuation τ sig (Elt F)) : val6 V0 (no_index (Proc.devRef .tc main_v59)) = term_main_v59 V0 :=
  (val6_keep V0 main_v59 (by decide)).trans (val5_main_v59 V0)
theorem val6_main_v63 (V0 : Valuation τ sig (Elt F)) : val6 V0 (no_index (Proc.devRef .tc main_v63)) = term_main_v63 V0 :=
  (val6_keep V0 main_v63 (by decide)).trans (val5_main_v63 V0)
set_option maxHeartbeats 2000000 in
theorem val6_main_v67 (V0 : Valuation τ sig (Elt F)) : val6 V0 (no_index (Proc.devRef .tc main_v67)) = term_main_v67 V0 := by
  unfold val6
  simp only [w5]
  after_results_simp
  try simp only [val5_main_v66, val5_main_call3_v0, val5_main_c_29, TRef.toBuf, TRef.ofBuf, cast_cast, cast_eq]
  all_goals rfl
set_option maxHeartbeats 2000000 in
theorem val6_main_v75 (V0 : Valuation τ sig (Elt F)) : val6 V0 (no_index (Proc.devRef .tc main_v75)) = term_main_v75 V0 := by
  unfold val6
  simp only [w5]
  after_results_simp
  try simp only [val5_main_v50, val5_main_v63, TRef.toBuf, TRef.ofBuf, cast_cast, cast_eq]
  all_goals rfl
set_option maxHeartbeats 2000000 in
theorem val6_main_v77 (V0 : Valuation τ sig (Elt F)) : val6 V0 (no_index (Proc.devRef .tc main_v77)) = term_main_v77 V0 := by
  unfold val6
  simp only [w5]
  after_results_simp
  try simp only [val5_main_v66, val5_main_call3_v0, val5_main_c_29, TRef.toBuf, TRef.ofBuf, cast_cast, cast_eq]
  all_goals rfl
set_option maxHeartbeats 2000000 in
theorem val6_main_v80 (V0 : Valuation τ sig (Elt F)) : val6 V0 (no_index (Proc.devRef .tc main_v80)) = term_main_v80 V0 := by
  unfold val6
  simp only [w5]
  after_results_simp
  try simp only [val5_main_v59, TRef.toBuf, TRef.ofBuf, cast_cast, cast_eq]
  all_goals rfl
set_option maxHeartbeats 2000000 in
theorem val6_main_v81 (V0 : Valuation τ sig (Elt F)) : val6 V0 (no_index (Proc.devRef .tc main_v81)) = term_main_v81 V0 := by
  unfold val6
  simp only [w5]
  after_results_simp
  try simp only [TRef.toBuf, TRef.ofBuf, cast_cast, cast_eq]
  all_goals rfl

theorem after_part1 (V0 : Valuation τ sig (Elt F)) : after ops_part1 (val3 V0) = val6 V0 := by
  rw [ops_part1_eq_windows]
  simp only [after_append]
  rfl

end Cert.ReferenceIdeal.HandRun

end
-- ==== Proof.RefRead2.lean ====
/- The reference program's results read back, window 2 of the printed @main: the fold of the operations at a
   buffer is that buffer's composed term of the five argument arrays. A buffer read by more than one later
   operation, or by a later stretch, has its term named (`term_<buffer>`); a concatenate is named as a function of
   its operands (`cat_<buffer>`). -/
import proofs.«167267_j69861938037475_1_alg».proof.Proof.RefRead1

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

set_option maxRecDepth 16384

abbrev w6 : List (HloOp τ sig (Elt F)) :=
  [ StableHlo.binary main_v80 main_v81 main_v82 (minsi : (⟨S64x32, .i32⟩ : BufTy).Contents (Elt F) → (⟨S64x32, .i32⟩ : BufTy).Contents (Elt F) → (⟨S64x32, .i32⟩ : BufTy).Contents (Elt F)),
    StableHlo.binary main_v77 main_v82 main_v83 (maxsi : (⟨S64x32, .i32⟩ : BufTy).Contents (Elt F) → (⟨S64x32, .i32⟩ : BufTy).Contents (Elt F) → (⟨S64x32, .i32⟩ : BufTy).Contents (Elt F)),
    StableHlo.binary main_v67 main_v83 main_v84 (addi : (⟨S64x32, .i32⟩ : BufTy).Contents (Elt F) → (⟨S64x32, .i32⟩ : BufTy).Contents (Elt F) → (⟨S64x32, .i32⟩ : BufTy).Contents (Elt F)),
    StableHlo.nullary main_c_36 (constantI S_ 32 2#32),
    StableHlo.TRef.unary (.of main_c_36 : StableHlo.TRef sig ⟨S_, .i32⟩) (.of main_call4_v0 : StableHlo.TRef sig ⟨S_, .i32⟩) id,
    StableHlo.TRef.unary (.of main_call4_v0 : StableHlo.TRef sig ⟨S_, .i32⟩) (.of main_call4_v1 : StableHlo.TRef sig ⟨S64x32, .i32⟩) (broadcastInDim S64x32 ![] bcast_S_S64x32),
    StableHlo.TRef.binary (.of main_v84 : StableHlo.TRef sig ⟨S64x32, .i32⟩) (.of main_call4_v1 : StableHlo.TRef sig ⟨S64x32, .i32⟩) (.of main_call4_v2 : StableHlo.TRef sig ⟨S64x32, .i32⟩) Host.divsi,
    StableHlo.TRef.unary (.of main_v84 : StableHlo.TRef sig ⟨S64x32, .i32⟩) (.of main_call4_v3 : StableHlo.TRef sig ⟨S64x32, .i32⟩) signi,
    StableHlo.TRef.unary (.of main_call4_v0 : StableHlo.TRef sig ⟨S_, .i32⟩) (.of main_call4_v4 : StableHlo.TRef sig ⟨S_, .i32⟩) signi,
    StableHlo.TRef.unary (.of main_call4_v4 : StableHlo.TRef sig ⟨S_, .i32⟩) (.of main_call4_v5 : StableHlo.TRef sig ⟨S64x32, .i32⟩) (broadcastInDim S64x32 ![] bcast_S_S64x32),
    StableHlo.TRef.binary (.of main_call4_v3 : StableHlo.TRef sig ⟨S64x32, .i32⟩) (.of main_call4_v5 : StableHlo.TRef sig ⟨S64x32, .i32⟩) (.of main_call4_v6 : StableHlo.TRef sig ⟨S64x32, .i1⟩) (cmpi .ne),
    StableHlo.TRef.unary (.of main_call4_v0 : StableHlo.TRef sig ⟨S_, .i32⟩) (.of main_call4_v7 : StableHlo.TRef sig ⟨S64x32, .i32⟩) (broadcastInDim S64x32 ![] bcast_S_S64x32),
    StableHlo.TRef.binary (.of main_v84 : StableHlo.TRef sig ⟨S64x32, .i32⟩) (.of main_call4_v7 : StableHlo.TRef sig ⟨S64x32, .i32⟩) (.of main_call4_v8 : StableHlo.TRef sig ⟨S64x32, .i32⟩) Host.remsi,
    StableHlo.TRef.nullary (.of main_call4_c : StableHlo.TRef sig ⟨S_, .i32⟩) (constantI S_ 32 0#32),
    StableHlo.TRef.unary (.of main_call4_c : StableHlo.TRef sig ⟨S_, .i32⟩) (.of main_call4_v9 : StableHlo.TRef sig ⟨S64x32, .i32⟩) (broadcastInDim S64x32 ![] bcast_S_S64x32),
    StableHlo.TRef.binary (.of main_call4_v8 : StableHlo.TRef sig ⟨S64x32, .i32⟩) (.of main_call4_v9 : StableHlo.TRef sig ⟨S64x32, .i32⟩) (.of main_call4_v10 : StableHlo.TRef sig ⟨S64x32, .i1⟩) (cmpi .ne),
    StableHlo.TRef.binary (.of main_call4_v6 : StableHlo.TRef sig ⟨S64x32, .i1⟩) (.of main_call4_v10 : StableHlo.TRef sig ⟨S64x32, .i1⟩) (.of main_call4_v11 : StableHlo.TRef sig ⟨S64x32, .i1⟩) andi,
    StableHlo.TRef.nullary (.of main_call4_c_0 : StableHlo.TRef sig ⟨S_, .i32⟩) (constantI S_ 32 1#32),
    StableHlo.TRef.unary (.of main_call4_c_0 : StableHlo.TRef sig ⟨S_, .i32⟩) (.of main_call4_v12 : StableHlo.TRef sig ⟨S64x32, .i32⟩) (broadcastInDim S64x32 ![] bcast_S_S64x32),
    StableHlo.TRef.binary (.of main_call4_v2 : StableHlo.TRef sig ⟨S64x32, .i32⟩) (.of main_call4_v12 : StableHlo.TRef sig ⟨S64x32, .i32⟩) (.of main_call4_v13 : StableHlo.TRef sig ⟨S64x32, .i32⟩) subi,
    StableHlo.TRef.ternary (.of main_call4_v11 : StableHlo.TRef sig ⟨S64x32, .i1⟩) (.of main_call4_v13 : StableHlo.TRef sig ⟨S64x32, .i32⟩) (.of main_call4_v2 : StableHlo.TRef sig ⟨S64x32, .i32⟩) (.of main_v85 : StableHlo.TRef sig ⟨S64x32, .i32⟩) select,
    StableHlo.binary main_v63 main_v75 main_v86 (addi : (⟨S64x32, .i32⟩ : BufTy).Contents (Elt F) → (⟨S64x32, .i32⟩ : BufTy).Contents (Elt F) → (⟨S64x32, .i32⟩ : BufTy).Contents (Elt F)),
    StableHlo.nullary main_c_37 (constantI S_ 32 2#32),
    StableHlo.TRef.unary (.of main_c_37 : StableHlo.TRef sig ⟨S_, .i32⟩) (.of main_call5_v0 : StableHlo.TRef sig ⟨S_, .i32⟩) id,
    StableHlo.TRef.unary (.of main_call5_v0 : StableHlo.TRef sig ⟨S_, .i32⟩) (.of main_call5_v1 : StableHlo.TRef sig ⟨S64x32, .i32⟩) (broadcastInDim S64x32 ![] bcast_S_S64x32) ]

abbrev w7 : List (HloOp τ sig (Elt F)) :=
  [ StableHlo.TRef.binary (.of main_v86 : StableHlo.TRef sig ⟨S64x32, .i32⟩) (.of main_call5_v1 : StableHlo.TRef sig ⟨S64x32, .i32⟩) (.of main_call5_v2 : StableHlo.TRef sig ⟨S64x32, .i32⟩) Host.divsi,
    StableHlo.TRef.unary (.of main_v86 : StableHlo.TRef sig ⟨S64x32, .i32⟩) (.of main_call5_v3 : StableHlo.TRef sig ⟨S64x32, .i32⟩) signi,
    StableHlo.TRef.unary (.of main_call5_v0 : StableHlo.TRef sig ⟨S_, .i32⟩) (.of main_call5_v4 : StableHlo.TRef sig ⟨S_, .i32⟩) signi,
    StableHlo.TRef.unary (.of main_call5_v4 : StableHlo.TRef sig ⟨S_, .i32⟩) (.of main_call5_v5 : StableHlo.TRef sig ⟨S64x32, .i32⟩) (broadcastInDim S64x32 ![] bcast_S_S64x32),
    StableHlo.TRef.binary (.of main_call5_v3 : StableHlo.TRef sig ⟨S64x32, .i32⟩) (.of main_call5_v5 : StableHlo.TRef sig ⟨S64x32, .i32⟩) (.of main_call5_v6 : StableHlo.TRef sig ⟨S64x32, .i1⟩) (cmpi .ne),
    StableHlo.TRef.unary (.of main_call5_v0 : StableHlo.TRef sig ⟨S_, .i32⟩) (.of main_call5_v7 : StableHlo.TRef sig ⟨S64x32, .i32⟩) (broadcastInDim S64x32 ![] bcast_S_S64x32),
    StableHlo.TRef.binary (.of main_v86 : StableHlo.TRef sig ⟨S64x32, .i32⟩) (.of main_call5_v7 : StableHlo.TRef sig ⟨S64x32, .i32⟩) (.of main_call5_v8 : StableHlo.TRef sig ⟨S64x32, .i32⟩) Host.remsi,
    StableHlo.TRef.nullary (.of main_call5_c : StableHlo.TRef sig ⟨S_, .i32⟩) (constantI S_ 32 0#32),
    StableHlo.TRef.unary (.of main_call5_c : StableHlo.TRef sig ⟨S_, .i32⟩) (.of main_call5_v9 : StableHlo.TRef sig ⟨S64x32, .i32⟩) (broadcastInDim S64x32 ![] bcast_S_S64x32),
    StableHlo.TRef.binary (.of main_call5_v8 : StableHlo.TRef sig ⟨S64x32, .i32⟩) (.of main_call5_v9 : StableHlo.TRef sig ⟨S64x32, .i32⟩) (.of main_call5_v10 : StableHlo.TRef sig ⟨S64x32, .i1⟩) (cmpi .ne),
    StableHlo.TRef.binary (.of main_call5_v6 : StableHlo.TRef sig ⟨S64x32, .i1⟩) (.of main_call5_v10 : StableHlo.TRef sig ⟨S64x32, .i1⟩) (.of main_call5_v11 : StableHlo.TRef sig ⟨S64x32, .i1⟩) andi,
    StableHlo.TRef.nullary (.of main_call5_c_0 : StableHlo.TRef sig ⟨S_, .i32⟩) (constantI S_ 32 1#32),
    StableHlo.TRef.unary (.of main_call5_c_0 : StableHlo.TRef sig ⟨S_, .i32⟩) (.of main_call5_v12 : StableHlo.TRef sig ⟨S64x32, .i32⟩) (broadcastInDim S64x32 ![] bcast_S_S64x32),
    StableHlo.TRef.binary (.of main_call5_v2 : StableHlo.TRef sig ⟨S64x32, .i32⟩) (.of main_call5_v12 : StableHlo.TRef sig ⟨S64x32, .i32⟩) (.of main_call5_v13 : StableHlo.TRef sig ⟨S64x32, .i32⟩) subi,
    StableHlo.TRef.ternary (.of main_call5_v11 : StableHlo.TRef sig ⟨S64x32, .i1⟩) (.of main_call5_v13 : StableHlo.TRef sig ⟨S64x32, .i32⟩) (.of main_call5_v2 : StableHlo.TRef sig ⟨S64x32, .i32⟩) (.of main_v87 : StableHlo.TRef sig ⟨S64x32, .i32⟩) select,
    StableHlo.unary main_v85 main_v88 (broadcastInDim S64x32x1 ![0, 1] bcast_S64x32_S64x32x1_0_1 : (⟨S64x32, .i32⟩ : BufTy).Contents (Elt F) → (⟨S64x32x1, .i32⟩ : BufTy).Contents (Elt F)),
    StableHlo.unary main_v67 main_v89 (broadcastInDim S64x32x1 ![0, 1] bcast_S64x32_S64x32x1_0_1 : (⟨S64x32, .i32⟩ : BufTy).Contents (Elt F) → (⟨S64x32x1, .i32⟩ : BufTy).Contents (Elt F)),
    StableHlo.unary main_v67 main_v90 (broadcastInDim S64x32x1 ![0, 1] bcast_S64x32_S64x32x1_0_1 : (⟨S64x32, .i32⟩ : BufTy).Contents (Elt F) → (⟨S64x32x1, .i32⟩ : BufTy).Contents (Elt F)),
    StableHlo.unary main_v83 main_v91 (broadcastInDim S64x32x1 ![0, 1] bcast_S64x32_S64x32x1_0_1 : (⟨S64x32, .i32⟩ : BufTy).Contents (Elt F) → (⟨S64x32x1, .i32⟩ : BufTy).Contents (Elt F)),
    StableHlo.unary main_v83 main_v92 (broadcastInDim S64x32x1 ![0, 1] bcast_S64x32_S64x32x1_0_1 : (⟨S64x32, .i32⟩ : BufTy).Contents (Elt F) → (⟨S64x32x1, .i32⟩ : BufTy).Contents (Elt F)),
    StableHlo.nary ![main_v88, main_v89, main_v90, main_v91, main_v92] main_v93 (fun u => cat_main_v93 (u 0) (u 1) (u 2) (u 3) (u 4)),
    StableHlo.unary main_v87 main_v94 (broadcastInDim S64x32x1 ![0, 1] bcast_S64x32_S64x32x1_0_1 : (⟨S64x32, .i32⟩ : BufTy).Contents (Elt F) → (⟨S64x32x1, .i32⟩ : BufTy).Contents (Elt F)),
    StableHlo.unary main_v63 main_v95 (broadcastInDim S64x32x1 ![0, 1] bcast_S64x32_S64x32x1_0_1 : (⟨S64x32, .i32⟩ : BufTy).Contents (Elt F) → (⟨S64x32x1, .i32⟩ : BufTy).Contents (Elt F)),
    StableHlo.unary main_v75 main_v96 (broadcastInDim S64x32x1 ![0, 1] bcast_S64x32_S64x32x1_0_1 : (⟨S64x32, .i32⟩ : BufTy).Contents (Elt F) → (⟨S64x32x1, .i32⟩ : BufTy).Contents (Elt F)),
    StableHlo.unary main_v63 main_v97 (broadcastInDim S64x32x1 ![0, 1] bcast_S64x32_S64x32x1_0_1 : (⟨S64x32, .i32⟩ : BufTy).Contents (Elt F) → (⟨S64x32x1, .i32⟩ : BufTy).Contents (Elt F)) ]

abbrev w8 : List (HloOp τ sig (Elt F)) :=
  [ StableHlo.unary main_v75 main_v98 (broadcastInDim S64x32x1 ![0, 1] bcast_S64x32_S64x32x1_0_1 : (⟨S64x32, .i32⟩ : BufTy).Contents (Elt F) → (⟨S64x32x1, .i32⟩ : BufTy).Contents (Elt F)),
    StableHlo.nary ![main_v94, main_v95, main_v96, main_v97, main_v98] main_v99 (fun u => cat_main_v99 (u 0) (u 1) (u 2) (u 3) (u 4)),
    StableHlo.nullary main_c_38 (constantI S_ 32 320#32),
    StableHlo.unary main_c_38 main_v100 (broadcastInDim S64x32x5 ![] bcast_S_S64x32x5 : (⟨S_, .i32⟩ : BufTy).Contents (Elt F) → (⟨S64x32x5, .i32⟩ : BufTy).Contents (Elt F)),
    StableHlo.binary main_v93 main_v100 main_v101 (muli : (⟨S64x32x5, .i32⟩ : BufTy).Contents (Elt F) → (⟨S64x32x5, .i32⟩ : BufTy).Contents (Elt F) → (⟨S64x32x5, .i32⟩ : BufTy).Contents (Elt F)),
    StableHlo.binary main_v101 main_v99 main_v102 (addi : (⟨S64x32x5, .i32⟩ : BufTy).Contents (Elt F) → (⟨S64x32x5, .i32⟩ : BufTy).Contents (Elt F) → (⟨S64x32x5, .i32⟩ : BufTy).Contents (Elt F)),
    StableHlo.reshape main_v102 main_v103 rfl shapeCasts_S64x32x5_S64x160,
    StableHlo.reshape main_arg2 main_v104 rfl shapeCasts_S64x4x320x320_S64x4x102400,
    StableHlo.unary main_v103 main_v105 (broadcastInDim S64x1x160 ![0, 2] bcast_S64x160_S64x1x160_0_2 : (⟨S64x160, .i32⟩ : BufTy).Contents (Elt F) → (⟨S64x1x160, .i32⟩ : BufTy).Contents (Elt F)),
    StableHlo.unary main_v105 main_v106 (broadcastInDim S64x4x160 ![0, 1, 2] bcast_S64x1x160_S64x4x160_0_1_2 : (⟨S64x1x160, .i32⟩ : BufTy).Contents (Elt F) → (⟨S64x4x160, .i32⟩ : BufTy).Contents (Elt F)),
    StableHlo.TRef.nullary (.of main_call6_c : StableHlo.TRef sig ⟨S_, .i32⟩) (constantI S_ 32 0#32),
    StableHlo.TRef.unary (.of main_call6_c : StableHlo.TRef sig ⟨S_, .i32⟩) (.of main_call6_v0 : StableHlo.TRef sig ⟨S64x4x160, .i32⟩) (broadcastInDim S64x4x160 ![] bcast_S_S64x4x160),
    StableHlo.TRef.binary (.of main_v106 : StableHlo.TRef sig ⟨S64x4x160, .i32⟩) (.of main_call6_v0 : StableHlo.TRef sig ⟨S64x4x160, .i32⟩) (.of main_call6_v1 : StableHlo.TRef sig ⟨S64x4x160, .i1⟩) (cmpi .slt),
    StableHlo.TRef.nullary (.of main_call6_c_0 : StableHlo.TRef sig ⟨S_, .i32⟩) (constantI S_ 32 102400#32),
    StableHlo.TRef.unary (.of main_call6_c_0 : StableHlo.TRef sig ⟨S_, .i32⟩) (.of main_call6_v2 : StableHlo.TRef sig ⟨S64x4x160, .i32⟩) (broadcastInDim S64x4x160 ![] bcast_S_S64x4x160),
    StableHlo.TRef.binary (.of main_v106 : StableHlo.TRef sig ⟨S64x4x160, .i32⟩) (.of main_call6_v2 : StableHlo.TRef sig ⟨S64x4x160, .i32⟩) (.of main_call6_v3 : StableHlo.TRef sig ⟨S64x4x160, .i32⟩) addi,
    StableHlo.TRef.ternary (.of main_call6_v1 : StableHlo.TRef sig ⟨S64x4x160, .i1⟩) (.of main_call6_v3 : StableHlo.TRef sig ⟨S64x4x160, .i32⟩) (.of main_v106 : StableHlo.TRef sig ⟨S64x4x160, .i32⟩) (.of main_call6_v4 : StableHlo.TRef sig ⟨S64x4x160, .i32⟩) select,
    StableHlo.TRef.reshape (.of main_call6_v4 : StableHlo.TRef sig ⟨S64x4x160, .i32⟩) (.of main_call6_v5 : StableHlo.TRef sig ⟨S64x4x160x1, .i32⟩) rfl shapeCasts_S64x4x160_S64x4x160x1,
    StableHlo.TRef.nullary (.of main_call6_c_1 : StableHlo.TRef sig ⟨S1, .i32⟩) (constantI S1 32 102399#32),
    StableHlo.TRef.nullary (.of main_call6_c_2 : StableHlo.TRef sig ⟨S_, .i32⟩) (constantI S_ 32 0#32),
    StableHlo.TRef.unary (.of main_call6_c_2 : StableHlo.TRef sig ⟨S_, .i32⟩) (.of main_call6_v6 : StableHlo.TRef sig ⟨S64x4x160x1, .i32⟩) (broadcastInDim S64x4x160x1 ![] bcast_S_S64x4x160x1),
    StableHlo.TRef.binary (.of main_call6_v5 : StableHlo.TRef sig ⟨S64x4x160x1, .i32⟩) (.of main_call6_v6 : StableHlo.TRef sig ⟨S64x4x160x1, .i32⟩) (.of main_call6_v7 : StableHlo.TRef sig ⟨S64x4x160x1, .i1⟩) (cmpi .sge),
    StableHlo.TRef.unary (.of main_call6_c_1 : StableHlo.TRef sig ⟨S1, .i32⟩) (.of main_call6_v8 : StableHlo.TRef sig ⟨S1x1x1x1, .i32⟩) (broadcastInDim S1x1x1x1 ![3] bcast_S1_S1x1x1x1_3),
    StableHlo.TRef.unary (.of main_call6_v8 : StableHlo.TRef sig ⟨S1x1x1x1, .i32⟩) (.of main_call6_v9 : StableHlo.TRef sig ⟨S64x4x160x1, .i32⟩) (broadcastInDim S64x4x160x1 ![0, 1, 2, 3] bcast_S1x1x1x1_S64x4x160x1_0_1_2_3),
    StableHlo.TRef.binary (.of main_call6_v5 : StableHlo.TRef sig ⟨S64x4x160x1, .i32⟩) (.of main_call6_v9 : StableHlo.TRef sig ⟨S64x4x160x1, .i32⟩) (.of main_call6_v10 : StableHlo.TRef sig ⟨S64x4x160x1, .i1⟩) (cmpi .sle) ]

abbrev w9 : List (HloOp τ sig (Elt F)) :=
  [ StableHlo.TRef.binary (.of main_call6_v7 : StableHlo.TRef sig ⟨S64x4x160x1, .i1⟩) (.of main_call6_v10 : StableHlo.TRef sig ⟨S64x4x160x1, .i1⟩) (.of main_call6_v11 : StableHlo.TRef sig ⟨S64x4x160x1, .i1⟩) andi,
    StableHlo.TRef.nullary (.of main_call6_c_3 : StableHlo.TRef sig ⟨S_, .i1⟩) (constantI S_ 1 1#1),
    StableHlo.TRef.binary (.of main_call6_v11 : StableHlo.TRef sig ⟨S64x4x160x1, .i1⟩) (.of main_call6_c_3 : StableHlo.TRef sig ⟨S_, .i1⟩) (.of main_call6_v12 : StableHlo.TRef sig ⟨S64x4x160, .i1⟩) (fun x v => Host.reduce IntOp.andi x v reducesTo_S64x4x160x1_S64x4x160_d3 h_S_),
    StableHlo.TRef.binary (.of main_v104 : StableHlo.TRef sig ⟨S64x4x102400, .f32⟩) (.of main_call6_v5 : StableHlo.TRef sig ⟨S64x4x160x1, .i32⟩) (.of main_call6_v13 : StableHlo.TRef sig ⟨S64x4x160, .f32⟩) (fun x i => Host.gather gather_S64x4x102400_S64x4x160x1_S64x4x160_n_2_01_01_2_3_111 x i),
    StableHlo.TRef.nullary (.of main_call6_cst : StableHlo.TRef sig ⟨S_, .f32⟩) (constant S_ .f32 0x7FC00000#32),
    StableHlo.TRef.unary (.of main_call6_cst : StableHlo.TRef sig ⟨S_, .f32⟩) (.of main_call6_v14 : StableHlo.TRef sig ⟨S64x4x160, .f32⟩) (broadcastInDim S64x4x160 ![] bcast_S_S64x4x160),
    StableHlo.TRef.ternary (.of main_call6_v12 : StableHlo.TRef sig ⟨S64x4x160, .i1⟩) (.of main_call6_v13 : StableHlo.TRef sig ⟨S64x4x160, .f32⟩) (.of main_call6_v14 : StableHlo.TRef sig ⟨S64x4x160, .f32⟩) (.of main_v107 : StableHlo.TRef sig ⟨S64x4x160, .f32⟩) select,
    StableHlo.unary main_v107 main_v108 ((transpose S64x160x4 [0, 2, 1] · transposes_S64x4x160_S64x160x4_0_2_1) : (⟨S64x4x160, .f32⟩ : BufTy).Contents (Elt F) → (⟨S64x160x4, .f32⟩ : BufTy).Contents (Elt F)),
    StableHlo.reshape main_arg1 main_v109 rfl shapeCasts_S64x1x320x320_S64x102400,
    StableHlo.TRef.nullary (.of main_call7_c : StableHlo.TRef sig ⟨S_, .i32⟩) (constantI S_ 32 0#32),
    StableHlo.TRef.unary (.of main_call7_c : StableHlo.TRef sig ⟨S_, .i32⟩) (.of main_call7_v0 : StableHlo.TRef sig ⟨S64x160, .i32⟩) (broadcastInDim S64x160 ![] bcast_S_S64x160),
    StableHlo.TRef.binary (.of main_v103 : StableHlo.TRef sig ⟨S64x160, .i32⟩) (.of main_call7_v0 : StableHlo.TRef sig ⟨S64x160, .i32⟩) (.of main_call7_v1 : StableHlo.TRef sig ⟨S64x160, .i1⟩) (cmpi .slt),
    StableHlo.TRef.nullary (.of main_call7_c_0 : StableHlo.TRef sig ⟨S_, .i32⟩) (constantI S_ 32 102400#32),
    StableHlo.TRef.unary (.of main_call7_c_0 : StableHlo.TRef sig ⟨S_, .i32⟩) (.of main_call7_v2 : StableHlo.TRef sig ⟨S64x160, .i32⟩) (broadcastInDim S64x160 ![] bcast_S_S64x160),
    StableHlo.TRef.binary (.of main_v103 : StableHlo.TRef sig ⟨S64x160, .i32⟩) (.of main_call7_v2 : StableHlo.TRef sig ⟨S64x160, .i32⟩) (.of main_call7_v3 : StableHlo.TRef sig ⟨S64x160, .i32⟩) addi,
    StableHlo.TRef.ternary (.of main_call7_v1 : StableHlo.TRef sig ⟨S64x160, .i1⟩) (.of main_call7_v3 : StableHlo.TRef sig ⟨S64x160, .i32⟩) (.of main_v103 : StableHlo.TRef sig ⟨S64x160, .i32⟩) (.of main_call7_v4 : StableHlo.TRef sig ⟨S64x160, .i32⟩) select,
    StableHlo.TRef.reshape (.of main_call7_v4 : StableHlo.TRef sig ⟨S64x160, .i32⟩) (.of main_call7_v5 : StableHlo.TRef sig ⟨S64x160x1, .i32⟩) rfl shapeCasts_S64x160_S64x160x1,
    StableHlo.TRef.nullary (.of main_call7_c_1 : StableHlo.TRef sig ⟨S1, .i32⟩) (constantI S1 32 102399#32),
    StableHlo.TRef.nullary (.of main_call7_c_2 : StableHlo.TRef sig ⟨S_, .i32⟩) (constantI S_ 32 0#32),
    StableHlo.TRef.unary (.of main_call7_c_2 : StableHlo.TRef sig ⟨S_, .i32⟩) (.of main_call7_v6 : StableHlo.TRef sig ⟨S64x160x1, .i32⟩) (broadcastInDim S64x160x1 ![] bcast_S_S64x160x1),
    StableHlo.TRef.binary (.of main_call7_v5 : StableHlo.TRef sig ⟨S64x160x1, .i32⟩) (.of main_call7_v6 : StableHlo.TRef sig ⟨S64x160x1, .i32⟩) (.of main_call7_v7 : StableHlo.TRef sig ⟨S64x160x1, .i1⟩) (cmpi .sge),
    StableHlo.TRef.unary (.of main_call7_c_1 : StableHlo.TRef sig ⟨S1, .i32⟩) (.of main_call7_v8 : StableHlo.TRef sig ⟨S1x1x1, .i32⟩) (broadcastInDim S1x1x1 ![2] bcast_S1_S1x1x1_2),
    StableHlo.TRef.unary (.of main_call7_v8 : StableHlo.TRef sig ⟨S1x1x1, .i32⟩) (.of main_call7_v9 : StableHlo.TRef sig ⟨S64x160x1, .i32⟩) (broadcastInDim S64x160x1 ![0, 1, 2] bcast_S1x1x1_S64x160x1_0_1_2),
    StableHlo.TRef.binary (.of main_call7_v5 : StableHlo.TRef sig ⟨S64x160x1, .i32⟩) (.of main_call7_v9 : StableHlo.TRef sig ⟨S64x160x1, .i32⟩) (.of main_call7_v10 : StableHlo.TRef sig ⟨S64x160x1, .i1⟩) (cmpi .sle),
    StableHlo.TRef.binary (.of main_call7_v7 : StableHlo.TRef sig ⟨S64x160x1, .i1⟩) (.of main_call7_v10 : StableHlo.TRef sig ⟨S64x160x1, .i1⟩) (.of main_call7_v11 : StableHlo.TRef sig ⟨S64x160x1, .i1⟩) andi ]

abbrev w10 : List (HloOp τ sig (Elt F)) :=
  [ StableHlo.TRef.nullary (.of main_call7_c_3 : StableHlo.TRef sig ⟨S_, .i1⟩) (constantI S_ 1 1#1),
    StableHlo.TRef.binary (.of main_call7_v11 : StableHlo.TRef sig ⟨S64x160x1, .i1⟩) (.of main_call7_c_3 : StableHlo.TRef sig ⟨S_, .i1⟩) (.of main_call7_v12 : StableHlo.TRef sig ⟨S64x160, .i1⟩) (fun x v => Host.reduce IntOp.andi x v reducesTo_S64x160x1_S64x160_d2 h_S_),
    StableHlo.TRef.binary (.of main_v109 : StableHlo.TRef sig ⟨S64x102400, .f32⟩) (.of main_call7_v5 : StableHlo.TRef sig ⟨S64x160x1, .i32⟩) (.of main_call7_v13 : StableHlo.TRef sig ⟨S64x160, .f32⟩) (fun x i => Host.gather gather_S64x102400_S64x160x1_S64x160_n_1_0_0_1_2_11 x i),
    StableHlo.TRef.nullary (.of main_call7_cst : StableHlo.TRef sig ⟨S_, .f32⟩) (constant S_ .f32 0x7FC00000#32),
    StableHlo.TRef.unary (.of main_call7_cst : StableHlo.TRef sig ⟨S_, .f32⟩) (.of main_call7_v14 : StableHlo.TRef sig ⟨S64x160, .f32⟩) (broadcastInDim S64x160 ![] bcast_S_S64x160),
    StableHlo.TRef.ternary (.of main_call7_v12 : StableHlo.TRef sig ⟨S64x160, .i1⟩) (.of main_call7_v13 : StableHlo.TRef sig ⟨S64x160, .f32⟩) (.of main_call7_v14 : StableHlo.TRef sig ⟨S64x160, .f32⟩) (.of main_v110 : StableHlo.TRef sig ⟨S64x160, .f32⟩) select,
    StableHlo.unary main_v36 main_v111 (broadcastInDim S64x32x1 ![0, 1] bcast_S64x32_S64x32x1_0_1 : (⟨S64x32, .f32⟩ : BufTy).Contents (Elt F) → (⟨S64x32x1, .f32⟩ : BufTy).Contents (Elt F)),
    StableHlo.unary main_v41 main_v112 (broadcastInDim S64x32x1 ![0, 1] bcast_S64x32_S64x32x1_0_1 : (⟨S64x32, .f32⟩ : BufTy).Contents (Elt F) → (⟨S64x32x1, .f32⟩ : BufTy).Contents (Elt F)),
    StableHlo.unary main_v50 main_v113 (broadcastInDim S64x32x1 ![0, 1] bcast_S64x32_S64x32x1_0_1 : (⟨S64x32, .f32⟩ : BufTy).Contents (Elt F) → (⟨S64x32x1, .f32⟩ : BufTy).Contents (Elt F)),
    StableHlo.unary main_v59 main_v114 (broadcastInDim S64x32x1 ![0, 1] bcast_S64x32_S64x32x1_0_1 : (⟨S64x32, .f32⟩ : BufTy).Contents (Elt F) → (⟨S64x32x1, .f32⟩ : BufTy).Contents (Elt F)),
    StableHlo.nary ![main_v111, main_v112, main_v113, main_v114] main_v115 (fun u => cat_main_v115 (u 0) (u 1) (u 2) (u 3)),
    StableHlo.unary main_v115 main_v116 (broadcastInDim S64x32x1x4 ![0, 1, 3] bcast_S64x32x4_S64x32x1x4_0_1_3 : (⟨S64x32x4, .f32⟩ : BufTy).Contents (Elt F) → (⟨S64x32x1x4, .f32⟩ : BufTy).Contents (Elt F)),
    StableHlo.unary main_v116 main_v117 (broadcastInDim S64x32x5x4 ![0, 1, 2, 3] bcast_S64x32x1x4_S64x32x5x4_0_1_2_3 : (⟨S64x32x1x4, .f32⟩ : BufTy).Contents (Elt F) → (⟨S64x32x5x4, .f32⟩ : BufTy).Contents (Elt F)),
    StableHlo.reshape main_v117 main_v118 rfl shapeCasts_S64x32x5x4_S64x160x4,
    StableHlo.unary main_v31 main_v119 (broadcastInDim S64x32x1 ![0, 1] bcast_S64x32_S64x32x1_0_1 : (⟨S64x32, .f32⟩ : BufTy).Contents (Elt F) → (⟨S64x32x1, .f32⟩ : BufTy).Contents (Elt F)),
    StableHlo.unary main_v119 main_v120 (broadcastInDim S64x32x5 ![0, 1, 2] bcast_S64x32x1_S64x32x5_0_1_2 : (⟨S64x32x1, .f32⟩ : BufTy).Contents (Elt F) → (⟨S64x32x5, .f32⟩ : BufTy).Contents (Elt F)),
    StableHlo.reshape main_v120 main_v121 rfl shapeCasts_S64x32x5_S64x160,
    StableHlo.unary main_v108 main_v122 ((extractStridedSlice S64x160x1 ![0, 0, 0] · slices_S64x160x4_S64x160x1_0_0_0) : (⟨S64x160x4, .f32⟩ : BufTy).Contents (Elt F) → (⟨S64x160x1, .f32⟩ : BufTy).Contents (Elt F)),
    StableHlo.reshape main_v122 main_v123 rfl shapeCasts_S64x160x1_S64x160,
    StableHlo.nullary main_cst_39 (constant S_ .f32 0x00000000#32),
    StableHlo.nullary main_cst_40 (constant S_ .f32 0x3F7D70A4#32),
    StableHlo.TRef.unary (.of main_cst_39 : StableHlo.TRef sig ⟨S_, .f32⟩) (.of main_call8_v0 : StableHlo.TRef sig ⟨S_, .f32⟩) id,
    StableHlo.TRef.unary (.of main_call8_v0 : StableHlo.TRef sig ⟨S_, .f32⟩) (.of main_call8_v1 : StableHlo.TRef sig ⟨S64x160, .f32⟩) (broadcastInDim S64x160 ![] bcast_S_S64x160),
    StableHlo.TRef.binary (.of main_call8_v1 : StableHlo.TRef sig ⟨S64x160, .f32⟩) (.of main_v123 : StableHlo.TRef sig ⟨S64x160, .f32⟩) (.of main_call8_v2 : StableHlo.TRef sig ⟨S64x160, .f32⟩) maximumf,
    StableHlo.TRef.unary (.of main_cst_40 : StableHlo.TRef sig ⟨S_, .f32⟩) (.of main_call8_v3 : StableHlo.TRef sig ⟨S_, .f32⟩) id ]

abbrev w11 : List (HloOp τ sig (Elt F)) :=
  [ StableHlo.TRef.unary (.of main_call8_v3 : StableHlo.TRef sig ⟨S_, .f32⟩) (.of main_call8_v4 : StableHlo.TRef sig ⟨S64x160, .f32⟩) (broadcastInDim S64x160 ![] bcast_S_S64x160),
    StableHlo.TRef.binary (.of main_call8_v4 : StableHlo.TRef sig ⟨S64x160, .f32⟩) (.of main_call8_v2 : StableHlo.TRef sig ⟨S64x160, .f32⟩) (.of main_v124 : StableHlo.TRef sig ⟨S64x160, .f32⟩) minimumf,
    StableHlo.unary main_v108 main_v125 ((extractStridedSlice S64x160x1 ![0, 0, 1] · slices_S64x160x4_S64x160x1_0_0_1) : (⟨S64x160x4, .f32⟩ : BufTy).Contents (Elt F) → (⟨S64x160x1, .f32⟩ : BufTy).Contents (Elt F)),
    StableHlo.reshape main_v125 main_v126 rfl shapeCasts_S64x160x1_S64x160,
    StableHlo.nullary main_cst_41 (constant S_ .f32 0x00000000#32),
    StableHlo.nullary main_cst_42 (constant S_ .f32 0x3F7D70A4#32),
    StableHlo.TRef.unary (.of main_cst_41 : StableHlo.TRef sig ⟨S_, .f32⟩) (.of main_call9_v0 : StableHlo.TRef sig ⟨S_, .f32⟩) id,
    StableHlo.TRef.unary (.of main_call9_v0 : StableHlo.TRef sig ⟨S_, .f32⟩) (.of main_call9_v1 : StableHlo.TRef sig ⟨S64x160, .f32⟩) (broadcastInDim S64x160 ![] bcast_S_S64x160),
    StableHlo.TRef.binary (.of main_call9_v1 : StableHlo.TRef sig ⟨S64x160, .f32⟩) (.of main_v126 : StableHlo.TRef sig ⟨S64x160, .f32⟩) (.of main_call9_v2 : StableHlo.TRef sig ⟨S64x160, .f32⟩) maximumf,
    StableHlo.TRef.unary (.of main_cst_42 : StableHlo.TRef sig ⟨S_, .f32⟩) (.of main_call9_v3 : StableHlo.TRef sig ⟨S_, .f32⟩) id,
    StableHlo.TRef.unary (.of main_call9_v3 : StableHlo.TRef sig ⟨S_, .f32⟩) (.of main_call9_v4 : StableHlo.TRef sig ⟨S64x160, .f32⟩) (broadcastInDim S64x160 ![] bcast_S_S64x160),
    StableHlo.TRef.binary (.of main_call9_v4 : StableHlo.TRef sig ⟨S64x160, .f32⟩) (.of main_call9_v2 : StableHlo.TRef sig ⟨S64x160, .f32⟩) (.of main_v127 : StableHlo.TRef sig ⟨S64x160, .f32⟩) minimumf,
    StableHlo.unary main_v108 main_v128 ((extractStridedSlice S64x160x1 ![0, 0, 2] · slices_S64x160x4_S64x160x1_0_0_2) : (⟨S64x160x4, .f32⟩ : BufTy).Contents (Elt F) → (⟨S64x160x1, .f32⟩ : BufTy).Contents (Elt F)),
    StableHlo.reshape main_v128 main_v129 rfl shapeCasts_S64x160x1_S64x160,
    StableHlo.nullary main_cst_43 (constant S_ .f32 0x3C23D70A#32),
    StableHlo.nullary main_cst_44 (constant S_ .f32 0x3F800000#32),
    StableHlo.TRef.unary (.of main_cst_43 : StableHlo.TRef sig ⟨S_, .f32⟩) (.of main_call10_v0 : StableHlo.TRef sig ⟨S_, .f32⟩) id,
    StableHlo.TRef.unary (.of main_call10_v0 : StableHlo.TRef sig ⟨S_, .f32⟩) (.of main_call10_v1 : StableHlo.TRef sig ⟨S64x160, .f32⟩) (broadcastInDim S64x160 ![] bcast_S_S64x160),
    StableHlo.TRef.binary (.of main_call10_v1 : StableHlo.TRef sig ⟨S64x160, .f32⟩) (.of main_v129 : StableHlo.TRef sig ⟨S64x160, .f32⟩) (.of main_call10_v2 : StableHlo.TRef sig ⟨S64x160, .f32⟩) maximumf,
    StableHlo.TRef.unary (.of main_cst_44 : StableHlo.TRef sig ⟨S_, .f32⟩) (.of main_call10_v3 : StableHlo.TRef sig ⟨S_, .f32⟩) id,
    StableHlo.TRef.unary (.of main_call10_v3 : StableHlo.TRef sig ⟨S_, .f32⟩) (.of main_call10_v4 : StableHlo.TRef sig ⟨S64x160, .f32⟩) (broadcastInDim S64x160 ![] bcast_S_S64x160),
    StableHlo.TRef.binary (.of main_call10_v4 : StableHlo.TRef sig ⟨S64x160, .f32⟩) (.of main_call10_v2 : StableHlo.TRef sig ⟨S64x160, .f32⟩) (.of main_v130 : StableHlo.TRef sig ⟨S64x160, .f32⟩) minimumf,
    StableHlo.unary main_v108 main_v131 ((extractStridedSlice S64x160x1 ![0, 0, 3] · slices_S64x160x4_S64x160x1_0_0_3) : (⟨S64x160x4, .f32⟩ : BufTy).Contents (Elt F) → (⟨S64x160x1, .f32⟩ : BufTy).Contents (Elt F)),
    StableHlo.reshape main_v131 main_v132 rfl shapeCasts_S64x160x1_S64x160 ]

theorem ops_part2_eq_windows : (ops_part2 : List (HloOp τ sig (Elt F))) = w6 ++ (w7 ++ (w8 ++ (w9 ++ (w10 ++ (w11))))) := rfl

/-- The buffer contents after the first 7 stretches. -/
def val7 (V0 : Valuation τ sig (Elt F)) : Valuation τ sig (Elt F) := after w6 (val6 V0)
abbrev w6_W : List (Ref sig .tc) := [main_v82, main_v83, main_v84, main_c_36, main_call4_v0, main_call4_v1, main_call4_v2, main_call4_v3, main_call4_v4, main_call4_v5, main_call4_v6, main_call4_v7, main_call4_v8, main_call4_c, main_call4_v9, main_call4_v10, main_call4_v11, main_call4_c_0, main_call4_v12, main_call4_v13, main_v85, main_v86, main_c_37, main_call5_v0, main_call5_v1]
theorem w6_writes : (w6 : List (HloOp τ sig (Elt F))).Forall fun op => op.writes ⊆ (w6_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
theorem val7_keep (V0 : Valuation τ sig (Elt F)) (r : Ref sig .tc) (h : r ∉ w6_W) :
    val7 V0 (Proc.devRef .tc r) = val6 V0 (Proc.devRef .tc r) :=
  after_of_writes_sub w6 _ w6_writes h
theorem val7_main_arg0 (V0 : Valuation τ sig (Elt F)) : val7 V0 (no_index (Proc.devRef .tc main_arg0)) = V0 (Proc.devRef .tc main_arg0) :=
  (val7_keep V0 main_arg0 (by decide)).trans (val6_main_arg0 V0)
theorem val7_main_arg1 (V0 : Valuation τ sig (Elt F)) : val7 V0 (no_index (Proc.devRef .tc main_arg1)) = V0 (Proc.devRef .tc main_arg1) :=
  (val7_keep V0 main_arg1 (by decide)).trans (val6_main_arg1 V0)
theorem val7_main_arg2 (V0 : Valuation τ sig (Elt F)) : val7 V0 (no_index (Proc.devRef .tc main_arg2)) = V0 (Proc.devRef .tc main_arg2) :=
  (val7_keep V0 main_arg2 (by decide)).trans (val6_main_arg2 V0)
theorem val7_main_arg3 (V0 : Valuation τ sig (Elt F)) : val7 V0 (no_index (Proc.devRef .tc main_arg3)) = V0 (Proc.devRef .tc main_arg3) :=
  (val7_keep V0 main_arg3 (by decide)).trans (val6_main_arg3 V0)
theorem val7_main_arg4 (V0 : Valuation τ sig (Elt F)) : val7 V0 (no_index (Proc.devRef .tc main_arg4)) = V0 (Proc.devRef .tc main_arg4) :=
  (val7_keep V0 main_arg4 (by decide)).trans (val6_main_arg4 V0)
theorem val7_main_v29 (V0 : Valuation τ sig (Elt F)) : val7 V0 (no_index (Proc.devRef .tc main_v29)) = term_main_v29 V0 :=
  (val7_keep V0 main_v29 (by decide)).trans (val6_main_v29 V0)
theorem val7_main_v31 (V0 : Valuation τ sig (Elt F)) : val7 V0 (no_index (Proc.devRef .tc main_v31)) = term_main_v31 V0 :=
  (val7_keep V0 main_v31 (by decide)).trans (val6_main_v31 V0)
theorem val7_main_v36 (V0 : Valuation τ sig (Elt F)) : val7 V0 (no_index (Proc.devRef .tc main_v36)) = term_main_v36 V0 :=
  (val7_keep V0 main_v36 (by decide)).trans (val6_main_v36 V0)
theorem val7_main_v41 (V0 : Valuation τ sig (Elt F)) : val7 V0 (no_index (Proc.devRef .tc main_v41)) = term_main_v41 V0 :=
  (val7_keep V0 main_v41 (by decide)).trans (val6_main_v41 V0)
theorem val7_main_v50 (V0 : Valuation τ sig (Elt F)) : val7 V0 (no_index (Proc.devRef .tc main_v50)) = term_main_v50 V0 :=
  (val7_keep V0 main_v50 (by decide)).trans (val6_main_v50 V0)
theorem val7_main_v59 (V0 : Valuation τ sig (Elt F)) : val7 V0 (no_index (Proc.devRef .tc main_v59)) = term_main_v59 V0 :=
  (val7_keep V0 main_v59 (by decide)).trans (val6_main_v59 V0)
theorem val7_main_v63 (V0 : Valuation τ sig (Elt F)) : val7 V0 (no_index (Proc.devRef .tc main_v63)) = term_main_v63 V0 :=
  (val7_keep V0 main_v63 (by decide)).trans (val6_main_v63 V0)
theorem val7_main_v67 (V0 : Valuation τ sig (Elt F)) : val7 V0 (no_index (Proc.devRef .tc main_v67)) = term_main_v67 V0 :=
  (val7_keep V0 main_v67 (by decide)).trans (val6_main_v67 V0)
theorem val7_main_v75 (V0 : Valuation τ sig (Elt F)) : val7 V0 (no_index (Proc.devRef .tc main_v75)) = term_main_v75 V0 :=
  (val7_keep V0 main_v75 (by decide)).trans (val6_main_v75 V0)
set_option maxHeartbeats 2000000 in
theorem val7_main_v83 (V0 : Valuation τ sig (Elt F)) : val7 V0 (no_index (Proc.devRef .tc main_v83)) = term_main_v83 V0 := by
  unfold val7
  simp only [w6]
  after_results_simp
  try simp only [val6_main_v81, val6_main_v80, val6_main_v77, TRef.toBuf, TRef.ofBuf, cast_cast, cast_eq]
  all_goals rfl
set_option maxHeartbeats 2000000 in
theorem val7_main_v85 (V0 : Valuation τ sig (Elt F)) : val7 V0 (no_index (Proc.devRef .tc main_v85)) = term_main_v85 V0 := by
  unfold val7
  simp only [w6]
  after_results_simp
  try simp only [val6_main_v81, val6_main_v80, val6_main_v77, val6_main_v67, TRef.toBuf, TRef.ofBuf, cast_cast, cast_eq]
  all_goals rfl
set_option maxHeartbeats 2000000 in
theorem val7_main_v86 (V0 : Valuation τ sig (Elt F)) : val7 V0 (no_index (Proc.devRef .tc main_v86)) = term_main_v86 V0 := by
  unfold val7
  simp only [w6]
  after_results_simp
  try simp only [val6_main_v75, val6_main_v63, TRef.toBuf, TRef.ofBuf, cast_cast, cast_eq]
  all_goals rfl
set_option maxHeartbeats 2000000 in
theorem val7_main_call5_v0 (V0 : Valuation τ sig (Elt F)) : val7 V0 (no_index (Proc.devRef .tc main_call5_v0)) = term_main_call5_v0 V0 := by
  unfold val7
  simp only [w6]
  after_results_simp
  try simp only [TRef.toBuf, TRef.ofBuf, cast_cast, cast_eq]
  all_goals rfl
set_option maxHeartbeats 2000000 in
theorem val7_main_call5_v1 (V0 : Valuation τ sig (Elt F)) : val7 V0 (no_index (Proc.devRef .tc main_call5_v1)) = term_main_call5_v1 V0 := by
  unfold val7
  simp only [w6]
  after_results_simp
  try simp only [TRef.toBuf, TRef.ofBuf, cast_cast, cast_eq]
  all_goals rfl

/-- The buffer contents after the first 8 stretches. -/
def val8 (V0 : Valuation τ sig (Elt F)) : Valuation τ sig (Elt F) := after w7 (val7 V0)
abbrev w7_W : List (Ref sig .tc) := [main_call5_v2, main_call5_v3, main_call5_v4, main_call5_v5, main_call5_v6, main_call5_v7, main_call5_v8, main_call5_c, main_call5_v9, main_call5_v10, main_call5_v11, main_call5_c_0, main_call5_v12, main_call5_v13, main_v87, main_v88, main_v89, main_v90, main_v91, main_v92, main_v93, main_v94, main_v95, main_v96, main_v97]
theorem w7_writes : (w7 : List (HloOp τ sig (Elt F))).Forall fun op => op.writes ⊆ (w7_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
theorem val8_keep (V0 : Valuation τ sig (Elt F)) (r : Ref sig .tc) (h : r ∉ w7_W) :
    val8 V0 (Proc.devRef .tc r) = val7 V0 (Proc.devRef .tc r) :=
  after_of_writes_sub w7 _ w7_writes h
theorem val8_main_arg0 (V0 : Valuation τ sig (Elt F)) : val8 V0 (no_index (Proc.devRef .tc main_arg0)) = V0 (Proc.devRef .tc main_arg0) :=
  (val8_keep V0 main_arg0 (by decide)).trans (val7_main_arg0 V0)
theorem val8_main_arg1 (V0 : Valuation τ sig (Elt F)) : val8 V0 (no_index (Proc.devRef .tc main_arg1)) = V0 (Proc.devRef .tc main_arg1) :=
  (val8_keep V0 main_arg1 (by decide)).trans (val7_main_arg1 V0)
theorem val8_main_arg2 (V0 : Valuation τ sig (Elt F)) : val8 V0 (no_index (Proc.devRef .tc main_arg2)) = V0 (Proc.devRef .tc main_arg2) :=
  (val8_keep V0 main_arg2 (by decide)).trans (val7_main_arg2 V0)
theorem val8_main_arg3 (V0 : Valuation τ sig (Elt F)) : val8 V0 (no_index (Proc.devRef .tc main_arg3)) = V0 (Proc.devRef .tc main_arg3) :=
  (val8_keep V0 main_arg3 (by decide)).trans (val7_main_arg3 V0)
theorem val8_main_arg4 (V0 : Valuation τ sig (Elt F)) : val8 V0 (no_index (Proc.devRef .tc main_arg4)) = V0 (Proc.devRef .tc main_arg4) :=
  (val8_keep V0 main_arg4 (by decide)).trans (val7_main_arg4 V0)
theorem val8_main_v29 (V0 : Valuation τ sig (Elt F)) : val8 V0 (no_index (Proc.devRef .tc main_v29)) = term_main_v29 V0 :=
  (val8_keep V0 main_v29 (by decide)).trans (val7_main_v29 V0)
theorem val8_main_v31 (V0 : Valuation τ sig (Elt F)) : val8 V0 (no_index (Proc.devRef .tc main_v31)) = term_main_v31 V0 :=
  (val8_keep V0 main_v31 (by decide)).trans (val7_main_v31 V0)
theorem val8_main_v36 (V0 : Valuation τ sig (Elt F)) : val8 V0 (no_index (Proc.devRef .tc main_v36)) = term_main_v36 V0 :=
  (val8_keep V0 main_v36 (by decide)).trans (val7_main_v36 V0)
theorem val8_main_v41 (V0 : Valuation τ sig (Elt F)) : val8 V0 (no_index (Proc.devRef .tc main_v41)) = term_main_v41 V0 :=
  (val8_keep V0 main_v41 (by decide)).trans (val7_main_v41 V0)
theorem val8_main_v50 (V0 : Valuation τ sig (Elt F)) : val8 V0 (no_index (Proc.devRef .tc main_v50)) = term_main_v50 V0 :=
  (val8_keep V0 main_v50 (by decide)).trans (val7_main_v50 V0)
theorem val8_main_v59 (V0 : Valuation τ sig (Elt F)) : val8 V0 (no_index (Proc.devRef .tc main_v59)) = term_main_v59 V0 :=
  (val8_keep V0 main_v59 (by decide)).trans (val7_main_v59 V0)
theorem val8_main_v75 (V0 : Valuation τ sig (Elt F)) : val8 V0 (no_index (Proc.devRef .tc main_v75)) = term_main_v75 V0 :=
  (val8_keep V0 main_v75 (by decide)).trans (val7_main_v75 V0)
set_option maxHeartbeats 2000000 in
theorem val8_main_v93 (V0 : Valuation τ sig (Elt F)) : val8 V0 (no_index (Proc.devRef .tc main_v93)) = term_main_v93 V0 := by
  unfold val8
  simp only [w7]
  after_results_simp
  try dsimp only [Matrix.cons_val]
  try after_results_simp
  try simp only [val7_main_v83, val7_main_v67, val7_main_v85, TRef.toBuf, TRef.ofBuf, cast_cast, cast_eq]
  all_goals rfl
set_option maxHeartbeats 2000000 in
theorem val8_main_v94 (V0 : Valuation τ sig (Elt F)) : val8 V0 (no_index (Proc.devRef .tc main_v94)) = term_main_v94 V0 := by
  unfold val8
  simp only [w7]
  after_results_simp
  try simp only [val7_main_call5_v1, val7_main_v86, val7_main_call5_v0, TRef.toBuf, TRef.ofBuf, cast_cast, cast_eq]
  all_goals rfl
set_option maxHeartbeats 2000000 in
theorem val8_main_v95 (V0 : Valuation τ sig (Elt F)) : val8 V0 (no_index (Proc.devRef .tc main_v95)) = term_main_v95 V0 := by
  unfold val8
  simp only [w7]
  after_results_simp
  try simp only [val7_main_v63, TRef.toBuf, TRef.ofBuf, cast_cast, cast_eq]
  all_goals rfl
set_option maxHeartbeats 2000000 in
theorem val8_main_v96 (V0 : Valuation τ sig (Elt F)) : val8 V0 (no_index (Proc.devRef .tc main_v96)) = term_main_v96 V0 := by
  unfold val8
  simp only [w7]
  after_results_simp
  try simp only [val7_main_v75, TRef.toBuf, TRef.ofBuf, cast_cast, cast_eq]
  all_goals rfl
set_option maxHeartbeats 2000000 in
theorem val8_main_v97 (V0 : Valuation τ sig (Elt F)) : val8 V0 (no_index (Proc.devRef .tc main_v97)) = term_main_v97 V0 := by
  unfold val8
  simp only [w7]
  after_results_simp
  try simp only [val7_main_v63, TRef.toBuf, TRef.ofBuf, cast_cast, cast_eq]
  all_goals rfl

/-- The buffer contents after the first 9 stretches. -/
def val9 (V0 : Valuation τ sig (Elt F)) : Valuation τ sig (Elt F) := after w8 (val8 V0)
abbrev w8_W : List (Ref sig .tc) := [main_v98, main_v99, main_c_38, main_v100, main_v101, main_v102, main_v103, main_v104, main_v105, main_v106, main_call6_c, main_call6_v0, main_call6_v1, main_call6_c_0, main_call6_v2, main_call6_v3, main_call6_v4, main_call6_v5, main_call6_c_1, main_call6_c_2, main_call6_v6, main_call6_v7, main_call6_v8, main_call6_v9, main_call6_v10]
theorem w8_writes : (w8 : List (HloOp τ sig (Elt F))).Forall fun op => op.writes ⊆ (w8_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
theorem val9_keep (V0 : Valuation τ sig (Elt F)) (r : Ref sig .tc) (h : r ∉ w8_W) :
    val9 V0 (Proc.devRef .tc r) = val8 V0 (Proc.devRef .tc r) :=
  after_of_writes_sub w8 _ w8_writes h
theorem val9_main_arg0 (V0 : Valuation τ sig (Elt F)) : val9 V0 (no_index (Proc.devRef .tc main_arg0)) = V0 (Proc.devRef .tc main_arg0) :=
  (val9_keep V0 main_arg0 (by decide)).trans (val8_main_arg0 V0)
theorem val9_main_arg1 (V0 : Valuation τ sig (Elt F)) : val9 V0 (no_index (Proc.devRef .tc main_arg1)) = V0 (Proc.devRef .tc main_arg1) :=
  (val9_keep V0 main_arg1 (by decide)).trans (val8_main_arg1 V0)
theorem val9_main_arg2 (V0 : Valuation τ sig (Elt F)) : val9 V0 (no_index (Proc.devRef .tc main_arg2)) = V0 (Proc.devRef .tc main_arg2) :=
  (val9_keep V0 main_arg2 (by decide)).trans (val8_main_arg2 V0)
theorem val9_main_arg3 (V0 : Valuation τ sig (Elt F)) : val9 V0 (no_index (Proc.devRef .tc main_arg3)) = V0 (Proc.devRef .tc main_arg3) :=
  (val9_keep V0 main_arg3 (by decide)).trans (val8_main_arg3 V0)
theorem val9_main_arg4 (V0 : Valuation τ sig (Elt F)) : val9 V0 (no_index (Proc.devRef .tc main_arg4)) = V0 (Proc.devRef .tc main_arg4) :=
  (val9_keep V0 main_arg4 (by decide)).trans (val8_main_arg4 V0)
theorem val9_main_v29 (V0 : Valuation τ sig (Elt F)) : val9 V0 (no_index (Proc.devRef .tc main_v29)) = term_main_v29 V0 :=
  (val9_keep V0 main_v29 (by decide)).trans (val8_main_v29 V0)
theorem val9_main_v31 (V0 : Valuation τ sig (Elt F)) : val9 V0 (no_index (Proc.devRef .tc main_v31)) = term_main_v31 V0 :=
  (val9_keep V0 main_v31 (by decide)).trans (val8_main_v31 V0)
theorem val9_main_v36 (V0 : Valuation τ sig (Elt F)) : val9 V0 (no_index (Proc.devRef .tc main_v36)) = term_main_v36 V0 :=
  (val9_keep V0 main_v36 (by decide)).trans (val8_main_v36 V0)
theorem val9_main_v41 (V0 : Valuation τ sig (Elt F)) : val9 V0 (no_index (Proc.devRef .tc main_v41)) = term_main_v41 V0 :=
  (val9_keep V0 main_v41 (by decide)).trans (val8_main_v41 V0)
theorem val9_main_v50 (V0 : Valuation τ sig (Elt F)) : val9 V0 (no_index (Proc.devRef .tc main_v50)) = term_main_v50 V0 :=
  (val9_keep V0 main_v50 (by decide)).trans (val8_main_v50 V0)
theorem val9_main_v59 (V0 : Valuation τ sig (Elt F)) : val9 V0 (no_index (Proc.devRef .tc main_v59)) = term_main_v59 V0 :=
  (val9_keep V0 main_v59 (by decide)).trans (val8_main_v59 V0)
set_option maxHeartbeats 2000000 in
theorem val9_main_v103 (V0 : Valuation τ sig (Elt F)) : val9 V0 (no_index (Proc.devRef .tc main_v103)) = term_main_v103 V0 := by
  unfold val9
  simp only [w8]
  after_results_simp
  try dsimp only [Matrix.cons_val]
  try after_results_simp
  try simp only [val8_main_v75, val8_main_v97, val8_main_v96, val8_main_v95, val8_main_v94, val8_main_v93, TRef.toBuf, TRef.ofBuf, cast_cast, cast_eq]
  all_goals rfl
set_option maxHeartbeats 2000000 in
theorem val9_main_v104 (V0 : Valuation τ sig (Elt F)) : val9 V0 (no_index (Proc.devRef .tc main_v104)) = term_main_v104 V0 := by
  unfold val9
  simp only [w8]
  after_results_simp
  try simp only [val8_main_arg2, TRef.toBuf, TRef.ofBuf, cast_cast, cast_eq]
  all_goals rfl
set_option maxHeartbeats 2000000 in
theorem val9_main_call6_v5 (V0 : Valuation τ sig (Elt F)) : val9 V0 (no_index (Proc.devRef .tc main_call6_v5)) = term_main_call6_v5 V0 := by
  unfold val9
  simp only [w8]
  after_results_simp
  try dsimp only [Matrix.cons_val]
  try after_results_simp
  try simp only [val8_main_v75, val8_main_v97, val8_main_v96, val8_main_v95, val8_main_v94, val8_main_v93, TRef.toBuf, TRef.ofBuf, cast_cast, cast_eq]
  all_goals rfl
set_option maxHeartbeats 2000000 in
theorem val9_main_call6_v7 (V0 : Valuation τ sig (Elt F)) : val9 V0 (no_index (Proc.devRef .tc main_call6_v7)) = term_main_call6_v7 V0 := by
  unfold val9
  simp only [w8]
  after_results_simp
  try dsimp only [Matrix.cons_val]
  try after_results_simp
  try simp only [val8_main_v75, val8_main_v97, val8_main_v96, val8_main_v95, val8_main_v94, val8_main_v93, TRef.toBuf, TRef.ofBuf, cast_cast, cast_eq]
  all_goals rfl
set_option maxHeartbeats 2000000 in
theorem val9_main_call6_v10 (V0 : Valuation τ sig (Elt F)) : val9 V0 (no_index (Proc.devRef .tc main_call6_v10)) = term_main_call6_v10 V0 := by
  unfold val9
  simp only [w8]
  after_results_simp
  try dsimp only [Matrix.cons_val]
  try after_results_simp
  try simp only [val8_main_v75, val8_main_v97, val8_main_v96, val8_main_v95, val8_main_v94, val8_main_v93, TRef.toBuf, TRef.ofBuf, cast_cast, cast_eq]
  all_goals rfl

/-- The buffer contents after the first 10 stretches. -/
def val10 (V0 : Valuation τ sig (Elt F)) : Valuation τ sig (Elt F) := after w9 (val9 V0)
abbrev w9_W : List (Ref sig .tc) := [main_call6_v11, main_call6_c_3, main_call6_v12, main_call6_v13, main_call6_cst, main_call6_v14, main_v107, main_v108, main_v109, main_call7_c, main_call7_v0, main_call7_v1, main_call7_c_0, main_call7_v2, main_call7_v3, main_call7_v4, main_call7_v5, main_call7_c_1, main_call7_c_2, main_call7_v6, main_call7_v7, main_call7_v8, main_call7_v9, main_call7_v10, main_call7_v11]
theorem w9_writes : (w9 : List (HloOp τ sig (Elt F))).Forall fun op => op.writes ⊆ (w9_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
theorem val10_keep (V0 : Valuation τ sig (Elt F)) (r : Ref sig .tc) (h : r ∉ w9_W) :
    val10 V0 (Proc.devRef .tc r) = val9 V0 (Proc.devRef .tc r) :=
  after_of_writes_sub w9 _ w9_writes h
theorem val10_main_arg0 (V0 : Valuation τ sig (Elt F)) : val10 V0 (no_index (Proc.devRef .tc main_arg0)) = V0 (Proc.devRef .tc main_arg0) :=
  (val10_keep V0 main_arg0 (by decide)).trans (val9_main_arg0 V0)
theorem val10_main_arg1 (V0 : Valuation τ sig (Elt F)) : val10 V0 (no_index (Proc.devRef .tc main_arg1)) = V0 (Proc.devRef .tc main_arg1) :=
  (val10_keep V0 main_arg1 (by decide)).trans (val9_main_arg1 V0)
theorem val10_main_arg2 (V0 : Valuation τ sig (Elt F)) : val10 V0 (no_index (Proc.devRef .tc main_arg2)) = V0 (Proc.devRef .tc main_arg2) :=
  (val10_keep V0 main_arg2 (by decide)).trans (val9_main_arg2 V0)
theorem val10_main_arg3 (V0 : Valuation τ sig (Elt F)) : val10 V0 (no_index (Proc.devRef .tc main_arg3)) = V0 (Proc.devRef .tc main_arg3) :=
  (val10_keep V0 main_arg3 (by decide)).trans (val9_main_arg3 V0)
theorem val10_main_arg4 (V0 : Valuation τ sig (Elt F)) : val10 V0 (no_index (Proc.devRef .tc main_arg4)) = V0 (Proc.devRef .tc main_arg4) :=
  (val10_keep V0 main_arg4 (by decide)).trans (val9_main_arg4 V0)
theorem val10_main_v29 (V0 : Valuation τ sig (Elt F)) : val10 V0 (no_index (Proc.devRef .tc main_v29)) = term_main_v29 V0 :=
  (val10_keep V0 main_v29 (by decide)).trans (val9_main_v29 V0)
theorem val10_main_v31 (V0 : Valuation τ sig (Elt F)) : val10 V0 (no_index (Proc.devRef .tc main_v31)) = term_main_v31 V0 :=
  (val10_keep V0 main_v31 (by decide)).trans (val9_main_v31 V0)
theorem val10_main_v36 (V0 : Valuation τ sig (Elt F)) : val10 V0 (no_index (Proc.devRef .tc main_v36)) = term_main_v36 V0 :=
  (val10_keep V0 main_v36 (by decide)).trans (val9_main_v36 V0)
theorem val10_main_v41 (V0 : Valuation τ sig (Elt F)) : val10 V0 (no_index (Proc.devRef .tc main_v41)) = term_main_v41 V0 :=
  (val10_keep V0 main_v41 (by decide)).trans (val9_main_v41 V0)
theorem val10_main_v50 (V0 : Valuation τ sig (Elt F)) : val10 V0 (no_index (Proc.devRef .tc main_v50)) = term_main_v50 V0 :=
  (val10_keep V0 main_v50 (by decide)).trans (val9_main_v50 V0)
theorem val10_main_v59 (V0 : Valuation τ sig (Elt F)) : val10 V0 (no_index (Proc.devRef .tc main_v59)) = term_main_v59 V0 :=
  (val10_keep V0 main_v59 (by decide)).trans (val9_main_v59 V0)
set_option maxHeartbeats 2000000 in
theorem val10_main_v108 (V0 : Valuation τ sig (Elt F)) : val10 V0 (no_index (Proc.devRef .tc main_v108)) = term_main_v108 V0 := by
  unfold val10
  simp only [w9]
  after_results_simp
  try simp only [val9_main_call6_v5, val9_main_v104, val9_main_call6_v10, val9_main_call6_v7, TRef.toBuf, TRef.ofBuf, cast_cast, cast_eq]
  all_goals rfl
set_option maxHeartbeats 2000000 in
theorem val10_main_v109 (V0 : Valuation τ sig (Elt F)) : val10 V0 (no_index (Proc.devRef .tc main_v109)) = term_main_v109 V0 := by
  unfold val10
  simp only [w9]
  after_results_simp
  try simp only [val9_main_arg1, TRef.toBuf, TRef.ofBuf, cast_cast, cast_eq]
  all_goals rfl
set_option maxHeartbeats 2000000 in
theorem val10_main_call7_v5 (V0 : Valuation τ sig (Elt F)) : val10 V0 (no_index (Proc.devRef .tc main_call7_v5)) = term_main_call7_v5 V0 := by
  unfold val10
  simp only [w9]
  after_results_simp
  try simp only [val9_main_v103, TRef.toBuf, TRef.ofBuf, cast_cast, cast_eq]
  all_goals rfl
set_option maxHeartbeats 2000000 in
theorem val10_main_call7_v11 (V0 : Valuation τ sig (Elt F)) : val10 V0 (no_index (Proc.devRef .tc main_call7_v11)) = term_main_call7_v11 V0 := by
  unfold val10
  simp only [w9]
  after_results_simp
  try simp only [val9_main_v103, TRef.toBuf, TRef.ofBuf, cast_cast, cast_eq]
  all_goals rfl

/-- The buffer contents after the first 11 stretches. -/
def val11 (V0 : Valuation τ sig (Elt F)) : Valuation τ sig (Elt F) := after w10 (val10 V0)
abbrev w10_W : List (Ref sig .tc) := [main_call7_c_3, main_call7_v12, main_call7_v13, main_call7_cst, main_call7_v14, main_v110, main_v111, main_v112, main_v113, main_v114, main_v115, main_v116, main_v117, main_v118, main_v119, main_v120, main_v121, main_v122, main_v123, main_cst_39, main_cst_40, main_call8_v0, main_call8_v1, main_call8_v2, main_call8_v3]
theorem w10_writes : (w10 : List (HloOp τ sig (Elt F))).Forall fun op => op.writes ⊆ (w10_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
theorem val11_keep (V0 : Valuation τ sig (Elt F)) (r : Ref sig .tc) (h : r ∉ w10_W) :
    val11 V0 (Proc.devRef .tc r) = val10 V0 (Proc.devRef .tc r) :=
  after_of_writes_sub w10 _ w10_writes h
theorem val11_main_arg0 (V0 : Valuation τ sig (Elt F)) : val11 V0 (no_index (Proc.devRef .tc main_arg0)) = V0 (Proc.devRef .tc main_arg0) :=
  (val11_keep V0 main_arg0 (by decide)).trans (val10_main_arg0 V0)
theorem val11_main_arg1 (V0 : Valuation τ sig (Elt F)) : val11 V0 (no_index (Proc.devRef .tc main_arg1)) = V0 (Proc.devRef .tc main_arg1) :=
  (val11_keep V0 main_arg1 (by decide)).trans (val10_main_arg1 V0)
theorem val11_main_arg2 (V0 : Valuation τ sig (Elt F)) : val11 V0 (no_index (Proc.devRef .tc main_arg2)) = V0 (Proc.devRef .tc main_arg2) :=
  (val11_keep V0 main_arg2 (by decide)).trans (val10_main_arg2 V0)
theorem val11_main_arg3 (V0 : Valuation τ sig (Elt F)) : val11 V0 (no_index (Proc.devRef .tc main_arg3)) = V0 (Proc.devRef .tc main_arg3) :=
  (val11_keep V0 main_arg3 (by decide)).trans (val10_main_arg3 V0)
theorem val11_main_arg4 (V0 : Valuation τ sig (Elt F)) : val11 V0 (no_index (Proc.devRef .tc main_arg4)) = V0 (Proc.devRef .tc main_arg4) :=
  (val11_keep V0 main_arg4 (by decide)).trans (val10_main_arg4 V0)
theorem val11_main_v29 (V0 : Valuation τ sig (Elt F)) : val11 V0 (no_index (Proc.devRef .tc main_v29)) = term_main_v29 V0 :=
  (val11_keep V0 main_v29 (by decide)).trans (val10_main_v29 V0)
theorem val11_main_v108 (V0 : Valuation τ sig (Elt F)) : val11 V0 (no_index (Proc.devRef .tc main_v108)) = term_main_v108 V0 :=
  (val11_keep V0 main_v108 (by decide)).trans (val10_main_v108 V0)
set_option maxHeartbeats 2000000 in
theorem val11_main_v110 (V0 : Valuation τ sig (Elt F)) : val11 V0 (no_index (Proc.devRef .tc main_v110)) = term_main_v110 V0 := by
  unfold val11
  simp only [w10]
  after_results_simp
  try simp only [val10_main_call7_v5, val10_main_v109, val10_main_call7_v11, TRef.toBuf, TRef.ofBuf, cast_cast, cast_eq]
  all_goals rfl
set_option maxHeartbeats 2000000 in
theorem val11_main_v118 (V0 : Valuation τ sig (Elt F)) : val11 V0 (no_index (Proc.devRef .tc main_v118)) = term_main_v118 V0 := by
  unfold val11
  simp only [w10]
  after_results_simp
  try dsimp only [Matrix.cons_val]
  try after_results_simp
  try simp only [val10_main_v59, val10_main_v50, val10_main_v41, val10_main_v36, TRef.toBuf, TRef.ofBuf, cast_cast, cast_eq]
  all_goals rfl
set_option maxHeartbeats 2000000 in
theorem val11_main_v121 (V0 : Valuation τ sig (Elt F)) : val11 V0 (no_index (Proc.devRef .tc main_v121)) = term_main_v121 V0 := by
  unfold val11
  simp only [w10]
  after_results_simp
  try simp only [val10_main_v31, TRef.toBuf, TRef.ofBuf, cast_cast, cast_eq]
  all_goals rfl
set_option maxHeartbeats 2000000 in
theorem val11_main_call8_v2 (V0 : Valuation τ sig (Elt F)) : val11 V0 (no_index (Proc.devRef .tc main_call8_v2)) = term_main_call8_v2 V0 := by
  unfold val11
  simp only [w10]
  after_results_simp
  try simp only [val10_main_v108, TRef.toBuf, TRef.ofBuf, cast_cast, cast_eq]
  all_goals rfl
set_option maxHeartbeats 2000000 in
theorem val11_main_call8_v3 (V0 : Valuation τ sig (Elt F)) : val11 V0 (no_index (Proc.devRef .tc main_call8_v3)) = term_main_call8_v3 V0 := by
  unfold val11
  simp only [w10]
  after_results_simp
  try simp only [TRef.toBuf, TRef.ofBuf, cast_cast, cast_eq]
  all_goals rfl

/-- The buffer contents after the first 12 stretches. -/
def val12 (V0 : Valuation τ sig (Elt F)) : Valuation τ sig (Elt F) := after w11 (val11 V0)
abbrev w11_W : List (Ref sig .tc) := [main_call8_v4, main_v124, main_v125, main_v126, main_cst_41, main_cst_42, main_call9_v0, main_call9_v1, main_call9_v2, main_call9_v3, main_call9_v4, main_v127, main_v128, main_v129, main_cst_43, main_cst_44, main_call10_v0, main_call10_v1, main_call10_v2, main_call10_v3, main_call10_v4, main_v130, main_v131, main_v132]
theorem w11_writes : (w11 : List (HloOp τ sig (Elt F))).Forall fun op => op.writes ⊆ (w11_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
theorem val12_keep (V0 : Valuation τ sig (Elt F)) (r : Ref sig .tc) (h : r ∉ w11_W) :
    val12 V0 (Proc.devRef .tc r) = val11 V0 (Proc.devRef .tc r) :=
  after_of_writes_sub w11 _ w11_writes h
theorem val12_main_arg0 (V0 : Valuation τ sig (Elt F)) : val12 V0 (no_index (Proc.devRef .tc main_arg0)) = V0 (Proc.devRef .tc main_arg0) :=
  (val12_keep V0 main_arg0 (by decide)).trans (val11_main_arg0 V0)
theorem val12_main_arg1 (V0 : Valuation τ sig (Elt F)) : val12 V0 (no_index (Proc.devRef .tc main_arg1)) = V0 (Proc.devRef .tc main_arg1) :=
  (val12_keep V0 main_arg1 (by decide)).trans (val11_main_arg1 V0)
theorem val12_main_arg2 (V0 : Valuation τ sig (Elt F)) : val12 V0 (no_index (Proc.devRef .tc main_arg2)) = V0 (Proc.devRef .tc main_arg2) :=
  (val12_keep V0 main_arg2 (by decide)).trans (val11_main_arg2 V0)
theorem val12_main_arg3 (V0 : Valuation τ sig (Elt F)) : val12 V0 (no_index (Proc.devRef .tc main_arg3)) = V0 (Proc.devRef .tc main_arg3) :=
  (val12_keep V0 main_arg3 (by decide)).trans (val11_main_arg3 V0)
theorem val12_main_arg4 (V0 : Valuation τ sig (Elt F)) : val12 V0 (no_index (Proc.devRef .tc main_arg4)) = V0 (Proc.devRef .tc main_arg4) :=
  (val12_keep V0 main_arg4 (by decide)).trans (val11_main_arg4 V0)
theorem val12_main_v29 (V0 : Valuation τ sig (Elt F)) : val12 V0 (no_index (Proc.devRef .tc main_v29)) = term_main_v29 V0 :=
  (val12_keep V0 main_v29 (by decide)).trans (val11_main_v29 V0)
theorem val12_main_v110 (V0 : Valuation τ sig (Elt F)) : val12 V0 (no_index (Proc.devRef .tc main_v110)) = term_main_v110 V0 :=
  (val12_keep V0 main_v110 (by decide)).trans (val11_main_v110 V0)
theorem val12_main_v118 (V0 : Valuation τ sig (Elt F)) : val12 V0 (no_index (Proc.devRef .tc main_v118)) = term_main_v118 V0 :=
  (val12_keep V0 main_v118 (by decide)).trans (val11_main_v118 V0)
theorem val12_main_v121 (V0 : Valuation τ sig (Elt F)) : val12 V0 (no_index (Proc.devRef .tc main_v121)) = term_main_v121 V0 :=
  (val12_keep V0 main_v121 (by decide)).trans (val11_main_v121 V0)
set_option maxHeartbeats 2000000 in
theorem val12_main_v124 (V0 : Valuation τ sig (Elt F)) : val12 V0 (no_index (Proc.devRef .tc main_v124)) = term_main_v124 V0 := by
  unfold val12
  simp only [w11]
  after_results_simp
  try simp only [val11_main_call8_v2, val11_main_call8_v3, TRef.toBuf, TRef.ofBuf, cast_cast, cast_eq]
  all_goals rfl
set_option maxHeartbeats 2000000 in
theorem val12_main_v127 (V0 : Valuation τ sig (Elt F)) : val12 V0 (no_index (Proc.devRef .tc main_v127)) = term_main_v127 V0 := by
  unfold val12
  simp only [w11]
  after_results_simp
  try simp only [val11_main_v108, TRef.toBuf, TRef.ofBuf, cast_cast, cast_eq]
  all_goals rfl
set_option maxHeartbeats 2000000 in
theorem val12_main_v130 (V0 : Valuation τ sig (Elt F)) : val12 V0 (no_index (Proc.devRef .tc main_v130)) = term_main_v130 V0 := by
  unfold val12
  simp only [w11]
  after_results_simp
  try simp only [val11_main_v108, TRef.toBuf, TRef.ofBuf, cast_cast, cast_eq]
  all_goals rfl
set_option maxHeartbeats 2000000 in
theorem val12_main_v132 (V0 : Valuation τ sig (Elt F)) : val12 V0 (no_index (Proc.devRef .tc main_v132)) = term_main_v132 V0 := by
  unfold val12
  simp only [w11]
  after_results_simp
  try simp only [val11_main_v108, TRef.toBuf, TRef.ofBuf, cast_cast, cast_eq]
  all_goals rfl

theorem after_part2 (V0 : Valuation τ sig (Elt F)) : after ops_part2 (val6 V0) = val12 V0 := by
  rw [ops_part2_eq_windows]
  simp only [after_append]
  rfl

end Cert.ReferenceIdeal.HandRun

end
-- ==== Proof.RefRead3.lean ====
/- The reference program's results read back, window 3 of the printed @main: the fold of the operations at a
   buffer is that buffer's composed term of the five argument arrays. A buffer read by more than one later
   operation, or by a later stretch, has its term named (`term_<buffer>`); a concatenate is named as a function of
   its operands (`cat_<buffer>`). -/
import proofs.«167267_j69861938037475_1_alg».proof.Proof.RefRead2

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

set_option maxRecDepth 16384

abbrev w12 : List (HloOp τ sig (Elt F)) :=
  [ StableHlo.nullary main_cst_45 (constant S_ .f32 0x3C23D70A#32),
    StableHlo.nullary main_cst_46 (constant S_ .f32 0x3F800000#32),
    StableHlo.TRef.unary (.of main_cst_45 : StableHlo.TRef sig ⟨S_, .f32⟩) (.of main_call11_v0 : StableHlo.TRef sig ⟨S_, .f32⟩) id,
    StableHlo.TRef.unary (.of main_call11_v0 : StableHlo.TRef sig ⟨S_, .f32⟩) (.of main_call11_v1 : StableHlo.TRef sig ⟨S64x160, .f32⟩) (broadcastInDim S64x160 ![] bcast_S_S64x160),
    StableHlo.TRef.binary (.of main_call11_v1 : StableHlo.TRef sig ⟨S64x160, .f32⟩) (.of main_v132 : StableHlo.TRef sig ⟨S64x160, .f32⟩) (.of main_call11_v2 : StableHlo.TRef sig ⟨S64x160, .f32⟩) maximumf,
    StableHlo.TRef.unary (.of main_cst_46 : StableHlo.TRef sig ⟨S_, .f32⟩) (.of main_call11_v3 : StableHlo.TRef sig ⟨S_, .f32⟩) id,
    StableHlo.TRef.unary (.of main_call11_v3 : StableHlo.TRef sig ⟨S_, .f32⟩) (.of main_call11_v4 : StableHlo.TRef sig ⟨S64x160, .f32⟩) (broadcastInDim S64x160 ![] bcast_S_S64x160),
    StableHlo.TRef.binary (.of main_call11_v4 : StableHlo.TRef sig ⟨S64x160, .f32⟩) (.of main_call11_v2 : StableHlo.TRef sig ⟨S64x160, .f32⟩) (.of main_v133 : StableHlo.TRef sig ⟨S64x160, .f32⟩) minimumf,
    StableHlo.binary main_v124 main_v130 main_v134 (minimumf : (⟨S64x160, .f32⟩ : BufTy).Contents (Elt F) → (⟨S64x160, .f32⟩ : BufTy).Contents (Elt F) → (⟨S64x160, .f32⟩ : BufTy).Contents (Elt F)),
    StableHlo.binary main_v124 main_v130 main_v135 (maximumf : (⟨S64x160, .f32⟩ : BufTy).Contents (Elt F) → (⟨S64x160, .f32⟩ : BufTy).Contents (Elt F) → (⟨S64x160, .f32⟩ : BufTy).Contents (Elt F)),
    StableHlo.binary main_v127 main_v133 main_v136 (minimumf : (⟨S64x160, .f32⟩ : BufTy).Contents (Elt F) → (⟨S64x160, .f32⟩ : BufTy).Contents (Elt F) → (⟨S64x160, .f32⟩ : BufTy).Contents (Elt F)),
    StableHlo.binary main_v127 main_v133 main_v137 (maximumf : (⟨S64x160, .f32⟩ : BufTy).Contents (Elt F) → (⟨S64x160, .f32⟩ : BufTy).Contents (Elt F) → (⟨S64x160, .f32⟩ : BufTy).Contents (Elt F)),
    StableHlo.unary main_v134 main_v138 (broadcastInDim S64x160x1 ![0, 1] bcast_S64x160_S64x160x1_0_1 : (⟨S64x160, .f32⟩ : BufTy).Contents (Elt F) → (⟨S64x160x1, .f32⟩ : BufTy).Contents (Elt F)),
    StableHlo.unary main_v136 main_v139 (broadcastInDim S64x160x1 ![0, 1] bcast_S64x160_S64x160x1_0_1 : (⟨S64x160, .f32⟩ : BufTy).Contents (Elt F) → (⟨S64x160x1, .f32⟩ : BufTy).Contents (Elt F)),
    StableHlo.unary main_v135 main_v140 (broadcastInDim S64x160x1 ![0, 1] bcast_S64x160_S64x160x1_0_1 : (⟨S64x160, .f32⟩ : BufTy).Contents (Elt F) → (⟨S64x160x1, .f32⟩ : BufTy).Contents (Elt F)),
    StableHlo.unary main_v137 main_v141 (broadcastInDim S64x160x1 ![0, 1] bcast_S64x160_S64x160x1_0_1 : (⟨S64x160, .f32⟩ : BufTy).Contents (Elt F) → (⟨S64x160x1, .f32⟩ : BufTy).Contents (Elt F)),
    StableHlo.nary ![main_v138, main_v139, main_v140, main_v141] main_v142 (fun u => cat_main_v142 (u 0) (u 1) (u 2) (u 3)),
    StableHlo.unary main_v142 main_v143 ((extractStridedSlice S64x160x1 ![0, 0, 0] · slices_S64x160x4_S64x160x1_0_0_0) : (⟨S64x160x4, .f32⟩ : BufTy).Contents (Elt F) → (⟨S64x160x1, .f32⟩ : BufTy).Contents (Elt F)),
    StableHlo.reshape main_v143 main_v144 rfl shapeCasts_S64x160x1_S64x160,
    StableHlo.unary main_v142 main_v145 ((extractStridedSlice S64x160x1 ![0, 0, 1] · slices_S64x160x4_S64x160x1_0_0_1) : (⟨S64x160x4, .f32⟩ : BufTy).Contents (Elt F) → (⟨S64x160x1, .f32⟩ : BufTy).Contents (Elt F)),
    StableHlo.reshape main_v145 main_v146 rfl shapeCasts_S64x160x1_S64x160,
    StableHlo.unary main_v142 main_v147 ((extractStridedSlice S64x160x1 ![0, 0, 2] · slices_S64x160x4_S64x160x1_0_0_2) : (⟨S64x160x4, .f32⟩ : BufTy).Contents (Elt F) → (⟨S64x160x1, .f32⟩ : BufTy).Contents (Elt F)),
    StableHlo.reshape main_v147 main_v148 rfl shapeCasts_S64x160x1_S64x160 ]

abbrev w13 : List (HloOp τ sig (Elt F)) :=
  [ StableHlo.unary main_v142 main_v149 ((extractStridedSlice S64x160x1 ![0, 0, 3] · slices_S64x160x4_S64x160x1_0_0_3) : (⟨S64x160x4, .f32⟩ : BufTy).Contents (Elt F) → (⟨S64x160x1, .f32⟩ : BufTy).Contents (Elt F)),
    StableHlo.reshape main_v149 main_v150 rfl shapeCasts_S64x160x1_S64x160,
    StableHlo.unary main_v118 main_v151 ((extractStridedSlice S64x160x1 ![0, 0, 0] · slices_S64x160x4_S64x160x1_0_0_0) : (⟨S64x160x4, .f32⟩ : BufTy).Contents (Elt F) → (⟨S64x160x1, .f32⟩ : BufTy).Contents (Elt F)),
    StableHlo.reshape main_v151 main_v152 rfl shapeCasts_S64x160x1_S64x160,
    StableHlo.unary main_v118 main_v153 ((extractStridedSlice S64x160x1 ![0, 0, 1] · slices_S64x160x4_S64x160x1_0_0_1) : (⟨S64x160x4, .f32⟩ : BufTy).Contents (Elt F) → (⟨S64x160x1, .f32⟩ : BufTy).Contents (Elt F)),
    StableHlo.reshape main_v153 main_v154 rfl shapeCasts_S64x160x1_S64x160,
    StableHlo.unary main_v118 main_v155 ((extractStridedSlice S64x160x1 ![0, 0, 2] · slices_S64x160x4_S64x160x1_0_0_2) : (⟨S64x160x4, .f32⟩ : BufTy).Contents (Elt F) → (⟨S64x160x1, .f32⟩ : BufTy).Contents (Elt F)),
    StableHlo.reshape main_v155 main_v156 rfl shapeCasts_S64x160x1_S64x160,
    StableHlo.unary main_v118 main_v157 ((extractStridedSlice S64x160x1 ![0, 0, 3] · slices_S64x160x4_S64x160x1_0_0_3) : (⟨S64x160x4, .f32⟩ : BufTy).Contents (Elt F) → (⟨S64x160x1, .f32⟩ : BufTy).Contents (Elt F)),
    StableHlo.reshape main_v157 main_v158 rfl shapeCasts_S64x160x1_S64x160,
    StableHlo.binary main_v148 main_v144 main_v159 (subf : (⟨S64x160, .f32⟩ : BufTy).Contents (Elt F) → (⟨S64x160, .f32⟩ : BufTy).Contents (Elt F) → (⟨S64x160, .f32⟩ : BufTy).Contents (Elt F)),
    StableHlo.binary main_v150 main_v146 main_v160 (subf : (⟨S64x160, .f32⟩ : BufTy).Contents (Elt F) → (⟨S64x160, .f32⟩ : BufTy).Contents (Elt F) → (⟨S64x160, .f32⟩ : BufTy).Contents (Elt F)),
    StableHlo.binary main_v159 main_v160 main_v161 (mulf : (⟨S64x160, .f32⟩ : BufTy).Contents (Elt F) → (⟨S64x160, .f32⟩ : BufTy).Contents (Elt F) → (⟨S64x160, .f32⟩ : BufTy).Contents (Elt F)),
    StableHlo.binary main_v156 main_v152 main_v162 (subf : (⟨S64x160, .f32⟩ : BufTy).Contents (Elt F) → (⟨S64x160, .f32⟩ : BufTy).Contents (Elt F) → (⟨S64x160, .f32⟩ : BufTy).Contents (Elt F)),
    StableHlo.binary main_v158 main_v154 main_v163 (subf : (⟨S64x160, .f32⟩ : BufTy).Contents (Elt F) → (⟨S64x160, .f32⟩ : BufTy).Contents (Elt F) → (⟨S64x160, .f32⟩ : BufTy).Contents (Elt F)),
    StableHlo.binary main_v162 main_v163 main_v164 (mulf : (⟨S64x160, .f32⟩ : BufTy).Contents (Elt F) → (⟨S64x160, .f32⟩ : BufTy).Contents (Elt F) → (⟨S64x160, .f32⟩ : BufTy).Contents (Elt F)),
    StableHlo.binary main_v148 main_v156 main_v165 (minimumf : (⟨S64x160, .f32⟩ : BufTy).Contents (Elt F) → (⟨S64x160, .f32⟩ : BufTy).Contents (Elt F) → (⟨S64x160, .f32⟩ : BufTy).Contents (Elt F)),
    StableHlo.binary main_v144 main_v152 main_v166 (maximumf : (⟨S64x160, .f32⟩ : BufTy).Contents (Elt F) → (⟨S64x160, .f32⟩ : BufTy).Contents (Elt F) → (⟨S64x160, .f32⟩ : BufTy).Contents (Elt F)),
    StableHlo.binary main_v165 main_v166 main_v167 (subf : (⟨S64x160, .f32⟩ : BufTy).Contents (Elt F) → (⟨S64x160, .f32⟩ : BufTy).Contents (Elt F) → (⟨S64x160, .f32⟩ : BufTy).Contents (Elt F)),
    StableHlo.nullary main_cst_47 (constant S_ .f32 0x00000000#32),
    StableHlo.TRef.unary (.of main_cst_47 : StableHlo.TRef sig ⟨S_, .f32⟩) (.of main_call12_v0 : StableHlo.TRef sig ⟨S_, .f32⟩) id,
    StableHlo.TRef.unary (.of main_call12_v0 : StableHlo.TRef sig ⟨S_, .f32⟩) (.of main_call12_v1 : StableHlo.TRef sig ⟨S64x160, .f32⟩) (broadcastInDim S64x160 ![] bcast_S_S64x160),
    StableHlo.TRef.binary (.of main_call12_v1 : StableHlo.TRef sig ⟨S64x160, .f32⟩) (.of main_v167 : StableHlo.TRef sig ⟨S64x160, .f32⟩) (.of main_v168 : StableHlo.TRef sig ⟨S64x160, .f32⟩) maximumf ]

abbrev w14 : List (HloOp τ sig (Elt F)) :=
  [ StableHlo.binary main_v150 main_v158 main_v169 (minimumf : (⟨S64x160, .f32⟩ : BufTy).Contents (Elt F) → (⟨S64x160, .f32⟩ : BufTy).Contents (Elt F) → (⟨S64x160, .f32⟩ : BufTy).Contents (Elt F)),
    StableHlo.binary main_v146 main_v154 main_v170 (maximumf : (⟨S64x160, .f32⟩ : BufTy).Contents (Elt F) → (⟨S64x160, .f32⟩ : BufTy).Contents (Elt F) → (⟨S64x160, .f32⟩ : BufTy).Contents (Elt F)),
    StableHlo.binary main_v169 main_v170 main_v171 (subf : (⟨S64x160, .f32⟩ : BufTy).Contents (Elt F) → (⟨S64x160, .f32⟩ : BufTy).Contents (Elt F) → (⟨S64x160, .f32⟩ : BufTy).Contents (Elt F)),
    StableHlo.nullary main_cst_48 (constant S_ .f32 0x00000000#32),
    StableHlo.TRef.unary (.of main_cst_48 : StableHlo.TRef sig ⟨S_, .f32⟩) (.of main_call13_v0 : StableHlo.TRef sig ⟨S_, .f32⟩) id,
    StableHlo.TRef.unary (.of main_call13_v0 : StableHlo.TRef sig ⟨S_, .f32⟩) (.of main_call13_v1 : StableHlo.TRef sig ⟨S64x160, .f32⟩) (broadcastInDim S64x160 ![] bcast_S_S64x160),
    StableHlo.TRef.binary (.of main_call13_v1 : StableHlo.TRef sig ⟨S64x160, .f32⟩) (.of main_v171 : StableHlo.TRef sig ⟨S64x160, .f32⟩) (.of main_v172 : StableHlo.TRef sig ⟨S64x160, .f32⟩) maximumf,
    StableHlo.binary main_v168 main_v172 main_v173 (mulf : (⟨S64x160, .f32⟩ : BufTy).Contents (Elt F) → (⟨S64x160, .f32⟩ : BufTy).Contents (Elt F) → (⟨S64x160, .f32⟩ : BufTy).Contents (Elt F)),
    StableHlo.binary main_v161 main_v164 main_v174 (addf : (⟨S64x160, .f32⟩ : BufTy).Contents (Elt F) → (⟨S64x160, .f32⟩ : BufTy).Contents (Elt F) → (⟨S64x160, .f32⟩ : BufTy).Contents (Elt F)),
    StableHlo.binary main_v174 main_v173 main_v175 (subf : (⟨S64x160, .f32⟩ : BufTy).Contents (Elt F) → (⟨S64x160, .f32⟩ : BufTy).Contents (Elt F) → (⟨S64x160, .f32⟩ : BufTy).Contents (Elt F)),
    StableHlo.nullary main_cst_49 (constant S_ .f32 0x358637BD#32),
    StableHlo.unary main_cst_49 main_v176 (broadcastInDim S64x160 ![] bcast_S_S64x160 : (⟨S_, .f32⟩ : BufTy).Contents (Elt F) → (⟨S64x160, .f32⟩ : BufTy).Contents (Elt F)),
    StableHlo.binary main_v175 main_v176 main_v177 (addf : (⟨S64x160, .f32⟩ : BufTy).Contents (Elt F) → (⟨S64x160, .f32⟩ : BufTy).Contents (Elt F) → (⟨S64x160, .f32⟩ : BufTy).Contents (Elt F)),
    StableHlo.binary main_v173 main_v177 main_v178 (Host.divf : (⟨S64x160, .f32⟩ : BufTy).Contents (Elt F) → (⟨S64x160, .f32⟩ : BufTy).Contents (Elt F) → (⟨S64x160, .f32⟩ : BufTy).Contents (Elt F)),
    StableHlo.binary main_v148 main_v156 main_v179 (maximumf : (⟨S64x160, .f32⟩ : BufTy).Contents (Elt F) → (⟨S64x160, .f32⟩ : BufTy).Contents (Elt F) → (⟨S64x160, .f32⟩ : BufTy).Contents (Elt F)),
    StableHlo.binary main_v144 main_v152 main_v180 (minimumf : (⟨S64x160, .f32⟩ : BufTy).Contents (Elt F) → (⟨S64x160, .f32⟩ : BufTy).Contents (Elt F) → (⟨S64x160, .f32⟩ : BufTy).Contents (Elt F)),
    StableHlo.binary main_v179 main_v180 main_v181 (subf : (⟨S64x160, .f32⟩ : BufTy).Contents (Elt F) → (⟨S64x160, .f32⟩ : BufTy).Contents (Elt F) → (⟨S64x160, .f32⟩ : BufTy).Contents (Elt F)),
    StableHlo.binary main_v150 main_v158 main_v182 (maximumf : (⟨S64x160, .f32⟩ : BufTy).Contents (Elt F) → (⟨S64x160, .f32⟩ : BufTy).Contents (Elt F) → (⟨S64x160, .f32⟩ : BufTy).Contents (Elt F)),
    StableHlo.binary main_v146 main_v154 main_v183 (minimumf : (⟨S64x160, .f32⟩ : BufTy).Contents (Elt F) → (⟨S64x160, .f32⟩ : BufTy).Contents (Elt F) → (⟨S64x160, .f32⟩ : BufTy).Contents (Elt F)),
    StableHlo.binary main_v182 main_v183 main_v184 (subf : (⟨S64x160, .f32⟩ : BufTy).Contents (Elt F) → (⟨S64x160, .f32⟩ : BufTy).Contents (Elt F) → (⟨S64x160, .f32⟩ : BufTy).Contents (Elt F)),
    StableHlo.binary main_v181 main_v184 main_v185 (mulf : (⟨S64x160, .f32⟩ : BufTy).Contents (Elt F) → (⟨S64x160, .f32⟩ : BufTy).Contents (Elt F) → (⟨S64x160, .f32⟩ : BufTy).Contents (Elt F)),
    StableHlo.binary main_v185 main_v175 main_v186 (subf : (⟨S64x160, .f32⟩ : BufTy).Contents (Elt F) → (⟨S64x160, .f32⟩ : BufTy).Contents (Elt F) → (⟨S64x160, .f32⟩ : BufTy).Contents (Elt F)),
    StableHlo.nullary main_cst_50 (constant S_ .f32 0x358637BD#32) ]

theorem ops_part3_eq_windows : (ops_part3 : List (HloOp τ sig (Elt F))) = w12 ++ (w13 ++ (w14)) := rfl

/-- The buffer contents after the first 13 stretches. -/
def val13 (V0 : Valuation τ sig (Elt F)) : Valuation τ sig (Elt F) := after w12 (val12 V0)
abbrev w12_W : List (Ref sig .tc) := [main_cst_45, main_cst_46, main_call11_v0, main_call11_v1, main_call11_v2, main_call11_v3, main_call11_v4, main_v133, main_v134, main_v135, main_v136, main_v137, main_v138, main_v139, main_v140, main_v141, main_v142, main_v143, main_v144, main_v145, main_v146, main_v147, main_v148]
theorem w12_writes : (w12 : List (HloOp τ sig (Elt F))).Forall fun op => op.writes ⊆ (w12_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
theorem val13_keep (V0 : Valuation τ sig (Elt F)) (r : Ref sig .tc) (h : r ∉ w12_W) :
    val13 V0 (Proc.devRef .tc r) = val12 V0 (Proc.devRef .tc r) :=
  after_of_writes_sub w12 _ w12_writes h
theorem val13_main_arg0 (V0 : Valuation τ sig (Elt F)) : val13 V0 (no_index (Proc.devRef .tc main_arg0)) = V0 (Proc.devRef .tc main_arg0) :=
  (val13_keep V0 main_arg0 (by decide)).trans (val12_main_arg0 V0)
theorem val13_main_arg1 (V0 : Valuation τ sig (Elt F)) : val13 V0 (no_index (Proc.devRef .tc main_arg1)) = V0 (Proc.devRef .tc main_arg1) :=
  (val13_keep V0 main_arg1 (by decide)).trans (val12_main_arg1 V0)
theorem val13_main_arg2 (V0 : Valuation τ sig (Elt F)) : val13 V0 (no_index (Proc.devRef .tc main_arg2)) = V0 (Proc.devRef .tc main_arg2) :=
  (val13_keep V0 main_arg2 (by decide)).trans (val12_main_arg2 V0)
theorem val13_main_arg3 (V0 : Valuation τ sig (Elt F)) : val13 V0 (no_index (Proc.devRef .tc main_arg3)) = V0 (Proc.devRef .tc main_arg3) :=
  (val13_keep V0 main_arg3 (by decide)).trans (val12_main_arg3 V0)
theorem val13_main_arg4 (V0 : Valuation τ sig (Elt F)) : val13 V0 (no_index (Proc.devRef .tc main_arg4)) = V0 (Proc.devRef .tc main_arg4) :=
  (val13_keep V0 main_arg4 (by decide)).trans (val12_main_arg4 V0)
theorem val13_main_v29 (V0 : Valuation τ sig (Elt F)) : val13 V0 (no_index (Proc.devRef .tc main_v29)) = term_main_v29 V0 :=
  (val13_keep V0 main_v29 (by decide)).trans (val12_main_v29 V0)
theorem val13_main_v110 (V0 : Valuation τ sig (Elt F)) : val13 V0 (no_index (Proc.devRef .tc main_v110)) = term_main_v110 V0 :=
  (val13_keep V0 main_v110 (by decide)).trans (val12_main_v110 V0)
theorem val13_main_v118 (V0 : Valuation τ sig (Elt F)) : val13 V0 (no_index (Proc.devRef .tc main_v118)) = term_main_v118 V0 :=
  (val13_keep V0 main_v118 (by decide)).trans (val12_main_v118 V0)
theorem val13_main_v121 (V0 : Valuation τ sig (Elt F)) : val13 V0 (no_index (Proc.devRef .tc main_v121)) = term_main_v121 V0 :=
  (val13_keep V0 main_v121 (by decide)).trans (val12_main_v121 V0)
set_option maxHeartbeats 2000000 in
theorem val13_main_v142 (V0 : Valuation τ sig (Elt F)) : val13 V0 (no_index (Proc.devRef .tc main_v142)) = term_main_v142 V0 := by
  unfold val13
  simp only [w12]
  after_results_simp
  try dsimp only [Matrix.cons_val]
  try after_results_simp
  try simp only [val12_main_v132, val12_main_v127, val12_main_v130, val12_main_v124, TRef.toBuf, TRef.ofBuf, cast_cast, cast_eq]
  all_goals rfl
set_option maxHeartbeats 2000000 in
theorem val13_main_v144 (V0 : Valuation τ sig (Elt F)) : val13 V0 (no_index (Proc.devRef .tc main_v144)) = term_main_v144 V0 := by
  unfold val13
  simp only [w12]
  after_results_simp
  try dsimp only [Matrix.cons_val]
  try after_results_simp
  try simp only [val12_main_v132, val12_main_v127, val12_main_v130, val12_main_v124, TRef.toBuf, TRef.ofBuf, cast_cast, cast_eq]
  all_goals rfl
set_option maxHeartbeats 2000000 in
theorem val13_main_v146 (V0 : Valuation τ sig (Elt F)) : val13 V0 (no_index (Proc.devRef .tc main_v146)) = term_main_v146 V0 := by
  unfold val13
  simp only [w12]
  after_results_simp
  try dsimp only [Matrix.cons_val]
  try after_results_simp
  try simp only [val12_main_v132, val12_main_v127, val12_main_v130, val12_main_v124, TRef.toBuf, TRef.ofBuf, cast_cast, cast_eq]
  all_goals rfl
set_option maxHeartbeats 2000000 in
theorem val13_main_v148 (V0 : Valuation τ sig (Elt F)) : val13 V0 (no_index (Proc.devRef .tc main_v148)) = term_main_v148 V0 := by
  unfold val13
  simp only [w12]
  after_results_simp
  try dsimp only [Matrix.cons_val]
  try after_results_simp
  try simp only [val12_main_v132, val12_main_v127, val12_main_v130, val12_main_v124, TRef.toBuf, TRef.ofBuf, cast_cast, cast_eq]
  all_goals rfl

/-- The buffer contents after the first 14 stretches. -/
def val14 (V0 : Valuation τ sig (Elt F)) : Valuation τ sig (Elt F) := after w13 (val13 V0)
abbrev w13_W : List (Ref sig .tc) := [main_v149, main_v150, main_v151, main_v152, main_v153, main_v154, main_v155, main_v156, main_v157, main_v158, main_v159, main_v160, main_v161, main_v162, main_v163, main_v164, main_v165, main_v166, main_v167, main_cst_47, main_call12_v0, main_call12_v1, main_v168]
theorem w13_writes : (w13 : List (HloOp τ sig (Elt F))).Forall fun op => op.writes ⊆ (w13_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
theorem val14_keep (V0 : Valuation τ sig (Elt F)) (r : Ref sig .tc) (h : r ∉ w13_W) :
    val14 V0 (Proc.devRef .tc r) = val13 V0 (Proc.devRef .tc r) :=
  after_of_writes_sub w13 _ w13_writes h
theorem val14_main_arg0 (V0 : Valuation τ sig (Elt F)) : val14 V0 (no_index (Proc.devRef .tc main_arg0)) = V0 (Proc.devRef .tc main_arg0) :=
  (val14_keep V0 main_arg0 (by decide)).trans (val13_main_arg0 V0)
theorem val14_main_arg1 (V0 : Valuation τ sig (Elt F)) : val14 V0 (no_index (Proc.devRef .tc main_arg1)) = V0 (Proc.devRef .tc main_arg1) :=
  (val14_keep V0 main_arg1 (by decide)).trans (val13_main_arg1 V0)
theorem val14_main_arg2 (V0 : Valuation τ sig (Elt F)) : val14 V0 (no_index (Proc.devRef .tc main_arg2)) = V0 (Proc.devRef .tc main_arg2) :=
  (val14_keep V0 main_arg2 (by decide)).trans (val13_main_arg2 V0)
theorem val14_main_arg3 (V0 : Valuation τ sig (Elt F)) : val14 V0 (no_index (Proc.devRef .tc main_arg3)) = V0 (Proc.devRef .tc main_arg3) :=
  (val14_keep V0 main_arg3 (by decide)).trans (val13_main_arg3 V0)
theorem val14_main_arg4 (V0 : Valuation τ sig (Elt F)) : val14 V0 (no_index (Proc.devRef .tc main_arg4)) = V0 (Proc.devRef .tc main_arg4) :=
  (val14_keep V0 main_arg4 (by decide)).trans (val13_main_arg4 V0)
theorem val14_main_v29 (V0 : Valuation τ sig (Elt F)) : val14 V0 (no_index (Proc.devRef .tc main_v29)) = term_main_v29 V0 :=
  (val14_keep V0 main_v29 (by decide)).trans (val13_main_v29 V0)
theorem val14_main_v110 (V0 : Valuation τ sig (Elt F)) : val14 V0 (no_index (Proc.devRef .tc main_v110)) = term_main_v110 V0 :=
  (val14_keep V0 main_v110 (by decide)).trans (val13_main_v110 V0)
theorem val14_main_v118 (V0 : Valuation τ sig (Elt F)) : val14 V0 (no_index (Proc.devRef .tc main_v118)) = term_main_v118 V0 :=
  (val14_keep V0 main_v118 (by decide)).trans (val13_main_v118 V0)
theorem val14_main_v121 (V0 : Valuation τ sig (Elt F)) : val14 V0 (no_index (Proc.devRef .tc main_v121)) = term_main_v121 V0 :=
  (val14_keep V0 main_v121 (by decide)).trans (val13_main_v121 V0)
theorem val14_main_v142 (V0 : Valuation τ sig (Elt F)) : val14 V0 (no_index (Proc.devRef .tc main_v142)) = term_main_v142 V0 :=
  (val14_keep V0 main_v142 (by decide)).trans (val13_main_v142 V0)
theorem val14_main_v144 (V0 : Valuation τ sig (Elt F)) : val14 V0 (no_index (Proc.devRef .tc main_v144)) = term_main_v144 V0 :=
  (val14_keep V0 main_v144 (by decide)).trans (val13_main_v144 V0)
theorem val14_main_v146 (V0 : Valuation τ sig (Elt F)) : val14 V0 (no_index (Proc.devRef .tc main_v146)) = term_main_v146 V0 :=
  (val14_keep V0 main_v146 (by decide)).trans (val13_main_v146 V0)
theorem val14_main_v148 (V0 : Valuation τ sig (Elt F)) : val14 V0 (no_index (Proc.devRef .tc main_v148)) = term_main_v148 V0 :=
  (val14_keep V0 main_v148 (by decide)).trans (val13_main_v148 V0)
set_option maxHeartbeats 2000000 in
theorem val14_main_v150 (V0 : Valuation τ sig (Elt F)) : val14 V0 (no_index (Proc.devRef .tc main_v150)) = term_main_v150 V0 := by
  unfold val14
  simp only [w13]
  after_results_simp
  try simp only [val13_main_v142, TRef.toBuf, TRef.ofBuf, cast_cast, cast_eq]
  all_goals rfl
set_option maxHeartbeats 2000000 in
theorem val14_main_v152 (V0 : Valuation τ sig (Elt F)) : val14 V0 (no_index (Proc.devRef .tc main_v152)) = term_main_v152 V0 := by
  unfold val14
  simp only [w13]
  after_results_simp
  try simp only [val13_main_v118, TRef.toBuf, TRef.ofBuf, cast_cast, cast_eq]
  all_goals rfl
set_option maxHeartbeats 2000000 in
theorem val14_main_v154 (V0 : Valuation τ sig (Elt F)) : val14 V0 (no_index (Proc.devRef .tc main_v154)) = term_main_v154 V0 := by
  unfold val14
  simp only [w13]
  after_results_simp
  try simp only [val13_main_v118, TRef.toBuf, TRef.ofBuf, cast_cast, cast_eq]
  all_goals rfl
set_option maxHeartbeats 2000000 in
theorem val14_main_v156 (V0 : Valuation τ sig (Elt F)) : val14 V0 (no_index (Proc.devRef .tc main_v156)) = term_main_v156 V0 := by
  unfold val14
  simp only [w13]
  after_results_simp
  try simp only [val13_main_v118, TRef.toBuf, TRef.ofBuf, cast_cast, cast_eq]
  all_goals rfl
set_option maxHeartbeats 2000000 in
theorem val14_main_v158 (V0 : Valuation τ sig (Elt F)) : val14 V0 (no_index (Proc.devRef .tc main_v158)) = term_main_v158 V0 := by
  unfold val14
  simp only [w13]
  after_results_simp
  try simp only [val13_main_v118, TRef.toBuf, TRef.ofBuf, cast_cast, cast_eq]
  all_goals rfl
set_option maxHeartbeats 2000000 in
theorem val14_main_v161 (V0 : Valuation τ sig (Elt F)) : val14 V0 (no_index (Proc.devRef .tc main_v161)) = term_main_v161 V0 := by
  unfold val14
  simp only [w13]
  after_results_simp
  try simp only [val13_main_v146, val13_main_v142, val13_main_v144, val13_main_v148, TRef.toBuf, TRef.ofBuf, cast_cast, cast_eq]
  all_goals rfl
set_option maxHeartbeats 2000000 in
theorem val14_main_v164 (V0 : Valuation τ sig (Elt F)) : val14 V0 (no_index (Proc.devRef .tc main_v164)) = term_main_v164 V0 := by
  unfold val14
  simp only [w13]
  after_results_simp
  try simp only [val13_main_v118, TRef.toBuf, TRef.ofBuf, cast_cast, cast_eq]
  all_goals rfl
set_option maxHeartbeats 2000000 in
theorem val14_main_v168 (V0 : Valuation τ sig (Elt F)) : val14 V0 (no_index (Proc.devRef .tc main_v168)) = term_main_v168 V0 := by
  unfold val14
  simp only [w13]
  after_results_simp
  try simp only [val13_main_v118, val13_main_v144, val13_main_v148, TRef.toBuf, TRef.ofBuf, cast_cast, cast_eq]
  all_goals rfl

/-- The buffer contents after the first 15 stretches. -/
def val15 (V0 : Valuation τ sig (Elt F)) : Valuation τ sig (Elt F) := after w14 (val14 V0)
abbrev w14_W : List (Ref sig .tc) := [main_v169, main_v170, main_v171, main_cst_48, main_call13_v0, main_call13_v1, main_v172, main_v173, main_v174, main_v175, main_cst_49, main_v176, main_v177, main_v178, main_v179, main_v180, main_v181, main_v182, main_v183, main_v184, main_v185, main_v186, main_cst_50]
theorem w14_writes : (w14 : List (HloOp τ sig (Elt F))).Forall fun op => op.writes ⊆ (w14_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
theorem val15_keep (V0 : Valuation τ sig (Elt F)) (r : Ref sig .tc) (h : r ∉ w14_W) :
    val15 V0 (Proc.devRef .tc r) = val14 V0 (Proc.devRef .tc r) :=
  after_of_writes_sub w14 _ w14_writes h
theorem val15_main_arg0 (V0 : Valuation τ sig (Elt F)) : val15 V0 (no_index (Proc.devRef .tc main_arg0)) = V0 (Proc.devRef .tc main_arg0) :=
  (val15_keep V0 main_arg0 (by decide)).trans (val14_main_arg0 V0)
theorem val15_main_arg1 (V0 : Valuation τ sig (Elt F)) : val15 V0 (no_index (Proc.devRef .tc main_arg1)) = V0 (Proc.devRef .tc main_arg1) :=
  (val15_keep V0 main_arg1 (by decide)).trans (val14_main_arg1 V0)
theorem val15_main_arg2 (V0 : Valuation τ sig (Elt F)) : val15 V0 (no_index (Proc.devRef .tc main_arg2)) = V0 (Proc.devRef .tc main_arg2) :=
  (val15_keep V0 main_arg2 (by decide)).trans (val14_main_arg2 V0)
theorem val15_main_arg3 (V0 : Valuation τ sig (Elt F)) : val15 V0 (no_index (Proc.devRef .tc main_arg3)) = V0 (Proc.devRef .tc main_arg3) :=
  (val15_keep V0 main_arg3 (by decide)).trans (val14_main_arg3 V0)
theorem val15_main_arg4 (V0 : Valuation τ sig (Elt F)) : val15 V0 (no_index (Proc.devRef .tc main_arg4)) = V0 (Proc.devRef .tc main_arg4) :=
  (val15_keep V0 main_arg4 (by decide)).trans (val14_main_arg4 V0)
theorem val15_main_v29 (V0 : Valuation τ sig (Elt F)) : val15 V0 (no_index (Proc.devRef .tc main_v29)) = term_main_v29 V0 :=
  (val15_keep V0 main_v29 (by decide)).trans (val14_main_v29 V0)
theorem val15_main_v110 (V0 : Valuation τ sig (Elt F)) : val15 V0 (no_index (Proc.devRef .tc main_v110)) = term_main_v110 V0 :=
  (val15_keep V0 main_v110 (by decide)).trans (val14_main_v110 V0)
theorem val15_main_v118 (V0 : Valuation τ sig (Elt F)) : val15 V0 (no_index (Proc.devRef .tc main_v118)) = term_main_v118 V0 :=
  (val15_keep V0 main_v118 (by decide)).trans (val14_main_v118 V0)
theorem val15_main_v121 (V0 : Valuation τ sig (Elt F)) : val15 V0 (no_index (Proc.devRef .tc main_v121)) = term_main_v121 V0 :=
  (val15_keep V0 main_v121 (by decide)).trans (val14_main_v121 V0)
theorem val15_main_v142 (V0 : Valuation τ sig (Elt F)) : val15 V0 (no_index (Proc.devRef .tc main_v142)) = term_main_v142 V0 :=
  (val15_keep V0 main_v142 (by decide)).trans (val14_main_v142 V0)
set_option maxHeartbeats 2000000 in
theorem val15_main_v178 (V0 : Valuation τ sig (Elt F)) : val15 V0 (no_index (Proc.devRef .tc main_v178)) = term_main_v178 V0 := by
  unfold val15
  simp only [w14]
  after_results_simp
  try simp only [val14_main_v154, val14_main_v146, val14_main_v158, val14_main_v150, val14_main_v168, val14_main_v164, val14_main_v161, TRef.toBuf, TRef.ofBuf, cast_cast, cast_eq]
  all_goals rfl
set_option maxHeartbeats 2000000 in
theorem val15_main_v185 (V0 : Valuation τ sig (Elt F)) : val15 V0 (no_index (Proc.devRef .tc main_v185)) = term_main_v185 V0 := by
  unfold val15
  simp only [w14]
  after_results_simp
  try simp only [val14_main_v154, val14_main_v146, val14_main_v158, val14_main_v150, val14_main_v152, val14_main_v144, val14_main_v156, val14_main_v148, TRef.toBuf, TRef.ofBuf, cast_cast, cast_eq]
  all_goals rfl
set_option maxHeartbeats 2000000 in
theorem val15_main_v186 (V0 : Valuation τ sig (Elt F)) : val15 V0 (no_index (Proc.devRef .tc main_v186)) = term_main_v186 V0 := by
  unfold val15
  simp only [w14]
  after_results_simp
  try simp only [val14_main_v154, val14_main_v146, val14_main_v158, val14_main_v150, val14_main_v168, val14_main_v164, val14_main_v161, val14_main_v152, val14_main_v144, val14_main_v156, val14_main_v148, TRef.toBuf, TRef.ofBuf, cast_cast, cast_eq]
  all_goals rfl
set_option maxHeartbeats 2000000 in
theorem val15_main_cst_50 (V0 : Valuation τ sig (Elt F)) : val15 V0 (no_index (Proc.devRef .tc main_cst_50)) = term_main_cst_50 V0 := by
  unfold val15
  simp only [w14]
  after_results_simp
  try simp only [TRef.toBuf, TRef.ofBuf, cast_cast, cast_eq]
  all_goals rfl

theorem after_part3 (V0 : Valuation τ sig (Elt F)) : after ops_part3 (val12 V0) = val15 V0 := by
  rw [ops_part3_eq_windows]
  simp only [after_append]
  rfl

end Cert.ReferenceIdeal.HandRun

end
-- ==== Proof.RefRead4.lean ====
/- The reference program's results read back, window 4 of the printed @main: the fold of the operations at a
   buffer is that buffer's composed term of the five argument arrays. A buffer read by more than one later
   operation, or by a later stretch, has its term named (`term_<buffer>`); a concatenate is named as a function of
   its operands (`cat_<buffer>`). -/
import proofs.«167267_j69861938037475_1_alg».proof.Proof.RefRead3

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

set_option maxRecDepth 16384

abbrev w15 : List (HloOp τ sig (Elt F)) :=
  [ StableHlo.unary main_cst_50 main_v187 (broadcastInDim S64x160 ![] bcast_S_S64x160 : (⟨S_, .f32⟩ : BufTy).Contents (Elt F) → (⟨S64x160, .f32⟩ : BufTy).Contents (Elt F)),
    StableHlo.binary main_v185 main_v187 main_v188 (addf : (⟨S64x160, .f32⟩ : BufTy).Contents (Elt F) → (⟨S64x160, .f32⟩ : BufTy).Contents (Elt F) → (⟨S64x160, .f32⟩ : BufTy).Contents (Elt F)),
    StableHlo.binary main_v186 main_v188 main_v189 (Host.divf : (⟨S64x160, .f32⟩ : BufTy).Contents (Elt F) → (⟨S64x160, .f32⟩ : BufTy).Contents (Elt F) → (⟨S64x160, .f32⟩ : BufTy).Contents (Elt F)),
    StableHlo.binary main_v178 main_v189 main_v190 (subf : (⟨S64x160, .f32⟩ : BufTy).Contents (Elt F) → (⟨S64x160, .f32⟩ : BufTy).Contents (Elt F) → (⟨S64x160, .f32⟩ : BufTy).Contents (Elt F)),
    StableHlo.nullary main_cst_51 (constant S_ .f32 0x358637BD#32),
    StableHlo.unary main_cst_51 main_v191 (broadcastInDim S64x160 ![] bcast_S_S64x160 : (⟨S_, .f32⟩ : BufTy).Contents (Elt F) → (⟨S64x160, .f32⟩ : BufTy).Contents (Elt F)),
    StableHlo.binary main_v178 main_v191 main_v192 (addf : (⟨S64x160, .f32⟩ : BufTy).Contents (Elt F) → (⟨S64x160, .f32⟩ : BufTy).Contents (Elt F) → (⟨S64x160, .f32⟩ : BufTy).Contents (Elt F)),
    StableHlo.unary main_v192 main_v193 (Host.log : (⟨S64x160, .f32⟩ : BufTy).Contents (Elt F) → (⟨S64x160, .f32⟩ : BufTy).Contents (Elt F)),
    StableHlo.unary main_v193 main_v194 (Host.negf : (⟨S64x160, .f32⟩ : BufTy).Contents (Elt F) → (⟨S64x160, .f32⟩ : BufTy).Contents (Elt F)),
    StableHlo.nullary main_cst_52 (constant S_ .f32 0x3F800000#32),
    StableHlo.unary main_cst_52 main_v195 (broadcastInDim S64x160 ![] bcast_S_S64x160 : (⟨S_, .f32⟩ : BufTy).Contents (Elt F) → (⟨S64x160, .f32⟩ : BufTy).Contents (Elt F)),
    StableHlo.binary main_v195 main_v190 main_v196 (subf : (⟨S64x160, .f32⟩ : BufTy).Contents (Elt F) → (⟨S64x160, .f32⟩ : BufTy).Contents (Elt F) → (⟨S64x160, .f32⟩ : BufTy).Contents (Elt F)),
    StableHlo.nullary main_cst_53 (constant S_ .f32 0x00000000#32),
    StableHlo.binary main_v194 main_cst_53 main_v197 ((fun x v => Host.reduceAdd x v reducesTo_S64x160_S64_d1 h_S_) : (⟨S64x160, .f32⟩ : BufTy).Contents (Elt F) → (⟨S_, .f32⟩ : BufTy).Contents (Elt F) → (⟨S64, .f32⟩ : BufTy).Contents (Elt F)),
    StableHlo.nullary main_cst_54 (constant S_ .f32 0x43200000#32),
    StableHlo.unary main_cst_54 main_v198 (broadcastInDim S64 ![] bcast_S_S64 : (⟨S_, .f32⟩ : BufTy).Contents (Elt F) → (⟨S64, .f32⟩ : BufTy).Contents (Elt F)),
    StableHlo.binary main_v197 main_v198 main_v199 (Host.divf : (⟨S64, .f32⟩ : BufTy).Contents (Elt F) → (⟨S64, .f32⟩ : BufTy).Contents (Elt F) → (⟨S64, .f32⟩ : BufTy).Contents (Elt F)),
    StableHlo.nullary main_cst_55 (constant S_ .f32 0x00000000#32),
    StableHlo.binary main_v196 main_cst_55 main_v200 ((fun x v => Host.reduceAdd x v reducesTo_S64x160_S64_d1 h_S_) : (⟨S64x160, .f32⟩ : BufTy).Contents (Elt F) → (⟨S_, .f32⟩ : BufTy).Contents (Elt F) → (⟨S64, .f32⟩ : BufTy).Contents (Elt F)),
    StableHlo.nullary main_cst_56 (constant S_ .f32 0x43200000#32) ]

abbrev w16 : List (HloOp τ sig (Elt F)) :=
  [ StableHlo.unary main_cst_56 main_v201 (broadcastInDim S64 ![] bcast_S_S64 : (⟨S_, .f32⟩ : BufTy).Contents (Elt F) → (⟨S64, .f32⟩ : BufTy).Contents (Elt F)),
    StableHlo.binary main_v200 main_v201 main_v202 (Host.divf : (⟨S64, .f32⟩ : BufTy).Contents (Elt F) → (⟨S64, .f32⟩ : BufTy).Contents (Elt F) → (⟨S64, .f32⟩ : BufTy).Contents (Elt F)),
    StableHlo.binary main_v142 main_v118 main_v203 (subf : (⟨S64x160x4, .f32⟩ : BufTy).Contents (Elt F) → (⟨S64x160x4, .f32⟩ : BufTy).Contents (Elt F) → (⟨S64x160x4, .f32⟩ : BufTy).Contents (Elt F)),
    StableHlo.unary main_v203 main_v204 (Host.absf : (⟨S64x160x4, .f32⟩ : BufTy).Contents (Elt F) → (⟨S64x160x4, .f32⟩ : BufTy).Contents (Elt F)),
    StableHlo.nullary main_cst_57 (constant S_ .f32 0x3F800000#32),
    StableHlo.unary main_cst_57 main_v205 (broadcastInDim S64x160x4 ![] bcast_S_S64x160x4 : (⟨S_, .f32⟩ : BufTy).Contents (Elt F) → (⟨S64x160x4, .f32⟩ : BufTy).Contents (Elt F)),
    StableHlo.binary main_v204 main_v205 main_v206 (cmpf .olt : (⟨S64x160x4, .f32⟩ : BufTy).Contents (Elt F) → (⟨S64x160x4, .f32⟩ : BufTy).Contents (Elt F) → (⟨S64x160x4, .i1⟩ : BufTy).Contents (Elt F)),
    StableHlo.nullary main_cst_58 (constant S_ .f32 0x3F000000#32),
    StableHlo.unary main_cst_58 main_v207 (broadcastInDim S64x160x4 ![] bcast_S_S64x160x4 : (⟨S_, .f32⟩ : BufTy).Contents (Elt F) → (⟨S64x160x4, .f32⟩ : BufTy).Contents (Elt F)),
    StableHlo.binary main_v207 main_v204 main_v208 (mulf : (⟨S64x160x4, .f32⟩ : BufTy).Contents (Elt F) → (⟨S64x160x4, .f32⟩ : BufTy).Contents (Elt F) → (⟨S64x160x4, .f32⟩ : BufTy).Contents (Elt F)),
    StableHlo.binary main_v208 main_v204 main_v209 (mulf : (⟨S64x160x4, .f32⟩ : BufTy).Contents (Elt F) → (⟨S64x160x4, .f32⟩ : BufTy).Contents (Elt F) → (⟨S64x160x4, .f32⟩ : BufTy).Contents (Elt F)),
    StableHlo.nullary main_cst_59 (constant S_ .f32 0x3F000000#32),
    StableHlo.unary main_cst_59 main_v210 (broadcastInDim S64x160x4 ![] bcast_S_S64x160x4 : (⟨S_, .f32⟩ : BufTy).Contents (Elt F) → (⟨S64x160x4, .f32⟩ : BufTy).Contents (Elt F)),
    StableHlo.binary main_v204 main_v210 main_v211 (subf : (⟨S64x160x4, .f32⟩ : BufTy).Contents (Elt F) → (⟨S64x160x4, .f32⟩ : BufTy).Contents (Elt F) → (⟨S64x160x4, .f32⟩ : BufTy).Contents (Elt F)),
    StableHlo.TRef.ternary (.of main_v206 : StableHlo.TRef sig ⟨S64x160x4, .i1⟩) (.of main_v209 : StableHlo.TRef sig ⟨S64x160x4, .f32⟩) (.of main_v211 : StableHlo.TRef sig ⟨S64x160x4, .f32⟩) (.of main_v212 : StableHlo.TRef sig ⟨S64x160x4, .f32⟩) select,
    StableHlo.nullary main_cst_60 (constant S_ .f32 0x00000000#32),
    StableHlo.binary main_v212 main_cst_60 main_v213 ((fun x v => Host.reduceAdd x v reducesTo_S64x160x4_S64_d1_2 h_S_) : (⟨S64x160x4, .f32⟩ : BufTy).Contents (Elt F) → (⟨S_, .f32⟩ : BufTy).Contents (Elt F) → (⟨S64, .f32⟩ : BufTy).Contents (Elt F)),
    StableHlo.nullary main_cst_61 (constant S_ .f32 0x44200000#32),
    StableHlo.unary main_cst_61 main_v214 (broadcastInDim S64 ![] bcast_S_S64 : (⟨S_, .f32⟩ : BufTy).Contents (Elt F) → (⟨S64, .f32⟩ : BufTy).Contents (Elt F)),
    StableHlo.binary main_v213 main_v214 main_v215 (Host.divf : (⟨S64, .f32⟩ : BufTy).Contents (Elt F) → (⟨S64, .f32⟩ : BufTy).Contents (Elt F) → (⟨S64, .f32⟩ : BufTy).Contents (Elt F)) ]

abbrev w17 : List (HloOp τ sig (Elt F)) :=
  [ StableHlo.nullary main_cst_62 (constant S_ .f32 0x3F000000#32),
    StableHlo.unary main_cst_62 main_v216 (broadcastInDim S64 ![] bcast_S_S64 : (⟨S_, .f32⟩ : BufTy).Contents (Elt F) → (⟨S64, .f32⟩ : BufTy).Contents (Elt F)),
    StableHlo.binary main_v216 main_v199 main_v217 (mulf : (⟨S64, .f32⟩ : BufTy).Contents (Elt F) → (⟨S64, .f32⟩ : BufTy).Contents (Elt F) → (⟨S64, .f32⟩ : BufTy).Contents (Elt F)),
    StableHlo.nullary main_cst_63 (constant S_ .f32 0x3E99999A#32),
    StableHlo.unary main_cst_63 main_v218 (broadcastInDim S64 ![] bcast_S_S64 : (⟨S_, .f32⟩ : BufTy).Contents (Elt F) → (⟨S64, .f32⟩ : BufTy).Contents (Elt F)),
    StableHlo.binary main_v218 main_v215 main_v219 (mulf : (⟨S64, .f32⟩ : BufTy).Contents (Elt F) → (⟨S64, .f32⟩ : BufTy).Contents (Elt F) → (⟨S64, .f32⟩ : BufTy).Contents (Elt F)),
    StableHlo.binary main_v217 main_v219 main_v220 (addf : (⟨S64, .f32⟩ : BufTy).Contents (Elt F) → (⟨S64, .f32⟩ : BufTy).Contents (Elt F) → (⟨S64, .f32⟩ : BufTy).Contents (Elt F)),
    StableHlo.nullary main_cst_64 (constant S_ .f32 0x3E4CCCCD#32),
    StableHlo.unary main_cst_64 main_v221 (broadcastInDim S64 ![] bcast_S_S64 : (⟨S_, .f32⟩ : BufTy).Contents (Elt F) → (⟨S64, .f32⟩ : BufTy).Contents (Elt F)),
    StableHlo.binary main_v221 main_v202 main_v222 (mulf : (⟨S64, .f32⟩ : BufTy).Contents (Elt F) → (⟨S64, .f32⟩ : BufTy).Contents (Elt F) → (⟨S64, .f32⟩ : BufTy).Contents (Elt F)),
    StableHlo.binary main_v220 main_v222 main_v223 (addf : (⟨S64, .f32⟩ : BufTy).Contents (Elt F) → (⟨S64, .f32⟩ : BufTy).Contents (Elt F) → (⟨S64, .f32⟩ : BufTy).Contents (Elt F)),
    StableHlo.nullary main_cst_65 (constant S_ .f32 0x00000000#32),
    StableHlo.binary main_v223 main_cst_65 main_v224 ((fun x v => Host.reduceAdd x v reducesTo_S64_S_d0 h_S_) : (⟨S64, .f32⟩ : BufTy).Contents (Elt F) → (⟨S_, .f32⟩ : BufTy).Contents (Elt F) → (⟨S_, .f32⟩ : BufTy).Contents (Elt F)),
    StableHlo.nullary main_cst_66 (constant S_ .f32 0x42800000#32),
    StableHlo.binary main_v224 main_cst_66 main_v225 (Host.divf : (⟨S_, .f32⟩ : BufTy).Contents (Elt F) → (⟨S_, .f32⟩ : BufTy).Contents (Elt F) → (⟨S_, .f32⟩ : BufTy).Contents (Elt F)),
    StableHlo.unary main_v110 main_v226 (Host.log : (⟨S64x160, .f32⟩ : BufTy).Contents (Elt F) → (⟨S64x160, .f32⟩ : BufTy).Contents (Elt F)),
    StableHlo.nullary main_cst_67 (constant S_ .f32 0xC2C80000#32),
    StableHlo.unary main_cst_67 main_v227 (broadcastInDim S64x160 ![] bcast_S_S64x160 : (⟨S_, .f32⟩ : BufTy).Contents (Elt F) → (⟨S64x160, .f32⟩ : BufTy).Contents (Elt F)),
    StableHlo.binary main_v226 main_v227 main_v228 (maximumf : (⟨S64x160, .f32⟩ : BufTy).Contents (Elt F) → (⟨S64x160, .f32⟩ : BufTy).Contents (Elt F) → (⟨S64x160, .f32⟩ : BufTy).Contents (Elt F)),
    StableHlo.unary main_v110 main_v229 (Host.negf : (⟨S64x160, .f32⟩ : BufTy).Contents (Elt F) → (⟨S64x160, .f32⟩ : BufTy).Contents (Elt F)) ]

theorem ops_part4_eq_windows : (ops_part4 : List (HloOp τ sig (Elt F))) = w15 ++ (w16 ++ (w17)) := rfl

/-- The buffer contents after the first 16 stretches. -/
def val16 (V0 : Valuation τ sig (Elt F)) : Valuation τ sig (Elt F) := after w15 (val15 V0)
abbrev w15_W : List (Ref sig .tc) := [main_v187, main_v188, main_v189, main_v190, main_cst_51, main_v191, main_v192, main_v193, main_v194, main_cst_52, main_v195, main_v196, main_cst_53, main_v197, main_cst_54, main_v198, main_v199, main_cst_55, main_v200, main_cst_56]
theorem w15_writes : (w15 : List (HloOp τ sig (Elt F))).Forall fun op => op.writes ⊆ (w15_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
theorem val16_keep (V0 : Valuation τ sig (Elt F)) (r : Ref sig .tc) (h : r ∉ w15_W) :
    val16 V0 (Proc.devRef .tc r) = val15 V0 (Proc.devRef .tc r) :=
  after_of_writes_sub w15 _ w15_writes h
theorem val16_main_arg0 (V0 : Valuation τ sig (Elt F)) : val16 V0 (no_index (Proc.devRef .tc main_arg0)) = V0 (Proc.devRef .tc main_arg0) :=
  (val16_keep V0 main_arg0 (by decide)).trans (val15_main_arg0 V0)
theorem val16_main_arg1 (V0 : Valuation τ sig (Elt F)) : val16 V0 (no_index (Proc.devRef .tc main_arg1)) = V0 (Proc.devRef .tc main_arg1) :=
  (val16_keep V0 main_arg1 (by decide)).trans (val15_main_arg1 V0)
theorem val16_main_arg2 (V0 : Valuation τ sig (Elt F)) : val16 V0 (no_index (Proc.devRef .tc main_arg2)) = V0 (Proc.devRef .tc main_arg2) :=
  (val16_keep V0 main_arg2 (by decide)).trans (val15_main_arg2 V0)
theorem val16_main_arg3 (V0 : Valuation τ sig (Elt F)) : val16 V0 (no_index (Proc.devRef .tc main_arg3)) = V0 (Proc.devRef .tc main_arg3) :=
  (val16_keep V0 main_arg3 (by decide)).trans (val15_main_arg3 V0)
theorem val16_main_arg4 (V0 : Valuation τ sig (Elt F)) : val16 V0 (no_index (Proc.devRef .tc main_arg4)) = V0 (Proc.devRef .tc main_arg4) :=
  (val16_keep V0 main_arg4 (by decide)).trans (val15_main_arg4 V0)
theorem val16_main_v29 (V0 : Valuation τ sig (Elt F)) : val16 V0 (no_index (Proc.devRef .tc main_v29)) = term_main_v29 V0 :=
  (val16_keep V0 main_v29 (by decide)).trans (val15_main_v29 V0)
theorem val16_main_v110 (V0 : Valuation τ sig (Elt F)) : val16 V0 (no_index (Proc.devRef .tc main_v110)) = term_main_v110 V0 :=
  (val16_keep V0 main_v110 (by decide)).trans (val15_main_v110 V0)
theorem val16_main_v118 (V0 : Valuation τ sig (Elt F)) : val16 V0 (no_index (Proc.devRef .tc main_v118)) = term_main_v118 V0 :=
  (val16_keep V0 main_v118 (by decide)).trans (val15_main_v118 V0)
theorem val16_main_v121 (V0 : Valuation τ sig (Elt F)) : val16 V0 (no_index (Proc.devRef .tc main_v121)) = term_main_v121 V0 :=
  (val16_keep V0 main_v121 (by decide)).trans (val15_main_v121 V0)
theorem val16_main_v142 (V0 : Valuation τ sig (Elt F)) : val16 V0 (no_index (Proc.devRef .tc main_v142)) = term_main_v142 V0 :=
  (val16_keep V0 main_v142 (by decide)).trans (val15_main_v142 V0)
set_option maxHeartbeats 2000000 in
theorem val16_main_v199 (V0 : Valuation τ sig (Elt F)) : val16 V0 (no_index (Proc.devRef .tc main_v199)) = term_main_v199 V0 := by
  unfold val16
  simp only [w15]
  after_results_simp
  try simp only [val15_main_v178, TRef.toBuf, TRef.ofBuf, cast_cast, cast_eq]
  all_goals rfl
set_option maxHeartbeats 2000000 in
theorem val16_main_v200 (V0 : Valuation τ sig (Elt F)) : val16 V0 (no_index (Proc.devRef .tc main_v200)) = term_main_v200 V0 := by
  unfold val16
  simp only [w15]
  after_results_simp
  try simp only [val15_main_cst_50, val15_main_v185, val15_main_v186, val15_main_v178, TRef.toBuf, TRef.ofBuf, cast_cast, cast_eq]
  all_goals rfl
set_option maxHeartbeats 2000000 in
theorem val16_main_cst_56 (V0 : Valuation τ sig (Elt F)) : val16 V0 (no_index (Proc.devRef .tc main_cst_56)) = term_main_cst_56 V0 := by
  unfold val16
  simp only [w15]
  after_results_simp
  try simp only [TRef.toBuf, TRef.ofBuf, cast_cast, cast_eq]
  all_goals rfl

/-- The buffer contents after the first 17 stretches. -/
def val17 (V0 : Valuation τ sig (Elt F)) : Valuation τ sig (Elt F) := after w16 (val16 V0)
abbrev w16_W : List (Ref sig .tc) := [main_v201, main_v202, main_v203, main_v204, main_cst_57, main_v205, main_v206, main_cst_58, main_v207, main_v208, main_v209, main_cst_59, main_v210, main_v211, main_v212, main_cst_60, main_v213, main_cst_61, main_v214, main_v215]
theorem w16_writes : (w16 : List (HloOp τ sig (Elt F))).Forall fun op => op.writes ⊆ (w16_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
theorem val17_keep (V0 : Valuation τ sig (Elt F)) (r : Ref sig .tc) (h : r ∉ w16_W) :
    val17 V0 (Proc.devRef .tc r) = val16 V0 (Proc.devRef .tc r) :=
  after_of_writes_sub w16 _ w16_writes h
theorem val17_main_arg0 (V0 : Valuation τ sig (Elt F)) : val17 V0 (no_index (Proc.devRef .tc main_arg0)) = V0 (Proc.devRef .tc main_arg0) :=
  (val17_keep V0 main_arg0 (by decide)).trans (val16_main_arg0 V0)
theorem val17_main_arg1 (V0 : Valuation τ sig (Elt F)) : val17 V0 (no_index (Proc.devRef .tc main_arg1)) = V0 (Proc.devRef .tc main_arg1) :=
  (val17_keep V0 main_arg1 (by decide)).trans (val16_main_arg1 V0)
theorem val17_main_arg2 (V0 : Valuation τ sig (Elt F)) : val17 V0 (no_index (Proc.devRef .tc main_arg2)) = V0 (Proc.devRef .tc main_arg2) :=
  (val17_keep V0 main_arg2 (by decide)).trans (val16_main_arg2 V0)
theorem val17_main_arg3 (V0 : Valuation τ sig (Elt F)) : val17 V0 (no_index (Proc.devRef .tc main_arg3)) = V0 (Proc.devRef .tc main_arg3) :=
  (val17_keep V0 main_arg3 (by decide)).trans (val16_main_arg3 V0)
theorem val17_main_arg4 (V0 : Valuation τ sig (Elt F)) : val17 V0 (no_index (Proc.devRef .tc main_arg4)) = V0 (Proc.devRef .tc main_arg4) :=
  (val17_keep V0 main_arg4 (by decide)).trans (val16_main_arg4 V0)
theorem val17_main_v29 (V0 : Valuation τ sig (Elt F)) : val17 V0 (no_index (Proc.devRef .tc main_v29)) = term_main_v29 V0 :=
  (val17_keep V0 main_v29 (by decide)).trans (val16_main_v29 V0)
theorem val17_main_v110 (V0 : Valuation τ sig (Elt F)) : val17 V0 (no_index (Proc.devRef .tc main_v110)) = term_main_v110 V0 :=
  (val17_keep V0 main_v110 (by decide)).trans (val16_main_v110 V0)
theorem val17_main_v121 (V0 : Valuation τ sig (Elt F)) : val17 V0 (no_index (Proc.devRef .tc main_v121)) = term_main_v121 V0 :=
  (val17_keep V0 main_v121 (by decide)).trans (val16_main_v121 V0)
theorem val17_main_v199 (V0 : Valuation τ sig (Elt F)) : val17 V0 (no_index (Proc.devRef .tc main_v199)) = term_main_v199 V0 :=
  (val17_keep V0 main_v199 (by decide)).trans (val16_main_v199 V0)
set_option maxHeartbeats 2000000 in
theorem val17_main_v202 (V0 : Valuation τ sig (Elt F)) : val17 V0 (no_index (Proc.devRef .tc main_v202)) = term_main_v202 V0 := by
  unfold val17
  simp only [w16]
  after_results_simp
  try simp only [val16_main_cst_56, val16_main_v200, TRef.toBuf, TRef.ofBuf, cast_cast, cast_eq]
  all_goals rfl
set_option maxHeartbeats 2000000 in
theorem val17_main_v215 (V0 : Valuation τ sig (Elt F)) : val17 V0 (no_index (Proc.devRef .tc main_v215)) = term_main_v215 V0 := by
  unfold val17
  simp only [w16]
  after_results_simp
  try simp only [val16_main_v118, val16_main_v142, TRef.toBuf, TRef.ofBuf, cast_cast, cast_eq]
  all_goals rfl

/-- The buffer contents after the first 18 stretches. -/
def val18 (V0 : Valuation τ sig (Elt F)) : Valuation τ sig (Elt F) := after w17 (val17 V0)
abbrev w17_W : List (Ref sig .tc) := [main_cst_62, main_v216, main_v217, main_cst_63, main_v218, main_v219, main_v220, main_cst_64, main_v221, main_v222, main_v223, main_cst_65, main_v224, main_cst_66, main_v225, main_v226, main_cst_67, main_v227, main_v228, main_v229]
theorem w17_writes : (w17 : List (HloOp τ sig (Elt F))).Forall fun op => op.writes ⊆ (w17_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
theorem val18_keep (V0 : Valuation τ sig (Elt F)) (r : Ref sig .tc) (h : r ∉ w17_W) :
    val18 V0 (Proc.devRef .tc r) = val17 V0 (Proc.devRef .tc r) :=
  after_of_writes_sub w17 _ w17_writes h
theorem val18_main_arg0 (V0 : Valuation τ sig (Elt F)) : val18 V0 (no_index (Proc.devRef .tc main_arg0)) = V0 (Proc.devRef .tc main_arg0) :=
  (val18_keep V0 main_arg0 (by decide)).trans (val17_main_arg0 V0)
theorem val18_main_arg1 (V0 : Valuation τ sig (Elt F)) : val18 V0 (no_index (Proc.devRef .tc main_arg1)) = V0 (Proc.devRef .tc main_arg1) :=
  (val18_keep V0 main_arg1 (by decide)).trans (val17_main_arg1 V0)
theorem val18_main_arg2 (V0 : Valuation τ sig (Elt F)) : val18 V0 (no_index (Proc.devRef .tc main_arg2)) = V0 (Proc.devRef .tc main_arg2) :=
  (val18_keep V0 main_arg2 (by decide)).trans (val17_main_arg2 V0)
theorem val18_main_arg3 (V0 : Valuation τ sig (Elt F)) : val18 V0 (no_index (Proc.devRef .tc main_arg3)) = V0 (Proc.devRef .tc main_arg3) :=
  (val18_keep V0 main_arg3 (by decide)).trans (val17_main_arg3 V0)
theorem val18_main_arg4 (V0 : Valuation τ sig (Elt F)) : val18 V0 (no_index (Proc.devRef .tc main_arg4)) = V0 (Proc.devRef .tc main_arg4) :=
  (val18_keep V0 main_arg4 (by decide)).trans (val17_main_arg4 V0)
theorem val18_main_v29 (V0 : Valuation τ sig (Elt F)) : val18 V0 (no_index (Proc.devRef .tc main_v29)) = term_main_v29 V0 :=
  (val18_keep V0 main_v29 (by decide)).trans (val17_main_v29 V0)
theorem val18_main_v121 (V0 : Valuation τ sig (Elt F)) : val18 V0 (no_index (Proc.devRef .tc main_v121)) = term_main_v121 V0 :=
  (val18_keep V0 main_v121 (by decide)).trans (val17_main_v121 V0)
set_option maxHeartbeats 2000000 in
theorem val18_main_v225 (V0 : Valuation τ sig (Elt F)) : val18 V0 (no_index (Proc.devRef .tc main_v225)) = term_main_v225 V0 := by
  unfold val18
  simp only [w17]
  after_results_simp
  try simp only [val17_main_v202, val17_main_v215, val17_main_v199, TRef.toBuf, TRef.ofBuf, cast_cast, cast_eq]
  all_goals rfl
set_option maxHeartbeats 2000000 in
theorem val18_main_v228 (V0 : Valuation τ sig (Elt F)) : val18 V0 (no_index (Proc.devRef .tc main_v228)) = term_main_v228 V0 := by
  unfold val18
  simp only [w17]
  after_results_simp
  try simp only [val17_main_v110, TRef.toBuf, TRef.ofBuf, cast_cast, cast_eq]
  all_goals rfl
set_option maxHeartbeats 2000000 in
theorem val18_main_v229 (V0 : Valuation τ sig (Elt F)) : val18 V0 (no_index (Proc.devRef .tc main_v229)) = term_main_v229 V0 := by
  unfold val18
  simp only [w17]
  after_results_simp
  try simp only [val17_main_v110, TRef.toBuf, TRef.ofBuf, cast_cast, cast_eq]
  all_goals rfl

theorem after_part4 (V0 : Valuation τ sig (Elt F)) : after ops_part4 (val15 V0) = val18 V0 := by
  rw [ops_part4_eq_windows]
  simp only [after_append]
  rfl

end Cert.ReferenceIdeal.HandRun

end
-- ==== Proof.RefRead5.lean ====
/- The reference program's results read back, window 5 of the printed @main: the fold of the operations at a
   buffer is that buffer's composed term of the five argument arrays. A buffer read by more than one later
   operation, or by a later stretch, has its term named (`term_<buffer>`); a concatenate is named as a function of
   its operands (`cat_<buffer>`). -/
import proofs.«167267_j69861938037475_1_alg».proof.Proof.RefRead4

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

set_option maxRecDepth 16384

abbrev w18 : List (HloOp τ sig (Elt F)) :=
  [ StableHlo.unary main_v229 main_v230 (Host.log1p : (⟨S64x160, .f32⟩ : BufTy).Contents (Elt F) → (⟨S64x160, .f32⟩ : BufTy).Contents (Elt F)),
    StableHlo.nullary main_cst_68 (constant S_ .f32 0xC2C80000#32),
    StableHlo.unary main_cst_68 main_v231 (broadcastInDim S64x160 ![] bcast_S_S64x160 : (⟨S_, .f32⟩ : BufTy).Contents (Elt F) → (⟨S64x160, .f32⟩ : BufTy).Contents (Elt F)),
    StableHlo.binary main_v230 main_v231 main_v232 (maximumf : (⟨S64x160, .f32⟩ : BufTy).Contents (Elt F) → (⟨S64x160, .f32⟩ : BufTy).Contents (Elt F) → (⟨S64x160, .f32⟩ : BufTy).Contents (Elt F)),
    StableHlo.binary main_v121 main_v228 main_v233 (mulf : (⟨S64x160, .f32⟩ : BufTy).Contents (Elt F) → (⟨S64x160, .f32⟩ : BufTy).Contents (Elt F) → (⟨S64x160, .f32⟩ : BufTy).Contents (Elt F)),
    StableHlo.nullary main_cst_69 (constant S_ .f32 0x3F800000#32),
    StableHlo.unary main_cst_69 main_v234 (broadcastInDim S64x160 ![] bcast_S_S64x160 : (⟨S_, .f32⟩ : BufTy).Contents (Elt F) → (⟨S64x160, .f32⟩ : BufTy).Contents (Elt F)),
    StableHlo.binary main_v234 main_v121 main_v235 (subf : (⟨S64x160, .f32⟩ : BufTy).Contents (Elt F) → (⟨S64x160, .f32⟩ : BufTy).Contents (Elt F) → (⟨S64x160, .f32⟩ : BufTy).Contents (Elt F)),
    StableHlo.binary main_v235 main_v232 main_v236 (mulf : (⟨S64x160, .f32⟩ : BufTy).Contents (Elt F) → (⟨S64x160, .f32⟩ : BufTy).Contents (Elt F) → (⟨S64x160, .f32⟩ : BufTy).Contents (Elt F)),
    StableHlo.binary main_v233 main_v236 main_v237 (addf : (⟨S64x160, .f32⟩ : BufTy).Contents (Elt F) → (⟨S64x160, .f32⟩ : BufTy).Contents (Elt F) → (⟨S64x160, .f32⟩ : BufTy).Contents (Elt F)),
    StableHlo.unary main_v237 main_v238 (Host.negf : (⟨S64x160, .f32⟩ : BufTy).Contents (Elt F) → (⟨S64x160, .f32⟩ : BufTy).Contents (Elt F)),
    StableHlo.nullary main_cst_70 (constant S_ .f32 0x00000000#32),
    StableHlo.binary main_v238 main_cst_70 main_v239 ((fun x v => Host.reduceAdd x v reducesTo_S64x160_S64_d1 h_S_) : (⟨S64x160, .f32⟩ : BufTy).Contents (Elt F) → (⟨S_, .f32⟩ : BufTy).Contents (Elt F) → (⟨S64, .f32⟩ : BufTy).Contents (Elt F)),
    StableHlo.nullary main_cst_71 (constant S_ .f32 0x43200000#32) ]

abbrev w19 : List (HloOp τ sig (Elt F)) :=
  [ StableHlo.unary main_cst_71 main_v240 (broadcastInDim S64 ![] bcast_S_S64 : (⟨S_, .f32⟩ : BufTy).Contents (Elt F) → (⟨S64, .f32⟩ : BufTy).Contents (Elt F)),
    StableHlo.binary main_v239 main_v240 main_v241 (Host.divf : (⟨S64, .f32⟩ : BufTy).Contents (Elt F) → (⟨S64, .f32⟩ : BufTy).Contents (Elt F) → (⟨S64, .f32⟩ : BufTy).Contents (Elt F)),
    StableHlo.nullary main_cst_72 (constant S_ .f32 0x00000000#32),
    StableHlo.binary main_v241 main_cst_72 main_v242 ((fun x v => Host.reduceAdd x v reducesTo_S64_S_d0 h_S_) : (⟨S64, .f32⟩ : BufTy).Contents (Elt F) → (⟨S_, .f32⟩ : BufTy).Contents (Elt F) → (⟨S_, .f32⟩ : BufTy).Contents (Elt F)),
    StableHlo.nullary main_cst_73 (constant S_ .f32 0x42800000#32),
    StableHlo.binary main_v242 main_cst_73 main_v243 (Host.divf : (⟨S_, .f32⟩ : BufTy).Contents (Elt F) → (⟨S_, .f32⟩ : BufTy).Contents (Elt F) → (⟨S_, .f32⟩ : BufTy).Contents (Elt F)),
    StableHlo.nullary main_cst_74 (constant S_ .f32 0x3F800000#32),
    StableHlo.binary main_cst_74 main_v29 main_v244 (mulf : (⟨S_, .f32⟩ : BufTy).Contents (Elt F) → (⟨S_, .f32⟩ : BufTy).Contents (Elt F) → (⟨S_, .f32⟩ : BufTy).Contents (Elt F)),
    StableHlo.nullary main_cst_75 (constant S_ .f32 0x41A00000#32),
    StableHlo.binary main_cst_75 main_v225 main_v245 (mulf : (⟨S_, .f32⟩ : BufTy).Contents (Elt F) → (⟨S_, .f32⟩ : BufTy).Contents (Elt F) → (⟨S_, .f32⟩ : BufTy).Contents (Elt F)),
    StableHlo.binary main_v244 main_v245 main_v246 (addf : (⟨S_, .f32⟩ : BufTy).Contents (Elt F) → (⟨S_, .f32⟩ : BufTy).Contents (Elt F) → (⟨S_, .f32⟩ : BufTy).Contents (Elt F)),
    StableHlo.nullary main_cst_76 (constant S_ .f32 0x3F000000#32),
    StableHlo.binary main_cst_76 main_v243 main_v247 (mulf : (⟨S_, .f32⟩ : BufTy).Contents (Elt F) → (⟨S_, .f32⟩ : BufTy).Contents (Elt F) → (⟨S_, .f32⟩ : BufTy).Contents (Elt F)),
    StableHlo.binary main_v246 main_v247 main_v248 (addf : (⟨S_, .f32⟩ : BufTy).Contents (Elt F) → (⟨S_, .f32⟩ : BufTy).Contents (Elt F) → (⟨S_, .f32⟩ : BufTy).Contents (Elt F)) ]

theorem ops_part5_eq_windows : (ops_part5 : List (HloOp τ sig (Elt F))) = w18 ++ (w19) := rfl

/-- The buffer contents after the first 19 stretches. -/
def val19 (V0 : Valuation τ sig (Elt F)) : Valuation τ sig (Elt F) := after w18 (val18 V0)
abbrev w18_W : List (Ref sig .tc) := [main_v230, main_cst_68, main_v231, main_v232, main_v233, main_cst_69, main_v234, main_v235, main_v236, main_v237, main_v238, main_cst_70, main_v239, main_cst_71]
theorem w18_writes : (w18 : List (HloOp τ sig (Elt F))).Forall fun op => op.writes ⊆ (w18_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
theorem val19_keep (V0 : Valuation τ sig (Elt F)) (r : Ref sig .tc) (h : r ∉ w18_W) :
    val19 V0 (Proc.devRef .tc r) = val18 V0 (Proc.devRef .tc r) :=
  after_of_writes_sub w18 _ w18_writes h
theorem val19_main_arg0 (V0 : Valuation τ sig (Elt F)) : val19 V0 (no_index (Proc.devRef .tc main_arg0)) = V0 (Proc.devRef .tc main_arg0) :=
  (val19_keep V0 main_arg0 (by decide)).trans (val18_main_arg0 V0)
theorem val19_main_arg1 (V0 : Valuation τ sig (Elt F)) : val19 V0 (no_index (Proc.devRef .tc main_arg1)) = V0 (Proc.devRef .tc main_arg1) :=
  (val19_keep V0 main_arg1 (by decide)).trans (val18_main_arg1 V0)
theorem val19_main_arg2 (V0 : Valuation τ sig (Elt F)) : val19 V0 (no_index (Proc.devRef .tc main_arg2)) = V0 (Proc.devRef .tc main_arg2) :=
  (val19_keep V0 main_arg2 (by decide)).trans (val18_main_arg2 V0)
theorem val19_main_arg3 (V0 : Valuation τ sig (Elt F)) : val19 V0 (no_index (Proc.devRef .tc main_arg3)) = V0 (Proc.devRef .tc main_arg3) :=
  (val19_keep V0 main_arg3 (by decide)).trans (val18_main_arg3 V0)
theorem val19_main_arg4 (V0 : Valuation τ sig (Elt F)) : val19 V0 (no_index (Proc.devRef .tc main_arg4)) = V0 (Proc.devRef .tc main_arg4) :=
  (val19_keep V0 main_arg4 (by decide)).trans (val18_main_arg4 V0)
theorem val19_main_v29 (V0 : Valuation τ sig (Elt F)) : val19 V0 (no_index (Proc.devRef .tc main_v29)) = term_main_v29 V0 :=
  (val19_keep V0 main_v29 (by decide)).trans (val18_main_v29 V0)
theorem val19_main_v225 (V0 : Valuation τ sig (Elt F)) : val19 V0 (no_index (Proc.devRef .tc main_v225)) = term_main_v225 V0 :=
  (val19_keep V0 main_v225 (by decide)).trans (val18_main_v225 V0)
set_option maxHeartbeats 2000000 in
theorem val19_main_v239 (V0 : Valuation τ sig (Elt F)) : val19 V0 (no_index (Proc.devRef .tc main_v239)) = term_main_v239 V0 := by
  unfold val19
  simp only [w18]
  after_results_simp
  try simp only [val18_main_v229, val18_main_v121, val18_main_v228, TRef.toBuf, TRef.ofBuf, cast_cast, cast_eq]
  all_goals rfl
set_option maxHeartbeats 2000000 in
theorem val19_main_cst_71 (V0 : Valuation τ sig (Elt F)) : val19 V0 (no_index (Proc.devRef .tc main_cst_71)) = term_main_cst_71 V0 := by
  unfold val19
  simp only [w18]
  after_results_simp
  try simp only [TRef.toBuf, TRef.ofBuf, cast_cast, cast_eq]
  all_goals rfl

/-- The buffer contents after the first 20 stretches. -/
def val20 (V0 : Valuation τ sig (Elt F)) : Valuation τ sig (Elt F) := after w19 (val19 V0)
abbrev w19_W : List (Ref sig .tc) := [main_v240, main_v241, main_cst_72, main_v242, main_cst_73, main_v243, main_cst_74, main_v244, main_cst_75, main_v245, main_v246, main_cst_76, main_v247, main_v248]
theorem w19_writes : (w19 : List (HloOp τ sig (Elt F))).Forall fun op => op.writes ⊆ (w19_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
theorem val20_keep (V0 : Valuation τ sig (Elt F)) (r : Ref sig .tc) (h : r ∉ w19_W) :
    val20 V0 (Proc.devRef .tc r) = val19 V0 (Proc.devRef .tc r) :=
  after_of_writes_sub w19 _ w19_writes h
theorem val20_main_v29 (V0 : Valuation τ sig (Elt F)) : val20 V0 (no_index (Proc.devRef .tc main_v29)) = term_main_v29 V0 :=
  (val20_keep V0 main_v29 (by decide)).trans (val19_main_v29 V0)
theorem val20_main_v225 (V0 : Valuation τ sig (Elt F)) : val20 V0 (no_index (Proc.devRef .tc main_v225)) = term_main_v225 V0 :=
  (val20_keep V0 main_v225 (by decide)).trans (val19_main_v225 V0)
set_option maxHeartbeats 2000000 in
theorem val20_main_v243 (V0 : Valuation τ sig (Elt F)) : val20 V0 (no_index (Proc.devRef .tc main_v243)) = term_main_v243 V0 := by
  unfold val20
  simp only [w19]
  after_results_simp
  try simp only [val19_main_cst_71, val19_main_v239, TRef.toBuf, TRef.ofBuf, cast_cast, cast_eq]
  all_goals rfl
set_option maxHeartbeats 2000000 in
theorem val20_main_v248 (V0 : Valuation τ sig (Elt F)) : val20 V0 (no_index (Proc.devRef .tc main_v248)) = term_main_v248 V0 := by
  unfold val20
  simp only [w19]
  after_results_simp
  try simp only [val19_main_cst_71, val19_main_v239, val19_main_v225, val19_main_v29, TRef.toBuf, TRef.ofBuf, cast_cast, cast_eq]
  all_goals rfl

theorem after_part5 (V0 : Valuation τ sig (Elt F)) : after ops_part5 (val18 V0) = val20 V0 := by
  rw [ops_part5_eq_windows]
  simp only [after_append]
  rfl

theorem after_ops (V0 : Valuation τ sig (Elt F)) : after ops V0 = val20 V0 := by
  simp only [ops, after_append]
  rw [after_part0, after_part1, after_part2, after_part3, after_part4, after_part5]

/-- The result `main_v248` after the run is its composed term of the argument arrays. -/
theorem res_v248 (V0 : Valuation τ sig (Elt F)) : after ops V0 (Proc.devRef .tc main_v248) = term_main_v248 V0 := by
  rw [after_ops]; exact val20_main_v248 V0

/-- The result `main_v225` after the run is its composed term of the argument arrays. -/
theorem res_v225 (V0 : Valuation τ sig (Elt F)) : after ops V0 (Proc.devRef .tc main_v225) = term_main_v225 V0 := by
  rw [after_ops]; exact val20_main_v225 V0

/-- The result `main_v243` after the run is its composed term of the argument arrays. -/
theorem res_v243 (V0 : Valuation τ sig (Elt F)) : after ops V0 (Proc.devRef .tc main_v243) = term_main_v243 V0 := by
  rw [after_ops]; exact val20_main_v243 V0

end Cert.ReferenceIdeal.HandRun

end
-- ==== Proof.TextMapSums.lean ====
import proofs.«167267_j69861938037475_1_alg».proof.Proof.TextMapIdeal
import Idealize.ShloMosaic.PureOps.Ideal.Laws
import Idealize.ShloMosaic.Lib.ValueIdx
import Idealize.ShloMosaic.Lib.Pipeline.Value

set_option maxRecDepth 16384

noncomputable section

namespace Cert.KernelIdeal.TextMap

open Cert.KernelIdeal Cert.KernelIdeal.Gen
open Idealize.ShloMosaic Idealize.ShloMosaic.TcCoe Idealize.SL.Sem
open Idealize.ShloMosaic.Pipeline (Dat)

/-! ## Totals

A sum over one axis keeps the total; a shape cast keeps the total; a vector of one entry is its total. -/

/-- The total of a vector of extended reals. -/
def tot {s : Shape} (v : s.Idx → EReal) : EReal := ∑ i, v i

theorem tot_reduceAdd {s t : Shape} {axes : List (Fin s.rank)} (h : s.Reduces axes t) (x : s.Idx → EReal) :
    tot (Ideal.reduceAdd h x) = tot x := by
  unfold tot Ideal.reduceAdd
  exact Finset.sum_fiberwise Finset.univ (fun i => h.drop i) x

theorem tot_multiReduction {s t : Shape} {axes : List (Fin s.rank)} (src : FVec Ideal s .f32) (acc : BitVec (FTy.f32).bits)
    (h : s.Reduces axes t) (hφ : FKind.Formats .f32) (hacc : acc = FKind.add.neutral .f32 hφ) :
    tot (multiReduction .add axes t src acc h hφ hacc) = tot src :=
  tot_reduceAdd h src

theorem tot_shapeCast {s t : Shape} (x : s.Idx → EReal) (h : s.ShapeCasts t) : tot (shapeCast t x h) = tot x := by
  unfold tot shapeCast
  exact Equiv.sum_comp (Shape.reshapeEquiv h) x

theorem one_entry (v : S1x1.Idx → EReal) (j : S1x1.Idx) : v j = tot v := by
  unfold tot
  have hs : ∀ i : S1x1.Idx, i = j := fun i => funext fun a => Fin.ext (by
    have h1 : (i a : ℕ) < 1 := by have := (i a).isLt; fin_cases a <;> exact this
    have h2 : (j a : ℕ) < 1 := by have := (j a).isLt; fin_cases a <;> exact this
    omega)
  rw [Finset.sum_eq_single j (fun i _ hi => absurd (hs i) hi) (fun hj => absurd (Finset.mem_univ j) hj)]

/-- ONE TILE'S TOTAL: the chain of four single-axis sums with the shape casts between them, read at its one entry, is
    the sum over the whole tile. -/
theorem tile_total (f : FVec Ideal S8x1x320x320 .f32) (hφ : FKind.Formats .f32) (hacc : (0x00000000#32 : BitVec 32) = FKind.add.neutral .f32 hφ)
    (r3 : S8x1x320x320.Reduces [3] S8x1x320) (c3 : S8x1x320.ShapeCasts S8x1x320x1)
    (r2 : S8x1x320x1.Reduces [2] S8x1x1) (c2 : S8x1x1.ShapeCasts S8x1x1x1)
    (r1 : S8x1x1x1.Reduces [1] S8x1x1) (c1 : S8x1x1.ShapeCasts S8x1x1x1)
    (r0 : S8x1x1x1.Reduces [0] S1x1x1) (c0 : S1x1x1.ShapeCasts S1x1x1x1) (c : S1x1x1x1.ShapeCasts S1x1) (j : S1x1.Idx) :
    shapeCast S1x1 (shapeCast S1x1x1x1 (multiReduction .add [0] S1x1x1 (shapeCast S8x1x1x1 (multiReduction .add [1] S8x1x1 (shapeCast S8x1x1x1 (multiReduction .add [2] S8x1x1 (shapeCast S8x1x320x1 (multiReduction .add [3] S8x1x320 f 0x00000000#32 r3 hφ hacc) c3) 0x00000000#32 r2 hφ hacc) c2) 0x00000000#32 r1 hφ hacc) c1) 0x00000000#32 r0 hφ hacc) c0) c j
      = ∑ y, f y := by
  refine (one_entry _ j).trans ?_
  rw [tot_shapeCast, tot_shapeCast, tot_multiReduction, tot_shapeCast, tot_multiReduction, tot_shapeCast, tot_multiReduction, tot_shapeCast, tot_multiReduction]
  rfl

/-! ## The four payloads at an entry -/

/-- One element's cross-entropy term, as the body computes it. -/
def bceE (p t : EReal) : EReal :=
  Ideal.ofBits .f32 0x00000000#32 - (t * max (Ideal.log p) (Ideal.ofBits .f32 0xC2C80000#32) + (Ideal.ofBits .f32 0x3F800000#32 - t) * max (Ideal.log1p (Ideal.ofBits .f32 0x00000000#32 - p)) (Ideal.ofBits .f32 0xC2C80000#32))

theorem pay6_apply (x0 x1 : Vec Ideal S8x1x320x320 .f32) (a : Vec Ideal S1x1 .f32) (j : S1x1.Idx) :
    k0_pay6 x0 x1 a j = a j + ∑ y, bceE (x0 y) (x1 y) := by
  unfold k0_pay6
  rw [shapeCast_self]
  show a j + _ = _
  refine congrArg (a j + ·) ?_
  refine (tile_total _ _ _ _ _ _ _ _ _ _ _ _ j).trans ?_
  rfl

theorem pay7_apply (x0 x1 : Vec Ideal S8x1x320x320 .f32) (a : Vec Ideal S1x1 .f32) (j : S1x1.Idx) :
    k0_pay7 x0 x1 a j = a j + ∑ y, x0 y * x1 y := by
  unfold k0_pay7
  rw [shapeCast_self]
  show a j + _ = _
  refine congrArg (a j + ·) ?_
  refine (tile_total _ _ _ _ _ _ _ _ _ _ _ _ j).trans ?_
  rfl

theorem pay8_apply (x0 : Vec Ideal S8x1x320x320 .f32) (a : Vec Ideal S1x1 .f32) (j : S1x1.Idx) :
    k0_pay8 x0 a j = a j + ∑ y, x0 y := by
  unfold k0_pay8
  rw [shapeCast_self]
  show a j + _ = _
  refine congrArg (a j + ·) ?_
  exact tile_total _ _ _ _ _ _ _ _ _ _ _ _ j

theorem pay1_apply (x1 : Vec Ideal S8x1x320x320 .f32) (a : Vec Ideal S1x1 .f32) (j : S1x1.Idx) :
    k0_pay1 a (k0_pay9 x1) j = a j + ∑ y, x1 y := by
  unfold k0_pay1 k0_pay9
  rw [shapeCast_self]
  show a j + _ = _
  refine congrArg (a j + ·) ?_
  exact tile_total _ _ _ _ _ _ _ _ _ _ _ _ j

theorem zero_apply2 (j : S1x1.Idx) : (k0_pay2 (F := Ideal)) j = 0 := by
  unfold k0_pay2; rw [shapeCast_self]; exact Ideal.ofBits_zero_f32
theorem zero_apply3 (j : S1x1.Idx) : (k0_pay3 (F := Ideal)) j = 0 := by
  unfold k0_pay3; rw [shapeCast_self]; exact Ideal.ofBits_zero_f32
theorem zero_apply4 (j : S1x1.Idx) : (k0_pay4 (F := Ideal)) j = 0 := by
  unfold k0_pay4; rw [shapeCast_self]; exact Ideal.ofBits_zero_f32
theorem zero_apply5 (j : S1x1.Idx) : (k0_pay5 (F := Ideal)) j = 0 := by
  unfold k0_pay5; rw [shapeCast_self]; exact Ideal.ofBits_zero_f32

/-! ## The tiles of the whole arrays -/

variable (V : (c : Dev nD) → (b : Ref sig .tc) → Buf (Elt Ideal) ((c : Thread nD τ).loc b))

/-- Index `y` of tile `t` in the whole [64,1,320,320] array: row `8 t + y 0` of the leading axis, the other coordinates `y`'s. -/
def tileIdx (t : Fin 8) (y : S8x1x320x320.Idx) : S64x1x320x320.Idx :=
  ValueIdx.ix4 (⟨8 * t.val + (y 0).val, by have h : (y 0 : ℕ) < 8 := (y 0).isLt; have := t.isLt; omega⟩ : Fin 64)
    (⟨(y 1).val, (y 1).isLt⟩ : Fin 1) (⟨(y 2).val, (y 2).isLt⟩ : Fin 320) (⟨(y 3).val, (y 3).isLt⟩ : Fin 320)

/-- The eight tiles partition the array. -/
def tileEquiv : Fin 8 × S8x1x320x320.Idx ≃ S64x1x320x320.Idx where
  toFun p := tileIdx p.1 p.2
  invFun i := (⟨(i 0).val / 8, by have h : (i 0 : ℕ) < 64 := (i 0).isLt; omega⟩,
    ValueIdx.ix4 (⟨(i 0).val % 8, Nat.mod_lt _ (by decide)⟩ : Fin 8) (⟨(i 1).val, (i 1).isLt⟩ : Fin 1) (⟨(i 2).val, (i 2).isLt⟩ : Fin 320) (⟨(i 3).val, (i 3).isLt⟩ : Fin 320))
  left_inv p := by
    obtain ⟨t, y⟩ := p
    have hy : (y 0 : ℕ) < 8 := (y 0).isLt
    refine Prod.ext (Fin.ext ?_) (funext fun a => Fin.ext ?_)
    · show (8 * t.val + (y 0).val) / 8 = t.val; omega
    · match a with
      | ⟨0, _⟩ => show (8 * t.val + (y 0).val) % 8 = (y 0).val; omega
      | ⟨1, _⟩ => rfl
      | ⟨2, _⟩ => rfl
      | ⟨3, _⟩ => rfl
  right_inv i := by
    funext a; apply Fin.ext
    match a with
    | ⟨0, _⟩ => show 8 * ((i 0).val / 8) + (i 0).val % 8 = (i 0).val; omega
    | ⟨1, _⟩ => rfl
    | ⟨2, _⟩ => rfl
    | ⟨3, _⟩ => rfl

/-- A sum over the whole array is the sum over the tiles of the sums over each tile. -/
theorem sum_tiles {M : Type} [AddCommMonoid M] (g : S64x1x320x320.Idx → M) :
    ∑ i, g i = ∑ t : Fin 8, ∑ y : S8x1x320x320.Idx, g (tileIdx t y) := by
  rw [← Fintype.sum_prod_type' (f := fun t y => g (tileIdx t y))]
  exact (Fintype.sum_equiv tileEquiv (fun p => g (tileIdx p.1 p.2)) g (fun p => rfl)).symm

/-- The two input windows' block index at point `t` is `(t, 0, 0, 0)`: decided over the grid. -/
theorem idx_facts0 : ∀ t : Fin cfg0.N, win0_0.index t (0 : Fin 4) = t.val ∧ win0_0.index t (1 : Fin 4) = 0 ∧ win0_0.index t (2 : Fin 4) = 0 ∧ win0_0.index t (3 : Fin 4) = 0
    ∧ win0_1.index t (0 : Fin 4) = t.val ∧ win0_1.index t (1 : Fin 4) = 0 ∧ win0_1.index t (2 : Fin 4) = 0 ∧ win0_1.index t (3 : Fin 4) = 0 :=
  (by decide +kernel : ∀ t : Fin grid0.N, _)

/-- Input window 0's block at point `t` is the array's tile `t`: at a block index `y`, the array at `tileIdx t y`. -/
theorem iblk0_0_apply (c : Dev nD) (t : Fin cfg0.N) (y : S8x1x320x320.Idx) :
    iblk0 V c 0 t y = (V c main_arg0 : S64x1x320x320.Idx → EReal) (tileIdx ⟨t.val, lt_of_lt_of_eq t.isLt N_0⟩ y) := by
  obtain ⟨e0, e1, e2, e3, -⟩ := idx_facts0 t
  show V c main_arg0 (((cfg0.win 0).blk t).view.emb y) = _
  refine congrArg (V c main_arg0) ?_
  funext a; apply Fin.ext
  match a with
  | ⟨0, _⟩ => show win0_0.index t (0 : Fin 4) * 8 + 1 * (y 0).val = 8 * t.val + (y 0).val; omega
  | ⟨1, _⟩ => show win0_0.index t (1 : Fin 4) * 1 + 1 * (y 1).val = (y 1).val; omega
  | ⟨2, _⟩ => show win0_0.index t (2 : Fin 4) * 320 + 1 * (y 2).val = (y 2).val; omega
  | ⟨3, _⟩ => show win0_0.index t (3 : Fin 4) * 320 + 1 * (y 3).val = (y 3).val; omega

/-- Input window 1's block at point `t` is the array's tile `t`: at a block index `y`, the array at `tileIdx t y`. -/
theorem iblk0_1_apply (c : Dev nD) (t : Fin cfg0.N) (y : S8x1x320x320.Idx) :
    iblk0 V c 1 t y = (V c main_arg3 : S64x1x320x320.Idx → EReal) (tileIdx ⟨t.val, lt_of_lt_of_eq t.isLt N_0⟩ y) := by
  obtain ⟨-, -, -, -, e0, e1, e2, e3⟩ := idx_facts0 t
  show V c main_arg3 (((cfg0.win 1).blk t).view.emb y) = _
  refine congrArg (V c main_arg3) ?_
  funext a; apply Fin.ext
  match a with
  | ⟨0, _⟩ => show win0_1.index t (0 : Fin 4) * 8 + 1 * (y 0).val = 8 * t.val + (y 0).val; omega
  | ⟨1, _⟩ => show win0_1.index t (1 : Fin 4) * 1 + 1 * (y 1).val = (y 1).val; omega
  | ⟨2, _⟩ => show win0_1.index t (2 : Fin 4) * 320 + 1 * (y 2).val = (y 2).val; omega
  | ⟨3, _⟩ => show win0_1.index t (3 : Fin 4) * 320 + 1 * (y 3).val = (y 3).val; omega

/-! ## An accumulator stepped from zero is the sum of its steps -/

theorem acc_sum {N : ℕ} (A S : (n : ℕ) → n < N → EReal) (h0 : ∀ h, A 0 h = 0 + S 0 h)
    (hs : ∀ n h, A (n + 1) h = A n (Nat.lt_of_succ_lt h) + S (n + 1) h) :
    ∀ n (h : n < N), A n h = ∑ t : Fin (n + 1), S t.val (lt_of_lt_of_le t.isLt h)
  | 0, h => by
    rw [h0 h, zero_add]
    exact (Fin.sum_univ_one (fun t : Fin 1 => S t.val (lt_of_lt_of_le t.isLt h))).symm
  | n + 1, h => by
    rw [hs n h, acc_sum A S h0 hs n (Nat.lt_of_succ_lt h), Fin.sum_univ_castSucc (n := n + 1)]
    rfl

/-! ## The four accumulators after the last point -/

/-- The prediction array and the target array as the region finds them, as functions of the array index, -/
abbrev tmP (c : Dev nD) : S64x1x320x320.Idx → EReal := V c main_arg0
abbrev tmT (c : Dev nD) : S64x1x320x320.Idx → EReal := V c main_arg3
/-- and their blocks at a point, as functions of the block index. -/
abbrev blkP (c : Dev nD) (t : Fin cfg0.N) : S8x1x320x320.Idx → EReal := iblk0 V c 0 t
abbrev blkT (c : Dev nD) (t : Fin cfg0.N) : S8x1x320x320.Idx → EReal := iblk0 V c 1 t

/-- `tm_bce`: the accumulator after the last point is the sum over the whole arrays. -/
theorem tm_bce (c : Dev nD) (h7 : 7 < cfg0.N) (j : S1x1.Idx) :
    (accAt0 (F := Ideal) V c 7 h7).1 j = ∑ i : S64x1x320x320.Idx, bceE (tmP V c i) (tmT V c i) := by
  have key := acc_sum (N := cfg0.N) (fun n hn => (accAt0 (F := Ideal) V c n hn).1 j)
    (fun n hn => ∑ y : S8x1x320x320.Idx, bceE (blkP V c ⟨n, hn⟩ y) (blkT V c ⟨n, hn⟩ y))
    (fun h => by
      show k0_pay6 (iblk0 V c 0 ⟨0, h⟩) (iblk0 V c 1 ⟨0, h⟩) (k0_pay2 (F := Ideal)) j = _
      refine (pay6_apply _ _ _ j).trans ?_
      rw [zero_apply2 j])
    (fun n h => by
      show k0_pay6 (iblk0 V c 0 ⟨n + 1, h⟩) (iblk0 V c 1 ⟨n + 1, h⟩) (accAt0 (F := Ideal) V c n (Nat.lt_of_succ_lt h)).1 j = _
      exact pay6_apply _ _ _ j) 7 h7
  refine key.trans ?_
  rw [sum_tiles]
  refine Finset.sum_congr rfl fun t _ => Finset.sum_congr rfl fun y _ => ?_
  exact congrArg₂ bceE (iblk0_0_apply V c ⟨t.val, lt_of_lt_of_le t.isLt h7⟩ y) (iblk0_1_apply V c ⟨t.val, lt_of_lt_of_le t.isLt h7⟩ y)

/-- `tm_inter`: the accumulator after the last point is the sum over the whole arrays. -/
theorem tm_inter (c : Dev nD) (h7 : 7 < cfg0.N) (j : S1x1.Idx) :
    (accAt0 (F := Ideal) V c 7 h7).2.1 j = ∑ i : S64x1x320x320.Idx, tmP V c i * tmT V c i := by
  have key := acc_sum (N := cfg0.N) (fun n hn => (accAt0 (F := Ideal) V c n hn).2.1 j)
    (fun n hn => ∑ y : S8x1x320x320.Idx, blkP V c ⟨n, hn⟩ y * blkT V c ⟨n, hn⟩ y)
    (fun h => by
      show k0_pay7 (iblk0 V c 0 ⟨0, h⟩) (iblk0 V c 1 ⟨0, h⟩) (k0_pay3 (F := Ideal)) j = _
      refine (pay7_apply _ _ _ j).trans ?_
      rw [zero_apply3 j])
    (fun n h => by
      show k0_pay7 (iblk0 V c 0 ⟨n + 1, h⟩) (iblk0 V c 1 ⟨n + 1, h⟩) (accAt0 (F := Ideal) V c n (Nat.lt_of_succ_lt h)).2.1 j = _
      exact pay7_apply _ _ _ j) 7 h7
  refine key.trans ?_
  rw [sum_tiles]
  refine Finset.sum_congr rfl fun t _ => Finset.sum_congr rfl fun y _ => ?_
  exact congrArg₂ (fun p q : EReal => p * q) (iblk0_0_apply V c ⟨t.val, lt_of_lt_of_le t.isLt h7⟩ y) (iblk0_1_apply V c ⟨t.val, lt_of_lt_of_le t.isLt h7⟩ y)

/-- `tm_psum`: the accumulator after the last point is the sum over the whole arrays. -/
theorem tm_psum (c : Dev nD) (h7 : 7 < cfg0.N) (j : S1x1.Idx) :
    (accAt0 (F := Ideal) V c 7 h7).2.2.1 j = ∑ i : S64x1x320x320.Idx, tmP V c i := by
  have key := acc_sum (N := cfg0.N) (fun n hn => (accAt0 (F := Ideal) V c n hn).2.2.1 j)
    (fun n hn => ∑ y : S8x1x320x320.Idx, blkP V c ⟨n, hn⟩ y)
    (fun h => by
      show k0_pay8 (iblk0 V c 0 ⟨0, h⟩) (k0_pay4 (F := Ideal)) j = _
      refine (pay8_apply _ _ j).trans ?_
      rw [zero_apply4 j])
    (fun n h => by
      show k0_pay8 (iblk0 V c 0 ⟨n + 1, h⟩) (accAt0 (F := Ideal) V c n (Nat.lt_of_succ_lt h)).2.2.1 j = _
      exact pay8_apply _ _ j) 7 h7
  refine key.trans ?_
  rw [sum_tiles]
  refine Finset.sum_congr rfl fun t _ => Finset.sum_congr rfl fun y _ => ?_
  exact iblk0_0_apply V c ⟨t.val, lt_of_lt_of_le t.isLt h7⟩ y

/-- `tm_tsum`: the accumulator after the last point is the sum over the whole arrays. -/
theorem tm_tsum (c : Dev nD) (h7 : 7 < cfg0.N) (j : S1x1.Idx) :
    (accAt0 (F := Ideal) V c 7 h7).2.2.2 j = ∑ i : S64x1x320x320.Idx, tmT V c i := by
  have key := acc_sum (N := cfg0.N) (fun n hn => (accAt0 (F := Ideal) V c n hn).2.2.2 j)
    (fun n hn => ∑ y : S8x1x320x320.Idx, blkT V c ⟨n, hn⟩ y)
    (fun h => by
      show k0_pay1 (k0_pay5 (F := Ideal)) (k0_pay9 (iblk0 V c 1 ⟨0, h⟩)) j = _
      refine (pay1_apply _ _ j).trans ?_
      rw [zero_apply5 j])
    (fun n h => by
      show k0_pay1 (accAt0 (F := Ideal) V c n (Nat.lt_of_succ_lt h)).2.2.2 (k0_pay9 (iblk0 V c 1 ⟨n + 1, h⟩)) j = _
      exact pay1_apply _ _ j) 7 h7
  refine key.trans ?_
  rw [sum_tiles]
  refine Finset.sum_congr rfl fun t _ => Finset.sum_congr rfl fun y _ => ?_
  exact iblk0_1_apply V c ⟨t.val, lt_of_lt_of_le t.isLt h7⟩ y

end Cert.KernelIdeal.TextMap

end
-- ==== Proof.TextGlueCore.lean ====
import proofs.«167267_j69861938037475_1_alg».proof.Proof.TextMapSums
import Idealize.ShloMosaic.PureOps.Ideal.Laws

set_option maxRecDepth 16384

noncomputable section

namespace Cert.TextGlue

open Idealize.ShloMosaic

/-! The text-map loss, twice: as the reference computes it from the two whole arrays (the mean of the clamped
cross-entropy, and the Dice ratio of the sums over the arrays flattened), and as the kernel program computes it from the
four sums its reduction leaves. With the four sums equal to the sums over the whole arrays, the two are one expression. -/

abbrev S_ : Shape := ⟨0, ![]⟩
abbrev S1x1 : Shape := ⟨2, ![1, 1]⟩
abbrev S6553600 : Shape := ⟨1, ![6553600]⟩
abbrev S64x1x320x320 : Shape := ⟨4, ![64, 1, 320, 320]⟩

/-- A host sum into the rank-0 shape from the zero initial value is the sum over everything. -/
theorem hostSum_all {s : Shape} {axes : List (Fin s.rank)} (x : FVec Ideal s .f32) (h : s.ReducesTo axes S_) (hu : 0 < S_.numel)
    (i : S_.Idx) : Host.reduceAdd (F := Ideal) x (constant (F := Ideal) S_ .f32 0x00000000#32) h hu i = ∑ y, x y := by
  refine (Ideal.hostReduceAdd_total h (fun b => b.elim0) x _ i).trans ?_
  show Ideal.ofBits .f32 0x00000000#32 + _ = _
  rw [Ideal.ofBits_zero_f32, zero_add]

/-- The reference's text-map loss as a term of the two arrays, -/
def refText (P T : FVec Ideal S64x1x320x320 .f32)
    (hr4 : S64x1x320x320.ReducesTo [0, 1, 2, 3] S_) (hu : 0 < S_.numel)
    (hb : S_.BroadcastsInDim S64x1x320x320 (![] : Fin 0 → Fin S64x1x320x320.rank))
    (hc : S64x1x320x320.ShapeCasts S6553600) (hr1 : S6553600.ReducesTo [0] S_) : FVec Ideal S_ .f32 :=
  addf (mulf (constant (F := Ideal) S_ .f32 0x3F000000#32) (Host.divf (F := Ideal) (Host.reduceAdd (F := Ideal) (Host.negf (F := Ideal) (addf (mulf T (maximumf (Host.log (F := Ideal) P) (broadcastInDim S64x1x320x320 ![] hb (constant (F := Ideal) S_ .f32 0xC2C80000#32)))) (mulf (subf (broadcastInDim S64x1x320x320 ![] hb (constant (F := Ideal) S_ .f32 0x3F800000#32)) T) (maximumf (Host.log1p (F := Ideal) (Host.negf (F := Ideal) P)) (broadcastInDim S64x1x320x320 ![] hb (constant (F := Ideal) S_ .f32 0xC2C80000#32)))))) (constant (F := Ideal) S_ .f32 0x00000000#32) hr4 hu) (constant (F := Ideal) S_ .f32 0x4AC80000#32)))
      (mulf (constant (F := Ideal) S_ .f32 0x3F000000#32) (subf (constant (F := Ideal) S_ .f32 0x3F800000#32) (Host.divf (F := Ideal)
        (addf (mulf (constant (F := Ideal) S_ .f32 0x40000000#32) (Host.reduceAdd (F := Ideal) (mulf (shapeCast S6553600 P hc) (shapeCast S6553600 T hc)) (constant (F := Ideal) S_ .f32 0x00000000#32) hr1 hu)) (constant (F := Ideal) S_ .f32 0x3727C5AC#32))
        (addf (addf (Host.reduceAdd (F := Ideal) (shapeCast S6553600 P hc) (constant (F := Ideal) S_ .f32 0x00000000#32) hr1 hu) (Host.reduceAdd (F := Ideal) (shapeCast S6553600 T hc) (constant (F := Ideal) S_ .f32 0x00000000#32) hr1 hu)) (constant (F := Ideal) S_ .f32 0x3727C5AC#32)))))

/-- and the kernel program's as a term of its four sums. -/
def kernText (A B Pp Tt : FVec Ideal S1x1 .f32) (hs : S1x1.ShapeCasts S_) : FVec Ideal S_ .f32 :=
  addf
    (mulf (constant (F := Ideal) S_ .f32 0x3F000000#32) (Host.divf (F := Ideal) (shapeCast S_ A hs) (constant (F := Ideal) S_ .f32 0x4AC80000#32)))
    (mulf (constant (F := Ideal) S_ .f32 0x3F000000#32)
      (subf (constant (F := Ideal) S_ .f32 0x3F800000#32)
        (Host.divf (F := Ideal)
          (addf (mulf (constant (F := Ideal) S_ .f32 0x40000000#32) (shapeCast S_ B hs)) (constant (F := Ideal) S_ .f32 0x3727C5AC#32))
          (addf (addf (shapeCast S_ Pp hs) (shapeCast S_ Tt hs)) (constant (F := Ideal) S_ .f32 0x3727C5AC#32)))))

theorem glue_core (P T : FVec Ideal S64x1x320x320 .f32)
    (hr4 : S64x1x320x320.ReducesTo [0, 1, 2, 3] S_) (hu : 0 < S_.numel)
    (hb : S_.BroadcastsInDim S64x1x320x320 (![] : Fin 0 → Fin S64x1x320x320.rank))
    (hc : S64x1x320x320.ShapeCasts S6553600) (hr1 : S6553600.ReducesTo [0] S_)
    (A B Pp Tt : FVec Ideal S1x1 .f32) (hs : S1x1.ShapeCasts S_)
    (hA : ∀ j, A j = ∑ i, Cert.KernelIdeal.TextMap.bceE (P i) (T i)) (hB : ∀ j, B j = ∑ i, P i * T i)
    (hP : ∀ j, Pp j = ∑ i, P i) (hT : ∀ j, Tt j = ∑ i, T i) :
    refText P T hr4 hu hb hc hr1 = kernText A B Pp Tt hs := by
  have E1 : (Host.reduceAdd (F := Ideal) (Host.negf (F := Ideal) (addf (mulf T (maximumf (Host.log (F := Ideal) P) (broadcastInDim S64x1x320x320 ![] hb (constant (F := Ideal) S_ .f32 0xC2C80000#32)))) (mulf (subf (broadcastInDim S64x1x320x320 ![] hb (constant (F := Ideal) S_ .f32 0x3F800000#32)) T) (maximumf (Host.log1p (F := Ideal) (Host.negf (F := Ideal) P)) (broadcastInDim S64x1x320x320 ![] hb (constant (F := Ideal) S_ .f32 0xC2C80000#32)))))) (constant (F := Ideal) S_ .f32 0x00000000#32) hr4 hu) = shapeCast S_ A hs := by
    funext i
    refine (hostSum_all _ hr4 hu i).trans ?_
    refine Eq.trans ?_ (hA _).symm
    refine Finset.sum_congr rfl fun x _ => ?_
    show -(T x * max (Ideal.log (P x)) (Ideal.ofBits .f32 0xC2C80000#32) + (Ideal.ofBits .f32 0x3F800000#32 - T x) * max (Ideal.log1p (-(P x))) (Ideal.ofBits .f32 0xC2C80000#32)) = _
    unfold Cert.KernelIdeal.TextMap.bceE
    rw [Ideal.ofBits_zero_f32, zero_sub, zero_sub]
  have E2 : (Host.reduceAdd (F := Ideal) (mulf (shapeCast S6553600 P hc) (shapeCast S6553600 T hc)) (constant (F := Ideal) S_ .f32 0x00000000#32) hr1 hu) = shapeCast S_ B hs := by
    funext i
    refine (hostSum_all _ hr1 hu i).trans ?_
    refine Eq.trans ?_ (hB _).symm
    exact Cert.KernelIdeal.TextMap.tot_shapeCast (fun x => P x * T x) hc
  have E3 : (Host.reduceAdd (F := Ideal) (shapeCast S6553600 P hc) (constant (F := Ideal) S_ .f32 0x00000000#32) hr1 hu) = shapeCast S_ Pp hs := by
    funext i
    refine (hostSum_all _ hr1 hu i).trans ?_
    refine Eq.trans ?_ (hP _).symm
    exact Cert.KernelIdeal.TextMap.tot_shapeCast P hc
  have E4 : (Host.reduceAdd (F := Ideal) (shapeCast S6553600 T hc) (constant (F := Ideal) S_ .f32 0x00000000#32) hr1 hu) = shapeCast S_ Tt hs := by
    funext i
    refine (hostSum_all _ hr1 hu i).trans ?_
    refine Eq.trans ?_ (hT _).symm
    exact Cert.KernelIdeal.TextMap.tot_shapeCast T hc
  unfold refText kernText
  rw [E1, E2, E3, E4]

end Cert.TextGlue

end
-- ==== Proof.TextGlue.lean ====
import proofs.«167267_j69861938037475_1_alg».proof.Proof.RefReadText
import proofs.«167267_j69861938037475_1_alg».proof.Proof.KernelTail
import proofs.«167267_j69861938037475_1_alg».proof.Proof.TextGlueCore

set_option maxRecDepth 16384

noncomputable section

namespace Cert.TextGlue

open Idealize.ShloMosaic Idealize.ShloMosaic.TcCoe Idealize.SL.Sem

/-- THE TEXT-MAP LOSS, both programs: the reference's composed term of the two whole arrays is the kernel program's host
    term of the four sums, once those are the sums over the whole arrays. -/
theorem text_glue (V0 : Valuation Cert.ReferenceIdeal.τ Cert.ReferenceIdeal.sig (Elt Ideal)) (P T : Cert.KernelIdeal.S64x1x320x320.Idx → EReal)
    (h0 : V0 (Proc.devRef .tc Cert.ReferenceIdeal.main_arg0) = P) (h3 : V0 (Proc.devRef .tc Cert.ReferenceIdeal.main_arg3) = T)
    (A B Pp Tt : FVec Ideal Cert.KernelIdeal.S1x1 .f32)
    (hA : ∀ j, A j = ∑ i, Cert.KernelIdeal.TextMap.bceE (P i) (T i)) (hB : ∀ j, B j = ∑ i, P i * T i)
    (hP : ∀ j, Pp j = ∑ i, P i) (hT : ∀ j, Tt j = ∑ i, T i) :
    Cert.ReferenceIdeal.HandRun.term_main_v29 (F := Ideal) V0 = Cert.KernelIdeal.Tail.textLoss A B Pp Tt := by
  subst h0 h3
  exact glue_core _ _ Cert.ReferenceIdeal.Gen.reducesTo_S64x1x320x320_S_d0_1_2_3 Cert.ReferenceIdeal.Gen.h_S_
    Cert.ReferenceIdeal.Gen.bcast_S_S64x1x320x320 Cert.ReferenceIdeal.Gen.shapeCasts_S64x1x320x320_S6553600
    Cert.ReferenceIdeal.Gen.reducesTo_S6553600_S_d0 A B Pp Tt Cert.KernelIdeal.Gen.shapeCasts_S1x1_S_ hA hB hP hT

end Cert.TextGlue

end
-- ==== Proof.BoxSums.lean ====
import proofs.«167267_j69861938037475_1_alg».proof.Proof.BoxConfIdeal
import Idealize.ShloMosaic.PureOps.Ideal.Laws
import Idealize.ShloMosaic.Lib.ValueIdx
import Idealize.ShloMosaic.Lib.Pipeline.Value

noncomputable section

namespace Cert.KernelIdeal.BoxConf

open Cert.KernelIdeal Cert.KernelIdeal.Gen
open Idealize.ShloMosaic

/-! ## One sample point: the four losses as functions of extended reals

Written with the extended reals' own operations exactly as the body computes one element; the float literals stay the
words the body names (`Ideal.ofBits .f32 …`), never evaluated: 0.0 is `0x00000000`, 0.99 `0x3F7D70A4`, 0.01 `0x3C23D70A`,
1.0 `0x3F800000`, the ε 1e-6 `0x358637BD`, 0.5 `0x3F000000`, -100.0 `0xC2C80000`.
Arguments in the windows' order: the predicted corners p1 q1 p2 q2 (px1 py1 px2 py2), the target corners t1 u1 t2 u2
(tx1 ty1 tx2 ty2); the predicted confidence g and the target confidence t. -/

/-- A first corner coordinate clipped to [0, 0.99]. -/
def clipLoE (p : EReal) : EReal := min (Ideal.ofBits .f32 0x3F7D70A4#32) (max (Ideal.ofBits .f32 0x00000000#32) p)
/-- A second corner coordinate clipped to [0.01, 1]. -/
def clipHiE (p : EReal) : EReal := min (Ideal.ofBits .f32 0x3F800000#32) (max (Ideal.ofBits .f32 0x3C23D70A#32) p)
/-- The predicted box's lower edge on an axis: the smaller of its two clipped coordinates there, -/
def edgeLoE (p1 p2 : EReal) : EReal := min (clipLoE p1) (clipHiE p2)
/-- and its upper edge: the larger. -/
def edgeHiE (p1 p2 : EReal) : EReal := max (clipLoE p1) (clipHiE p2)

/-- The area of the two boxes' intersection: the overlaps on the two axes, each cut off below at zero, multiplied. -/
def interE (p1 q1 p2 q2 t1 u1 t2 u2 : EReal) : EReal :=
  max (Ideal.ofBits .f32 0x00000000#32) (min (edgeHiE p1 p2) t2 - max (edgeLoE p1 p2) t1)
    * max (Ideal.ofBits .f32 0x00000000#32) (min (edgeHiE q1 q2) u2 - max (edgeLoE q1 q2) u1)
/-- The area of their union: the two areas added, less the intersection. -/
def unionE (p1 q1 p2 q2 t1 u1 t2 u2 : EReal) : EReal :=
  (edgeHiE p1 p2 - edgeLoE p1 p2) * (edgeHiE q1 q2 - edgeLoE q1 q2) + (t2 - t1) * (u2 - u1) - interE p1 q1 p2 q2 t1 u1 t2 u2
/-- IoU: intersection over union + ε. -/
def iouE (p1 q1 p2 q2 t1 u1 t2 u2 : EReal) : EReal :=
  Ideal.div (interE p1 q1 p2 q2 t1 u1 t2 u2) (unionE p1 q1 p2 q2 t1 u1 t2 u2 + Ideal.ofBits .f32 0x358637BD#32)
/-- The area of the smallest box enclosing both. -/
def encE (p1 q1 p2 q2 t1 u1 t2 u2 : EReal) : EReal :=
  (max (edgeHiE p1 p2) t2 - min (edgeLoE p1 p2) t1) * (max (edgeHiE q1 q2) u2 - min (edgeLoE q1 q2) u1)

/-- -log (IoU + ε), written as the body does: 0 - log (IoU + ε). -/
def nliE (p1 q1 p2 q2 t1 u1 t2 u2 : EReal) : EReal :=
  Ideal.ofBits .f32 0x00000000#32 - Ideal.log (iouE p1 q1 p2 q2 t1 u1 t2 u2 + Ideal.ofBits .f32 0x358637BD#32)
/-- 1 - GIoU, GIoU = IoU - (enclosing - union) / (enclosing + ε). -/
def omgE (p1 q1 p2 q2 t1 u1 t2 u2 : EReal) : EReal :=
  Ideal.ofBits .f32 0x3F800000#32
    - (iouE p1 q1 p2 q2 t1 u1 t2 u2
        - Ideal.div (encE p1 q1 p2 q2 t1 u1 t2 u2 - unionE p1 q1 p2 q2 t1 u1 t2 u2) (encE p1 q1 p2 q2 t1 u1 t2 u2 + Ideal.ofBits .f32 0x358637BD#32))
/-- Smooth L1 of a difference d, a = |d| = max d (-d): 0.5·a·a below 1, a - 0.5 from 1 on. -/
def sl1E (d : EReal) : EReal :=
  if max d (-d) < Ideal.ofBits .f32 0x3F800000#32 then Ideal.ofBits .f32 0x3F000000#32 * max d (-d) * max d (-d)
  else max d (-d) - Ideal.ofBits .f32 0x3F000000#32
/-- The corner loss: smooth L1 of the four edge differences, added in the body's order (x-low, y-low, x-high, y-high). -/
def regE (p1 q1 p2 q2 t1 u1 t2 u2 : EReal) : EReal :=
  sl1E (edgeLoE p1 p2 - t1) + sl1E (edgeLoE q1 q2 - u1) + sl1E (edgeHiE p1 p2 - t2) + sl1E (edgeHiE q1 q2 - u2)
/-- The confidence cross-entropy: 0 - (t · max (log g) (-100) + (1 - t) · max (log1p (0 - g)) (-100)). -/
def bceE (g t : EReal) : EReal :=
  Ideal.ofBits .f32 0x00000000#32
    - (t * max (Ideal.log g) (Ideal.ofBits .f32 0xC2C80000#32)
        + (Ideal.ofBits .f32 0x3F800000#32 - t) * max (Ideal.log1p (Ideal.ofBits .f32 0x00000000#32 - g)) (Ideal.ofBits .f32 0xC2C80000#32))

/-! ## Reading the body's vector operations at one element -/

/-- The body's double sum — over the lanes, the column of row sums kept as a [64,1] vector, then over the rows,
    the one sum kept as a [1,1] vector — read at its one entry: the sum over every row and lane. -/
theorem sum2d_apply (v : FVec Ideal S64x160 .f32) (h1 : S64x160.Reduces [1] S64) (c1 : S64.ShapeCasts S64x1)
    (h0 : S64x1.Reduces [0] S1) (c2 : S1.ShapeCasts S1x1) (hφ : FKind.Formats .f32)
    (hacc : (0x00000000#32 : BitVec 32) = FKind.add.neutral .f32 hφ) (j : S1x1.Idx) :
    shapeCast S1x1 (multiReduction .add [0] S1 (shapeCast S64x1 (multiReduction .add [1] S64 v 0x00000000#32 h1 hφ hacc) c1)
        0x00000000#32 h0 hφ hacc) c2 j
      = ∑ b : Fin 64, ∑ m : Fin 160, v (ValueIdx.ix2 b m) := by
  refine (shapeCast_apply _ c2 j (ValueIdx.ix1 (0 : Fin 1)) ?_).trans ?_
  · rw [Shape.rowMajor_val_one, Shape.rowMajor_val_two]
    have e0 : (j 0).val < 1 := (j 0).isLt
    have e1 : (j 1).val < 1 := (j 1).isLt
    show 0 = (j 0).val * 1 + (j 1).val
    omega
  refine (Ideal.multiReduction_add_single _ _ h0 hφ hacc (ValueIdx.ix1 (0 : Fin 1))).trans ?_
  show ∑ r : Fin 64, _ = ∑ b : Fin 64, _
  refine Finset.sum_congr rfl fun r _ => ?_
  refine (shapeCast_apply _ c1 _ (ValueIdx.ix1 r) ?_).trans ?_
  · rw [Shape.rowMajor_val_one, Shape.rowMajor_val_two]
    show r.val = r.val * 1 + 0
    omega
  refine (Ideal.multiReduction_add_single v _ h1 hφ hacc (ValueIdx.ix1 r)).trans ?_
  show ∑ m : Fin 160, _ = ∑ m : Fin 160, _
  refine Finset.sum_congr rfl fun m _ => congrArg v ?_
  funext a; apply Fin.ext
  match a with
  | ⟨0, _⟩ => rfl
  | ⟨1, _⟩ => rfl

/-- A select on an ordered less-than of extended reals is the `if` on `<`. -/
theorem select_olt (a c u v : EReal) : Scalar.select (Ideal.cmp .olt a c) u v = if a < c then u else v := by
  unfold Scalar.select Ideal.cmp
  by_cases h : a < c <;> simp [h]

/-! ## The four maps at one element are the four scalar losses of the arrays' elements there -/

theorem negLogIou_apply (x0 x1 x2 x3 x4 x5 x6 x7 : FVec Ideal S64x160 .f32) (i : S64x160.Idx) :
    negLogIou (F := Ideal) x0 x1 x2 x3 x4 x5 x6 x7 i = nliE (x0 i) (x1 i) (x2 i) (x3 i) (x4 i) (x5 i) (x6 i) (x7 i) := by
  have hl : ∀ X : Vec Ideal S64x160 .f32, View.ld X r1_0 = X := fun X => ld_r1_0 X
  simp only [negLogIou, predLeft, predRight, predTop, predBottom, tgtLeft, tgtTop, tgtRight, hl,
    k1_pay20, k1_pay5, k1_pay6, k1_pay7, k1_pay8, k1_pay9, k1_pay10, k1_pay11, k1_pay12, k1_pay13, k1_pay14, k1_pay15, k1_pay16, k1_pay17, k1_pay18, k1_pay19, shapeCast_self]
  first | rfl | fail "pointwise rfl"

theorem oneMinusGiou_apply (x0 x1 x2 x3 x4 x5 x6 x7 : FVec Ideal S64x160 .f32) (i : S64x160.Idx) :
    oneMinusGiou (F := Ideal) x0 x1 x2 x3 x4 x5 x6 x7 i = omgE (x0 i) (x1 i) (x2 i) (x3 i) (x4 i) (x5 i) (x6 i) (x7 i) := by
  have hl : ∀ X : Vec Ideal S64x160 .f32, View.ld X r1_0 = X := fun X => ld_r1_0 X
  simp only [oneMinusGiou, predLeft, predRight, predTop, predBottom, tgtLeft, tgtTop, tgtRight, hl,
    k1_pay21, k1_pay5, k1_pay6, k1_pay7, k1_pay8, k1_pay9, k1_pay10, k1_pay11, k1_pay12, k1_pay13, k1_pay14, k1_pay15, k1_pay16, k1_pay17, k1_pay18, k1_pay19, shapeCast_self]
  first | rfl | fail "pointwise rfl"

/-- Smooth L1 as the body spells it on vectors, at one element. -/
theorem sl1_apply (d : FVec Ideal S64x160 .f32) (i : S64x160.Idx) :
    Scalar.select (Ideal.cmp .olt (max (d i) (-(d i))) (Ideal.ofBits .f32 0x3F800000#32))
        (Ideal.ofBits .f32 0x3F000000#32 * max (d i) (-(d i)) * max (d i) (-(d i)))
        (max (d i) (-(d i)) - Ideal.ofBits .f32 0x3F000000#32)
      = sl1E (d i) := select_olt _ _ _ _

theorem cornerLoss_apply (x0 x1 x2 x3 x4 x5 x6 x7 : FVec Ideal S64x160 .f32) (i : S64x160.Idx) :
    cornerLoss (F := Ideal) x0 x1 x2 x3 x4 x5 x6 x7 i = regE (x0 i) (x1 i) (x2 i) (x3 i) (x4 i) (x5 i) (x6 i) (x7 i) := by
  have hl : ∀ X : Vec Ideal S64x160 .f32, View.ld X r1_0 = X := fun X => ld_r1_0 X
  simp only [cornerLoss, predLeft, predRight, predTop, predBottom, tgtLeft, tgtTop, tgtRight, hl,
    k1_pay26, k1_pay25, k1_pay24, k1_pay23, k1_pay22, k1_pay5, k1_pay6, k1_pay7, k1_pay8, k1_pay9, k1_pay10, k1_pay11, k1_pay12, k1_pay13, k1_pay14, k1_pay15, k1_pay16, k1_pay17, k1_pay18, k1_pay19, shapeCast_self]
  show Scalar.select (Ideal.cmp .olt _ _) _ _ + Scalar.select (Ideal.cmp .olt _ _) _ _ + Scalar.select (Ideal.cmp .olt _ _) _ _
      + Scalar.select (Ideal.cmp .olt _ _) _ _ = _
  simp only [select_olt]
  first | rfl | fail "reg rfl"

/-- The cross-entropy map at one element. -/
theorem bce_apply (x8 x9 : FVec Ideal S64x160 .f32) (i : S64x160.Idx) :
    subf (F := Ideal) (broadcast S64x160 (Scalar.ofBits .f32 0x00000000#32))
        (addf (mulf (k1_pay28 x9) (k1_pay29 x8))
          (mulf (subf (broadcast S64x160 (Scalar.ofBits .f32 0x3F800000#32)) (k1_pay28 x9))
            (maximumf (k1_pay30 x8) (broadcast S64x160 (Scalar.ofBits .f32 0xC2C80000#32))))) i
      = bceE (x8 i) (x9 i) := by
  simp only [k1_pay27, k1_pay28, k1_pay29, k1_pay30, shapeCast_self]
  first | rfl | fail "pointwise rfl"

/-! ## The four outputs' one entry: the double sum of the scalar loss over the sample points -/

theorem box_iou (x0 x1 x2 x3 x4 x5 x6 x7 x8 x9 : FVec Ideal S64x160 .f32) (j : S1x1.Idx) :
    out1_10 (F := Ideal) x0 x1 x2 x3 x4 x5 x6 x7 x8 x9 j
      = ∑ b : Fin 64, ∑ m : Fin 160, nliE (x0 (ValueIdx.ix2 b m)) (x1 (ValueIdx.ix2 b m)) (x2 (ValueIdx.ix2 b m)) (x3 (ValueIdx.ix2 b m)) (x4 (ValueIdx.ix2 b m)) (x5 (ValueIdx.ix2 b m)) (x6 (ValueIdx.ix2 b m)) (x7 (ValueIdx.ix2 b m)) := by
  rw [out1_10_eq]
  unfold k1_pay1
  refine (sum2d_apply _ _ _ _ _ _ _ j).trans ?_
  exact Finset.sum_congr rfl fun b _ => Finset.sum_congr rfl fun m _ => negLogIou_apply _ _ _ _ _ _ _ _ _

theorem box_giou (x0 x1 x2 x3 x4 x5 x6 x7 x8 x9 : FVec Ideal S64x160 .f32) (j : S1x1.Idx) :
    out1_11 (F := Ideal) x0 x1 x2 x3 x4 x5 x6 x7 x8 x9 j
      = ∑ b : Fin 64, ∑ m : Fin 160, omgE (x0 (ValueIdx.ix2 b m)) (x1 (ValueIdx.ix2 b m)) (x2 (ValueIdx.ix2 b m)) (x3 (ValueIdx.ix2 b m)) (x4 (ValueIdx.ix2 b m)) (x5 (ValueIdx.ix2 b m)) (x6 (ValueIdx.ix2 b m)) (x7 (ValueIdx.ix2 b m)) := by
  rw [out1_11_eq]
  unfold k1_pay2
  refine (sum2d_apply _ _ _ _ _ _ _ j).trans ?_
  exact Finset.sum_congr rfl fun b _ => Finset.sum_congr rfl fun m _ => oneMinusGiou_apply _ _ _ _ _ _ _ _ _

theorem box_reg (x0 x1 x2 x3 x4 x5 x6 x7 x8 x9 : FVec Ideal S64x160 .f32) (j : S1x1.Idx) :
    out1_12 (F := Ideal) x0 x1 x2 x3 x4 x5 x6 x7 x8 x9 j
      = ∑ b : Fin 64, ∑ m : Fin 160, regE (x0 (ValueIdx.ix2 b m)) (x1 (ValueIdx.ix2 b m)) (x2 (ValueIdx.ix2 b m)) (x3 (ValueIdx.ix2 b m)) (x4 (ValueIdx.ix2 b m)) (x5 (ValueIdx.ix2 b m)) (x6 (ValueIdx.ix2 b m)) (x7 (ValueIdx.ix2 b m)) := by
  rw [out1_12_eq]
  unfold k1_pay3
  refine (sum2d_apply _ _ _ _ _ _ _ j).trans ?_
  exact Finset.sum_congr rfl fun b _ => Finset.sum_congr rfl fun m _ => cornerLoss_apply _ _ _ _ _ _ _ _ _

theorem box_bce (x0 x1 x2 x3 x4 x5 x6 x7 x8 x9 : FVec Ideal S64x160 .f32) (j : S1x1.Idx) :
    out1_13 (F := Ideal) x0 x1 x2 x3 x4 x5 x6 x7 x8 x9 j
      = ∑ b : Fin 64, ∑ m : Fin 160, bceE (x8 (ValueIdx.ix2 b m)) (x9 (ValueIdx.ix2 b m)) := by
  rw [out1_13_eq]
  unfold k1_pay4
  refine (sum2d_apply _ _ _ _ _ _ _ j).trans ?_
  exact Finset.sum_congr rfl fun b _ => Finset.sum_congr rfl fun m _ => bce_apply _ _ _

end Cert.KernelIdeal.BoxConf

end
-- ==== Proof.Consts.lean ====
/-
  The float constants the two programs spell, as the extended reals their patterns denote at the ideal instance:
  the divisors 160, 640, 64, 10240, 40960 and 6553600 are those integers, the zero pattern is 0, and the three
  loss weights (the patterns of 0.5, 0.3 and 0.2) are finite and not negative — all the weights' values the proof uses.
-/
import Idealize.ShloMosaic.PureOps.Ideal

noncomputable section

namespace Cert.Consts

open Idealize.ShloMosaic

theorem ofBits_zero : Ideal.ofBits .f32 0x00000000#32 = 0 := by
  simp [Ideal.ofBits, Ideal.ieee]

theorem ofBits_160 : Ideal.ofBits .f32 0x43200000#32 = ((160 : ℝ) : EReal) := by
  simp [Ideal.ofBits, Ideal.ieee, -EReal.coe_mul]; norm_num

theorem ofBits_640 : Ideal.ofBits .f32 0x44200000#32 = ((640 : ℝ) : EReal) := by
  simp [Ideal.ofBits, Ideal.ieee, -EReal.coe_mul]; norm_num

theorem ofBits_64 : Ideal.ofBits .f32 0x42800000#32 = ((64 : ℝ) : EReal) := by
  simp [Ideal.ofBits, Ideal.ieee, -EReal.coe_mul]; norm_num

theorem ofBits_10240 : Ideal.ofBits .f32 0x46200000#32 = ((10240 : ℝ) : EReal) := by
  simp [Ideal.ofBits, Ideal.ieee, -EReal.coe_mul]; norm_num

theorem ofBits_40960 : Ideal.ofBits .f32 0x47200000#32 = ((40960 : ℝ) : EReal) := by
  simp [Ideal.ofBits, Ideal.ieee, -EReal.coe_mul]; norm_num

/-- A weight: an extended real that is a real number and not negative. -/
def IsWeight (x : EReal) : Prop := ∃ r : ℝ, 0 ≤ r ∧ x = (r : EReal)

theorem weight_half : IsWeight (Ideal.ofBits .f32 0x3F000000#32) := by
  refine ⟨1 / 2, by norm_num, ?_⟩
  simp [Ideal.ofBits, Ideal.ieee, -EReal.coe_mul]; norm_num

theorem weight_three_tenths : IsWeight (Ideal.ofBits .f32 0x3E99999A#32) := by
  refine ⟨10066330 / 33554432, by norm_num, ?_⟩
  simp [Ideal.ofBits, Ideal.ieee, -EReal.coe_mul]; norm_num

theorem weight_fifth : IsWeight (Ideal.ofBits .f32 0x3E4CCCCD#32) := by
  refine ⟨13421773 / 67108864, by norm_num, ?_⟩
  simp [Ideal.ofBits, Ideal.ieee, -EReal.coe_mul]; norm_num

end Cert.Consts

end
-- ==== Proof.SumLaws.lean ====
/-
  Sums of extended reals and non-negative real weights.

  The extended reals are a commutative monoid under addition, so finite sums regroup freely; multiplication by a
  real number that is not negative distributes over every sum, infinite terms included (c·(⊤ + ⊥) = c·⊥ = ⊥ = c·⊤ + c·⊥),
  which fails for a negative factor. A quotient by a non-zero real constant is the product with its reciprocal. These
  three facts carry a mean of means with weights into one weighted sum of totals.
-/
import Idealize.ShloMosaic.PureOps.Ideal
import proofs.«167267_j69861938037475_1_alg».proof.Proof.Consts

noncomputable section

namespace Cert.SumLaws

open Idealize.ShloMosaic Cert.Consts

/-- A weight distributes over a sum of two extended reals. -/
theorem weight_mul_add {w : EReal} (hw : IsWeight w) (x y : EReal) : w * (x + y) = w * x + w * y := by
  obtain ⟨r, hr, rfl⟩ := hw
  exact EReal.left_distrib_of_nonneg_of_ne_top (EReal.coe_nonneg.mpr hr) (EReal.coe_ne_top r) x y

theorem add_mul_weight {w : EReal} (hw : IsWeight w) (x y : EReal) : (x + y) * w = x * w + y * w := by
  rw [mul_comm, weight_mul_add hw, mul_comm w x, mul_comm w y]

/-- A weight distributes over a finite sum. -/
theorem weight_mul_sum {ι : Type} (s : Finset ι) {w : EReal} (hw : IsWeight w) (f : ι → EReal) :
    w * ∑ i ∈ s, f i = ∑ i ∈ s, w * f i := by
  classical
  induction s using Finset.induction_on with
  | empty => simp
  | insert a s ha ih => rw [Finset.sum_insert ha, Finset.sum_insert ha, weight_mul_add hw, ih]

theorem sum_mul_weight {ι : Type} (s : Finset ι) {w : EReal} (hw : IsWeight w) (f : ι → EReal) :
    (∑ i ∈ s, f i) * w = ∑ i ∈ s, f i * w := by
  rw [mul_comm, weight_mul_sum s hw]; exact Finset.sum_congr rfl fun i _ => mul_comm _ _

/-- The reciprocal of a positive real is a weight. -/
theorem weight_inv {a : ℝ} (ha : 0 < a) : IsWeight (((1 / a : ℝ)) : EReal) :=
  ⟨1 / a, by positivity, rfl⟩

theorem weight_mul {v w : EReal} (hv : IsWeight v) (hw : IsWeight w) : IsWeight (v * w) := by
  obtain ⟨r, hr, rfl⟩ := hv; obtain ⟨s, hs, rfl⟩ := hw
  exact ⟨r * s, mul_nonneg hr hs, (EReal.coe_mul r s).symm⟩

/-- The weighted mean of per-row means is the weighted combination of the totals' means: with row sums `I b`,
    `R b`, `G b` over `n` rows, row lengths `p` and `q` and weights `h`, `r`, `g`,
    (0 + Σ_b (h·(I_b/p) + r·(R_b/q) + g·(G_b/p))) / n = (h·((Σ I)/(p·n)) + r·((Σ R)/(q·n))) + g·((Σ G)/(p·n)). -/
theorem mean_of_weighted_means {ι : Type} [Fintype ι] {h r g : EReal} (hh : IsWeight h) (hr : IsWeight r) (hg : IsWeight g)
    {p q n pn qn : ℝ} (hp : 0 < p) (hq : 0 < q) (hn : 0 < n) (hpn : pn = p * n) (hqn : qn = q * n)
    (I R G : ι → EReal) :
    Ideal.div (0 + ∑ b, ((h * Ideal.div (I b) (p : EReal) + r * Ideal.div (R b) (q : EReal)) + g * Ideal.div (G b) (p : EReal))) (n : EReal)
      = (h * Ideal.div (∑ b, I b) (pn : EReal) + r * Ideal.div (∑ b, R b) (qn : EReal)) + g * Ideal.div (∑ b, G b) (pn : EReal) := by
  have hpn0 : pn ≠ 0 := by rw [hpn]; positivity
  have hqn0 : qn ≠ 0 := by rw [hqn]; positivity
  simp only [Ideal.div_coe hp.ne', Ideal.div_coe hq.ne', Ideal.div_coe hn.ne', Ideal.div_coe hpn0, Ideal.div_coe hqn0, zero_add]
  have wp := weight_inv hp; have wq := weight_inv hq; have wn := weight_inv hn
  rw [Finset.sum_add_distrib, Finset.sum_add_distrib, add_mul_weight wn, add_mul_weight wn]
  have key : ∀ (w : EReal) (hw : IsWeight w) (a an : ℝ) (ha : 0 < a) (han : an = a * n) (X : ι → EReal),
      (∑ b, w * (X b * ((1 / a : ℝ) : EReal))) * ((1 / n : ℝ) : EReal) = w * ((∑ b, X b) * ((1 / an : ℝ) : EReal)) := by
    intro w hw a an ha han X
    rw [← weight_mul_sum _ hw, ← sum_mul_weight _ (weight_inv ha), mul_assoc, mul_assoc, ← EReal.coe_mul]
    congr 3
    rw [han]; field_simp
  rw [key h hh p pn hp hpn I, key r hr q qn hq hqn R, key g hg p pn hp hpn G]

/-- A plain mean of per-row means is the total's mean: (0 + Σ_b (S_b/p)) / n = (Σ S)/(p·n). -/
theorem mean_of_means {ι : Type} [Fintype ι] {p n pn : ℝ} (hp : 0 < p) (hn : 0 < n) (hpn : pn = p * n) (S : ι → EReal) :
    Ideal.div (0 + ∑ b, Ideal.div (S b) (p : EReal)) (n : EReal) = Ideal.div (∑ b, S b) (pn : EReal) := by
  have hpn0 : pn ≠ 0 := by rw [hpn]; positivity
  simp only [Ideal.div_coe hp.ne', Ideal.div_coe hn.ne', Ideal.div_coe hpn0, zero_add]
  rw [← sum_mul_weight _ (weight_inv hp), mul_assoc, ← EReal.coe_mul]
  congr 2
  rw [hpn]; field_simp

end Cert.SumLaws

end
-- ==== Proof.BoxGlue.lean ====
import proofs.«167267_j69861938037475_1_alg».proof.Proof.RefTerms
import proofs.«167267_j69861938037475_1_alg».proof.Proof.KernelTail
import proofs.«167267_j69861938037475_1_alg».proof.Proof.BoxSums
import proofs.«167267_j69861938037475_1_alg».proof.Proof.SumLaws
import proofs.«167267_j69861938037475_1_alg».proof.Proof.Consts
import Idealize.ShloMosaic.PureOps.Ideal.Laws
import Idealize.ShloMosaic.Lib.ValueIdx
import Idealize.ShloMosaic.Lib.Pipeline.Value

noncomputable section

namespace Cert.BoxGlue

open Idealize.ShloMosaic Idealize.ShloMosaic.ValueIdx

/-! ## Reading the host's reductions, slices and concatenation at an index

All over literal shapes: [64,160,4] boxes, [64,160] maps, [64] row values, the rank-0 scalar. -/

/-- A sum over the indices of a rank-1 shape is the sum over its coordinate. -/
theorem sum_idx1 {M : Type*} [AddCommMonoid M] {n : Nat} (f : (⟨1, ![n]⟩ : Shape).Idx → M) :
    ∑ i, f i = ∑ a : Fin n, f (ix1 a) :=
  Fintype.sum_equiv ⟨fun i => i 0, ix1, fun i => (eq_ix1 i).symm, fun _ => rfl⟩ _ _ fun i => congrArg f (eq_ix1 i)

/-- A sum over the indices of a rank-3 shape is the triple sum over its coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Finset.sum_product', ← Finset.sum_product']
  exact Fintype.sum_equiv ⟨fun i => ((i 0, i 1), i 2), fun p => ix3 p.1.1 p.1.2 p.2, fun i => (eq_ix3 i).symm, fun _ => rfl⟩ _ _
    fun i => congrArg f (eq_ix3 i)

/-- The host's sum over the lanes of a [64,160] map, at row `b`: the start value plus the row's sum. -/
theorem rowSum_apply (x : FVec Ideal ⟨2, ![64, 160]⟩ .f32) (init : EReal)
    (h' : (⟨2, ![64, 160]⟩ : Shape).ReducesTo [1] ⟨1, ![64]⟩) (b : Fin 64) :
    Ideal.hostReduceAdd h' x init (ix1 b) = init + ∑ m : Fin 160, x (ix2 b m) := by
  have h : (⟨2, ![64, 160]⟩ : Shape).Reduces [1] ⟨1, ![64]⟩ := by decide
  rw [Ideal.hostReduceAdd_single h' h]
  show init + ∑ m : Fin 160, _ = _
  refine congrArg (init + ·) (Finset.sum_congr rfl fun m _ => congrArg x ?_)
  funext a; apply Fin.ext
  match a with
  | ⟨0, _⟩ => rfl
  | ⟨1, _⟩ => rfl

/-- The host's sum over the lanes and the four corners of a [64,160,4] map, at row `b`. -/
theorem rowSum3_apply (x : FVec Ideal ⟨3, ![64, 160, 4]⟩ .f32) (init : EReal)
    (h' : (⟨3, ![64, 160, 4]⟩ : Shape).ReducesTo [1, 2] ⟨1, ![64]⟩) (b : Fin 64) :
    Ideal.hostReduceAdd h' x init (ix1 b) = init + ∑ m : Fin 160, ∑ k : Fin 4, x (ix3 b m k) := by
  unfold Ideal.hostReduceAdd
  refine congrArg (init + ·) ?_
  rw [Finset.sum_filter, sum_idx3]
  have hd : ∀ (a : Fin 64) (m : Fin 160) (k : Fin 4), (h'.drop (ix3 a m k) = ix1 b) ↔ a = b := by
    intro a m k
    constructor
    · intro e; have := congrFun e 0; exact Fin.ext (show a.val = b.val from congrArg Fin.val this)
    · rintro rfl; funext d; match d with | ⟨0, _⟩ => rfl
  simp only [hd]
  rw [Finset.sum_eq_single b]
  · simp
  · intro a _ hab; simp [hab]
  · intro hb; exact absurd (Finset.mem_univ b) hb

/-- The host's sum of a [64] vector into the scalar: the start value plus the sum over the rows. -/
theorem allSum_apply (x : FVec Ideal ⟨1, ![64]⟩ .f32) (init : EReal)
    (h' : (⟨1, ![64]⟩ : Shape).ReducesTo [0] ⟨0, ![]⟩) (j : (⟨0, ![]⟩ : Shape).Idx) :
    Ideal.hostReduceAdd h' x init j = init + ∑ b : Fin 64, x (ix1 b) := by
  rw [Ideal.hostReduceAdd_total h' (fun b => b.elim0), sum_idx1]

/-- Column `k` of a [64,160,4] array — the slice at offset `k` of the last axis, its unit axis dropped — at (b, m). -/
theorem col_apply {α : Type} (G : (⟨3, ![64, 160, 4]⟩ : Shape).Idx → α) (k : Nat) (hk : k < 4)
    (hs : (⟨3, ![64, 160, 4]⟩ : Shape).Slices ![0, 0, k] ⟨3, ![64, 160, 1]⟩)
    (hc : (⟨3, ![64, 160, 1]⟩ : Shape).ShapeCasts ⟨2, ![64, 160]⟩) (b : Fin 64) (m : Fin 160) :
    shapeCast ⟨2, ![64, 160]⟩ (extractStridedSlice ⟨3, ![64, 160, 1]⟩ ![0, 0, k] G hs) hc (ix2 b m) = G (ix3 b m ⟨k, hk⟩) := by
  refine (shapeCast_apply _ hc (ix2 b m) (ix3 b m (0 : Fin 1)) ?_).trans ?_
  · rw [Shape.rowMajor_val_three, Shape.rowMajor_val_two]
    show (b.val * 160 + m.val) * 1 + 0 = b.val * 160 + m.val
    omega
  · unfold extractStridedSlice
    refine congrArg G ?_
    funext a; apply Fin.ext
    match a with
    | ⟨0, _⟩ => show 0 + b.val = b.val; omega
    | ⟨1, _⟩ => show 0 + m.val = m.val; omega
    | ⟨2, _⟩ => show k + 0 = k; omega

/-- A [64,160] map spread along a new last unit axis, at (b, m, 0). -/
theorem spread_apply {α : Type} (X : (⟨2, ![64, 160]⟩ : Shape).Idx → α)
    (h : (⟨2, ![64, 160]⟩ : Shape).BroadcastsInDim ⟨3, ![64, 160, 1]⟩ (![0, 1] : Fin 2 → Fin 3)) (b : Fin 64) (m : Fin 160) :
    broadcastInDim ⟨3, ![64, 160, 1]⟩ ![0, 1] h X (ix3 b m (0 : Fin 1)) = X (ix2 b m) := by
  unfold broadcastInDim
  refine congrArg X ?_
  funext a; apply Fin.ext
  match a with
  | ⟨0, _⟩ => rfl
  | ⟨1, _⟩ => rfl

/-- Four [64,160,1] pieces laid side by side along the last axis, at (b, m, k): piece `k` at (b, m, 0). -/
theorem concat4_apply {α : Type} (A0 A1 A2 A3 : (⟨3, ![64, 160, 1]⟩ : Shape).Idx → α)
    (h : Shape.Concatenates [(⟨3, ![64, 160, 1]⟩ : Shape), ⟨3, ![64, 160, 1]⟩, ⟨3, ![64, 160, 1]⟩, ⟨3, ![64, 160, 1]⟩] ⟨3, ![64, 160, 4]⟩ 2)
    (b : Fin 64) (m : Fin 160) :
    (concatenate ⟨3, ![64, 160, 4]⟩ 2 [⟨⟨3, ![64, 160, 1]⟩, A0⟩, ⟨⟨3, ![64, 160, 1]⟩, A1⟩, ⟨⟨3, ![64, 160, 1]⟩, A2⟩, ⟨⟨3, ![64, 160, 1]⟩, A3⟩] h (ix3 b m ⟨0, by decide⟩)
        = A0 (ix3 b m (0 : Fin 1)))
    ∧ (concatenate ⟨3, ![64, 160, 4]⟩ 2 [⟨⟨3, ![64, 160, 1]⟩, A0⟩, ⟨⟨3, ![64, 160, 1]⟩, A1⟩, ⟨⟨3, ![64, 160, 1]⟩, A2⟩, ⟨⟨3, ![64, 160, 1]⟩, A3⟩] h (ix3 b m ⟨1, by decide⟩)
        = A1 (ix3 b m (0 : Fin 1)))
    ∧ (concatenate ⟨3, ![64, 160, 4]⟩ 2 [⟨⟨3, ![64, 160, 1]⟩, A0⟩, ⟨⟨3, ![64, 160, 1]⟩, A1⟩, ⟨⟨3, ![64, 160, 1]⟩, A2⟩, ⟨⟨3, ![64, 160, 1]⟩, A3⟩] h (ix3 b m ⟨2, by decide⟩)
        = A2 (ix3 b m (0 : Fin 1)))
    ∧ (concatenate ⟨3, ![64, 160, 4]⟩ 2 [⟨⟨3, ![64, 160, 1]⟩, A0⟩, ⟨⟨3, ![64, 160, 1]⟩, A1⟩, ⟨⟨3, ![64, 160, 1]⟩, A2⟩, ⟨⟨3, ![64, 160, 1]⟩, A3⟩] h (ix3 b m ⟨3, by decide⟩)
        = A3 (ix3 b m (0 : Fin 1))) := by
  have hi : ∀ (k : Fin 4) (b' : Fin 3), b'.cast (rfl : (⟨3, ![64, 160, 1]⟩ : Shape).rank = (⟨3, ![64, 160, 4]⟩ : Shape).rank) ≠ 2 →
      ((ix3 b m (0 : Fin 1)) b').val = ((ix3 b m k) (b'.cast rfl)).val := by
    intro k b' hb
    match b' with
    | ⟨0, _⟩ => rfl
    | ⟨1, _⟩ => rfl
    | ⟨2, _⟩ => exact absurd rfl hb
  refine ⟨?_, ?_, ?_, ?_⟩
  · exact concatenate_apply_piece (t := ⟨3, ![64, 160, 4]⟩) 2 [⟨⟨3, ![64, 160, 1]⟩, A0⟩, ⟨⟨3, ![64, 160, 1]⟩, A1⟩, ⟨⟨3, ![64, 160, 1]⟩, A2⟩, ⟨⟨3, ![64, 160, 1]⟩, A3⟩] h _ 0 (by simp) ⟨3, ![64, 160, 1]⟩ A0 rfl rfl 0 rfl _ (hi _) rfl
  · exact concatenate_apply_piece (t := ⟨3, ![64, 160, 4]⟩) 2 [⟨⟨3, ![64, 160, 1]⟩, A0⟩, ⟨⟨3, ![64, 160, 1]⟩, A1⟩, ⟨⟨3, ![64, 160, 1]⟩, A2⟩, ⟨⟨3, ![64, 160, 1]⟩, A3⟩] h _ 1 (by simp) ⟨3, ![64, 160, 1]⟩ A1 rfl rfl 1 rfl _ (hi _) rfl
  · exact concatenate_apply_piece (t := ⟨3, ![64, 160, 4]⟩) 2 [⟨⟨3, ![64, 160, 1]⟩, A0⟩, ⟨⟨3, ![64, 160, 1]⟩, A1⟩, ⟨⟨3, ![64, 160, 1]⟩, A2⟩, ⟨⟨3, ![64, 160, 1]⟩, A3⟩] h _ 2 (by simp) ⟨3, ![64, 160, 1]⟩ A2 rfl rfl 2 rfl _ (hi _) rfl
  · exact concatenate_apply_piece (t := ⟨3, ![64, 160, 4]⟩) 2 [⟨⟨3, ![64, 160, 1]⟩, A0⟩, ⟨⟨3, ![64, 160, 1]⟩, A1⟩, ⟨⟨3, ![64, 160, 1]⟩, A2⟩, ⟨⟨3, ![64, 160, 1]⟩, A3⟩] h _ 3 (by simp) ⟨3, ![64, 160, 1]⟩ A3 rfl rfl 3 rfl _ (hi _) rfl

/-! ## A mean over the rows of per-row means -/

/-- The mean over the 64 rows of the rows' means over their 160 lanes is the total over 10240. -/
theorem mean_rows (X : FVec Ideal ⟨2, ![64, 160]⟩ .f32)
    (h1 : (⟨2, ![64, 160]⟩ : Shape).ReducesTo [1] ⟨1, ![64]⟩) (h0 : (⟨1, ![64]⟩ : Shape).ReducesTo [0] ⟨0, ![]⟩) (j : (⟨0, ![]⟩ : Shape).Idx) :
    Ideal.div (Ideal.hostReduceAdd h0 (fun i => Ideal.div (Ideal.hostReduceAdd h1 X (Ideal.ofBits .f32 0x00000000#32) i) (Ideal.ofBits .f32 0x43200000#32)) (Ideal.ofBits .f32 0x00000000#32) j) (Ideal.ofBits .f32 0x42800000#32)
      = Ideal.div (∑ b : Fin 64, ∑ m : Fin 160, X (ix2 b m)) (Ideal.ofBits .f32 0x46200000#32) := by
  have inner : ∀ b : Fin 64, Ideal.hostReduceAdd h1 X (Ideal.ofBits .f32 0x00000000#32) (ix1 b) = ∑ m : Fin 160, X (ix2 b m) := fun b => by
    rw [rowSum_apply, Cert.Consts.ofBits_zero, zero_add]
  rw [allSum_apply]
  simp only [inner]
  rw [Cert.Consts.ofBits_zero, Cert.Consts.ofBits_160, Cert.Consts.ofBits_64, Cert.Consts.ofBits_10240]
  exact Cert.SumLaws.mean_of_means (by norm_num) (by norm_num) (by norm_num) _

/-- The mean over the rows of the weighted per-row means (two over 160 lanes, one over 160 lanes × 4 corners) is the
    weighted combination of the totals over 10240 and 40960. -/
theorem weighted_mean_rows (XI XG : FVec Ideal ⟨2, ![64, 160]⟩ .f32) (XR : FVec Ideal ⟨3, ![64, 160, 4]⟩ .f32)
    (h1 : (⟨2, ![64, 160]⟩ : Shape).ReducesTo [1] ⟨1, ![64]⟩) (h12 : (⟨3, ![64, 160, 4]⟩ : Shape).ReducesTo [1, 2] ⟨1, ![64]⟩)
    (h0 : (⟨1, ![64]⟩ : Shape).ReducesTo [0] ⟨0, ![]⟩) (j : (⟨0, ![]⟩ : Shape).Idx) :
    Ideal.div (Ideal.hostReduceAdd h0 (fun i =>
        ((Ideal.ofBits .f32 0x3F000000#32) * Ideal.div (Ideal.hostReduceAdd h1 XI (Ideal.ofBits .f32 0x00000000#32) i) (Ideal.ofBits .f32 0x43200000#32)
          + (Ideal.ofBits .f32 0x3E99999A#32) * Ideal.div (Ideal.hostReduceAdd h12 XR (Ideal.ofBits .f32 0x00000000#32) i) (Ideal.ofBits .f32 0x44200000#32))
        + (Ideal.ofBits .f32 0x3E4CCCCD#32) * Ideal.div (Ideal.hostReduceAdd h1 XG (Ideal.ofBits .f32 0x00000000#32) i) (Ideal.ofBits .f32 0x43200000#32)) (Ideal.ofBits .f32 0x00000000#32) j) (Ideal.ofBits .f32 0x42800000#32)
      = ((Ideal.ofBits .f32 0x3F000000#32) * Ideal.div (∑ b : Fin 64, ∑ m : Fin 160, XI (ix2 b m)) (Ideal.ofBits .f32 0x46200000#32)
          + (Ideal.ofBits .f32 0x3E99999A#32) * Ideal.div (∑ b : Fin 64, ∑ m : Fin 160, ∑ k : Fin 4, XR (ix3 b m k)) (Ideal.ofBits .f32 0x47200000#32))
        + (Ideal.ofBits .f32 0x3E4CCCCD#32) * Ideal.div (∑ b : Fin 64, ∑ m : Fin 160, XG (ix2 b m)) (Ideal.ofBits .f32 0x46200000#32) := by
  have innerI : ∀ b : Fin 64, Ideal.hostReduceAdd h1 XI (Ideal.ofBits .f32 0x00000000#32) (ix1 b) = ∑ m : Fin 160, XI (ix2 b m) := fun b => by
    rw [rowSum_apply, Cert.Consts.ofBits_zero, zero_add]
  have innerG : ∀ b : Fin 64, Ideal.hostReduceAdd h1 XG (Ideal.ofBits .f32 0x00000000#32) (ix1 b) = ∑ m : Fin 160, XG (ix2 b m) := fun b => by
    rw [rowSum_apply, Cert.Consts.ofBits_zero, zero_add]
  have innerR : ∀ b : Fin 64, Ideal.hostReduceAdd h12 XR (Ideal.ofBits .f32 0x00000000#32) (ix1 b) = ∑ m : Fin 160, ∑ k : Fin 4, XR (ix3 b m k) := fun b => by
    rw [rowSum3_apply, Cert.Consts.ofBits_zero, zero_add]
  rw [allSum_apply]
  simp only [innerI, innerG, innerR]
  rw [Cert.Consts.ofBits_zero, Cert.Consts.ofBits_160, Cert.Consts.ofBits_640, Cert.Consts.ofBits_64, Cert.Consts.ofBits_10240, Cert.Consts.ofBits_40960]
  exact Cert.SumLaws.mean_of_weighted_means Cert.Consts.weight_half Cert.Consts.weight_three_tenths Cert.Consts.weight_fifth
    (by norm_num) (by norm_num) (by norm_num) (by norm_num) (by norm_num) _ _ _

/-! ## The kernel program's ten window arrays: the four columns of its predicted and of its target boxes -/

def col0 (G : FVec Ideal Cert.KernelIdeal.S64x160x4 .f32) : FVec Ideal Cert.KernelIdeal.S64x160 .f32 :=
  shapeCast Cert.KernelIdeal.S64x160 (extractStridedSlice Cert.KernelIdeal.S64x160x1 ![0, 0, 0] G Cert.KernelIdeal.Facts₀.slices_S64x160x4_S64x160x1_0_0_0) Cert.KernelIdeal.Facts₀.shapeCasts_S64x160x1_S64x160
def col1 (G : FVec Ideal Cert.KernelIdeal.S64x160x4 .f32) : FVec Ideal Cert.KernelIdeal.S64x160 .f32 :=
  shapeCast Cert.KernelIdeal.S64x160 (extractStridedSlice Cert.KernelIdeal.S64x160x1 ![0, 0, 1] G Cert.KernelIdeal.Facts₀.slices_S64x160x4_S64x160x1_0_0_1) Cert.KernelIdeal.Facts₀.shapeCasts_S64x160x1_S64x160
def col2 (G : FVec Ideal Cert.KernelIdeal.S64x160x4 .f32) : FVec Ideal Cert.KernelIdeal.S64x160 .f32 :=
  shapeCast Cert.KernelIdeal.S64x160 (extractStridedSlice Cert.KernelIdeal.S64x160x1 ![0, 0, 2] G Cert.KernelIdeal.Facts₀.slices_S64x160x4_S64x160x1_0_0_2) Cert.KernelIdeal.Facts₀.shapeCasts_S64x160x1_S64x160
def col3 (G : FVec Ideal Cert.KernelIdeal.S64x160x4 .f32) : FVec Ideal Cert.KernelIdeal.S64x160 .f32 :=
  shapeCast Cert.KernelIdeal.S64x160 (extractStridedSlice Cert.KernelIdeal.S64x160x1 ![0, 0, 3] G Cert.KernelIdeal.Facts₀.slices_S64x160x4_S64x160x1_0_0_3) Cert.KernelIdeal.Facts₀.shapeCasts_S64x160x1_S64x160

theorem col0_apply (G : FVec Ideal Cert.KernelIdeal.S64x160x4 .f32) (b : Fin 64) (m : Fin 160) : col0 G (ix2 b m) = G (ix3 b m ⟨0, by decide⟩) :=
  col_apply G 0 (by decide) _ _ b m
theorem col1_apply (G : FVec Ideal Cert.KernelIdeal.S64x160x4 .f32) (b : Fin 64) (m : Fin 160) : col1 G (ix2 b m) = G (ix3 b m ⟨1, by decide⟩) :=
  col_apply G 1 (by decide) _ _ b m
theorem col2_apply (G : FVec Ideal Cert.KernelIdeal.S64x160x4 .f32) (b : Fin 64) (m : Fin 160) : col2 G (ix2 b m) = G (ix3 b m ⟨2, by decide⟩) :=
  col_apply G 2 (by decide) _ _ b m
theorem col3_apply (G : FVec Ideal Cert.KernelIdeal.S64x160x4 .f32) (b : Fin 64) (m : Fin 160) : col3 G (ix2 b m) = G (ix3 b m ⟨3, by decide⟩) :=
  col_apply G 3 (by decide) _ _ b m

/-- A reference array read as a map of extended reals over its literal shape (the identity: it only names the type). -/
abbrev m2 (x : (⟨2, ![64, 160]⟩ : Shape).Idx → EReal) : (⟨2, ![64, 160]⟩ : Shape).Idx → EReal := x
abbrev m3 (x : (⟨3, ![64, 160, 4]⟩ : Shape).Idx → EReal) : (⟨3, ![64, 160, 4]⟩ : Shape).Idx → EReal := x

/-! ## Two scalar rewritings -/

/-- The cross-entropy term with its sign as the reference writes it. -/
theorem bceE_eq_neg (g t : EReal) :
    Cert.KernelIdeal.BoxConf.bceE g t = -(t * max (Ideal.log g) (Ideal.ofBits .f32 0xC2C80000#32) + (Ideal.ofBits .f32 0x3F800000#32 - t) * max (Ideal.log1p (-g)) (Ideal.ofBits .f32 0xC2C80000#32)) := by
  unfold Cert.KernelIdeal.BoxConf.bceE
  rw [Cert.Consts.ofBits_zero, zero_sub, zero_sub]

/-- Smooth L1 of one corner difference, as the reference selects it. -/
theorem ref_sl1 (d : EReal) :
    Scalar.select (Ideal.cmp .olt (max d (-d)) (Ideal.ofBits .f32 0x3F800000#32)) (Ideal.ofBits .f32 0x3F000000#32 * max d (-d) * max d (-d)) (max d (-d) - Ideal.ofBits .f32 0x3F000000#32) = Cert.KernelIdeal.BoxConf.sl1E d :=
  Cert.KernelIdeal.BoxConf.select_olt _ _ _ _

/-! ## The reference's arrays at a sample point -/

section Ref
variable (V0 : Valuation Cert.ReferenceIdeal.τ Cert.ReferenceIdeal.sig (Elt Ideal))
  (GP TB : FVec Ideal Cert.KernelIdeal.S64x160x4 .f32) (GC TC : FVec Ideal Cert.KernelIdeal.S64x160 .f32)
  (hgp : Cert.ReferenceIdeal.HandRun.term_main_v108 (F := Ideal) V0 = GP) (htb : Cert.ReferenceIdeal.HandRun.term_main_v118 (F := Ideal) V0 = TB)
  (hgc : Cert.ReferenceIdeal.HandRun.term_main_v110 (F := Ideal) V0 = GC) (htc : Cert.ReferenceIdeal.HandRun.term_main_v121 (F := Ideal) V0 = TC)
include hgp htb hgc htc

/-- The reference's confidence loss is the kernel program's tail applied to the kernel's confidence sum. -/
theorem conf_glue :
    Cert.ReferenceIdeal.HandRun.term_main_v243 (F := Ideal) V0
      = Cert.KernelIdeal.Tail.confLoss (Cert.KernelIdeal.BoxConf.out1_13 (F := Ideal) (col0 GP) (col1 GP) (col2 GP) (col3 GP) (col0 TB) (col1 TB) (col2 TB) (col3 TB) GC TC) := by
  funext j
  have hR : Cert.KernelIdeal.Tail.confLoss (Cert.KernelIdeal.BoxConf.out1_13 (F := Ideal) (col0 GP) (col1 GP) (col2 GP) (col3 GP) (col0 TB) (col1 TB) (col2 TB) (col3 TB) GC TC) j
      = Ideal.div (∑ b : Fin 64, ∑ m : Fin 160, Cert.KernelIdeal.BoxConf.bceE (GC (ix2 b m)) (TC (ix2 b m))) (Ideal.ofBits .f32 0x46200000#32) := by
    show Ideal.div (Cert.KernelIdeal.BoxConf.out1_13 (F := Ideal) (col0 GP) (col1 GP) (col2 GP) (col3 GP) (col0 TB) (col1 TB) (col2 TB) (col3 TB) GC TC _) (Ideal.ofBits .f32 0x46200000#32) = _
    rw [Cert.KernelIdeal.BoxConf.box_bce]
  rw [hR]
  unfold Cert.ReferenceIdeal.HandRun.term_main_v243 Cert.ReferenceIdeal.HandRun.term_main_v239 Cert.ReferenceIdeal.HandRun.term_main_v228 Cert.ReferenceIdeal.HandRun.term_main_v229 Cert.ReferenceIdeal.HandRun.term_main_cst_71
  rw [hgc, htc]
  show Ideal.div (Ideal.hostReduceAdd _ (fun i => Ideal.div (Ideal.hostReduceAdd _
      (fun i : (⟨2, ![64, 160]⟩ : Shape).Idx => -(TC i * max (Ideal.log (GC i)) (Ideal.ofBits .f32 0xC2C80000#32) + (Ideal.ofBits .f32 0x3F800000#32 - TC i) * max (Ideal.log1p (-(GC i))) (Ideal.ofBits .f32 0xC2C80000#32)))
      (Ideal.ofBits .f32 0x00000000#32) i) (Ideal.ofBits .f32 0x43200000#32)) (Ideal.ofBits .f32 0x00000000#32) j) (Ideal.ofBits .f32 0x42800000#32) = _
  rw [mean_rows]
  simp only [bceE_eq_neg]

/-! ### The predicted corners, clipped and ordered -/

theorem ref_v124 (b : Fin 64) (m : Fin 160) : m2 (Cert.ReferenceIdeal.HandRun.term_main_v124 (F := Ideal) V0) (ix2 b m) = Cert.KernelIdeal.BoxConf.clipLoE (GP (ix3 b m ⟨0, by decide⟩)) := by
  unfold Cert.ReferenceIdeal.HandRun.term_main_v124 Cert.ReferenceIdeal.HandRun.term_main_call8_v3 Cert.ReferenceIdeal.HandRun.term_main_call8_v2
  rw [hgp]
  show min (Ideal.ofBits .f32 0x3F7D70A4#32) (max (Ideal.ofBits .f32 0x00000000#32) (shapeCast (⟨2, ![64, 160]⟩ : Shape) (extractStridedSlice (⟨3, ![64, 160, 1]⟩ : Shape) ![0, 0, 0] GP _) _ (ix2 b m))) = _
  rw [col_apply GP 0 (by decide)]
  rfl

theorem ref_v127 (b : Fin 64) (m : Fin 160) : m2 (Cert.ReferenceIdeal.HandRun.term_main_v127 (F := Ideal) V0) (ix2 b m) = Cert.KernelIdeal.BoxConf.clipLoE (GP (ix3 b m ⟨1, by decide⟩)) := by
  unfold Cert.ReferenceIdeal.HandRun.term_main_v127
  rw [hgp]
  show min (Ideal.ofBits .f32 0x3F7D70A4#32) (max (Ideal.ofBits .f32 0x00000000#32) (shapeCast (⟨2, ![64, 160]⟩ : Shape) (extractStridedSlice (⟨3, ![64, 160, 1]⟩ : Shape) ![0, 0, 1] GP _) _ (ix2 b m))) = _
  rw [col_apply GP 1 (by decide)]
  rfl

theorem ref_v130 (b : Fin 64) (m : Fin 160) : m2 (Cert.ReferenceIdeal.HandRun.term_main_v130 (F := Ideal) V0) (ix2 b m) = Cert.KernelIdeal.BoxConf.clipHiE (GP (ix3 b m ⟨2, by decide⟩)) := by
  unfold Cert.ReferenceIdeal.HandRun.term_main_v130
  rw [hgp]
  show min (Ideal.ofBits .f32 0x3F800000#32) (max (Ideal.ofBits .f32 0x3C23D70A#32) (shapeCast (⟨2, ![64, 160]⟩ : Shape) (extractStridedSlice (⟨3, ![64, 160, 1]⟩ : Shape) ![0, 0, 2] GP _) _ (ix2 b m))) = _
  rw [col_apply GP 2 (by decide)]
  rfl

theorem ref_v133 (b : Fin 64) (m : Fin 160) : m2 (Cert.ReferenceIdeal.HandRun.term_main_v133 (F := Ideal) V0) (ix2 b m) = Cert.KernelIdeal.BoxConf.clipHiE (GP (ix3 b m ⟨3, by decide⟩)) := by
  unfold Cert.ReferenceIdeal.HandRun.term_main_v133 Cert.ReferenceIdeal.HandRun.term_main_v132
  rw [hgp]
  show min (Ideal.ofBits .f32 0x3F800000#32) (max (Ideal.ofBits .f32 0x3C23D70A#32) (shapeCast (⟨2, ![64, 160]⟩ : Shape) (extractStridedSlice (⟨3, ![64, 160, 1]⟩ : Shape) ![0, 0, 3] GP _) _ (ix2 b m))) = _
  rw [col_apply GP 3 (by decide)]
  rfl

set_option maxHeartbeats 1000000 in
/-- The four columns of the reference's ordered box: the lower and the upper edge on each axis. -/
theorem ref_v142 (b : Fin 64) (m : Fin 160) :
    (m3 (Cert.ReferenceIdeal.HandRun.term_main_v142 (F := Ideal) V0) (ix3 b m ⟨0, by decide⟩) = Cert.KernelIdeal.BoxConf.edgeLoE (GP (ix3 b m ⟨0, by decide⟩)) (GP (ix3 b m ⟨2, by decide⟩)))
    ∧ (m3 (Cert.ReferenceIdeal.HandRun.term_main_v142 (F := Ideal) V0) (ix3 b m ⟨1, by decide⟩) = Cert.KernelIdeal.BoxConf.edgeLoE (GP (ix3 b m ⟨1, by decide⟩)) (GP (ix3 b m ⟨3, by decide⟩)))
    ∧ (m3 (Cert.ReferenceIdeal.HandRun.term_main_v142 (F := Ideal) V0) (ix3 b m ⟨2, by decide⟩) = Cert.KernelIdeal.BoxConf.edgeHiE (GP (ix3 b m ⟨0, by decide⟩)) (GP (ix3 b m ⟨2, by decide⟩)))
    ∧ (m3 (Cert.ReferenceIdeal.HandRun.term_main_v142 (F := Ideal) V0) (ix3 b m ⟨3, by decide⟩) = Cert.KernelIdeal.BoxConf.edgeHiE (GP (ix3 b m ⟨1, by decide⟩)) (GP (ix3 b m ⟨3, by decide⟩))) := by
  have e124 := ref_v124 V0 GP TB GC TC hgp htb hgc htc b m
  have e127 := ref_v127 V0 GP TB GC TC hgp htb hgc htc b m
  have e130 := ref_v130 V0 GP TB GC TC hgp htb hgc htc b m
  have e133 := ref_v133 V0 GP TB GC TC hgp htb hgc htc b m
  unfold Cert.ReferenceIdeal.HandRun.term_main_v142 Cert.ReferenceIdeal.HandRun.cat_main_v142
  refine ⟨?_, ?_, ?_, ?_⟩
  · refine ((concat4_apply _ _ _ _ _ b m).1).trans ?_
    refine (spread_apply _ _ b m).trans ?_
    show min (m2 (Cert.ReferenceIdeal.HandRun.term_main_v124 (F := Ideal) V0) (ix2 b m)) (m2 (Cert.ReferenceIdeal.HandRun.term_main_v130 (F := Ideal) V0) (ix2 b m)) = _
    rw [e124, e130]; rfl
  · refine ((concat4_apply _ _ _ _ _ b m).2.1).trans ?_
    refine (spread_apply _ _ b m).trans ?_
    show min (m2 (Cert.ReferenceIdeal.HandRun.term_main_v127 (F := Ideal) V0) (ix2 b m)) (m2 (Cert.ReferenceIdeal.HandRun.term_main_v133 (F := Ideal) V0) (ix2 b m)) = _
    rw [e127, e133]; rfl
  · refine ((concat4_apply _ _ _ _ _ b m).2.2.1).trans ?_
    refine (spread_apply _ _ b m).trans ?_
    show max (m2 (Cert.ReferenceIdeal.HandRun.term_main_v124 (F := Ideal) V0) (ix2 b m)) (m2 (Cert.ReferenceIdeal.HandRun.term_main_v130 (F := Ideal) V0) (ix2 b m)) = _
    rw [e124, e130]; rfl
  · refine ((concat4_apply _ _ _ _ _ b m).2.2.2).trans ?_
    refine (spread_apply _ _ b m).trans ?_
    show max (m2 (Cert.ReferenceIdeal.HandRun.term_main_v127 (F := Ideal) V0) (ix2 b m)) (m2 (Cert.ReferenceIdeal.HandRun.term_main_v133 (F := Ideal) V0) (ix2 b m)) = _
    rw [e127, e133]; rfl

theorem ref_v144 (b : Fin 64) (m : Fin 160) : m2 (Cert.ReferenceIdeal.HandRun.term_main_v144 (F := Ideal) V0) (ix2 b m) = Cert.KernelIdeal.BoxConf.edgeLoE (GP (ix3 b m ⟨0, by decide⟩)) (GP (ix3 b m ⟨2, by decide⟩)) := by
  unfold Cert.ReferenceIdeal.HandRun.term_main_v144
  exact (col_apply (m3 (Cert.ReferenceIdeal.HandRun.term_main_v142 (F := Ideal) V0)) 0 (by decide) _ _ b m).trans (ref_v142 V0 GP TB GC TC hgp htb hgc htc b m).1
theorem ref_v146 (b : Fin 64) (m : Fin 160) : m2 (Cert.ReferenceIdeal.HandRun.term_main_v146 (F := Ideal) V0) (ix2 b m) = Cert.KernelIdeal.BoxConf.edgeLoE (GP (ix3 b m ⟨1, by decide⟩)) (GP (ix3 b m ⟨3, by decide⟩)) := by
  unfold Cert.ReferenceIdeal.HandRun.term_main_v146
  exact (col_apply (m3 (Cert.ReferenceIdeal.HandRun.term_main_v142 (F := Ideal) V0)) 1 (by decide) _ _ b m).trans (ref_v142 V0 GP TB GC TC hgp htb hgc htc b m).2.1
theorem ref_v148 (b : Fin 64) (m : Fin 160) : m2 (Cert.ReferenceIdeal.HandRun.term_main_v148 (F := Ideal) V0) (ix2 b m) = Cert.KernelIdeal.BoxConf.edgeHiE (GP (ix3 b m ⟨0, by decide⟩)) (GP (ix3 b m ⟨2, by decide⟩)) := by
  unfold Cert.ReferenceIdeal.HandRun.term_main_v148
  exact (col_apply (m3 (Cert.ReferenceIdeal.HandRun.term_main_v142 (F := Ideal) V0)) 2 (by decide) _ _ b m).trans (ref_v142 V0 GP TB GC TC hgp htb hgc htc b m).2.2.1
theorem ref_v150 (b : Fin 64) (m : Fin 160) : m2 (Cert.ReferenceIdeal.HandRun.term_main_v150 (F := Ideal) V0) (ix2 b m) = Cert.KernelIdeal.BoxConf.edgeHiE (GP (ix3 b m ⟨1, by decide⟩)) (GP (ix3 b m ⟨3, by decide⟩)) := by
  unfold Cert.ReferenceIdeal.HandRun.term_main_v150
  exact (col_apply (m3 (Cert.ReferenceIdeal.HandRun.term_main_v142 (F := Ideal) V0)) 3 (by decide) _ _ b m).trans (ref_v142 V0 GP TB GC TC hgp htb hgc htc b m).2.2.2

/-! ### The target corners -/
theorem ref_v152 (b : Fin 64) (m : Fin 160) : m2 (Cert.ReferenceIdeal.HandRun.term_main_v152 (F := Ideal) V0) (ix2 b m) = (TB (ix3 b m ⟨0, by decide⟩)) := by
  unfold Cert.ReferenceIdeal.HandRun.term_main_v152; rw [htb]; exact col_apply TB 0 (by decide) _ _ b m
theorem ref_v154 (b : Fin 64) (m : Fin 160) : m2 (Cert.ReferenceIdeal.HandRun.term_main_v154 (F := Ideal) V0) (ix2 b m) = (TB (ix3 b m ⟨1, by decide⟩)) := by
  unfold Cert.ReferenceIdeal.HandRun.term_main_v154; rw [htb]; exact col_apply TB 1 (by decide) _ _ b m
theorem ref_v156 (b : Fin 64) (m : Fin 160) : m2 (Cert.ReferenceIdeal.HandRun.term_main_v156 (F := Ideal) V0) (ix2 b m) = (TB (ix3 b m ⟨2, by decide⟩)) := by
  unfold Cert.ReferenceIdeal.HandRun.term_main_v156; rw [htb]; exact col_apply TB 2 (by decide) _ _ b m
theorem ref_v158 (b : Fin 64) (m : Fin 160) : m2 (Cert.ReferenceIdeal.HandRun.term_main_v158 (F := Ideal) V0) (ix2 b m) = (TB (ix3 b m ⟨3, by decide⟩)) := by
  unfold Cert.ReferenceIdeal.HandRun.term_main_v158; rw [htb]; exact col_apply TB 3 (by decide) _ _ b m

/-! ### Intersection, union, IoU, enclosure -/

theorem ref_inter (b : Fin 64) (m : Fin 160) : m2 (Cert.ReferenceIdeal.HandRun.term_main_v173 (F := Ideal) V0) (ix2 b m) = Cert.KernelIdeal.BoxConf.interE (GP (ix3 b m ⟨0, by decide⟩)) (GP (ix3 b m ⟨1, by decide⟩)) (GP (ix3 b m ⟨2, by decide⟩)) (GP (ix3 b m ⟨3, by decide⟩)) (TB (ix3 b m ⟨0, by decide⟩)) (TB (ix3 b m ⟨1, by decide⟩)) (TB (ix3 b m ⟨2, by decide⟩)) (TB (ix3 b m ⟨3, by decide⟩)) := by
  unfold Cert.ReferenceIdeal.HandRun.term_main_v173 Cert.ReferenceIdeal.HandRun.term_main_v168
  show max (Ideal.ofBits .f32 0x00000000#32) (min (m2 (Cert.ReferenceIdeal.HandRun.term_main_v148 (F := Ideal) V0) (ix2 b m)) (m2 (Cert.ReferenceIdeal.HandRun.term_main_v156 (F := Ideal) V0) (ix2 b m)) - max (m2 (Cert.ReferenceIdeal.HandRun.term_main_v144 (F := Ideal) V0) (ix2 b m)) (m2 (Cert.ReferenceIdeal.HandRun.term_main_v152 (F := Ideal) V0) (ix2 b m)))
      * max (Ideal.ofBits .f32 0x00000000#32) (min (m2 (Cert.ReferenceIdeal.HandRun.term_main_v150 (F := Ideal) V0) (ix2 b m)) (m2 (Cert.ReferenceIdeal.HandRun.term_main_v158 (F := Ideal) V0) (ix2 b m)) - max (m2 (Cert.ReferenceIdeal.HandRun.term_main_v146 (F := Ideal) V0) (ix2 b m)) (m2 (Cert.ReferenceIdeal.HandRun.term_main_v154 (F := Ideal) V0) (ix2 b m))) = _
  rw [ref_v144 V0 GP TB GC TC hgp htb hgc htc, ref_v146 V0 GP TB GC TC hgp htb hgc htc, ref_v148 V0 GP TB GC TC hgp htb hgc htc, ref_v150 V0 GP TB GC TC hgp htb hgc htc, ref_v152 V0 GP TB GC TC hgp htb hgc htc, ref_v154 V0 GP TB GC TC hgp htb hgc htc, ref_v156 V0 GP TB GC TC hgp htb hgc htc, ref_v158 V0 GP TB GC TC hgp htb hgc htc]
  rfl

theorem ref_union (b : Fin 64) (m : Fin 160) : m2 (Cert.ReferenceIdeal.HandRun.term_main_v175 (F := Ideal) V0) (ix2 b m) = Cert.KernelIdeal.BoxConf.unionE (GP (ix3 b m ⟨0, by decide⟩)) (GP (ix3 b m ⟨1, by decide⟩)) (GP (ix3 b m ⟨2, by decide⟩)) (GP (ix3 b m ⟨3, by decide⟩)) (TB (ix3 b m ⟨0, by decide⟩)) (TB (ix3 b m ⟨1, by decide⟩)) (TB (ix3 b m ⟨2, by decide⟩)) (TB (ix3 b m ⟨3, by decide⟩)) := by
  unfold Cert.ReferenceIdeal.HandRun.term_main_v175 Cert.ReferenceIdeal.HandRun.term_main_v161 Cert.ReferenceIdeal.HandRun.term_main_v164
  show (m2 (Cert.ReferenceIdeal.HandRun.term_main_v148 (F := Ideal) V0) (ix2 b m) - m2 (Cert.ReferenceIdeal.HandRun.term_main_v144 (F := Ideal) V0) (ix2 b m)) * (m2 (Cert.ReferenceIdeal.HandRun.term_main_v150 (F := Ideal) V0) (ix2 b m) - m2 (Cert.ReferenceIdeal.HandRun.term_main_v146 (F := Ideal) V0) (ix2 b m))
      + (m2 (Cert.ReferenceIdeal.HandRun.term_main_v156 (F := Ideal) V0) (ix2 b m) - m2 (Cert.ReferenceIdeal.HandRun.term_main_v152 (F := Ideal) V0) (ix2 b m)) * (m2 (Cert.ReferenceIdeal.HandRun.term_main_v158 (F := Ideal) V0) (ix2 b m) - m2 (Cert.ReferenceIdeal.HandRun.term_main_v154 (F := Ideal) V0) (ix2 b m)) - m2 (Cert.ReferenceIdeal.HandRun.term_main_v173 (F := Ideal) V0) (ix2 b m) = _
  rw [ref_inter V0 GP TB GC TC hgp htb hgc htc, ref_v144 V0 GP TB GC TC hgp htb hgc htc, ref_v146 V0 GP TB GC TC hgp htb hgc htc, ref_v148 V0 GP TB GC TC hgp htb hgc htc, ref_v150 V0 GP TB GC TC hgp htb hgc htc, ref_v152 V0 GP TB GC TC hgp htb hgc htc, ref_v154 V0 GP TB GC TC hgp htb hgc htc, ref_v156 V0 GP TB GC TC hgp htb hgc htc, ref_v158 V0 GP TB GC TC hgp htb hgc htc]
  rfl

theorem ref_iou (b : Fin 64) (m : Fin 160) : m2 (Cert.ReferenceIdeal.HandRun.term_main_v178 (F := Ideal) V0) (ix2 b m) = Cert.KernelIdeal.BoxConf.iouE (GP (ix3 b m ⟨0, by decide⟩)) (GP (ix3 b m ⟨1, by decide⟩)) (GP (ix3 b m ⟨2, by decide⟩)) (GP (ix3 b m ⟨3, by decide⟩)) (TB (ix3 b m ⟨0, by decide⟩)) (TB (ix3 b m ⟨1, by decide⟩)) (TB (ix3 b m ⟨2, by decide⟩)) (TB (ix3 b m ⟨3, by decide⟩)) := by
  unfold Cert.ReferenceIdeal.HandRun.term_main_v178
  show Ideal.div (m2 (Cert.ReferenceIdeal.HandRun.term_main_v173 (F := Ideal) V0) (ix2 b m)) (m2 (Cert.ReferenceIdeal.HandRun.term_main_v175 (F := Ideal) V0) (ix2 b m) + Ideal.ofBits .f32 0x358637BD#32) = _
  rw [ref_inter V0 GP TB GC TC hgp htb hgc htc, ref_union V0 GP TB GC TC hgp htb hgc htc]
  rfl

theorem ref_enc (b : Fin 64) (m : Fin 160) : m2 (Cert.ReferenceIdeal.HandRun.term_main_v185 (F := Ideal) V0) (ix2 b m) = Cert.KernelIdeal.BoxConf.encE (GP (ix3 b m ⟨0, by decide⟩)) (GP (ix3 b m ⟨1, by decide⟩)) (GP (ix3 b m ⟨2, by decide⟩)) (GP (ix3 b m ⟨3, by decide⟩)) (TB (ix3 b m ⟨0, by decide⟩)) (TB (ix3 b m ⟨1, by decide⟩)) (TB (ix3 b m ⟨2, by decide⟩)) (TB (ix3 b m ⟨3, by decide⟩)) := by
  unfold Cert.ReferenceIdeal.HandRun.term_main_v185
  show (max (m2 (Cert.ReferenceIdeal.HandRun.term_main_v148 (F := Ideal) V0) (ix2 b m)) (m2 (Cert.ReferenceIdeal.HandRun.term_main_v156 (F := Ideal) V0) (ix2 b m)) - min (m2 (Cert.ReferenceIdeal.HandRun.term_main_v144 (F := Ideal) V0) (ix2 b m)) (m2 (Cert.ReferenceIdeal.HandRun.term_main_v152 (F := Ideal) V0) (ix2 b m)))
      * (max (m2 (Cert.ReferenceIdeal.HandRun.term_main_v150 (F := Ideal) V0) (ix2 b m)) (m2 (Cert.ReferenceIdeal.HandRun.term_main_v158 (F := Ideal) V0) (ix2 b m)) - min (m2 (Cert.ReferenceIdeal.HandRun.term_main_v146 (F := Ideal) V0) (ix2 b m)) (m2 (Cert.ReferenceIdeal.HandRun.term_main_v154 (F := Ideal) V0) (ix2 b m))) = _
  rw [ref_v144 V0 GP TB GC TC hgp htb hgc htc, ref_v146 V0 GP TB GC TC hgp htb hgc htc, ref_v148 V0 GP TB GC TC hgp htb hgc htc, ref_v150 V0 GP TB GC TC hgp htb hgc htc, ref_v152 V0 GP TB GC TC hgp htb hgc htc, ref_v154 V0 GP TB GC TC hgp htb hgc htc, ref_v156 V0 GP TB GC TC hgp htb hgc htc, ref_v158 V0 GP TB GC TC hgp htb hgc htc]
  rfl

/-! ### The three maps the reference averages -/

/-- -log (IoU + ε), with the reference's sign. -/
theorem ref_nli (b : Fin 64) (m : Fin 160) :
    -(Ideal.log (m2 (Cert.ReferenceIdeal.HandRun.term_main_v178 (F := Ideal) V0) (ix2 b m) + Ideal.ofBits .f32 0x358637BD#32)) = Cert.KernelIdeal.BoxConf.nliE (GP (ix3 b m ⟨0, by decide⟩)) (GP (ix3 b m ⟨1, by decide⟩)) (GP (ix3 b m ⟨2, by decide⟩)) (GP (ix3 b m ⟨3, by decide⟩)) (TB (ix3 b m ⟨0, by decide⟩)) (TB (ix3 b m ⟨1, by decide⟩)) (TB (ix3 b m ⟨2, by decide⟩)) (TB (ix3 b m ⟨3, by decide⟩)) := by
  rw [ref_iou V0 GP TB GC TC hgp htb hgc htc]
  unfold Cert.KernelIdeal.BoxConf.nliE
  rw [Cert.Consts.ofBits_zero, zero_sub]

/-- 1 - GIoU. -/
theorem ref_omg (b : Fin 64) (m : Fin 160) :
    Ideal.ofBits .f32 0x3F800000#32 - (m2 (Cert.ReferenceIdeal.HandRun.term_main_v178 (F := Ideal) V0) (ix2 b m) - Ideal.div (m2 (Cert.ReferenceIdeal.HandRun.term_main_v186 (F := Ideal) V0) (ix2 b m)) (m2 (Cert.ReferenceIdeal.HandRun.term_main_v185 (F := Ideal) V0) (ix2 b m) + Ideal.ofBits .f32 0x358637BD#32)) = Cert.KernelIdeal.BoxConf.omgE (GP (ix3 b m ⟨0, by decide⟩)) (GP (ix3 b m ⟨1, by decide⟩)) (GP (ix3 b m ⟨2, by decide⟩)) (GP (ix3 b m ⟨3, by decide⟩)) (TB (ix3 b m ⟨0, by decide⟩)) (TB (ix3 b m ⟨1, by decide⟩)) (TB (ix3 b m ⟨2, by decide⟩)) (TB (ix3 b m ⟨3, by decide⟩)) := by
  have e186 : m2 (Cert.ReferenceIdeal.HandRun.term_main_v186 (F := Ideal) V0) (ix2 b m) = m2 (Cert.ReferenceIdeal.HandRun.term_main_v185 (F := Ideal) V0) (ix2 b m) - m2 (Cert.ReferenceIdeal.HandRun.term_main_v175 (F := Ideal) V0) (ix2 b m) := by
    unfold Cert.ReferenceIdeal.HandRun.term_main_v186; rfl
  rw [e186, ref_iou V0 GP TB GC TC hgp htb hgc htc, ref_enc V0 GP TB GC TC hgp htb hgc htc, ref_union V0 GP TB GC TC hgp htb hgc htc]
  rfl

/-- The four corner terms at a sample point add up to the corner loss there. -/
theorem ref_reg (b : Fin 64) (m : Fin 160) :
    ∑ k : Fin 4, Cert.KernelIdeal.BoxConf.sl1E (m3 (Cert.ReferenceIdeal.HandRun.term_main_v142 (F := Ideal) V0) (ix3 b m k) - TB (ix3 b m k)) = Cert.KernelIdeal.BoxConf.regE (GP (ix3 b m ⟨0, by decide⟩)) (GP (ix3 b m ⟨1, by decide⟩)) (GP (ix3 b m ⟨2, by decide⟩)) (GP (ix3 b m ⟨3, by decide⟩)) (TB (ix3 b m ⟨0, by decide⟩)) (TB (ix3 b m ⟨1, by decide⟩)) (TB (ix3 b m ⟨2, by decide⟩)) (TB (ix3 b m ⟨3, by decide⟩)) := by
  rw [Fin.sum_univ_four]
  show Cert.KernelIdeal.BoxConf.sl1E (m3 (Cert.ReferenceIdeal.HandRun.term_main_v142 (F := Ideal) V0) (ix3 b m ⟨0, by decide⟩) - (TB (ix3 b m ⟨0, by decide⟩))) + Cert.KernelIdeal.BoxConf.sl1E (m3 (Cert.ReferenceIdeal.HandRun.term_main_v142 (F := Ideal) V0) (ix3 b m ⟨1, by decide⟩) - (TB (ix3 b m ⟨1, by decide⟩)))
      + Cert.KernelIdeal.BoxConf.sl1E (m3 (Cert.ReferenceIdeal.HandRun.term_main_v142 (F := Ideal) V0) (ix3 b m ⟨2, by decide⟩) - (TB (ix3 b m ⟨2, by decide⟩))) + Cert.KernelIdeal.BoxConf.sl1E (m3 (Cert.ReferenceIdeal.HandRun.term_main_v142 (F := Ideal) V0) (ix3 b m ⟨3, by decide⟩) - (TB (ix3 b m ⟨3, by decide⟩))) = _
  rw [(ref_v142 V0 GP TB GC TC hgp htb hgc htc b m).1, (ref_v142 V0 GP TB GC TC hgp htb hgc htc b m).2.1, (ref_v142 V0 GP TB GC TC hgp htb hgc htc b m).2.2.1, (ref_v142 V0 GP TB GC TC hgp htb hgc htc b m).2.2.2]
  rfl

set_option maxHeartbeats 2000000 in
/-- The reference's box loss is the kernel program's tail applied to the kernel's three box sums. -/
theorem box_glue :
    Cert.ReferenceIdeal.HandRun.term_main_v225 (F := Ideal) V0
      = Cert.KernelIdeal.Tail.boxLoss
          (Cert.KernelIdeal.BoxConf.out1_10 (F := Ideal) (col0 GP) (col1 GP) (col2 GP) (col3 GP) (col0 TB) (col1 TB) (col2 TB) (col3 TB) GC TC)
          (Cert.KernelIdeal.BoxConf.out1_11 (F := Ideal) (col0 GP) (col1 GP) (col2 GP) (col3 GP) (col0 TB) (col1 TB) (col2 TB) (col3 TB) GC TC)
          (Cert.KernelIdeal.BoxConf.out1_12 (F := Ideal) (col0 GP) (col1 GP) (col2 GP) (col3 GP) (col0 TB) (col1 TB) (col2 TB) (col3 TB) GC TC) := by
  funext j
  have hR : Cert.KernelIdeal.Tail.boxLoss
          (Cert.KernelIdeal.BoxConf.out1_10 (F := Ideal) (col0 GP) (col1 GP) (col2 GP) (col3 GP) (col0 TB) (col1 TB) (col2 TB) (col3 TB) GC TC)
          (Cert.KernelIdeal.BoxConf.out1_11 (F := Ideal) (col0 GP) (col1 GP) (col2 GP) (col3 GP) (col0 TB) (col1 TB) (col2 TB) (col3 TB) GC TC)
          (Cert.KernelIdeal.BoxConf.out1_12 (F := Ideal) (col0 GP) (col1 GP) (col2 GP) (col3 GP) (col0 TB) (col1 TB) (col2 TB) (col3 TB) GC TC) j
      = ((Ideal.ofBits .f32 0x3F000000#32) * Ideal.div (∑ b : Fin 64, ∑ m : Fin 160, Cert.KernelIdeal.BoxConf.nliE (GP (ix3 b m ⟨0, by decide⟩)) (GP (ix3 b m ⟨1, by decide⟩)) (GP (ix3 b m ⟨2, by decide⟩)) (GP (ix3 b m ⟨3, by decide⟩)) (TB (ix3 b m ⟨0, by decide⟩)) (TB (ix3 b m ⟨1, by decide⟩)) (TB (ix3 b m ⟨2, by decide⟩)) (TB (ix3 b m ⟨3, by decide⟩))) (Ideal.ofBits .f32 0x46200000#32)
          + (Ideal.ofBits .f32 0x3E99999A#32) * Ideal.div (∑ b : Fin 64, ∑ m : Fin 160, Cert.KernelIdeal.BoxConf.regE (GP (ix3 b m ⟨0, by decide⟩)) (GP (ix3 b m ⟨1, by decide⟩)) (GP (ix3 b m ⟨2, by decide⟩)) (GP (ix3 b m ⟨3, by decide⟩)) (TB (ix3 b m ⟨0, by decide⟩)) (TB (ix3 b m ⟨1, by decide⟩)) (TB (ix3 b m ⟨2, by decide⟩)) (TB (ix3 b m ⟨3, by decide⟩))) (Ideal.ofBits .f32 0x47200000#32))
        + (Ideal.ofBits .f32 0x3E4CCCCD#32) * Ideal.div (∑ b : Fin 64, ∑ m : Fin 160, Cert.KernelIdeal.BoxConf.omgE (GP (ix3 b m ⟨0, by decide⟩)) (GP (ix3 b m ⟨1, by decide⟩)) (GP (ix3 b m ⟨2, by decide⟩)) (GP (ix3 b m ⟨3, by decide⟩)) (TB (ix3 b m ⟨0, by decide⟩)) (TB (ix3 b m ⟨1, by decide⟩)) (TB (ix3 b m ⟨2, by decide⟩)) (TB (ix3 b m ⟨3, by decide⟩))) (Ideal.ofBits .f32 0x46200000#32) := by
    show ((Ideal.ofBits .f32 0x3F000000#32) * Ideal.div (Cert.KernelIdeal.BoxConf.out1_10 (F := Ideal) (col0 GP) (col1 GP) (col2 GP) (col3 GP) (col0 TB) (col1 TB) (col2 TB) (col3 TB) GC TC _) (Ideal.ofBits .f32 0x46200000#32)
          + (Ideal.ofBits .f32 0x3E99999A#32) * Ideal.div (Cert.KernelIdeal.BoxConf.out1_12 (F := Ideal) (col0 GP) (col1 GP) (col2 GP) (col3 GP) (col0 TB) (col1 TB) (col2 TB) (col3 TB) GC TC _) (Ideal.ofBits .f32 0x47200000#32))
        + (Ideal.ofBits .f32 0x3E4CCCCD#32) * Ideal.div (Cert.KernelIdeal.BoxConf.out1_11 (F := Ideal) (col0 GP) (col1 GP) (col2 GP) (col3 GP) (col0 TB) (col1 TB) (col2 TB) (col3 TB) GC TC _) (Ideal.ofBits .f32 0x46200000#32) = _
    rw [Cert.KernelIdeal.BoxConf.box_iou, Cert.KernelIdeal.BoxConf.box_reg, Cert.KernelIdeal.BoxConf.box_giou]
    simp only [col0_apply, col1_apply, col2_apply, col3_apply]
  rw [hR]
  unfold Cert.ReferenceIdeal.HandRun.term_main_v225 Cert.ReferenceIdeal.HandRun.term_main_v199 Cert.ReferenceIdeal.HandRun.term_main_v202 Cert.ReferenceIdeal.HandRun.term_main_v200 Cert.ReferenceIdeal.HandRun.term_main_v215 Cert.ReferenceIdeal.HandRun.term_main_v204 Cert.ReferenceIdeal.HandRun.term_main_cst_56 Cert.ReferenceIdeal.HandRun.term_main_cst_50
  rw [htb]
  show Ideal.div (Ideal.hostReduceAdd _ (fun i =>
        ((Ideal.ofBits .f32 0x3F000000#32) * Ideal.div (Ideal.hostReduceAdd _
            (fun i : (⟨2, ![64, 160]⟩ : Shape).Idx => -(Ideal.log (m2 (Cert.ReferenceIdeal.HandRun.term_main_v178 (F := Ideal) V0) i + Ideal.ofBits .f32 0x358637BD#32))) (Ideal.ofBits .f32 0x00000000#32) i) (Ideal.ofBits .f32 0x43200000#32)
          + (Ideal.ofBits .f32 0x3E99999A#32) * Ideal.div (Ideal.hostReduceAdd _
            (fun i : (⟨3, ![64, 160, 4]⟩ : Shape).Idx => Scalar.select (Ideal.cmp .olt (max (m3 (Cert.ReferenceIdeal.HandRun.term_main_v142 (F := Ideal) V0) i - TB i) (-(m3 (Cert.ReferenceIdeal.HandRun.term_main_v142 (F := Ideal) V0) i - TB i))) (Ideal.ofBits .f32 0x3F800000#32)) (Ideal.ofBits .f32 0x3F000000#32 * max (m3 (Cert.ReferenceIdeal.HandRun.term_main_v142 (F := Ideal) V0) i - TB i) (-(m3 (Cert.ReferenceIdeal.HandRun.term_main_v142 (F := Ideal) V0) i - TB i)) * max (m3 (Cert.ReferenceIdeal.HandRun.term_main_v142 (F := Ideal) V0) i - TB i) (-(m3 (Cert.ReferenceIdeal.HandRun.term_main_v142 (F := Ideal) V0) i - TB i))) (max (m3 (Cert.ReferenceIdeal.HandRun.term_main_v142 (F := Ideal) V0) i - TB i) (-(m3 (Cert.ReferenceIdeal.HandRun.term_main_v142 (F := Ideal) V0) i - TB i)) - Ideal.ofBits .f32 0x3F000000#32)) (Ideal.ofBits .f32 0x00000000#32) i) (Ideal.ofBits .f32 0x44200000#32))
        + (Ideal.ofBits .f32 0x3E4CCCCD#32) * Ideal.div (Ideal.hostReduceAdd _
            (fun i : (⟨2, ![64, 160]⟩ : Shape).Idx => Ideal.ofBits .f32 0x3F800000#32 - (m2 (Cert.ReferenceIdeal.HandRun.term_main_v178 (F := Ideal) V0) i - Ideal.div (m2 (Cert.ReferenceIdeal.HandRun.term_main_v186 (F := Ideal) V0) i) (m2 (Cert.ReferenceIdeal.HandRun.term_main_v185 (F := Ideal) V0) i + Ideal.ofBits .f32 0x358637BD#32))) (Ideal.ofBits .f32 0x00000000#32) i) (Ideal.ofBits .f32 0x43200000#32))
      (Ideal.ofBits .f32 0x00000000#32) j) (Ideal.ofBits .f32 0x42800000#32) = _
  rw [weighted_mean_rows]
  simp only [ref_sl1, ref_nli V0 GP TB GC TC hgp htb hgc htc, ref_omg V0 GP TB GC TC hgp htb hgc htc, ref_reg V0 GP TB GC TC hgp htb hgc htc]

end Ref

end Cert.BoxGlue

end
-- ==== Proof.KernelCols.lean ====
/-
  The second reduction's first eight window arrays are columns: when the launch is entered the four predicted-corner
  arrays are the four columns of the gathered predicted boxes, and the four target-corner arrays the four columns of
  the target boxes — each a slice of width one along the last axis with its unit axis dropped.
-/
import proofs.«167267_j69861938037475_1_alg».proof.Proof.Gen.KernelIdeal.Regions
import Idealize.ShloMosaic.Lib.StableHlo.Run
import Idealize.ShloMosaic.PureOps.Ideal
import proofs.«167267_j69861938037475_1_alg».proof.Proof.BoxGlue

noncomputable section

namespace Cert.KernelIdeal.Cols

open Cert.KernelIdeal Cert.KernelIdeal.Gen
open Idealize.ShloMosaic Idealize.ShloMosaic.TcCoe Idealize.ShloMosaic.StableHlo

variable (m : (ℓ : Loc nD τ sig) → Buf (Elt Ideal) ℓ) (outs : Outs (F := Ideal)) (c : Dev nD)

/-- The gathered predicted boxes are written before the stretch that cuts the columns, which leaves them as they were. -/
theorem v93_kept : V18 m outs c (Proc.devRef .tc main_v93) = V17 m outs c (Proc.devRef .tc main_v93) :=
  V18_of m outs c main_v93 (by decide)

/-! The predicted corners: columns 0..3 of the gathered predicted boxes. -/
set_option maxHeartbeats 2000000 in
theorem col_v108 : V18 m outs c (Proc.devRef .tc main_v108) = Cert.BoxGlue.col0 (V18 m outs c (Proc.devRef .tc main_v93)) := by
  refine Eq.trans ?_ (congrArg Cert.BoxGlue.col0 (v93_kept m outs c).symm)
  show StableHlo.after hostOps1_16 (V17 m outs c) (Proc.devRef .tc main_v108) = Cert.BoxGlue.col0 (V17 m outs c (Proc.devRef .tc main_v93))
  generalize V17 m outs c = W
  after_results
  rfl

set_option maxHeartbeats 2000000 in
theorem col_v110 : V18 m outs c (Proc.devRef .tc main_v110) = Cert.BoxGlue.col1 (V18 m outs c (Proc.devRef .tc main_v93)) := by
  refine Eq.trans ?_ (congrArg Cert.BoxGlue.col1 (v93_kept m outs c).symm)
  show StableHlo.after hostOps1_16 (V17 m outs c) (Proc.devRef .tc main_v110) = Cert.BoxGlue.col1 (V17 m outs c (Proc.devRef .tc main_v93))
  generalize V17 m outs c = W
  after_results
  rfl

set_option maxHeartbeats 2000000 in
theorem col_v112 : V18 m outs c (Proc.devRef .tc main_v112) = Cert.BoxGlue.col2 (V18 m outs c (Proc.devRef .tc main_v93)) := by
  refine Eq.trans ?_ (congrArg Cert.BoxGlue.col2 (v93_kept m outs c).symm)
  show StableHlo.after hostOps1_16 (V17 m outs c) (Proc.devRef .tc main_v112) = Cert.BoxGlue.col2 (V17 m outs c (Proc.devRef .tc main_v93))
  generalize V17 m outs c = W
  after_results
  rfl

set_option maxHeartbeats 2000000 in
theorem col_v114 : V18 m outs c (Proc.devRef .tc main_v114) = Cert.BoxGlue.col3 (V18 m outs c (Proc.devRef .tc main_v93)) := by
  refine Eq.trans ?_ (congrArg Cert.BoxGlue.col3 (v93_kept m outs c).symm)
  show StableHlo.after hostOps1_16 (V17 m outs c) (Proc.devRef .tc main_v114) = Cert.BoxGlue.col3 (V17 m outs c (Proc.devRef .tc main_v93))
  generalize V17 m outs c = W
  after_results
  rfl

/-! The target corners: columns 0..3 of the target boxes, which the same stretch writes. -/
set_option maxHeartbeats 2000000 in
theorem col_v116 : V18 m outs c (Proc.devRef .tc main_v116) = Cert.BoxGlue.col0 (V18 m outs c (Proc.devRef .tc main_v103)) := by
  show StableHlo.after hostOps1_16 (V17 m outs c) (Proc.devRef .tc main_v116)
    = Cert.BoxGlue.col0 (StableHlo.after hostOps1_16 (V17 m outs c) (Proc.devRef .tc main_v103))
  generalize V17 m outs c = W
  after_results
  rfl

set_option maxHeartbeats 2000000 in
theorem col_v118 : V18 m outs c (Proc.devRef .tc main_v118) = Cert.BoxGlue.col1 (V18 m outs c (Proc.devRef .tc main_v103)) := by
  show StableHlo.after hostOps1_16 (V17 m outs c) (Proc.devRef .tc main_v118)
    = Cert.BoxGlue.col1 (StableHlo.after hostOps1_16 (V17 m outs c) (Proc.devRef .tc main_v103))
  generalize V17 m outs c = W
  after_results
  rfl

set_option maxHeartbeats 2000000 in
theorem col_v120 : V18 m outs c (Proc.devRef .tc main_v120) = Cert.BoxGlue.col2 (V18 m outs c (Proc.devRef .tc main_v103)) := by
  show StableHlo.after hostOps1_16 (V17 m outs c) (Proc.devRef .tc main_v120)
    = Cert.BoxGlue.col2 (StableHlo.after hostOps1_16 (V17 m outs c) (Proc.devRef .tc main_v103))
  generalize V17 m outs c = W
  after_results
  rfl

set_option maxHeartbeats 2000000 in
theorem col_v122 : V18 m outs c (Proc.devRef .tc main_v122) = Cert.BoxGlue.col3 (V18 m outs c (Proc.devRef .tc main_v103)) := by
  show StableHlo.after hostOps1_16 (V17 m outs c) (Proc.devRef .tc main_v122)
    = Cert.BoxGlue.col3 (StableHlo.after hostOps1_16 (V17 m outs c) (Proc.devRef .tc main_v103))
  generalize V17 m outs c = W
  after_results
  rfl

end Cert.KernelIdeal.Cols

end
-- ==== Proof.KernelReadDefs.lean ====
import proofs.«167267_j69861938037475_1_alg».proof.Proof.Gen.KernelIdeal.Regions
import Idealize.ShloMosaic.Lib.StableHlo.Run
import Idealize.ShloMosaic.PureOps.Ideal

set_option maxRecDepth 16384

noncomputable section

namespace Cert.KernelIdeal.Read

open Cert.KernelIdeal Cert.KernelIdeal.Gen
open Idealize.ShloMosaic Idealize.ShloMosaic.TcCoe Idealize.SL.Sem Idealize.ShloMosaic.StableHlo

variable {F : FTy → Type} [FloatOps F]

/-! ## The host operations between the two reductions, as terms

Each buffer that a later stretch of host operations reads has its contents named as a term of the five argument
arrays (`k_<buffer>`): the operations' functions composed, down to the earlier named buffers. The operands of the
second reduction are the last of them: the gathered predicted boxes, the gathered confidence, the target boxes and the
target confidence, and their columns. -/

/-- `main_v16`'s composed term. -/
def k_main_v16 (a0 : (Proc.devRef .tc main_arg0 : DevRef τ sig).ty.Contents (Elt F)) (a1 : (Proc.devRef .tc main_arg1 : DevRef τ sig).ty.Contents (Elt F)) (a2 : (Proc.devRef .tc main_arg2 : DevRef τ sig).ty.Contents (Elt F)) (a3 : (Proc.devRef .tc main_arg3 : DevRef τ sig).ty.Contents (Elt F)) (a4 : (Proc.devRef .tc main_arg4 : DevRef τ sig).ty.Contents (Elt F)) : (Proc.devRef .tc main_v16 : DevRef τ sig).ty.Contents (Elt F) :=
  (shapeCast S64x32 (((extractStridedSlice S64x32x1 ![0, 0, 0] · slices_S64x32x5_S64x32x1_0_0_0) : (⟨S64x32x5, .f32⟩ : BufTy).Contents (Elt F) → (⟨S64x32x1, .f32⟩ : BufTy).Contents (Elt F)) a4) shapeCasts_S64x32x1_S64x32)

/-- `main_v20`'s composed term. -/
def k_main_v20 (a0 : (Proc.devRef .tc main_arg0 : DevRef τ sig).ty.Contents (Elt F)) (a1 : (Proc.devRef .tc main_arg1 : DevRef τ sig).ty.Contents (Elt F)) (a2 : (Proc.devRef .tc main_arg2 : DevRef τ sig).ty.Contents (Elt F)) (a3 : (Proc.devRef .tc main_arg3 : DevRef τ sig).ty.Contents (Elt F)) (a4 : (Proc.devRef .tc main_arg4 : DevRef τ sig).ty.Contents (Elt F)) : (Proc.devRef .tc main_v20 : DevRef τ sig).ty.Contents (Elt F) :=
  ((Host.divf : (⟨S64x32, .f32⟩ : BufTy).Contents (Elt F) → (⟨S64x32, .f32⟩ : BufTy).Contents (Elt F) → (⟨S64x32, .f32⟩ : BufTy).Contents (Elt F)) (shapeCast S64x32 (((extractStridedSlice S64x32x1 ![0, 0, 1] · slices_S64x32x5_S64x32x1_0_0_1) : (⟨S64x32x5, .f32⟩ : BufTy).Contents (Elt F) → (⟨S64x32x1, .f32⟩ : BufTy).Contents (Elt F)) a4) shapeCasts_S64x32x1_S64x32) ((broadcastInDim S64x32 ![] bcast_S_S64x32 : (⟨S_, .f32⟩ : BufTy).Contents (Elt F) → (⟨S64x32, .f32⟩ : BufTy).Contents (Elt F)) (constant S_ .f32 0x43A00000#32)))

/-- `main_cst_7`'s composed term. -/
def k_main_cst_7 (a0 : (Proc.devRef .tc main_arg0 : DevRef τ sig).ty.Contents (Elt F)) (a1 : (Proc.devRef .tc main_arg1 : DevRef τ sig).ty.Contents (Elt F)) (a2 : (Proc.devRef .tc main_arg2 : DevRef τ sig).ty.Contents (Elt F)) (a3 : (Proc.devRef .tc main_arg3 : DevRef τ sig).ty.Contents (Elt F)) (a4 : (Proc.devRef .tc main_arg4 : DevRef τ sig).ty.Contents (Elt F)) : (Proc.devRef .tc main_cst_7 : DevRef τ sig).ty.Contents (Elt F) :=
  (constant S_ .f32 0x00000000#32)

/-- `main_cst_8`'s composed term. -/
def k_main_cst_8 (a0 : (Proc.devRef .tc main_arg0 : DevRef τ sig).ty.Contents (Elt F)) (a1 : (Proc.devRef .tc main_arg1 : DevRef τ sig).ty.Contents (Elt F)) (a2 : (Proc.devRef .tc main_arg2 : DevRef τ sig).ty.Contents (Elt F)) (a3 : (Proc.devRef .tc main_arg3 : DevRef τ sig).ty.Contents (Elt F)) (a4 : (Proc.devRef .tc main_arg4 : DevRef τ sig).ty.Contents (Elt F)) : (Proc.devRef .tc main_cst_8 : DevRef τ sig).ty.Contents (Elt F) :=
  (constant S_ .f32 0x3F7FBE77#32)

/-- `main_v21`'s composed term. -/
def k_main_v21 (a0 : (Proc.devRef .tc main_arg0 : DevRef τ sig).ty.Contents (Elt F)) (a1 : (Proc.devRef .tc main_arg1 : DevRef τ sig).ty.Contents (Elt F)) (a2 : (Proc.devRef .tc main_arg2 : DevRef τ sig).ty.Contents (Elt F)) (a3 : (Proc.devRef .tc main_arg3 : DevRef τ sig).ty.Contents (Elt F)) (a4 : (Proc.devRef .tc main_arg4 : DevRef τ sig).ty.Contents (Elt F)) : (Proc.devRef .tc main_v21 : DevRef τ sig).ty.Contents (Elt F) :=
  ((minimumf) (((broadcastInDim S64x32 ![] bcast_S_S64x32)) ((id) (k_main_cst_8 a0 a1 a2 a3 a4))) ((maximumf) (((broadcastInDim S64x32 ![] bcast_S_S64x32)) ((id) (k_main_cst_7 a0 a1 a2 a3 a4))) (k_main_v20 a0 a1 a2 a3 a4)))

/-- `main_v25`'s composed term. -/
def k_main_v25 (a0 : (Proc.devRef .tc main_arg0 : DevRef τ sig).ty.Contents (Elt F)) (a1 : (Proc.devRef .tc main_arg1 : DevRef τ sig).ty.Contents (Elt F)) (a2 : (Proc.devRef .tc main_arg2 : DevRef τ sig).ty.Contents (Elt F)) (a3 : (Proc.devRef .tc main_arg3 : DevRef τ sig).ty.Contents (Elt F)) (a4 : (Proc.devRef .tc main_arg4 : DevRef τ sig).ty.Contents (Elt F)) : (Proc.devRef .tc main_v25 : DevRef τ sig).ty.Contents (Elt F) :=
  ((Host.divf : (⟨S64x32, .f32⟩ : BufTy).Contents (Elt F) → (⟨S64x32, .f32⟩ : BufTy).Contents (Elt F) → (⟨S64x32, .f32⟩ : BufTy).Contents (Elt F)) (shapeCast S64x32 (((extractStridedSlice S64x32x1 ![0, 0, 2] · slices_S64x32x5_S64x32x1_0_0_2) : (⟨S64x32x5, .f32⟩ : BufTy).Contents (Elt F) → (⟨S64x32x1, .f32⟩ : BufTy).Contents (Elt F)) a4) shapeCasts_S64x32x1_S64x32) ((broadcastInDim S64x32 ![] bcast_S_S64x32 : (⟨S_, .f32⟩ : BufTy).Contents (Elt F) → (⟨S64x32, .f32⟩ : BufTy).Contents (Elt F)) (constant S_ .f32 0x43A00000#32)))

/-- `main_cst_10`'s composed term. -/
def k_main_cst_10 (a0 : (Proc.devRef .tc main_arg0 : DevRef τ sig).ty.Contents (Elt F)) (a1 : (Proc.devRef .tc main_arg1 : DevRef τ sig).ty.Contents (Elt F)) (a2 : (Proc.devRef .tc main_arg2 : DevRef τ sig).ty.Contents (Elt F)) (a3 : (Proc.devRef .tc main_arg3 : DevRef τ sig).ty.Contents (Elt F)) (a4 : (Proc.devRef .tc main_arg4 : DevRef τ sig).ty.Contents (Elt F)) : (Proc.devRef .tc main_cst_10 : DevRef τ sig).ty.Contents (Elt F) :=
  (constant S_ .f32 0x00000000#32)

/-- `main_cst_11`'s composed term. -/
def k_main_cst_11 (a0 : (Proc.devRef .tc main_arg0 : DevRef τ sig).ty.Contents (Elt F)) (a1 : (Proc.devRef .tc main_arg1 : DevRef τ sig).ty.Contents (Elt F)) (a2 : (Proc.devRef .tc main_arg2 : DevRef τ sig).ty.Contents (Elt F)) (a3 : (Proc.devRef .tc main_arg3 : DevRef τ sig).ty.Contents (Elt F)) (a4 : (Proc.devRef .tc main_arg4 : DevRef τ sig).ty.Contents (Elt F)) : (Proc.devRef .tc main_cst_11 : DevRef τ sig).ty.Contents (Elt F) :=
  (constant S_ .f32 0x3F7FBE77#32)

/-- `main_v26`'s composed term. -/
def k_main_v26 (a0 : (Proc.devRef .tc main_arg0 : DevRef τ sig).ty.Contents (Elt F)) (a1 : (Proc.devRef .tc main_arg1 : DevRef τ sig).ty.Contents (Elt F)) (a2 : (Proc.devRef .tc main_arg2 : DevRef τ sig).ty.Contents (Elt F)) (a3 : (Proc.devRef .tc main_arg3 : DevRef τ sig).ty.Contents (Elt F)) (a4 : (Proc.devRef .tc main_arg4 : DevRef τ sig).ty.Contents (Elt F)) : (Proc.devRef .tc main_v26 : DevRef τ sig).ty.Contents (Elt F) :=
  ((minimumf) (((broadcastInDim S64x32 ![] bcast_S_S64x32)) ((id) (k_main_cst_11 a0 a1 a2 a3 a4))) ((maximumf) (((broadcastInDim S64x32 ![] bcast_S_S64x32)) ((id) (k_main_cst_10 a0 a1 a2 a3 a4))) (k_main_v25 a0 a1 a2 a3 a4)))

/-- `main_v35`'s composed term. -/
def k_main_v35 (a0 : (Proc.devRef .tc main_arg0 : DevRef τ sig).ty.Contents (Elt F)) (a1 : (Proc.devRef .tc main_arg1 : DevRef τ sig).ty.Contents (Elt F)) (a2 : (Proc.devRef .tc main_arg2 : DevRef τ sig).ty.Contents (Elt F)) (a3 : (Proc.devRef .tc main_arg3 : DevRef τ sig).ty.Contents (Elt F)) (a4 : (Proc.devRef .tc main_arg4 : DevRef τ sig).ty.Contents (Elt F)) : (Proc.devRef .tc main_v35 : DevRef τ sig).ty.Contents (Elt F) :=
  ((maximumf : (⟨S64x32, .f32⟩ : BufTy).Contents (Elt F) → (⟨S64x32, .f32⟩ : BufTy).Contents (Elt F) → (⟨S64x32, .f32⟩ : BufTy).Contents (Elt F)) ((addf : (⟨S64x32, .f32⟩ : BufTy).Contents (Elt F) → (⟨S64x32, .f32⟩ : BufTy).Contents (Elt F) → (⟨S64x32, .f32⟩ : BufTy).Contents (Elt F)) (k_main_v21 a0 a1 a2 a3 a4) ((broadcastInDim S64x32 ![] bcast_S_S64x32 : (⟨S_, .f32⟩ : BufTy).Contents (Elt F) → (⟨S64x32, .f32⟩ : BufTy).Contents (Elt F)) (constant S_ .f32 0x3A83126F#32))) ((minimumf : (⟨S64x32, .f32⟩ : BufTy).Contents (Elt F) → (⟨S64x32, .f32⟩ : BufTy).Contents (Elt F) → (⟨S64x32, .f32⟩ : BufTy).Contents (Elt F)) ((Host.divf : (⟨S64x32, .f32⟩ : BufTy).Contents (Elt F) → (⟨S64x32, .f32⟩ : BufTy).Contents (Elt F) → (⟨S64x32, .f32⟩ : BufTy).Contents (Elt F)) (shapeCast S64x32 (((extractStridedSlice S64x32x1 ![0, 0, 3] · slices_S64x32x5_S64x32x1_0_0_3) : (⟨S64x32x5, .f32⟩ : BufTy).Contents (Elt F) → (⟨S64x32x1, .f32⟩ : BufTy).Contents (Elt F)) a4) shapeCasts_S64x32x1_S64x32) ((broadcastInDim S64x32 ![] bcast_S_S64x32 : (⟨S_, .f32⟩ : BufTy).Contents (Elt F) → (⟨S64x32, .f32⟩ : BufTy).Contents (Elt F)) (constant S_ .f32 0x43A00000#32))) ((broadcastInDim S64x32 ![] bcast_S_S64x32 : (⟨S_, .f32⟩ : BufTy).Contents (Elt F) → (⟨S64x32, .f32⟩ : BufTy).Contents (Elt F)) (constant S_ .f32 0x3F800000#32))))

/-- `main_v44`'s composed term. -/
def k_main_v44 (a0 : (Proc.devRef .tc main_arg0 : DevRef τ sig).ty.Contents (Elt F)) (a1 : (Proc.devRef .tc main_arg1 : DevRef τ sig).ty.Contents (Elt F)) (a2 : (Proc.devRef .tc main_arg2 : DevRef τ sig).ty.Contents (Elt F)) (a3 : (Proc.devRef .tc main_arg3 : DevRef τ sig).ty.Contents (Elt F)) (a4 : (Proc.devRef .tc main_arg4 : DevRef τ sig).ty.Contents (Elt F)) : (Proc.devRef .tc main_v44 : DevRef τ sig).ty.Contents (Elt F) :=
  ((maximumf : (⟨S64x32, .f32⟩ : BufTy).Contents (Elt F) → (⟨S64x32, .f32⟩ : BufTy).Contents (Elt F) → (⟨S64x32, .f32⟩ : BufTy).Contents (Elt F)) ((addf : (⟨S64x32, .f32⟩ : BufTy).Contents (Elt F) → (⟨S64x32, .f32⟩ : BufTy).Contents (Elt F) → (⟨S64x32, .f32⟩ : BufTy).Contents (Elt F)) (k_main_v26 a0 a1 a2 a3 a4) ((broadcastInDim S64x32 ![] bcast_S_S64x32 : (⟨S_, .f32⟩ : BufTy).Contents (Elt F) → (⟨S64x32, .f32⟩ : BufTy).Contents (Elt F)) (constant S_ .f32 0x3A83126F#32))) ((minimumf : (⟨S64x32, .f32⟩ : BufTy).Contents (Elt F) → (⟨S64x32, .f32⟩ : BufTy).Contents (Elt F) → (⟨S64x32, .f32⟩ : BufTy).Contents (Elt F)) ((Host.divf : (⟨S64x32, .f32⟩ : BufTy).Contents (Elt F) → (⟨S64x32, .f32⟩ : BufTy).Contents (Elt F) → (⟨S64x32, .f32⟩ : BufTy).Contents (Elt F)) (shapeCast S64x32 (((extractStridedSlice S64x32x1 ![0, 0, 4] · slices_S64x32x5_S64x32x1_0_0_4) : (⟨S64x32x5, .f32⟩ : BufTy).Contents (Elt F) → (⟨S64x32x1, .f32⟩ : BufTy).Contents (Elt F)) a4) shapeCasts_S64x32x1_S64x32) ((broadcastInDim S64x32 ![] bcast_S_S64x32 : (⟨S_, .f32⟩ : BufTy).Contents (Elt F) → (⟨S64x32, .f32⟩ : BufTy).Contents (Elt F)) (constant S_ .f32 0x43A00000#32))) ((broadcastInDim S64x32 ![] bcast_S_S64x32 : (⟨S_, .f32⟩ : BufTy).Contents (Elt F) → (⟨S64x32, .f32⟩ : BufTy).Contents (Elt F)) (constant S_ .f32 0x3F800000#32))))

/-- `main_v47`'s composed term. -/
def k_main_v47 (a0 : (Proc.devRef .tc main_arg0 : DevRef τ sig).ty.Contents (Elt F)) (a1 : (Proc.devRef .tc main_arg1 : DevRef τ sig).ty.Contents (Elt F)) (a2 : (Proc.devRef .tc main_arg2 : DevRef τ sig).ty.Contents (Elt F)) (a3 : (Proc.devRef .tc main_arg3 : DevRef τ sig).ty.Contents (Elt F)) (a4 : (Proc.devRef .tc main_arg4 : DevRef τ sig).ty.Contents (Elt F)) : (Proc.devRef .tc main_v47 : DevRef τ sig).ty.Contents (Elt F) :=
  ((fptosi 32 : (⟨S64x32, .f32⟩ : BufTy).Contents (Elt F) → (⟨S64x32, .i32⟩ : BufTy).Contents (Elt F)) ((mulf : (⟨S64x32, .f32⟩ : BufTy).Contents (Elt F) → (⟨S64x32, .f32⟩ : BufTy).Contents (Elt F) → (⟨S64x32, .f32⟩ : BufTy).Contents (Elt F)) (k_main_v21 a0 a1 a2 a3 a4) ((broadcastInDim S64x32 ![] bcast_S_S64x32 : (⟨S_, .f32⟩ : BufTy).Contents (Elt F) → (⟨S64x32, .f32⟩ : BufTy).Contents (Elt F)) (constant S_ .f32 0x43A00000#32))))

/-- `main_c`'s composed term. -/
def k_main_c (a0 : (Proc.devRef .tc main_arg0 : DevRef τ sig).ty.Contents (Elt F)) (a1 : (Proc.devRef .tc main_arg1 : DevRef τ sig).ty.Contents (Elt F)) (a2 : (Proc.devRef .tc main_arg2 : DevRef τ sig).ty.Contents (Elt F)) (a3 : (Proc.devRef .tc main_arg3 : DevRef τ sig).ty.Contents (Elt F)) (a4 : (Proc.devRef .tc main_arg4 : DevRef τ sig).ty.Contents (Elt F)) : (Proc.devRef .tc main_c : DevRef τ sig).ty.Contents (Elt F) :=
  (constantI S_ 32 0#32)

/-- `main_c_19`'s composed term. -/
def k_main_c_19 (a0 : (Proc.devRef .tc main_arg0 : DevRef τ sig).ty.Contents (Elt F)) (a1 : (Proc.devRef .tc main_arg1 : DevRef τ sig).ty.Contents (Elt F)) (a2 : (Proc.devRef .tc main_arg2 : DevRef τ sig).ty.Contents (Elt F)) (a3 : (Proc.devRef .tc main_arg3 : DevRef τ sig).ty.Contents (Elt F)) (a4 : (Proc.devRef .tc main_arg4 : DevRef τ sig).ty.Contents (Elt F)) : (Proc.devRef .tc main_c_19 : DevRef τ sig).ty.Contents (Elt F) :=
  (constantI S_ 32 319#32)

/-- `main_v48`'s composed term. -/
def k_main_v48 (a0 : (Proc.devRef .tc main_arg0 : DevRef τ sig).ty.Contents (Elt F)) (a1 : (Proc.devRef .tc main_arg1 : DevRef τ sig).ty.Contents (Elt F)) (a2 : (Proc.devRef .tc main_arg2 : DevRef τ sig).ty.Contents (Elt F)) (a3 : (Proc.devRef .tc main_arg3 : DevRef τ sig).ty.Contents (Elt F)) (a4 : (Proc.devRef .tc main_arg4 : DevRef τ sig).ty.Contents (Elt F)) : (Proc.devRef .tc main_v48 : DevRef τ sig).ty.Contents (Elt F) :=
  ((minsi) (((broadcastInDim S64x32 ![] bcast_S_S64x32)) ((id) (k_main_c_19 a0 a1 a2 a3 a4))) ((maxsi) (((broadcastInDim S64x32 ![] bcast_S_S64x32)) ((id) (k_main_c a0 a1 a2 a3 a4))) (k_main_v47 a0 a1 a2 a3 a4)))

/-- `main_v51`'s composed term. -/
def k_main_v51 (a0 : (Proc.devRef .tc main_arg0 : DevRef τ sig).ty.Contents (Elt F)) (a1 : (Proc.devRef .tc main_arg1 : DevRef τ sig).ty.Contents (Elt F)) (a2 : (Proc.devRef .tc main_arg2 : DevRef τ sig).ty.Contents (Elt F)) (a3 : (Proc.devRef .tc main_arg3 : DevRef τ sig).ty.Contents (Elt F)) (a4 : (Proc.devRef .tc main_arg4 : DevRef τ sig).ty.Contents (Elt F)) : (Proc.devRef .tc main_v51 : DevRef τ sig).ty.Contents (Elt F) :=
  ((fptosi 32 : (⟨S64x32, .f32⟩ : BufTy).Contents (Elt F) → (⟨S64x32, .i32⟩ : BufTy).Contents (Elt F)) ((mulf : (⟨S64x32, .f32⟩ : BufTy).Contents (Elt F) → (⟨S64x32, .f32⟩ : BufTy).Contents (Elt F) → (⟨S64x32, .f32⟩ : BufTy).Contents (Elt F)) (k_main_v26 a0 a1 a2 a3 a4) ((broadcastInDim S64x32 ![] bcast_S_S64x32 : (⟨S_, .f32⟩ : BufTy).Contents (Elt F) → (⟨S64x32, .f32⟩ : BufTy).Contents (Elt F)) (constant S_ .f32 0x43A00000#32))))

/-- `main_c_21`'s composed term. -/
def k_main_c_21 (a0 : (Proc.devRef .tc main_arg0 : DevRef τ sig).ty.Contents (Elt F)) (a1 : (Proc.devRef .tc main_arg1 : DevRef τ sig).ty.Contents (Elt F)) (a2 : (Proc.devRef .tc main_arg2 : DevRef τ sig).ty.Contents (Elt F)) (a3 : (Proc.devRef .tc main_arg3 : DevRef τ sig).ty.Contents (Elt F)) (a4 : (Proc.devRef .tc main_arg4 : DevRef τ sig).ty.Contents (Elt F)) : (Proc.devRef .tc main_c_21 : DevRef τ sig).ty.Contents (Elt F) :=
  (constantI S_ 32 0#32)

/-- `main_c_22`'s composed term. -/
def k_main_c_22 (a0 : (Proc.devRef .tc main_arg0 : DevRef τ sig).ty.Contents (Elt F)) (a1 : (Proc.devRef .tc main_arg1 : DevRef τ sig).ty.Contents (Elt F)) (a2 : (Proc.devRef .tc main_arg2 : DevRef τ sig).ty.Contents (Elt F)) (a3 : (Proc.devRef .tc main_arg3 : DevRef τ sig).ty.Contents (Elt F)) (a4 : (Proc.devRef .tc main_arg4 : DevRef τ sig).ty.Contents (Elt F)) : (Proc.devRef .tc main_c_22 : DevRef τ sig).ty.Contents (Elt F) :=
  (constantI S_ 32 319#32)

/-- `main_v52`'s composed term. -/
def k_main_v52 (a0 : (Proc.devRef .tc main_arg0 : DevRef τ sig).ty.Contents (Elt F)) (a1 : (Proc.devRef .tc main_arg1 : DevRef τ sig).ty.Contents (Elt F)) (a2 : (Proc.devRef .tc main_arg2 : DevRef τ sig).ty.Contents (Elt F)) (a3 : (Proc.devRef .tc main_arg3 : DevRef τ sig).ty.Contents (Elt F)) (a4 : (Proc.devRef .tc main_arg4 : DevRef τ sig).ty.Contents (Elt F)) : (Proc.devRef .tc main_v52 : DevRef τ sig).ty.Contents (Elt F) :=
  ((minsi) (((broadcastInDim S64x32 ![] bcast_S_S64x32)) ((id) (k_main_c_22 a0 a1 a2 a3 a4))) ((maxsi) (((broadcastInDim S64x32 ![] bcast_S_S64x32)) ((id) (k_main_c_21 a0 a1 a2 a3 a4))) (k_main_v51 a0 a1 a2 a3 a4)))

/-- `main_v60`'s composed term. -/
def k_main_v60 (a0 : (Proc.devRef .tc main_arg0 : DevRef τ sig).ty.Contents (Elt F)) (a1 : (Proc.devRef .tc main_arg1 : DevRef τ sig).ty.Contents (Elt F)) (a2 : (Proc.devRef .tc main_arg2 : DevRef τ sig).ty.Contents (Elt F)) (a3 : (Proc.devRef .tc main_arg3 : DevRef τ sig).ty.Contents (Elt F)) (a4 : (Proc.devRef .tc main_arg4 : DevRef τ sig).ty.Contents (Elt F)) : (Proc.devRef .tc main_v60 : DevRef τ sig).ty.Contents (Elt F) :=
  ((maxsi : (⟨S64x32, .i32⟩ : BufTy).Contents (Elt F) → (⟨S64x32, .i32⟩ : BufTy).Contents (Elt F) → (⟨S64x32, .i32⟩ : BufTy).Contents (Elt F)) ((addi : (⟨S64x32, .i32⟩ : BufTy).Contents (Elt F) → (⟨S64x32, .i32⟩ : BufTy).Contents (Elt F) → (⟨S64x32, .i32⟩ : BufTy).Contents (Elt F)) (k_main_v48 a0 a1 a2 a3 a4) ((broadcastInDim S64x32 ![] bcast_S_S64x32 : (⟨S_, .i32⟩ : BufTy).Contents (Elt F) → (⟨S64x32, .i32⟩ : BufTy).Contents (Elt F)) (constantI S_ 32 1#32))) ((minsi : (⟨S64x32, .i32⟩ : BufTy).Contents (Elt F) → (⟨S64x32, .i32⟩ : BufTy).Contents (Elt F) → (⟨S64x32, .i32⟩ : BufTy).Contents (Elt F)) ((fptosi 32 : (⟨S64x32, .f32⟩ : BufTy).Contents (Elt F) → (⟨S64x32, .i32⟩ : BufTy).Contents (Elt F)) ((mulf : (⟨S64x32, .f32⟩ : BufTy).Contents (Elt F) → (⟨S64x32, .f32⟩ : BufTy).Contents (Elt F) → (⟨S64x32, .f32⟩ : BufTy).Contents (Elt F)) (k_main_v35 a0 a1 a2 a3 a4) ((broadcastInDim S64x32 ![] bcast_S_S64x32 : (⟨S_, .f32⟩ : BufTy).Contents (Elt F) → (⟨S64x32, .f32⟩ : BufTy).Contents (Elt F)) (constant S_ .f32 0x43A00000#32)))) ((broadcastInDim S64x32 ![] bcast_S_S64x32 : (⟨S_, .i32⟩ : BufTy).Contents (Elt F) → (⟨S64x32, .i32⟩ : BufTy).Contents (Elt F)) (constantI S_ 32 319#32))))

/-- `main_v68`'s composed term. -/
def k_main_v68 (a0 : (Proc.devRef .tc main_arg0 : DevRef τ sig).ty.Contents (Elt F)) (a1 : (Proc.devRef .tc main_arg1 : DevRef τ sig).ty.Contents (Elt F)) (a2 : (Proc.devRef .tc main_arg2 : DevRef τ sig).ty.Contents (Elt F)) (a3 : (Proc.devRef .tc main_arg3 : DevRef τ sig).ty.Contents (Elt F)) (a4 : (Proc.devRef .tc main_arg4 : DevRef τ sig).ty.Contents (Elt F)) : (Proc.devRef .tc main_v68 : DevRef τ sig).ty.Contents (Elt F) :=
  ((maxsi : (⟨S64x32, .i32⟩ : BufTy).Contents (Elt F) → (⟨S64x32, .i32⟩ : BufTy).Contents (Elt F) → (⟨S64x32, .i32⟩ : BufTy).Contents (Elt F)) ((addi : (⟨S64x32, .i32⟩ : BufTy).Contents (Elt F) → (⟨S64x32, .i32⟩ : BufTy).Contents (Elt F) → (⟨S64x32, .i32⟩ : BufTy).Contents (Elt F)) (k_main_v52 a0 a1 a2 a3 a4) ((broadcastInDim S64x32 ![] bcast_S_S64x32 : (⟨S_, .i32⟩ : BufTy).Contents (Elt F) → (⟨S64x32, .i32⟩ : BufTy).Contents (Elt F)) (constantI S_ 32 1#32))) ((minsi : (⟨S64x32, .i32⟩ : BufTy).Contents (Elt F) → (⟨S64x32, .i32⟩ : BufTy).Contents (Elt F) → (⟨S64x32, .i32⟩ : BufTy).Contents (Elt F)) ((fptosi 32 : (⟨S64x32, .f32⟩ : BufTy).Contents (Elt F) → (⟨S64x32, .i32⟩ : BufTy).Contents (Elt F)) ((mulf : (⟨S64x32, .f32⟩ : BufTy).Contents (Elt F) → (⟨S64x32, .f32⟩ : BufTy).Contents (Elt F) → (⟨S64x32, .f32⟩ : BufTy).Contents (Elt F)) (k_main_v44 a0 a1 a2 a3 a4) ((broadcastInDim S64x32 ![] bcast_S_S64x32 : (⟨S_, .f32⟩ : BufTy).Contents (Elt F) → (⟨S64x32, .f32⟩ : BufTy).Contents (Elt F)) (constant S_ .f32 0x43A00000#32)))) ((broadcastInDim S64x32 ![] bcast_S_S64x32 : (⟨S_, .i32⟩ : BufTy).Contents (Elt F) → (⟨S64x32, .i32⟩ : BufTy).Contents (Elt F)) (constantI S_ 32 319#32))))

/-- `main_v69`'s composed term. -/
def k_main_v69 (a0 : (Proc.devRef .tc main_arg0 : DevRef τ sig).ty.Contents (Elt F)) (a1 : (Proc.devRef .tc main_arg1 : DevRef τ sig).ty.Contents (Elt F)) (a2 : (Proc.devRef .tc main_arg2 : DevRef τ sig).ty.Contents (Elt F)) (a3 : (Proc.devRef .tc main_arg3 : DevRef τ sig).ty.Contents (Elt F)) (a4 : (Proc.devRef .tc main_arg4 : DevRef τ sig).ty.Contents (Elt F)) : (Proc.devRef .tc main_v69 : DevRef τ sig).ty.Contents (Elt F) :=
  ((addi : (⟨S64x32, .i32⟩ : BufTy).Contents (Elt F) → (⟨S64x32, .i32⟩ : BufTy).Contents (Elt F) → (⟨S64x32, .i32⟩ : BufTy).Contents (Elt F)) (k_main_v52 a0 a1 a2 a3 a4) (k_main_v68 a0 a1 a2 a3 a4))

/-- `main_c_29`'s composed term. -/
def k_main_c_29 (a0 : (Proc.devRef .tc main_arg0 : DevRef τ sig).ty.Contents (Elt F)) (a1 : (Proc.devRef .tc main_arg1 : DevRef τ sig).ty.Contents (Elt F)) (a2 : (Proc.devRef .tc main_arg2 : DevRef τ sig).ty.Contents (Elt F)) (a3 : (Proc.devRef .tc main_arg3 : DevRef τ sig).ty.Contents (Elt F)) (a4 : (Proc.devRef .tc main_arg4 : DevRef τ sig).ty.Contents (Elt F)) : (Proc.devRef .tc main_c_29 : DevRef τ sig).ty.Contents (Elt F) :=
  (constantI S_ 32 2#32)

/-- `main_v70`'s composed term. -/
def k_main_v70 (a0 : (Proc.devRef .tc main_arg0 : DevRef τ sig).ty.Contents (Elt F)) (a1 : (Proc.devRef .tc main_arg1 : DevRef τ sig).ty.Contents (Elt F)) (a2 : (Proc.devRef .tc main_arg2 : DevRef τ sig).ty.Contents (Elt F)) (a3 : (Proc.devRef .tc main_arg3 : DevRef τ sig).ty.Contents (Elt F)) (a4 : (Proc.devRef .tc main_arg4 : DevRef τ sig).ty.Contents (Elt F)) : (Proc.devRef .tc main_v70 : DevRef τ sig).ty.Contents (Elt F) :=
  ((select) ((andi) (((cmpi .ne)) ((signi) (k_main_v69 a0 a1 a2 a3 a4)) (((broadcastInDim S64x32 ![] bcast_S_S64x32)) ((signi) ((id) (k_main_c_29 a0 a1 a2 a3 a4))))) (((cmpi .ne)) ((Host.remsi) (k_main_v69 a0 a1 a2 a3 a4) (((broadcastInDim S64x32 ![] bcast_S_S64x32)) ((id) (k_main_c_29 a0 a1 a2 a3 a4)))) (((broadcastInDim S64x32 ![] bcast_S_S64x32)) (constantI S_ 32 0#32)))) ((subi) ((Host.divsi) (k_main_v69 a0 a1 a2 a3 a4) (((broadcastInDim S64x32 ![] bcast_S_S64x32)) ((id) (k_main_c_29 a0 a1 a2 a3 a4)))) (((broadcastInDim S64x32 ![] bcast_S_S64x32)) (constantI S_ 32 1#32))) ((Host.divsi) (k_main_v69 a0 a1 a2 a3 a4) (((broadcastInDim S64x32 ![] bcast_S_S64x32)) ((id) (k_main_c_29 a0 a1 a2 a3 a4)))))

/-- `main_v71`'s composed term. -/
def k_main_v71 (a0 : (Proc.devRef .tc main_arg0 : DevRef τ sig).ty.Contents (Elt F)) (a1 : (Proc.devRef .tc main_arg1 : DevRef τ sig).ty.Contents (Elt F)) (a2 : (Proc.devRef .tc main_arg2 : DevRef τ sig).ty.Contents (Elt F)) (a3 : (Proc.devRef .tc main_arg3 : DevRef τ sig).ty.Contents (Elt F)) (a4 : (Proc.devRef .tc main_arg4 : DevRef τ sig).ty.Contents (Elt F)) : (Proc.devRef .tc main_v71 : DevRef τ sig).ty.Contents (Elt F) :=
  ((addi : (⟨S64x32, .i32⟩ : BufTy).Contents (Elt F) → (⟨S64x32, .i32⟩ : BufTy).Contents (Elt F) → (⟨S64x32, .i32⟩ : BufTy).Contents (Elt F)) (k_main_v48 a0 a1 a2 a3 a4) (k_main_v60 a0 a1 a2 a3 a4))

/-- `main_c_30`'s composed term. -/
def k_main_c_30 (a0 : (Proc.devRef .tc main_arg0 : DevRef τ sig).ty.Contents (Elt F)) (a1 : (Proc.devRef .tc main_arg1 : DevRef τ sig).ty.Contents (Elt F)) (a2 : (Proc.devRef .tc main_arg2 : DevRef τ sig).ty.Contents (Elt F)) (a3 : (Proc.devRef .tc main_arg3 : DevRef τ sig).ty.Contents (Elt F)) (a4 : (Proc.devRef .tc main_arg4 : DevRef τ sig).ty.Contents (Elt F)) : (Proc.devRef .tc main_c_30 : DevRef τ sig).ty.Contents (Elt F) :=
  (constantI S_ 32 2#32)

/-- `main_v72`'s composed term. -/
def k_main_v72 (a0 : (Proc.devRef .tc main_arg0 : DevRef τ sig).ty.Contents (Elt F)) (a1 : (Proc.devRef .tc main_arg1 : DevRef τ sig).ty.Contents (Elt F)) (a2 : (Proc.devRef .tc main_arg2 : DevRef τ sig).ty.Contents (Elt F)) (a3 : (Proc.devRef .tc main_arg3 : DevRef τ sig).ty.Contents (Elt F)) (a4 : (Proc.devRef .tc main_arg4 : DevRef τ sig).ty.Contents (Elt F)) : (Proc.devRef .tc main_v72 : DevRef τ sig).ty.Contents (Elt F) :=
  ((select) ((andi) (((cmpi .ne)) ((signi) (k_main_v71 a0 a1 a2 a3 a4)) (((broadcastInDim S64x32 ![] bcast_S_S64x32)) ((signi) ((id) (k_main_c_30 a0 a1 a2 a3 a4))))) (((cmpi .ne)) ((Host.remsi) (k_main_v71 a0 a1 a2 a3 a4) (((broadcastInDim S64x32 ![] bcast_S_S64x32)) ((id) (k_main_c_30 a0 a1 a2 a3 a4)))) (((broadcastInDim S64x32 ![] bcast_S_S64x32)) (constantI S_ 32 0#32)))) ((subi) ((Host.divsi) (k_main_v71 a0 a1 a2 a3 a4) (((broadcastInDim S64x32 ![] bcast_S_S64x32)) ((id) (k_main_c_30 a0 a1 a2 a3 a4)))) (((broadcastInDim S64x32 ![] bcast_S_S64x32)) (constantI S_ 32 1#32))) ((Host.divsi) (k_main_v71 a0 a1 a2 a3 a4) (((broadcastInDim S64x32 ![] bcast_S_S64x32)) ((id) (k_main_c_30 a0 a1 a2 a3 a4)))))

/-- `main_v78`'s composed term. -/
def k_main_v78 (a0 : (Proc.devRef .tc main_arg0 : DevRef τ sig).ty.Contents (Elt F)) (a1 : (Proc.devRef .tc main_arg1 : DevRef τ sig).ty.Contents (Elt F)) (a2 : (Proc.devRef .tc main_arg2 : DevRef τ sig).ty.Contents (Elt F)) (a3 : (Proc.devRef .tc main_arg3 : DevRef τ sig).ty.Contents (Elt F)) (a4 : (Proc.devRef .tc main_arg4 : DevRef τ sig).ty.Contents (Elt F)) : (Proc.devRef .tc main_v78 : DevRef τ sig).ty.Contents (Elt F) :=
  (concatenate S64x32x5 2 [⟨S64x32x1, ((broadcastInDim S64x32x1 ![0, 1] bcast_S64x32_S64x32x1_0_1 : (⟨S64x32, .i32⟩ : BufTy).Contents (Elt F) → (⟨S64x32x1, .i32⟩ : BufTy).Contents (Elt F)) (k_main_v70 a0 a1 a2 a3 a4))⟩, ⟨S64x32x1, ((broadcastInDim S64x32x1 ![0, 1] bcast_S64x32_S64x32x1_0_1 : (⟨S64x32, .i32⟩ : BufTy).Contents (Elt F) → (⟨S64x32x1, .i32⟩ : BufTy).Contents (Elt F)) (k_main_v52 a0 a1 a2 a3 a4))⟩, ⟨S64x32x1, ((broadcastInDim S64x32x1 ![0, 1] bcast_S64x32_S64x32x1_0_1 : (⟨S64x32, .i32⟩ : BufTy).Contents (Elt F) → (⟨S64x32x1, .i32⟩ : BufTy).Contents (Elt F)) (k_main_v52 a0 a1 a2 a3 a4))⟩, ⟨S64x32x1, ((broadcastInDim S64x32x1 ![0, 1] bcast_S64x32_S64x32x1_0_1 : (⟨S64x32, .i32⟩ : BufTy).Contents (Elt F) → (⟨S64x32x1, .i32⟩ : BufTy).Contents (Elt F)) (k_main_v68 a0 a1 a2 a3 a4))⟩, ⟨S64x32x1, ((broadcastInDim S64x32x1 ![0, 1] bcast_S64x32_S64x32x1_0_1 : (⟨S64x32, .i32⟩ : BufTy).Contents (Elt F) → (⟨S64x32x1, .i32⟩ : BufTy).Contents (Elt F)) (k_main_v68 a0 a1 a2 a3 a4))⟩] concatenates_S64x32x1_S64x32x1_S64x32x1_S64x32x1_S64x32x1_S64x32x5_d2)

/-- `main_v84`'s composed term. -/
def k_main_v84 (a0 : (Proc.devRef .tc main_arg0 : DevRef τ sig).ty.Contents (Elt F)) (a1 : (Proc.devRef .tc main_arg1 : DevRef τ sig).ty.Contents (Elt F)) (a2 : (Proc.devRef .tc main_arg2 : DevRef τ sig).ty.Contents (Elt F)) (a3 : (Proc.devRef .tc main_arg3 : DevRef τ sig).ty.Contents (Elt F)) (a4 : (Proc.devRef .tc main_arg4 : DevRef τ sig).ty.Contents (Elt F)) : (Proc.devRef .tc main_v84 : DevRef τ sig).ty.Contents (Elt F) :=
  (concatenate S64x32x5 2 [⟨S64x32x1, ((broadcastInDim S64x32x1 ![0, 1] bcast_S64x32_S64x32x1_0_1 : (⟨S64x32, .i32⟩ : BufTy).Contents (Elt F) → (⟨S64x32x1, .i32⟩ : BufTy).Contents (Elt F)) (k_main_v72 a0 a1 a2 a3 a4))⟩, ⟨S64x32x1, ((broadcastInDim S64x32x1 ![0, 1] bcast_S64x32_S64x32x1_0_1 : (⟨S64x32, .i32⟩ : BufTy).Contents (Elt F) → (⟨S64x32x1, .i32⟩ : BufTy).Contents (Elt F)) (k_main_v48 a0 a1 a2 a3 a4))⟩, ⟨S64x32x1, ((broadcastInDim S64x32x1 ![0, 1] bcast_S64x32_S64x32x1_0_1 : (⟨S64x32, .i32⟩ : BufTy).Contents (Elt F) → (⟨S64x32x1, .i32⟩ : BufTy).Contents (Elt F)) (k_main_v60 a0 a1 a2 a3 a4))⟩, ⟨S64x32x1, ((broadcastInDim S64x32x1 ![0, 1] bcast_S64x32_S64x32x1_0_1 : (⟨S64x32, .i32⟩ : BufTy).Contents (Elt F) → (⟨S64x32x1, .i32⟩ : BufTy).Contents (Elt F)) (k_main_v48 a0 a1 a2 a3 a4))⟩, ⟨S64x32x1, ((broadcastInDim S64x32x1 ![0, 1] bcast_S64x32_S64x32x1_0_1 : (⟨S64x32, .i32⟩ : BufTy).Contents (Elt F) → (⟨S64x32x1, .i32⟩ : BufTy).Contents (Elt F)) (k_main_v60 a0 a1 a2 a3 a4))⟩] concatenates_S64x32x1_S64x32x1_S64x32x1_S64x32x1_S64x32x1_S64x32x5_d2)

/-- `main_v88`'s composed term. -/
def k_main_v88 (a0 : (Proc.devRef .tc main_arg0 : DevRef τ sig).ty.Contents (Elt F)) (a1 : (Proc.devRef .tc main_arg1 : DevRef τ sig).ty.Contents (Elt F)) (a2 : (Proc.devRef .tc main_arg2 : DevRef τ sig).ty.Contents (Elt F)) (a3 : (Proc.devRef .tc main_arg3 : DevRef τ sig).ty.Contents (Elt F)) (a4 : (Proc.devRef .tc main_arg4 : DevRef τ sig).ty.Contents (Elt F)) : (Proc.devRef .tc main_v88 : DevRef τ sig).ty.Contents (Elt F) :=
  (shapeCast S64x160 ((addi : (⟨S64x32x5, .i32⟩ : BufTy).Contents (Elt F) → (⟨S64x32x5, .i32⟩ : BufTy).Contents (Elt F) → (⟨S64x32x5, .i32⟩ : BufTy).Contents (Elt F)) ((muli : (⟨S64x32x5, .i32⟩ : BufTy).Contents (Elt F) → (⟨S64x32x5, .i32⟩ : BufTy).Contents (Elt F) → (⟨S64x32x5, .i32⟩ : BufTy).Contents (Elt F)) (k_main_v78 a0 a1 a2 a3 a4) ((broadcastInDim S64x32x5 ![] bcast_S_S64x32x5 : (⟨S_, .i32⟩ : BufTy).Contents (Elt F) → (⟨S64x32x5, .i32⟩ : BufTy).Contents (Elt F)) (constantI S_ 32 320#32))) (k_main_v84 a0 a1 a2 a3 a4)) shapeCasts_S64x32x5_S64x160)

/-- `main_v89`'s composed term. -/
def k_main_v89 (a0 : (Proc.devRef .tc main_arg0 : DevRef τ sig).ty.Contents (Elt F)) (a1 : (Proc.devRef .tc main_arg1 : DevRef τ sig).ty.Contents (Elt F)) (a2 : (Proc.devRef .tc main_arg2 : DevRef τ sig).ty.Contents (Elt F)) (a3 : (Proc.devRef .tc main_arg3 : DevRef τ sig).ty.Contents (Elt F)) (a4 : (Proc.devRef .tc main_arg4 : DevRef τ sig).ty.Contents (Elt F)) : (Proc.devRef .tc main_v89 : DevRef τ sig).ty.Contents (Elt F) :=
  (shapeCast S64x4x102400 a2 shapeCasts_S64x4x320x320_S64x4x102400)

/-- `main_v91`'s composed term. -/
def k_main_v91 (a0 : (Proc.devRef .tc main_arg0 : DevRef τ sig).ty.Contents (Elt F)) (a1 : (Proc.devRef .tc main_arg1 : DevRef τ sig).ty.Contents (Elt F)) (a2 : (Proc.devRef .tc main_arg2 : DevRef τ sig).ty.Contents (Elt F)) (a3 : (Proc.devRef .tc main_arg3 : DevRef τ sig).ty.Contents (Elt F)) (a4 : (Proc.devRef .tc main_arg4 : DevRef τ sig).ty.Contents (Elt F)) : (Proc.devRef .tc main_v91 : DevRef τ sig).ty.Contents (Elt F) :=
  ((broadcastInDim S64x4x160 ![0, 1, 2] bcast_S64x1x160_S64x4x160_0_1_2 : (⟨S64x1x160, .i32⟩ : BufTy).Contents (Elt F) → (⟨S64x4x160, .i32⟩ : BufTy).Contents (Elt F)) ((broadcastInDim S64x1x160 ![0, 2] bcast_S64x160_S64x1x160_0_2 : (⟨S64x160, .i32⟩ : BufTy).Contents (Elt F) → (⟨S64x1x160, .i32⟩ : BufTy).Contents (Elt F)) (k_main_v88 a0 a1 a2 a3 a4)))

/-- `main_v92`'s composed term. -/
def k_main_v92 (a0 : (Proc.devRef .tc main_arg0 : DevRef τ sig).ty.Contents (Elt F)) (a1 : (Proc.devRef .tc main_arg1 : DevRef τ sig).ty.Contents (Elt F)) (a2 : (Proc.devRef .tc main_arg2 : DevRef τ sig).ty.Contents (Elt F)) (a3 : (Proc.devRef .tc main_arg3 : DevRef τ sig).ty.Contents (Elt F)) (a4 : (Proc.devRef .tc main_arg4 : DevRef τ sig).ty.Contents (Elt F)) : (Proc.devRef .tc main_v92 : DevRef τ sig).ty.Contents (Elt F) :=
  ((select) (((fun x v => Host.reduce IntOp.andi x v reducesTo_S64x4x160x1_S64x4x160_d3 h_S_)) ((andi) (((cmpi .sge)) (shapeCast S64x4x160x1 ((select) (((cmpi .slt)) (k_main_v91 a0 a1 a2 a3 a4) (((broadcastInDim S64x4x160 ![] bcast_S_S64x4x160)) (constantI S_ 32 0#32))) ((addi) (k_main_v91 a0 a1 a2 a3 a4) (((broadcastInDim S64x4x160 ![] bcast_S_S64x4x160)) (constantI S_ 32 102400#32))) (k_main_v91 a0 a1 a2 a3 a4)) shapeCasts_S64x4x160_S64x4x160x1) (((broadcastInDim S64x4x160x1 ![] bcast_S_S64x4x160x1)) (constantI S_ 32 0#32))) (((cmpi .sle)) (shapeCast S64x4x160x1 ((select) (((cmpi .slt)) (k_main_v91 a0 a1 a2 a3 a4) (((broadcastInDim S64x4x160 ![] bcast_S_S64x4x160)) (constantI S_ 32 0#32))) ((addi) (k_main_v91 a0 a1 a2 a3 a4) (((broadcastInDim S64x4x160 ![] bcast_S_S64x4x160)) (constantI S_ 32 102400#32))) (k_main_v91 a0 a1 a2 a3 a4)) shapeCasts_S64x4x160_S64x4x160x1) (((broadcastInDim S64x4x160x1 ![0, 1, 2, 3] bcast_S1x1x1x1_S64x4x160x1_0_1_2_3)) (((broadcastInDim S1x1x1x1 ![3] bcast_S1_S1x1x1x1_3)) (constantI S1 32 102399#32))))) (constantI S_ 1 1#1)) (((fun x i => Host.gather gather_S64x4x102400_S64x4x160x1_S64x4x160_n_2_01_01_2_3_111 x i)) (k_main_v89 a0 a1 a2 a3 a4) (shapeCast S64x4x160x1 ((select) (((cmpi .slt)) (k_main_v91 a0 a1 a2 a3 a4) (((broadcastInDim S64x4x160 ![] bcast_S_S64x4x160)) (constantI S_ 32 0#32))) ((addi) (k_main_v91 a0 a1 a2 a3 a4) (((broadcastInDim S64x4x160 ![] bcast_S_S64x4x160)) (constantI S_ 32 102400#32))) (k_main_v91 a0 a1 a2 a3 a4)) shapeCasts_S64x4x160_S64x4x160x1)) (((broadcastInDim S64x4x160 ![] bcast_S_S64x4x160)) (constant S_ .f32 0x7FC00000#32)))

/-- `main_v93`'s composed term. -/
def k_main_v93 (a0 : (Proc.devRef .tc main_arg0 : DevRef τ sig).ty.Contents (Elt F)) (a1 : (Proc.devRef .tc main_arg1 : DevRef τ sig).ty.Contents (Elt F)) (a2 : (Proc.devRef .tc main_arg2 : DevRef τ sig).ty.Contents (Elt F)) (a3 : (Proc.devRef .tc main_arg3 : DevRef τ sig).ty.Contents (Elt F)) (a4 : (Proc.devRef .tc main_arg4 : DevRef τ sig).ty.Contents (Elt F)) : (Proc.devRef .tc main_v93 : DevRef τ sig).ty.Contents (Elt F) :=
  (((transpose S64x160x4 [0, 2, 1] · transposes_S64x4x160_S64x160x4_0_2_1) : (⟨S64x4x160, .f32⟩ : BufTy).Contents (Elt F) → (⟨S64x160x4, .f32⟩ : BufTy).Contents (Elt F)) (k_main_v92 a0 a1 a2 a3 a4))

/-- `main_v94`'s composed term. -/
def k_main_v94 (a0 : (Proc.devRef .tc main_arg0 : DevRef τ sig).ty.Contents (Elt F)) (a1 : (Proc.devRef .tc main_arg1 : DevRef τ sig).ty.Contents (Elt F)) (a2 : (Proc.devRef .tc main_arg2 : DevRef τ sig).ty.Contents (Elt F)) (a3 : (Proc.devRef .tc main_arg3 : DevRef τ sig).ty.Contents (Elt F)) (a4 : (Proc.devRef .tc main_arg4 : DevRef τ sig).ty.Contents (Elt F)) : (Proc.devRef .tc main_v94 : DevRef τ sig).ty.Contents (Elt F) :=
  (shapeCast S64x102400 a1 shapeCasts_S64x1x320x320_S64x102400)

/-- `main_v95`'s composed term. -/
def k_main_v95 (a0 : (Proc.devRef .tc main_arg0 : DevRef τ sig).ty.Contents (Elt F)) (a1 : (Proc.devRef .tc main_arg1 : DevRef τ sig).ty.Contents (Elt F)) (a2 : (Proc.devRef .tc main_arg2 : DevRef τ sig).ty.Contents (Elt F)) (a3 : (Proc.devRef .tc main_arg3 : DevRef τ sig).ty.Contents (Elt F)) (a4 : (Proc.devRef .tc main_arg4 : DevRef τ sig).ty.Contents (Elt F)) : (Proc.devRef .tc main_v95 : DevRef τ sig).ty.Contents (Elt F) :=
  ((select) (((fun x v => Host.reduce IntOp.andi x v reducesTo_S64x160x1_S64x160_d2 h_S_)) ((andi) (((cmpi .sge)) (shapeCast S64x160x1 ((select) (((cmpi .slt)) (k_main_v88 a0 a1 a2 a3 a4) (((broadcastInDim S64x160 ![] bcast_S_S64x160)) (constantI S_ 32 0#32))) ((addi) (k_main_v88 a0 a1 a2 a3 a4) (((broadcastInDim S64x160 ![] bcast_S_S64x160)) (constantI S_ 32 102400#32))) (k_main_v88 a0 a1 a2 a3 a4)) shapeCasts_S64x160_S64x160x1) (((broadcastInDim S64x160x1 ![] bcast_S_S64x160x1)) (constantI S_ 32 0#32))) (((cmpi .sle)) (shapeCast S64x160x1 ((select) (((cmpi .slt)) (k_main_v88 a0 a1 a2 a3 a4) (((broadcastInDim S64x160 ![] bcast_S_S64x160)) (constantI S_ 32 0#32))) ((addi) (k_main_v88 a0 a1 a2 a3 a4) (((broadcastInDim S64x160 ![] bcast_S_S64x160)) (constantI S_ 32 102400#32))) (k_main_v88 a0 a1 a2 a3 a4)) shapeCasts_S64x160_S64x160x1) (((broadcastInDim S64x160x1 ![0, 1, 2] bcast_S1x1x1_S64x160x1_0_1_2)) (((broadcastInDim S1x1x1 ![2] bcast_S1_S1x1x1_2)) (constantI S1 32 102399#32))))) (constantI S_ 1 1#1)) (((fun x i => Host.gather gather_S64x102400_S64x160x1_S64x160_n_1_0_0_1_2_11 x i)) (k_main_v94 a0 a1 a2 a3 a4) (shapeCast S64x160x1 ((select) (((cmpi .slt)) (k_main_v88 a0 a1 a2 a3 a4) (((broadcastInDim S64x160 ![] bcast_S_S64x160)) (constantI S_ 32 0#32))) ((addi) (k_main_v88 a0 a1 a2 a3 a4) (((broadcastInDim S64x160 ![] bcast_S_S64x160)) (constantI S_ 32 102400#32))) (k_main_v88 a0 a1 a2 a3 a4)) shapeCasts_S64x160_S64x160x1)) (((broadcastInDim S64x160 ![] bcast_S_S64x160)) (constant S_ .f32 0x7FC00000#32)))

/-- `main_v100`'s composed term. -/
def k_main_v100 (a0 : (Proc.devRef .tc main_arg0 : DevRef τ sig).ty.Contents (Elt F)) (a1 : (Proc.devRef .tc main_arg1 : DevRef τ sig).ty.Contents (Elt F)) (a2 : (Proc.devRef .tc main_arg2 : DevRef τ sig).ty.Contents (Elt F)) (a3 : (Proc.devRef .tc main_arg3 : DevRef τ sig).ty.Contents (Elt F)) (a4 : (Proc.devRef .tc main_arg4 : DevRef τ sig).ty.Contents (Elt F)) : (Proc.devRef .tc main_v100 : DevRef τ sig).ty.Contents (Elt F) :=
  (concatenate S64x32x4 2 [⟨S64x32x1, ((broadcastInDim S64x32x1 ![0, 1] bcast_S64x32_S64x32x1_0_1 : (⟨S64x32, .f32⟩ : BufTy).Contents (Elt F) → (⟨S64x32x1, .f32⟩ : BufTy).Contents (Elt F)) (k_main_v21 a0 a1 a2 a3 a4))⟩, ⟨S64x32x1, ((broadcastInDim S64x32x1 ![0, 1] bcast_S64x32_S64x32x1_0_1 : (⟨S64x32, .f32⟩ : BufTy).Contents (Elt F) → (⟨S64x32x1, .f32⟩ : BufTy).Contents (Elt F)) (k_main_v26 a0 a1 a2 a3 a4))⟩, ⟨S64x32x1, ((broadcastInDim S64x32x1 ![0, 1] bcast_S64x32_S64x32x1_0_1 : (⟨S64x32, .f32⟩ : BufTy).Contents (Elt F) → (⟨S64x32x1, .f32⟩ : BufTy).Contents (Elt F)) (k_main_v35 a0 a1 a2 a3 a4))⟩, ⟨S64x32x1, ((broadcastInDim S64x32x1 ![0, 1] bcast_S64x32_S64x32x1_0_1 : (⟨S64x32, .f32⟩ : BufTy).Contents (Elt F) → (⟨S64x32x1, .f32⟩ : BufTy).Contents (Elt F)) (k_main_v44 a0 a1 a2 a3 a4))⟩] concatenates_S64x32x1_S64x32x1_S64x32x1_S64x32x1_S64x32x4_d2)

/-- `main_v103`'s composed term. -/
def k_main_v103 (a0 : (Proc.devRef .tc main_arg0 : DevRef τ sig).ty.Contents (Elt F)) (a1 : (Proc.devRef .tc main_arg1 : DevRef τ sig).ty.Contents (Elt F)) (a2 : (Proc.devRef .tc main_arg2 : DevRef τ sig).ty.Contents (Elt F)) (a3 : (Proc.devRef .tc main_arg3 : DevRef τ sig).ty.Contents (Elt F)) (a4 : (Proc.devRef .tc main_arg4 : DevRef τ sig).ty.Contents (Elt F)) : (Proc.devRef .tc main_v103 : DevRef τ sig).ty.Contents (Elt F) :=
  (shapeCast S64x160x4 ((broadcastInDim S64x32x5x4 ![0, 1, 2, 3] bcast_S64x32x1x4_S64x32x5x4_0_1_2_3 : (⟨S64x32x1x4, .f32⟩ : BufTy).Contents (Elt F) → (⟨S64x32x5x4, .f32⟩ : BufTy).Contents (Elt F)) ((broadcastInDim S64x32x1x4 ![0, 1, 3] bcast_S64x32x4_S64x32x1x4_0_1_3 : (⟨S64x32x4, .f32⟩ : BufTy).Contents (Elt F) → (⟨S64x32x1x4, .f32⟩ : BufTy).Contents (Elt F)) (k_main_v100 a0 a1 a2 a3 a4))) shapeCasts_S64x32x5x4_S64x160x4)

/-- `main_v106`'s composed term. -/
def k_main_v106 (a0 : (Proc.devRef .tc main_arg0 : DevRef τ sig).ty.Contents (Elt F)) (a1 : (Proc.devRef .tc main_arg1 : DevRef τ sig).ty.Contents (Elt F)) (a2 : (Proc.devRef .tc main_arg2 : DevRef τ sig).ty.Contents (Elt F)) (a3 : (Proc.devRef .tc main_arg3 : DevRef τ sig).ty.Contents (Elt F)) (a4 : (Proc.devRef .tc main_arg4 : DevRef τ sig).ty.Contents (Elt F)) : (Proc.devRef .tc main_v106 : DevRef τ sig).ty.Contents (Elt F) :=
  (shapeCast S64x160 ((broadcastInDim S64x32x5 ![0, 1, 2] bcast_S64x32x1_S64x32x5_0_1_2 : (⟨S64x32x1, .f32⟩ : BufTy).Contents (Elt F) → (⟨S64x32x5, .f32⟩ : BufTy).Contents (Elt F)) ((broadcastInDim S64x32x1 ![0, 1] bcast_S64x32_S64x32x1_0_1 : (⟨S64x32, .f32⟩ : BufTy).Contents (Elt F) → (⟨S64x32x1, .f32⟩ : BufTy).Contents (Elt F)) (k_main_v16 a0 a1 a2 a3 a4))) shapeCasts_S64x32x5_S64x160)

/-- `main_v108`'s composed term. -/
def k_main_v108 (a0 : (Proc.devRef .tc main_arg0 : DevRef τ sig).ty.Contents (Elt F)) (a1 : (Proc.devRef .tc main_arg1 : DevRef τ sig).ty.Contents (Elt F)) (a2 : (Proc.devRef .tc main_arg2 : DevRef τ sig).ty.Contents (Elt F)) (a3 : (Proc.devRef .tc main_arg3 : DevRef τ sig).ty.Contents (Elt F)) (a4 : (Proc.devRef .tc main_arg4 : DevRef τ sig).ty.Contents (Elt F)) : (Proc.devRef .tc main_v108 : DevRef τ sig).ty.Contents (Elt F) :=
  (shapeCast S64x160 (((extractStridedSlice S64x160x1 ![0, 0, 0] · slices_S64x160x4_S64x160x1_0_0_0) : (⟨S64x160x4, .f32⟩ : BufTy).Contents (Elt F) → (⟨S64x160x1, .f32⟩ : BufTy).Contents (Elt F)) (k_main_v93 a0 a1 a2 a3 a4)) shapeCasts_S64x160x1_S64x160)

/-- `main_v110`'s composed term. -/
def k_main_v110 (a0 : (Proc.devRef .tc main_arg0 : DevRef τ sig).ty.Contents (Elt F)) (a1 : (Proc.devRef .tc main_arg1 : DevRef τ sig).ty.Contents (Elt F)) (a2 : (Proc.devRef .tc main_arg2 : DevRef τ sig).ty.Contents (Elt F)) (a3 : (Proc.devRef .tc main_arg3 : DevRef τ sig).ty.Contents (Elt F)) (a4 : (Proc.devRef .tc main_arg4 : DevRef τ sig).ty.Contents (Elt F)) : (Proc.devRef .tc main_v110 : DevRef τ sig).ty.Contents (Elt F) :=
  (shapeCast S64x160 (((extractStridedSlice S64x160x1 ![0, 0, 1] · slices_S64x160x4_S64x160x1_0_0_1) : (⟨S64x160x4, .f32⟩ : BufTy).Contents (Elt F) → (⟨S64x160x1, .f32⟩ : BufTy).Contents (Elt F)) (k_main_v93 a0 a1 a2 a3 a4)) shapeCasts_S64x160x1_S64x160)

/-- `main_v112`'s composed term. -/
def k_main_v112 (a0 : (Proc.devRef .tc main_arg0 : DevRef τ sig).ty.Contents (Elt F)) (a1 : (Proc.devRef .tc main_arg1 : DevRef τ sig).ty.Contents (Elt F)) (a2 : (Proc.devRef .tc main_arg2 : DevRef τ sig).ty.Contents (Elt F)) (a3 : (Proc.devRef .tc main_arg3 : DevRef τ sig).ty.Contents (Elt F)) (a4 : (Proc.devRef .tc main_arg4 : DevRef τ sig).ty.Contents (Elt F)) : (Proc.devRef .tc main_v112 : DevRef τ sig).ty.Contents (Elt F) :=
  (shapeCast S64x160 (((extractStridedSlice S64x160x1 ![0, 0, 2] · slices_S64x160x4_S64x160x1_0_0_2) : (⟨S64x160x4, .f32⟩ : BufTy).Contents (Elt F) → (⟨S64x160x1, .f32⟩ : BufTy).Contents (Elt F)) (k_main_v93 a0 a1 a2 a3 a4)) shapeCasts_S64x160x1_S64x160)

/-- `main_v114`'s composed term. -/
def k_main_v114 (a0 : (Proc.devRef .tc main_arg0 : DevRef τ sig).ty.Contents (Elt F)) (a1 : (Proc.devRef .tc main_arg1 : DevRef τ sig).ty.Contents (Elt F)) (a2 : (Proc.devRef .tc main_arg2 : DevRef τ sig).ty.Contents (Elt F)) (a3 : (Proc.devRef .tc main_arg3 : DevRef τ sig).ty.Contents (Elt F)) (a4 : (Proc.devRef .tc main_arg4 : DevRef τ sig).ty.Contents (Elt F)) : (Proc.devRef .tc main_v114 : DevRef τ sig).ty.Contents (Elt F) :=
  (shapeCast S64x160 (((extractStridedSlice S64x160x1 ![0, 0, 3] · slices_S64x160x4_S64x160x1_0_0_3) : (⟨S64x160x4, .f32⟩ : BufTy).Contents (Elt F) → (⟨S64x160x1, .f32⟩ : BufTy).Contents (Elt F)) (k_main_v93 a0 a1 a2 a3 a4)) shapeCasts_S64x160x1_S64x160)

/-- `main_v116`'s composed term. -/
def k_main_v116 (a0 : (Proc.devRef .tc main_arg0 : DevRef τ sig).ty.Contents (Elt F)) (a1 : (Proc.devRef .tc main_arg1 : DevRef τ sig).ty.Contents (Elt F)) (a2 : (Proc.devRef .tc main_arg2 : DevRef τ sig).ty.Contents (Elt F)) (a3 : (Proc.devRef .tc main_arg3 : DevRef τ sig).ty.Contents (Elt F)) (a4 : (Proc.devRef .tc main_arg4 : DevRef τ sig).ty.Contents (Elt F)) : (Proc.devRef .tc main_v116 : DevRef τ sig).ty.Contents (Elt F) :=
  (shapeCast S64x160 (((extractStridedSlice S64x160x1 ![0, 0, 0] · slices_S64x160x4_S64x160x1_0_0_0) : (⟨S64x160x4, .f32⟩ : BufTy).Contents (Elt F) → (⟨S64x160x1, .f32⟩ : BufTy).Contents (Elt F)) (k_main_v103 a0 a1 a2 a3 a4)) shapeCasts_S64x160x1_S64x160)

/-- `main_v118`'s composed term. -/
def k_main_v118 (a0 : (Proc.devRef .tc main_arg0 : DevRef τ sig).ty.Contents (Elt F)) (a1 : (Proc.devRef .tc main_arg1 : DevRef τ sig).ty.Contents (Elt F)) (a2 : (Proc.devRef .tc main_arg2 : DevRef τ sig).ty.Contents (Elt F)) (a3 : (Proc.devRef .tc main_arg3 : DevRef τ sig).ty.Contents (Elt F)) (a4 : (Proc.devRef .tc main_arg4 : DevRef τ sig).ty.Contents (Elt F)) : (Proc.devRef .tc main_v118 : DevRef τ sig).ty.Contents (Elt F) :=
  (shapeCast S64x160 (((extractStridedSlice S64x160x1 ![0, 0, 1] · slices_S64x160x4_S64x160x1_0_0_1) : (⟨S64x160x4, .f32⟩ : BufTy).Contents (Elt F) → (⟨S64x160x1, .f32⟩ : BufTy).Contents (Elt F)) (k_main_v103 a0 a1 a2 a3 a4)) shapeCasts_S64x160x1_S64x160)

/-- `main_v120`'s composed term. -/
def k_main_v120 (a0 : (Proc.devRef .tc main_arg0 : DevRef τ sig).ty.Contents (Elt F)) (a1 : (Proc.devRef .tc main_arg1 : DevRef τ sig).ty.Contents (Elt F)) (a2 : (Proc.devRef .tc main_arg2 : DevRef τ sig).ty.Contents (Elt F)) (a3 : (Proc.devRef .tc main_arg3 : DevRef τ sig).ty.Contents (Elt F)) (a4 : (Proc.devRef .tc main_arg4 : DevRef τ sig).ty.Contents (Elt F)) : (Proc.devRef .tc main_v120 : DevRef τ sig).ty.Contents (Elt F) :=
  (shapeCast S64x160 (((extractStridedSlice S64x160x1 ![0, 0, 2] · slices_S64x160x4_S64x160x1_0_0_2) : (⟨S64x160x4, .f32⟩ : BufTy).Contents (Elt F) → (⟨S64x160x1, .f32⟩ : BufTy).Contents (Elt F)) (k_main_v103 a0 a1 a2 a3 a4)) shapeCasts_S64x160x1_S64x160)

/-- `main_v122`'s composed term. -/
def k_main_v122 (a0 : (Proc.devRef .tc main_arg0 : DevRef τ sig).ty.Contents (Elt F)) (a1 : (Proc.devRef .tc main_arg1 : DevRef τ sig).ty.Contents (Elt F)) (a2 : (Proc.devRef .tc main_arg2 : DevRef τ sig).ty.Contents (Elt F)) (a3 : (Proc.devRef .tc main_arg3 : DevRef τ sig).ty.Contents (Elt F)) (a4 : (Proc.devRef .tc main_arg4 : DevRef τ sig).ty.Contents (Elt F)) : (Proc.devRef .tc main_v122 : DevRef τ sig).ty.Contents (Elt F) :=
  (shapeCast S64x160 (((extractStridedSlice S64x160x1 ![0, 0, 3] · slices_S64x160x4_S64x160x1_0_0_3) : (⟨S64x160x4, .f32⟩ : BufTy).Contents (Elt F) → (⟨S64x160x1, .f32⟩ : BufTy).Contents (Elt F)) (k_main_v103 a0 a1 a2 a3 a4)) shapeCasts_S64x160x1_S64x160)

/-- The gathered predicted boxes [64,160,4], the gathered confidence [64,160], the target boxes [64,160,4] and the
    target confidence [64,160]. -/
abbrev kgp (a0 : (Proc.devRef .tc main_arg0 : DevRef τ sig).ty.Contents (Elt F)) (a1 : (Proc.devRef .tc main_arg1 : DevRef τ sig).ty.Contents (Elt F)) (a2 : (Proc.devRef .tc main_arg2 : DevRef τ sig).ty.Contents (Elt F)) (a3 : (Proc.devRef .tc main_arg3 : DevRef τ sig).ty.Contents (Elt F)) (a4 : (Proc.devRef .tc main_arg4 : DevRef τ sig).ty.Contents (Elt F)) := k_main_v93 (F := F) a0 a1 a2 a3 a4
abbrev kgc (a0 : (Proc.devRef .tc main_arg0 : DevRef τ sig).ty.Contents (Elt F)) (a1 : (Proc.devRef .tc main_arg1 : DevRef τ sig).ty.Contents (Elt F)) (a2 : (Proc.devRef .tc main_arg2 : DevRef τ sig).ty.Contents (Elt F)) (a3 : (Proc.devRef .tc main_arg3 : DevRef τ sig).ty.Contents (Elt F)) (a4 : (Proc.devRef .tc main_arg4 : DevRef τ sig).ty.Contents (Elt F)) := k_main_v95 (F := F) a0 a1 a2 a3 a4
abbrev ktb (a0 : (Proc.devRef .tc main_arg0 : DevRef τ sig).ty.Contents (Elt F)) (a1 : (Proc.devRef .tc main_arg1 : DevRef τ sig).ty.Contents (Elt F)) (a2 : (Proc.devRef .tc main_arg2 : DevRef τ sig).ty.Contents (Elt F)) (a3 : (Proc.devRef .tc main_arg3 : DevRef τ sig).ty.Contents (Elt F)) (a4 : (Proc.devRef .tc main_arg4 : DevRef τ sig).ty.Contents (Elt F)) := k_main_v103 (F := F) a0 a1 a2 a3 a4
abbrev ktc (a0 : (Proc.devRef .tc main_arg0 : DevRef τ sig).ty.Contents (Elt F)) (a1 : (Proc.devRef .tc main_arg1 : DevRef τ sig).ty.Contents (Elt F)) (a2 : (Proc.devRef .tc main_arg2 : DevRef τ sig).ty.Contents (Elt F)) (a3 : (Proc.devRef .tc main_arg3 : DevRef τ sig).ty.Contents (Elt F)) (a4 : (Proc.devRef .tc main_arg4 : DevRef τ sig).ty.Contents (Elt F)) := k_main_v106 (F := F) a0 a1 a2 a3 a4

end Cert.KernelIdeal.Read

end
-- ==== Proof.KernelRead1.lean ====
import proofs.«167267_j69861938037475_1_alg».proof.Proof.KernelReadDefs

set_option maxRecDepth 16384

noncomputable section

namespace Cert.KernelIdeal.Read

open Cert.KernelIdeal Cert.KernelIdeal.Gen
open Idealize.ShloMosaic Idealize.ShloMosaic.TcCoe Idealize.SL.Sem Idealize.ShloMosaic.StableHlo

variable {F : FTy → Type} [FloatOps F]
variable (m : (ℓ : Loc nD τ sig) → Buf (Elt F) ℓ) (outs : Outs (F := F))

/-! ## The valuations stretch by stretch, folded, and the named buffers read at each -/

/-- A fold over two lists in a row is the second's over the first's. -/
theorem after_append' (a b : List (HloOp τ sig (Elt F))) (V : Valuation τ sig (Elt F)) : after (a ++ b) V = after b (after a V) := by
  induction a generalizing V with
  | nil => rfl
  | cons op a ih => exact ih _

/-- The valuation after the first reduction's results are in place. -/
def W1 (c : Dev nD) : Valuation τ sig (Elt F) := V1 m outs c
theorem W1_keep (c : Dev nD) (r : Ref sig .tc) (h : r ∉ ([main_v0_0, main_v0_1, main_v0_2, main_v0_3] : List (Ref sig .tc))) :
    W1 m outs c (Proc.devRef .tc r) = V0 m c (Proc.devRef .tc r) := V1_of m outs c r h
theorem W1_main_arg1 (c : Dev nD) : W1 m outs c (no_index (Proc.devRef .tc main_arg1)) = V0 m c (Proc.devRef .tc main_arg1) :=
  W1_keep m outs c main_arg1 (by decide)
theorem W1_main_arg2 (c : Dev nD) : W1 m outs c (no_index (Proc.devRef .tc main_arg2)) = V0 m c (Proc.devRef .tc main_arg2) :=
  W1_keep m outs c main_arg2 (by decide)
theorem W1_main_arg4 (c : Dev nD) : W1 m outs c (no_index (Proc.devRef .tc main_arg4)) = V0 m c (Proc.devRef .tc main_arg4) :=
  W1_keep m outs c main_arg4 (by decide)

/-- The valuation after stretch 0. -/
def W2 (c : Dev nD) : Valuation τ sig (Elt F) := V2 m outs c
theorem W2_step (c : Dev nD) : W2 m outs c = StableHlo.after hostOps1 (W1 m outs c) := rfl
theorem W2_keep (c : Dev nD) (r : Ref sig .tc) (h : r ∉ hostOps1_W) :
    W2 m outs c (Proc.devRef .tc r) = W1 m outs c (Proc.devRef .tc r) := V2_of m outs c r h
theorem W2_main_arg1 (c : Dev nD) : W2 m outs c (no_index (Proc.devRef .tc main_arg1)) = V0 m c (Proc.devRef .tc main_arg1) :=
  (W2_keep m outs c main_arg1 (by decide)).trans (W1_main_arg1 m outs c)
theorem W2_main_arg2 (c : Dev nD) : W2 m outs c (no_index (Proc.devRef .tc main_arg2)) = V0 m c (Proc.devRef .tc main_arg2) :=
  (W2_keep m outs c main_arg2 (by decide)).trans (W1_main_arg2 m outs c)
theorem W2_main_arg4 (c : Dev nD) : W2 m outs c (no_index (Proc.devRef .tc main_arg4)) = V0 m c (Proc.devRef .tc main_arg4) :=
  (W2_keep m outs c main_arg4 (by decide)).trans (W1_main_arg4 m outs c)
set_option maxHeartbeats 4000000 in
theorem W2_main_v16 (c : Dev nD) : W2 m outs c (no_index (Proc.devRef .tc main_v16)) = k_main_v16 (V0 m c (Proc.devRef .tc main_arg0)) (V0 m c (Proc.devRef .tc main_arg1)) (V0 m c (Proc.devRef .tc main_arg2)) (V0 m c (Proc.devRef .tc main_arg3)) (V0 m c (Proc.devRef .tc main_arg4)) := by
  rw [W2_step]
  simp only [hostOps1]
  after_results_simp
  try dsimp only [Matrix.cons_val]
  try after_results_simp
  try simp only [W1_main_arg4, TRef.toBuf, TRef.ofBuf, cast_cast, cast_eq]
  all_goals rfl
set_option maxHeartbeats 4000000 in
theorem W2_main_v20 (c : Dev nD) : W2 m outs c (no_index (Proc.devRef .tc main_v20)) = k_main_v20 (V0 m c (Proc.devRef .tc main_arg0)) (V0 m c (Proc.devRef .tc main_arg1)) (V0 m c (Proc.devRef .tc main_arg2)) (V0 m c (Proc.devRef .tc main_arg3)) (V0 m c (Proc.devRef .tc main_arg4)) := by
  rw [W2_step]
  simp only [hostOps1]
  after_results_simp
  try dsimp only [Matrix.cons_val]
  try after_results_simp
  try simp only [W1_main_arg4, TRef.toBuf, TRef.ofBuf, cast_cast, cast_eq]
  all_goals rfl
set_option maxHeartbeats 4000000 in
theorem W2_main_cst_7 (c : Dev nD) : W2 m outs c (no_index (Proc.devRef .tc main_cst_7)) = k_main_cst_7 (V0 m c (Proc.devRef .tc main_arg0)) (V0 m c (Proc.devRef .tc main_arg1)) (V0 m c (Proc.devRef .tc main_arg2)) (V0 m c (Proc.devRef .tc main_arg3)) (V0 m c (Proc.devRef .tc main_arg4)) := by
  rw [W2_step]
  simp only [hostOps1]
  after_results_simp
  try dsimp only [Matrix.cons_val]
  try after_results_simp
  try simp only [TRef.toBuf, TRef.ofBuf, cast_cast, cast_eq]
  all_goals rfl
set_option maxHeartbeats 4000000 in
theorem W2_main_cst_8 (c : Dev nD) : W2 m outs c (no_index (Proc.devRef .tc main_cst_8)) = k_main_cst_8 (V0 m c (Proc.devRef .tc main_arg0)) (V0 m c (Proc.devRef .tc main_arg1)) (V0 m c (Proc.devRef .tc main_arg2)) (V0 m c (Proc.devRef .tc main_arg3)) (V0 m c (Proc.devRef .tc main_arg4)) := by
  rw [W2_step]
  simp only [hostOps1]
  after_results_simp
  try dsimp only [Matrix.cons_val]
  try after_results_simp
  try simp only [TRef.toBuf, TRef.ofBuf, cast_cast, cast_eq]
  all_goals rfl

/-- The valuation after stretch 1. -/
def W3 (c : Dev nD) : Valuation τ sig (Elt F) := V3 m outs c
theorem W3_step (c : Dev nD) : W3 m outs c = StableHlo.after hostOps1_1 (W2 m outs c) := rfl
theorem W3_keep (c : Dev nD) (r : Ref sig .tc) (h : r ∉ hostOps1_1_W) :
    W3 m outs c (Proc.devRef .tc r) = W2 m outs c (Proc.devRef .tc r) := V3_of m outs c r h
theorem W3_main_arg1 (c : Dev nD) : W3 m outs c (no_index (Proc.devRef .tc main_arg1)) = V0 m c (Proc.devRef .tc main_arg1) :=
  (W3_keep m outs c main_arg1 (by decide)).trans (W2_main_arg1 m outs c)
theorem W3_main_arg2 (c : Dev nD) : W3 m outs c (no_index (Proc.devRef .tc main_arg2)) = V0 m c (Proc.devRef .tc main_arg2) :=
  (W3_keep m outs c main_arg2 (by decide)).trans (W2_main_arg2 m outs c)
theorem W3_main_arg4 (c : Dev nD) : W3 m outs c (no_index (Proc.devRef .tc main_arg4)) = V0 m c (Proc.devRef .tc main_arg4) :=
  (W3_keep m outs c main_arg4 (by decide)).trans (W2_main_arg4 m outs c)
theorem W3_main_v16 (c : Dev nD) : W3 m outs c (no_index (Proc.devRef .tc main_v16)) = k_main_v16 (V0 m c (Proc.devRef .tc main_arg0)) (V0 m c (Proc.devRef .tc main_arg1)) (V0 m c (Proc.devRef .tc main_arg2)) (V0 m c (Proc.devRef .tc main_arg3)) (V0 m c (Proc.devRef .tc main_arg4)) :=
  (W3_keep m outs c main_v16 (by decide)).trans (W2_main_v16 m outs c)
set_option maxHeartbeats 4000000 in
theorem W3_main_v21 (c : Dev nD) : W3 m outs c (no_index (Proc.devRef .tc main_v21)) = k_main_v21 (V0 m c (Proc.devRef .tc main_arg0)) (V0 m c (Proc.devRef .tc main_arg1)) (V0 m c (Proc.devRef .tc main_arg2)) (V0 m c (Proc.devRef .tc main_arg3)) (V0 m c (Proc.devRef .tc main_arg4)) := by
  rw [W3_step]
  simp only [hostOps1_1]
  after_results_simp
  try dsimp only [Matrix.cons_val]
  try after_results_simp
  try simp only [W2_main_cst_8, W2_main_cst_7, W2_main_v20, TRef.toBuf, TRef.ofBuf, cast_cast, cast_eq]
  all_goals rfl

/-- The valuation after stretch 2. -/
def W4 (c : Dev nD) : Valuation τ sig (Elt F) := V4 m outs c
theorem W4_step (c : Dev nD) : W4 m outs c = StableHlo.after hostOps1_2 (W3 m outs c) := rfl
theorem W4_keep (c : Dev nD) (r : Ref sig .tc) (h : r ∉ hostOps1_2_W) :
    W4 m outs c (Proc.devRef .tc r) = W3 m outs c (Proc.devRef .tc r) := V4_of m outs c r h
theorem W4_main_arg1 (c : Dev nD) : W4 m outs c (no_index (Proc.devRef .tc main_arg1)) = V0 m c (Proc.devRef .tc main_arg1) :=
  (W4_keep m outs c main_arg1 (by decide)).trans (W3_main_arg1 m outs c)
theorem W4_main_arg2 (c : Dev nD) : W4 m outs c (no_index (Proc.devRef .tc main_arg2)) = V0 m c (Proc.devRef .tc main_arg2) :=
  (W4_keep m outs c main_arg2 (by decide)).trans (W3_main_arg2 m outs c)
theorem W4_main_arg4 (c : Dev nD) : W4 m outs c (no_index (Proc.devRef .tc main_arg4)) = V0 m c (Proc.devRef .tc main_arg4) :=
  (W4_keep m outs c main_arg4 (by decide)).trans (W3_main_arg4 m outs c)
theorem W4_main_v16 (c : Dev nD) : W4 m outs c (no_index (Proc.devRef .tc main_v16)) = k_main_v16 (V0 m c (Proc.devRef .tc main_arg0)) (V0 m c (Proc.devRef .tc main_arg1)) (V0 m c (Proc.devRef .tc main_arg2)) (V0 m c (Proc.devRef .tc main_arg3)) (V0 m c (Proc.devRef .tc main_arg4)) :=
  (W4_keep m outs c main_v16 (by decide)).trans (W3_main_v16 m outs c)
theorem W4_main_v21 (c : Dev nD) : W4 m outs c (no_index (Proc.devRef .tc main_v21)) = k_main_v21 (V0 m c (Proc.devRef .tc main_arg0)) (V0 m c (Proc.devRef .tc main_arg1)) (V0 m c (Proc.devRef .tc main_arg2)) (V0 m c (Proc.devRef .tc main_arg3)) (V0 m c (Proc.devRef .tc main_arg4)) :=
  (W4_keep m outs c main_v21 (by decide)).trans (W3_main_v21 m outs c)
set_option maxHeartbeats 4000000 in
theorem W4_main_v25 (c : Dev nD) : W4 m outs c (no_index (Proc.devRef .tc main_v25)) = k_main_v25 (V0 m c (Proc.devRef .tc main_arg0)) (V0 m c (Proc.devRef .tc main_arg1)) (V0 m c (Proc.devRef .tc main_arg2)) (V0 m c (Proc.devRef .tc main_arg3)) (V0 m c (Proc.devRef .tc main_arg4)) := by
  rw [W4_step]
  simp only [hostOps1_2]
  after_results_simp
  try dsimp only [Matrix.cons_val]
  try after_results_simp
  try simp only [W3_main_arg4, TRef.toBuf, TRef.ofBuf, cast_cast, cast_eq]
  all_goals rfl
set_option maxHeartbeats 4000000 in
theorem W4_main_cst_10 (c : Dev nD) : W4 m outs c (no_index (Proc.devRef .tc main_cst_10)) = k_main_cst_10 (V0 m c (Proc.devRef .tc main_arg0)) (V0 m c (Proc.devRef .tc main_arg1)) (V0 m c (Proc.devRef .tc main_arg2)) (V0 m c (Proc.devRef .tc main_arg3)) (V0 m c (Proc.devRef .tc main_arg4)) := by
  rw [W4_step]
  simp only [hostOps1_2]
  after_results_simp
  try dsimp only [Matrix.cons_val]
  try after_results_simp
  try simp only [TRef.toBuf, TRef.ofBuf, cast_cast, cast_eq]
  all_goals rfl
set_option maxHeartbeats 4000000 in
theorem W4_main_cst_11 (c : Dev nD) : W4 m outs c (no_index (Proc.devRef .tc main_cst_11)) = k_main_cst_11 (V0 m c (Proc.devRef .tc main_arg0)) (V0 m c (Proc.devRef .tc main_arg1)) (V0 m c (Proc.devRef .tc main_arg2)) (V0 m c (Proc.devRef .tc main_arg3)) (V0 m c (Proc.devRef .tc main_arg4)) := by
  rw [W4_step]
  simp only [hostOps1_2]
  after_results_simp
  try dsimp only [Matrix.cons_val]
  try after_results_simp
  try simp only [TRef.toBuf, TRef.ofBuf, cast_cast, cast_eq]
  all_goals rfl

/-- The valuation after stretch 3. -/
def W5 (c : Dev nD) : Valuation τ sig (Elt F) := V5 m outs c
theorem W5_step (c : Dev nD) : W5 m outs c = StableHlo.after hostOps1_3 (W4 m outs c) := rfl
theorem W5_keep (c : Dev nD) (r : Ref sig .tc) (h : r ∉ hostOps1_3_W) :
    W5 m outs c (Proc.devRef .tc r) = W4 m outs c (Proc.devRef .tc r) := V5_of m outs c r h
theorem W5_main_arg1 (c : Dev nD) : W5 m outs c (no_index (Proc.devRef .tc main_arg1)) = V0 m c (Proc.devRef .tc main_arg1) :=
  (W5_keep m outs c main_arg1 (by decide)).trans (W4_main_arg1 m outs c)
theorem W5_main_arg2 (c : Dev nD) : W5 m outs c (no_index (Proc.devRef .tc main_arg2)) = V0 m c (Proc.devRef .tc main_arg2) :=
  (W5_keep m outs c main_arg2 (by decide)).trans (W4_main_arg2 m outs c)
theorem W5_main_arg4 (c : Dev nD) : W5 m outs c (no_index (Proc.devRef .tc main_arg4)) = V0 m c (Proc.devRef .tc main_arg4) :=
  (W5_keep m outs c main_arg4 (by decide)).trans (W4_main_arg4 m outs c)
theorem W5_main_v16 (c : Dev nD) : W5 m outs c (no_index (Proc.devRef .tc main_v16)) = k_main_v16 (V0 m c (Proc.devRef .tc main_arg0)) (V0 m c (Proc.devRef .tc main_arg1)) (V0 m c (Proc.devRef .tc main_arg2)) (V0 m c (Proc.devRef .tc main_arg3)) (V0 m c (Proc.devRef .tc main_arg4)) :=
  (W5_keep m outs c main_v16 (by decide)).trans (W4_main_v16 m outs c)
theorem W5_main_v21 (c : Dev nD) : W5 m outs c (no_index (Proc.devRef .tc main_v21)) = k_main_v21 (V0 m c (Proc.devRef .tc main_arg0)) (V0 m c (Proc.devRef .tc main_arg1)) (V0 m c (Proc.devRef .tc main_arg2)) (V0 m c (Proc.devRef .tc main_arg3)) (V0 m c (Proc.devRef .tc main_arg4)) :=
  (W5_keep m outs c main_v21 (by decide)).trans (W4_main_v21 m outs c)
set_option maxHeartbeats 4000000 in
theorem W5_main_v26 (c : Dev nD) : W5 m outs c (no_index (Proc.devRef .tc main_v26)) = k_main_v26 (V0 m c (Proc.devRef .tc main_arg0)) (V0 m c (Proc.devRef .tc main_arg1)) (V0 m c (Proc.devRef .tc main_arg2)) (V0 m c (Proc.devRef .tc main_arg3)) (V0 m c (Proc.devRef .tc main_arg4)) := by
  rw [W5_step]
  simp only [hostOps1_3]
  after_results_simp
  try dsimp only [Matrix.cons_val]
  try after_results_simp
  try simp only [W4_main_cst_11, W4_main_cst_10, W4_main_v25, TRef.toBuf, TRef.ofBuf, cast_cast, cast_eq]
  all_goals rfl

/-- The valuation after stretch 4. -/
def W6 (c : Dev nD) : Valuation τ sig (Elt F) := V6 m outs c
theorem W6_step (c : Dev nD) : W6 m outs c = StableHlo.after hostOps1_4 (W5 m outs c) := rfl
theorem W6_keep (c : Dev nD) (r : Ref sig .tc) (h : r ∉ hostOps1_4_W) :
    W6 m outs c (Proc.devRef .tc r) = W5 m outs c (Proc.devRef .tc r) := V6_of m outs c r h
theorem W6_main_arg1 (c : Dev nD) : W6 m outs c (no_index (Proc.devRef .tc main_arg1)) = V0 m c (Proc.devRef .tc main_arg1) :=
  (W6_keep m outs c main_arg1 (by decide)).trans (W5_main_arg1 m outs c)
theorem W6_main_arg2 (c : Dev nD) : W6 m outs c (no_index (Proc.devRef .tc main_arg2)) = V0 m c (Proc.devRef .tc main_arg2) :=
  (W6_keep m outs c main_arg2 (by decide)).trans (W5_main_arg2 m outs c)
theorem W6_main_v16 (c : Dev nD) : W6 m outs c (no_index (Proc.devRef .tc main_v16)) = k_main_v16 (V0 m c (Proc.devRef .tc main_arg0)) (V0 m c (Proc.devRef .tc main_arg1)) (V0 m c (Proc.devRef .tc main_arg2)) (V0 m c (Proc.devRef .tc main_arg3)) (V0 m c (Proc.devRef .tc main_arg4)) :=
  (W6_keep m outs c main_v16 (by decide)).trans (W5_main_v16 m outs c)
theorem W6_main_v21 (c : Dev nD) : W6 m outs c (no_index (Proc.devRef .tc main_v21)) = k_main_v21 (V0 m c (Proc.devRef .tc main_arg0)) (V0 m c (Proc.devRef .tc main_arg1)) (V0 m c (Proc.devRef .tc main_arg2)) (V0 m c (Proc.devRef .tc main_arg3)) (V0 m c (Proc.devRef .tc main_arg4)) :=
  (W6_keep m outs c main_v21 (by decide)).trans (W5_main_v21 m outs c)
theorem W6_main_v26 (c : Dev nD) : W6 m outs c (no_index (Proc.devRef .tc main_v26)) = k_main_v26 (V0 m c (Proc.devRef .tc main_arg0)) (V0 m c (Proc.devRef .tc main_arg1)) (V0 m c (Proc.devRef .tc main_arg2)) (V0 m c (Proc.devRef .tc main_arg3)) (V0 m c (Proc.devRef .tc main_arg4)) :=
  (W6_keep m outs c main_v26 (by decide)).trans (W5_main_v26 m outs c)
set_option maxHeartbeats 4000000 in
theorem W6_main_v35 (c : Dev nD) : W6 m outs c (no_index (Proc.devRef .tc main_v35)) = k_main_v35 (V0 m c (Proc.devRef .tc main_arg0)) (V0 m c (Proc.devRef .tc main_arg1)) (V0 m c (Proc.devRef .tc main_arg2)) (V0 m c (Proc.devRef .tc main_arg3)) (V0 m c (Proc.devRef .tc main_arg4)) := by
  rw [W6_step]
  simp only [hostOps1_4]
  after_results_simp
  try dsimp only [Matrix.cons_val]
  try after_results_simp
  try simp only [W5_main_v21, W5_main_arg4, TRef.toBuf, TRef.ofBuf, cast_cast, cast_eq]
  all_goals rfl
set_option maxHeartbeats 4000000 in
theorem W6_main_v44 (c : Dev nD) : W6 m outs c (no_index (Proc.devRef .tc main_v44)) = k_main_v44 (V0 m c (Proc.devRef .tc main_arg0)) (V0 m c (Proc.devRef .tc main_arg1)) (V0 m c (Proc.devRef .tc main_arg2)) (V0 m c (Proc.devRef .tc main_arg3)) (V0 m c (Proc.devRef .tc main_arg4)) := by
  rw [W6_step]
  simp only [hostOps1_4]
  after_results_simp
  try dsimp only [Matrix.cons_val]
  try after_results_simp
  try simp only [W5_main_v26, W5_main_arg4, TRef.toBuf, TRef.ofBuf, cast_cast, cast_eq]
  all_goals rfl
set_option maxHeartbeats 4000000 in
theorem W6_main_v47 (c : Dev nD) : W6 m outs c (no_index (Proc.devRef .tc main_v47)) = k_main_v47 (V0 m c (Proc.devRef .tc main_arg0)) (V0 m c (Proc.devRef .tc main_arg1)) (V0 m c (Proc.devRef .tc main_arg2)) (V0 m c (Proc.devRef .tc main_arg3)) (V0 m c (Proc.devRef .tc main_arg4)) := by
  rw [W6_step]
  simp only [hostOps1_4]
  after_results_simp
  try dsimp only [Matrix.cons_val]
  try after_results_simp
  try simp only [W5_main_v21, TRef.toBuf, TRef.ofBuf, cast_cast, cast_eq]
  all_goals rfl
set_option maxHeartbeats 4000000 in
theorem W6_main_c (c : Dev nD) : W6 m outs c (no_index (Proc.devRef .tc main_c)) = k_main_c (V0 m c (Proc.devRef .tc main_arg0)) (V0 m c (Proc.devRef .tc main_arg1)) (V0 m c (Proc.devRef .tc main_arg2)) (V0 m c (Proc.devRef .tc main_arg3)) (V0 m c (Proc.devRef .tc main_arg4)) := by
  rw [W6_step]
  simp only [hostOps1_4]
  after_results_simp
  try dsimp only [Matrix.cons_val]
  try after_results_simp
  try simp only [TRef.toBuf, TRef.ofBuf, cast_cast, cast_eq]
  all_goals rfl
set_option maxHeartbeats 4000000 in
theorem W6_main_c_19 (c : Dev nD) : W6 m outs c (no_index (Proc.devRef .tc main_c_19)) = k_main_c_19 (V0 m c (Proc.devRef .tc main_arg0)) (V0 m c (Proc.devRef .tc main_arg1)) (V0 m c (Proc.devRef .tc main_arg2)) (V0 m c (Proc.devRef .tc main_arg3)) (V0 m c (Proc.devRef .tc main_arg4)) := by
  rw [W6_step]
  simp only [hostOps1_4]
  after_results_simp
  try dsimp only [Matrix.cons_val]
  try after_results_simp
  try simp only [TRef.toBuf, TRef.ofBuf, cast_cast, cast_eq]
  all_goals rfl

end Cert.KernelIdeal.Read

end
-- ==== Proof.KernelRead2.lean ====
import proofs.«167267_j69861938037475_1_alg».proof.Proof.KernelRead1

set_option maxRecDepth 16384

noncomputable section

namespace Cert.KernelIdeal.Read

open Cert.KernelIdeal Cert.KernelIdeal.Gen
open Idealize.ShloMosaic Idealize.ShloMosaic.TcCoe Idealize.SL.Sem Idealize.ShloMosaic.StableHlo

variable {F : FTy → Type} [FloatOps F]
variable (m : (ℓ : Loc nD τ sig) → Buf (Elt F) ℓ) (outs : Outs (F := F))

/-- The valuation after stretch 5. -/
def W7 (c : Dev nD) : Valuation τ sig (Elt F) := V7 m outs c
theorem W7_step (c : Dev nD) : W7 m outs c = StableHlo.after hostOps1_5 (W6 m outs c) := rfl
theorem W7_keep (c : Dev nD) (r : Ref sig .tc) (h : r ∉ hostOps1_5_W) :
    W7 m outs c (Proc.devRef .tc r) = W6 m outs c (Proc.devRef .tc r) := V7_of m outs c r h
theorem W7_main_arg1 (c : Dev nD) : W7 m outs c (no_index (Proc.devRef .tc main_arg1)) = V0 m c (Proc.devRef .tc main_arg1) :=
  (W7_keep m outs c main_arg1 (by decide)).trans (W6_main_arg1 m outs c)
theorem W7_main_arg2 (c : Dev nD) : W7 m outs c (no_index (Proc.devRef .tc main_arg2)) = V0 m c (Proc.devRef .tc main_arg2) :=
  (W7_keep m outs c main_arg2 (by decide)).trans (W6_main_arg2 m outs c)
theorem W7_main_v16 (c : Dev nD) : W7 m outs c (no_index (Proc.devRef .tc main_v16)) = k_main_v16 (V0 m c (Proc.devRef .tc main_arg0)) (V0 m c (Proc.devRef .tc main_arg1)) (V0 m c (Proc.devRef .tc main_arg2)) (V0 m c (Proc.devRef .tc main_arg3)) (V0 m c (Proc.devRef .tc main_arg4)) :=
  (W7_keep m outs c main_v16 (by decide)).trans (W6_main_v16 m outs c)
theorem W7_main_v21 (c : Dev nD) : W7 m outs c (no_index (Proc.devRef .tc main_v21)) = k_main_v21 (V0 m c (Proc.devRef .tc main_arg0)) (V0 m c (Proc.devRef .tc main_arg1)) (V0 m c (Proc.devRef .tc main_arg2)) (V0 m c (Proc.devRef .tc main_arg3)) (V0 m c (Proc.devRef .tc main_arg4)) :=
  (W7_keep m outs c main_v21 (by decide)).trans (W6_main_v21 m outs c)
theorem W7_main_v26 (c : Dev nD) : W7 m outs c (no_index (Proc.devRef .tc main_v26)) = k_main_v26 (V0 m c (Proc.devRef .tc main_arg0)) (V0 m c (Proc.devRef .tc main_arg1)) (V0 m c (Proc.devRef .tc main_arg2)) (V0 m c (Proc.devRef .tc main_arg3)) (V0 m c (Proc.devRef .tc main_arg4)) :=
  (W7_keep m outs c main_v26 (by decide)).trans (W6_main_v26 m outs c)
theorem W7_main_v35 (c : Dev nD) : W7 m outs c (no_index (Proc.devRef .tc main_v35)) = k_main_v35 (V0 m c (Proc.devRef .tc main_arg0)) (V0 m c (Proc.devRef .tc main_arg1)) (V0 m c (Proc.devRef .tc main_arg2)) (V0 m c (Proc.devRef .tc main_arg3)) (V0 m c (Proc.devRef .tc main_arg4)) :=
  (W7_keep m outs c main_v35 (by decide)).trans (W6_main_v35 m outs c)
theorem W7_main_v44 (c : Dev nD) : W7 m outs c (no_index (Proc.devRef .tc main_v44)) = k_main_v44 (V0 m c (Proc.devRef .tc main_arg0)) (V0 m c (Proc.devRef .tc main_arg1)) (V0 m c (Proc.devRef .tc main_arg2)) (V0 m c (Proc.devRef .tc main_arg3)) (V0 m c (Proc.devRef .tc main_arg4)) :=
  (W7_keep m outs c main_v44 (by decide)).trans (W6_main_v44 m outs c)
set_option maxHeartbeats 4000000 in
theorem W7_main_v48 (c : Dev nD) : W7 m outs c (no_index (Proc.devRef .tc main_v48)) = k_main_v48 (V0 m c (Proc.devRef .tc main_arg0)) (V0 m c (Proc.devRef .tc main_arg1)) (V0 m c (Proc.devRef .tc main_arg2)) (V0 m c (Proc.devRef .tc main_arg3)) (V0 m c (Proc.devRef .tc main_arg4)) := by
  rw [W7_step]
  simp only [hostOps1_5]
  after_results_simp
  try dsimp only [Matrix.cons_val]
  try after_results_simp
  try simp only [W6_main_c_19, W6_main_c, W6_main_v47, TRef.toBuf, TRef.ofBuf, cast_cast, cast_eq]
  all_goals rfl

/-- The valuation after stretch 6. -/
def W8 (c : Dev nD) : Valuation τ sig (Elt F) := V8 m outs c
theorem W8_step (c : Dev nD) : W8 m outs c = StableHlo.after hostOps1_6 (W7 m outs c) := rfl
theorem W8_keep (c : Dev nD) (r : Ref sig .tc) (h : r ∉ hostOps1_6_W) :
    W8 m outs c (Proc.devRef .tc r) = W7 m outs c (Proc.devRef .tc r) := V8_of m outs c r h
theorem W8_main_arg1 (c : Dev nD) : W8 m outs c (no_index (Proc.devRef .tc main_arg1)) = V0 m c (Proc.devRef .tc main_arg1) :=
  (W8_keep m outs c main_arg1 (by decide)).trans (W7_main_arg1 m outs c)
theorem W8_main_arg2 (c : Dev nD) : W8 m outs c (no_index (Proc.devRef .tc main_arg2)) = V0 m c (Proc.devRef .tc main_arg2) :=
  (W8_keep m outs c main_arg2 (by decide)).trans (W7_main_arg2 m outs c)
theorem W8_main_v16 (c : Dev nD) : W8 m outs c (no_index (Proc.devRef .tc main_v16)) = k_main_v16 (V0 m c (Proc.devRef .tc main_arg0)) (V0 m c (Proc.devRef .tc main_arg1)) (V0 m c (Proc.devRef .tc main_arg2)) (V0 m c (Proc.devRef .tc main_arg3)) (V0 m c (Proc.devRef .tc main_arg4)) :=
  (W8_keep m outs c main_v16 (by decide)).trans (W7_main_v16 m outs c)
theorem W8_main_v21 (c : Dev nD) : W8 m outs c (no_index (Proc.devRef .tc main_v21)) = k_main_v21 (V0 m c (Proc.devRef .tc main_arg0)) (V0 m c (Proc.devRef .tc main_arg1)) (V0 m c (Proc.devRef .tc main_arg2)) (V0 m c (Proc.devRef .tc main_arg3)) (V0 m c (Proc.devRef .tc main_arg4)) :=
  (W8_keep m outs c main_v21 (by decide)).trans (W7_main_v21 m outs c)
theorem W8_main_v26 (c : Dev nD) : W8 m outs c (no_index (Proc.devRef .tc main_v26)) = k_main_v26 (V0 m c (Proc.devRef .tc main_arg0)) (V0 m c (Proc.devRef .tc main_arg1)) (V0 m c (Proc.devRef .tc main_arg2)) (V0 m c (Proc.devRef .tc main_arg3)) (V0 m c (Proc.devRef .tc main_arg4)) :=
  (W8_keep m outs c main_v26 (by decide)).trans (W7_main_v26 m outs c)
theorem W8_main_v35 (c : Dev nD) : W8 m outs c (no_index (Proc.devRef .tc main_v35)) = k_main_v35 (V0 m c (Proc.devRef .tc main_arg0)) (V0 m c (Proc.devRef .tc main_arg1)) (V0 m c (Proc.devRef .tc main_arg2)) (V0 m c (Proc.devRef .tc main_arg3)) (V0 m c (Proc.devRef .tc main_arg4)) :=
  (W8_keep m outs c main_v35 (by decide)).trans (W7_main_v35 m outs c)
theorem W8_main_v44 (c : Dev nD) : W8 m outs c (no_index (Proc.devRef .tc main_v44)) = k_main_v44 (V0 m c (Proc.devRef .tc main_arg0)) (V0 m c (Proc.devRef .tc main_arg1)) (V0 m c (Proc.devRef .tc main_arg2)) (V0 m c (Proc.devRef .tc main_arg3)) (V0 m c (Proc.devRef .tc main_arg4)) :=
  (W8_keep m outs c main_v44 (by decide)).trans (W7_main_v44 m outs c)
theorem W8_main_v48 (c : Dev nD) : W8 m outs c (no_index (Proc.devRef .tc main_v48)) = k_main_v48 (V0 m c (Proc.devRef .tc main_arg0)) (V0 m c (Proc.devRef .tc main_arg1)) (V0 m c (Proc.devRef .tc main_arg2)) (V0 m c (Proc.devRef .tc main_arg3)) (V0 m c (Proc.devRef .tc main_arg4)) :=
  (W8_keep m outs c main_v48 (by decide)).trans (W7_main_v48 m outs c)
set_option maxHeartbeats 4000000 in
theorem W8_main_v51 (c : Dev nD) : W8 m outs c (no_index (Proc.devRef .tc main_v51)) = k_main_v51 (V0 m c (Proc.devRef .tc main_arg0)) (V0 m c (Proc.devRef .tc main_arg1)) (V0 m c (Proc.devRef .tc main_arg2)) (V0 m c (Proc.devRef .tc main_arg3)) (V0 m c (Proc.devRef .tc main_arg4)) := by
  rw [W8_step]
  simp only [hostOps1_6]
  after_results_simp
  try dsimp only [Matrix.cons_val]
  try after_results_simp
  try simp only [W7_main_v26, TRef.toBuf, TRef.ofBuf, cast_cast, cast_eq]
  all_goals rfl
set_option maxHeartbeats 4000000 in
theorem W8_main_c_21 (c : Dev nD) : W8 m outs c (no_index (Proc.devRef .tc main_c_21)) = k_main_c_21 (V0 m c (Proc.devRef .tc main_arg0)) (V0 m c (Proc.devRef .tc main_arg1)) (V0 m c (Proc.devRef .tc main_arg2)) (V0 m c (Proc.devRef .tc main_arg3)) (V0 m c (Proc.devRef .tc main_arg4)) := by
  rw [W8_step]
  simp only [hostOps1_6]
  after_results_simp
  try dsimp only [Matrix.cons_val]
  try after_results_simp
  try simp only [TRef.toBuf, TRef.ofBuf, cast_cast, cast_eq]
  all_goals rfl
set_option maxHeartbeats 4000000 in
theorem W8_main_c_22 (c : Dev nD) : W8 m outs c (no_index (Proc.devRef .tc main_c_22)) = k_main_c_22 (V0 m c (Proc.devRef .tc main_arg0)) (V0 m c (Proc.devRef .tc main_arg1)) (V0 m c (Proc.devRef .tc main_arg2)) (V0 m c (Proc.devRef .tc main_arg3)) (V0 m c (Proc.devRef .tc main_arg4)) := by
  rw [W8_step]
  simp only [hostOps1_6]
  after_results_simp
  try dsimp only [Matrix.cons_val]
  try after_results_simp
  try simp only [TRef.toBuf, TRef.ofBuf, cast_cast, cast_eq]
  all_goals rfl

/-- The valuation after stretch 7. -/
def W9 (c : Dev nD) : Valuation τ sig (Elt F) := V9 m outs c
theorem W9_step (c : Dev nD) : W9 m outs c = StableHlo.after hostOps1_7 (W8 m outs c) := rfl
theorem W9_keep (c : Dev nD) (r : Ref sig .tc) (h : r ∉ hostOps1_7_W) :
    W9 m outs c (Proc.devRef .tc r) = W8 m outs c (Proc.devRef .tc r) := V9_of m outs c r h
theorem W9_main_arg1 (c : Dev nD) : W9 m outs c (no_index (Proc.devRef .tc main_arg1)) = V0 m c (Proc.devRef .tc main_arg1) :=
  (W9_keep m outs c main_arg1 (by decide)).trans (W8_main_arg1 m outs c)
theorem W9_main_arg2 (c : Dev nD) : W9 m outs c (no_index (Proc.devRef .tc main_arg2)) = V0 m c (Proc.devRef .tc main_arg2) :=
  (W9_keep m outs c main_arg2 (by decide)).trans (W8_main_arg2 m outs c)
theorem W9_main_v16 (c : Dev nD) : W9 m outs c (no_index (Proc.devRef .tc main_v16)) = k_main_v16 (V0 m c (Proc.devRef .tc main_arg0)) (V0 m c (Proc.devRef .tc main_arg1)) (V0 m c (Proc.devRef .tc main_arg2)) (V0 m c (Proc.devRef .tc main_arg3)) (V0 m c (Proc.devRef .tc main_arg4)) :=
  (W9_keep m outs c main_v16 (by decide)).trans (W8_main_v16 m outs c)
theorem W9_main_v21 (c : Dev nD) : W9 m outs c (no_index (Proc.devRef .tc main_v21)) = k_main_v21 (V0 m c (Proc.devRef .tc main_arg0)) (V0 m c (Proc.devRef .tc main_arg1)) (V0 m c (Proc.devRef .tc main_arg2)) (V0 m c (Proc.devRef .tc main_arg3)) (V0 m c (Proc.devRef .tc main_arg4)) :=
  (W9_keep m outs c main_v21 (by decide)).trans (W8_main_v21 m outs c)
theorem W9_main_v26 (c : Dev nD) : W9 m outs c (no_index (Proc.devRef .tc main_v26)) = k_main_v26 (V0 m c (Proc.devRef .tc main_arg0)) (V0 m c (Proc.devRef .tc main_arg1)) (V0 m c (Proc.devRef .tc main_arg2)) (V0 m c (Proc.devRef .tc main_arg3)) (V0 m c (Proc.devRef .tc main_arg4)) :=
  (W9_keep m outs c main_v26 (by decide)).trans (W8_main_v26 m outs c)
theorem W9_main_v35 (c : Dev nD) : W9 m outs c (no_index (Proc.devRef .tc main_v35)) = k_main_v35 (V0 m c (Proc.devRef .tc main_arg0)) (V0 m c (Proc.devRef .tc main_arg1)) (V0 m c (Proc.devRef .tc main_arg2)) (V0 m c (Proc.devRef .tc main_arg3)) (V0 m c (Proc.devRef .tc main_arg4)) :=
  (W9_keep m outs c main_v35 (by decide)).trans (W8_main_v35 m outs c)
theorem W9_main_v44 (c : Dev nD) : W9 m outs c (no_index (Proc.devRef .tc main_v44)) = k_main_v44 (V0 m c (Proc.devRef .tc main_arg0)) (V0 m c (Proc.devRef .tc main_arg1)) (V0 m c (Proc.devRef .tc main_arg2)) (V0 m c (Proc.devRef .tc main_arg3)) (V0 m c (Proc.devRef .tc main_arg4)) :=
  (W9_keep m outs c main_v44 (by decide)).trans (W8_main_v44 m outs c)
theorem W9_main_v48 (c : Dev nD) : W9 m outs c (no_index (Proc.devRef .tc main_v48)) = k_main_v48 (V0 m c (Proc.devRef .tc main_arg0)) (V0 m c (Proc.devRef .tc main_arg1)) (V0 m c (Proc.devRef .tc main_arg2)) (V0 m c (Proc.devRef .tc main_arg3)) (V0 m c (Proc.devRef .tc main_arg4)) :=
  (W9_keep m outs c main_v48 (by decide)).trans (W8_main_v48 m outs c)
set_option maxHeartbeats 4000000 in
theorem W9_main_v52 (c : Dev nD) : W9 m outs c (no_index (Proc.devRef .tc main_v52)) = k_main_v52 (V0 m c (Proc.devRef .tc main_arg0)) (V0 m c (Proc.devRef .tc main_arg1)) (V0 m c (Proc.devRef .tc main_arg2)) (V0 m c (Proc.devRef .tc main_arg3)) (V0 m c (Proc.devRef .tc main_arg4)) := by
  rw [W9_step]
  simp only [hostOps1_7]
  after_results_simp
  try dsimp only [Matrix.cons_val]
  try after_results_simp
  try simp only [W8_main_c_22, W8_main_c_21, W8_main_v51, TRef.toBuf, TRef.ofBuf, cast_cast, cast_eq]
  all_goals rfl

/-- The valuation after stretch 8. -/
def W10 (c : Dev nD) : Valuation τ sig (Elt F) := V10 m outs c
theorem W10_step (c : Dev nD) : W10 m outs c = StableHlo.after hostOps1_8 (W9 m outs c) := rfl
theorem W10_keep (c : Dev nD) (r : Ref sig .tc) (h : r ∉ hostOps1_8_W) :
    W10 m outs c (Proc.devRef .tc r) = W9 m outs c (Proc.devRef .tc r) := V10_of m outs c r h
theorem W10_main_arg1 (c : Dev nD) : W10 m outs c (no_index (Proc.devRef .tc main_arg1)) = V0 m c (Proc.devRef .tc main_arg1) :=
  (W10_keep m outs c main_arg1 (by decide)).trans (W9_main_arg1 m outs c)
theorem W10_main_arg2 (c : Dev nD) : W10 m outs c (no_index (Proc.devRef .tc main_arg2)) = V0 m c (Proc.devRef .tc main_arg2) :=
  (W10_keep m outs c main_arg2 (by decide)).trans (W9_main_arg2 m outs c)
theorem W10_main_v16 (c : Dev nD) : W10 m outs c (no_index (Proc.devRef .tc main_v16)) = k_main_v16 (V0 m c (Proc.devRef .tc main_arg0)) (V0 m c (Proc.devRef .tc main_arg1)) (V0 m c (Proc.devRef .tc main_arg2)) (V0 m c (Proc.devRef .tc main_arg3)) (V0 m c (Proc.devRef .tc main_arg4)) :=
  (W10_keep m outs c main_v16 (by decide)).trans (W9_main_v16 m outs c)
theorem W10_main_v21 (c : Dev nD) : W10 m outs c (no_index (Proc.devRef .tc main_v21)) = k_main_v21 (V0 m c (Proc.devRef .tc main_arg0)) (V0 m c (Proc.devRef .tc main_arg1)) (V0 m c (Proc.devRef .tc main_arg2)) (V0 m c (Proc.devRef .tc main_arg3)) (V0 m c (Proc.devRef .tc main_arg4)) :=
  (W10_keep m outs c main_v21 (by decide)).trans (W9_main_v21 m outs c)
theorem W10_main_v26 (c : Dev nD) : W10 m outs c (no_index (Proc.devRef .tc main_v26)) = k_main_v26 (V0 m c (Proc.devRef .tc main_arg0)) (V0 m c (Proc.devRef .tc main_arg1)) (V0 m c (Proc.devRef .tc main_arg2)) (V0 m c (Proc.devRef .tc main_arg3)) (V0 m c (Proc.devRef .tc main_arg4)) :=
  (W10_keep m outs c main_v26 (by decide)).trans (W9_main_v26 m outs c)
theorem W10_main_v35 (c : Dev nD) : W10 m outs c (no_index (Proc.devRef .tc main_v35)) = k_main_v35 (V0 m c (Proc.devRef .tc main_arg0)) (V0 m c (Proc.devRef .tc main_arg1)) (V0 m c (Proc.devRef .tc main_arg2)) (V0 m c (Proc.devRef .tc main_arg3)) (V0 m c (Proc.devRef .tc main_arg4)) :=
  (W10_keep m outs c main_v35 (by decide)).trans (W9_main_v35 m outs c)
theorem W10_main_v44 (c : Dev nD) : W10 m outs c (no_index (Proc.devRef .tc main_v44)) = k_main_v44 (V0 m c (Proc.devRef .tc main_arg0)) (V0 m c (Proc.devRef .tc main_arg1)) (V0 m c (Proc.devRef .tc main_arg2)) (V0 m c (Proc.devRef .tc main_arg3)) (V0 m c (Proc.devRef .tc main_arg4)) :=
  (W10_keep m outs c main_v44 (by decide)).trans (W9_main_v44 m outs c)
theorem W10_main_v48 (c : Dev nD) : W10 m outs c (no_index (Proc.devRef .tc main_v48)) = k_main_v48 (V0 m c (Proc.devRef .tc main_arg0)) (V0 m c (Proc.devRef .tc main_arg1)) (V0 m c (Proc.devRef .tc main_arg2)) (V0 m c (Proc.devRef .tc main_arg3)) (V0 m c (Proc.devRef .tc main_arg4)) :=
  (W10_keep m outs c main_v48 (by decide)).trans (W9_main_v48 m outs c)
theorem W10_main_v52 (c : Dev nD) : W10 m outs c (no_index (Proc.devRef .tc main_v52)) = k_main_v52 (V0 m c (Proc.devRef .tc main_arg0)) (V0 m c (Proc.devRef .tc main_arg1)) (V0 m c (Proc.devRef .tc main_arg2)) (V0 m c (Proc.devRef .tc main_arg3)) (V0 m c (Proc.devRef .tc main_arg4)) :=
  (W10_keep m outs c main_v52 (by decide)).trans (W9_main_v52 m outs c)
set_option maxHeartbeats 4000000 in
theorem W10_main_v60 (c : Dev nD) : W10 m outs c (no_index (Proc.devRef .tc main_v60)) = k_main_v60 (V0 m c (Proc.devRef .tc main_arg0)) (V0 m c (Proc.devRef .tc main_arg1)) (V0 m c (Proc.devRef .tc main_arg2)) (V0 m c (Proc.devRef .tc main_arg3)) (V0 m c (Proc.devRef .tc main_arg4)) := by
  rw [W10_step]
  simp only [hostOps1_8]
  after_results_simp
  try dsimp only [Matrix.cons_val]
  try after_results_simp
  try simp only [W9_main_v48, W9_main_v35, TRef.toBuf, TRef.ofBuf, cast_cast, cast_eq]
  all_goals rfl
set_option maxHeartbeats 4000000 in
theorem W10_main_v68 (c : Dev nD) : W10 m outs c (no_index (Proc.devRef .tc main_v68)) = k_main_v68 (V0 m c (Proc.devRef .tc main_arg0)) (V0 m c (Proc.devRef .tc main_arg1)) (V0 m c (Proc.devRef .tc main_arg2)) (V0 m c (Proc.devRef .tc main_arg3)) (V0 m c (Proc.devRef .tc main_arg4)) := by
  rw [W10_step]
  simp only [hostOps1_8]
  after_results_simp
  try dsimp only [Matrix.cons_val]
  try after_results_simp
  try simp only [W9_main_v52, W9_main_v44, TRef.toBuf, TRef.ofBuf, cast_cast, cast_eq]
  all_goals rfl
set_option maxHeartbeats 4000000 in
theorem W10_main_v69 (c : Dev nD) : W10 m outs c (no_index (Proc.devRef .tc main_v69)) = k_main_v69 (V0 m c (Proc.devRef .tc main_arg0)) (V0 m c (Proc.devRef .tc main_arg1)) (V0 m c (Proc.devRef .tc main_arg2)) (V0 m c (Proc.devRef .tc main_arg3)) (V0 m c (Proc.devRef .tc main_arg4)) := by
  rw [W10_step]
  simp only [hostOps1_8]
  after_results_simp
  try dsimp only [Matrix.cons_val]
  try after_results_simp
  try simp only [W9_main_v52, W9_main_v44, TRef.toBuf, TRef.ofBuf, cast_cast, cast_eq]
  all_goals rfl
set_option maxHeartbeats 4000000 in
theorem W10_main_c_29 (c : Dev nD) : W10 m outs c (no_index (Proc.devRef .tc main_c_29)) = k_main_c_29 (V0 m c (Proc.devRef .tc main_arg0)) (V0 m c (Proc.devRef .tc main_arg1)) (V0 m c (Proc.devRef .tc main_arg2)) (V0 m c (Proc.devRef .tc main_arg3)) (V0 m c (Proc.devRef .tc main_arg4)) := by
  rw [W10_step]
  simp only [hostOps1_8]
  after_results_simp
  try dsimp only [Matrix.cons_val]
  try after_results_simp
  try simp only [TRef.toBuf, TRef.ofBuf, cast_cast, cast_eq]
  all_goals rfl

end Cert.KernelIdeal.Read

end
-- ==== Proof.KernelRead3.lean ====
import proofs.«167267_j69861938037475_1_alg».proof.Proof.KernelRead2

set_option maxRecDepth 16384

noncomputable section

namespace Cert.KernelIdeal.Read

open Cert.KernelIdeal Cert.KernelIdeal.Gen
open Idealize.ShloMosaic Idealize.ShloMosaic.TcCoe Idealize.SL.Sem Idealize.ShloMosaic.StableHlo

variable {F : FTy → Type} [FloatOps F]
variable (m : (ℓ : Loc nD τ sig) → Buf (Elt F) ℓ) (outs : Outs (F := F))

/-- The valuation after stretch 9. -/
def W11 (c : Dev nD) : Valuation τ sig (Elt F) := V11 m outs c
theorem W11_step (c : Dev nD) : W11 m outs c = StableHlo.after hostOps1_9 (W10 m outs c) := rfl
theorem W11_keep (c : Dev nD) (r : Ref sig .tc) (h : r ∉ hostOps1_9_W) :
    W11 m outs c (Proc.devRef .tc r) = W10 m outs c (Proc.devRef .tc r) := V11_of m outs c r h
theorem W11_main_arg1 (c : Dev nD) : W11 m outs c (no_index (Proc.devRef .tc main_arg1)) = V0 m c (Proc.devRef .tc main_arg1) :=
  (W11_keep m outs c main_arg1 (by decide)).trans (W10_main_arg1 m outs c)
theorem W11_main_arg2 (c : Dev nD) : W11 m outs c (no_index (Proc.devRef .tc main_arg2)) = V0 m c (Proc.devRef .tc main_arg2) :=
  (W11_keep m outs c main_arg2 (by decide)).trans (W10_main_arg2 m outs c)
theorem W11_main_v16 (c : Dev nD) : W11 m outs c (no_index (Proc.devRef .tc main_v16)) = k_main_v16 (V0 m c (Proc.devRef .tc main_arg0)) (V0 m c (Proc.devRef .tc main_arg1)) (V0 m c (Proc.devRef .tc main_arg2)) (V0 m c (Proc.devRef .tc main_arg3)) (V0 m c (Proc.devRef .tc main_arg4)) :=
  (W11_keep m outs c main_v16 (by decide)).trans (W10_main_v16 m outs c)
theorem W11_main_v21 (c : Dev nD) : W11 m outs c (no_index (Proc.devRef .tc main_v21)) = k_main_v21 (V0 m c (Proc.devRef .tc main_arg0)) (V0 m c (Proc.devRef .tc main_arg1)) (V0 m c (Proc.devRef .tc main_arg2)) (V0 m c (Proc.devRef .tc main_arg3)) (V0 m c (Proc.devRef .tc main_arg4)) :=
  (W11_keep m outs c main_v21 (by decide)).trans (W10_main_v21 m outs c)
theorem W11_main_v26 (c : Dev nD) : W11 m outs c (no_index (Proc.devRef .tc main_v26)) = k_main_v26 (V0 m c (Proc.devRef .tc main_arg0)) (V0 m c (Proc.devRef .tc main_arg1)) (V0 m c (Proc.devRef .tc main_arg2)) (V0 m c (Proc.devRef .tc main_arg3)) (V0 m c (Proc.devRef .tc main_arg4)) :=
  (W11_keep m outs c main_v26 (by decide)).trans (W10_main_v26 m outs c)
theorem W11_main_v35 (c : Dev nD) : W11 m outs c (no_index (Proc.devRef .tc main_v35)) = k_main_v35 (V0 m c (Proc.devRef .tc main_arg0)) (V0 m c (Proc.devRef .tc main_arg1)) (V0 m c (Proc.devRef .tc main_arg2)) (V0 m c (Proc.devRef .tc main_arg3)) (V0 m c (Proc.devRef .tc main_arg4)) :=
  (W11_keep m outs c main_v35 (by decide)).trans (W10_main_v35 m outs c)
theorem W11_main_v44 (c : Dev nD) : W11 m outs c (no_index (Proc.devRef .tc main_v44)) = k_main_v44 (V0 m c (Proc.devRef .tc main_arg0)) (V0 m c (Proc.devRef .tc main_arg1)) (V0 m c (Proc.devRef .tc main_arg2)) (V0 m c (Proc.devRef .tc main_arg3)) (V0 m c (Proc.devRef .tc main_arg4)) :=
  (W11_keep m outs c main_v44 (by decide)).trans (W10_main_v44 m outs c)
theorem W11_main_v48 (c : Dev nD) : W11 m outs c (no_index (Proc.devRef .tc main_v48)) = k_main_v48 (V0 m c (Proc.devRef .tc main_arg0)) (V0 m c (Proc.devRef .tc main_arg1)) (V0 m c (Proc.devRef .tc main_arg2)) (V0 m c (Proc.devRef .tc main_arg3)) (V0 m c (Proc.devRef .tc main_arg4)) :=
  (W11_keep m outs c main_v48 (by decide)).trans (W10_main_v48 m outs c)
theorem W11_main_v52 (c : Dev nD) : W11 m outs c (no_index (Proc.devRef .tc main_v52)) = k_main_v52 (V0 m c (Proc.devRef .tc main_arg0)) (V0 m c (Proc.devRef .tc main_arg1)) (V0 m c (Proc.devRef .tc main_arg2)) (V0 m c (Proc.devRef .tc main_arg3)) (V0 m c (Proc.devRef .tc main_arg4)) :=
  (W11_keep m outs c main_v52 (by decide)).trans (W10_main_v52 m outs c)
theorem W11_main_v60 (c : Dev nD) : W11 m outs c (no_index (Proc.devRef .tc main_v60)) = k_main_v60 (V0 m c (Proc.devRef .tc main_arg0)) (V0 m c (Proc.devRef .tc main_arg1)) (V0 m c (Proc.devRef .tc main_arg2)) (V0 m c (Proc.devRef .tc main_arg3)) (V0 m c (Proc.devRef .tc main_arg4)) :=
  (W11_keep m outs c main_v60 (by decide)).trans (W10_main_v60 m outs c)
theorem W11_main_v68 (c : Dev nD) : W11 m outs c (no_index (Proc.devRef .tc main_v68)) = k_main_v68 (V0 m c (Proc.devRef .tc main_arg0)) (V0 m c (Proc.devRef .tc main_arg1)) (V0 m c (Proc.devRef .tc main_arg2)) (V0 m c (Proc.devRef .tc main_arg3)) (V0 m c (Proc.devRef .tc main_arg4)) :=
  (W11_keep m outs c main_v68 (by decide)).trans (W10_main_v68 m outs c)
set_option maxHeartbeats 4000000 in
theorem W11_main_v70 (c : Dev nD) : W11 m outs c (no_index (Proc.devRef .tc main_v70)) = k_main_v70 (V0 m c (Proc.devRef .tc main_arg0)) (V0 m c (Proc.devRef .tc main_arg1)) (V0 m c (Proc.devRef .tc main_arg2)) (V0 m c (Proc.devRef .tc main_arg3)) (V0 m c (Proc.devRef .tc main_arg4)) := by
  rw [W11_step]
  simp only [hostOps1_9]
  after_results_simp
  try dsimp only [Matrix.cons_val]
  try after_results_simp
  try simp only [W10_main_v69, W10_main_c_29, TRef.toBuf, TRef.ofBuf, cast_cast, cast_eq]
  all_goals rfl

/-- The valuation after stretch 10. -/
def W12 (c : Dev nD) : Valuation τ sig (Elt F) := V12 m outs c
theorem W12_step (c : Dev nD) : W12 m outs c = StableHlo.after hostOps1_10 (W11 m outs c) := rfl
theorem W12_keep (c : Dev nD) (r : Ref sig .tc) (h : r ∉ hostOps1_10_W) :
    W12 m outs c (Proc.devRef .tc r) = W11 m outs c (Proc.devRef .tc r) := V12_of m outs c r h
theorem W12_main_arg1 (c : Dev nD) : W12 m outs c (no_index (Proc.devRef .tc main_arg1)) = V0 m c (Proc.devRef .tc main_arg1) :=
  (W12_keep m outs c main_arg1 (by decide)).trans (W11_main_arg1 m outs c)
theorem W12_main_arg2 (c : Dev nD) : W12 m outs c (no_index (Proc.devRef .tc main_arg2)) = V0 m c (Proc.devRef .tc main_arg2) :=
  (W12_keep m outs c main_arg2 (by decide)).trans (W11_main_arg2 m outs c)
theorem W12_main_v16 (c : Dev nD) : W12 m outs c (no_index (Proc.devRef .tc main_v16)) = k_main_v16 (V0 m c (Proc.devRef .tc main_arg0)) (V0 m c (Proc.devRef .tc main_arg1)) (V0 m c (Proc.devRef .tc main_arg2)) (V0 m c (Proc.devRef .tc main_arg3)) (V0 m c (Proc.devRef .tc main_arg4)) :=
  (W12_keep m outs c main_v16 (by decide)).trans (W11_main_v16 m outs c)
theorem W12_main_v21 (c : Dev nD) : W12 m outs c (no_index (Proc.devRef .tc main_v21)) = k_main_v21 (V0 m c (Proc.devRef .tc main_arg0)) (V0 m c (Proc.devRef .tc main_arg1)) (V0 m c (Proc.devRef .tc main_arg2)) (V0 m c (Proc.devRef .tc main_arg3)) (V0 m c (Proc.devRef .tc main_arg4)) :=
  (W12_keep m outs c main_v21 (by decide)).trans (W11_main_v21 m outs c)
theorem W12_main_v26 (c : Dev nD) : W12 m outs c (no_index (Proc.devRef .tc main_v26)) = k_main_v26 (V0 m c (Proc.devRef .tc main_arg0)) (V0 m c (Proc.devRef .tc main_arg1)) (V0 m c (Proc.devRef .tc main_arg2)) (V0 m c (Proc.devRef .tc main_arg3)) (V0 m c (Proc.devRef .tc main_arg4)) :=
  (W12_keep m outs c main_v26 (by decide)).trans (W11_main_v26 m outs c)
theorem W12_main_v35 (c : Dev nD) : W12 m outs c (no_index (Proc.devRef .tc main_v35)) = k_main_v35 (V0 m c (Proc.devRef .tc main_arg0)) (V0 m c (Proc.devRef .tc main_arg1)) (V0 m c (Proc.devRef .tc main_arg2)) (V0 m c (Proc.devRef .tc main_arg3)) (V0 m c (Proc.devRef .tc main_arg4)) :=
  (W12_keep m outs c main_v35 (by decide)).trans (W11_main_v35 m outs c)
theorem W12_main_v44 (c : Dev nD) : W12 m outs c (no_index (Proc.devRef .tc main_v44)) = k_main_v44 (V0 m c (Proc.devRef .tc main_arg0)) (V0 m c (Proc.devRef .tc main_arg1)) (V0 m c (Proc.devRef .tc main_arg2)) (V0 m c (Proc.devRef .tc main_arg3)) (V0 m c (Proc.devRef .tc main_arg4)) :=
  (W12_keep m outs c main_v44 (by decide)).trans (W11_main_v44 m outs c)
theorem W12_main_v48 (c : Dev nD) : W12 m outs c (no_index (Proc.devRef .tc main_v48)) = k_main_v48 (V0 m c (Proc.devRef .tc main_arg0)) (V0 m c (Proc.devRef .tc main_arg1)) (V0 m c (Proc.devRef .tc main_arg2)) (V0 m c (Proc.devRef .tc main_arg3)) (V0 m c (Proc.devRef .tc main_arg4)) :=
  (W12_keep m outs c main_v48 (by decide)).trans (W11_main_v48 m outs c)
theorem W12_main_v52 (c : Dev nD) : W12 m outs c (no_index (Proc.devRef .tc main_v52)) = k_main_v52 (V0 m c (Proc.devRef .tc main_arg0)) (V0 m c (Proc.devRef .tc main_arg1)) (V0 m c (Proc.devRef .tc main_arg2)) (V0 m c (Proc.devRef .tc main_arg3)) (V0 m c (Proc.devRef .tc main_arg4)) :=
  (W12_keep m outs c main_v52 (by decide)).trans (W11_main_v52 m outs c)
theorem W12_main_v60 (c : Dev nD) : W12 m outs c (no_index (Proc.devRef .tc main_v60)) = k_main_v60 (V0 m c (Proc.devRef .tc main_arg0)) (V0 m c (Proc.devRef .tc main_arg1)) (V0 m c (Proc.devRef .tc main_arg2)) (V0 m c (Proc.devRef .tc main_arg3)) (V0 m c (Proc.devRef .tc main_arg4)) :=
  (W12_keep m outs c main_v60 (by decide)).trans (W11_main_v60 m outs c)
theorem W12_main_v68 (c : Dev nD) : W12 m outs c (no_index (Proc.devRef .tc main_v68)) = k_main_v68 (V0 m c (Proc.devRef .tc main_arg0)) (V0 m c (Proc.devRef .tc main_arg1)) (V0 m c (Proc.devRef .tc main_arg2)) (V0 m c (Proc.devRef .tc main_arg3)) (V0 m c (Proc.devRef .tc main_arg4)) :=
  (W12_keep m outs c main_v68 (by decide)).trans (W11_main_v68 m outs c)
theorem W12_main_v70 (c : Dev nD) : W12 m outs c (no_index (Proc.devRef .tc main_v70)) = k_main_v70 (V0 m c (Proc.devRef .tc main_arg0)) (V0 m c (Proc.devRef .tc main_arg1)) (V0 m c (Proc.devRef .tc main_arg2)) (V0 m c (Proc.devRef .tc main_arg3)) (V0 m c (Proc.devRef .tc main_arg4)) :=
  (W12_keep m outs c main_v70 (by decide)).trans (W11_main_v70 m outs c)
set_option maxHeartbeats 4000000 in
theorem W12_main_v71 (c : Dev nD) : W12 m outs c (no_index (Proc.devRef .tc main_v71)) = k_main_v71 (V0 m c (Proc.devRef .tc main_arg0)) (V0 m c (Proc.devRef .tc main_arg1)) (V0 m c (Proc.devRef .tc main_arg2)) (V0 m c (Proc.devRef .tc main_arg3)) (V0 m c (Proc.devRef .tc main_arg4)) := by
  rw [W12_step]
  simp only [hostOps1_10]
  after_results_simp
  try dsimp only [Matrix.cons_val]
  try after_results_simp
  try simp only [W11_main_v48, W11_main_v60, TRef.toBuf, TRef.ofBuf, cast_cast, cast_eq]
  all_goals rfl
set_option maxHeartbeats 4000000 in
theorem W12_main_c_30 (c : Dev nD) : W12 m outs c (no_index (Proc.devRef .tc main_c_30)) = k_main_c_30 (V0 m c (Proc.devRef .tc main_arg0)) (V0 m c (Proc.devRef .tc main_arg1)) (V0 m c (Proc.devRef .tc main_arg2)) (V0 m c (Proc.devRef .tc main_arg3)) (V0 m c (Proc.devRef .tc main_arg4)) := by
  rw [W12_step]
  simp only [hostOps1_10]
  after_results_simp
  try dsimp only [Matrix.cons_val]
  try after_results_simp
  try simp only [TRef.toBuf, TRef.ofBuf, cast_cast, cast_eq]
  all_goals rfl

/-- The valuation after stretch 11. -/
def W13 (c : Dev nD) : Valuation τ sig (Elt F) := V13 m outs c
theorem W13_step (c : Dev nD) : W13 m outs c = StableHlo.after hostOps1_11 (W12 m outs c) := rfl
theorem W13_keep (c : Dev nD) (r : Ref sig .tc) (h : r ∉ hostOps1_11_W) :
    W13 m outs c (Proc.devRef .tc r) = W12 m outs c (Proc.devRef .tc r) := V13_of m outs c r h
theorem W13_main_arg1 (c : Dev nD) : W13 m outs c (no_index (Proc.devRef .tc main_arg1)) = V0 m c (Proc.devRef .tc main_arg1) :=
  (W13_keep m outs c main_arg1 (by decide)).trans (W12_main_arg1 m outs c)
theorem W13_main_arg2 (c : Dev nD) : W13 m outs c (no_index (Proc.devRef .tc main_arg2)) = V0 m c (Proc.devRef .tc main_arg2) :=
  (W13_keep m outs c main_arg2 (by decide)).trans (W12_main_arg2 m outs c)
theorem W13_main_v16 (c : Dev nD) : W13 m outs c (no_index (Proc.devRef .tc main_v16)) = k_main_v16 (V0 m c (Proc.devRef .tc main_arg0)) (V0 m c (Proc.devRef .tc main_arg1)) (V0 m c (Proc.devRef .tc main_arg2)) (V0 m c (Proc.devRef .tc main_arg3)) (V0 m c (Proc.devRef .tc main_arg4)) :=
  (W13_keep m outs c main_v16 (by decide)).trans (W12_main_v16 m outs c)
theorem W13_main_v21 (c : Dev nD) : W13 m outs c (no_index (Proc.devRef .tc main_v21)) = k_main_v21 (V0 m c (Proc.devRef .tc main_arg0)) (V0 m c (Proc.devRef .tc main_arg1)) (V0 m c (Proc.devRef .tc main_arg2)) (V0 m c (Proc.devRef .tc main_arg3)) (V0 m c (Proc.devRef .tc main_arg4)) :=
  (W13_keep m outs c main_v21 (by decide)).trans (W12_main_v21 m outs c)
theorem W13_main_v26 (c : Dev nD) : W13 m outs c (no_index (Proc.devRef .tc main_v26)) = k_main_v26 (V0 m c (Proc.devRef .tc main_arg0)) (V0 m c (Proc.devRef .tc main_arg1)) (V0 m c (Proc.devRef .tc main_arg2)) (V0 m c (Proc.devRef .tc main_arg3)) (V0 m c (Proc.devRef .tc main_arg4)) :=
  (W13_keep m outs c main_v26 (by decide)).trans (W12_main_v26 m outs c)
theorem W13_main_v35 (c : Dev nD) : W13 m outs c (no_index (Proc.devRef .tc main_v35)) = k_main_v35 (V0 m c (Proc.devRef .tc main_arg0)) (V0 m c (Proc.devRef .tc main_arg1)) (V0 m c (Proc.devRef .tc main_arg2)) (V0 m c (Proc.devRef .tc main_arg3)) (V0 m c (Proc.devRef .tc main_arg4)) :=
  (W13_keep m outs c main_v35 (by decide)).trans (W12_main_v35 m outs c)
theorem W13_main_v44 (c : Dev nD) : W13 m outs c (no_index (Proc.devRef .tc main_v44)) = k_main_v44 (V0 m c (Proc.devRef .tc main_arg0)) (V0 m c (Proc.devRef .tc main_arg1)) (V0 m c (Proc.devRef .tc main_arg2)) (V0 m c (Proc.devRef .tc main_arg3)) (V0 m c (Proc.devRef .tc main_arg4)) :=
  (W13_keep m outs c main_v44 (by decide)).trans (W12_main_v44 m outs c)
theorem W13_main_v48 (c : Dev nD) : W13 m outs c (no_index (Proc.devRef .tc main_v48)) = k_main_v48 (V0 m c (Proc.devRef .tc main_arg0)) (V0 m c (Proc.devRef .tc main_arg1)) (V0 m c (Proc.devRef .tc main_arg2)) (V0 m c (Proc.devRef .tc main_arg3)) (V0 m c (Proc.devRef .tc main_arg4)) :=
  (W13_keep m outs c main_v48 (by decide)).trans (W12_main_v48 m outs c)
theorem W13_main_v52 (c : Dev nD) : W13 m outs c (no_index (Proc.devRef .tc main_v52)) = k_main_v52 (V0 m c (Proc.devRef .tc main_arg0)) (V0 m c (Proc.devRef .tc main_arg1)) (V0 m c (Proc.devRef .tc main_arg2)) (V0 m c (Proc.devRef .tc main_arg3)) (V0 m c (Proc.devRef .tc main_arg4)) :=
  (W13_keep m outs c main_v52 (by decide)).trans (W12_main_v52 m outs c)
theorem W13_main_v60 (c : Dev nD) : W13 m outs c (no_index (Proc.devRef .tc main_v60)) = k_main_v60 (V0 m c (Proc.devRef .tc main_arg0)) (V0 m c (Proc.devRef .tc main_arg1)) (V0 m c (Proc.devRef .tc main_arg2)) (V0 m c (Proc.devRef .tc main_arg3)) (V0 m c (Proc.devRef .tc main_arg4)) :=
  (W13_keep m outs c main_v60 (by decide)).trans (W12_main_v60 m outs c)
theorem W13_main_v68 (c : Dev nD) : W13 m outs c (no_index (Proc.devRef .tc main_v68)) = k_main_v68 (V0 m c (Proc.devRef .tc main_arg0)) (V0 m c (Proc.devRef .tc main_arg1)) (V0 m c (Proc.devRef .tc main_arg2)) (V0 m c (Proc.devRef .tc main_arg3)) (V0 m c (Proc.devRef .tc main_arg4)) :=
  (W13_keep m outs c main_v68 (by decide)).trans (W12_main_v68 m outs c)
theorem W13_main_v70 (c : Dev nD) : W13 m outs c (no_index (Proc.devRef .tc main_v70)) = k_main_v70 (V0 m c (Proc.devRef .tc main_arg0)) (V0 m c (Proc.devRef .tc main_arg1)) (V0 m c (Proc.devRef .tc main_arg2)) (V0 m c (Proc.devRef .tc main_arg3)) (V0 m c (Proc.devRef .tc main_arg4)) :=
  (W13_keep m outs c main_v70 (by decide)).trans (W12_main_v70 m outs c)
set_option maxHeartbeats 4000000 in
theorem W13_main_v72 (c : Dev nD) : W13 m outs c (no_index (Proc.devRef .tc main_v72)) = k_main_v72 (V0 m c (Proc.devRef .tc main_arg0)) (V0 m c (Proc.devRef .tc main_arg1)) (V0 m c (Proc.devRef .tc main_arg2)) (V0 m c (Proc.devRef .tc main_arg3)) (V0 m c (Proc.devRef .tc main_arg4)) := by
  rw [W13_step]
  simp only [hostOps1_11]
  after_results_simp
  try dsimp only [Matrix.cons_val]
  try after_results_simp
  try simp only [W12_main_v71, W12_main_c_30, TRef.toBuf, TRef.ofBuf, cast_cast, cast_eq]
  all_goals rfl

end Cert.KernelIdeal.Read

end
-- ==== Proof.KernelRead4.lean ====
import proofs.«167267_j69861938037475_1_alg».proof.Proof.KernelRead3

set_option maxRecDepth 16384

noncomputable section

namespace Cert.KernelIdeal.Read

open Cert.KernelIdeal Cert.KernelIdeal.Gen
open Idealize.ShloMosaic Idealize.ShloMosaic.TcCoe Idealize.SL.Sem Idealize.ShloMosaic.StableHlo

variable {F : FTy → Type} [FloatOps F]
variable (m : (ℓ : Loc nD τ sig) → Buf (Elt F) ℓ) (outs : Outs (F := F))

/-- The concatenate that writes `main_v78`, as a function of its operands taken one by one. -/
def cat_main_v78 : (main_v73 : Ref sig .tc).ty.Contents (Elt F) → (main_v74 : Ref sig .tc).ty.Contents (Elt F) → (main_v75 : Ref sig .tc).ty.Contents (Elt F) → (main_v76 : Ref sig .tc).ty.Contents (Elt F) → (main_v77 : Ref sig .tc).ty.Contents (Elt F) → (main_v78 : Ref sig .tc).ty.Contents (Elt F) :=
  fun u0 u1 u2 u3 u4 => (concatenate S64x32x5 2 [⟨S64x32x1, u0⟩, ⟨S64x32x1, u1⟩, ⟨S64x32x1, u2⟩, ⟨S64x32x1, u3⟩, ⟨S64x32x1, u4⟩] concatenates_S64x32x1_S64x32x1_S64x32x1_S64x32x1_S64x32x1_S64x32x5_d2)
/-- Part of stretch 12: operations 0 to 5. -/
abbrev seg_12a : List (HloOp τ sig (Elt F)) :=
  [ StableHlo.unary main_v70 main_v73 (broadcastInDim S64x32x1 ![0, 1] bcast_S64x32_S64x32x1_0_1 : (⟨S64x32, .i32⟩ : BufTy).Contents (Elt F) → (⟨S64x32x1, .i32⟩ : BufTy).Contents (Elt F)),
    StableHlo.unary main_v52 main_v74 (broadcastInDim S64x32x1 ![0, 1] bcast_S64x32_S64x32x1_0_1 : (⟨S64x32, .i32⟩ : BufTy).Contents (Elt F) → (⟨S64x32x1, .i32⟩ : BufTy).Contents (Elt F)),
    StableHlo.unary main_v52 main_v75 (broadcastInDim S64x32x1 ![0, 1] bcast_S64x32_S64x32x1_0_1 : (⟨S64x32, .i32⟩ : BufTy).Contents (Elt F) → (⟨S64x32x1, .i32⟩ : BufTy).Contents (Elt F)),
    StableHlo.unary main_v68 main_v76 (broadcastInDim S64x32x1 ![0, 1] bcast_S64x32_S64x32x1_0_1 : (⟨S64x32, .i32⟩ : BufTy).Contents (Elt F) → (⟨S64x32x1, .i32⟩ : BufTy).Contents (Elt F)),
    StableHlo.unary main_v68 main_v77 (broadcastInDim S64x32x1 ![0, 1] bcast_S64x32_S64x32x1_0_1 : (⟨S64x32, .i32⟩ : BufTy).Contents (Elt F) → (⟨S64x32x1, .i32⟩ : BufTy).Contents (Elt F)),
    StableHlo.nary ![main_v73, main_v74, main_v75, main_v76, main_v77] main_v78 (fun u => cat_main_v78 (u 0) (u 1) (u 2) (u 3) (u 4)) ]
abbrev seg_12a_W : List (Ref sig .tc) := [main_v73, main_v74, main_v75, main_v76, main_v77, main_v78]
theorem seg_12a_writes : (seg_12a : List (HloOp τ sig (Elt F))).Forall fun op => op.writes ⊆ (seg_12a_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- The valuation after that part. -/
def W14a (c : Dev nD) : Valuation τ sig (Elt F) := StableHlo.after seg_12a (W13 m outs c)
theorem W14a_step (c : Dev nD) : W14a m outs c = StableHlo.after seg_12a (W13 m outs c) := rfl
theorem W14a_keep (c : Dev nD) (r : Ref sig .tc) (h : r ∉ seg_12a_W) :
    W14a m outs c (Proc.devRef .tc r) = W13 m outs c (Proc.devRef .tc r) := by
  rw [W14a_step]; exact after_of_writes_sub seg_12a _ seg_12a_writes h
theorem W14a_main_arg1 (c : Dev nD) : W14a m outs c (no_index (Proc.devRef .tc main_arg1)) = V0 m c (Proc.devRef .tc main_arg1) :=
  (W14a_keep m outs c main_arg1 (by decide)).trans (W13_main_arg1 m outs c)
theorem W14a_main_arg2 (c : Dev nD) : W14a m outs c (no_index (Proc.devRef .tc main_arg2)) = V0 m c (Proc.devRef .tc main_arg2) :=
  (W14a_keep m outs c main_arg2 (by decide)).trans (W13_main_arg2 m outs c)
theorem W14a_main_v16 (c : Dev nD) : W14a m outs c (no_index (Proc.devRef .tc main_v16)) = k_main_v16 (V0 m c (Proc.devRef .tc main_arg0)) (V0 m c (Proc.devRef .tc main_arg1)) (V0 m c (Proc.devRef .tc main_arg2)) (V0 m c (Proc.devRef .tc main_arg3)) (V0 m c (Proc.devRef .tc main_arg4)) :=
  (W14a_keep m outs c main_v16 (by decide)).trans (W13_main_v16 m outs c)
theorem W14a_main_v21 (c : Dev nD) : W14a m outs c (no_index (Proc.devRef .tc main_v21)) = k_main_v21 (V0 m c (Proc.devRef .tc main_arg0)) (V0 m c (Proc.devRef .tc main_arg1)) (V0 m c (Proc.devRef .tc main_arg2)) (V0 m c (Proc.devRef .tc main_arg3)) (V0 m c (Proc.devRef .tc main_arg4)) :=
  (W14a_keep m outs c main_v21 (by decide)).trans (W13_main_v21 m outs c)
theorem W14a_main_v26 (c : Dev nD) : W14a m outs c (no_index (Proc.devRef .tc main_v26)) = k_main_v26 (V0 m c (Proc.devRef .tc main_arg0)) (V0 m c (Proc.devRef .tc main_arg1)) (V0 m c (Proc.devRef .tc main_arg2)) (V0 m c (Proc.devRef .tc main_arg3)) (V0 m c (Proc.devRef .tc main_arg4)) :=
  (W14a_keep m outs c main_v26 (by decide)).trans (W13_main_v26 m outs c)
theorem W14a_main_v35 (c : Dev nD) : W14a m outs c (no_index (Proc.devRef .tc main_v35)) = k_main_v35 (V0 m c (Proc.devRef .tc main_arg0)) (V0 m c (Proc.devRef .tc main_arg1)) (V0 m c (Proc.devRef .tc main_arg2)) (V0 m c (Proc.devRef .tc main_arg3)) (V0 m c (Proc.devRef .tc main_arg4)) :=
  (W14a_keep m outs c main_v35 (by decide)).trans (W13_main_v35 m outs c)
theorem W14a_main_v44 (c : Dev nD) : W14a m outs c (no_index (Proc.devRef .tc main_v44)) = k_main_v44 (V0 m c (Proc.devRef .tc main_arg0)) (V0 m c (Proc.devRef .tc main_arg1)) (V0 m c (Proc.devRef .tc main_arg2)) (V0 m c (Proc.devRef .tc main_arg3)) (V0 m c (Proc.devRef .tc main_arg4)) :=
  (W14a_keep m outs c main_v44 (by decide)).trans (W13_main_v44 m outs c)
theorem W14a_main_v48 (c : Dev nD) : W14a m outs c (no_index (Proc.devRef .tc main_v48)) = k_main_v48 (V0 m c (Proc.devRef .tc main_arg0)) (V0 m c (Proc.devRef .tc main_arg1)) (V0 m c (Proc.devRef .tc main_arg2)) (V0 m c (Proc.devRef .tc main_arg3)) (V0 m c (Proc.devRef .tc main_arg4)) :=
  (W14a_keep m outs c main_v48 (by decide)).trans (W13_main_v48 m outs c)
theorem W14a_main_v60 (c : Dev nD) : W14a m outs c (no_index (Proc.devRef .tc main_v60)) = k_main_v60 (V0 m c (Proc.devRef .tc main_arg0)) (V0 m c (Proc.devRef .tc main_arg1)) (V0 m c (Proc.devRef .tc main_arg2)) (V0 m c (Proc.devRef .tc main_arg3)) (V0 m c (Proc.devRef .tc main_arg4)) :=
  (W14a_keep m outs c main_v60 (by decide)).trans (W13_main_v60 m outs c)
theorem W14a_main_v72 (c : Dev nD) : W14a m outs c (no_index (Proc.devRef .tc main_v72)) = k_main_v72 (V0 m c (Proc.devRef .tc main_arg0)) (V0 m c (Proc.devRef .tc main_arg1)) (V0 m c (Proc.devRef .tc main_arg2)) (V0 m c (Proc.devRef .tc main_arg3)) (V0 m c (Proc.devRef .tc main_arg4)) :=
  (W14a_keep m outs c main_v72 (by decide)).trans (W13_main_v72 m outs c)
set_option maxHeartbeats 4000000 in
theorem W14a_main_v78 (c : Dev nD) : W14a m outs c (no_index (Proc.devRef .tc main_v78)) = k_main_v78 (V0 m c (Proc.devRef .tc main_arg0)) (V0 m c (Proc.devRef .tc main_arg1)) (V0 m c (Proc.devRef .tc main_arg2)) (V0 m c (Proc.devRef .tc main_arg3)) (V0 m c (Proc.devRef .tc main_arg4)) := by
  rw [W14a_step]
  simp only [seg_12a]
  after_results_simp
  try dsimp only [Matrix.cons_val]
  try after_results_simp
  try simp only [W13_main_v70, W13_main_v52, W13_main_v68, TRef.toBuf, TRef.ofBuf, cast_cast, cast_eq]
  all_goals rfl

/-- The concatenate that writes `main_v84`, as a function of its operands taken one by one. -/
def cat_main_v84 : (main_v79 : Ref sig .tc).ty.Contents (Elt F) → (main_v80 : Ref sig .tc).ty.Contents (Elt F) → (main_v81 : Ref sig .tc).ty.Contents (Elt F) → (main_v82 : Ref sig .tc).ty.Contents (Elt F) → (main_v83 : Ref sig .tc).ty.Contents (Elt F) → (main_v84 : Ref sig .tc).ty.Contents (Elt F) :=
  fun u0 u1 u2 u3 u4 => (concatenate S64x32x5 2 [⟨S64x32x1, u0⟩, ⟨S64x32x1, u1⟩, ⟨S64x32x1, u2⟩, ⟨S64x32x1, u3⟩, ⟨S64x32x1, u4⟩] concatenates_S64x32x1_S64x32x1_S64x32x1_S64x32x1_S64x32x1_S64x32x5_d2)
/-- Part of stretch 12: operations 6 to 11. -/
abbrev seg_12b : List (HloOp τ sig (Elt F)) :=
  [ StableHlo.unary main_v72 main_v79 (broadcastInDim S64x32x1 ![0, 1] bcast_S64x32_S64x32x1_0_1 : (⟨S64x32, .i32⟩ : BufTy).Contents (Elt F) → (⟨S64x32x1, .i32⟩ : BufTy).Contents (Elt F)),
    StableHlo.unary main_v48 main_v80 (broadcastInDim S64x32x1 ![0, 1] bcast_S64x32_S64x32x1_0_1 : (⟨S64x32, .i32⟩ : BufTy).Contents (Elt F) → (⟨S64x32x1, .i32⟩ : BufTy).Contents (Elt F)),
    StableHlo.unary main_v60 main_v81 (broadcastInDim S64x32x1 ![0, 1] bcast_S64x32_S64x32x1_0_1 : (⟨S64x32, .i32⟩ : BufTy).Contents (Elt F) → (⟨S64x32x1, .i32⟩ : BufTy).Contents (Elt F)),
    StableHlo.unary main_v48 main_v82 (broadcastInDim S64x32x1 ![0, 1] bcast_S64x32_S64x32x1_0_1 : (⟨S64x32, .i32⟩ : BufTy).Contents (Elt F) → (⟨S64x32x1, .i32⟩ : BufTy).Contents (Elt F)),
    StableHlo.unary main_v60 main_v83 (broadcastInDim S64x32x1 ![0, 1] bcast_S64x32_S64x32x1_0_1 : (⟨S64x32, .i32⟩ : BufTy).Contents (Elt F) → (⟨S64x32x1, .i32⟩ : BufTy).Contents (Elt F)),
    StableHlo.nary ![main_v79, main_v80, main_v81, main_v82, main_v83] main_v84 (fun u => cat_main_v84 (u 0) (u 1) (u 2) (u 3) (u 4)) ]
abbrev seg_12b_W : List (Ref sig .tc) := [main_v79, main_v80, main_v81, main_v82, main_v83, main_v84]
theorem seg_12b_writes : (seg_12b : List (HloOp τ sig (Elt F))).Forall fun op => op.writes ⊆ (seg_12b_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- The valuation after that part. -/
def W14b (c : Dev nD) : Valuation τ sig (Elt F) := StableHlo.after seg_12b (W14a m outs c)
theorem W14b_step (c : Dev nD) : W14b m outs c = StableHlo.after seg_12b (W14a m outs c) := rfl
theorem W14b_keep (c : Dev nD) (r : Ref sig .tc) (h : r ∉ seg_12b_W) :
    W14b m outs c (Proc.devRef .tc r) = W14a m outs c (Proc.devRef .tc r) := by
  rw [W14b_step]; exact after_of_writes_sub seg_12b _ seg_12b_writes h
theorem W14b_main_arg1 (c : Dev nD) : W14b m outs c (no_index (Proc.devRef .tc main_arg1)) = V0 m c (Proc.devRef .tc main_arg1) :=
  (W14b_keep m outs c main_arg1 (by decide)).trans (W14a_main_arg1 m outs c)
theorem W14b_main_arg2 (c : Dev nD) : W14b m outs c (no_index (Proc.devRef .tc main_arg2)) = V0 m c (Proc.devRef .tc main_arg2) :=
  (W14b_keep m outs c main_arg2 (by decide)).trans (W14a_main_arg2 m outs c)
theorem W14b_main_v16 (c : Dev nD) : W14b m outs c (no_index (Proc.devRef .tc main_v16)) = k_main_v16 (V0 m c (Proc.devRef .tc main_arg0)) (V0 m c (Proc.devRef .tc main_arg1)) (V0 m c (Proc.devRef .tc main_arg2)) (V0 m c (Proc.devRef .tc main_arg3)) (V0 m c (Proc.devRef .tc main_arg4)) :=
  (W14b_keep m outs c main_v16 (by decide)).trans (W14a_main_v16 m outs c)
theorem W14b_main_v21 (c : Dev nD) : W14b m outs c (no_index (Proc.devRef .tc main_v21)) = k_main_v21 (V0 m c (Proc.devRef .tc main_arg0)) (V0 m c (Proc.devRef .tc main_arg1)) (V0 m c (Proc.devRef .tc main_arg2)) (V0 m c (Proc.devRef .tc main_arg3)) (V0 m c (Proc.devRef .tc main_arg4)) :=
  (W14b_keep m outs c main_v21 (by decide)).trans (W14a_main_v21 m outs c)
theorem W14b_main_v26 (c : Dev nD) : W14b m outs c (no_index (Proc.devRef .tc main_v26)) = k_main_v26 (V0 m c (Proc.devRef .tc main_arg0)) (V0 m c (Proc.devRef .tc main_arg1)) (V0 m c (Proc.devRef .tc main_arg2)) (V0 m c (Proc.devRef .tc main_arg3)) (V0 m c (Proc.devRef .tc main_arg4)) :=
  (W14b_keep m outs c main_v26 (by decide)).trans (W14a_main_v26 m outs c)
theorem W14b_main_v35 (c : Dev nD) : W14b m outs c (no_index (Proc.devRef .tc main_v35)) = k_main_v35 (V0 m c (Proc.devRef .tc main_arg0)) (V0 m c (Proc.devRef .tc main_arg1)) (V0 m c (Proc.devRef .tc main_arg2)) (V0 m c (Proc.devRef .tc main_arg3)) (V0 m c (Proc.devRef .tc main_arg4)) :=
  (W14b_keep m outs c main_v35 (by decide)).trans (W14a_main_v35 m outs c)
theorem W14b_main_v44 (c : Dev nD) : W14b m outs c (no_index (Proc.devRef .tc main_v44)) = k_main_v44 (V0 m c (Proc.devRef .tc main_arg0)) (V0 m c (Proc.devRef .tc main_arg1)) (V0 m c (Proc.devRef .tc main_arg2)) (V0 m c (Proc.devRef .tc main_arg3)) (V0 m c (Proc.devRef .tc main_arg4)) :=
  (W14b_keep m outs c main_v44 (by decide)).trans (W14a_main_v44 m outs c)
theorem W14b_main_v78 (c : Dev nD) : W14b m outs c (no_index (Proc.devRef .tc main_v78)) = k_main_v78 (V0 m c (Proc.devRef .tc main_arg0)) (V0 m c (Proc.devRef .tc main_arg1)) (V0 m c (Proc.devRef .tc main_arg2)) (V0 m c (Proc.devRef .tc main_arg3)) (V0 m c (Proc.devRef .tc main_arg4)) :=
  (W14b_keep m outs c main_v78 (by decide)).trans (W14a_main_v78 m outs c)
set_option maxHeartbeats 4000000 in
theorem W14b_main_v84 (c : Dev nD) : W14b m outs c (no_index (Proc.devRef .tc main_v84)) = k_main_v84 (V0 m c (Proc.devRef .tc main_arg0)) (V0 m c (Proc.devRef .tc main_arg1)) (V0 m c (Proc.devRef .tc main_arg2)) (V0 m c (Proc.devRef .tc main_arg3)) (V0 m c (Proc.devRef .tc main_arg4)) := by
  rw [W14b_step]
  simp only [seg_12b]
  after_results_simp
  try dsimp only [Matrix.cons_val]
  try after_results_simp
  try simp only [W14a_main_v72, W14a_main_v48, W14a_main_v60, TRef.toBuf, TRef.ofBuf, cast_cast, cast_eq]
  all_goals rfl

/-- Part of stretch 12: operations 12 to 19. -/
abbrev seg_12c : List (HloOp τ sig (Elt F)) :=
  [ StableHlo.nullary main_c_31 (constantI S_ 32 320#32),
    StableHlo.unary main_c_31 main_v85 (broadcastInDim S64x32x5 ![] bcast_S_S64x32x5 : (⟨S_, .i32⟩ : BufTy).Contents (Elt F) → (⟨S64x32x5, .i32⟩ : BufTy).Contents (Elt F)),
    StableHlo.binary main_v78 main_v85 main_v86 (muli : (⟨S64x32x5, .i32⟩ : BufTy).Contents (Elt F) → (⟨S64x32x5, .i32⟩ : BufTy).Contents (Elt F) → (⟨S64x32x5, .i32⟩ : BufTy).Contents (Elt F)),
    StableHlo.binary main_v86 main_v84 main_v87 (addi : (⟨S64x32x5, .i32⟩ : BufTy).Contents (Elt F) → (⟨S64x32x5, .i32⟩ : BufTy).Contents (Elt F) → (⟨S64x32x5, .i32⟩ : BufTy).Contents (Elt F)),
    StableHlo.reshape main_v87 main_v88 rfl shapeCasts_S64x32x5_S64x160,
    StableHlo.reshape main_arg2 main_v89 rfl shapeCasts_S64x4x320x320_S64x4x102400,
    StableHlo.unary main_v88 main_v90 (broadcastInDim S64x1x160 ![0, 2] bcast_S64x160_S64x1x160_0_2 : (⟨S64x160, .i32⟩ : BufTy).Contents (Elt F) → (⟨S64x1x160, .i32⟩ : BufTy).Contents (Elt F)),
    StableHlo.unary main_v90 main_v91 (broadcastInDim S64x4x160 ![0, 1, 2] bcast_S64x1x160_S64x4x160_0_1_2 : (⟨S64x1x160, .i32⟩ : BufTy).Contents (Elt F) → (⟨S64x4x160, .i32⟩ : BufTy).Contents (Elt F)) ]
abbrev seg_12c_W : List (Ref sig .tc) := [main_c_31, main_v85, main_v86, main_v87, main_v88, main_v89, main_v90, main_v91]
theorem seg_12c_writes : (seg_12c : List (HloOp τ sig (Elt F))).Forall fun op => op.writes ⊆ (seg_12c_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- The valuation after stretch 12: the stretch is its parts in a row. -/
def W14 (c : Dev nD) : Valuation τ sig (Elt F) := V14 m outs c
theorem hostOps1_12_parts : (hostOps1_12 : List (HloOp τ sig (Elt F))) = seg_12a ++ (seg_12b ++ (seg_12c)) := rfl
theorem W14_step (c : Dev nD) : W14 m outs c = StableHlo.after seg_12c (W14b m outs c) := by
  show StableHlo.after hostOps1_12 (W13 m outs c) = _
  rw [hostOps1_12_parts, after_append', after_append']
  rfl
theorem W14_keep (c : Dev nD) (r : Ref sig .tc) (h : r ∉ seg_12c_W) :
    W14 m outs c (Proc.devRef .tc r) = W14b m outs c (Proc.devRef .tc r) := by
  rw [W14_step]; exact after_of_writes_sub seg_12c _ seg_12c_writes h
theorem W14_main_arg1 (c : Dev nD) : W14 m outs c (no_index (Proc.devRef .tc main_arg1)) = V0 m c (Proc.devRef .tc main_arg1) :=
  (W14_keep m outs c main_arg1 (by decide)).trans (W14b_main_arg1 m outs c)
theorem W14_main_v16 (c : Dev nD) : W14 m outs c (no_index (Proc.devRef .tc main_v16)) = k_main_v16 (V0 m c (Proc.devRef .tc main_arg0)) (V0 m c (Proc.devRef .tc main_arg1)) (V0 m c (Proc.devRef .tc main_arg2)) (V0 m c (Proc.devRef .tc main_arg3)) (V0 m c (Proc.devRef .tc main_arg4)) :=
  (W14_keep m outs c main_v16 (by decide)).trans (W14b_main_v16 m outs c)
theorem W14_main_v21 (c : Dev nD) : W14 m outs c (no_index (Proc.devRef .tc main_v21)) = k_main_v21 (V0 m c (Proc.devRef .tc main_arg0)) (V0 m c (Proc.devRef .tc main_arg1)) (V0 m c (Proc.devRef .tc main_arg2)) (V0 m c (Proc.devRef .tc main_arg3)) (V0 m c (Proc.devRef .tc main_arg4)) :=
  (W14_keep m outs c main_v21 (by decide)).trans (W14b_main_v21 m outs c)
theorem W14_main_v26 (c : Dev nD) : W14 m outs c (no_index (Proc.devRef .tc main_v26)) = k_main_v26 (V0 m c (Proc.devRef .tc main_arg0)) (V0 m c (Proc.devRef .tc main_arg1)) (V0 m c (Proc.devRef .tc main_arg2)) (V0 m c (Proc.devRef .tc main_arg3)) (V0 m c (Proc.devRef .tc main_arg4)) :=
  (W14_keep m outs c main_v26 (by decide)).trans (W14b_main_v26 m outs c)
theorem W14_main_v35 (c : Dev nD) : W14 m outs c (no_index (Proc.devRef .tc main_v35)) = k_main_v35 (V0 m c (Proc.devRef .tc main_arg0)) (V0 m c (Proc.devRef .tc main_arg1)) (V0 m c (Proc.devRef .tc main_arg2)) (V0 m c (Proc.devRef .tc main_arg3)) (V0 m c (Proc.devRef .tc main_arg4)) :=
  (W14_keep m outs c main_v35 (by decide)).trans (W14b_main_v35 m outs c)
theorem W14_main_v44 (c : Dev nD) : W14 m outs c (no_index (Proc.devRef .tc main_v44)) = k_main_v44 (V0 m c (Proc.devRef .tc main_arg0)) (V0 m c (Proc.devRef .tc main_arg1)) (V0 m c (Proc.devRef .tc main_arg2)) (V0 m c (Proc.devRef .tc main_arg3)) (V0 m c (Proc.devRef .tc main_arg4)) :=
  (W14_keep m outs c main_v44 (by decide)).trans (W14b_main_v44 m outs c)
set_option maxHeartbeats 4000000 in
theorem W14_main_v88 (c : Dev nD) : W14 m outs c (no_index (Proc.devRef .tc main_v88)) = k_main_v88 (V0 m c (Proc.devRef .tc main_arg0)) (V0 m c (Proc.devRef .tc main_arg1)) (V0 m c (Proc.devRef .tc main_arg2)) (V0 m c (Proc.devRef .tc main_arg3)) (V0 m c (Proc.devRef .tc main_arg4)) := by
  rw [W14_step]
  simp only [seg_12c]
  after_results_simp
  try dsimp only [Matrix.cons_val]
  try after_results_simp
  try simp only [W14b_main_v78, W14b_main_v84, TRef.toBuf, TRef.ofBuf, cast_cast, cast_eq]
  all_goals rfl
set_option maxHeartbeats 4000000 in
theorem W14_main_v89 (c : Dev nD) : W14 m outs c (no_index (Proc.devRef .tc main_v89)) = k_main_v89 (V0 m c (Proc.devRef .tc main_arg0)) (V0 m c (Proc.devRef .tc main_arg1)) (V0 m c (Proc.devRef .tc main_arg2)) (V0 m c (Proc.devRef .tc main_arg3)) (V0 m c (Proc.devRef .tc main_arg4)) := by
  rw [W14_step]
  simp only [seg_12c]
  after_results_simp
  try dsimp only [Matrix.cons_val]
  try after_results_simp
  try simp only [W14b_main_arg2, TRef.toBuf, TRef.ofBuf, cast_cast, cast_eq]
  all_goals rfl
set_option maxHeartbeats 4000000 in
theorem W14_main_v91 (c : Dev nD) : W14 m outs c (no_index (Proc.devRef .tc main_v91)) = k_main_v91 (V0 m c (Proc.devRef .tc main_arg0)) (V0 m c (Proc.devRef .tc main_arg1)) (V0 m c (Proc.devRef .tc main_arg2)) (V0 m c (Proc.devRef .tc main_arg3)) (V0 m c (Proc.devRef .tc main_arg4)) := by
  rw [W14_step]
  simp only [seg_12c]
  after_results_simp
  try dsimp only [Matrix.cons_val]
  try after_results_simp
  try simp only [W14b_main_v78, W14b_main_v84, TRef.toBuf, TRef.ofBuf, cast_cast, cast_eq]
  all_goals rfl

end Cert.KernelIdeal.Read

end
-- ==== Proof.KernelRead5.lean ====
import proofs.«167267_j69861938037475_1_alg».proof.Proof.KernelRead4

set_option maxRecDepth 16384

noncomputable section

namespace Cert.KernelIdeal.Read

open Cert.KernelIdeal Cert.KernelIdeal.Gen
open Idealize.ShloMosaic Idealize.ShloMosaic.TcCoe Idealize.SL.Sem Idealize.ShloMosaic.StableHlo

variable {F : FTy → Type} [FloatOps F]
variable (m : (ℓ : Loc nD τ sig) → Buf (Elt F) ℓ) (outs : Outs (F := F))

/-- The valuation after stretch 13. -/
def W15 (c : Dev nD) : Valuation τ sig (Elt F) := V15 m outs c
theorem W15_step (c : Dev nD) : W15 m outs c = StableHlo.after hostOps1_13 (W14 m outs c) := rfl
theorem W15_keep (c : Dev nD) (r : Ref sig .tc) (h : r ∉ hostOps1_13_W) :
    W15 m outs c (Proc.devRef .tc r) = W14 m outs c (Proc.devRef .tc r) := V15_of m outs c r h
theorem W15_main_arg1 (c : Dev nD) : W15 m outs c (no_index (Proc.devRef .tc main_arg1)) = V0 m c (Proc.devRef .tc main_arg1) :=
  (W15_keep m outs c main_arg1 (by decide)).trans (W14_main_arg1 m outs c)
theorem W15_main_v16 (c : Dev nD) : W15 m outs c (no_index (Proc.devRef .tc main_v16)) = k_main_v16 (V0 m c (Proc.devRef .tc main_arg0)) (V0 m c (Proc.devRef .tc main_arg1)) (V0 m c (Proc.devRef .tc main_arg2)) (V0 m c (Proc.devRef .tc main_arg3)) (V0 m c (Proc.devRef .tc main_arg4)) :=
  (W15_keep m outs c main_v16 (by decide)).trans (W14_main_v16 m outs c)
theorem W15_main_v21 (c : Dev nD) : W15 m outs c (no_index (Proc.devRef .tc main_v21)) = k_main_v21 (V0 m c (Proc.devRef .tc main_arg0)) (V0 m c (Proc.devRef .tc main_arg1)) (V0 m c (Proc.devRef .tc main_arg2)) (V0 m c (Proc.devRef .tc main_arg3)) (V0 m c (Proc.devRef .tc main_arg4)) :=
  (W15_keep m outs c main_v21 (by decide)).trans (W14_main_v21 m outs c)
theorem W15_main_v26 (c : Dev nD) : W15 m outs c (no_index (Proc.devRef .tc main_v26)) = k_main_v26 (V0 m c (Proc.devRef .tc main_arg0)) (V0 m c (Proc.devRef .tc main_arg1)) (V0 m c (Proc.devRef .tc main_arg2)) (V0 m c (Proc.devRef .tc main_arg3)) (V0 m c (Proc.devRef .tc main_arg4)) :=
  (W15_keep m outs c main_v26 (by decide)).trans (W14_main_v26 m outs c)
theorem W15_main_v35 (c : Dev nD) : W15 m outs c (no_index (Proc.devRef .tc main_v35)) = k_main_v35 (V0 m c (Proc.devRef .tc main_arg0)) (V0 m c (Proc.devRef .tc main_arg1)) (V0 m c (Proc.devRef .tc main_arg2)) (V0 m c (Proc.devRef .tc main_arg3)) (V0 m c (Proc.devRef .tc main_arg4)) :=
  (W15_keep m outs c main_v35 (by decide)).trans (W14_main_v35 m outs c)
theorem W15_main_v44 (c : Dev nD) : W15 m outs c (no_index (Proc.devRef .tc main_v44)) = k_main_v44 (V0 m c (Proc.devRef .tc main_arg0)) (V0 m c (Proc.devRef .tc main_arg1)) (V0 m c (Proc.devRef .tc main_arg2)) (V0 m c (Proc.devRef .tc main_arg3)) (V0 m c (Proc.devRef .tc main_arg4)) :=
  (W15_keep m outs c main_v44 (by decide)).trans (W14_main_v44 m outs c)
theorem W15_main_v88 (c : Dev nD) : W15 m outs c (no_index (Proc.devRef .tc main_v88)) = k_main_v88 (V0 m c (Proc.devRef .tc main_arg0)) (V0 m c (Proc.devRef .tc main_arg1)) (V0 m c (Proc.devRef .tc main_arg2)) (V0 m c (Proc.devRef .tc main_arg3)) (V0 m c (Proc.devRef .tc main_arg4)) :=
  (W15_keep m outs c main_v88 (by decide)).trans (W14_main_v88 m outs c)
set_option maxHeartbeats 4000000 in
theorem W15_main_v92 (c : Dev nD) : W15 m outs c (no_index (Proc.devRef .tc main_v92)) = k_main_v92 (V0 m c (Proc.devRef .tc main_arg0)) (V0 m c (Proc.devRef .tc main_arg1)) (V0 m c (Proc.devRef .tc main_arg2)) (V0 m c (Proc.devRef .tc main_arg3)) (V0 m c (Proc.devRef .tc main_arg4)) := by
  rw [W15_step]
  simp only [hostOps1_13]
  after_results_simp
  try dsimp only [Matrix.cons_val]
  try after_results_simp
  try simp only [W14_main_v91, W14_main_v89, TRef.toBuf, TRef.ofBuf, cast_cast, cast_eq]
  all_goals rfl

/-- The valuation after stretch 14. -/
def W16 (c : Dev nD) : Valuation τ sig (Elt F) := V16 m outs c
theorem W16_step (c : Dev nD) : W16 m outs c = StableHlo.after hostOps1_14 (W15 m outs c) := rfl
theorem W16_keep (c : Dev nD) (r : Ref sig .tc) (h : r ∉ hostOps1_14_W) :
    W16 m outs c (Proc.devRef .tc r) = W15 m outs c (Proc.devRef .tc r) := V16_of m outs c r h
theorem W16_main_v16 (c : Dev nD) : W16 m outs c (no_index (Proc.devRef .tc main_v16)) = k_main_v16 (V0 m c (Proc.devRef .tc main_arg0)) (V0 m c (Proc.devRef .tc main_arg1)) (V0 m c (Proc.devRef .tc main_arg2)) (V0 m c (Proc.devRef .tc main_arg3)) (V0 m c (Proc.devRef .tc main_arg4)) :=
  (W16_keep m outs c main_v16 (by decide)).trans (W15_main_v16 m outs c)
theorem W16_main_v21 (c : Dev nD) : W16 m outs c (no_index (Proc.devRef .tc main_v21)) = k_main_v21 (V0 m c (Proc.devRef .tc main_arg0)) (V0 m c (Proc.devRef .tc main_arg1)) (V0 m c (Proc.devRef .tc main_arg2)) (V0 m c (Proc.devRef .tc main_arg3)) (V0 m c (Proc.devRef .tc main_arg4)) :=
  (W16_keep m outs c main_v21 (by decide)).trans (W15_main_v21 m outs c)
theorem W16_main_v26 (c : Dev nD) : W16 m outs c (no_index (Proc.devRef .tc main_v26)) = k_main_v26 (V0 m c (Proc.devRef .tc main_arg0)) (V0 m c (Proc.devRef .tc main_arg1)) (V0 m c (Proc.devRef .tc main_arg2)) (V0 m c (Proc.devRef .tc main_arg3)) (V0 m c (Proc.devRef .tc main_arg4)) :=
  (W16_keep m outs c main_v26 (by decide)).trans (W15_main_v26 m outs c)
theorem W16_main_v35 (c : Dev nD) : W16 m outs c (no_index (Proc.devRef .tc main_v35)) = k_main_v35 (V0 m c (Proc.devRef .tc main_arg0)) (V0 m c (Proc.devRef .tc main_arg1)) (V0 m c (Proc.devRef .tc main_arg2)) (V0 m c (Proc.devRef .tc main_arg3)) (V0 m c (Proc.devRef .tc main_arg4)) :=
  (W16_keep m outs c main_v35 (by decide)).trans (W15_main_v35 m outs c)
theorem W16_main_v44 (c : Dev nD) : W16 m outs c (no_index (Proc.devRef .tc main_v44)) = k_main_v44 (V0 m c (Proc.devRef .tc main_arg0)) (V0 m c (Proc.devRef .tc main_arg1)) (V0 m c (Proc.devRef .tc main_arg2)) (V0 m c (Proc.devRef .tc main_arg3)) (V0 m c (Proc.devRef .tc main_arg4)) :=
  (W16_keep m outs c main_v44 (by decide)).trans (W15_main_v44 m outs c)
theorem W16_main_v88 (c : Dev nD) : W16 m outs c (no_index (Proc.devRef .tc main_v88)) = k_main_v88 (V0 m c (Proc.devRef .tc main_arg0)) (V0 m c (Proc.devRef .tc main_arg1)) (V0 m c (Proc.devRef .tc main_arg2)) (V0 m c (Proc.devRef .tc main_arg3)) (V0 m c (Proc.devRef .tc main_arg4)) :=
  (W16_keep m outs c main_v88 (by decide)).trans (W15_main_v88 m outs c)
set_option maxHeartbeats 4000000 in
theorem W16_main_v93 (c : Dev nD) : W16 m outs c (no_index (Proc.devRef .tc main_v93)) = k_main_v93 (V0 m c (Proc.devRef .tc main_arg0)) (V0 m c (Proc.devRef .tc main_arg1)) (V0 m c (Proc.devRef .tc main_arg2)) (V0 m c (Proc.devRef .tc main_arg3)) (V0 m c (Proc.devRef .tc main_arg4)) := by
  rw [W16_step]
  simp only [hostOps1_14]
  after_results_simp
  try dsimp only [Matrix.cons_val]
  try after_results_simp
  try simp only [W15_main_v92, TRef.toBuf, TRef.ofBuf, cast_cast, cast_eq]
  all_goals rfl
set_option maxHeartbeats 4000000 in
theorem W16_main_v94 (c : Dev nD) : W16 m outs c (no_index (Proc.devRef .tc main_v94)) = k_main_v94 (V0 m c (Proc.devRef .tc main_arg0)) (V0 m c (Proc.devRef .tc main_arg1)) (V0 m c (Proc.devRef .tc main_arg2)) (V0 m c (Proc.devRef .tc main_arg3)) (V0 m c (Proc.devRef .tc main_arg4)) := by
  rw [W16_step]
  simp only [hostOps1_14]
  after_results_simp
  try dsimp only [Matrix.cons_val]
  try after_results_simp
  try simp only [W15_main_arg1, TRef.toBuf, TRef.ofBuf, cast_cast, cast_eq]
  all_goals rfl

/-- The valuation after stretch 15. -/
def W17 (c : Dev nD) : Valuation τ sig (Elt F) := V17 m outs c
theorem W17_step (c : Dev nD) : W17 m outs c = StableHlo.after hostOps1_15 (W16 m outs c) := rfl
theorem W17_keep (c : Dev nD) (r : Ref sig .tc) (h : r ∉ hostOps1_15_W) :
    W17 m outs c (Proc.devRef .tc r) = W16 m outs c (Proc.devRef .tc r) := V17_of m outs c r h
theorem W17_main_v16 (c : Dev nD) : W17 m outs c (no_index (Proc.devRef .tc main_v16)) = k_main_v16 (V0 m c (Proc.devRef .tc main_arg0)) (V0 m c (Proc.devRef .tc main_arg1)) (V0 m c (Proc.devRef .tc main_arg2)) (V0 m c (Proc.devRef .tc main_arg3)) (V0 m c (Proc.devRef .tc main_arg4)) :=
  (W17_keep m outs c main_v16 (by decide)).trans (W16_main_v16 m outs c)
theorem W17_main_v21 (c : Dev nD) : W17 m outs c (no_index (Proc.devRef .tc main_v21)) = k_main_v21 (V0 m c (Proc.devRef .tc main_arg0)) (V0 m c (Proc.devRef .tc main_arg1)) (V0 m c (Proc.devRef .tc main_arg2)) (V0 m c (Proc.devRef .tc main_arg3)) (V0 m c (Proc.devRef .tc main_arg4)) :=
  (W17_keep m outs c main_v21 (by decide)).trans (W16_main_v21 m outs c)
theorem W17_main_v26 (c : Dev nD) : W17 m outs c (no_index (Proc.devRef .tc main_v26)) = k_main_v26 (V0 m c (Proc.devRef .tc main_arg0)) (V0 m c (Proc.devRef .tc main_arg1)) (V0 m c (Proc.devRef .tc main_arg2)) (V0 m c (Proc.devRef .tc main_arg3)) (V0 m c (Proc.devRef .tc main_arg4)) :=
  (W17_keep m outs c main_v26 (by decide)).trans (W16_main_v26 m outs c)
theorem W17_main_v35 (c : Dev nD) : W17 m outs c (no_index (Proc.devRef .tc main_v35)) = k_main_v35 (V0 m c (Proc.devRef .tc main_arg0)) (V0 m c (Proc.devRef .tc main_arg1)) (V0 m c (Proc.devRef .tc main_arg2)) (V0 m c (Proc.devRef .tc main_arg3)) (V0 m c (Proc.devRef .tc main_arg4)) :=
  (W17_keep m outs c main_v35 (by decide)).trans (W16_main_v35 m outs c)
theorem W17_main_v44 (c : Dev nD) : W17 m outs c (no_index (Proc.devRef .tc main_v44)) = k_main_v44 (V0 m c (Proc.devRef .tc main_arg0)) (V0 m c (Proc.devRef .tc main_arg1)) (V0 m c (Proc.devRef .tc main_arg2)) (V0 m c (Proc.devRef .tc main_arg3)) (V0 m c (Proc.devRef .tc main_arg4)) :=
  (W17_keep m outs c main_v44 (by decide)).trans (W16_main_v44 m outs c)
theorem W17_main_v93 (c : Dev nD) : W17 m outs c (no_index (Proc.devRef .tc main_v93)) = k_main_v93 (V0 m c (Proc.devRef .tc main_arg0)) (V0 m c (Proc.devRef .tc main_arg1)) (V0 m c (Proc.devRef .tc main_arg2)) (V0 m c (Proc.devRef .tc main_arg3)) (V0 m c (Proc.devRef .tc main_arg4)) :=
  (W17_keep m outs c main_v93 (by decide)).trans (W16_main_v93 m outs c)
set_option maxHeartbeats 4000000 in
theorem W17_main_v95 (c : Dev nD) : W17 m outs c (no_index (Proc.devRef .tc main_v95)) = k_main_v95 (V0 m c (Proc.devRef .tc main_arg0)) (V0 m c (Proc.devRef .tc main_arg1)) (V0 m c (Proc.devRef .tc main_arg2)) (V0 m c (Proc.devRef .tc main_arg3)) (V0 m c (Proc.devRef .tc main_arg4)) := by
  rw [W17_step]
  simp only [hostOps1_15]
  after_results_simp
  try dsimp only [Matrix.cons_val]
  try after_results_simp
  try simp only [W16_main_v88, W16_main_v94, TRef.toBuf, TRef.ofBuf, cast_cast, cast_eq]
  all_goals rfl

end Cert.KernelIdeal.Read

end
-- ==== Proof.KernelRead6.lean ====
import proofs.«167267_j69861938037475_1_alg».proof.Proof.KernelRead5

set_option maxRecDepth 16384

noncomputable section

namespace Cert.KernelIdeal.Read

open Cert.KernelIdeal Cert.KernelIdeal.Gen
open Idealize.ShloMosaic Idealize.ShloMosaic.TcCoe Idealize.SL.Sem Idealize.ShloMosaic.StableHlo

variable {F : FTy → Type} [FloatOps F]
variable (m : (ℓ : Loc nD τ sig) → Buf (Elt F) ℓ) (outs : Outs (F := F))

/-- The concatenate that writes `main_v100`, as a function of its operands taken one by one. -/
def cat_main_v100 : (main_v96 : Ref sig .tc).ty.Contents (Elt F) → (main_v97 : Ref sig .tc).ty.Contents (Elt F) → (main_v98 : Ref sig .tc).ty.Contents (Elt F) → (main_v99 : Ref sig .tc).ty.Contents (Elt F) → (main_v100 : Ref sig .tc).ty.Contents (Elt F) :=
  fun u0 u1 u2 u3 => (concatenate S64x32x4 2 [⟨S64x32x1, u0⟩, ⟨S64x32x1, u1⟩, ⟨S64x32x1, u2⟩, ⟨S64x32x1, u3⟩] concatenates_S64x32x1_S64x32x1_S64x32x1_S64x32x1_S64x32x4_d2)
/-- Part of stretch 16: operations 0 to 4. -/
abbrev seg_16a : List (HloOp τ sig (Elt F)) :=
  [ StableHlo.unary main_v21 main_v96 (broadcastInDim S64x32x1 ![0, 1] bcast_S64x32_S64x32x1_0_1 : (⟨S64x32, .f32⟩ : BufTy).Contents (Elt F) → (⟨S64x32x1, .f32⟩ : BufTy).Contents (Elt F)),
    StableHlo.unary main_v26 main_v97 (broadcastInDim S64x32x1 ![0, 1] bcast_S64x32_S64x32x1_0_1 : (⟨S64x32, .f32⟩ : BufTy).Contents (Elt F) → (⟨S64x32x1, .f32⟩ : BufTy).Contents (Elt F)),
    StableHlo.unary main_v35 main_v98 (broadcastInDim S64x32x1 ![0, 1] bcast_S64x32_S64x32x1_0_1 : (⟨S64x32, .f32⟩ : BufTy).Contents (Elt F) → (⟨S64x32x1, .f32⟩ : BufTy).Contents (Elt F)),
    StableHlo.unary main_v44 main_v99 (broadcastInDim S64x32x1 ![0, 1] bcast_S64x32_S64x32x1_0_1 : (⟨S64x32, .f32⟩ : BufTy).Contents (Elt F) → (⟨S64x32x1, .f32⟩ : BufTy).Contents (Elt F)),
    StableHlo.nary ![main_v96, main_v97, main_v98, main_v99] main_v100 (fun u => cat_main_v100 (u 0) (u 1) (u 2) (u 3)) ]
abbrev seg_16a_W : List (Ref sig .tc) := [main_v96, main_v97, main_v98, main_v99, main_v100]
theorem seg_16a_writes : (seg_16a : List (HloOp τ sig (Elt F))).Forall fun op => op.writes ⊆ (seg_16a_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- The valuation after that part. -/
def W18a (c : Dev nD) : Valuation τ sig (Elt F) := StableHlo.after seg_16a (W17 m outs c)
theorem W18a_step (c : Dev nD) : W18a m outs c = StableHlo.after seg_16a (W17 m outs c) := rfl
theorem W18a_keep (c : Dev nD) (r : Ref sig .tc) (h : r ∉ seg_16a_W) :
    W18a m outs c (Proc.devRef .tc r) = W17 m outs c (Proc.devRef .tc r) := by
  rw [W18a_step]; exact after_of_writes_sub seg_16a _ seg_16a_writes h
theorem W18a_main_v16 (c : Dev nD) : W18a m outs c (no_index (Proc.devRef .tc main_v16)) = k_main_v16 (V0 m c (Proc.devRef .tc main_arg0)) (V0 m c (Proc.devRef .tc main_arg1)) (V0 m c (Proc.devRef .tc main_arg2)) (V0 m c (Proc.devRef .tc main_arg3)) (V0 m c (Proc.devRef .tc main_arg4)) :=
  (W18a_keep m outs c main_v16 (by decide)).trans (W17_main_v16 m outs c)
theorem W18a_main_v93 (c : Dev nD) : W18a m outs c (no_index (Proc.devRef .tc main_v93)) = k_main_v93 (V0 m c (Proc.devRef .tc main_arg0)) (V0 m c (Proc.devRef .tc main_arg1)) (V0 m c (Proc.devRef .tc main_arg2)) (V0 m c (Proc.devRef .tc main_arg3)) (V0 m c (Proc.devRef .tc main_arg4)) :=
  (W18a_keep m outs c main_v93 (by decide)).trans (W17_main_v93 m outs c)
theorem W18a_main_v95 (c : Dev nD) : W18a m outs c (no_index (Proc.devRef .tc main_v95)) = k_main_v95 (V0 m c (Proc.devRef .tc main_arg0)) (V0 m c (Proc.devRef .tc main_arg1)) (V0 m c (Proc.devRef .tc main_arg2)) (V0 m c (Proc.devRef .tc main_arg3)) (V0 m c (Proc.devRef .tc main_arg4)) :=
  (W18a_keep m outs c main_v95 (by decide)).trans (W17_main_v95 m outs c)
set_option maxHeartbeats 4000000 in
theorem W18a_main_v100 (c : Dev nD) : W18a m outs c (no_index (Proc.devRef .tc main_v100)) = k_main_v100 (V0 m c (Proc.devRef .tc main_arg0)) (V0 m c (Proc.devRef .tc main_arg1)) (V0 m c (Proc.devRef .tc main_arg2)) (V0 m c (Proc.devRef .tc main_arg3)) (V0 m c (Proc.devRef .tc main_arg4)) := by
  rw [W18a_step]
  simp only [seg_16a]
  after_results_simp
  try dsimp only [Matrix.cons_val]
  try after_results_simp
  try simp only [W17_main_v21, W17_main_v26, W17_main_v35, W17_main_v44, TRef.toBuf, TRef.ofBuf, cast_cast, cast_eq]
  all_goals rfl

/-- Part of stretch 16: operations 5 to 26. -/
abbrev seg_16b : List (HloOp τ sig (Elt F)) :=
  [ StableHlo.unary main_v100 main_v101 (broadcastInDim S64x32x1x4 ![0, 1, 3] bcast_S64x32x4_S64x32x1x4_0_1_3 : (⟨S64x32x4, .f32⟩ : BufTy).Contents (Elt F) → (⟨S64x32x1x4, .f32⟩ : BufTy).Contents (Elt F)),
    StableHlo.unary main_v101 main_v102 (broadcastInDim S64x32x5x4 ![0, 1, 2, 3] bcast_S64x32x1x4_S64x32x5x4_0_1_2_3 : (⟨S64x32x1x4, .f32⟩ : BufTy).Contents (Elt F) → (⟨S64x32x5x4, .f32⟩ : BufTy).Contents (Elt F)),
    StableHlo.reshape main_v102 main_v103 rfl shapeCasts_S64x32x5x4_S64x160x4,
    StableHlo.unary main_v16 main_v104 (broadcastInDim S64x32x1 ![0, 1] bcast_S64x32_S64x32x1_0_1 : (⟨S64x32, .f32⟩ : BufTy).Contents (Elt F) → (⟨S64x32x1, .f32⟩ : BufTy).Contents (Elt F)),
    StableHlo.unary main_v104 main_v105 (broadcastInDim S64x32x5 ![0, 1, 2] bcast_S64x32x1_S64x32x5_0_1_2 : (⟨S64x32x1, .f32⟩ : BufTy).Contents (Elt F) → (⟨S64x32x5, .f32⟩ : BufTy).Contents (Elt F)),
    StableHlo.reshape main_v105 main_v106 rfl shapeCasts_S64x32x5_S64x160,
    StableHlo.unary main_v93 main_v107 ((extractStridedSlice S64x160x1 ![0, 0, 0] · slices_S64x160x4_S64x160x1_0_0_0) : (⟨S64x160x4, .f32⟩ : BufTy).Contents (Elt F) → (⟨S64x160x1, .f32⟩ : BufTy).Contents (Elt F)),
    StableHlo.reshape main_v107 main_v108 rfl shapeCasts_S64x160x1_S64x160,
    StableHlo.unary main_v93 main_v109 ((extractStridedSlice S64x160x1 ![0, 0, 1] · slices_S64x160x4_S64x160x1_0_0_1) : (⟨S64x160x4, .f32⟩ : BufTy).Contents (Elt F) → (⟨S64x160x1, .f32⟩ : BufTy).Contents (Elt F)),
    StableHlo.reshape main_v109 main_v110 rfl shapeCasts_S64x160x1_S64x160,
    StableHlo.unary main_v93 main_v111 ((extractStridedSlice S64x160x1 ![0, 0, 2] · slices_S64x160x4_S64x160x1_0_0_2) : (⟨S64x160x4, .f32⟩ : BufTy).Contents (Elt F) → (⟨S64x160x1, .f32⟩ : BufTy).Contents (Elt F)),
    StableHlo.reshape main_v111 main_v112 rfl shapeCasts_S64x160x1_S64x160,
    StableHlo.unary main_v93 main_v113 ((extractStridedSlice S64x160x1 ![0, 0, 3] · slices_S64x160x4_S64x160x1_0_0_3) : (⟨S64x160x4, .f32⟩ : BufTy).Contents (Elt F) → (⟨S64x160x1, .f32⟩ : BufTy).Contents (Elt F)),
    StableHlo.reshape main_v113 main_v114 rfl shapeCasts_S64x160x1_S64x160,
    StableHlo.unary main_v103 main_v115 ((extractStridedSlice S64x160x1 ![0, 0, 0] · slices_S64x160x4_S64x160x1_0_0_0) : (⟨S64x160x4, .f32⟩ : BufTy).Contents (Elt F) → (⟨S64x160x1, .f32⟩ : BufTy).Contents (Elt F)),
    StableHlo.reshape main_v115 main_v116 rfl shapeCasts_S64x160x1_S64x160,
    StableHlo.unary main_v103 main_v117 ((extractStridedSlice S64x160x1 ![0, 0, 1] · slices_S64x160x4_S64x160x1_0_0_1) : (⟨S64x160x4, .f32⟩ : BufTy).Contents (Elt F) → (⟨S64x160x1, .f32⟩ : BufTy).Contents (Elt F)),
    StableHlo.reshape main_v117 main_v118 rfl shapeCasts_S64x160x1_S64x160,
    StableHlo.unary main_v103 main_v119 ((extractStridedSlice S64x160x1 ![0, 0, 2] · slices_S64x160x4_S64x160x1_0_0_2) : (⟨S64x160x4, .f32⟩ : BufTy).Contents (Elt F) → (⟨S64x160x1, .f32⟩ : BufTy).Contents (Elt F)),
    StableHlo.reshape main_v119 main_v120 rfl shapeCasts_S64x160x1_S64x160,
    StableHlo.unary main_v103 main_v121 ((extractStridedSlice S64x160x1 ![0, 0, 3] · slices_S64x160x4_S64x160x1_0_0_3) : (⟨S64x160x4, .f32⟩ : BufTy).Contents (Elt F) → (⟨S64x160x1, .f32⟩ : BufTy).Contents (Elt F)),
    StableHlo.reshape main_v121 main_v122 rfl shapeCasts_S64x160x1_S64x160 ]
abbrev seg_16b_W : List (Ref sig .tc) := [main_v101, main_v102, main_v103, main_v104, main_v105, main_v106, main_v107, main_v108, main_v109, main_v110, main_v111, main_v112, main_v113, main_v114, main_v115, main_v116, main_v117, main_v118, main_v119, main_v120, main_v121, main_v122]
theorem seg_16b_writes : (seg_16b : List (HloOp τ sig (Elt F))).Forall fun op => op.writes ⊆ (seg_16b_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- The valuation after stretch 16: the stretch is its parts in a row. -/
def W18 (c : Dev nD) : Valuation τ sig (Elt F) := V18 m outs c
theorem hostOps1_16_parts : (hostOps1_16 : List (HloOp τ sig (Elt F))) = seg_16a ++ (seg_16b) := rfl
theorem W18_step (c : Dev nD) : W18 m outs c = StableHlo.after seg_16b (W18a m outs c) := by
  show StableHlo.after hostOps1_16 (W17 m outs c) = _
  rw [hostOps1_16_parts, after_append']
  rfl
theorem W18_keep (c : Dev nD) (r : Ref sig .tc) (h : r ∉ seg_16b_W) :
    W18 m outs c (Proc.devRef .tc r) = W18a m outs c (Proc.devRef .tc r) := by
  rw [W18_step]; exact after_of_writes_sub seg_16b _ seg_16b_writes h
theorem W18_main_v93 (c : Dev nD) : W18 m outs c (no_index (Proc.devRef .tc main_v93)) = k_main_v93 (V0 m c (Proc.devRef .tc main_arg0)) (V0 m c (Proc.devRef .tc main_arg1)) (V0 m c (Proc.devRef .tc main_arg2)) (V0 m c (Proc.devRef .tc main_arg3)) (V0 m c (Proc.devRef .tc main_arg4)) :=
  (W18_keep m outs c main_v93 (by decide)).trans (W18a_main_v93 m outs c)
theorem W18_main_v95 (c : Dev nD) : W18 m outs c (no_index (Proc.devRef .tc main_v95)) = k_main_v95 (V0 m c (Proc.devRef .tc main_arg0)) (V0 m c (Proc.devRef .tc main_arg1)) (V0 m c (Proc.devRef .tc main_arg2)) (V0 m c (Proc.devRef .tc main_arg3)) (V0 m c (Proc.devRef .tc main_arg4)) :=
  (W18_keep m outs c main_v95 (by decide)).trans (W18a_main_v95 m outs c)
set_option maxHeartbeats 4000000 in
theorem W18_main_v103 (c : Dev nD) : W18 m outs c (no_index (Proc.devRef .tc main_v103)) = k_main_v103 (V0 m c (Proc.devRef .tc main_arg0)) (V0 m c (Proc.devRef .tc main_arg1)) (V0 m c (Proc.devRef .tc main_arg2)) (V0 m c (Proc.devRef .tc main_arg3)) (V0 m c (Proc.devRef .tc main_arg4)) := by
  rw [W18_step]
  simp only [seg_16b]
  after_results_simp
  try dsimp only [Matrix.cons_val]
  try after_results_simp
  try simp only [W18a_main_v100, TRef.toBuf, TRef.ofBuf, cast_cast, cast_eq]
  all_goals rfl
set_option maxHeartbeats 4000000 in
theorem W18_main_v106 (c : Dev nD) : W18 m outs c (no_index (Proc.devRef .tc main_v106)) = k_main_v106 (V0 m c (Proc.devRef .tc main_arg0)) (V0 m c (Proc.devRef .tc main_arg1)) (V0 m c (Proc.devRef .tc main_arg2)) (V0 m c (Proc.devRef .tc main_arg3)) (V0 m c (Proc.devRef .tc main_arg4)) := by
  rw [W18_step]
  simp only [seg_16b]
  after_results_simp
  try dsimp only [Matrix.cons_val]
  try after_results_simp
  try simp only [W18a_main_v16, TRef.toBuf, TRef.ofBuf, cast_cast, cast_eq]
  all_goals rfl
set_option maxHeartbeats 4000000 in
theorem W18_main_v108 (c : Dev nD) : W18 m outs c (no_index (Proc.devRef .tc main_v108)) = k_main_v108 (V0 m c (Proc.devRef .tc main_arg0)) (V0 m c (Proc.devRef .tc main_arg1)) (V0 m c (Proc.devRef .tc main_arg2)) (V0 m c (Proc.devRef .tc main_arg3)) (V0 m c (Proc.devRef .tc main_arg4)) := by
  rw [W18_step]
  simp only [seg_16b]
  after_results_simp
  try dsimp only [Matrix.cons_val]
  try after_results_simp
  try simp only [W18a_main_v93, TRef.toBuf, TRef.ofBuf, cast_cast, cast_eq]
  all_goals rfl
set_option maxHeartbeats 4000000 in
theorem W18_main_v110 (c : Dev nD) : W18 m outs c (no_index (Proc.devRef .tc main_v110)) = k_main_v110 (V0 m c (Proc.devRef .tc main_arg0)) (V0 m c (Proc.devRef .tc main_arg1)) (V0 m c (Proc.devRef .tc main_arg2)) (V0 m c (Proc.devRef .tc main_arg3)) (V0 m c (Proc.devRef .tc main_arg4)) := by
  rw [W18_step]
  simp only [seg_16b]
  after_results_simp
  try dsimp only [Matrix.cons_val]
  try after_results_simp
  try simp only [W18a_main_v93, TRef.toBuf, TRef.ofBuf, cast_cast, cast_eq]
  all_goals rfl
set_option maxHeartbeats 4000000 in
theorem W18_main_v112 (c : Dev nD) : W18 m outs c (no_index (Proc.devRef .tc main_v112)) = k_main_v112 (V0 m c (Proc.devRef .tc main_arg0)) (V0 m c (Proc.devRef .tc main_arg1)) (V0 m c (Proc.devRef .tc main_arg2)) (V0 m c (Proc.devRef .tc main_arg3)) (V0 m c (Proc.devRef .tc main_arg4)) := by
  rw [W18_step]
  simp only [seg_16b]
  after_results_simp
  try dsimp only [Matrix.cons_val]
  try after_results_simp
  try simp only [W18a_main_v93, TRef.toBuf, TRef.ofBuf, cast_cast, cast_eq]
  all_goals rfl
set_option maxHeartbeats 4000000 in
theorem W18_main_v114 (c : Dev nD) : W18 m outs c (no_index (Proc.devRef .tc main_v114)) = k_main_v114 (V0 m c (Proc.devRef .tc main_arg0)) (V0 m c (Proc.devRef .tc main_arg1)) (V0 m c (Proc.devRef .tc main_arg2)) (V0 m c (Proc.devRef .tc main_arg3)) (V0 m c (Proc.devRef .tc main_arg4)) := by
  rw [W18_step]
  simp only [seg_16b]
  after_results_simp
  try dsimp only [Matrix.cons_val]
  try after_results_simp
  try simp only [W18a_main_v93, TRef.toBuf, TRef.ofBuf, cast_cast, cast_eq]
  all_goals rfl
set_option maxHeartbeats 4000000 in
theorem W18_main_v116 (c : Dev nD) : W18 m outs c (no_index (Proc.devRef .tc main_v116)) = k_main_v116 (V0 m c (Proc.devRef .tc main_arg0)) (V0 m c (Proc.devRef .tc main_arg1)) (V0 m c (Proc.devRef .tc main_arg2)) (V0 m c (Proc.devRef .tc main_arg3)) (V0 m c (Proc.devRef .tc main_arg4)) := by
  rw [W18_step]
  simp only [seg_16b]
  after_results_simp
  try dsimp only [Matrix.cons_val]
  try after_results_simp
  try simp only [W18a_main_v100, TRef.toBuf, TRef.ofBuf, cast_cast, cast_eq]
  all_goals rfl
set_option maxHeartbeats 4000000 in
theorem W18_main_v118 (c : Dev nD) : W18 m outs c (no_index (Proc.devRef .tc main_v118)) = k_main_v118 (V0 m c (Proc.devRef .tc main_arg0)) (V0 m c (Proc.devRef .tc main_arg1)) (V0 m c (Proc.devRef .tc main_arg2)) (V0 m c (Proc.devRef .tc main_arg3)) (V0 m c (Proc.devRef .tc main_arg4)) := by
  rw [W18_step]
  simp only [seg_16b]
  after_results_simp
  try dsimp only [Matrix.cons_val]
  try after_results_simp
  try simp only [W18a_main_v100, TRef.toBuf, TRef.ofBuf, cast_cast, cast_eq]
  all_goals rfl
set_option maxHeartbeats 4000000 in
theorem W18_main_v120 (c : Dev nD) : W18 m outs c (no_index (Proc.devRef .tc main_v120)) = k_main_v120 (V0 m c (Proc.devRef .tc main_arg0)) (V0 m c (Proc.devRef .tc main_arg1)) (V0 m c (Proc.devRef .tc main_arg2)) (V0 m c (Proc.devRef .tc main_arg3)) (V0 m c (Proc.devRef .tc main_arg4)) := by
  rw [W18_step]
  simp only [seg_16b]
  after_results_simp
  try dsimp only [Matrix.cons_val]
  try after_results_simp
  try simp only [W18a_main_v100, TRef.toBuf, TRef.ofBuf, cast_cast, cast_eq]
  all_goals rfl
set_option maxHeartbeats 4000000 in
theorem W18_main_v122 (c : Dev nD) : W18 m outs c (no_index (Proc.devRef .tc main_v122)) = k_main_v122 (V0 m c (Proc.devRef .tc main_arg0)) (V0 m c (Proc.devRef .tc main_arg1)) (V0 m c (Proc.devRef .tc main_arg2)) (V0 m c (Proc.devRef .tc main_arg3)) (V0 m c (Proc.devRef .tc main_arg4)) := by
  rw [W18_step]
  simp only [seg_16b]
  after_results_simp
  try dsimp only [Matrix.cons_val]
  try after_results_simp
  try simp only [W18a_main_v100, TRef.toBuf, TRef.ofBuf, cast_cast, cast_eq]
  all_goals rfl

/-! ## The second reduction's operands -/

theorem gp_eq (c : Dev nD) : V18 m outs c (Proc.devRef .tc main_v93) = kgp (V0 m c (Proc.devRef .tc main_arg0)) (V0 m c (Proc.devRef .tc main_arg1)) (V0 m c (Proc.devRef .tc main_arg2)) (V0 m c (Proc.devRef .tc main_arg3)) (V0 m c (Proc.devRef .tc main_arg4)) := W18_main_v93 m outs c
theorem gc_eq (c : Dev nD) : V18 m outs c (Proc.devRef .tc main_v95) = kgc (V0 m c (Proc.devRef .tc main_arg0)) (V0 m c (Proc.devRef .tc main_arg1)) (V0 m c (Proc.devRef .tc main_arg2)) (V0 m c (Proc.devRef .tc main_arg3)) (V0 m c (Proc.devRef .tc main_arg4)) := W18_main_v95 m outs c
theorem tb_eq (c : Dev nD) : V18 m outs c (Proc.devRef .tc main_v103) = ktb (V0 m c (Proc.devRef .tc main_arg0)) (V0 m c (Proc.devRef .tc main_arg1)) (V0 m c (Proc.devRef .tc main_arg2)) (V0 m c (Proc.devRef .tc main_arg3)) (V0 m c (Proc.devRef .tc main_arg4)) := W18_main_v103 m outs c
theorem tc_eq (c : Dev nD) : V18 m outs c (Proc.devRef .tc main_v106) = ktc (V0 m c (Proc.devRef .tc main_arg0)) (V0 m c (Proc.devRef .tc main_arg1)) (V0 m c (Proc.devRef .tc main_arg2)) (V0 m c (Proc.devRef .tc main_arg3)) (V0 m c (Proc.devRef .tc main_arg4)) := W18_main_v106 m outs c

/-- Column 0 of `main_v93`. -/
theorem col_main_v108 (c : Dev nD) : V18 m outs c (Proc.devRef .tc main_v108)
    = shapeCast S64x160 (extractStridedSlice S64x160x1 ![0, 0, 0] (V18 m outs c (Proc.devRef .tc main_v93)) slices_S64x160x4_S64x160x1_0_0_0) shapeCasts_S64x160x1_S64x160 :=
  (W18_main_v108 m outs c).trans (by rw [show V18 m outs c (Proc.devRef .tc main_v93) = k_main_v93 (V0 m c (Proc.devRef .tc main_arg0)) (V0 m c (Proc.devRef .tc main_arg1)) (V0 m c (Proc.devRef .tc main_arg2)) (V0 m c (Proc.devRef .tc main_arg3)) (V0 m c (Proc.devRef .tc main_arg4)) from W18_main_v93 m outs c]; rfl)

/-- Column 1 of `main_v93`. -/
theorem col_main_v110 (c : Dev nD) : V18 m outs c (Proc.devRef .tc main_v110)
    = shapeCast S64x160 (extractStridedSlice S64x160x1 ![0, 0, 1] (V18 m outs c (Proc.devRef .tc main_v93)) slices_S64x160x4_S64x160x1_0_0_1) shapeCasts_S64x160x1_S64x160 :=
  (W18_main_v110 m outs c).trans (by rw [show V18 m outs c (Proc.devRef .tc main_v93) = k_main_v93 (V0 m c (Proc.devRef .tc main_arg0)) (V0 m c (Proc.devRef .tc main_arg1)) (V0 m c (Proc.devRef .tc main_arg2)) (V0 m c (Proc.devRef .tc main_arg3)) (V0 m c (Proc.devRef .tc main_arg4)) from W18_main_v93 m outs c]; rfl)

/-- Column 2 of `main_v93`. -/
theorem col_main_v112 (c : Dev nD) : V18 m outs c (Proc.devRef .tc main_v112)
    = shapeCast S64x160 (extractStridedSlice S64x160x1 ![0, 0, 2] (V18 m outs c (Proc.devRef .tc main_v93)) slices_S64x160x4_S64x160x1_0_0_2) shapeCasts_S64x160x1_S64x160 :=
  (W18_main_v112 m outs c).trans (by rw [show V18 m outs c (Proc.devRef .tc main_v93) = k_main_v93 (V0 m c (Proc.devRef .tc main_arg0)) (V0 m c (Proc.devRef .tc main_arg1)) (V0 m c (Proc.devRef .tc main_arg2)) (V0 m c (Proc.devRef .tc main_arg3)) (V0 m c (Proc.devRef .tc main_arg4)) from W18_main_v93 m outs c]; rfl)

/-- Column 3 of `main_v93`. -/
theorem col_main_v114 (c : Dev nD) : V18 m outs c (Proc.devRef .tc main_v114)
    = shapeCast S64x160 (extractStridedSlice S64x160x1 ![0, 0, 3] (V18 m outs c (Proc.devRef .tc main_v93)) slices_S64x160x4_S64x160x1_0_0_3) shapeCasts_S64x160x1_S64x160 :=
  (W18_main_v114 m outs c).trans (by rw [show V18 m outs c (Proc.devRef .tc main_v93) = k_main_v93 (V0 m c (Proc.devRef .tc main_arg0)) (V0 m c (Proc.devRef .tc main_arg1)) (V0 m c (Proc.devRef .tc main_arg2)) (V0 m c (Proc.devRef .tc main_arg3)) (V0 m c (Proc.devRef .tc main_arg4)) from W18_main_v93 m outs c]; rfl)

/-- Column 0 of `main_v103`. -/
theorem col_main_v116 (c : Dev nD) : V18 m outs c (Proc.devRef .tc main_v116)
    = shapeCast S64x160 (extractStridedSlice S64x160x1 ![0, 0, 0] (V18 m outs c (Proc.devRef .tc main_v103)) slices_S64x160x4_S64x160x1_0_0_0) shapeCasts_S64x160x1_S64x160 :=
  (W18_main_v116 m outs c).trans (by rw [show V18 m outs c (Proc.devRef .tc main_v103) = k_main_v103 (V0 m c (Proc.devRef .tc main_arg0)) (V0 m c (Proc.devRef .tc main_arg1)) (V0 m c (Proc.devRef .tc main_arg2)) (V0 m c (Proc.devRef .tc main_arg3)) (V0 m c (Proc.devRef .tc main_arg4)) from W18_main_v103 m outs c]; rfl)

/-- Column 1 of `main_v103`. -/
theorem col_main_v118 (c : Dev nD) : V18 m outs c (Proc.devRef .tc main_v118)
    = shapeCast S64x160 (extractStridedSlice S64x160x1 ![0, 0, 1] (V18 m outs c (Proc.devRef .tc main_v103)) slices_S64x160x4_S64x160x1_0_0_1) shapeCasts_S64x160x1_S64x160 :=
  (W18_main_v118 m outs c).trans (by rw [show V18 m outs c (Proc.devRef .tc main_v103) = k_main_v103 (V0 m c (Proc.devRef .tc main_arg0)) (V0 m c (Proc.devRef .tc main_arg1)) (V0 m c (Proc.devRef .tc main_arg2)) (V0 m c (Proc.devRef .tc main_arg3)) (V0 m c (Proc.devRef .tc main_arg4)) from W18_main_v103 m outs c]; rfl)

/-- Column 2 of `main_v103`. -/
theorem col_main_v120 (c : Dev nD) : V18 m outs c (Proc.devRef .tc main_v120)
    = shapeCast S64x160 (extractStridedSlice S64x160x1 ![0, 0, 2] (V18 m outs c (Proc.devRef .tc main_v103)) slices_S64x160x4_S64x160x1_0_0_2) shapeCasts_S64x160x1_S64x160 :=
  (W18_main_v120 m outs c).trans (by rw [show V18 m outs c (Proc.devRef .tc main_v103) = k_main_v103 (V0 m c (Proc.devRef .tc main_arg0)) (V0 m c (Proc.devRef .tc main_arg1)) (V0 m c (Proc.devRef .tc main_arg2)) (V0 m c (Proc.devRef .tc main_arg3)) (V0 m c (Proc.devRef .tc main_arg4)) from W18_main_v103 m outs c]; rfl)

/-- Column 3 of `main_v103`. -/
theorem col_main_v122 (c : Dev nD) : V18 m outs c (Proc.devRef .tc main_v122)
    = shapeCast S64x160 (extractStridedSlice S64x160x1 ![0, 0, 3] (V18 m outs c (Proc.devRef .tc main_v103)) slices_S64x160x4_S64x160x1_0_0_3) shapeCasts_S64x160x1_S64x160 :=
  (W18_main_v122 m outs c).trans (by rw [show V18 m outs c (Proc.devRef .tc main_v103) = k_main_v103 (V0 m c (Proc.devRef .tc main_arg0)) (V0 m c (Proc.devRef .tc main_arg1)) (V0 m c (Proc.devRef .tc main_arg2)) (V0 m c (Proc.devRef .tc main_arg3)) (V0 m c (Proc.devRef .tc main_arg4)) from W18_main_v103 m outs c]; rfl)

end Cert.KernelIdeal.Read

end
-- ==== Proof.SharedPrefix.lean ====
/- The two programs' shared prefix: the reference's stage terms of the gathered predicted boxes, the gathered
   confidence, the target boxes and the target confidence are the kernel program's stage terms of the same five
   argument arrays. Both come from the same operations in the same order, so each stage unfolds to the same
   tree once the earlier stages are identified. -/
import proofs.«167267_j69861938037475_1_alg».proof.Proof.RefTerms
import proofs.«167267_j69861938037475_1_alg».proof.Proof.KernelReadDefs

noncomputable section

namespace Cert.SharedPrefix

open Idealize.ShloMosaic Idealize.ShloMosaic.TcCoe Idealize.SL.Sem Idealize.ShloMosaic.StableHlo

variable {F : FTy → Type} [FloatOps F]

set_option maxRecDepth 16384

set_option maxHeartbeats 1000000 in
theorem sp_main_v31 (V0 : Valuation Cert.ReferenceIdeal.τ Cert.ReferenceIdeal.sig (Elt F)) :
    Cert.ReferenceIdeal.HandRun.term_main_v31 V0 = Cert.KernelIdeal.Read.k_main_v16 (V0 (Proc.devRef .tc Cert.ReferenceIdeal.main_arg0)) (V0 (Proc.devRef .tc Cert.ReferenceIdeal.main_arg1)) (V0 (Proc.devRef .tc Cert.ReferenceIdeal.main_arg2)) (V0 (Proc.devRef .tc Cert.ReferenceIdeal.main_arg3)) (V0 (Proc.devRef .tc Cert.ReferenceIdeal.main_arg4)) := by
  simp only [Cert.ReferenceIdeal.HandRun.term_main_v31]
  unfold Cert.KernelIdeal.Read.k_main_v16
  rfl

set_option maxHeartbeats 1000000 in
theorem sp_main_v36 (V0 : Valuation Cert.ReferenceIdeal.τ Cert.ReferenceIdeal.sig (Elt F)) :
    Cert.ReferenceIdeal.HandRun.term_main_v36 V0 = Cert.KernelIdeal.Read.k_main_v21 (V0 (Proc.devRef .tc Cert.ReferenceIdeal.main_arg0)) (V0 (Proc.devRef .tc Cert.ReferenceIdeal.main_arg1)) (V0 (Proc.devRef .tc Cert.ReferenceIdeal.main_arg2)) (V0 (Proc.devRef .tc Cert.ReferenceIdeal.main_arg3)) (V0 (Proc.devRef .tc Cert.ReferenceIdeal.main_arg4)) := by
  simp only [Cert.ReferenceIdeal.HandRun.term_main_v36]
  unfold Cert.KernelIdeal.Read.k_main_v21
  rfl

set_option maxHeartbeats 1000000 in
theorem sp_main_v40 (V0 : Valuation Cert.ReferenceIdeal.τ Cert.ReferenceIdeal.sig (Elt F)) :
    Cert.ReferenceIdeal.HandRun.term_main_v40 V0 = Cert.KernelIdeal.Read.k_main_v25 (V0 (Proc.devRef .tc Cert.ReferenceIdeal.main_arg0)) (V0 (Proc.devRef .tc Cert.ReferenceIdeal.main_arg1)) (V0 (Proc.devRef .tc Cert.ReferenceIdeal.main_arg2)) (V0 (Proc.devRef .tc Cert.ReferenceIdeal.main_arg3)) (V0 (Proc.devRef .tc Cert.ReferenceIdeal.main_arg4)) := by
  simp only [Cert.ReferenceIdeal.HandRun.term_main_v40]
  unfold Cert.KernelIdeal.Read.k_main_v25
  rfl

set_option maxHeartbeats 1000000 in
theorem sp_main_cst_17 (V0 : Valuation Cert.ReferenceIdeal.τ Cert.ReferenceIdeal.sig (Elt F)) :
    Cert.ReferenceIdeal.HandRun.term_main_cst_17 V0 = Cert.KernelIdeal.Read.k_main_cst_10 (V0 (Proc.devRef .tc Cert.ReferenceIdeal.main_arg0)) (V0 (Proc.devRef .tc Cert.ReferenceIdeal.main_arg1)) (V0 (Proc.devRef .tc Cert.ReferenceIdeal.main_arg2)) (V0 (Proc.devRef .tc Cert.ReferenceIdeal.main_arg3)) (V0 (Proc.devRef .tc Cert.ReferenceIdeal.main_arg4)) := by
  simp only [Cert.ReferenceIdeal.HandRun.term_main_cst_17]
  unfold Cert.KernelIdeal.Read.k_main_cst_10
  rfl

set_option maxHeartbeats 1000000 in
theorem sp_main_v41 (V0 : Valuation Cert.ReferenceIdeal.τ Cert.ReferenceIdeal.sig (Elt F)) :
    Cert.ReferenceIdeal.HandRun.term_main_v41 V0 = Cert.KernelIdeal.Read.k_main_v26 (V0 (Proc.devRef .tc Cert.ReferenceIdeal.main_arg0)) (V0 (Proc.devRef .tc Cert.ReferenceIdeal.main_arg1)) (V0 (Proc.devRef .tc Cert.ReferenceIdeal.main_arg2)) (V0 (Proc.devRef .tc Cert.ReferenceIdeal.main_arg3)) (V0 (Proc.devRef .tc Cert.ReferenceIdeal.main_arg4)) := by
  simp only [Cert.ReferenceIdeal.HandRun.term_main_v41, sp_main_cst_17, sp_main_v40]
  unfold Cert.KernelIdeal.Read.k_main_v26
  rfl

set_option maxHeartbeats 1000000 in
theorem sp_main_v50 (V0 : Valuation Cert.ReferenceIdeal.τ Cert.ReferenceIdeal.sig (Elt F)) :
    Cert.ReferenceIdeal.HandRun.term_main_v50 V0 = Cert.KernelIdeal.Read.k_main_v35 (V0 (Proc.devRef .tc Cert.ReferenceIdeal.main_arg0)) (V0 (Proc.devRef .tc Cert.ReferenceIdeal.main_arg1)) (V0 (Proc.devRef .tc Cert.ReferenceIdeal.main_arg2)) (V0 (Proc.devRef .tc Cert.ReferenceIdeal.main_arg3)) (V0 (Proc.devRef .tc Cert.ReferenceIdeal.main_arg4)) := by
  simp only [Cert.ReferenceIdeal.HandRun.term_main_v50, sp_main_v36]
  unfold Cert.KernelIdeal.Read.k_main_v35
  rfl

set_option maxHeartbeats 1000000 in
theorem sp_main_v59 (V0 : Valuation Cert.ReferenceIdeal.τ Cert.ReferenceIdeal.sig (Elt F)) :
    Cert.ReferenceIdeal.HandRun.term_main_v59 V0 = Cert.KernelIdeal.Read.k_main_v44 (V0 (Proc.devRef .tc Cert.ReferenceIdeal.main_arg0)) (V0 (Proc.devRef .tc Cert.ReferenceIdeal.main_arg1)) (V0 (Proc.devRef .tc Cert.ReferenceIdeal.main_arg2)) (V0 (Proc.devRef .tc Cert.ReferenceIdeal.main_arg3)) (V0 (Proc.devRef .tc Cert.ReferenceIdeal.main_arg4)) := by
  simp only [Cert.ReferenceIdeal.HandRun.term_main_v59, Cert.ReferenceIdeal.HandRun.term_main_v52, Cert.ReferenceIdeal.HandRun.term_main_v54, Cert.ReferenceIdeal.HandRun.term_main_cst_23, sp_main_v41]
  unfold Cert.KernelIdeal.Read.k_main_v44
  rfl

set_option maxHeartbeats 1000000 in
theorem sp_main_v63 (V0 : Valuation Cert.ReferenceIdeal.τ Cert.ReferenceIdeal.sig (Elt F)) :
    Cert.ReferenceIdeal.HandRun.term_main_v63 V0 = Cert.KernelIdeal.Read.k_main_v48 (V0 (Proc.devRef .tc Cert.ReferenceIdeal.main_arg0)) (V0 (Proc.devRef .tc Cert.ReferenceIdeal.main_arg1)) (V0 (Proc.devRef .tc Cert.ReferenceIdeal.main_arg2)) (V0 (Proc.devRef .tc Cert.ReferenceIdeal.main_arg3)) (V0 (Proc.devRef .tc Cert.ReferenceIdeal.main_arg4)) := by
  simp only [Cert.ReferenceIdeal.HandRun.term_main_v63, sp_main_v36]
  unfold Cert.KernelIdeal.Read.k_main_v48
  rfl

set_option maxHeartbeats 1000000 in
theorem sp_main_v66 (V0 : Valuation Cert.ReferenceIdeal.τ Cert.ReferenceIdeal.sig (Elt F)) :
    Cert.ReferenceIdeal.HandRun.term_main_v66 V0 = Cert.KernelIdeal.Read.k_main_v51 (V0 (Proc.devRef .tc Cert.ReferenceIdeal.main_arg0)) (V0 (Proc.devRef .tc Cert.ReferenceIdeal.main_arg1)) (V0 (Proc.devRef .tc Cert.ReferenceIdeal.main_arg2)) (V0 (Proc.devRef .tc Cert.ReferenceIdeal.main_arg3)) (V0 (Proc.devRef .tc Cert.ReferenceIdeal.main_arg4)) := by
  simp only [Cert.ReferenceIdeal.HandRun.term_main_v66, sp_main_v41]
  unfold Cert.KernelIdeal.Read.k_main_v51
  rfl

set_option maxHeartbeats 1000000 in
theorem sp_main_c_29 (V0 : Valuation Cert.ReferenceIdeal.τ Cert.ReferenceIdeal.sig (Elt F)) :
    Cert.ReferenceIdeal.HandRun.term_main_c_29 V0 = Cert.KernelIdeal.Read.k_main_c_22 (V0 (Proc.devRef .tc Cert.ReferenceIdeal.main_arg0)) (V0 (Proc.devRef .tc Cert.ReferenceIdeal.main_arg1)) (V0 (Proc.devRef .tc Cert.ReferenceIdeal.main_arg2)) (V0 (Proc.devRef .tc Cert.ReferenceIdeal.main_arg3)) (V0 (Proc.devRef .tc Cert.ReferenceIdeal.main_arg4)) := by
  simp only [Cert.ReferenceIdeal.HandRun.term_main_c_29]
  unfold Cert.KernelIdeal.Read.k_main_c_22
  rfl

set_option maxHeartbeats 1000000 in
theorem sp_main_v67 (V0 : Valuation Cert.ReferenceIdeal.τ Cert.ReferenceIdeal.sig (Elt F)) :
    Cert.ReferenceIdeal.HandRun.term_main_v67 V0 = Cert.KernelIdeal.Read.k_main_v52 (V0 (Proc.devRef .tc Cert.ReferenceIdeal.main_arg0)) (V0 (Proc.devRef .tc Cert.ReferenceIdeal.main_arg1)) (V0 (Proc.devRef .tc Cert.ReferenceIdeal.main_arg2)) (V0 (Proc.devRef .tc Cert.ReferenceIdeal.main_arg3)) (V0 (Proc.devRef .tc Cert.ReferenceIdeal.main_arg4)) := by
  simp only [Cert.ReferenceIdeal.HandRun.term_main_v67, Cert.ReferenceIdeal.HandRun.term_main_call3_v0, sp_main_c_29, sp_main_v66]
  unfold Cert.KernelIdeal.Read.k_main_v52
  rfl

set_option maxHeartbeats 1000000 in
theorem sp_main_v75 (V0 : Valuation Cert.ReferenceIdeal.τ Cert.ReferenceIdeal.sig (Elt F)) :
    Cert.ReferenceIdeal.HandRun.term_main_v75 V0 = Cert.KernelIdeal.Read.k_main_v60 (V0 (Proc.devRef .tc Cert.ReferenceIdeal.main_arg0)) (V0 (Proc.devRef .tc Cert.ReferenceIdeal.main_arg1)) (V0 (Proc.devRef .tc Cert.ReferenceIdeal.main_arg2)) (V0 (Proc.devRef .tc Cert.ReferenceIdeal.main_arg3)) (V0 (Proc.devRef .tc Cert.ReferenceIdeal.main_arg4)) := by
  simp only [Cert.ReferenceIdeal.HandRun.term_main_v75, sp_main_v63, sp_main_v50]
  unfold Cert.KernelIdeal.Read.k_main_v60
  rfl

set_option maxHeartbeats 1000000 in
theorem sp_main_v83 (V0 : Valuation Cert.ReferenceIdeal.τ Cert.ReferenceIdeal.sig (Elt F)) :
    Cert.ReferenceIdeal.HandRun.term_main_v83 V0 = Cert.KernelIdeal.Read.k_main_v68 (V0 (Proc.devRef .tc Cert.ReferenceIdeal.main_arg0)) (V0 (Proc.devRef .tc Cert.ReferenceIdeal.main_arg1)) (V0 (Proc.devRef .tc Cert.ReferenceIdeal.main_arg2)) (V0 (Proc.devRef .tc Cert.ReferenceIdeal.main_arg3)) (V0 (Proc.devRef .tc Cert.ReferenceIdeal.main_arg4)) := by
  simp only [Cert.ReferenceIdeal.HandRun.term_main_v83, Cert.ReferenceIdeal.HandRun.term_main_v77, Cert.ReferenceIdeal.HandRun.term_main_v80, Cert.ReferenceIdeal.HandRun.term_main_v81, sp_main_v67, sp_main_v59]
  unfold Cert.KernelIdeal.Read.k_main_v68
  rfl

set_option maxHeartbeats 1000000 in
theorem sp_main_v84 (V0 : Valuation Cert.ReferenceIdeal.τ Cert.ReferenceIdeal.sig (Elt F)) :
    Cert.ReferenceIdeal.HandRun.term_main_v84 V0 = Cert.KernelIdeal.Read.k_main_v69 (V0 (Proc.devRef .tc Cert.ReferenceIdeal.main_arg0)) (V0 (Proc.devRef .tc Cert.ReferenceIdeal.main_arg1)) (V0 (Proc.devRef .tc Cert.ReferenceIdeal.main_arg2)) (V0 (Proc.devRef .tc Cert.ReferenceIdeal.main_arg3)) (V0 (Proc.devRef .tc Cert.ReferenceIdeal.main_arg4)) := by
  simp only [Cert.ReferenceIdeal.HandRun.term_main_v84, sp_main_v67, sp_main_v83]
  unfold Cert.KernelIdeal.Read.k_main_v69
  rfl

set_option maxHeartbeats 1000000 in
theorem sp_main_v85 (V0 : Valuation Cert.ReferenceIdeal.τ Cert.ReferenceIdeal.sig (Elt F)) :
    Cert.ReferenceIdeal.HandRun.term_main_v85 V0 = Cert.KernelIdeal.Read.k_main_v70 (V0 (Proc.devRef .tc Cert.ReferenceIdeal.main_arg0)) (V0 (Proc.devRef .tc Cert.ReferenceIdeal.main_arg1)) (V0 (Proc.devRef .tc Cert.ReferenceIdeal.main_arg2)) (V0 (Proc.devRef .tc Cert.ReferenceIdeal.main_arg3)) (V0 (Proc.devRef .tc Cert.ReferenceIdeal.main_arg4)) := by
  simp only [Cert.ReferenceIdeal.HandRun.term_main_v85, Cert.ReferenceIdeal.HandRun.term_main_call4_v0, Cert.ReferenceIdeal.HandRun.term_main_call4_v2, sp_main_v84]
  unfold Cert.KernelIdeal.Read.k_main_v70
  rfl

set_option maxHeartbeats 1000000 in
theorem sp_main_v86 (V0 : Valuation Cert.ReferenceIdeal.τ Cert.ReferenceIdeal.sig (Elt F)) :
    Cert.ReferenceIdeal.HandRun.term_main_v86 V0 = Cert.KernelIdeal.Read.k_main_v71 (V0 (Proc.devRef .tc Cert.ReferenceIdeal.main_arg0)) (V0 (Proc.devRef .tc Cert.ReferenceIdeal.main_arg1)) (V0 (Proc.devRef .tc Cert.ReferenceIdeal.main_arg2)) (V0 (Proc.devRef .tc Cert.ReferenceIdeal.main_arg3)) (V0 (Proc.devRef .tc Cert.ReferenceIdeal.main_arg4)) := by
  simp only [Cert.ReferenceIdeal.HandRun.term_main_v86, sp_main_v63, sp_main_v75]
  unfold Cert.KernelIdeal.Read.k_main_v71
  rfl

set_option maxHeartbeats 1000000 in
theorem sp_main_v93 (V0 : Valuation Cert.ReferenceIdeal.τ Cert.ReferenceIdeal.sig (Elt F)) :
    Cert.ReferenceIdeal.HandRun.term_main_v93 V0 = Cert.KernelIdeal.Read.k_main_v78 (V0 (Proc.devRef .tc Cert.ReferenceIdeal.main_arg0)) (V0 (Proc.devRef .tc Cert.ReferenceIdeal.main_arg1)) (V0 (Proc.devRef .tc Cert.ReferenceIdeal.main_arg2)) (V0 (Proc.devRef .tc Cert.ReferenceIdeal.main_arg3)) (V0 (Proc.devRef .tc Cert.ReferenceIdeal.main_arg4)) := by
  simp only [Cert.ReferenceIdeal.HandRun.term_main_v93, Cert.ReferenceIdeal.HandRun.cat_main_v93, sp_main_v85, sp_main_v67, sp_main_v83]
  unfold Cert.KernelIdeal.Read.k_main_v78
  rfl

set_option maxHeartbeats 1000000 in
theorem sp_main_v103 (V0 : Valuation Cert.ReferenceIdeal.τ Cert.ReferenceIdeal.sig (Elt F)) :
    Cert.ReferenceIdeal.HandRun.term_main_v103 V0 = Cert.KernelIdeal.Read.k_main_v88 (V0 (Proc.devRef .tc Cert.ReferenceIdeal.main_arg0)) (V0 (Proc.devRef .tc Cert.ReferenceIdeal.main_arg1)) (V0 (Proc.devRef .tc Cert.ReferenceIdeal.main_arg2)) (V0 (Proc.devRef .tc Cert.ReferenceIdeal.main_arg3)) (V0 (Proc.devRef .tc Cert.ReferenceIdeal.main_arg4)) := by
  simp only [Cert.ReferenceIdeal.HandRun.term_main_v103, Cert.ReferenceIdeal.HandRun.cat_main_v99, Cert.ReferenceIdeal.HandRun.term_main_v94, Cert.ReferenceIdeal.HandRun.term_main_call5_v0, Cert.ReferenceIdeal.HandRun.term_main_call5_v2, Cert.ReferenceIdeal.HandRun.term_main_call5_v1, Cert.ReferenceIdeal.HandRun.term_main_v95, Cert.ReferenceIdeal.HandRun.term_main_v96, Cert.ReferenceIdeal.HandRun.term_main_v97, sp_main_v93, sp_main_v86, sp_main_v63, sp_main_v75]
  unfold Cert.KernelIdeal.Read.k_main_v88
  rfl

set_option maxHeartbeats 1000000 in
theorem sp_main_v104 (V0 : Valuation Cert.ReferenceIdeal.τ Cert.ReferenceIdeal.sig (Elt F)) :
    Cert.ReferenceIdeal.HandRun.term_main_v104 V0 = Cert.KernelIdeal.Read.k_main_v89 (V0 (Proc.devRef .tc Cert.ReferenceIdeal.main_arg0)) (V0 (Proc.devRef .tc Cert.ReferenceIdeal.main_arg1)) (V0 (Proc.devRef .tc Cert.ReferenceIdeal.main_arg2)) (V0 (Proc.devRef .tc Cert.ReferenceIdeal.main_arg3)) (V0 (Proc.devRef .tc Cert.ReferenceIdeal.main_arg4)) := by
  simp only [Cert.ReferenceIdeal.HandRun.term_main_v104]
  unfold Cert.KernelIdeal.Read.k_main_v89
  rfl

set_option maxHeartbeats 1000000 in
theorem sp_main_v106 (V0 : Valuation Cert.ReferenceIdeal.τ Cert.ReferenceIdeal.sig (Elt F)) :
    Cert.ReferenceIdeal.HandRun.term_main_v106 V0 = Cert.KernelIdeal.Read.k_main_v91 (V0 (Proc.devRef .tc Cert.ReferenceIdeal.main_arg0)) (V0 (Proc.devRef .tc Cert.ReferenceIdeal.main_arg1)) (V0 (Proc.devRef .tc Cert.ReferenceIdeal.main_arg2)) (V0 (Proc.devRef .tc Cert.ReferenceIdeal.main_arg3)) (V0 (Proc.devRef .tc Cert.ReferenceIdeal.main_arg4)) := by
  simp only [Cert.ReferenceIdeal.HandRun.term_main_v106, sp_main_v103]
  unfold Cert.KernelIdeal.Read.k_main_v91
  rfl

set_option maxHeartbeats 1000000 in
theorem sp_main_v108 (V0 : Valuation Cert.ReferenceIdeal.τ Cert.ReferenceIdeal.sig (Elt F)) :
    Cert.ReferenceIdeal.HandRun.term_main_v108 V0 = Cert.KernelIdeal.Read.k_main_v93 (V0 (Proc.devRef .tc Cert.ReferenceIdeal.main_arg0)) (V0 (Proc.devRef .tc Cert.ReferenceIdeal.main_arg1)) (V0 (Proc.devRef .tc Cert.ReferenceIdeal.main_arg2)) (V0 (Proc.devRef .tc Cert.ReferenceIdeal.main_arg3)) (V0 (Proc.devRef .tc Cert.ReferenceIdeal.main_arg4)) := by
  simp only [Cert.ReferenceIdeal.HandRun.term_main_v108, Cert.ReferenceIdeal.HandRun.term_main_call6_v7, Cert.ReferenceIdeal.HandRun.term_main_call6_v5, Cert.ReferenceIdeal.HandRun.term_main_call6_v10, sp_main_v106, sp_main_v104]
  unfold Cert.KernelIdeal.Read.k_main_v93
  rfl

set_option maxHeartbeats 1000000 in
theorem sp_main_v109 (V0 : Valuation Cert.ReferenceIdeal.τ Cert.ReferenceIdeal.sig (Elt F)) :
    Cert.ReferenceIdeal.HandRun.term_main_v109 V0 = Cert.KernelIdeal.Read.k_main_v94 (V0 (Proc.devRef .tc Cert.ReferenceIdeal.main_arg0)) (V0 (Proc.devRef .tc Cert.ReferenceIdeal.main_arg1)) (V0 (Proc.devRef .tc Cert.ReferenceIdeal.main_arg2)) (V0 (Proc.devRef .tc Cert.ReferenceIdeal.main_arg3)) (V0 (Proc.devRef .tc Cert.ReferenceIdeal.main_arg4)) := by
  simp only [Cert.ReferenceIdeal.HandRun.term_main_v109]
  unfold Cert.KernelIdeal.Read.k_main_v94
  rfl

set_option maxHeartbeats 1000000 in
theorem sp_main_v110 (V0 : Valuation Cert.ReferenceIdeal.τ Cert.ReferenceIdeal.sig (Elt F)) :
    Cert.ReferenceIdeal.HandRun.term_main_v110 V0 = Cert.KernelIdeal.Read.k_main_v95 (V0 (Proc.devRef .tc Cert.ReferenceIdeal.main_arg0)) (V0 (Proc.devRef .tc Cert.ReferenceIdeal.main_arg1)) (V0 (Proc.devRef .tc Cert.ReferenceIdeal.main_arg2)) (V0 (Proc.devRef .tc Cert.ReferenceIdeal.main_arg3)) (V0 (Proc.devRef .tc Cert.ReferenceIdeal.main_arg4)) := by
  simp only [Cert.ReferenceIdeal.HandRun.term_main_v110, Cert.ReferenceIdeal.HandRun.term_main_call7_v11, Cert.ReferenceIdeal.HandRun.term_main_call7_v5, sp_main_v103, sp_main_v109]
  unfold Cert.KernelIdeal.Read.k_main_v95
  rfl

set_option maxHeartbeats 1000000 in
theorem sp_main_v118 (V0 : Valuation Cert.ReferenceIdeal.τ Cert.ReferenceIdeal.sig (Elt F)) :
    Cert.ReferenceIdeal.HandRun.term_main_v118 V0 = Cert.KernelIdeal.Read.k_main_v103 (V0 (Proc.devRef .tc Cert.ReferenceIdeal.main_arg0)) (V0 (Proc.devRef .tc Cert.ReferenceIdeal.main_arg1)) (V0 (Proc.devRef .tc Cert.ReferenceIdeal.main_arg2)) (V0 (Proc.devRef .tc Cert.ReferenceIdeal.main_arg3)) (V0 (Proc.devRef .tc Cert.ReferenceIdeal.main_arg4)) := by
  simp only [Cert.ReferenceIdeal.HandRun.term_main_v118, Cert.ReferenceIdeal.HandRun.cat_main_v115, sp_main_v36, sp_main_v41, sp_main_v50, sp_main_v59]
  unfold Cert.KernelIdeal.Read.k_main_v103
  rfl

set_option maxHeartbeats 1000000 in
theorem sp_main_v121 (V0 : Valuation Cert.ReferenceIdeal.τ Cert.ReferenceIdeal.sig (Elt F)) :
    Cert.ReferenceIdeal.HandRun.term_main_v121 V0 = Cert.KernelIdeal.Read.k_main_v106 (V0 (Proc.devRef .tc Cert.ReferenceIdeal.main_arg0)) (V0 (Proc.devRef .tc Cert.ReferenceIdeal.main_arg1)) (V0 (Proc.devRef .tc Cert.ReferenceIdeal.main_arg2)) (V0 (Proc.devRef .tc Cert.ReferenceIdeal.main_arg3)) (V0 (Proc.devRef .tc Cert.ReferenceIdeal.main_arg4)) := by
  simp only [Cert.ReferenceIdeal.HandRun.term_main_v121, sp_main_v31]
  unfold Cert.KernelIdeal.Read.k_main_v106
  rfl

end Cert.SharedPrefix

end
-- ==== Proof.ValueEq.lean ====
/-
  The two programs end with equal results.

  From memories that agree on the five argument arrays, the reference's four results — its operations' composed terms of
  the argument arrays — are the kernel program's: the text-map loss because the eight tiles' accumulated sums are the
  whole arrays' sums; the box and confidence losses because a mean over rows of per-row means with non-negative weights
  is the weighted combination of the totals' means, the per-point terms being the same functions of the same gathered
  arrays on both sides; the total because it is the same combination of the three.
-/
import proofs.«167267_j69861938037475_1_alg».proof.Proof.KernelValues
import proofs.«167267_j69861938037475_1_alg».proof.Proof.RefRun
import proofs.«167267_j69861938037475_1_alg».proof.Proof.RefRead5
import proofs.«167267_j69861938037475_1_alg».proof.Proof.TextGlue
import proofs.«167267_j69861938037475_1_alg».proof.Proof.BoxGlue
import proofs.«167267_j69861938037475_1_alg».proof.Proof.KernelCols
import proofs.«167267_j69861938037475_1_alg».proof.Proof.KernelRead6
import proofs.«167267_j69861938037475_1_alg».proof.Proof.SharedPrefix

noncomputable section

namespace Cert.ValueEq

open Idealize.ShloMosaic Idealize.ShloMosaic.TcCoe

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)
  (c : Dev Cert.KernelIdeal.nD)

/-- The two memories hold the same five argument arrays on core `c`. -/
def Agree : Prop :=
  m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
  ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
  ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
  ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
  ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)

/-- The reference's launch contents on core `c`. -/
abbrev refV : Valuation Cert.ReferenceIdeal.τ Cert.ReferenceIdeal.sig (Elt Ideal) := fun b => m' (c, b)

theorem text_eq (h : Agree m m' c) :
    StableHlo.after (Cert.ReferenceIdeal.HandRun.ops (F := Ideal)) (refV m' c) (Proc.devRef .tc Cert.ReferenceIdeal.main_v29)
      = Cert.KernelIdeal.Gen.V20 m (Cert.KernelIdeal.Run.outs m) c Cert.KernelIdeal.main_v14 := by
  rw [Cert.ReferenceIdeal.HandRun.res_v29, Cert.KernelIdeal.Values.text]
  exact Cert.TextGlue.text_glue (refV m' c) (Cert.KernelIdeal.TextMap.tmP (Cert.KernelIdeal.Run.E0 m) c) (Cert.KernelIdeal.TextMap.tmT (Cert.KernelIdeal.Run.E0 m) c)
    h.1 h.2.2.2.1
    (Cert.KernelIdeal.TextMap.res0_2 (Cert.KernelIdeal.Run.E0 m) c) (Cert.KernelIdeal.TextMap.res0_3 (Cert.KernelIdeal.Run.E0 m) c)
    (Cert.KernelIdeal.TextMap.res0_4 (Cert.KernelIdeal.Run.E0 m) c) (Cert.KernelIdeal.TextMap.res0_5 (Cert.KernelIdeal.Run.E0 m) c)
    (fun j => Cert.KernelIdeal.TextMap.tm_bce (Cert.KernelIdeal.Run.E0 m) c Cert.KernelIdeal.TextMap.lt7 j)
    (fun j => Cert.KernelIdeal.TextMap.tm_inter (Cert.KernelIdeal.Run.E0 m) c Cert.KernelIdeal.TextMap.lt7 j)
    (fun j => Cert.KernelIdeal.TextMap.tm_psum (Cert.KernelIdeal.Run.E0 m) c Cert.KernelIdeal.TextMap.lt7 j)
    (fun j => Cert.KernelIdeal.TextMap.tm_tsum (Cert.KernelIdeal.Run.E0 m) c Cert.KernelIdeal.TextMap.lt7 j)

/-! ## The four gathered arrays agree

The predicted boxes and confidences gathered at the sample points, and the target boxes and confidences spread over them,
are computed by the same host operations of the argument arrays in both programs. -/

theorem leaf_gp (h : Agree m m' c) :
    Cert.ReferenceIdeal.HandRun.term_main_v108 (F := Ideal) (refV m' c)
      = Cert.KernelIdeal.Gen.V18 m (Cert.KernelIdeal.Run.outs1 m) c (Proc.devRef .tc Cert.KernelIdeal.main_v93) := by
  rw [Cert.SharedPrefix.sp_main_v108, Cert.KernelIdeal.Read.gp_eq m (Cert.KernelIdeal.Run.outs1 m) c]
  have e0 : refV m' c (Proc.devRef .tc Cert.ReferenceIdeal.main_arg0) = Cert.KernelIdeal.Gen.V0 m c (Proc.devRef .tc Cert.KernelIdeal.main_arg0) := h.1
  have e1 : refV m' c (Proc.devRef .tc Cert.ReferenceIdeal.main_arg1) = Cert.KernelIdeal.Gen.V0 m c (Proc.devRef .tc Cert.KernelIdeal.main_arg1) := h.2.1
  have e2 : refV m' c (Proc.devRef .tc Cert.ReferenceIdeal.main_arg2) = Cert.KernelIdeal.Gen.V0 m c (Proc.devRef .tc Cert.KernelIdeal.main_arg2) := h.2.2.1
  have e3 : refV m' c (Proc.devRef .tc Cert.ReferenceIdeal.main_arg3) = Cert.KernelIdeal.Gen.V0 m c (Proc.devRef .tc Cert.KernelIdeal.main_arg3) := h.2.2.2.1
  have e4 : refV m' c (Proc.devRef .tc Cert.ReferenceIdeal.main_arg4) = Cert.KernelIdeal.Gen.V0 m c (Proc.devRef .tc Cert.KernelIdeal.main_arg4) := h.2.2.2.2
  rw [e0, e1, e2, e3, e4]

theorem leaf_tb (h : Agree m m' c) :
    Cert.ReferenceIdeal.HandRun.term_main_v118 (F := Ideal) (refV m' c)
      = Cert.KernelIdeal.Gen.V18 m (Cert.KernelIdeal.Run.outs1 m) c (Proc.devRef .tc Cert.KernelIdeal.main_v103) := by
  rw [Cert.SharedPrefix.sp_main_v118, Cert.KernelIdeal.Read.tb_eq m (Cert.KernelIdeal.Run.outs1 m) c]
  have e0 : refV m' c (Proc.devRef .tc Cert.ReferenceIdeal.main_arg0) = Cert.KernelIdeal.Gen.V0 m c (Proc.devRef .tc Cert.KernelIdeal.main_arg0) := h.1
  have e1 : refV m' c (Proc.devRef .tc Cert.ReferenceIdeal.main_arg1) = Cert.KernelIdeal.Gen.V0 m c (Proc.devRef .tc Cert.KernelIdeal.main_arg1) := h.2.1
  have e2 : refV m' c (Proc.devRef .tc Cert.ReferenceIdeal.main_arg2) = Cert.KernelIdeal.Gen.V0 m c (Proc.devRef .tc Cert.KernelIdeal.main_arg2) := h.2.2.1
  have e3 : refV m' c (Proc.devRef .tc Cert.ReferenceIdeal.main_arg3) = Cert.KernelIdeal.Gen.V0 m c (Proc.devRef .tc Cert.KernelIdeal.main_arg3) := h.2.2.2.1
  have e4 : refV m' c (Proc.devRef .tc Cert.ReferenceIdeal.main_arg4) = Cert.KernelIdeal.Gen.V0 m c (Proc.devRef .tc Cert.KernelIdeal.main_arg4) := h.2.2.2.2
  rw [e0, e1, e2, e3, e4]

theorem leaf_gc (h : Agree m m' c) :
    Cert.ReferenceIdeal.HandRun.term_main_v110 (F := Ideal) (refV m' c)
      = Cert.KernelIdeal.Gen.V18 m (Cert.KernelIdeal.Run.outs1 m) c (Proc.devRef .tc Cert.KernelIdeal.main_v95) := by
  rw [Cert.SharedPrefix.sp_main_v110, Cert.KernelIdeal.Read.gc_eq m (Cert.KernelIdeal.Run.outs1 m) c]
  have e0 : refV m' c (Proc.devRef .tc Cert.ReferenceIdeal.main_arg0) = Cert.KernelIdeal.Gen.V0 m c (Proc.devRef .tc Cert.KernelIdeal.main_arg0) := h.1
  have e1 : refV m' c (Proc.devRef .tc Cert.ReferenceIdeal.main_arg1) = Cert.KernelIdeal.Gen.V0 m c (Proc.devRef .tc Cert.KernelIdeal.main_arg1) := h.2.1
  have e2 : refV m' c (Proc.devRef .tc Cert.ReferenceIdeal.main_arg2) = Cert.KernelIdeal.Gen.V0 m c (Proc.devRef .tc Cert.KernelIdeal.main_arg2) := h.2.2.1
  have e3 : refV m' c (Proc.devRef .tc Cert.ReferenceIdeal.main_arg3) = Cert.KernelIdeal.Gen.V0 m c (Proc.devRef .tc Cert.KernelIdeal.main_arg3) := h.2.2.2.1
  have e4 : refV m' c (Proc.devRef .tc Cert.ReferenceIdeal.main_arg4) = Cert.KernelIdeal.Gen.V0 m c (Proc.devRef .tc Cert.KernelIdeal.main_arg4) := h.2.2.2.2
  rw [e0, e1, e2, e3, e4]

theorem leaf_tc (h : Agree m m' c) :
    Cert.ReferenceIdeal.HandRun.term_main_v121 (F := Ideal) (refV m' c)
      = Cert.KernelIdeal.Gen.V18 m (Cert.KernelIdeal.Run.outs1 m) c (Proc.devRef .tc Cert.KernelIdeal.main_v106) := by
  rw [Cert.SharedPrefix.sp_main_v121, Cert.KernelIdeal.Read.tc_eq m (Cert.KernelIdeal.Run.outs1 m) c]
  have e0 : refV m' c (Proc.devRef .tc Cert.ReferenceIdeal.main_arg0) = Cert.KernelIdeal.Gen.V0 m c (Proc.devRef .tc Cert.KernelIdeal.main_arg0) := h.1
  have e1 : refV m' c (Proc.devRef .tc Cert.ReferenceIdeal.main_arg1) = Cert.KernelIdeal.Gen.V0 m c (Proc.devRef .tc Cert.KernelIdeal.main_arg1) := h.2.1
  have e2 : refV m' c (Proc.devRef .tc Cert.ReferenceIdeal.main_arg2) = Cert.KernelIdeal.Gen.V0 m c (Proc.devRef .tc Cert.KernelIdeal.main_arg2) := h.2.2.1
  have e3 : refV m' c (Proc.devRef .tc Cert.ReferenceIdeal.main_arg3) = Cert.KernelIdeal.Gen.V0 m c (Proc.devRef .tc Cert.KernelIdeal.main_arg3) := h.2.2.2.1
  have e4 : refV m' c (Proc.devRef .tc Cert.ReferenceIdeal.main_arg4) = Cert.KernelIdeal.Gen.V0 m c (Proc.devRef .tc Cert.KernelIdeal.main_arg4) := h.2.2.2.2
  rw [e0, e1, e2, e3, e4]

/-- The second reduction's ten window arrays are the four columns of the gathered predicted boxes, the four columns of the
    target boxes, the gathered confidences and the target confidences. -/
theorem windows :
    Cert.KernelIdeal.BoxConf.arr1_0 (Cert.KernelIdeal.Run.E18 m) c = Cert.BoxGlue.col0 (Cert.KernelIdeal.Gen.V18 m (Cert.KernelIdeal.Run.outs1 m) c (Proc.devRef .tc Cert.KernelIdeal.main_v93))
    ∧ Cert.KernelIdeal.BoxConf.arr1_1 (Cert.KernelIdeal.Run.E18 m) c = Cert.BoxGlue.col1 (Cert.KernelIdeal.Gen.V18 m (Cert.KernelIdeal.Run.outs1 m) c (Proc.devRef .tc Cert.KernelIdeal.main_v93))
    ∧ Cert.KernelIdeal.BoxConf.arr1_2 (Cert.KernelIdeal.Run.E18 m) c = Cert.BoxGlue.col2 (Cert.KernelIdeal.Gen.V18 m (Cert.KernelIdeal.Run.outs1 m) c (Proc.devRef .tc Cert.KernelIdeal.main_v93))
    ∧ Cert.KernelIdeal.BoxConf.arr1_3 (Cert.KernelIdeal.Run.E18 m) c = Cert.BoxGlue.col3 (Cert.KernelIdeal.Gen.V18 m (Cert.KernelIdeal.Run.outs1 m) c (Proc.devRef .tc Cert.KernelIdeal.main_v93))
    ∧ Cert.KernelIdeal.BoxConf.arr1_4 (Cert.KernelIdeal.Run.E18 m) c = Cert.BoxGlue.col0 (Cert.KernelIdeal.Gen.V18 m (Cert.KernelIdeal.Run.outs1 m) c (Proc.devRef .tc Cert.KernelIdeal.main_v103))
    ∧ Cert.KernelIdeal.BoxConf.arr1_5 (Cert.KernelIdeal.Run.E18 m) c = Cert.BoxGlue.col1 (Cert.KernelIdeal.Gen.V18 m (Cert.KernelIdeal.Run.outs1 m) c (Proc.devRef .tc Cert.KernelIdeal.main_v103))
    ∧ Cert.KernelIdeal.BoxConf.arr1_6 (Cert.KernelIdeal.Run.E18 m) c = Cert.BoxGlue.col2 (Cert.KernelIdeal.Gen.V18 m (Cert.KernelIdeal.Run.outs1 m) c (Proc.devRef .tc Cert.KernelIdeal.main_v103))
    ∧ Cert.KernelIdeal.BoxConf.arr1_7 (Cert.KernelIdeal.Run.E18 m) c = Cert.BoxGlue.col3 (Cert.KernelIdeal.Gen.V18 m (Cert.KernelIdeal.Run.outs1 m) c (Proc.devRef .tc Cert.KernelIdeal.main_v103))
    ∧ Cert.KernelIdeal.BoxConf.arr1_8 (Cert.KernelIdeal.Run.E18 m) c = Cert.KernelIdeal.Gen.V18 m (Cert.KernelIdeal.Run.outs1 m) c (Proc.devRef .tc Cert.KernelIdeal.main_v95)
    ∧ Cert.KernelIdeal.BoxConf.arr1_9 (Cert.KernelIdeal.Run.E18 m) c = Cert.KernelIdeal.Gen.V18 m (Cert.KernelIdeal.Run.outs1 m) c (Proc.devRef .tc Cert.KernelIdeal.main_v106) :=
  ⟨Cert.KernelIdeal.Cols.col_v108 m (Cert.KernelIdeal.Run.outs1 m) c, Cert.KernelIdeal.Cols.col_v110 m (Cert.KernelIdeal.Run.outs1 m) c, Cert.KernelIdeal.Cols.col_v112 m (Cert.KernelIdeal.Run.outs1 m) c,
   Cert.KernelIdeal.Cols.col_v114 m (Cert.KernelIdeal.Run.outs1 m) c, Cert.KernelIdeal.Cols.col_v116 m (Cert.KernelIdeal.Run.outs1 m) c, Cert.KernelIdeal.Cols.col_v118 m (Cert.KernelIdeal.Run.outs1 m) c,
   Cert.KernelIdeal.Cols.col_v120 m (Cert.KernelIdeal.Run.outs1 m) c, Cert.KernelIdeal.Cols.col_v122 m (Cert.KernelIdeal.Run.outs1 m) c, rfl, rfl⟩

theorem box_eq (h : Agree m m' c) :
    StableHlo.after (Cert.ReferenceIdeal.HandRun.ops (F := Ideal)) (refV m' c) (Proc.devRef .tc Cert.ReferenceIdeal.main_v225)
      = Cert.KernelIdeal.Gen.V20 m (Cert.KernelIdeal.Run.outs m) c Cert.KernelIdeal.main_v134 := by
  obtain ⟨w0, w1, w2, w3, w4, w5, w6, w7, w8, w9⟩ := windows m c
  rw [Cert.ReferenceIdeal.HandRun.res_v225, Cert.KernelIdeal.Values.box, Cert.KernelIdeal.Values.v123_0, Cert.KernelIdeal.Values.v123_1, Cert.KernelIdeal.Values.v123_2,
    w0, w1, w2, w3, w4, w5, w6, w7, w8, w9]
  exact Cert.BoxGlue.box_glue (refV m' c) _ _ _ _ (leaf_gp m m' c h) (leaf_tb m m' c h) (leaf_gc m m' c h) (leaf_tc m m' c h)

theorem conf_eq (h : Agree m m' c) :
    StableHlo.after (Cert.ReferenceIdeal.HandRun.ops (F := Ideal)) (refV m' c) (Proc.devRef .tc Cert.ReferenceIdeal.main_v243)
      = Cert.KernelIdeal.Gen.V20 m (Cert.KernelIdeal.Run.outs m) c Cert.KernelIdeal.main_v136 := by
  obtain ⟨w0, w1, w2, w3, w4, w5, w6, w7, w8, w9⟩ := windows m c
  rw [Cert.ReferenceIdeal.HandRun.res_v243, Cert.KernelIdeal.Values.conf, Cert.KernelIdeal.Values.v123_3, w0, w1, w2, w3, w4, w5, w6, w7, w8, w9]
  exact Cert.BoxGlue.conf_glue (refV m' c) _ _ _ _ (leaf_gp m m' c h) (leaf_tb m m' c h) (leaf_gc m m' c h) (leaf_tc m m' c h)

theorem total_eq (h : Agree m m' c) :
    StableHlo.after (Cert.ReferenceIdeal.HandRun.ops (F := Ideal)) (refV m' c) (Proc.devRef .tc Cert.ReferenceIdeal.main_v248)
      = Cert.KernelIdeal.Gen.V20 m (Cert.KernelIdeal.Run.outs m) c Cert.KernelIdeal.main_v141 := by
  rw [Cert.ReferenceIdeal.HandRun.res_v248, Cert.KernelIdeal.Values.total, ← text_eq m m' c h, ← box_eq m m' c h, ← conf_eq m m' c h,
    Cert.ReferenceIdeal.HandRun.res_v29, Cert.ReferenceIdeal.HandRun.res_v225, Cert.ReferenceIdeal.HandRun.res_v243]
  rfl

end Cert.ValueEq

end
-- ==== Proof.lean ====
/-
  The certificate: the kernel program (a text-map cross-entropy / Dice reduction accumulated over eight tiles of the batch,
  a gather of predicted boxes at five sample points per target box, and an IoU / GIoU / smooth-L1 / cross-entropy reduction
  over the gathered points, the two reductions as accelerator kernels and the rest on the host) against its plain reference.

  The three frames: each program runs to the end without a fault and leaves its five argument arrays as launched — the kernel
  program's from its run through the twenty items of @main (two kernel regions, eighteen stretches of host operations), at
  the word level and at the ideal instance alike; the reference's from its run as one list of host operations.
  The idealization rewrote nothing, so it preserves the program trivially.
  At the ideal instance the two programs end with equal results: sums regroup freely on the extended reals, and a
  non-negative real weight distributes over every sum, so the kernel's totals over all rows divided once are the reference's
  means over rows of per-row means; the per-element terms are the same functions of the same arrays on both sides.
-/
import proofs.«167267_j69861938037475_1_alg».proof.Defs
import proofs.«167267_j69861938037475_1_alg».proof.Proof.Gen.Kernel
import proofs.«167267_j69861938037475_1_alg».proof.Proof.Gen.KernelIdeal
import proofs.«167267_j69861938037475_1_alg».proof.Proof.Gen.ReferenceIdeal
import proofs.«167267_j69861938037475_1_alg».proof.Proof.Gen.Pre_finite_inputs
import proofs.«167267_j69861938037475_1_alg».proof.Proof.KernelRunBits
import proofs.«167267_j69861938037475_1_alg».proof.Proof.KernelRunIdeal
import proofs.«167267_j69861938037475_1_alg».proof.Proof.RefRun
import proofs.«167267_j69861938037475_1_alg».proof.Proof.ValueEq
import Idealize.ShloMosaic.Adequacy
import Idealize.ShloMosaic.Init

noncomputable section

namespace Cert.Proof

open Idealize.ShloMosaic Idealize.ShloMosaic.TcCoe Idealize.SL.Sem

/-- The word-level kernel program runs and keeps its arguments. -/
theorem frame_k : Cert.frame_Kernel := fun m ρ _ =>
  (θ_run Cert.Kernel.defs _ _).mono (fun r h c =>
    ⟨(h c (Proc.devRef .tc Cert.Kernel.main_arg0) (Finset.mem_filter.mpr ⟨StableHlo.devRef_mem_tcRefs Cert.Kernel.main_arg0, by decide⟩)).trans (Cert.Kernel.Gen.V20_main_arg0 m _ c),
     (h c (Proc.devRef .tc Cert.Kernel.main_arg1) (Finset.mem_filter.mpr ⟨StableHlo.devRef_mem_tcRefs Cert.Kernel.main_arg1, by decide⟩)).trans (Cert.Kernel.Gen.V20_main_arg1 m _ c),
     (h c (Proc.devRef .tc Cert.Kernel.main_arg2) (Finset.mem_filter.mpr ⟨StableHlo.devRef_mem_tcRefs Cert.Kernel.main_arg2, by decide⟩)).trans (Cert.Kernel.Gen.V20_main_arg2 m _ c),
     (h c (Proc.devRef .tc Cert.Kernel.main_arg3) (Finset.mem_filter.mpr ⟨StableHlo.devRef_mem_tcRefs Cert.Kernel.main_arg3, by decide⟩)).trans (Cert.Kernel.Gen.V20_main_arg3 m _ c),
     (h c (Proc.devRef .tc Cert.Kernel.main_arg4) (Finset.mem_filter.mpr ⟨StableHlo.devRef_mem_tcRefs Cert.Kernel.main_arg4, by decide⟩)).trans (Cert.Kernel.Gen.V20_main_arg4 m _ c)⟩)
    (Cert.Kernel.Run.run_all (F := Bits) m ρ)

/-- The idealized kernel program runs and keeps its arguments. -/
theorem frame_ki : Cert.frame_KernelIdeal := fun m ρ _ =>
  (θ_run Cert.KernelIdeal.defs _ _).mono (fun r h c =>
    ⟨(h c (Proc.devRef .tc Cert.KernelIdeal.main_arg0) (Finset.mem_filter.mpr ⟨StableHlo.devRef_mem_tcRefs Cert.KernelIdeal.main_arg0, by decide⟩)).trans (Cert.KernelIdeal.Gen.V20_main_arg0 m _ c),
     (h c (Proc.devRef .tc Cert.KernelIdeal.main_arg1) (Finset.mem_filter.mpr ⟨StableHlo.devRef_mem_tcRefs Cert.KernelIdeal.main_arg1, by decide⟩)).trans (Cert.KernelIdeal.Gen.V20_main_arg1 m _ c),
     (h c (Proc.devRef .tc Cert.KernelIdeal.main_arg2) (Finset.mem_filter.mpr ⟨StableHlo.devRef_mem_tcRefs Cert.KernelIdeal.main_arg2, by decide⟩)).trans (Cert.KernelIdeal.Gen.V20_main_arg2 m _ c),
     (h c (Proc.devRef .tc Cert.KernelIdeal.main_arg3) (Finset.mem_filter.mpr ⟨StableHlo.devRef_mem_tcRefs Cert.KernelIdeal.main_arg3, by decide⟩)).trans (Cert.KernelIdeal.Gen.V20_main_arg3 m _ c),
     (h c (Proc.devRef .tc Cert.KernelIdeal.main_arg4) (Finset.mem_filter.mpr ⟨StableHlo.devRef_mem_tcRefs Cert.KernelIdeal.main_arg4, by decide⟩)).trans (Cert.KernelIdeal.Gen.V20_main_arg4 m _ c)⟩)
    (Cert.KernelIdeal.Run.run_all (F := Ideal) m ρ)

/-- The idealized reference runs and keeps its arguments. -/
theorem frame_ri : Cert.frame_ReferenceIdeal := fun m ρ _ =>
  (θ_run Cert.ReferenceIdeal.defs _ _).mono (fun _ h c => (h c).2) (Cert.ReferenceIdeal.HandRun.run (F := Ideal) m ρ)

/-- The ideal pass rewrote no operation. -/
theorem preserves : Cert.preserves_Kernel_KernelIdeal := trivial

/-- From memories agreeing on the arguments both programs run and end with the same four results. -/
theorem algebraic : Cert.algebraic_KernelIdeal_ReferenceIdeal := by
  intro m ρ m' ρ' _ hagree
  refine ⟨fun c => Cert.KernelIdeal.Gen.V20 m (Cert.KernelIdeal.Run.outs m) c Cert.KernelIdeal.main_v141,
    fun c => Cert.KernelIdeal.Gen.V20 m (Cert.KernelIdeal.Run.outs m) c Cert.KernelIdeal.main_v14,
    fun c => Cert.KernelIdeal.Gen.V20 m (Cert.KernelIdeal.Run.outs m) c Cert.KernelIdeal.main_v134,
    fun c => Cert.KernelIdeal.Gen.V20 m (Cert.KernelIdeal.Run.outs m) c Cert.KernelIdeal.main_v136, ?_, ?_⟩
  · refine (θ_run Cert.KernelIdeal.defs _ _).mono (fun r h c => ?_) (Cert.KernelIdeal.Run.run_all (F := Ideal) m ρ)
    exact ⟨h c (Proc.devRef .tc Cert.KernelIdeal.main_v141) (Finset.mem_filter.mpr ⟨StableHlo.devRef_mem_tcRefs Cert.KernelIdeal.main_v141, by decide⟩),
      h c (Proc.devRef .tc Cert.KernelIdeal.main_v14) (Finset.mem_filter.mpr ⟨StableHlo.devRef_mem_tcRefs Cert.KernelIdeal.main_v14, by decide⟩),
      h c (Proc.devRef .tc Cert.KernelIdeal.main_v134) (Finset.mem_filter.mpr ⟨StableHlo.devRef_mem_tcRefs Cert.KernelIdeal.main_v134, by decide⟩),
      h c (Proc.devRef .tc Cert.KernelIdeal.main_v136) (Finset.mem_filter.mpr ⟨StableHlo.devRef_mem_tcRefs Cert.KernelIdeal.main_v136, by decide⟩),
      (h c (Proc.devRef .tc Cert.KernelIdeal.main_arg0) (Finset.mem_filter.mpr ⟨StableHlo.devRef_mem_tcRefs Cert.KernelIdeal.main_arg0, by decide⟩)).trans (Cert.KernelIdeal.Gen.V20_main_arg0 m _ c),
      (h c (Proc.devRef .tc Cert.KernelIdeal.main_arg1) (Finset.mem_filter.mpr ⟨StableHlo.devRef_mem_tcRefs Cert.KernelIdeal.main_arg1, by decide⟩)).trans (Cert.KernelIdeal.Gen.V20_main_arg1 m _ c),
      (h c (Proc.devRef .tc Cert.KernelIdeal.main_arg2) (Finset.mem_filter.mpr ⟨StableHlo.devRef_mem_tcRefs Cert.KernelIdeal.main_arg2, by decide⟩)).trans (Cert.KernelIdeal.Gen.V20_main_arg2 m _ c),
      (h c (Proc.devRef .tc Cert.KernelIdeal.main_arg3) (Finset.mem_filter.mpr ⟨StableHlo.devRef_mem_tcRefs Cert.KernelIdeal.main_arg3, by decide⟩)).trans (Cert.KernelIdeal.Gen.V20_main_arg3 m _ c),
      (h c (Proc.devRef .tc Cert.KernelIdeal.main_arg4) (Finset.mem_filter.mpr ⟨StableHlo.devRef_mem_tcRefs Cert.KernelIdeal.main_arg4, by decide⟩)).trans (Cert.KernelIdeal.Gen.V20_main_arg4 m _ c)⟩
  · refine (θ_run Cert.ReferenceIdeal.defs _ _).mono (fun r h c => ?_) (Cert.ReferenceIdeal.HandRun.run (F := Ideal) m' ρ')
    have ha : Cert.ValueEq.Agree m m' c := hagree c
    exact ⟨((h c).1.1).trans (Cert.ValueEq.total_eq m m' c ha),
      ((h c).1.2.1).trans (Cert.ValueEq.text_eq m m' c ha),
      ((h c).1.2.2.1).trans (Cert.ValueEq.box_eq m m' c ha),
      ((h c).1.2.2.2).trans (Cert.ValueEq.conf_eq m m' c ha),
      (h c).2.1, (h c).2.2.1, (h c).2.2.2.1, (h c).2.2.2.2.1, (h c).2.2.2.2.2⟩

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
